-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S800000x16 : Shape := ⟨2, ![800000, 16]⟩
abbrev S100000 : Shape := ⟨1, ![100000]⟩
abbrev S1024x10 : Shape := ⟨2, ![1024, 10]⟩
abbrev S3x128x128 : Shape := ⟨3, ![3, 128, 128]⟩
abbrev S3x16x128 : Shape := ⟨3, ![3, 16, 128]⟩
abbrev S3x128 : Shape := ⟨2, ![3, 128]⟩
abbrev S138x256 : Shape := ⟨2, ![138, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S1024x10 : S_.BroadcastsInDim S1024x10 (![] : Fin 0 → Fin S1024x10.rank)
  reducesTo_S1024x10_S_d0_1 : S1024x10.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x16x128 : S_.BroadcastsInDim S3x16x128 (![] : Fin 0 → Fin S3x16x128.rank)
  reducesTo_S3x16x128_S_d0_1_2 : S3x16x128.ReducesTo [0, 1, 2] S_
  bcast_S_S3x128 : S_.BroadcastsInDim S3x128 (![] : Fin 0 → Fin S3x128.rank)
  reducesTo_S3x128_S_d0_1 : S3x128.ReducesTo [0, 1] S_
  bcast_S_S138x256 : S_.BroadcastsInDim S138x256 (![] : Fin 0 → Fin S138x256.rank)
  reducesTo_S138x256_S_d0_1 : S138x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S256x10 .f32) (main_v50 : FVec F S256x10 .f32) : IVec S_ 1 :=
  let main_v51 : IVec S256x10 1 := cmpf .olt main_v49 main_v50
  let main_c_19 : IVec S_ 1 := constantI S_ 1 1#1
  let main_v52 : IVec S_ 1 := (fun x v => Host.reduce IntOp.andi x v reducesTo_S256x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S3x128 .f32) (main_arg10 : FVec F S138x256 .f32) (main_arg11 : FVec F S256 .f32) (main_arg12 : FVec F S256x10 .f32) (main_arg13 : FVec F S10 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S138x256 .f32 := Host.absf main_arg10
  let main_cst_14 : FVec F S_ .f32 := constant S_ .f32 0x7F800000#32
  let main_v40 : FVec F S138x256 .f32 := broadcastInDim S138x256 ![] bcast_S_S138x256 main_cst_14
  let main_v41 : IVec S138x256 1 := cmpf .olt main_v39 main_v40
  let main_c_15 : IVec S_ 1 := constantI S_ 1 1#1
  let main_v42 : IVec S_ 1 := (fun x v => Host.reduce IntOp.andi x v reducesTo_S138x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x10 .f32 := Host.absf main_arg12
  let main_cst_18 : FVec F S_ .f32 := constant S_ .f32 0x7F800000#32
  let main_v50 : FVec F S256x10 .f32 := broadcastInDim S256x10 ![] bcast_S_S256x10 main_cst_18
  fn_part3 (F := F) main_arg13 main_v48 main_v49 main_v50

def fn_part1 {F : FTy → Type} [FloatOps F] (main_arg6 : FVec F S3x16x128 .f32) (main_arg7 : FVec F S3x128 .f32) (main_arg8 : FVec F S3x128 .f32) (main_arg9 : FVec F S3x128 .f32) (main_arg10 : FVec F S138x256 .f32) (main_arg11 : FVec F S256 .f32) (main_arg12 : FVec F S256x10 .f32) (main_arg13 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x16x128 .f32 := Host.absf main_arg6
  let main_cst_6 : FVec F S_ .f32 := constant S_ .f32 0x7F800000#32
  let main_v20 : FVec F S3x16x128 .f32 := broadcastInDim S3x16x128 ![] bcast_S_S3x16x128 main_cst_6
  let main_v21 : IVec S3x16x128 1 := cmpf .olt main_v19 main_v20
  let main_c_7 : IVec S_ 1 := constantI S_ 1 1#1
  let main_v22 : IVec S_ 1 := (fun x v => Host.reduce IntOp.andi x v reducesTo_S3x16x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x800000 32) (main_arg2 : FVec F S800000x16 .f32) (main_arg3 : IVec S100000 32) (main_arg4 : FVec F S1024x10 .f32) (main_arg5 : FVec F S3x128x128 .f32) (main_arg6 : FVec F S3x16x128 .f32) (main_arg7 : FVec F S3x128 .f32) (main_arg8 : FVec F S3x128 .f32) (main_arg9 : FVec F S3x128 .f32) (main_arg10 : FVec F S138x256 .f32) (main_arg11 : FVec F S256 .f32) (main_arg12 : FVec F S256x10 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S1024x10 .f32 := Host.absf main_arg4
  let main_cst_2 : FVec F S_ .f32 := constant S_ .f32 0x7F800000#32
  let main_v10 : FVec F S1024x10 .f32 := broadcastInDim S1024x10 ![] bcast_S_S1024x10 main_cst_2
  let main_v11 : IVec S1024x10 1 := cmpf .olt main_v9 main_v10
  let main_c_3 : IVec S_ 1 := constantI S_ 1 1#1
  let main_v12 : IVec S_ 1 := (fun x v => Host.reduce IntOp.andi x v reducesTo_S1024x10_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x800000 : Shape := ⟨2, ![2, 800000]⟩
abbrev S800000x16 : Shape := ⟨2, ![800000, 16]⟩
abbrev S100000 : Shape := ⟨1, ![100000]⟩
abbrev S1024x10 : Shape := ⟨2, ![1024, 10]⟩
abbrev S3x128x128 : Shape := ⟨3, ![3, 128, 128]⟩
abbrev S3x16x128 : Shape := ⟨3, ![3, 16, 128]⟩
abbrev S3x128 : Shape := ⟨2, ![3, 128]⟩
abbrev S138x256 : Shape := ⟨2, ![138, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S1x128 : Shape := ⟨2, ![1, 128]⟩
abbrev S128 : Shape := ⟨1, ![128]⟩
abbrev S8000x128 : Shape := ⟨2, ![8000, 128]⟩
abbrev S8000x16 : Shape := ⟨2, ![8000, 16]⟩
abbrev S10000x128 : Shape := ⟨2, ![10000, 128]⟩
abbrev S1024x128 : Shape := ⟨2, ![1024, 128]⟩
abbrev S100000x1 : Shape := ⟨2, ![100000, 1]⟩
abbrev S128x256 : Shape := ⟨2, ![128, 256]⟩
abbrev S10x256 : Shape := ⟨2, ![10, 256]⟩
abbrev S1x256 : Shape := ⟨2, ![1, 256]⟩
abbrev S1x10 : Shape := ⟨2, ![1, 10]⟩
abbrev S1024x256 : Shape := ⟨2, ![1024, 256]⟩
abbrev S1024 : Shape := ⟨1, ![1024]⟩
abbrev S1024x1 : Shape := ⟨2, ![1024, 1]⟩

abbrev nBuf : Space → Nat
  | .hbm => 141
  | .vmem => 77
  | .smem => 0
  | _ => 0

abbrev hbmTy0_0 (i : Nat) : BufTy := match i % 128 with
  | 0 => ⟨S100000x128, .f32⟩
  | 1 => ⟨S2x800000, .i32⟩
  | 2 => ⟨S800000x16, .f32⟩
  | 3 => ⟨S100000, .i32⟩
  | 4 => ⟨S1024x10, .f32⟩
  | 5 => ⟨S3x128x128, .f32⟩
  | 6 => ⟨S3x16x128, .f32⟩
  | 7 => ⟨S3x128, .f32⟩
  | 8 => ⟨S3x128, .f32⟩
  | 9 => ⟨S3x128, .f32⟩
  | 10 => ⟨S138x256, .f32⟩
  | 11 => ⟨S256, .f32⟩
  | 12 => ⟨S256x10, .f32⟩
  | 13 => ⟨S10, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S1x128x128, .f32⟩
  | 28 => ⟨S128x128, .f32⟩
  | 29 => ⟨S1x16x128, .f32⟩
  | 30 => ⟨S16x128, .f32⟩
  | 31 => ⟨S1x128, .f32⟩
  | 32 => ⟨S128, .f32⟩
  | 33 => ⟨S1x128, .f32⟩
  | 34 => ⟨S800000x128, .f32⟩
  | 35 => ⟨S_, .f32⟩
  | 36 => ⟨S100000x128, .f32⟩
  | 37 => ⟨S800000x1, .i32⟩
  | 38 => ⟨S100000x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S1x128, .f32⟩
  | 55 => ⟨S100000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S1x128x128, .f32⟩
  | 66 => ⟨S128x128, .f32⟩
  | 67 => ⟨S1x16x128, .f32⟩
  | 68 => ⟨S16x128, .f32⟩
  | 69 => ⟨S1x128, .f32⟩
  | 70 => ⟨S128, .f32⟩
  | 71 => ⟨S1x128, .f32⟩
  | 72 => ⟨S800000x128, .f32⟩
  | 73 => ⟨S_, .f32⟩
  | 74 => ⟨S100000x128, .f32⟩
  | 75 => ⟨S800000x1, .i32⟩
  | 76 => ⟨S100000x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S1x128, .f32⟩
  | 93 => ⟨S100000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S1x128x128, .f32⟩
  | 104 => ⟨S128x128, .f32⟩
  | 105 => ⟨S1x16x128, .f32⟩
  | 106 => ⟨S16x128, .f32⟩
  | 107 => ⟨S1x128, .f32⟩
  | 108 => ⟨S128, .f32⟩
  | 109 => ⟨S1x128, .f32⟩
  | 110 => ⟨S800000x128, .f32⟩
  | 111 => ⟨S_, .f32⟩
  | 112 => ⟨S100000x128, .f32⟩
  | 113 => ⟨S800000x1, .i32⟩
  | 114 => ⟨S100000x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S1x128, .f32⟩
  | 3 => ⟨S100000x128, .f32⟩
  | 4 => ⟨S_, .f32⟩
  | 5 => ⟨S1024x128, .f32⟩
  | 6 => ⟨S100000x1, .i32⟩
  | 7 => ⟨S1024x128, .f32⟩
  | 8 => ⟨S128x256, .f32⟩
  | 9 => ⟨S10x256, .f32⟩
  | 10 => ⟨S1x256, .f32⟩
  | 11 => ⟨S1x10, .f32⟩
  | 12 => ⟨S1024x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x16, .f32⟩
  | .local _ .vmem, ⟨3, _⟩ => ⟨S8000x16, .f32⟩
  | .local _ .vmem, ⟨4, _⟩ => ⟨S128x128, .f32⟩
  | .local _ .vmem, ⟨5, _⟩ => ⟨S16x128, .f32⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | .local _ .vmem, ⟨9, _⟩ => ⟨S10000x128, .f32⟩
  | .local _ .vmem, ⟨10, _⟩ => ⟨S10000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S10000x128, .f32⟩
  | .local _ .vmem, ⟨22, _⟩ => ⟨S10000x128, .f32⟩
  | .local _ .vmem, ⟨23, _⟩ => ⟨S8000x128, .f32⟩
  | .local _ .vmem, ⟨24, _⟩ => ⟨S8000x128, .f32⟩
  | .local _ .vmem, ⟨25, _⟩ => ⟨S8000x16, .f32⟩
  | .local _ .vmem, ⟨26, _⟩ => ⟨S8000x16, .f32⟩
  | .local _ .vmem, ⟨27, _⟩ => ⟨S128x128, .f32⟩
  | .local _ .vmem, ⟨28, _⟩ => ⟨S16x128, .f32⟩
  | .local _ .vmem, ⟨29, _⟩ => ⟨S1x128, .f32⟩
  | .local _ .vmem, ⟨30, _⟩ => ⟨S8000x128, .f32⟩
  | .local _ .vmem, ⟨31, _⟩ => ⟨S8000x128, .f32⟩
  | .local _ .vmem, ⟨32, _⟩ => ⟨S10000x128, .f32⟩
  | .local _ .vmem, ⟨33, _⟩ => ⟨S10000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S10000x128, .f32⟩
  | .local _ .vmem, ⟨45, _⟩ => ⟨S10000x128, .f32⟩
  | .local _ .vmem, ⟨46, _⟩ => ⟨S8000x128, .f32⟩
  | .local _ .vmem, ⟨47, _⟩ => ⟨S8000x128, .f32⟩
  | .local _ .vmem, ⟨48, _⟩ => ⟨S8000x16, .f32⟩
  | .local _ .vmem, ⟨49, _⟩ => ⟨S8000x16, .f32⟩
  | .local _ .vmem, ⟨50, _⟩ => ⟨S128x128, .f32⟩
  | .local _ .vmem, ⟨51, _⟩ => ⟨S16x128, .f32⟩
  | .local _ .vmem, ⟨52, _⟩ => ⟨S1x128, .f32⟩
  | .local _ .vmem, ⟨53, _⟩ => ⟨S8000x128, .f32⟩
  | .local _ .vmem, ⟨54, _⟩ => ⟨S8000x128, .f32⟩
  | .local _ .vmem, ⟨55, _⟩ => ⟨S10000x128, .f32⟩
  | .local _ .vmem, ⟨56, _⟩ => ⟨S10000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S10000x128, .f32⟩
  | .local _ .vmem, ⟨62, _⟩ => ⟨S10000x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S10000x128, .f32⟩
  | .local _ .vmem, ⟨68, _⟩ => ⟨S10000x128, .f32⟩
  | .local _ .vmem, ⟨69, _⟩ => ⟨S1024x128, .f32⟩
  | .local _ .vmem, ⟨70, _⟩ => ⟨S1024x10, .f32⟩
  | .local _ .vmem, ⟨71, _⟩ => ⟨S128x256, .f32⟩
  | .local _ .vmem, ⟨72, _⟩ => ⟨S10x256, .f32⟩
  | .local _ .vmem, ⟨73, _⟩ => ⟨S1x256, .f32⟩
  | .local _ .vmem, ⟨74, _⟩ => ⟨S256x10, .f32⟩
  | .local _ .vmem, ⟨75, _⟩ => ⟨S1x10, .f32⟩
  | .local _ .vmem, ⟨76, _⟩ => ⟨S1024x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_3 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54_0 : Ref sig .tc := ⟨.hbm, 77, rfl⟩
abbrev main_v54_1 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_8 : Ref sig .tc := ⟨.hbm, 94, rfl⟩
abbrev main_v68 : Ref sig .tc := ⟨.hbm, 95, rfl⟩
abbrev main_v69 : Ref sig .tc := ⟨.hbm, 96, rfl⟩
abbrev main_c_9 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_10 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86_0 : Ref sig .tc := ⟨.hbm, 115, rfl⟩
abbrev main_v86_1 : Ref sig .tc := ⟨.hbm, 116, rfl⟩
abbrev main_cst_11 : Ref sig .tc := ⟨.hbm, 117, rfl⟩
abbrev main_v87 : Ref sig .tc := ⟨.hbm, 118, rfl⟩
abbrev main_v88 : Ref sig .tc := ⟨.hbm, 119, rfl⟩
abbrev main_cst_12 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_13 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_scratch0 : Ref sig .tc := ⟨.vmem, 36, rfl⟩
abbrev cc4_scratch1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg5_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg2_0 : Ref sig .tc := ⟨.vmem, 58, rfl⟩
abbrev cc7_scratch0 : Ref sig .tc := ⟨.vmem, 59, rfl⟩
abbrev cc7_scratch1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg5_0 : Ref sig .tc := ⟨.vmem, 67, rfl⟩
abbrev cc8_stg5_1 : Ref sig .tc := ⟨.vmem, 68, rfl⟩
abbrev cc9_stg0_0 : Ref sig .tc := ⟨.vmem, 69, rfl⟩
abbrev cc9_stg1_0 : Ref sig .tc := ⟨.vmem, 70, rfl⟩
abbrev cc9_stg2_0 : Ref sig .tc := ⟨.vmem, 71, rfl⟩
abbrev cc9_stg3_0 : Ref sig .tc := ⟨.vmem, 72, rfl⟩
abbrev cc9_stg4_0 : Ref sig .tc := ⟨.vmem, 73, rfl⟩
abbrev cc9_stg5_0 : Ref sig .tc := ⟨.vmem, 74, rfl⟩
abbrev cc9_stg6_0 : Ref sig .tc := ⟨.vmem, 75, rfl⟩
abbrev cc9_stg7_0 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc8_sem0_0 : DmaSem sig := 55
abbrev cc8_sem0_1 : DmaSem sig := 56
abbrev cc8_sem1_0 : DmaSem sig := 57
abbrev cc8_sem2_0 : DmaSem sig := 58
abbrev cc8_sem3_0 : DmaSem sig := 59
abbrev cc8_sem4_0 : DmaSem sig := 60
abbrev cc8_sem5_0 : DmaSem sig := 61
abbrev cc8_sem5_1 : DmaSem sig := 62
abbrev cc9_sem0_0 : DmaSem sig := 63
abbrev cc9_sem1_0 : DmaSem sig := 64
abbrev cc9_sem2_0 : DmaSem sig := 65
abbrev cc9_sem3_0 : DmaSem sig := 66
abbrev cc9_sem4_0 : DmaSem sig := 67
abbrev cc9_sem5_0 : DmaSem sig := 68
abbrev cc9_sem6_0 : DmaSem sig := 69
abbrev cc9_sem7_0 : DmaSem sig := 70

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S16x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S8000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S1024x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S1024x10 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S10x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x10 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1024x10 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S8000x16_S8000x16_0_0 : ∀ a, (![0, 0] : Fin 2 → Nat) a + S8000x16.size a ≤ S8000x16.size a
  h_S8000x16 : 0 < S8000x16.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S128 : S10000x128.Reduces [0] S128
  bcast_S_S1x128 : S_.BroadcastsInDim S1x128 (![] : Fin 0 → Fin S1x128.rank)
  broadcasts_S1x128_S10000x128 : S1x128.Broadcasts S10000x128
  slices_S3x128x128_S1x128x128_1_0_0 : S3x128x128.Slices ![1, 0, 0] S1x128x128
  slices_S3x16x128_S1x16x128_1_0_0 : S3x16x128.Slices ![1, 0, 0] S1x16x128
  slices_S3x128_S1x128_1_0 : S3x128.Slices ![1, 0] S1x128
  slices_S3x128x128_S1x128x128_2_0_0 : S3x128x128.Slices ![2, 0, 0] S1x128x128
  slices_S3x16x128_S1x16x128_2_0_0 : S3x16x128.Slices ![2, 0, 0] S1x16x128
  slices_S3x128_S1x128_2_0 : S3x128.Slices ![2, 0] S1x128
  bcast_S_S1024x128 : S_.BroadcastsInDim S1024x128 (![] : Fin 0 → Fin S1024x128.rank)
  bcast_S100000_S100000x1_0 : S100000.BroadcastsInDim S100000x1 (![0] : Fin 1 → Fin S100000x1.rank)
  slices_S138x256_S128x256_0_0 : S138x256.Slices ![0, 0] S128x256
  slices_S138x256_S10x256_128_0 : S138x256.Slices ![128, 0] S10x256
  shapeCasts_S256_S1x256 : S256.ShapeCasts S1x256
  shapeCasts_S10_S1x10 : S10.ShapeCasts S1x10
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x10_S1024x10_0_0 : ∀ a, (![0, 0] : Fin 2 → Nat) a + S1024x10.size a ≤ S1024x10.size a
  h_S1024x10 : 0 < S1024x10.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  gather_S100000x128_S800000x1_S800000x128_1_0_n_n_0_1_1128_wf : GatherDims.WF S100000x128 S800000x1 S800000x128 [1] [0] [] [0] [] 1 ![1, 128]
  dot_S8000x128_S128x128_S8000x128_1_0_0_1_n_n_wf : DotDims.WF S8000x128 S128x128 S8000x128 [1] [0] [0] [1] [] []
  dot_S8000x16_S16x128_S8000x128_1_0_0_1_n_n_wf : DotDims.WF S8000x16 S16x128 S8000x128 [1] [0] [0] [1] [] []
  scatter_S100000x128_S800000x1_S800000x128_1_0_0_1_wf : ScatterDims.WF S100000x128 S800000x1 S800000x128 [1] [0] [0] 1
  scatter_S1024x128_S100000x1_S100000x128_1_0_0_1_wf : ScatterDims.WF S1024x128 S100000x1 S100000x128 [1] [0] [0] 1
  dot_S1024x128_S128x256_S1024x256_1_0_0_1_n_n_wf : DotDims.WF S1024x128 S128x256 S1024x256 [1] [0] [0] [1] [] []
  dot_S1024x10_S10x256_S1024x256_1_0_0_1_n_n_wf : DotDims.WF S1024x10 S10x256 S1024x256 [1] [0] [0] [1] [] []
  dot_S1024x256_S256x10_S1024x10_1_0_0_1_n_n_wf : DotDims.WF S1024x256 S256x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S800000x16.size a
  hwx0_1 : ∀ i : grid0.Coords, EltTy.bits .f32 = 32 ∨ (Rect.block (s := S800000x16) S8000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S800000x128.size a
  hwx3_0 : ∀ i : grid3.Coords, EltTy.bits .f32 = 32 ∨ (Rect.block (s := S800000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x16.size a ≤ S800000x16.size a
  hwx3_1 : ∀ i : grid3.Coords, EltTy.bits .f32 = 32 ∨ (Rect.block (s := S800000x16) S8000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x128.size a ≤ S16x128.size a
  hwx3_3 : ∀ i : grid3.Coords, EltTy.bits .f32 = 32 ∨ (Rect.block (s := S16x128) S16x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x128.size a ≤ S800000x128.size a
  hwx3_5 : ∀ i : grid3.Coords, EltTy.bits .f32 = 32 ∨ (Rect.block (s := S800000x128) S8000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x128.size a ≤ S800000x128.size a
  hwx6_0 : ∀ i : grid6.Coords, EltTy.bits .f32 = 32 ∨ (Rect.block (s := S800000x128) S8000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x16.size a ≤ S800000x16.size a
  hwx6_1 : ∀ i : grid6.Coords, EltTy.bits .f32 = 32 ∨ (Rect.block (s := S800000x16) S8000x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x128.size a ≤ S16x128.size a
  hwx6_3 : ∀ i : grid6.Coords, EltTy.bits .f32 = 32 ∨ (Rect.block (s := S16x128) S16x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S8000x128.size a ≤ S800000x128.size a
  hwx6_5 : ∀ i : grid6.Coords, EltTy.bits .f32 = 32 ∨ (Rect.block (s := S800000x128) S8000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x128.size a ≤ S100000x128.size a
  hwx8_5 : ∀ i : grid8.Coords, EltTy.bits .f32 = 32 ∨ (Rect.block (s := S100000x128) S10000x128.size (cc8_transform_5 i) (hinb8_5 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S1024x128.size a ≤ S1024x128.size a
  hwx9_0 : ∀ i : grid9.Coords, EltTy.bits .f32 = 32 ∨ (Rect.block (s := S1024x128) S1024x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1024x10.size a ≤ S1024x10.size a
  hwx9_1 : ∀ i : grid9.Coords, EltTy.bits .f32 = 32 ∨ (Rect.block (s := S1024x10) S1024x10.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x256.size a ≤ S128x256.size a
  hwx9_2 : ∀ i : grid9.Coords, EltTy.bits .f32 = 32 ∨ (Rect.block (s := S128x256) S128x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S10x256.size a ≤ S10x256.size a
  hwx9_3 : ∀ i : grid9.Coords, EltTy.bits .f32 = 32 ∨ (Rect.block (s := S10x256) S10x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x10.size a ≤ S256x10.size a
  hwx9_5 : ∀ i : grid9.Coords, EltTy.bits .f32 = 32 ∨ (Rect.block (s := S256x10) S256x10.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x10.size a ≤ S1x10.size a
  hwx9_6 : ∀ i : grid9.Coords, EltTy.bits .f32 = 32 ∨ (Rect.block (s := S1x10) S1x10.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1024x10.size a ≤ S1024x10.size a
  hwx9_7 : ∀ i : grid9.Coords, EltTy.bits .f32 = 32 ∨ (Rect.block (s := S1024x10) S1024x10.size (cc9_transform_7 i) (hinb9_7 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x10_S10x256_S1024x256_1_0_0_1_n_n : DotDims S1024x10 S10x256 S1024x256 where
  lhsContracting := [1]
  rhsContracting := [0]
  lhsNonContracting := [0]
  rhsNonContracting := [1]
  lhsBatch := []
  rhsBatch := []
  wf := dot_S1024x10_S10x256_S1024x256_1_0_0_1_n_n_wf
def dot_S1024x256_S256x10_S1024x10_1_0_0_1_n_n : DotDims S1024x256 S256x10 S1024x10 where
  lhsContracting := [1]
  rhsContracting := [0]
  lhsNonContracting := [0]
  rhsNonContracting := [1]
  lhsBatch := []
  rhsBatch := []
  wf := dot_S1024x256_S256x10_S1024x10_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v21) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S8000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S16x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S8000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v53) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v66) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v67) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v74) S8000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S8000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v76) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v78) S16x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v81) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v82) S8000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v85) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v86_0) S1x128.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v86_1) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v85) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v88) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v92) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v97) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v98) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v99) S10000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v102) S1024x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg4) S1024x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v103) S128x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v104) S10x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v105) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg12) S256x10.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v106) S1x10.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v107) S1024x10.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S800000x16 : Shape := ⟨2, ![800000, 16]⟩
abbrev S100000 : Shape := ⟨1, ![100000]⟩
abbrev S1024x10 : Shape := ⟨2, ![1024, 10]⟩
abbrev S3x128x128 : Shape := ⟨3, ![3, 128, 128]⟩
abbrev S3x16x128 : Shape := ⟨3, ![3, 16, 128]⟩
abbrev S3x128 : Shape := ⟨2, ![3, 128]⟩
abbrev S138x256 : Shape := ⟨2, ![138, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S1x128 : Shape := ⟨2, ![1, 128]⟩
abbrev S128 : Shape := ⟨1, ![128]⟩
abbrev S1024x128 : Shape := ⟨2, ![1024, 128]⟩
abbrev S100000x1 : Shape := ⟨2, ![100000, 1]⟩
abbrev S1024x138 : Shape := ⟨2, ![1024, 138]⟩
abbrev S1024x256 : Shape := ⟨2, ![1024, 256]⟩
abbrev S1x256 : Shape := ⟨2, ![1, 256]⟩
abbrev S1x10 : Shape := ⟨2, ![1, 10]⟩
abbrev S1024 : Shape := ⟨1, ![1024]⟩
abbrev S1024x1 : Shape := ⟨2, ![1024, 1]⟩

abbrev nBuf : Space → Nat
  | .hbm => 234
  | .vmem => 0
  | .smem => 0
  | _ => 0

abbrev hbmTy0_0 (i : Nat) : BufTy := match i % 128 with
  | 0 => ⟨S100000x128, .f32⟩
  | 1 => ⟨S2x800000, .i32⟩
  | 2 => ⟨S800000x16, .f32⟩
  | 3 => ⟨S100000, .i32⟩
  | 4 => ⟨S1024x10, .f32⟩
  | 5 => ⟨S3x128x128, .f32⟩
  | 6 => ⟨S3x16x128, .f32⟩
  | 7 => ⟨S3x128, .f32⟩
  | 8 => ⟨S3x128, .f32⟩
  | 9 => ⟨S3x128, .f32⟩
  | 10 => ⟨S138x256, .f32⟩
  | 11 => ⟨S256, .f32⟩
  | 12 => ⟨S256x10, .f32⟩
  | 13 => ⟨S10, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S1x128x128, .f32⟩
  | 28 => ⟨S128x128, .f32⟩
  | 29 => ⟨S800000x128, .f32⟩
  | 30 => ⟨S1x16x128, .f32⟩
  | 31 => ⟨S16x128, .f32⟩
  | 32 => ⟨S800000x128, .f32⟩
  | 33 => ⟨S800000x128, .f32⟩
  | 34 => ⟨S1x128, .f32⟩
  | 35 => ⟨S128, .f32⟩
  | 36 => ⟨S1x128, .f32⟩
  | 37 => ⟨S800000x128, .f32⟩
  | 38 => ⟨S800000x128, .f32⟩
  | 39 => ⟨S_, .f32⟩
  | 40 => ⟨S100000x128, .f32⟩
  | 41 => ⟨S800000x1, .i32⟩
  | 42 => ⟨S100000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S100000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S1x128x128, .f32⟩
  | 90 => ⟨S128x128, .f32⟩
  | 91 => ⟨S800000x128, .f32⟩
  | 92 => ⟨S1x16x128, .f32⟩
  | 93 => ⟨S16x128, .f32⟩
  | 94 => ⟨S800000x128, .f32⟩
  | 95 => ⟨S800000x128, .f32⟩
  | 96 => ⟨S1x128, .f32⟩
  | 97 => ⟨S128, .f32⟩
  | 98 => ⟨S1x128, .f32⟩
  | 99 => ⟨S800000x128, .f32⟩
  | 100 => ⟨S800000x128, .f32⟩
  | 101 => ⟨S_, .f32⟩
  | 102 => ⟨S100000x128, .f32⟩
  | 103 => ⟨S800000x1, .i32⟩
  | 104 => ⟨S100000x128, .f32⟩
  | 105 => ⟨S_, .f32⟩
  | 106 => ⟨S128, .f32⟩
  | 107 => ⟨S_, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S100000x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S1x128x128, .f32⟩
  | 24 => ⟨S128x128, .f32⟩
  | 25 => ⟨S800000x128, .f32⟩
  | 26 => ⟨S1x16x128, .f32⟩
  | 27 => ⟨S16x128, .f32⟩
  | 28 => ⟨S800000x128, .f32⟩
  | 29 => ⟨S800000x128, .f32⟩
  | 30 => ⟨S1x128, .f32⟩
  | 31 => ⟨S128, .f32⟩
  | 32 => ⟨S1x128, .f32⟩
  | 33 => ⟨S800000x128, .f32⟩
  | 34 => ⟨S800000x128, .f32⟩
  | 35 => ⟨S_, .f32⟩
  | 36 => ⟨S100000x128, .f32⟩
  | 37 => ⟨S800000x1, .i32⟩
  | 38 => ⟨S100000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S100000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S_, .f32⟩
  | 57 => ⟨S128, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .f32⟩
  | 77 => ⟨S1024x128, .f32⟩
  | 78 => ⟨S100000x1, .i32⟩
  | 79 => ⟨S1024x128, .f32⟩
  | 80 => ⟨S1024x138, .f32⟩
  | 81 => ⟨S1024x256, .f32⟩
  | 82 => ⟨S1x256, .f32⟩
  | 83 => ⟨S1024x256, .f32⟩
  | 84 => ⟨S1024x256, .f32⟩
  | 85 => ⟨S_, .f32⟩
  | 86 => ⟨S1024x256, .f32⟩
  | 87 => ⟨S1024x256, .f32⟩
  | 88 => ⟨S1024x10, .f32⟩
  | 89 => ⟨S1x10, .f32⟩
  | 90 => ⟨S1024x10, .f32⟩
  | 91 => ⟨S1024x10, .f32⟩
  | 92 => ⟨S_, .f32⟩
  | 93 => ⟨S1024, .f32⟩
  | 94 => ⟨S_, .f32⟩
  | 95 => ⟨S1024, .f32⟩
  | 96 => ⟨S1024, .f32⟩
  | 97 => ⟨S1024x1, .f32⟩
  | 98 => ⟨S1024x10, .f32⟩
  | 99 => ⟨S1024x10, .f32⟩
  | 100 => ⟨S1024x10, .f32⟩
  | 101 => ⟨S_, .f32⟩
  | 102 => ⟨S1024, .f32⟩
  | 103 => ⟨S1024x1, .f32⟩
  | 104 => ⟨S1024x10, .f32⟩
  | 105 => ⟨S1024x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call0_cst : Ref sig .tc := ⟨.hbm, 77, rfl⟩
abbrev main_call0_v0 : Ref sig .tc := ⟨.hbm, 78, rfl⟩
abbrev main_v55 : Ref sig .tc := ⟨.hbm, 79, rfl⟩
abbrev main_c_6 : Ref sig .tc := ⟨.hbm, 80, rfl⟩
abbrev main_v56 : Ref sig .tc := ⟨.hbm, 81, rfl⟩
abbrev main_v57 : Ref sig .tc := ⟨.hbm, 82, rfl⟩
abbrev main_c_7 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_8 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_9 : Ref sig .tc := ⟨.hbm, 105, rfl⟩
abbrev main_v78 : Ref sig .tc := ⟨.hbm, 106, rfl⟩
abbrev main_cst_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_11 : Ref sig .tc := ⟨.hbm, 114, rfl⟩
abbrev main_v85 : Ref sig .tc := ⟨.hbm, 115, rfl⟩
abbrev main_cst_12 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_13 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_call1_cst : Ref sig .tc := ⟨.hbm, 139, rfl⟩
abbrev main_call1_v0 : Ref sig .tc := ⟨.hbm, 140, rfl⟩
abbrev main_v107 : Ref sig .tc := ⟨.hbm, 141, rfl⟩
abbrev main_c_14 : Ref sig .tc := ⟨.hbm, 142, rfl⟩
abbrev main_v108 : Ref sig .tc := ⟨.hbm, 143, rfl⟩
abbrev main_v109 : Ref sig .tc := ⟨.hbm, 144, rfl⟩
abbrev main_c_15 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_16 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_17 : Ref sig .tc := ⟨.hbm, 167, rfl⟩
abbrev main_v130 : Ref sig .tc := ⟨.hbm, 168, rfl⟩
abbrev main_cst_18 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_19 : Ref sig .tc := ⟨.hbm, 176, rfl⟩
abbrev main_v137 : Ref sig .tc := ⟨.hbm, 177, rfl⟩
abbrev main_cst_20 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_21 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_call2_cst : Ref sig .tc := ⟨.hbm, 201, rfl⟩
abbrev main_call2_v0 : Ref sig .tc := ⟨.hbm, 202, rfl⟩
abbrev main_v159 : Ref sig .tc := ⟨.hbm, 203, rfl⟩
abbrev main_cst_22 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_call3_cst : Ref sig .tc := ⟨.hbm, 213, rfl⟩
abbrev main_call3_v0 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_23 : Ref sig .tc := ⟨.hbm, 220, rfl⟩
abbrev main_v173 : Ref sig .tc := ⟨.hbm, 221, rfl⟩
abbrev main_cst_24 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_25 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x16x128_S1x16x128_1_0_0 : S3x16x128.Slices ![1, 0, 0] S1x16x128
  slices_S3x128_S1x128_1_0 : S3x128.Slices ![1, 0] S1x128
  slices_S3x128x128_S1x128x128_2_0_0 : S3x128x128.Slices ![2, 0, 0] S1x128x128
  slices_S3x16x128_S1x16x128_2_0_0 : S3x16x128.Slices ![2, 0, 0] S1x16x128
  slices_S3x128_S1x128_2_0 : S3x128.Slices ![2, 0] S1x128
  bcast_S_S1024x128 : S_.BroadcastsInDim S1024x128 (![] : Fin 0 → Fin S1024x128.rank)
  bcast_S100000_S100000x1_0 : S100000.BroadcastsInDim S100000x1 (![0] : Fin 1 → Fin S100000x1.rank)
  concatenates_S1024x128_S1024x10_S1024x138_d1 : Shape.Concatenates [S1024x128, S1024x10] S1024x138 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  reducesTo_S1024x10_S1024_d1 : S1024x10.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x10_0_1 : S1024x1.BroadcastsInDim S1024x10 (![0, 1] : Fin 2 → Fin S1024x10.rank)
  gather_S100000x128_S800000x1_S800000x128_1_0_n_n_0_1_1128_wf : GatherDims.WF S100000x128 S800000x1 S800000x128 [1] [0] [] [0] [] 1 ![1, 128]
  dot_S800000x128_S128x128_S800000x128_1_0_0_1_n_n_wf : DotDims.WF S800000x128 S128x128 S800000x128 [1] [0] [0] [1] [] []
  dot_S800000x16_S16x128_S800000x128_1_0_0_1_n_n_wf : DotDims.WF S800000x16 S16x128 S800000x128 [1] [0] [0] [1] [] []
  scatter_S100000x128_S800000x1_S800000x128_1_0_0_1_wf : ScatterDims.WF S100000x128 S800000x1 S800000x128 [1] [0] [0] 1
  scatter_S1024x128_S100000x1_S100000x128_1_0_0_1_wf : ScatterDims.WF S1024x128 S100000x1 S100000x128 [1] [0] [0] 1
  dot_S1024x138_S138x256_S1024x256_1_0_0_1_n_n_wf : DotDims.WF S1024x138 S138x256 S1024x256 [1] [0] [0] [1] [] []
  dot_S1024x256_S256x10_S1024x10_1_0_0_1_n_n_wf : DotDims.WF S1024x256 S256x10 S1024x10 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x138_S138x256_S1024x256_1_0_0_1_n_n : DotDims S1024x138 S138x256 S1024x256 where
  lhsContracting := [1]
  rhsContracting := [0]
  lhsNonContracting := [0]
  rhsNonContracting := [1]
  lhsBatch := []
  rhsBatch := []
  wf := dot_S1024x138_S138x256_S1024x256_1_0_0_1_n_n_wf
def dot_S1024x256_S256x10_S1024x10_1_0_0_1_n_n : DotDims S1024x256 S256x10 S1024x10 where
  lhsContracting := [1]
  rhsContracting := [0]
  lhsNonContracting := [0]
  rhsNonContracting := [1]
  lhsBatch := []
  rhsBatch := []
  wf := dot_S1024x256_S256x10_S1024x10_1_0_0_1_n_n_wf

class Facts : Prop extends Facts₀ where

variable [Facts]
-- ==== Proof.RegionRecord.lean ====
/-
  One kernel region of the program as a segment of its run.

  Between two items of the program every core holds all of its unscoped buffers whole, at a valuation, beside
  the generator register at some state and the record that the core owes no other core anything. A region whose
  kernel keeps, between its first and last grid point, only what the launch lends it (the scoped buffers no window
  stages and the generator register) enters from such a state at a valuation `Wen` and leaves at a valuation `Wex`
  that agrees with `Wen` off the region's window arrays and holds, at each window array, what the pipeline's
  write-backs leave there. This module states that once, for any of the ten regions.
-/
import proofs.«148009_j49555332661695_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- No variant of a kernel function is in play. -/
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state and the core owing nothing. -/
abbrev Ride (c : Dev nD) : sProp 𝕄 :=
  iprop((∃ r, prngReg c r) ∗ ∃ W, owes (c : Thread nD τ) (0 : CellTallies nD τ sig Unit) W)

/-- The thread state between two items: every unscoped buffer at the valuation, and what rides along. -/
abbrev Between (W : Dev nD → Valuation τ sig (Elt F)) (c : Dev nD) : sProp 𝕄 :=
  iprop(StableHlo.held (c : Thread nD τ) (Pipeline.ucRefs τ sig) (W c) ∗ Ride c)

section Record

variable (pdats : (p : Fin 10) → (c : Dev nD) → Dat τ (Elt F) Unit ℕ (UR sig nD τ) ℕ (cfgs p) c)

-- a library lemma stated over the pinned configuration unifies with the printed one only when unification may
-- unfold plain definitions in a metavariable's type
set_option backward.isDefEq.respectTransparency.types false in
/-- Region `p` as a segment, entered at `Wen` and left at `Wex`: its window arrays are split out of the unscoped
    buffers on entry and put back at their final contents on exit; the generator register and the scoped rest pass
    through the kernel's invariant; the kernel has no semaphore of its own and owes nothing. -/
def regionRecord (p : Fin 10) (launch : Pipeline.LaunchFacts (nD := nD) (τ := τ) cfgs p)
    (hbody : ∀ c, BodyObligation (pdats p c) (defs₀ (F := F)) 𝒱₀ () Set.univ)
    (Wen Wex : Dev nD → Valuation τ sig (Elt F))
    (hshare : ∀ c w, (pdats p c).share w = fullShare)
    (howed : ∀ c t, (pdats p c).owed t = 0)
    (hrec : ∀ c t, (pdats p c).recorded t = Set.univ)
    (hA : ∀ c w, (pdats p c).A w = Wen c (Pipeline.arrRef (cfgs p).spec w))
    (hin : ∀ c, Pipeline.ΦA (cfgs p).spec c ⊢ (pdats p c).Φ 0)
    (hout : ∀ c, (pdats p c).Φ (Fin.last (cfgs p).N) ⊢ Pipeline.ΦA (cfgs p).spec c)
    (hF : ∀ c w, (pdats p c).arrAt w (cfgs p).N = Wex c (Pipeline.arrRef (cfgs p).spec w))
    (hrest : ∀ c b, b ∉ Finset.univ.image (Pipeline.arrRef (cfgs p).spec) → Wex c b = Wen c b) :
    RegionSeg (pcfgs (F := F)) adm pdats () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := Between Wen c
  post c := Between Wex c
  X c := iprop(∃ r, prngReg c r)
  Y c := iprop(∃ r, prngReg c r)
  Z c := Pipeline.unscopedRest (Ix := Unit) (Name := ℕ) (U := UR sig nD τ) (Lvl := ℕ) (cfgs p).spec c (fun b => Wen c b)
  hentry c := by
    rw [Pipeline.ownSems0_none]
    have hsplit := Pipeline.arrays_of_unscopedBufs (p := p) (pcfgs (F := F)) adm pdats launch.win launch.arr_whole c
      (hshare c) (fun b => Wen c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pdats (hshare c)
      (fun b => Wen c b) (fun b => Wex c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Record

end Cert.KernelIdeal.Hand

end
-- ==== Proof.Region0.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! Region 0: the edge-message kernel on its grid of 100 points. At every point the body reads five input blocks
    whole — rows of node features (8000×128), rows of edge features (8000×16), two weight matrices (128×128, 16×128) and
    a bias row (1×128) — and writes the 8000×128 block `x0·x2 + x1·x3 + bias` (operands rounded to bf16 before each
    product) over the whole output block. Everything here is generic in the float model. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, for any proof data over the region's
    arrays whose body leaves that block in place: where the window is fetched, the fetch puts the block there; where it
    is not (the weights and the bias after the first point), the block index has not moved since the previous point and
    the block is still there. No input window is cut or ever idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

/-- The whole of each staging block, as the rectangle the body's loads and its one store name. -/
abbrev rect0_0 : Rect S8000x128 := Rect.unit (s := S8000x128) ![0, 0] S8000x128.size inb_S8000x128_S8000x128_0_0
abbrev rect0_1 : Rect S8000x16 := Rect.unit (s := S8000x16) ![0, 0] S8000x16.size inb_S8000x16_S8000x16_0_0
abbrev rect0_2 : Rect S128x128 := Rect.unit (s := S128x128) ![0, 0] S128x128.size inb_S128x128_S128x128_0_0
abbrev rect0_3 : Rect S16x128 := Rect.unit (s := S16x128) ![0, 0] S16x128.size inb_S16x128_S16x128_0_0
abbrev rect0_4 : Rect S1x128 := Rect.unit (s := S1x128) ![0, 0] S1x128.size inb_S1x128_S1x128_0_0

/-- The output block after the body, as a function of the five input blocks: the single store, laid over the whole
    block, of the message value computed from what the five loads read. -/
def msgBlock0 (x0 : Vec F S8000x128 .f32) (x1 : Vec F S8000x16 .f32) (x2 : Vec F S128x128 .f32) (x3 : Vec F S16x128 .f32) (x4 : Vec F S1x128 .f32) : Vec F S8000x128 .f32 :=
  View.canon [⟨rect0_0, k0_pay1 (View.ld x0 rect0_0) (View.ld x1 rect0_1) (View.ld x2 rect0_2) (View.ld x3 rect0_3) (View.ld x4 rect0_4)⟩]

/-- The one store covers the output block: its rectangle is the whole block. -/
theorem cover0_5 (p0 : Vec F S8000x128 .f32) (y : S8000x128.Idx) :
    ∃ pc ∈ ([⟨rect0_0, p0⟩] : List (View.Piece (Elt F) S8000x128 .f32)), y ∈ pc.1.set :=
  View.cover_of_tiled [⟨rect0_0, p0⟩] S8000x128.size (by rfl) y

/-! ## The body's triple -/

set_option maxHeartbeats 1000000 in
/-- The kernel body on whole staging blocks — the inputs' at given contents, the output's at anything — runs to a state
    where the inputs are as they were and the output block is `msgBlock0` of them. The load of the output block that
    precedes the store reads whatever is there; its value is not used. -/
theorem sound_kernel0 (c : Dev nD) (E : Set ℕ) (i : grid0.Coords)
    (arg1 : Memref sig .tc .vmem S8000x128 .f32) (harg1 : arg1.IsWhole) (arg2 : Memref sig .tc .vmem S8000x16 .f32) (harg2 : arg2.IsWhole)
    (arg3 : Memref sig .tc .vmem S128x128 .f32) (harg3 : arg3.IsWhole) (arg4 : Memref sig .tc .vmem S16x128 .f32) (harg4 : arg4.IsWhole)
    (arg5 : Memref sig .tc .vmem S1x128 .f32) (harg5 : arg5.IsWhole) (arg6 : Memref sig .tc .vmem S8000x128 .f32) (harg6 : arg6.IsWhole)
    (x0 : Vec F S8000x128 .f32) (x1 : Vec F S8000x16 .f32) (x2 : Vec F S128x128 .f32) (x3 : Vec F S16x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (msgBlock0 x0 x1 x2 x3 x4)) -∗ K ⟨⟩))
      ⊢ wp frame (wpE (defs₀ (F := F)) Variants.none c none) E (cc0__msg_kernel i arg1 harg1 arg2 harg2 arg3 harg3 arg4 harg4 arg5 harg5 arg6 harg6) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the region's pipeline -/

/-- The arrays as the region finds them; after the body at a point every input block is in place and the output block is
    `msgBlock0` of the five input blocks; the invariant is the one of a body that touches nothing but its windows; full
    shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => msgBlock0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = msgBlock0 (iblk0 V c 0 t) (iblk0 V c 1 t) (iblk0 V c 2 t) (iblk0 V c 3 t) (iblk0 V c 4 t) := by dsimp only [dat0]

/-! Each input's staging buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is handed at point `t`: the invariant, what the core owes, and the six staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the five input buffers hold their blocks, so the body's triple applies; the invariant and what is owed
    pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

/-! ## The invariant at the region's two ends -/

theorem Phi0_in (c : Dev nD) : Pipeline.ΦA spec0 c ⊢ (dat0 V c).Φ 0 := by
  show Pipeline.ΦA spec0 c ⊢ Pipeline.ΦA spec0 c
  exact .rfl

theorem Phi0_out (c : Dev nD) : (dat0 V c).Φ (Fin.last cfg0.N) ⊢ Pipeline.ΦA spec0 c := by
  show Pipeline.ΦA spec0 c ⊢ Pipeline.ΦA spec0 c
  exact .rfl

end Cert.KernelIdeal.Hand
-- ==== Proof.Region1Runs.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points

import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 1, run on any whole memrefs

The body adds, at every grid point, the column sums of its input block to one carried accumulator and the column
sums of the squared block to a second one; at the first point both accumulators are zeroed first, at the last point
both are copied whole into the two outputs. Three control cases, by the two conditions on the grid coordinate. -/

/-- The first conditional's test: the grid coordinate is 0. -/
abbrev cond1_0 (i : grid1.Coords) : Prop := (Scalar.cmpi .ne (Scalar.extui (Scalar.cmpi .eq (BitVec.ofNat 32 (i 0).val) 0#32)) 0#32) = 1#1
/-- The second conditional's test: the grid coordinate is 9. -/
abbrev cond1_1 (i : grid1.Coords) : Prop := k1_cond2 i = 1#1

/-- The zero offsets of a rank-2 rectangle, as the constant function. -/
theorem zoff1_S1x128 : (![0, 0] : Fin S1x128.rank → ℕ) = fun _ => 0 := by funext a; fin_cases a <;> rfl
theorem zoff1_S10000x128 : (![0, 0] : Fin S10000x128.rank → ℕ) = fun _ => 0 := by funext a; fin_cases a <;> rfl

/-- A whole memref built to read as `X`, loaded through the full rectangle at zero offsets, gives `X`. -/
theorem readAt_unit_unread1 {sp : Space} {S : Shape} {e : EltTy} {m : Memref sig .tc sp S e} (hm : m.IsWhole) (X : S.Idx → Elt F e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h]

/-- After a store through the full rectangle at zero offsets made last, the buffer reads as the stored value,
    whatever was stored before. -/
theorem read_writes_unit1 {sp : Space} {S : Shape} {e : EltTy} (m : Memref sig .tc sp S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- FIRST POINT (coordinate 0, not 9). The input block reads `x0`; the outputs hold `xi1`, `xi2` and are not touched;
    the accumulators hold anything. Afterwards the accumulators hold the block's column sums, resp. the column sums of
    its squares, added to zero. -/
theorem runA1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond1_0 i) (hc1 : ¬cond1_1 i)
    (x0 : Vec F S10000x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    sl_unfold_run_names
    rw [read_writes_unit1 arg4 _ zoff1_S1x128, readAt_unit_unread1 harg1 x0 zoff1_S10000x128, View.readCov_unit_zero _ zoff1_S1x128]
  · iexists _; isplitr; swap; · iexact HS1
    ipureintro
    sl_unfold_run_names
    rw [read_writes_unit1 arg5 _ zoff1_S1x128, readAt_unit_unread1 harg1 x0 zoff1_S10000x128, View.readCov_unit_zero _ zoff1_S1x128]

set_option maxHeartbeats 1000000 in
/-- A MIDDLE POINT (coordinate neither 0 nor 9). The accumulators hold `xs0`, `xs1`; afterwards they hold these plus
    the block's column sums, resp. the column sums of its squares. The outputs are not touched. -/
theorem runB1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond1_0 i) (hc1 : ¬cond1_1 i)
    (x0 : Vec F S10000x128 .f32) (xs0 xs1 xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    rw [read_writes_unit1 arg4 _ zoff1_S1x128, readAt_unit_unread1 harg1 x0 zoff1_S10000x128, readAt_unit_unread1 harg4 xs0 zoff1_S1x128]
  · iexists _; isplitr; swap; · iexact HS1
    ipureintro
    rw [read_writes_unit1 arg5 _ zoff1_S1x128, readAt_unit_unread1 harg1 x0 zoff1_S10000x128, readAt_unit_unread1 harg5 xs1 zoff1_S1x128]

set_option maxHeartbeats 1000000 in
/-- THE LAST POINT (coordinate 9, not 0). As a middle point, and then each accumulator is copied whole into its
    output, which held anything. -/
theorem runC1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond1_0 i) (hc1 : cond1_1 i)
    (x0 : Vec F S10000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k1_pay4 x0 xs0) ∗ owns (c : Thread nD τ) arg3 fullShare (k1_pay5 x0 xs1)
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; swap; · iexact H1
    ipureintro
    sl_unfold_run_names
    rw [read_writes_unit1 arg2 _ zoff1_S1x128, View.readCov_unit_zero _ zoff1_S1x128, readAt_unit_unread1 harg1 x0 zoff1_S10000x128, readAt_unit_unread1 harg4 xs0 zoff1_S1x128]
  isplitl [H2]
  · iexists _; isplitr; swap; · iexact H2
    ipureintro
    sl_unfold_run_names
    rw [read_writes_unit1 arg3 _ zoff1_S1x128, View.readCov_unit_zero _ zoff1_S1x128, readAt_unit_unread1 harg1 x0 zoff1_S10000x128, readAt_unit_unread1 harg5 xs1 zoff1_S1x128]
  isplitl [HS0]
  · iexists _; isplitr; swap; · iexact HS0
    ipureintro
    sl_unfold_run_names
    rw [read_writes_unit1 arg4 _ zoff1_S1x128, readAt_unit_unread1 harg1 x0 zoff1_S10000x128, readAt_unit_unread1 harg4 xs0 zoff1_S1x128]
  · iexists _; isplitr; swap; · iexact HS1
    ipureintro
    sl_unfold_run_names
    rw [read_writes_unit1 arg5 _ zoff1_S1x128, readAt_unit_unread1 harg1 x0 zoff1_S10000x128, readAt_unit_unread1 harg5 xs1 zoff1_S1x128]

end Cert.KernelIdeal.Hand
end
-- ==== Proof.Region1.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import proofs.«148009_j49555332661695_1_alg».proof.Proof.Region1Runs
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the statistics kernel's pipeline, at the entry contents `V`

Grid of ten points. Window 0 is the input block (fetched at every point); windows 1 and 2 are the outputs, written back
only at the last point; two accumulators are carried from point to point in the kernel's own scratch. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions over the grid, and where the outputs are idle -/

/-- The first condition holds exactly at point 0. -/
theorem hcond1_0 : ∀ t : Fin cfg1.N, cond1_0 (grid1.coords t) ↔ t.val = 0 :=
  (by decide +kernel : ∀ t : Fin grid1.N, cond1_0 (grid1.coords t) ↔ t.val = 0)
/-- The second condition holds exactly at point 9. -/
theorem hcond1_1 : ∀ t : Fin cfg1.N, cond1_1 (grid1.coords t) ↔ t.val = 9 :=
  (by decide +kernel : ∀ t : Fin grid1.N, cond1_1 (grid1.coords t) ↔ t.val = 9)

/-- The input window is never idle. -/
theorem liveAt1_0 : ∀ t : Fin cfg1.N, cfg1.idle 0 (grid1.coords t) = false := by decide +kernel
/-- Off the last point each output is idle and is not written back; at the last point it is live. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1

/-- The class's invariant with the two accumulators split off as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The accumulators after each point -/

/-- What the two accumulators hold after the body at position `n`: at the first point the block's column sums
    (resp. the column sums of its squares) added to zero; afterwards added to what the point before left. -/
def acc1 (c : Dev nD) : (n : ℕ) → n < cfg1.N → Vec F S1x128 .f32 × Vec F S1x128 .f32
  | 0, hn => (k1_pay4 (iblk1 V c 0 ⟨0, hn⟩) k1_pay1, k1_pay5 (iblk1 V c 0 ⟨0, hn⟩) k1_pay2)
  | n + 1, hn => (k1_pay4 (iblk1 V c 0 ⟨n + 1, hn⟩) (acc1 c n (Nat.lt_of_succ_lt hn)).1,
      k1_pay5 (iblk1 V c 0 ⟨n + 1, hn⟩) (acc1 c n (Nat.lt_of_succ_lt hn)).2)

theorem acc1_first (c : Dev nD) (t : Fin cfg1.N) (h : t.val = 0) :
    acc1 V c t.val t.isLt = (k1_pay4 (iblk1 V c 0 t) k1_pay1, k1_pay5 (iblk1 V c 0 t) k1_pay2) := by
  obtain ⟨n, hn⟩ := t
  cases n with
  | zero => rfl
  | succ n => exact absurd h (Nat.succ_ne_zero n)

theorem acc1_later (c : Dev nD) (t : Fin cfg1.N) (h : t.val ≠ 0) :
    acc1 V c t.val t.isLt = (k1_pay4 (iblk1 V c 0 t) (acc1 V c (t.val - 1) (Nat.lt_of_le_of_lt (Nat.sub_le _ _) t.isLt)).1,
      k1_pay5 (iblk1 V c 0 t) (acc1 V c (t.val - 1) (Nat.lt_of_le_of_lt (Nat.sub_le _ _) t.isLt)).2) := by
  obtain ⟨n, hn⟩ := t
  cases n with
  | zero => exact absurd rfl h
  | succ n => rfl

/-! ## The invariant -/

/-- Before position `n`: at the start the class's invariant (the accumulators at anything); afterwards the
    accumulators at what the point before left, the other scoped buffers and the generator register as they were. -/
def Phi1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r)) := rfl

theorem Phi1_pos (c : Dev nD) (n : ℕ) (h : n ≤ cfg1.N) (hz : n ≠ 0) :
    Phi1 V c n h = iprop(iprop(iprop(owns (c : Thread nD τ) scM1_0 fullShare (acc1 V c (n - 1) (by omega)).1 ∗ owns (c : Thread nD τ) scM1_1 fullShare (acc1 V c (n - 1) (by omega)).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The arrays as the region finds them; after the body at point `t` the input's buffer at its block and the two
    outputs' at the accumulators after `t` (the outputs are stored, and written back, at the last point only: there these
    are the full sums; at the other points the outputs are idle and nothing reads this field); the invariant
    `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the point's case: the input's memref holds its block; the invariant hands the body the
    accumulators (at anything at the first point, else at what the point before left) and takes them back at this
    point's; an idle output is handed back as found, a live one holds the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    rw [acc1_first V c t h0]; (try dsimp only)
    rw [Phi1_castSucc V c t, Phi1_zero V c _ _ h0, PhiA1_eq]
    iintro ⟨⟨⟨⟨HS0, HS1⟩, Hr⟩, Hg⟩, Ho, ⟨%d0, H0⟩, ⟨%d1, H1⟩, ⟨%d2, H2⟩⟩
    iapply (runA1 c (grid1.coords t) _ _ _ _ _ _ _ _ _ _ hc0 hc1 (iblk1 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · have hc0 : ¬cond1_0 (grid1.coords t) := fun h => h0 ((hcond1_0 t).mp h)
    rw [acc1_later V c t h0]; (try dsimp only)
    rw [Phi1_castSucc V c t, Phi1_pos V c _ _ h0]
    by_cases h9 : t.val = 9
    · have hc1 : cond1_1 (grid1.coords t) := (hcond1_1 t).mpr h9
      rw [show (dat1 V c).leavesExact 1 t = owns (c : Thread nD τ) (ms1_1 t) fullShare ((dat1 V c).after 1 t) from by
        unfold Dat.leavesExact; rw [liveAt1_1 t hc1], after1_1]
      rw [show (dat1 V c).leavesExact 2 t = owns (c : Thread nD τ) (ms1_2 t) fullShare ((dat1 V c).after 2 t) from by
        unfold Dat.leavesExact; rw [liveAt1_2 t hc1], after1_2]
      rw [acc1_later V c t h0]; (try dsimp only)
      iintro ⟨⟨⟨⟨HS0, HS1⟩, Hr⟩, Hg⟩, Ho, ⟨%d0, H0⟩, ⟨%d1, H1⟩, ⟨%d2, H2⟩⟩
      iapply (runC1 c (grid1.coords t) _ _ _ _ _ _ _ _ _ _ hc0 hc1 (iblk1 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · have hc1 : ¬cond1_1 (grid1.coords t) := fun h => h9 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      iintro ⟨⟨⟨⟨HS0, HS1⟩, Hr⟩, Hg⟩, Ho, ⟨%d0, H0⟩, ⟨%d1, H1⟩, ⟨%d2, H2⟩⟩
      iapply (runB1 c (grid1.coords t) _ _ _ _ _ _ _ _ _ _ hc0 hc1 (iblk1 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_in (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the accumulators' contents are forgotten. -/
theorem Phi1_out (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = Phi1 V c (Fin.last cfg1.N).val (Nat.le_of_lt_succ (Fin.last cfg1.N).isLt) from rfl,
    Phi1_pos V c _ _ ht, PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.KernelIdeal.Hand
end
-- ==== Proof.Region2.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the normalise-and-rectify kernel, at the contents `V` the region is entered with -/

/-- The block of window `w` at grid point `t`: the window's view at that point, read off the array `V` holds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input windows' buffers hold their blocks

Each input window is whole and never idle, and the body leaves its buffer as found. Where the window is fetched the
buffer holds the block just fetched; where it is not (the four row windows after the first point) its block index is
the previous point's, so the buffer still holds this point's block. Stated for any proof data whose array is `V`'s
and whose body keeps the block. -/

theorem holds2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

theorem holds2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

theorem holds2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl)
      (fun t => by rw [hafter]; unfold Dat.blockOf iblk2; rw [hA]; try rfl) t d).trans
    (by unfold Dat.fetched Dat.blockOf iblk2; rw [hA]; try rfl)

theorem holds2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl)
      (fun t => by rw [hafter]; unfold Dat.blockOf iblk2; rw [hA]; try rfl) t d).trans
    (by unfold Dat.fetched Dat.blockOf iblk2; rw [hA]; try rfl)

theorem holds2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl)
      (fun t => by rw [hafter]; unfold Dat.blockOf iblk2; rw [hA]; try rfl) t d).trans
    (by unfold Dat.fetched Dat.blockOf iblk2; rw [hA]; try rfl)

/-! ## What the body stores -/

/-- The whole input block and the whole row, as rectangles. -/
abbrev rBlk2 : Rect S10000x128 := Rect.unit (s := S10000x128) ![0, 0] S10000x128.size inb_S10000x128_S10000x128_0_0
abbrev rRow2 : Rect S1x128 := Rect.unit (s := S1x128) ![0, 0] S1x128.size inb_S1x128_S1x128_0_0

/-- The output block from the five input blocks: `x0` the data, `x1` the mean row, `x2` the variance row, `x3` the
    scale row, `x4` the shift row. The body makes one store, of the whole block: the data less the mean, times the
    reciprocal root of the variance plus a constant, times the scale, plus the shift, and the larger of that and zero. -/
def bnBlock2 (x0 : Vec F S10000x128 .f32) (x1 x2 x3 x4 : Vec F S1x128 .f32) : Vec F S10000x128 .f32 :=
  View.canon [⟨rBlk2, k2_pay1 (View.ld x0 rBlk2) (View.ld x2 rRow2) (View.ld x1 rRow2) (View.ld x3 rRow2) (View.ld x4 rRow2)⟩]

/-- The one store is of the whole block, so every place of the block lies in it. -/
theorem cover2_5 (p : Vec F S10000x128 .f32) (y : S10000x128.Idx) :
    ∃ pc ∈ ([⟨rBlk2, p⟩] : List (View.Piece (Elt F) S10000x128 .f32)), y ∈ pc.1.set :=
  View.cover_of_tiled [⟨rBlk2, p⟩] S10000x128.size (by rfl) y

/-! ## The body's triple -/

set_option maxHeartbeats 1000000 in
/-- The body on six whole buffers — the five inputs at contents `x0 … x4`, the output at anything — runs to a state
    with the inputs as they were and the output at `bnBlock2 x0 x1 x2 x3 x4`. It reads the output buffer once before
    storing and does not use what it read. -/
theorem run_kernel2 (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (bnBlock2 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- The arrays are `V`'s; after the body at point `t` each input buffer holds its block and the output buffer holds
    `bnBlock2` of the five input blocks; the invariant is the region's rest, untouched; nothing is owed; shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => bnBlock2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = bnBlock2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  holds2_0_of V (dat2 V c) (A_eq2 V c 0) (after2_0 V c) t d
theorem before2_1 (c : Dev nD) (t : Fin cfg2.N) (d) : (dat2 V c).before 1 t d = iblk2 V c 1 t :=
  holds2_1_of V (dat2 V c) (A_eq2 V c 1) (after2_1 V c) t d
theorem before2_2 (c : Dev nD) (t : Fin cfg2.N) (d) : (dat2 V c).before 2 t d = iblk2 V c 2 t :=
  holds2_2_of V (dat2 V c) (A_eq2 V c 2) (after2_2 V c) t d
theorem before2_3 (c : Dev nD) (t : Fin cfg2.N) (d) : (dat2 V c).before 3 t d = iblk2 V c 3 t :=
  holds2_3_of V (dat2 V c) (A_eq2 V c 3) (after2_3 V c) t d
theorem before2_4 (c : Dev nD) (t : Fin cfg2.N) (d) : (dat2 V c).before 4 t d = iblk2 V c 4 t :=
  holds2_4_of V (dat2 V c) (A_eq2 V c 4) (after2_4 V c) t d

/-! ## The body obligation -/

/-- What the body is given at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it gives back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the kernel's triple applies; the invariant and
    what is owed pass through unread. -/
theorem run_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (run_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact run_body2 V c t

/-! ## The invariant at the ends -/

theorem Phi2_in (c : Dev nD) : Pipeline.ΦA spec2 c ⊢ (dat2 V c).Φ 0 := by
  show Pipeline.ΦA spec2 c ⊢ Pipeline.ΦA spec2 c
  exact .rfl

theorem Phi2_out (c : Dev nD) : (dat2 V c).Φ (Fin.last cfg2.N) ⊢ Pipeline.ΦA spec2 c := by
  show Pipeline.ΦA spec2 c ⊢ Pipeline.ΦA spec2 c
  exact .rfl

end Cert.KernelIdeal.Hand
-- ==== Proof.Region3.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! Region 3: the edge-message kernel on its grid of 100 points. At every point the body reads five input blocks
    whole — rows of node features (8000×128), rows of edge features (8000×16), two weight matrices (128×128, 16×128) and
    a bias row (1×128) — and writes the 8000×128 block `x0·x2 + x1·x3 + bias` (operands rounded to bf16 before each
    product) over the whole output block. Everything here is generic in the float model. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- The block of window `w` at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds the window's block at every point, for any proof data over the region's
    arrays whose body leaves that block in place: where the window is fetched, the fetch puts the block there; where it
    is not (the weights and the bias after the first point), the block index has not moved since the previous point and
    the block is still there. No input window is cut or ever idle. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes -/

/-- The whole of each staging block, as the rectangle the body's loads and its one store name. -/
abbrev rect3_0 : Rect S8000x128 := Rect.unit (s := S8000x128) ![0, 0] S8000x128.size inb_S8000x128_S8000x128_0_0
abbrev rect3_1 : Rect S8000x16 := Rect.unit (s := S8000x16) ![0, 0] S8000x16.size inb_S8000x16_S8000x16_0_0
abbrev rect3_2 : Rect S128x128 := Rect.unit (s := S128x128) ![0, 0] S128x128.size inb_S128x128_S128x128_0_0
abbrev rect3_3 : Rect S16x128 := Rect.unit (s := S16x128) ![0, 0] S16x128.size inb_S16x128_S16x128_0_0
abbrev rect3_4 : Rect S1x128 := Rect.unit (s := S1x128) ![0, 0] S1x128.size inb_S1x128_S1x128_0_0

/-- The output block after the body, as a function of the five input blocks: the single store, laid over the whole
    block, of the message value computed from what the five loads read. -/
def msgBlock3 (x0 : Vec F S8000x128 .f32) (x1 : Vec F S8000x16 .f32) (x2 : Vec F S128x128 .f32) (x3 : Vec F S16x128 .f32) (x4 : Vec F S1x128 .f32) : Vec F S8000x128 .f32 :=
  View.canon [⟨rect3_0, k3_pay1 (View.ld x0 rect3_0) (View.ld x1 rect3_1) (View.ld x2 rect3_2) (View.ld x3 rect3_3) (View.ld x4 rect3_4)⟩]

/-- The one store covers the output block: its rectangle is the whole block. -/
theorem cover3_5 (p0 : Vec F S8000x128 .f32) (y : S8000x128.Idx) :
    ∃ pc ∈ ([⟨rect3_0, p0⟩] : List (View.Piece (Elt F) S8000x128 .f32)), y ∈ pc.1.set :=
  View.cover_of_tiled [⟨rect3_0, p0⟩] S8000x128.size (by rfl) y

/-! ## The body's triple -/

set_option maxHeartbeats 1000000 in
/-- The kernel body on whole staging blocks — the inputs' at given contents, the output's at anything — runs to a state
    where the inputs are as they were and the output block is `msgBlock3` of them. The load of the output block that
    precedes the store reads whatever is there; its value is not used. -/
theorem sound_kernel3 (c : Dev nD) (E : Set ℕ) (i : grid3.Coords)
    (arg1 : Memref sig .tc .vmem S8000x128 .f32) (harg1 : arg1.IsWhole) (arg2 : Memref sig .tc .vmem S8000x16 .f32) (harg2 : arg2.IsWhole)
    (arg3 : Memref sig .tc .vmem S128x128 .f32) (harg3 : arg3.IsWhole) (arg4 : Memref sig .tc .vmem S16x128 .f32) (harg4 : arg4.IsWhole)
    (arg5 : Memref sig .tc .vmem S1x128 .f32) (harg5 : arg5.IsWhole) (arg6 : Memref sig .tc .vmem S8000x128 .f32) (harg6 : arg6.IsWhole)
    (x0 : Vec F S8000x128 .f32) (x1 : Vec F S8000x16 .f32) (x2 : Vec F S128x128 .f32) (x3 : Vec F S16x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (msgBlock3 x0 x1 x2 x3 x4)) -∗ K ⟨⟩))
      ⊢ wp frame (wpE (defs₀ (F := F)) Variants.none c none) E (cc3__msg_kernel i arg1 harg1 arg2 harg2 arg3 harg3 arg4 harg4 arg5 harg5 arg6 harg6) K := by
  simp only [cc3__msg_kernel_eq_skeleton]; unfold cc3__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data of the region's pipeline -/

/-- The arrays as the region finds them; after the body at a point every input block is in place and the output block is
    `msgBlock3` of the five input blocks; the invariant is the one of a body that touches nothing but its windows; full
    shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => msgBlock3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = msgBlock3 (iblk3 V c 0 t) (iblk3 V c 1 t) (iblk3 V c 2 t) (iblk3 V c 3 t) (iblk3 V c 4 t) := by dsimp only [dat3]

/-! Each input's staging buffer holds its block when the body is called. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is handed at point `t`: the invariant, what the core owes, and the six staging buffers, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- At any point the five input buffers hold their blocks, so the body's triple applies; the invariant and what is owed
    pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

/-! ## The invariant at the region's two ends -/

theorem Phi3_in (c : Dev nD) : Pipeline.ΦA spec3 c ⊢ (dat3 V c).Φ 0 := by
  show Pipeline.ΦA spec3 c ⊢ Pipeline.ΦA spec3 c
  exact .rfl

theorem Phi3_out (c : Dev nD) : (dat3 V c).Φ (Fin.last cfg3.N) ⊢ Pipeline.ΦA spec3 c := by
  show Pipeline.ΦA spec3 c ⊢ Pipeline.ΦA spec3 c
  exact .rfl

end Cert.KernelIdeal.Hand
-- ==== Proof.Region4Runs.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points

import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 4, run on any whole memrefs

The body adds, at every grid point, the column sums of its input block to one carried accumulator and the column
sums of the squared block to a second one; at the first point both accumulators are zeroed first, at the last point
both are copied whole into the two outputs. Three control cases, by the two conditions on the grid coordinate. -/

/-- The first conditional's test: the grid coordinate is 0. -/
abbrev cond4_0 (i : grid4.Coords) : Prop := (Scalar.cmpi .ne (Scalar.extui (Scalar.cmpi .eq (BitVec.ofNat 32 (i 0).val) 0#32)) 0#32) = 1#1
/-- The second conditional's test: the grid coordinate is 9. -/
abbrev cond4_1 (i : grid4.Coords) : Prop := k4_cond2 i = 1#1

/-- The zero offsets of a rank-2 rectangle, as the constant function. -/
theorem zoff4_S1x128 : (![0, 0] : Fin S1x128.rank → ℕ) = fun _ => 0 := by funext a; fin_cases a <;> rfl
theorem zoff4_S10000x128 : (![0, 0] : Fin S10000x128.rank → ℕ) = fun _ => 0 := by funext a; fin_cases a <;> rfl

/-- A whole memref built to read as `X`, loaded through the full rectangle at zero offsets, gives `X`. -/
theorem readAt_unit_unread4 {sp : Space} {S : Shape} {e : EltTy} {m : Memref sig .tc sp S e} (hm : m.IsWhole) (X : S.Idx → Elt F e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h]

/-- After a store through the full rectangle at zero offsets made last, the buffer reads as the stored value,
    whatever was stored before. -/
theorem read_writes_unit4 {sp : Space} {S : Shape} {e : EltTy} (m : Memref sig .tc sp S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- FIRST POINT (coordinate 0, not 9). The input block reads `x0`; the outputs hold `xi1`, `xi2` and are not touched;
    the accumulators hold anything. Afterwards the accumulators hold the block's column sums, resp. the column sums of
    its squares, added to zero. -/
theorem runA4 (c : Dev nD) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond4_0 i) (hc1 : ¬cond4_1 i)
    (x0 : Vec F S10000x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 k4_pay1) ∗ owns (c : Thread nD τ) arg5 fullShare (k4_pay5 x0 k4_pay2)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    sl_unfold_run_names
    rw [read_writes_unit4 arg4 _ zoff4_S1x128, readAt_unit_unread4 harg1 x0 zoff4_S10000x128, View.readCov_unit_zero _ zoff4_S1x128]
  · iexists _; isplitr; swap; · iexact HS1
    ipureintro
    sl_unfold_run_names
    rw [read_writes_unit4 arg5 _ zoff4_S1x128, readAt_unit_unread4 harg1 x0 zoff4_S10000x128, View.readCov_unit_zero _ zoff4_S1x128]

set_option maxHeartbeats 1000000 in
/-- A MIDDLE POINT (coordinate neither 0 nor 9). The accumulators hold `xs0`, `xs1`; afterwards they hold these plus
    the block's column sums, resp. the column sums of its squares. The outputs are not touched. -/
theorem runB4 (c : Dev nD) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond4_0 i) (hc1 : ¬cond4_1 i)
    (x0 : Vec F S10000x128 .f32) (xs0 xs1 xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 xs0) ∗ owns (c : Thread nD τ) arg5 fullShare (k4_pay5 x0 xs1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    rw [read_writes_unit4 arg4 _ zoff4_S1x128, readAt_unit_unread4 harg1 x0 zoff4_S10000x128, readAt_unit_unread4 harg4 xs0 zoff4_S1x128]
  · iexists _; isplitr; swap; · iexact HS1
    ipureintro
    rw [read_writes_unit4 arg5 _ zoff4_S1x128, readAt_unit_unread4 harg1 x0 zoff4_S10000x128, readAt_unit_unread4 harg5 xs1 zoff4_S1x128]

set_option maxHeartbeats 1000000 in
/-- THE LAST POINT (coordinate 9, not 0). As a middle point, and then each accumulator is copied whole into its
    output, which held anything. -/
theorem runC4 (c : Dev nD) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond4_0 i) (hc1 : cond4_1 i)
    (x0 : Vec F S10000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k4_pay4 x0 xs0) ∗ owns (c : Thread nD τ) arg3 fullShare (k4_pay5 x0 xs1)
            ∗ owns (c : Thread nD τ) arg4 fullShare (k4_pay4 x0 xs0) ∗ owns (c : Thread nD τ) arg5 fullShare (k4_pay5 x0 xs1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; swap; · iexact H1
    ipureintro
    sl_unfold_run_names
    rw [read_writes_unit4 arg2 _ zoff4_S1x128, View.readCov_unit_zero _ zoff4_S1x128, readAt_unit_unread4 harg1 x0 zoff4_S10000x128, readAt_unit_unread4 harg4 xs0 zoff4_S1x128]
  isplitl [H2]
  · iexists _; isplitr; swap; · iexact H2
    ipureintro
    sl_unfold_run_names
    rw [read_writes_unit4 arg3 _ zoff4_S1x128, View.readCov_unit_zero _ zoff4_S1x128, readAt_unit_unread4 harg1 x0 zoff4_S10000x128, readAt_unit_unread4 harg5 xs1 zoff4_S1x128]
  isplitl [HS0]
  · iexists _; isplitr; swap; · iexact HS0
    ipureintro
    sl_unfold_run_names
    rw [read_writes_unit4 arg4 _ zoff4_S1x128, readAt_unit_unread4 harg1 x0 zoff4_S10000x128, readAt_unit_unread4 harg4 xs0 zoff4_S1x128]
  · iexists _; isplitr; swap; · iexact HS1
    ipureintro
    sl_unfold_run_names
    rw [read_writes_unit4 arg5 _ zoff4_S1x128, readAt_unit_unread4 harg1 x0 zoff4_S10000x128, readAt_unit_unread4 harg5 xs1 zoff4_S1x128]

end Cert.KernelIdeal.Hand
end
-- ==== Proof.Region4.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import proofs.«148009_j49555332661695_1_alg».proof.Proof.Region4Runs
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 4: the statistics kernel's pipeline, at the entry contents `V`

Grid of ten points. Window 0 is the input block (fetched at every point); windows 1 and 2 are the outputs, written back
only at the last point; two accumulators are carried from point to point in the kernel's own scratch. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions over the grid, and where the outputs are idle -/

/-- The first condition holds exactly at point 0. -/
theorem hcond4_0 : ∀ t : Fin cfg4.N, cond4_0 (grid4.coords t) ↔ t.val = 0 :=
  (by decide +kernel : ∀ t : Fin grid4.N, cond4_0 (grid4.coords t) ↔ t.val = 0)
/-- The second condition holds exactly at point 9. -/
theorem hcond4_1 : ∀ t : Fin cfg4.N, cond4_1 (grid4.coords t) ↔ t.val = 9 :=
  (by decide +kernel : ∀ t : Fin grid4.N, cond4_1 (grid4.coords t) ↔ t.val = 9)

/-- The input window is never idle. -/
theorem liveAt4_0 : ∀ t : Fin cfg4.N, cfg4.idle 0 (grid4.coords t) = false := by decide +kernel
/-- Off the last point each output is idle and is not written back; at the last point it is live. -/
theorem idleAt4_1 : ∀ t : Fin cfg4.N, ¬cond4_1 (grid4.coords t) → cfg4.idle 1 (grid4.coords t) = true := by decide +kernel
theorem noFlush4_1 : ∀ t : Fin cfg4.N, ¬cond4_1 (grid4.coords t) → (cfg4.win 1).flush t = false := by decide +kernel
theorem liveAt4_1 : ∀ t : Fin cfg4.N, cond4_1 (grid4.coords t) → cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The memrefs the body is called with -/

abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
/-- The two accumulators: whole scoped buffers of the kernel's own. -/
abbrev scM4_0 : Memref sig .tc .vmem S1x128 .f32 := Memref.whole cc4_scratch0
abbrev scM4_1 : Memref sig .tc .vmem S1x128 .f32 := Memref.whole cc4_scratch1

/-- The class's invariant with the two accumulators split off as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The accumulators after each point -/

/-- What the two accumulators hold after the body at position `n`: at the first point the block's column sums
    (resp. the column sums of its squares) added to zero; afterwards added to what the point before left. -/
def acc4 (c : Dev nD) : (n : ℕ) → n < cfg4.N → Vec F S1x128 .f32 × Vec F S1x128 .f32
  | 0, hn => (k4_pay4 (iblk4 V c 0 ⟨0, hn⟩) k4_pay1, k4_pay5 (iblk4 V c 0 ⟨0, hn⟩) k4_pay2)
  | n + 1, hn => (k4_pay4 (iblk4 V c 0 ⟨n + 1, hn⟩) (acc4 c n (Nat.lt_of_succ_lt hn)).1,
      k4_pay5 (iblk4 V c 0 ⟨n + 1, hn⟩) (acc4 c n (Nat.lt_of_succ_lt hn)).2)

theorem acc4_first (c : Dev nD) (t : Fin cfg4.N) (h : t.val = 0) :
    acc4 V c t.val t.isLt = (k4_pay4 (iblk4 V c 0 t) k4_pay1, k4_pay5 (iblk4 V c 0 t) k4_pay2) := by
  obtain ⟨n, hn⟩ := t
  cases n with
  | zero => rfl
  | succ n => exact absurd h (Nat.succ_ne_zero n)

theorem acc4_later (c : Dev nD) (t : Fin cfg4.N) (h : t.val ≠ 0) :
    acc4 V c t.val t.isLt = (k4_pay4 (iblk4 V c 0 t) (acc4 V c (t.val - 1) (Nat.lt_of_le_of_lt (Nat.sub_le _ _) t.isLt)).1,
      k4_pay5 (iblk4 V c 0 t) (acc4 V c (t.val - 1) (Nat.lt_of_le_of_lt (Nat.sub_le _ _) t.isLt)).2) := by
  obtain ⟨n, hn⟩ := t
  cases n with
  | zero => exact absurd rfl h
  | succ n => rfl

/-! ## The invariant -/

/-- Before position `n`: at the start the class's invariant (the accumulators at anything); afterwards the
    accumulators at what the point before left, the other scoped buffers and the generator register as they were. -/
def Phi4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem Phi4_pos (c : Dev nD) (n : ℕ) (h : n ≤ cfg4.N) (hz : n ≠ 0) :
    Phi4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The arrays as the region finds them; after the body at point `t` the input's buffer at its block and the two
    outputs' at the accumulators after `t` (the outputs are stored, and written back, at the last point only: there these
    are the full sums; at the other points the outputs are idle and nothing reads this field); the invariant
    `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (acc4 V c t.val t.isLt).1
    | ⟨2, _⟩ => (acc4 V c t.val t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = (acc4 V c t.val t.isLt).1 := by dsimp only [dat4]
theorem after4_2 (c : Dev nD) (t : Fin cfg4.N) : (dat4 V c).after 2 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point, by the point's case: the input's memref holds its block; the invariant hands the body the
    accumulators (at anything at the first point, else at what the point before left) and takes them back at this
    point's; an idle output is handed back as found, a live one holds the accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [liveAt4_0 t], after4_0]
  have hN : t.val < 10 := lt_of_lt_of_eq t.isLt (show cfg4.N = 10 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 1 t (idleAt4_1 t hc1) (noFlush4_1 t hc1),
      Dat.leavesExact_idle (dat4 V c) 2 t (idleAt4_2 t hc1) (noFlush4_2 t hc1)]
    rw [acc4_first V c t h0]; (try dsimp only)
    rw [Phi4_castSucc V c t, Phi4_zero V c _ _ h0, PhiA4_eq]
    iintro ⟨⟨⟨⟨HS0, HS1⟩, Hr⟩, Hg⟩, Ho, ⟨%d0, H0⟩, ⟨%d1, H1⟩, ⟨%d2, H2⟩⟩
    iapply (runA4 c (grid4.coords t) _ _ _ _ _ _ _ _ _ _ hc0 hc1 (iblk4 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · have hc0 : ¬cond4_0 (grid4.coords t) := fun h => h0 ((hcond4_0 t).mp h)
    rw [acc4_later V c t h0]; (try dsimp only)
    rw [Phi4_castSucc V c t, Phi4_pos V c _ _ h0]
    by_cases h9 : t.val = 9
    · have hc1 : cond4_1 (grid4.coords t) := (hcond4_1 t).mpr h9
      rw [show (dat4 V c).leavesExact 1 t = owns (c : Thread nD τ) (ms4_1 t) fullShare ((dat4 V c).after 1 t) from by
        unfold Dat.leavesExact; rw [liveAt4_1 t hc1], after4_1]
      rw [show (dat4 V c).leavesExact 2 t = owns (c : Thread nD τ) (ms4_2 t) fullShare ((dat4 V c).after 2 t) from by
        unfold Dat.leavesExact; rw [liveAt4_2 t hc1], after4_2]
      rw [acc4_later V c t h0]; (try dsimp only)
      iintro ⟨⟨⟨⟨HS0, HS1⟩, Hr⟩, Hg⟩, Ho, ⟨%d0, H0⟩, ⟨%d1, H1⟩, ⟨%d2, H2⟩⟩
      iapply (runC4 c (grid4.coords t) _ _ _ _ _ _ _ _ _ _ hc0 hc1 (iblk4 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · have hc1 : ¬cond4_1 (grid4.coords t) := fun h => h9 ((hcond4_1 t).mp h)
      rw [Dat.leavesExact_idle (dat4 V c) 1 t (idleAt4_1 t hc1) (noFlush4_1 t hc1),
        Dat.leavesExact_idle (dat4 V c) 2 t (idleAt4_2 t hc1) (noFlush4_2 t hc1)]
      iintro ⟨⟨⟨⟨HS0, HS1⟩, Hr⟩, Hg⟩, Ho, ⟨%d0, H0⟩, ⟨%d1, H1⟩, ⟨%d2, H2⟩⟩
      iapply (runB4 c (grid4.coords t) _ _ _ _ _ _ _ _ _ _ hc0 hc1 (iblk4 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem Phi4_in (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives the class's back: the accumulators' contents are forgotten. -/
theorem Phi4_out (c : Dev nD) : (dat4 V c).Φ (Fin.last cfg4.N) ⊢ Pipeline.ΦA spec4 c := by
  have ht : (Fin.last cfg4.N).val ≠ 0 := by rw [Fin.val_last]; have : cfg4.N = 10 := N_4; omega
  rw [show (dat4 V c).Φ (Fin.last cfg4.N) = Phi4 V c (Fin.last cfg4.N).val (Nat.le_of_lt_succ (Fin.last cfg4.N).isLt) from rfl,
    Phi4_pos V c _ _ ht, PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.KernelIdeal.Hand
end
-- ==== Proof.Region5.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the normalise-and-rectify kernel, at the contents `V` the region is entered with -/

/-- The block of window `w` at grid point `t`: the window's view at that point, read off the array `V` holds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The input windows' buffers hold their blocks

Each input window is whole and never idle, and the body leaves its buffer as found. Where the window is fetched the
buffer holds the block just fetched; where it is not (the four row windows after the first point) its block index is
the previous point's, so the buffer still holds this point's block. Stated for any proof data whose array is `V`'s
and whose body keeps the block. -/

theorem holds5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl)
      (fun t => by rw [hafter]; unfold Dat.blockOf iblk5; rw [hA]; try rfl) t d).trans
    (by unfold Dat.fetched Dat.blockOf iblk5; rw [hA]; try rfl)

theorem holds5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl)
      (fun t => by rw [hafter]; unfold Dat.blockOf iblk5; rw [hA]; try rfl) t d).trans
    (by unfold Dat.fetched Dat.blockOf iblk5; rw [hA]; try rfl)

theorem holds5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl)
      (fun t => by rw [hafter]; unfold Dat.blockOf iblk5; rw [hA]; try rfl) t d).trans
    (by unfold Dat.fetched Dat.blockOf iblk5; rw [hA]; try rfl)

theorem holds5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl)
      (fun t => by rw [hafter]; unfold Dat.blockOf iblk5; rw [hA]; try rfl) t d).trans
    (by unfold Dat.fetched Dat.blockOf iblk5; rw [hA]; try rfl)

theorem holds5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl)
      (fun t => by rw [hafter]; unfold Dat.blockOf iblk5; rw [hA]; try rfl) t d).trans
    (by unfold Dat.fetched Dat.blockOf iblk5; rw [hA]; try rfl)

/-! ## What the body stores -/

/-- The whole input block and the whole row, as rectangles. -/
abbrev rBlk5 : Rect S10000x128 := Rect.unit (s := S10000x128) ![0, 0] S10000x128.size inb_S10000x128_S10000x128_0_0
abbrev rRow5 : Rect S1x128 := Rect.unit (s := S1x128) ![0, 0] S1x128.size inb_S1x128_S1x128_0_0

/-- The output block from the five input blocks: `x0` the data, `x1` the mean row, `x2` the variance row, `x3` the
    scale row, `x4` the shift row. The body makes one store, of the whole block: the data less the mean, times the
    reciprocal root of the variance plus a constant, times the scale, plus the shift, and the larger of that and zero. -/
def bnBlock5 (x0 : Vec F S10000x128 .f32) (x1 x2 x3 x4 : Vec F S1x128 .f32) : Vec F S10000x128 .f32 :=
  View.canon [⟨rBlk5, k5_pay1 (View.ld x0 rBlk5) (View.ld x2 rRow5) (View.ld x1 rRow5) (View.ld x3 rRow5) (View.ld x4 rRow5)⟩]

/-- The one store is of the whole block, so every place of the block lies in it. -/
theorem cover5_5 (p : Vec F S10000x128 .f32) (y : S10000x128.Idx) :
    ∃ pc ∈ ([⟨rBlk5, p⟩] : List (View.Piece (Elt F) S10000x128 .f32)), y ∈ pc.1.set :=
  View.cover_of_tiled [⟨rBlk5, p⟩] S10000x128.size (by rfl) y

/-! ## The body's triple -/

set_option maxHeartbeats 1000000 in
/-- The body on six whole buffers — the five inputs at contents `x0 … x4`, the output at anything — runs to a state
    with the inputs as they were and the output at `bnBlock5 x0 x1 x2 x3 x4`. It reads the output buffer once before
    storing and does not use what it read. -/
theorem run_kernel5 (c : Dev nD) (E : Set ℕ) (i : grid5.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (bnBlock5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data -/

/-- The arrays are `V`'s; after the body at point `t` each input buffer holds its block and the output buffer holds
    `bnBlock5` of the five input blocks; the invariant is the region's rest, untouched; nothing is owed; shares are full. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => bnBlock5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = bnBlock5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  holds5_0_of V (dat5 V c) (A_eq5 V c 0) (after5_0 V c) t d
theorem before5_1 (c : Dev nD) (t : Fin cfg5.N) (d) : (dat5 V c).before 1 t d = iblk5 V c 1 t :=
  holds5_1_of V (dat5 V c) (A_eq5 V c 1) (after5_1 V c) t d
theorem before5_2 (c : Dev nD) (t : Fin cfg5.N) (d) : (dat5 V c).before 2 t d = iblk5 V c 2 t :=
  holds5_2_of V (dat5 V c) (A_eq5 V c 2) (after5_2 V c) t d
theorem before5_3 (c : Dev nD) (t : Fin cfg5.N) (d) : (dat5 V c).before 3 t d = iblk5 V c 3 t :=
  holds5_3_of V (dat5 V c) (A_eq5 V c 3) (after5_3 V c) t d
theorem before5_4 (c : Dev nD) (t : Fin cfg5.N) (d) : (dat5 V c).before 4 t d = iblk5 V c 4 t :=
  holds5_4_of V (dat5 V c) (A_eq5 V c 4) (after5_4 V c) t d

/-! ## The body obligation -/

/-- What the body is given at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it gives back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the kernel's triple applies; the invariant and
    what is owed pass through unread. -/
theorem run_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (run_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact run_body5 V c t

/-! ## The invariant at the ends -/

theorem Phi5_in (c : Dev nD) : Pipeline.ΦA spec5 c ⊢ (dat5 V c).Φ 0 := by
  show Pipeline.ΦA spec5 c ⊢ Pipeline.ΦA spec5 c
  exact .rfl

theorem Phi5_out (c : Dev nD) : (dat5 V c).Φ (Fin.last cfg5.N) ⊢ Pipeline.ΦA spec5 c := by
  show Pipeline.ΦA spec5 c ⊢ Pipeline.ΦA spec5 c
  exact .rfl

end Cert.KernelIdeal.Hand
-- ==== Proof.Region6.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! Region 6: the edge-message kernel on its grid of 100 points. At every point the body reads five input blocks
    whole — rows of node features (8000×128), rows of edge features (8000×16), two weight matrices (128×128, 16×128) and
    a bias row (1×128) — and writes the 8000×128 block `x0·x2 + x1·x3 + bias` (operands rounded to bf16 before each
    product) over the whole output block. Everything here is generic in the float model. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- The block of window `w` at point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds the window's block at every point, for any proof data over the region's
    arrays whose body leaves that block in place: where the window is fetched, the fetch puts the block there; where it
    is not (the weights and the bias after the first point), the block index has not moved since the previous point and
    the block is still there. No input window is cut or ever idle. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## What the body reads and writes -/

/-- The whole of each staging block, as the rectangle the body's loads and its one store name. -/
abbrev rect6_0 : Rect S8000x128 := Rect.unit (s := S8000x128) ![0, 0] S8000x128.size inb_S8000x128_S8000x128_0_0
abbrev rect6_1 : Rect S8000x16 := Rect.unit (s := S8000x16) ![0, 0] S8000x16.size inb_S8000x16_S8000x16_0_0
abbrev rect6_2 : Rect S128x128 := Rect.unit (s := S128x128) ![0, 0] S128x128.size inb_S128x128_S128x128_0_0
abbrev rect6_3 : Rect S16x128 := Rect.unit (s := S16x128) ![0, 0] S16x128.size inb_S16x128_S16x128_0_0
abbrev rect6_4 : Rect S1x128 := Rect.unit (s := S1x128) ![0, 0] S1x128.size inb_S1x128_S1x128_0_0

/-- The output block after the body, as a function of the five input blocks: the single store, laid over the whole
    block, of the message value computed from what the five loads read. -/
def msgBlock6 (x0 : Vec F S8000x128 .f32) (x1 : Vec F S8000x16 .f32) (x2 : Vec F S128x128 .f32) (x3 : Vec F S16x128 .f32) (x4 : Vec F S1x128 .f32) : Vec F S8000x128 .f32 :=
  View.canon [⟨rect6_0, k6_pay1 (View.ld x0 rect6_0) (View.ld x1 rect6_1) (View.ld x2 rect6_2) (View.ld x3 rect6_3) (View.ld x4 rect6_4)⟩]

/-- The one store covers the output block: its rectangle is the whole block. -/
theorem cover6_5 (p0 : Vec F S8000x128 .f32) (y : S8000x128.Idx) :
    ∃ pc ∈ ([⟨rect6_0, p0⟩] : List (View.Piece (Elt F) S8000x128 .f32)), y ∈ pc.1.set :=
  View.cover_of_tiled [⟨rect6_0, p0⟩] S8000x128.size (by rfl) y

/-! ## The body's triple -/

set_option maxHeartbeats 1000000 in
/-- The kernel body on whole staging blocks — the inputs' at given contents, the output's at anything — runs to a state
    where the inputs are as they were and the output block is `msgBlock6` of them. The load of the output block that
    precedes the store reads whatever is there; its value is not used. -/
theorem sound_kernel6 (c : Dev nD) (E : Set ℕ) (i : grid6.Coords)
    (arg1 : Memref sig .tc .vmem S8000x128 .f32) (harg1 : arg1.IsWhole) (arg2 : Memref sig .tc .vmem S8000x16 .f32) (harg2 : arg2.IsWhole)
    (arg3 : Memref sig .tc .vmem S128x128 .f32) (harg3 : arg3.IsWhole) (arg4 : Memref sig .tc .vmem S16x128 .f32) (harg4 : arg4.IsWhole)
    (arg5 : Memref sig .tc .vmem S1x128 .f32) (harg5 : arg5.IsWhole) (arg6 : Memref sig .tc .vmem S8000x128 .f32) (harg6 : arg6.IsWhole)
    (x0 : Vec F S8000x128 .f32) (x1 : Vec F S8000x16 .f32) (x2 : Vec F S128x128 .f32) (x3 : Vec F S16x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (msgBlock6 x0 x1 x2 x3 x4)) -∗ K ⟨⟩))
      ⊢ wp frame (wpE (defs₀ (F := F)) Variants.none c none) E (cc6__msg_kernel i arg1 harg1 arg2 harg2 arg3 harg3 arg4 harg4 arg5 harg5 arg6 harg6) K := by
  simp only [cc6__msg_kernel_eq_skeleton]; unfold cc6__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The proof data of the region's pipeline -/

/-- The arrays as the region finds them; after the body at a point every input block is in place and the output block is
    `msgBlock6` of the five input blocks; the invariant is the one of a body that touches nothing but its windows; full
    shares, nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => msgBlock6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = msgBlock6 (iblk6 V c 0 t) (iblk6 V c 1 t) (iblk6 V c 2 t) (iblk6 V c 3 t) (iblk6 V c 4 t) := by dsimp only [dat6]

/-! Each input's staging buffer holds its block when the body is called. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the body is handed at point `t`: the invariant, what the core owes, and the six staging buffers, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- At any point the five input buffers hold their blocks, so the body's triple applies; the invariant and what is owed
    pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

/-! ## The invariant at the region's two ends -/

theorem Phi6_in (c : Dev nD) : Pipeline.ΦA spec6 c ⊢ (dat6 V c).Φ 0 := by
  show Pipeline.ΦA spec6 c ⊢ Pipeline.ΦA spec6 c
  exact .rfl

theorem Phi6_out (c : Dev nD) : (dat6 V c).Φ (Fin.last cfg6.N) ⊢ Pipeline.ΦA spec6 c := by
  show Pipeline.ΦA spec6 c ⊢ Pipeline.ΦA spec6 c
  exact .rfl

end Cert.KernelIdeal.Hand
-- ==== Proof.Region7Runs.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points

import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 7, run on any whole memrefs

The body adds, at every grid point, the column sums of its input block to one carried accumulator and the column
sums of the squared block to a second one; at the first point both accumulators are zeroed first, at the last point
both are copied whole into the two outputs. Three control cases, by the two conditions on the grid coordinate. -/

/-- The first conditional's test: the grid coordinate is 0. -/
abbrev cond7_0 (i : grid7.Coords) : Prop := (Scalar.cmpi .ne (Scalar.extui (Scalar.cmpi .eq (BitVec.ofNat 32 (i 0).val) 0#32)) 0#32) = 1#1
/-- The second conditional's test: the grid coordinate is 9. -/
abbrev cond7_1 (i : grid7.Coords) : Prop := k7_cond2 i = 1#1

/-- The zero offsets of a rank-2 rectangle, as the constant function. -/
theorem zoff7_S1x128 : (![0, 0] : Fin S1x128.rank → ℕ) = fun _ => 0 := by funext a; fin_cases a <;> rfl
theorem zoff7_S10000x128 : (![0, 0] : Fin S10000x128.rank → ℕ) = fun _ => 0 := by funext a; fin_cases a <;> rfl

/-- A whole memref built to read as `X`, loaded through the full rectangle at zero offsets, gives `X`. -/
theorem readAt_unit_unread7 {sp : Space} {S : Shape} {e : EltTy} {m : Memref sig .tc sp S e} (hm : m.IsWhole) (X : S.Idx → Elt F e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h]

/-- After a store through the full rectangle at zero offsets made last, the buffer reads as the stored value,
    whatever was stored before. -/
theorem read_writes_unit7 {sp : Space} {S : Shape} {e : EltTy} (m : Memref sig .tc sp S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- FIRST POINT (coordinate 0, not 9). The input block reads `x0`; the outputs hold `xi1`, `xi2` and are not touched;
    the accumulators hold anything. Afterwards the accumulators hold the block's column sums, resp. the column sums of
    its squares, added to zero. -/
theorem runA7 (c : Dev nD) (i : grid7.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond7_0 i) (hc1 : ¬cond7_1 i)
    (x0 : Vec F S10000x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 k7_pay1) ∗ owns (c : Thread nD τ) arg5 fullShare (k7_pay5 x0 k7_pay2)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    sl_unfold_run_names
    rw [read_writes_unit7 arg4 _ zoff7_S1x128, readAt_unit_unread7 harg1 x0 zoff7_S10000x128, View.readCov_unit_zero _ zoff7_S1x128]
  · iexists _; isplitr; swap; · iexact HS1
    ipureintro
    sl_unfold_run_names
    rw [read_writes_unit7 arg5 _ zoff7_S1x128, readAt_unit_unread7 harg1 x0 zoff7_S10000x128, View.readCov_unit_zero _ zoff7_S1x128]

set_option maxHeartbeats 1000000 in
/-- A MIDDLE POINT (coordinate neither 0 nor 9). The accumulators hold `xs0`, `xs1`; afterwards they hold these plus
    the block's column sums, resp. the column sums of its squares. The outputs are not touched. -/
theorem runB7 (c : Dev nD) (i : grid7.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond7_0 i) (hc1 : ¬cond7_1 i)
    (x0 : Vec F S10000x128 .f32) (xs0 xs1 xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 xs0) ∗ owns (c : Thread nD τ) arg5 fullShare (k7_pay5 x0 xs1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    rw [read_writes_unit7 arg4 _ zoff7_S1x128, readAt_unit_unread7 harg1 x0 zoff7_S10000x128, readAt_unit_unread7 harg4 xs0 zoff7_S1x128]
  · iexists _; isplitr; swap; · iexact HS1
    ipureintro
    rw [read_writes_unit7 arg5 _ zoff7_S1x128, readAt_unit_unread7 harg1 x0 zoff7_S10000x128, readAt_unit_unread7 harg5 xs1 zoff7_S1x128]

set_option maxHeartbeats 1000000 in
/-- THE LAST POINT (coordinate 9, not 0). As a middle point, and then each accumulator is copied whole into its
    output, which held anything. -/
theorem runC7 (c : Dev nD) (i : grid7.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond7_0 i) (hc1 : cond7_1 i)
    (x0 : Vec F S10000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k7_pay4 x0 xs0) ∗ owns (c : Thread nD τ) arg3 fullShare (k7_pay5 x0 xs1)
            ∗ owns (c : Thread nD τ) arg4 fullShare (k7_pay4 x0 xs0) ∗ owns (c : Thread nD τ) arg5 fullShare (k7_pay5 x0 xs1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; swap; · iexact H1
    ipureintro
    sl_unfold_run_names
    rw [read_writes_unit7 arg2 _ zoff7_S1x128, View.readCov_unit_zero _ zoff7_S1x128, readAt_unit_unread7 harg1 x0 zoff7_S10000x128, readAt_unit_unread7 harg4 xs0 zoff7_S1x128]
  isplitl [H2]
  · iexists _; isplitr; swap; · iexact H2
    ipureintro
    sl_unfold_run_names
    rw [read_writes_unit7 arg3 _ zoff7_S1x128, View.readCov_unit_zero _ zoff7_S1x128, readAt_unit_unread7 harg1 x0 zoff7_S10000x128, readAt_unit_unread7 harg5 xs1 zoff7_S1x128]
  isplitl [HS0]
  · iexists _; isplitr; swap; · iexact HS0
    ipureintro
    sl_unfold_run_names
    rw [read_writes_unit7 arg4 _ zoff7_S1x128, readAt_unit_unread7 harg1 x0 zoff7_S10000x128, readAt_unit_unread7 harg4 xs0 zoff7_S1x128]
  · iexists _; isplitr; swap; · iexact HS1
    ipureintro
    sl_unfold_run_names
    rw [read_writes_unit7 arg5 _ zoff7_S1x128, readAt_unit_unread7 harg1 x0 zoff7_S10000x128, readAt_unit_unread7 harg5 xs1 zoff7_S1x128]

end Cert.KernelIdeal.Hand
end
-- ==== Proof.Region7.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import proofs.«148009_j49555332661695_1_alg».proof.Proof.Region7Runs
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 7: the statistics kernel's pipeline, at the entry contents `V`

Grid of ten points. Window 0 is the input block (fetched at every point); windows 1 and 2 are the outputs, written back
only at the last point; two accumulators are carried from point to point in the kernel's own scratch. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose array is `V`'s
    and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The two conditions over the grid, and where the outputs are idle -/

/-- The first condition holds exactly at point 0. -/
theorem hcond7_0 : ∀ t : Fin cfg7.N, cond7_0 (grid7.coords t) ↔ t.val = 0 :=
  (by decide +kernel : ∀ t : Fin grid7.N, cond7_0 (grid7.coords t) ↔ t.val = 0)
/-- The second condition holds exactly at point 9. -/
theorem hcond7_1 : ∀ t : Fin cfg7.N, cond7_1 (grid7.coords t) ↔ t.val = 9 :=
  (by decide +kernel : ∀ t : Fin grid7.N, cond7_1 (grid7.coords t) ↔ t.val = 9)

/-- The input window is never idle. -/
theorem liveAt7_0 : ∀ t : Fin cfg7.N, cfg7.idle 0 (grid7.coords t) = false := by decide +kernel
/-- Off the last point each output is idle and is not written back; at the last point it is live. -/
theorem idleAt7_1 : ∀ t : Fin cfg7.N, ¬cond7_1 (grid7.coords t) → cfg7.idle 1 (grid7.coords t) = true := by decide +kernel
theorem noFlush7_1 : ∀ t : Fin cfg7.N, ¬cond7_1 (grid7.coords t) → (cfg7.win 1).flush t = false := by decide +kernel
theorem liveAt7_1 : ∀ t : Fin cfg7.N, cond7_1 (grid7.coords t) → cfg7.idle 1 (grid7.coords t) = false := by decide +kernel
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

/-! ## The memrefs the body is called with -/

abbrev ms7_0 (t : Fin cfg7.N) : Memref sig .tc .vmem S10000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
/-- The two accumulators: whole scoped buffers of the kernel's own. -/
abbrev scM7_0 : Memref sig .tc .vmem S1x128 .f32 := Memref.whole cc7_scratch0
abbrev scM7_1 : Memref sig .tc .vmem S1x128 .f32 := Memref.whole cc7_scratch1

/-- The class's invariant with the two accumulators split off as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## The accumulators after each point -/

/-- What the two accumulators hold after the body at position `n`: at the first point the block's column sums
    (resp. the column sums of its squares) added to zero; afterwards added to what the point before left. -/
def acc7 (c : Dev nD) : (n : ℕ) → n < cfg7.N → Vec F S1x128 .f32 × Vec F S1x128 .f32
  | 0, hn => (k7_pay4 (iblk7 V c 0 ⟨0, hn⟩) k7_pay1, k7_pay5 (iblk7 V c 0 ⟨0, hn⟩) k7_pay2)
  | n + 1, hn => (k7_pay4 (iblk7 V c 0 ⟨n + 1, hn⟩) (acc7 c n (Nat.lt_of_succ_lt hn)).1,
      k7_pay5 (iblk7 V c 0 ⟨n + 1, hn⟩) (acc7 c n (Nat.lt_of_succ_lt hn)).2)

theorem acc7_first (c : Dev nD) (t : Fin cfg7.N) (h : t.val = 0) :
    acc7 V c t.val t.isLt = (k7_pay4 (iblk7 V c 0 t) k7_pay1, k7_pay5 (iblk7 V c 0 t) k7_pay2) := by
  obtain ⟨n, hn⟩ := t
  cases n with
  | zero => rfl
  | succ n => exact absurd h (Nat.succ_ne_zero n)

theorem acc7_later (c : Dev nD) (t : Fin cfg7.N) (h : t.val ≠ 0) :
    acc7 V c t.val t.isLt = (k7_pay4 (iblk7 V c 0 t) (acc7 V c (t.val - 1) (Nat.lt_of_le_of_lt (Nat.sub_le _ _) t.isLt)).1,
      k7_pay5 (iblk7 V c 0 t) (acc7 V c (t.val - 1) (Nat.lt_of_le_of_lt (Nat.sub_le _ _) t.isLt)).2) := by
  obtain ⟨n, hn⟩ := t
  cases n with
  | zero => exact absurd rfl h
  | succ n => rfl

/-! ## The invariant -/

/-- Before position `n`: at the start the class's invariant (the accumulators at anything); afterwards the
    accumulators at what the point before left, the other scoped buffers and the generator register as they were. -/
def Phi7 (c : Dev nD) : (n : ℕ) → n ≤ cfg7.N → sProp 𝕄
  | 0, _ => Pipeline.ΦA spec7 c
  | n + 1, hn => iprop(iprop(iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r))

theorem Phi7_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r)) := rfl

theorem Phi7_pos (c : Dev nD) (n : ℕ) (h : n ≤ cfg7.N) (hz : n ≠ 0) :
    Phi7 V c n h = iprop(iprop(iprop(owns (c : Thread nD τ) scM7_0 fullShare (acc7 V c (n - 1) (by omega)).1 ∗ owns (c : Thread nD τ) scM7_1 fullShare (acc7 V c (n - 1) (by omega)).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The proof data -/

/-- The arrays as the region finds them; after the body at point `t` the input's buffer at its block and the two
    outputs' at the accumulators after `t` (the outputs are stored, and written back, at the last point only: there these
    are the full sums; at the other points the outputs are idle and nothing reads this field); the invariant
    `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (acc7 V c t.val t.isLt).1
    | ⟨2, _⟩ => (acc7 V c t.val t.isLt).2
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = (acc7 V c t.val t.isLt).1 := by dsimp only [dat7]
theorem after7_2 (c : Dev nD) (t : Fin cfg7.N) : (dat7 V c).after 2 t = (acc7 V c t.val t.isLt).2 := by dsimp only [dat7]

theorem before7_0 (c : Dev nD) (t : Fin cfg7.N) (d) : (dat7 V c).before 0 t d = iblk7 V c 0 t :=
  before7_0_of V (dat7 V c) (A_eq7 V c 0) (after7_0 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point, by the point's case: the input's memref holds its block; the invariant hands the body the
    accumulators (at anything at the first point, else at what the point before left) and takes them back at this
    point's; an idle output is handed back as found, a live one holds the accumulator. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = Phi7 V c (t.val + 1) t.isLt from rfl, Phi7_succ]
  rw [show (dat7 V c).leavesExact 0 t = owns (c : Thread nD τ) (ms7_0 t) fullShare ((dat7 V c).after 0 t) from by
    unfold Dat.leavesExact; rw [liveAt7_0 t], after7_0]
  have hN : t.val < 10 := lt_of_lt_of_eq t.isLt (show cfg7.N = 10 from N_7)
  by_cases h0 : t.val = 0
  · have hc0 : cond7_0 (grid7.coords t) := (hcond7_0 t).mpr h0
    have hc1 : ¬cond7_1 (grid7.coords t) := fun h => by have := (hcond7_1 t).mp h; omega
    rw [Dat.leavesExact_idle (dat7 V c) 1 t (idleAt7_1 t hc1) (noFlush7_1 t hc1),
      Dat.leavesExact_idle (dat7 V c) 2 t (idleAt7_2 t hc1) (noFlush7_2 t hc1)]
    rw [acc7_first V c t h0]; (try dsimp only)
    rw [Phi7_castSucc V c t, Phi7_zero V c _ _ h0, PhiA7_eq]
    iintro ⟨⟨⟨⟨HS0, HS1⟩, Hr⟩, Hg⟩, Ho, ⟨%d0, H0⟩, ⟨%d1, H1⟩, ⟨%d2, H2⟩⟩
    iapply (runA7 c (grid7.coords t) _ _ _ _ _ _ _ _ _ _ hc0 hc1 (iblk7 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · have hc0 : ¬cond7_0 (grid7.coords t) := fun h => h0 ((hcond7_0 t).mp h)
    rw [acc7_later V c t h0]; (try dsimp only)
    rw [Phi7_castSucc V c t, Phi7_pos V c _ _ h0]
    by_cases h9 : t.val = 9
    · have hc1 : cond7_1 (grid7.coords t) := (hcond7_1 t).mpr h9
      rw [show (dat7 V c).leavesExact 1 t = owns (c : Thread nD τ) (ms7_1 t) fullShare ((dat7 V c).after 1 t) from by
        unfold Dat.leavesExact; rw [liveAt7_1 t hc1], after7_1]
      rw [show (dat7 V c).leavesExact 2 t = owns (c : Thread nD τ) (ms7_2 t) fullShare ((dat7 V c).after 2 t) from by
        unfold Dat.leavesExact; rw [liveAt7_2 t hc1], after7_2]
      rw [acc7_later V c t h0]; (try dsimp only)
      iintro ⟨⟨⟨⟨HS0, HS1⟩, Hr⟩, Hg⟩, Ho, ⟨%d0, H0⟩, ⟨%d1, H1⟩, ⟨%d2, H2⟩⟩
      iapply (runC7 c (grid7.coords t) _ _ _ _ _ _ _ _ _ _ hc0 hc1 (iblk7 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · have hc1 : ¬cond7_1 (grid7.coords t) := fun h => h9 ((hcond7_1 t).mp h)
      rw [Dat.leavesExact_idle (dat7 V c) 1 t (idleAt7_1 t hc1) (noFlush7_1 t hc1),
        Dat.leavesExact_idle (dat7 V c) 2 t (idleAt7_2 t hc1) (noFlush7_2 t hc1)]
      iintro ⟨⟨⟨⟨HS0, HS1⟩, Hr⟩, Hg⟩, Ho, ⟨%d0, H0⟩, ⟨%d1, H1⟩, ⟨%d2, H2⟩⟩
      iapply (runB7 c (grid7.coords t) _ _ _ _ _ _ _ _ _ _ hc0 hc1 (iblk7 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem Phi7_in (c : Dev nD) : Pipeline.ΦA spec7 c ⊢ (dat7 V c).Φ 0 := by
  rw [show (dat7 V c).Φ 0 = Phi7 V c 0 (Nat.zero_le _) from rfl, Phi7_zero V c 0 _ rfl]
  try exact Idealize.SL.BI.Entails.refl _

/-- After the last point the invariant gives the class's back: the accumulators' contents are forgotten. -/
theorem Phi7_out (c : Dev nD) : (dat7 V c).Φ (Fin.last cfg7.N) ⊢ Pipeline.ΦA spec7 c := by
  have ht : (Fin.last cfg7.N).val ≠ 0 := by rw [Fin.val_last]; have : cfg7.N = 10 := N_7; omega
  rw [show (dat7 V c).Φ (Fin.last cfg7.N) = Phi7 V c (Fin.last cfg7.N).val (Nat.le_of_lt_succ (Fin.last cfg7.N).isLt) from rfl,
    Phi7_pos V c _ _ ht, PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.KernelIdeal.Hand
end
-- ==== Proof.Region8.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the normalise-and-rectify kernel, at the contents `V` the region is entered with -/

/-- The block of window `w` at grid point `t`: the window's view at that point, read off the array `V` holds. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The input windows' buffers hold their blocks

Each input window is whole and never idle, and the body leaves its buffer as found. Where the window is fetched the
buffer holds the block just fetched; where it is not (the four row windows after the first point) its block index is
the previous point's, so the buffer still holds this point's block. Stated for any proof data whose array is `V`'s
and whose body keeps the block. -/

theorem holds8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl)
      (fun t => by rw [hafter]; unfold Dat.blockOf iblk8; rw [hA]; try rfl) t d).trans
    (by unfold Dat.fetched Dat.blockOf iblk8; rw [hA]; try rfl)

theorem holds8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl)
      (fun t => by rw [hafter]; unfold Dat.blockOf iblk8; rw [hA]; try rfl) t d).trans
    (by unfold Dat.fetched Dat.blockOf iblk8; rw [hA]; try rfl)

theorem holds8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl)
      (fun t => by rw [hafter]; unfold Dat.blockOf iblk8; rw [hA]; try rfl) t d).trans
    (by unfold Dat.fetched Dat.blockOf iblk8; rw [hA]; try rfl)

theorem holds8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl)
      (fun t => by rw [hafter]; unfold Dat.blockOf iblk8; rw [hA]; try rfl) t d).trans
    (by unfold Dat.fetched Dat.blockOf iblk8; rw [hA]; try rfl)

theorem holds8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl)
      (fun t => by rw [hafter]; unfold Dat.blockOf iblk8; rw [hA]; try rfl) t d).trans
    (by unfold Dat.fetched Dat.blockOf iblk8; rw [hA]; try rfl)

/-! ## What the body stores -/

/-- The whole input block and the whole row, as rectangles. -/
abbrev rBlk8 : Rect S10000x128 := Rect.unit (s := S10000x128) ![0, 0] S10000x128.size inb_S10000x128_S10000x128_0_0
abbrev rRow8 : Rect S1x128 := Rect.unit (s := S1x128) ![0, 0] S1x128.size inb_S1x128_S1x128_0_0

/-- The output block from the five input blocks: `x0` the data, `x1` the mean row, `x2` the variance row, `x3` the
    scale row, `x4` the shift row. The body makes one store, of the whole block: the data less the mean, times the
    reciprocal root of the variance plus a constant, times the scale, plus the shift, and the larger of that and zero. -/
def bnBlock8 (x0 : Vec F S10000x128 .f32) (x1 x2 x3 x4 : Vec F S1x128 .f32) : Vec F S10000x128 .f32 :=
  View.canon [⟨rBlk8, k8_pay1 (View.ld x0 rBlk8) (View.ld x2 rRow8) (View.ld x1 rRow8) (View.ld x3 rRow8) (View.ld x4 rRow8)⟩]

/-- The one store is of the whole block, so every place of the block lies in it. -/
theorem cover8_5 (p : Vec F S10000x128 .f32) (y : S10000x128.Idx) :
    ∃ pc ∈ ([⟨rBlk8, p⟩] : List (View.Piece (Elt F) S10000x128 .f32)), y ∈ pc.1.set :=
  View.cover_of_tiled [⟨rBlk8, p⟩] S10000x128.size (by rfl) y

/-! ## The body's triple -/

set_option maxHeartbeats 1000000 in
/-- The body on six whole buffers — the five inputs at contents `x0 … x4`, the output at anything — runs to a state
    with the inputs as they were and the output at `bnBlock8 x0 x1 x2 x3 x4`. It reads the output buffer once before
    storing and does not use what it read. -/
theorem run_kernel8 (c : Dev nD) (E : Set ℕ) (i : grid8.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (bnBlock8 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data -/

/-- The arrays are `V`'s; after the body at point `t` each input buffer holds its block and the output buffer holds
    `bnBlock8` of the five input blocks; the invariant is the region's rest, untouched; nothing is owed; shares are full. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => bnBlock8 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t
    = bnBlock8 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  holds8_0_of V (dat8 V c) (A_eq8 V c 0) (after8_0 V c) t d
theorem before8_1 (c : Dev nD) (t : Fin cfg8.N) (d) : (dat8 V c).before 1 t d = iblk8 V c 1 t :=
  holds8_1_of V (dat8 V c) (A_eq8 V c 1) (after8_1 V c) t d
theorem before8_2 (c : Dev nD) (t : Fin cfg8.N) (d) : (dat8 V c).before 2 t d = iblk8 V c 2 t :=
  holds8_2_of V (dat8 V c) (A_eq8 V c 2) (after8_2 V c) t d
theorem before8_3 (c : Dev nD) (t : Fin cfg8.N) (d) : (dat8 V c).before 3 t d = iblk8 V c 3 t :=
  holds8_3_of V (dat8 V c) (A_eq8 V c 3) (after8_3 V c) t d
theorem before8_4 (c : Dev nD) (t : Fin cfg8.N) (d) : (dat8 V c).before 4 t d = iblk8 V c 4 t :=
  holds8_4_of V (dat8 V c) (A_eq8 V c 4) (after8_4 V c) t d

/-! ## The body obligation -/

/-- What the body is given at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it gives back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the kernel's triple applies; the invariant and
    what is owed pass through unread. -/
theorem run_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (run_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact run_body8 V c t

/-! ## The invariant at the ends -/

theorem Phi8_in (c : Dev nD) : Pipeline.ΦA spec8 c ⊢ (dat8 V c).Φ 0 := by
  show Pipeline.ΦA spec8 c ⊢ Pipeline.ΦA spec8 c
  exact .rfl

theorem Phi8_out (c : Dev nD) : (dat8 V c).Φ (Fin.last cfg8.N) ⊢ Pipeline.ΦA spec8 c := by
  show Pipeline.ΦA spec8 c ⊢ Pipeline.ΦA spec8 c
  exact .rfl

end Cert.KernelIdeal.Hand
-- ==== Proof.Region9.lean ====
import proofs.«148009_j49555332661695_1_alg».proof.Proof.Gen.KernelIdeal.Launch
import proofs.«148009_j49555332661695_1_alg».proof.Proof.Gen.KernelIdeal.Skeleton
import proofs.«148009_j49555332661695_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: the two-layer perceptron with a softmax, at the contents `V` the region is entered with -/

/-- The block of window `w` at grid point `t`: the window's view at that point, read off the array `V` holds. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The input windows' buffers hold their blocks

Each input window is whole and never idle, and the body leaves its buffer as found; the grid has one point, where
every window is fetched, so the buffer holds the block just fetched. Stated for any proof data whose array is `V`'s
and whose body keeps the block. -/

theorem holds9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl)
      (fun t => by rw [hafter]; unfold Dat.blockOf iblk9; rw [hA]; try rfl) t d).trans
    (by unfold Dat.fetched Dat.blockOf iblk9; rw [hA]; try rfl)

theorem holds9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl)
      (fun t => by rw [hafter]; unfold Dat.blockOf iblk9; rw [hA]; try rfl) t d).trans
    (by unfold Dat.fetched Dat.blockOf iblk9; rw [hA]; try rfl)

theorem holds9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl)
      (fun t => by rw [hafter]; unfold Dat.blockOf iblk9; rw [hA]; try rfl) t d).trans
    (by unfold Dat.fetched Dat.blockOf iblk9; rw [hA]; try rfl)

theorem holds9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl)
      (fun t => by rw [hafter]; unfold Dat.blockOf iblk9; rw [hA]; try rfl) t d).trans
    (by unfold Dat.fetched Dat.blockOf iblk9; rw [hA]; try rfl)

theorem holds9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl)
      (fun t => by rw [hafter]; unfold Dat.blockOf iblk9; rw [hA]; try rfl) t d).trans
    (by unfold Dat.fetched Dat.blockOf iblk9; rw [hA]; try rfl)

theorem holds9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl)
      (fun t => by rw [hafter]; unfold Dat.blockOf iblk9; rw [hA]; try rfl) t d).trans
    (by unfold Dat.fetched Dat.blockOf iblk9; rw [hA]; try rfl)

theorem holds9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl)
      (fun t => by rw [hafter]; unfold Dat.blockOf iblk9; rw [hA]; try rfl) t d).trans
    (by unfold Dat.fetched Dat.blockOf iblk9; rw [hA]; try rfl)

/-! ## What the body stores -/

/-- Each input block and the output block, whole, as rectangles. -/
abbrev rIn9_0 : Rect S1024x128 := Rect.unit (s := S1024x128) ![0, 0] S1024x128.size inb_S1024x128_S1024x128_0_0
abbrev rIn9_1 : Rect S1024x10 := Rect.unit (s := S1024x10) ![0, 0] S1024x10.size inb_S1024x10_S1024x10_0_0
abbrev rIn9_2 : Rect S128x256 := Rect.unit (s := S128x256) ![0, 0] S128x256.size inb_S128x256_S128x256_0_0
abbrev rIn9_3 : Rect S10x256 := Rect.unit (s := S10x256) ![0, 0] S10x256.size inb_S10x256_S10x256_0_0
abbrev rIn9_4 : Rect S1x256 := Rect.unit (s := S1x256) ![0, 0] S1x256.size inb_S1x256_S1x256_0_0
abbrev rIn9_5 : Rect S256x10 := Rect.unit (s := S256x10) ![0, 0] S256x10.size inb_S256x10_S256x10_0_0
abbrev rIn9_6 : Rect S1x10 := Rect.unit (s := S1x10) ![0, 0] S1x10.size inb_S1x10_S1x10_0_0
abbrev rOut9 : Rect S1024x10 := Rect.unit (s := S1024x10) ![0, 0] S1024x10.size inb_S1024x10_S1024x10_0_0

/-- The output block from the seven input blocks: `x0`, `x1` the two data blocks, `x2`, `x3` their weights, `x4` the
    hidden bias row, `x5` the second weights, `x6` the output bias row. The body makes one store, of the whole block,
    of the skeleton's payload: with every matrix-product operand first converted to bf16, the hidden block is the
    larger of zero and the sum of the two products and the bias row; the logits are its product with the second weights
    plus the output bias row; the stored value is the elementwise quotient of the exponential of the logits less
    their row maximum (`k9_pay2`) by that exponential's row sum spread along the row (`k9_pay3`). -/
def mlpBlock9 (x0 : Vec F S1024x128 .f32) (x1 : Vec F S1024x10 .f32) (x2 : Vec F S128x256 .f32) (x3 : Vec F S10x256 .f32)
    (x4 : Vec F S1x256 .f32) (x5 : Vec F S256x10 .f32) (x6 : Vec F S1x10 .f32) : Vec F S1024x10 .f32 :=
  View.canon [⟨rOut9, k9_pay1 (k9_pay2 (View.ld x0 rIn9_0) (View.ld x1 rIn9_1) (View.ld x2 rIn9_2) (View.ld x3 rIn9_3) (View.ld x4 rIn9_4) (View.ld x5 rIn9_5) (View.ld x6 rIn9_6)) (k9_pay3 (View.ld x0 rIn9_0) (View.ld x1 rIn9_1) (View.ld x2 rIn9_2) (View.ld x3 rIn9_3) (View.ld x4 rIn9_4) (View.ld x5 rIn9_5) (View.ld x6 rIn9_6))⟩]

/-- The one store is of the whole block, so every place of the block lies in it. -/
theorem cover9_7 (p : Vec F S1024x10 .f32) (y : S1024x10.Idx) :
    ∃ pc ∈ ([⟨rOut9, p⟩] : List (View.Piece (Elt F) S1024x10 .f32)), y ∈ pc.1.set :=
  View.cover_of_tiled [⟨rOut9, p⟩] S1024x10.size (by rfl) y

/-! ## The body's triple -/

set_option maxHeartbeats 1000000 in
/-- The body on eight whole buffers — the seven inputs at contents `x0 … x6`, the output at anything — runs to a state
    with the inputs as they were and the output at `mlpBlock9 x0 … x6`. It reads the output buffer once before
    storing and does not use what it read. -/
theorem run_kernel9 (c : Dev nD) (E : Set ℕ) (i : grid9.Coords)
    (arg1 : Memref sig .tc .vmem S1024x128 .f32) (harg1 : arg1.IsWhole)
    (arg2 : Memref sig .tc .vmem S1024x10 .f32) (harg2 : arg2.IsWhole)
    (arg3 : Memref sig .tc .vmem S128x256 .f32) (harg3 : arg3.IsWhole)
    (arg4 : Memref sig .tc .vmem S10x256 .f32) (harg4 : arg4.IsWhole)
    (arg5 : Memref sig .tc .vmem S1x256 .f32) (harg5 : arg5.IsWhole)
    (arg6 : Memref sig .tc .vmem S256x10 .f32) (harg6 : arg6.IsWhole)
    (arg7 : Memref sig .tc .vmem S1x10 .f32) (harg7 : arg7.IsWhole)
    (arg8 : Memref sig .tc .vmem S1024x10 .f32) (harg8 : arg8.IsWhole)
    (x0 : Vec F S1024x128 .f32) (x1 : Vec F S1024x10 .f32) (x2 : Vec F S128x256 .f32) (x3 : Vec F S10x256 .f32) (x4 : Vec F S1x256 .f32) (x5 : Vec F S256x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (mlpBlock9 x0 x1 x2 x3 x4 x5 x6)) -∗ K ⟨⟩))
      ⊢ wp frame (wpE (defs₀ (F := F)) Variants.none c none) E (cc9__mlp_kernel i arg1 harg1 arg2 harg2 arg3 harg3 arg4 harg4 arg5 harg5 arg6 harg6 arg7 harg7 arg8 harg8) K := by
  simp only [cc9__mlp_kernel_eq_skeleton]; unfold cc9__mlp_kernel_skel
  simp only [k9_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The proof data -/

/-- The arrays are `V`'s; after the body at point `t` each input buffer holds its block and the output buffer holds
    `mlpBlock9` of the seven input blocks; the invariant is the region's rest, untouched; nothing is owed; shares are full. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => mlpBlock9 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t
    = mlpBlock9 (iblk9 V c 0 t) (iblk9 V c 1 t) (iblk9 V c 2 t) (iblk9 V c 3 t) (iblk9 V c 4 t) (iblk9 V c 5 t) (iblk9 V c 6 t) := by dsimp only [dat9]

theorem before9_0 (c : Dev nD) (t : Fin cfg9.N) (d) : (dat9 V c).before 0 t d = iblk9 V c 0 t :=
  holds9_0_of V (dat9 V c) (A_eq9 V c 0) (after9_0 V c) t d
theorem before9_1 (c : Dev nD) (t : Fin cfg9.N) (d) : (dat9 V c).before 1 t d = iblk9 V c 1 t :=
  holds9_1_of V (dat9 V c) (A_eq9 V c 1) (after9_1 V c) t d
theorem before9_2 (c : Dev nD) (t : Fin cfg9.N) (d) : (dat9 V c).before 2 t d = iblk9 V c 2 t :=
  holds9_2_of V (dat9 V c) (A_eq9 V c 2) (after9_2 V c) t d
theorem before9_3 (c : Dev nD) (t : Fin cfg9.N) (d) : (dat9 V c).before 3 t d = iblk9 V c 3 t :=
  holds9_3_of V (dat9 V c) (A_eq9 V c 3) (after9_3 V c) t d
theorem before9_4 (c : Dev nD) (t : Fin cfg9.N) (d) : (dat9 V c).before 4 t d = iblk9 V c 4 t :=
  holds9_4_of V (dat9 V c) (A_eq9 V c 4) (after9_4 V c) t d
theorem before9_5 (c : Dev nD) (t : Fin cfg9.N) (d) : (dat9 V c).before 5 t d = iblk9 V c 5 t :=
  holds9_5_of V (dat9 V c) (A_eq9 V c 5) (after9_5 V c) t d
theorem before9_6 (c : Dev nD) (t : Fin cfg9.N) (d) : (dat9 V c).before 6 t d = iblk9 V c 6 t :=
  holds9_6_of V (dat9 V c) (A_eq9 V c 6) (after9_6 V c) t d

/-! ## The body obligation -/

/-- What the body is given at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it gives back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so the kernel's triple applies; the invariant and
    what is owed pass through unread. -/
theorem run_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kernel9 c Set.univ (grid9.coords t) _ _ _ _ _ _ _ _ _ _ _ _ _ _ _ _
    (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation9 (c : Dev nD) : BodyObligation (dat9 (F := F) V c) (defs₀ (F := F)) Variants.none () Set.univ := fun t => by
  rw [bigSep_W9, bigSep_W9]
  exact run_body9 V c t

/-! ## The invariant at the ends -/

theorem Phi9_in (c : Dev nD) : Pipeline.ΦA spec9 c ⊢ (dat9 V c).Φ 0 := by
  show Pipeline.ΦA spec9 c ⊢ Pipeline.ΦA spec9 c
  exact .rfl

theorem Phi9_out (c : Dev nD) : (dat9 V c).Φ (Fin.last cfg9.N) ⊢ Pipeline.ΦA spec9 c := by
  show Pipeline.ΦA spec9 c ⊢ Pipeline.ΦA spec9 c
  exact .rfl

end Cert.KernelIdeal.Hand
-- ==== Proof.Contents.lean ====
/-
  What every unscoped buffer holds between two items of the program, as a function of the launch memory.

  The program is twenty items: ten stretches of host operations, each followed by a kernel region. A stretch changes
  the buffers its operations write; a region changes only its output windows' arrays, and leaves in each what the
  pipeline's write-backs leave there, which the region's proof data compute from the contents the region was entered
  with. So the contents after each item are defined item by item from the launch memory. The generated valuations take
  the regions' results as a table indexed by (item, buffer); this module fills that table one region at a time and
  shows that a valuation only reads the entries of earlier items.
-/
import proofs.«148009_j49555332661695_1_alg».proof.Proof.RegionRecord
import proofs.«148009_j49555332661695_1_alg».proof.Proof.Region0
import proofs.«148009_j49555332661695_1_alg».proof.Proof.Region1
import proofs.«148009_j49555332661695_1_alg».proof.Proof.Region2
import proofs.«148009_j49555332661695_1_alg».proof.Proof.Region3
import proofs.«148009_j49555332661695_1_alg».proof.Proof.Region4
import proofs.«148009_j49555332661695_1_alg».proof.Proof.Region5
import proofs.«148009_j49555332661695_1_alg».proof.Proof.Region6
import proofs.«148009_j49555332661695_1_alg».proof.Proof.Region7
import proofs.«148009_j49555332661695_1_alg».proof.Proof.Region8
import proofs.«148009_j49555332661695_1_alg».proof.Proof.Region9

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The table of the regions' results, filled one entry at a time -/

/-- The table with the entry (item `J`, buffer `r`) set to `x`. -/
def setOut (o : Outs (F := F)) (J : ℕ) (r : Ref sig .tc) (x : (c : Dev nD) → Buf (Elt F) ((c : Thread nD τ).loc r)) : Outs (F := F) :=
  fun J' r' c => if h : J' = J ∧ r' = r then h.2 ▸ x c else o J' r' c

theorem setOut_same (o : Outs (F := F)) (J : ℕ) (r : Ref sig .tc) (x) (c : Dev nD) : setOut o J r x J r c = x c := by
  unfold setOut; rw [dif_pos ⟨rfl, rfl⟩]

theorem setOut_other (o : Outs (F := F)) (J : ℕ) (r : Ref sig .tc) (x) (J' : ℕ) (r' : Ref sig .tc) (c : Dev nD)
    (h : ¬(J' = J ∧ r' = r)) : setOut o J r x J' r' c = o J' r' c := by
  unfold setOut; rw [dif_neg h]

/-- Two tables agree on the items up to `n`. -/
def Agree (n : ℕ) (o o' : Outs (F := F)) : Prop := ∀ J, J ≤ n → ∀ r c, o J r c = o' J r c

theorem Agree.mono {n n' : ℕ} {o o' : Outs (F := F)} (h : Agree n o o') (hn : n' ≤ n) : Agree n' o o' :=
  fun J hJ => h J (hJ.trans hn)
theorem Agree.refl (n : ℕ) (o : Outs (F := F)) : Agree n o o := fun _ _ _ _ => rfl
theorem Agree.symm {n : ℕ} {o o' : Outs (F := F)} (h : Agree n o o') : Agree n o' o := fun J hJ r c => (h J hJ r c).symm
theorem Agree.trans {n : ℕ} {o o' o'' : Outs (F := F)} (h : Agree n o o') (h' : Agree n o' o'') : Agree n o o'' :=
  fun J hJ r c => (h J hJ r c).trans (h' J hJ r c)
/-- Setting an entry of a later item changes nothing up to `n`. -/
theorem agree_setOut (o : Outs (F := F)) (J : ℕ) (r : Ref sig .tc) (x) (n : ℕ) (hn : n < J) : Agree n (setOut o J r x) o :=
  fun J' hJ' r' c => setOut_other o J r x J' r' c fun h => by omega

/-! ## A valuation reads only earlier items' entries -/
theorem V2_congr {o o' : Outs (F := F)} (h : Agree 2 o o') (c : Dev nD) : V2 m o c = V2 m o' c := by
  unfold V2
  rw [h 2 le_rfl main_v18 c]
theorem V3_congr {o o' : Outs (F := F)} (h : Agree 2 o o') (c : Dev nD) : V3 m o c = V3 m o' c :=
  congrArg (StableHlo.after hostOps1) (V2_congr m h c)
theorem V4_congr {o o' : Outs (F := F)} (h : Agree 4 o o') (c : Dev nD) : V4 m o c = V4 m o' c := by
  unfold V4
  rw [V3_congr m (h.mono (by omega)) c, h 4 le_rfl main_v22_0 c, h 4 le_rfl main_v22_1 c]
theorem V5_congr {o o' : Outs (F := F)} (h : Agree 4 o o') (c : Dev nD) : V5 m o c = V5 m o' c :=
  congrArg (StableHlo.after hostOps2) (V4_congr m h c)
theorem V6_congr {o o' : Outs (F := F)} (h : Agree 6 o o') (c : Dev nD) : V6 m o c = V6 m o' c := by
  unfold V6
  rw [V5_congr m (h.mono (by omega)) c, h 6 le_rfl main_v35 c]
theorem V7_congr {o o' : Outs (F := F)} (h : Agree 6 o o') (c : Dev nD) : V7 m o c = V7 m o' c :=
  congrArg (StableHlo.after hostOps3) (V6_congr m h c)
theorem V8_congr {o o' : Outs (F := F)} (h : Agree 8 o o') (c : Dev nD) : V8 m o c = V8 m o' c := by
  unfold V8
  rw [V7_congr m (h.mono (by omega)) c, h 8 le_rfl main_v50 c]
theorem V9_congr {o o' : Outs (F := F)} (h : Agree 8 o o') (c : Dev nD) : V9 m o c = V9 m o' c :=
  congrArg (StableHlo.after hostOps4) (V8_congr m h c)
theorem V10_congr {o o' : Outs (F := F)} (h : Agree 10 o o') (c : Dev nD) : V10 m o c = V10 m o' c := by
  unfold V10
  rw [V9_congr m (h.mono (by omega)) c, h 10 le_rfl main_v54_0 c, h 10 le_rfl main_v54_1 c]
theorem V11_congr {o o' : Outs (F := F)} (h : Agree 10 o o') (c : Dev nD) : V11 m o c = V11 m o' c :=
  congrArg (StableHlo.after hostOps5) (V10_congr m h c)
theorem V12_congr {o o' : Outs (F := F)} (h : Agree 12 o o') (c : Dev nD) : V12 m o c = V12 m o' c := by
  unfold V12
  rw [V11_congr m (h.mono (by omega)) c, h 12 le_rfl main_v67 c]
theorem V13_congr {o o' : Outs (F := F)} (h : Agree 12 o o') (c : Dev nD) : V13 m o c = V13 m o' c :=
  congrArg (StableHlo.after hostOps6) (V12_congr m h c)
theorem V14_congr {o o' : Outs (F := F)} (h : Agree 14 o o') (c : Dev nD) : V14 m o c = V14 m o' c := by
  unfold V14
  rw [V13_congr m (h.mono (by omega)) c, h 14 le_rfl main_v82 c]
theorem V15_congr {o o' : Outs (F := F)} (h : Agree 14 o o') (c : Dev nD) : V15 m o c = V15 m o' c :=
  congrArg (StableHlo.after hostOps7) (V14_congr m h c)
theorem V16_congr {o o' : Outs (F := F)} (h : Agree 16 o o') (c : Dev nD) : V16 m o c = V16 m o' c := by
  unfold V16
  rw [V15_congr m (h.mono (by omega)) c, h 16 le_rfl main_v86_0 c, h 16 le_rfl main_v86_1 c]
theorem V17_congr {o o' : Outs (F := F)} (h : Agree 16 o o') (c : Dev nD) : V17 m o c = V17 m o' c :=
  congrArg (StableHlo.after hostOps8) (V16_congr m h c)
theorem V18_congr {o o' : Outs (F := F)} (h : Agree 18 o o') (c : Dev nD) : V18 m o c = V18 m o' c := by
  unfold V18
  rw [V17_congr m (h.mono (by omega)) c, h 18 le_rfl main_v99 c]
theorem V19_congr {o o' : Outs (F := F)} (h : Agree 18 o o') (c : Dev nD) : V19 m o c = V19 m o' c :=
  congrArg (StableHlo.after hostOps9) (V18_congr m h c)
theorem V20_congr {o o' : Outs (F := F)} (h : Agree 20 o o') (c : Dev nD) : V20 m o c = V20 m o' c := by
  unfold V20
  rw [V19_congr m (h.mono (by omega)) c, h 20 le_rfl main_v107 c]

/-! ## The regions' results, one region at a time -/

/-- Before any region has run nothing is known: the table's entries are placeholders (the launch contents). -/
def outsUpTo0 : Outs (F := F) := fun _ r c => m ((c : Thread nD τ).loc r)

/-- The contents region 0 is entered with. -/
abbrev entry0 : (c : Dev nD) → (b : Ref sig .tc) → Buf (Elt F) ((c : Thread nD τ).loc b) := fun c b => V1 m c b
/-- What region 0's write-backs leave in `main_v18`. -/
def res_main_v18 (c : Dev nD) : Buf (Elt F) ((c : Thread nD τ).loc main_v18) := (dat0 (entry0 m) c).arrAt 5 cfg0.N
/-- The table once region 0 has run. -/
def outsUpTo1 : Outs (F := F) := setOut (outsUpTo0 m) 2 main_v18 (res_main_v18 m)
theorem agree_1_0 : Agree 1 (outsUpTo1 m) (outsUpTo0 m) := by
  unfold outsUpTo1
  exact agree_setOut _ _ _ _ _ (by omega)

/-- The contents region 1 is entered with. -/
abbrev entry1 : (c : Dev nD) → (b : Ref sig .tc) → Buf (Elt F) ((c : Thread nD τ).loc b) := fun c b => V3 m (outsUpTo1 m) c b
/-- What region 1's write-backs leave in `main_v22_0`. -/
def res_main_v22_0 (c : Dev nD) : Buf (Elt F) ((c : Thread nD τ).loc main_v22_0) := (dat1 (entry1 m) c).arrAt 1 cfg1.N
/-- What region 1's write-backs leave in `main_v22_1`. -/
def res_main_v22_1 (c : Dev nD) : Buf (Elt F) ((c : Thread nD τ).loc main_v22_1) := (dat1 (entry1 m) c).arrAt 2 cfg1.N
/-- The table once region 1 has run. -/
def outsUpTo2 : Outs (F := F) := setOut (setOut (outsUpTo1 m) 4 main_v22_0 (res_main_v22_0 m)) 4 main_v22_1 (res_main_v22_1 m)
theorem agree_2_1 : Agree 3 (outsUpTo2 m) (outsUpTo1 m) := by
  unfold outsUpTo2
  exact (agree_setOut _ _ _ _ _ (by omega)).trans (agree_setOut _ _ _ _ _ (by omega))

/-- The contents region 2 is entered with. -/
abbrev entry2 : (c : Dev nD) → (b : Ref sig .tc) → Buf (Elt F) ((c : Thread nD τ).loc b) := fun c b => V5 m (outsUpTo2 m) c b
/-- What region 2's write-backs leave in `main_v35`. -/
def res_main_v35 (c : Dev nD) : Buf (Elt F) ((c : Thread nD τ).loc main_v35) := (dat2 (entry2 m) c).arrAt 5 cfg2.N
/-- The table once region 2 has run. -/
def outsUpTo3 : Outs (F := F) := setOut (outsUpTo2 m) 6 main_v35 (res_main_v35 m)
theorem agree_3_2 : Agree 5 (outsUpTo3 m) (outsUpTo2 m) := by
  unfold outsUpTo3
  exact agree_setOut _ _ _ _ _ (by omega)

/-- The contents region 3 is entered with. -/
abbrev entry3 : (c : Dev nD) → (b : Ref sig .tc) → Buf (Elt F) ((c : Thread nD τ).loc b) := fun c b => V7 m (outsUpTo3 m) c b
/-- What region 3's write-backs leave in `main_v50`. -/
def res_main_v50 (c : Dev nD) : Buf (Elt F) ((c : Thread nD τ).loc main_v50) := (dat3 (entry3 m) c).arrAt 5 cfg3.N
/-- The table once region 3 has run. -/
def outsUpTo4 : Outs (F := F) := setOut (outsUpTo3 m) 8 main_v50 (res_main_v50 m)
theorem agree_4_3 : Agree 7 (outsUpTo4 m) (outsUpTo3 m) := by
  unfold outsUpTo4
  exact agree_setOut _ _ _ _ _ (by omega)

/-- The contents region 4 is entered with. -/
abbrev entry4 : (c : Dev nD) → (b : Ref sig .tc) → Buf (Elt F) ((c : Thread nD τ).loc b) := fun c b => V9 m (outsUpTo4 m) c b
/-- What region 4's write-backs leave in `main_v54_0`. -/
def res_main_v54_0 (c : Dev nD) : Buf (Elt F) ((c : Thread nD τ).loc main_v54_0) := (dat4 (entry4 m) c).arrAt 1 cfg4.N
/-- What region 4's write-backs leave in `main_v54_1`. -/
def res_main_v54_1 (c : Dev nD) : Buf (Elt F) ((c : Thread nD τ).loc main_v54_1) := (dat4 (entry4 m) c).arrAt 2 cfg4.N
/-- The table once region 4 has run. -/
def outsUpTo5 : Outs (F := F) := setOut (setOut (outsUpTo4 m) 10 main_v54_0 (res_main_v54_0 m)) 10 main_v54_1 (res_main_v54_1 m)
theorem agree_5_4 : Agree 9 (outsUpTo5 m) (outsUpTo4 m) := by
  unfold outsUpTo5
  exact (agree_setOut _ _ _ _ _ (by omega)).trans (agree_setOut _ _ _ _ _ (by omega))

/-- The contents region 5 is entered with. -/
abbrev entry5 : (c : Dev nD) → (b : Ref sig .tc) → Buf (Elt F) ((c : Thread nD τ).loc b) := fun c b => V11 m (outsUpTo5 m) c b
/-- What region 5's write-backs leave in `main_v67`. -/
def res_main_v67 (c : Dev nD) : Buf (Elt F) ((c : Thread nD τ).loc main_v67) := (dat5 (entry5 m) c).arrAt 5 cfg5.N
/-- The table once region 5 has run. -/
def outsUpTo6 : Outs (F := F) := setOut (outsUpTo5 m) 12 main_v67 (res_main_v67 m)
theorem agree_6_5 : Agree 11 (outsUpTo6 m) (outsUpTo5 m) := by
  unfold outsUpTo6
  exact agree_setOut _ _ _ _ _ (by omega)

/-- The contents region 6 is entered with. -/
abbrev entry6 : (c : Dev nD) → (b : Ref sig .tc) → Buf (Elt F) ((c : Thread nD τ).loc b) := fun c b => V13 m (outsUpTo6 m) c b
/-- What region 6's write-backs leave in `main_v82`. -/
def res_main_v82 (c : Dev nD) : Buf (Elt F) ((c : Thread nD τ).loc main_v82) := (dat6 (entry6 m) c).arrAt 5 cfg6.N
/-- The table once region 6 has run. -/
def outsUpTo7 : Outs (F := F) := setOut (outsUpTo6 m) 14 main_v82 (res_main_v82 m)
theorem agree_7_6 : Agree 13 (outsUpTo7 m) (outsUpTo6 m) := by
  unfold outsUpTo7
  exact agree_setOut _ _ _ _ _ (by omega)

/-- The contents region 7 is entered with. -/
abbrev entry7 : (c : Dev nD) → (b : Ref sig .tc) → Buf (Elt F) ((c : Thread nD τ).loc b) := fun c b => V15 m (outsUpTo7 m) c b
/-- What region 7's write-backs leave in `main_v86_0`. -/
def res_main_v86_0 (c : Dev nD) : Buf (Elt F) ((c : Thread nD τ).loc main_v86_0) := (dat7 (entry7 m) c).arrAt 1 cfg7.N
/-- What region 7's write-backs leave in `main_v86_1`. -/
def res_main_v86_1 (c : Dev nD) : Buf (Elt F) ((c : Thread nD τ).loc main_v86_1) := (dat7 (entry7 m) c).arrAt 2 cfg7.N
/-- The table once region 7 has run. -/
def outsUpTo8 : Outs (F := F) := setOut (setOut (outsUpTo7 m) 16 main_v86_0 (res_main_v86_0 m)) 16 main_v86_1 (res_main_v86_1 m)
theorem agree_8_7 : Agree 15 (outsUpTo8 m) (outsUpTo7 m) := by
  unfold outsUpTo8
  exact (agree_setOut _ _ _ _ _ (by omega)).trans (agree_setOut _ _ _ _ _ (by omega))

/-- The contents region 8 is entered with. -/
abbrev entry8 : (c : Dev nD) → (b : Ref sig .tc) → Buf (Elt F) ((c : Thread nD τ).loc b) := fun c b => V17 m (outsUpTo8 m) c b
/-- What region 8's write-backs leave in `main_v99`. -/
def res_main_v99 (c : Dev nD) : Buf (Elt F) ((c : Thread nD τ).loc main_v99) := (dat8 (entry8 m) c).arrAt 5 cfg8.N
/-- The table once region 8 has run. -/
def outsUpTo9 : Outs (F := F) := setOut (outsUpTo8 m) 18 main_v99 (res_main_v99 m)
theorem agree_9_8 : Agree 17 (outsUpTo9 m) (outsUpTo8 m) := by
  unfold outsUpTo9
  exact agree_setOut _ _ _ _ _ (by omega)

/-- The contents region 9 is entered with. -/
abbrev entry9 : (c : Dev nD) → (b : Ref sig .tc) → Buf (Elt F) ((c : Thread nD τ).loc b) := fun c b => V19 m (outsUpTo9 m) c b
/-- What region 9's write-backs leave in `main_v107`. -/
def res_main_v107 (c : Dev nD) : Buf (Elt F) ((c : Thread nD τ).loc main_v107) := (dat9 (entry9 m) c).arrAt 7 cfg9.N
/-- The table once region 9 has run. -/
def outsUpTo10 : Outs (F := F) := setOut (outsUpTo9 m) 20 main_v107 (res_main_v107 m)
theorem agree_10_9 : Agree 19 (outsUpTo10 m) (outsUpTo9 m) := by
  unfold outsUpTo10
  exact agree_setOut _ _ _ _ _ (by omega)

/-- The whole table. -/
abbrev outsAll : Outs (F := F) := outsUpTo10 m
theorem agree_all_10 : Agree 21 (outsAll m) (outsUpTo10 m) := Agree.refl _ _
theorem agree_all_9 : Agree 19 (outsAll m) (outsUpTo9 m) := (agree_10_9 m).mono (by omega)
theorem agree_all_8 : Agree 17 (outsAll m) (outsUpTo8 m) := ((agree_10_9 m).mono (by omega)).trans ((agree_9_8 m).mono (by omega))
theorem agree_all_7 : Agree 15 (outsAll m) (outsUpTo7 m) := (((agree_10_9 m).mono (by omega)).trans ((agree_9_8 m).mono (by omega))).trans ((agree_8_7 m).mono (by omega))
theorem agree_all_6 : Agree 13 (outsAll m) (outsUpTo6 m) := ((((agree_10_9 m).mono (by omega)).trans ((agree_9_8 m).mono (by omega))).trans ((agree_8_7 m).mono (by omega))).trans ((agree_7_6 m).mono (by omega))
theorem agree_all_5 : Agree 11 (outsAll m) (outsUpTo5 m) := (((((agree_10_9 m).mono (by omega)).trans ((agree_9_8 m).mono (by omega))).trans ((agree_8_7 m).mono (by omega))).trans ((agree_7_6 m).mono (by omega))).trans ((agree_6_5 m).mono (by omega))
theorem agree_all_4 : Agree 9 (outsAll m) (outsUpTo4 m) := ((((((agree_10_9 m).mono (by omega)).trans ((agree_9_8 m).mono (by omega))).trans ((agree_8_7 m).mono (by omega))).trans ((agree_7_6 m).mono (by omega))).trans ((agree_6_5 m).mono (by omega))).trans ((agree_5_4 m).mono (by omega))
theorem agree_all_3 : Agree 7 (outsAll m) (outsUpTo3 m) := (((((((agree_10_9 m).mono (by omega)).trans ((agree_9_8 m).mono (by omega))).trans ((agree_8_7 m).mono (by omega))).trans ((agree_7_6 m).mono (by omega))).trans ((agree_6_5 m).mono (by omega))).trans ((agree_5_4 m).mono (by omega))).trans ((agree_4_3 m).mono (by omega))
theorem agree_all_2 : Agree 5 (outsAll m) (outsUpTo2 m) := ((((((((agree_10_9 m).mono (by omega)).trans ((agree_9_8 m).mono (by omega))).trans ((agree_8_7 m).mono (by omega))).trans ((agree_7_6 m).mono (by omega))).trans ((agree_6_5 m).mono (by omega))).trans ((agree_5_4 m).mono (by omega))).trans ((agree_4_3 m).mono (by omega))).trans ((agree_3_2 m).mono (by omega))
theorem agree_all_1 : Agree 3 (outsAll m) (outsUpTo1 m) := (((((((((agree_10_9 m).mono (by omega)).trans ((agree_9_8 m).mono (by omega))).trans ((agree_8_7 m).mono (by omega))).trans ((agree_7_6 m).mono (by omega))).trans ((agree_6_5 m).mono (by omega))).trans ((agree_5_4 m).mono (by omega))).trans ((agree_4_3 m).mono (by omega))).trans ((agree_3_2 m).mono (by omega))).trans ((agree_2_1 m).mono (by omega))
theorem agree_all_0 : Agree 1 (outsAll m) (outsUpTo0 m) := ((((((((((agree_10_9 m).mono (by omega)).trans ((agree_9_8 m).mono (by omega))).trans ((agree_8_7 m).mono (by omega))).trans ((agree_7_6 m).mono (by omega))).trans ((agree_6_5 m).mono (by omega))).trans ((agree_5_4 m).mono (by omega))).trans ((agree_4_3 m).mono (by omega))).trans ((agree_3_2 m).mono (by omega))).trans ((agree_2_1 m).mono (by omega))).trans ((agree_1_0 m).mono (by omega))

/-! ## The proof data of the ten pipelines, each at its region's entry contents -/

/-- A literal match, so that each pipeline's configuration reduces to the printed one. -/
def pdats : (p : Fin 10) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c
  | ⟨6, _⟩ => fun c => dat6 (entry6 m) c
  | ⟨7, _⟩ => fun c => dat7 (entry7 m) c
  | ⟨8, _⟩ => fun c => dat8 (entry8 m) c
  | ⟨9, _⟩ => fun c => dat9 (entry9 m) c

end Cert.KernelIdeal.Hand

end
-- ==== Proof.Run.lean ====
/-
  The program's run: each of the ten kernel regions as a segment between the valuations of the contents module,
  and the frame claim from the generated conditional frame.

  A region is entered with every unscoped buffer at the valuation before it. Its input windows' arrays are never
  written back, so they leave as they entered; each output window's array leaves at what the pipeline's write-backs put
  there, which is the table's entry for it; every other buffer is untouched. That is the valuation after the region.
-/
import proofs.«148009_j49555332661695_1_alg».proof.Proof.Contents

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Each region's arrays on entry and on exit -/

/-- Region 0 finds its window arrays at the valuation before it. -/
theorem entryA0 (c : Dev nD) (w : Fin cfg0.W) : (pdats m 0 c).A w = V1 m c (Pipeline.arrRef spec0 w) :=
  A_eq0 (entry0 m) c w

/-- An input window's array leaves region 0 as it entered. -/
theorem exitIn0 (c : Dev nD) (w : Fin cfg0.W) (hw : (cfg0.win w).isOut = false)
    (hne : Pipeline.arrRef spec0 w ∉ ([main_v18] : List (Ref sig .tc))) :
    (pdats m 0 c).arrAt w cfg0.N = V2 m (outsAll m) c (Pipeline.arrRef spec0 w) :=
  ((pdats m 0 c).arrAt_in w hw _).trans ((entryA0 m c w).trans (V2_of m (outsAll m) c _ hne).symm)

/-- Output window 5's array leaves region 0 at the table's entry: what the write-backs left. -/
theorem exitOut0_5 (c : Dev nD) : (pdats m 0 c).arrAt 5 cfg0.N = V2 m (outsAll m) c (Pipeline.arrRef spec0 5) := by
  show _ = Function.update (V1 m c) main_v18 (outsAll m 2 main_v18 c) main_v18
  rw [Function.update_self, agree_all_1 m 2 (by omega) main_v18 c]
  unfold outsUpTo1
  rw [setOut_same]
  rfl

theorem exitAll0 (c : Dev nD) (w : Fin cfg0.W) : (pdats m 0 c).arrAt w cfg0.N = V2 m (outsAll m) c (Pipeline.arrRef spec0 w) :=
  match w with
    | ⟨0, _⟩ => exitIn0 m c 0 rfl (by decide)
    | ⟨1, _⟩ => exitIn0 m c 1 rfl (by decide)
    | ⟨2, _⟩ => exitIn0 m c 2 rfl (by decide)
    | ⟨3, _⟩ => exitIn0 m c 3 rfl (by decide)
    | ⟨4, _⟩ => exitIn0 m c 4 rfl (by decide)
    | ⟨5, _⟩ => exitOut0_5 m c
    | ⟨_ + 6, h⟩ => absurd h (Nat.not_lt.2 (Nat.le_add_left _ _))

/-- Off region 0's window arrays nothing changes. -/
theorem exitRest0 (c : Dev nD) (b : Ref sig .tc) (hb : b ∉ Finset.univ.image (Pipeline.arrRef spec0)) :
    V2 m (outsAll m) c b = V1 m c b :=
  V2_of m (outsAll m) c b fun h => hb (by
    simp only [List.mem_cons, List.mem_nil_iff, List.not_mem_nil, or_false] at h
    subst h
    exact Finset.mem_image.mpr ⟨5, Finset.mem_univ _, rfl⟩)

/-- Region 0 as a segment of the run. -/
def reg0 : RegionSeg (pcfgs (F := F)) adm (pdats m) () defs₀ 𝒱₀ L lv 0 :=
  regionRecord (pdats m) 0 launch0 (fun c => body_obligation0 (entry0 m) c)
    (fun c => V1 m c) (fun c => V2 m (outsAll m) c)
    (fun c => (pdats m 0 c).share_full fun _ => rfl) (fun _ _ => rfl) (fun _ _ => rfl)
    (entryA0 m) (fun c => Phi0_in (entry0 m) c) (fun c => Phi0_out (entry0 m) c)
    (exitAll0 m) (exitRest0 m)

/-- Region 1 finds its window arrays at the valuation before it. -/
theorem entryA1 (c : Dev nD) (w : Fin cfg1.W) : (pdats m 1 c).A w = V3 m (outsAll m) c (Pipeline.arrRef spec1 w) :=
  (A_eq1 (entry1 m) c w).trans (congrFun (V3_congr m ((agree_all_1 m).symm.mono (by omega)) c) _)

/-- An input window's array leaves region 1 as it entered. -/
theorem exitIn1 (c : Dev nD) (w : Fin cfg1.W) (hw : (cfg1.win w).isOut = false)
    (hne : Pipeline.arrRef spec1 w ∉ ([main_v22_0, main_v22_1] : List (Ref sig .tc))) :
    (pdats m 1 c).arrAt w cfg1.N = V4 m (outsAll m) c (Pipeline.arrRef spec1 w) :=
  ((pdats m 1 c).arrAt_in w hw _).trans ((entryA1 m c w).trans (V4_of m (outsAll m) c _ hne).symm)

/-- Output window 1's array leaves region 1 at the table's entry: what the write-backs left. -/
theorem exitOut1_1 (c : Dev nD) : (pdats m 1 c).arrAt 1 cfg1.N = V4 m (outsAll m) c (Pipeline.arrRef spec1 1) := by
  show _ = Function.update (Function.update (V3 m (outsAll m) c) main_v22_0 (outsAll m 4 main_v22_0 c)) main_v22_1 (outsAll m 4 main_v22_1 c) main_v22_0
  rw [Function.update_of_ne (StableHlo.devRef_ne_of_ne (by decide : main_v22_0 ≠ main_v22_1)), Function.update_self, agree_all_2 m 4 (by omega) main_v22_0 c]
  unfold outsUpTo2
  rw [setOut_other _ _ _ _ _ _ _ (fun h => absurd h.2 (by decide)), setOut_same]
  rfl

/-- Output window 2's array leaves region 1 at the table's entry: what the write-backs left. -/
theorem exitOut1_2 (c : Dev nD) : (pdats m 1 c).arrAt 2 cfg1.N = V4 m (outsAll m) c (Pipeline.arrRef spec1 2) := by
  show _ = Function.update (Function.update (V3 m (outsAll m) c) main_v22_0 (outsAll m 4 main_v22_0 c)) main_v22_1 (outsAll m 4 main_v22_1 c) main_v22_1
  rw [Function.update_self, agree_all_2 m 4 (by omega) main_v22_1 c]
  unfold outsUpTo2
  rw [setOut_same]
  rfl

theorem exitAll1 (c : Dev nD) (w : Fin cfg1.W) : (pdats m 1 c).arrAt w cfg1.N = V4 m (outsAll m) c (Pipeline.arrRef spec1 w) :=
  match w with
    | ⟨0, _⟩ => exitIn1 m c 0 rfl (by decide)
    | ⟨1, _⟩ => exitOut1_1 m c
    | ⟨2, _⟩ => exitOut1_2 m c
    | ⟨_ + 3, h⟩ => absurd h (Nat.not_lt.2 (Nat.le_add_left _ _))

/-- Off region 1's window arrays nothing changes. -/
theorem exitRest1 (c : Dev nD) (b : Ref sig .tc) (hb : b ∉ Finset.univ.image (Pipeline.arrRef spec1)) :
    V4 m (outsAll m) c b = V3 m (outsAll m) c b :=
  V4_of m (outsAll m) c b fun h => hb (by
    simp only [List.mem_cons, List.mem_nil_iff, List.not_mem_nil, or_false] at h
    rcases h with rfl | rfl
    · exact Finset.mem_image.mpr ⟨1, Finset.mem_univ _, rfl⟩
    · exact Finset.mem_image.mpr ⟨2, Finset.mem_univ _, rfl⟩)

/-- Region 1 as a segment of the run. -/
def reg1 : RegionSeg (pcfgs (F := F)) adm (pdats m) () defs₀ 𝒱₀ L lv 1 :=
  regionRecord (pdats m) 1 launch1 (fun c => body_obligation1 (entry1 m) c)
    (fun c => V3 m (outsAll m) c) (fun c => V4 m (outsAll m) c)
    (fun c => (pdats m 1 c).share_full fun _ => rfl) (fun _ _ => rfl) (fun _ _ => rfl)
    (entryA1 m) (fun c => Phi1_in (entry1 m) c) (fun c => Phi1_out (entry1 m) c)
    (exitAll1 m) (exitRest1 m)

/-- Region 2 finds its window arrays at the valuation before it. -/
theorem entryA2 (c : Dev nD) (w : Fin cfg2.W) : (pdats m 2 c).A w = V5 m (outsAll m) c (Pipeline.arrRef spec2 w) :=
  (A_eq2 (entry2 m) c w).trans (congrFun (V5_congr m ((agree_all_2 m).symm.mono (by omega)) c) _)

/-- An input window's array leaves region 2 as it entered. -/
theorem exitIn2 (c : Dev nD) (w : Fin cfg2.W) (hw : (cfg2.win w).isOut = false)
    (hne : Pipeline.arrRef spec2 w ∉ ([main_v35] : List (Ref sig .tc))) :
    (pdats m 2 c).arrAt w cfg2.N = V6 m (outsAll m) c (Pipeline.arrRef spec2 w) :=
  ((pdats m 2 c).arrAt_in w hw _).trans ((entryA2 m c w).trans (V6_of m (outsAll m) c _ hne).symm)

/-- Output window 5's array leaves region 2 at the table's entry: what the write-backs left. -/
theorem exitOut2_5 (c : Dev nD) : (pdats m 2 c).arrAt 5 cfg2.N = V6 m (outsAll m) c (Pipeline.arrRef spec2 5) := by
  show _ = Function.update (V5 m (outsAll m) c) main_v35 (outsAll m 6 main_v35 c) main_v35
  rw [Function.update_self, agree_all_3 m 6 (by omega) main_v35 c]
  unfold outsUpTo3
  rw [setOut_same]
  rfl

theorem exitAll2 (c : Dev nD) (w : Fin cfg2.W) : (pdats m 2 c).arrAt w cfg2.N = V6 m (outsAll m) c (Pipeline.arrRef spec2 w) :=
  match w with
    | ⟨0, _⟩ => exitIn2 m c 0 rfl (by decide)
    | ⟨1, _⟩ => exitIn2 m c 1 rfl (by decide)
    | ⟨2, _⟩ => exitIn2 m c 2 rfl (by decide)
    | ⟨3, _⟩ => exitIn2 m c 3 rfl (by decide)
    | ⟨4, _⟩ => exitIn2 m c 4 rfl (by decide)
    | ⟨5, _⟩ => exitOut2_5 m c
    | ⟨_ + 6, h⟩ => absurd h (Nat.not_lt.2 (Nat.le_add_left _ _))

/-- Off region 2's window arrays nothing changes. -/
theorem exitRest2 (c : Dev nD) (b : Ref sig .tc) (hb : b ∉ Finset.univ.image (Pipeline.arrRef spec2)) :
    V6 m (outsAll m) c b = V5 m (outsAll m) c b :=
  V6_of m (outsAll m) c b fun h => hb (by
    simp only [List.mem_cons, List.mem_nil_iff, List.not_mem_nil, or_false] at h
    subst h
    exact Finset.mem_image.mpr ⟨5, Finset.mem_univ _, rfl⟩)

/-- Region 2 as a segment of the run. -/
def reg2 : RegionSeg (pcfgs (F := F)) adm (pdats m) () defs₀ 𝒱₀ L lv 2 :=
  regionRecord (pdats m) 2 launch2 (fun c => body_obligation2 (entry2 m) c)
    (fun c => V5 m (outsAll m) c) (fun c => V6 m (outsAll m) c)
    (fun c => (pdats m 2 c).share_full fun _ => rfl) (fun _ _ => rfl) (fun _ _ => rfl)
    (entryA2 m) (fun c => Phi2_in (entry2 m) c) (fun c => Phi2_out (entry2 m) c)
    (exitAll2 m) (exitRest2 m)

/-- Region 3 finds its window arrays at the valuation before it. -/
theorem entryA3 (c : Dev nD) (w : Fin cfg3.W) : (pdats m 3 c).A w = V7 m (outsAll m) c (Pipeline.arrRef spec3 w) :=
  (A_eq3 (entry3 m) c w).trans (congrFun (V7_congr m ((agree_all_3 m).symm.mono (by omega)) c) _)

/-- An input window's array leaves region 3 as it entered. -/
theorem exitIn3 (c : Dev nD) (w : Fin cfg3.W) (hw : (cfg3.win w).isOut = false)
    (hne : Pipeline.arrRef spec3 w ∉ ([main_v50] : List (Ref sig .tc))) :
    (pdats m 3 c).arrAt w cfg3.N = V8 m (outsAll m) c (Pipeline.arrRef spec3 w) :=
  ((pdats m 3 c).arrAt_in w hw _).trans ((entryA3 m c w).trans (V8_of m (outsAll m) c _ hne).symm)

/-- Output window 5's array leaves region 3 at the table's entry: what the write-backs left. -/
theorem exitOut3_5 (c : Dev nD) : (pdats m 3 c).arrAt 5 cfg3.N = V8 m (outsAll m) c (Pipeline.arrRef spec3 5) := by
  show _ = Function.update (V7 m (outsAll m) c) main_v50 (outsAll m 8 main_v50 c) main_v50
  rw [Function.update_self, agree_all_4 m 8 (by omega) main_v50 c]
  unfold outsUpTo4
  rw [setOut_same]
  rfl

theorem exitAll3 (c : Dev nD) (w : Fin cfg3.W) : (pdats m 3 c).arrAt w cfg3.N = V8 m (outsAll m) c (Pipeline.arrRef spec3 w) :=
  match w with
    | ⟨0, _⟩ => exitIn3 m c 0 rfl (by decide)
    | ⟨1, _⟩ => exitIn3 m c 1 rfl (by decide)
    | ⟨2, _⟩ => exitIn3 m c 2 rfl (by decide)
    | ⟨3, _⟩ => exitIn3 m c 3 rfl (by decide)
    | ⟨4, _⟩ => exitIn3 m c 4 rfl (by decide)
    | ⟨5, _⟩ => exitOut3_5 m c
    | ⟨_ + 6, h⟩ => absurd h (Nat.not_lt.2 (Nat.le_add_left _ _))

/-- Off region 3's window arrays nothing changes. -/
theorem exitRest3 (c : Dev nD) (b : Ref sig .tc) (hb : b ∉ Finset.univ.image (Pipeline.arrRef spec3)) :
    V8 m (outsAll m) c b = V7 m (outsAll m) c b :=
  V8_of m (outsAll m) c b fun h => hb (by
    simp only [List.mem_cons, List.mem_nil_iff, List.not_mem_nil, or_false] at h
    subst h
    exact Finset.mem_image.mpr ⟨5, Finset.mem_univ _, rfl⟩)

/-- Region 3 as a segment of the run. -/
def reg3 : RegionSeg (pcfgs (F := F)) adm (pdats m) () defs₀ 𝒱₀ L lv 3 :=
  regionRecord (pdats m) 3 launch3 (fun c => body_obligation3 (entry3 m) c)
    (fun c => V7 m (outsAll m) c) (fun c => V8 m (outsAll m) c)
    (fun c => (pdats m 3 c).share_full fun _ => rfl) (fun _ _ => rfl) (fun _ _ => rfl)
    (entryA3 m) (fun c => Phi3_in (entry3 m) c) (fun c => Phi3_out (entry3 m) c)
    (exitAll3 m) (exitRest3 m)

/-- Region 4 finds its window arrays at the valuation before it. -/
theorem entryA4 (c : Dev nD) (w : Fin cfg4.W) : (pdats m 4 c).A w = V9 m (outsAll m) c (Pipeline.arrRef spec4 w) :=
  (A_eq4 (entry4 m) c w).trans (congrFun (V9_congr m ((agree_all_4 m).symm.mono (by omega)) c) _)

/-- An input window's array leaves region 4 as it entered. -/
theorem exitIn4 (c : Dev nD) (w : Fin cfg4.W) (hw : (cfg4.win w).isOut = false)
    (hne : Pipeline.arrRef spec4 w ∉ ([main_v54_0, main_v54_1] : List (Ref sig .tc))) :
    (pdats m 4 c).arrAt w cfg4.N = V10 m (outsAll m) c (Pipeline.arrRef spec4 w) :=
  ((pdats m 4 c).arrAt_in w hw _).trans ((entryA4 m c w).trans (V10_of m (outsAll m) c _ hne).symm)

/-- Output window 1's array leaves region 4 at the table's entry: what the write-backs left. -/
theorem exitOut4_1 (c : Dev nD) : (pdats m 4 c).arrAt 1 cfg4.N = V10 m (outsAll m) c (Pipeline.arrRef spec4 1) := by
  show _ = Function.update (Function.update (V9 m (outsAll m) c) main_v54_0 (outsAll m 10 main_v54_0 c)) main_v54_1 (outsAll m 10 main_v54_1 c) main_v54_0
  rw [Function.update_of_ne (StableHlo.devRef_ne_of_ne (by decide : main_v54_0 ≠ main_v54_1)), Function.update_self, agree_all_5 m 10 (by omega) main_v54_0 c]
  unfold outsUpTo5
  rw [setOut_other _ _ _ _ _ _ _ (fun h => absurd h.2 (by decide)), setOut_same]
  rfl

/-- Output window 2's array leaves region 4 at the table's entry: what the write-backs left. -/
theorem exitOut4_2 (c : Dev nD) : (pdats m 4 c).arrAt 2 cfg4.N = V10 m (outsAll m) c (Pipeline.arrRef spec4 2) := by
  show _ = Function.update (Function.update (V9 m (outsAll m) c) main_v54_0 (outsAll m 10 main_v54_0 c)) main_v54_1 (outsAll m 10 main_v54_1 c) main_v54_1
  rw [Function.update_self, agree_all_5 m 10 (by omega) main_v54_1 c]
  unfold outsUpTo5
  rw [setOut_same]
  rfl

theorem exitAll4 (c : Dev nD) (w : Fin cfg4.W) : (pdats m 4 c).arrAt w cfg4.N = V10 m (outsAll m) c (Pipeline.arrRef spec4 w) :=
  match w with
    | ⟨0, _⟩ => exitIn4 m c 0 rfl (by decide)
    | ⟨1, _⟩ => exitOut4_1 m c
    | ⟨2, _⟩ => exitOut4_2 m c
    | ⟨_ + 3, h⟩ => absurd h (Nat.not_lt.2 (Nat.le_add_left _ _))

/-- Off region 4's window arrays nothing changes. -/
theorem exitRest4 (c : Dev nD) (b : Ref sig .tc) (hb : b ∉ Finset.univ.image (Pipeline.arrRef spec4)) :
    V10 m (outsAll m) c b = V9 m (outsAll m) c b :=
  V10_of m (outsAll m) c b fun h => hb (by
    simp only [List.mem_cons, List.mem_nil_iff, List.not_mem_nil, or_false] at h
    rcases h with rfl | rfl
    · exact Finset.mem_image.mpr ⟨1, Finset.mem_univ _, rfl⟩
    · exact Finset.mem_image.mpr ⟨2, Finset.mem_univ _, rfl⟩)

/-- Region 4 as a segment of the run. -/
def reg4 : RegionSeg (pcfgs (F := F)) adm (pdats m) () defs₀ 𝒱₀ L lv 4 :=
  regionRecord (pdats m) 4 launch4 (fun c => body_obligation4 (entry4 m) c)
    (fun c => V9 m (outsAll m) c) (fun c => V10 m (outsAll m) c)
    (fun c => (pdats m 4 c).share_full fun _ => rfl) (fun _ _ => rfl) (fun _ _ => rfl)
    (entryA4 m) (fun c => Phi4_in (entry4 m) c) (fun c => Phi4_out (entry4 m) c)
    (exitAll4 m) (exitRest4 m)

/-- Region 5 finds its window arrays at the valuation before it. -/
theorem entryA5 (c : Dev nD) (w : Fin cfg5.W) : (pdats m 5 c).A w = V11 m (outsAll m) c (Pipeline.arrRef spec5 w) :=
  (A_eq5 (entry5 m) c w).trans (congrFun (V11_congr m ((agree_all_5 m).symm.mono (by omega)) c) _)

/-- An input window's array leaves region 5 as it entered. -/
theorem exitIn5 (c : Dev nD) (w : Fin cfg5.W) (hw : (cfg5.win w).isOut = false)
    (hne : Pipeline.arrRef spec5 w ∉ ([main_v67] : List (Ref sig .tc))) :
    (pdats m 5 c).arrAt w cfg5.N = V12 m (outsAll m) c (Pipeline.arrRef spec5 w) :=
  ((pdats m 5 c).arrAt_in w hw _).trans ((entryA5 m c w).trans (V12_of m (outsAll m) c _ hne).symm)

/-- Output window 5's array leaves region 5 at the table's entry: what the write-backs left. -/
theorem exitOut5_5 (c : Dev nD) : (pdats m 5 c).arrAt 5 cfg5.N = V12 m (outsAll m) c (Pipeline.arrRef spec5 5) := by
  show _ = Function.update (V11 m (outsAll m) c) main_v67 (outsAll m 12 main_v67 c) main_v67
  rw [Function.update_self, agree_all_6 m 12 (by omega) main_v67 c]
  unfold outsUpTo6
  rw [setOut_same]
  rfl

theorem exitAll5 (c : Dev nD) (w : Fin cfg5.W) : (pdats m 5 c).arrAt w cfg5.N = V12 m (outsAll m) c (Pipeline.arrRef spec5 w) :=
  match w with
    | ⟨0, _⟩ => exitIn5 m c 0 rfl (by decide)
    | ⟨1, _⟩ => exitIn5 m c 1 rfl (by decide)
    | ⟨2, _⟩ => exitIn5 m c 2 rfl (by decide)
    | ⟨3, _⟩ => exitIn5 m c 3 rfl (by decide)
    | ⟨4, _⟩ => exitIn5 m c 4 rfl (by decide)
    | ⟨5, _⟩ => exitOut5_5 m c
    | ⟨_ + 6, h⟩ => absurd h (Nat.not_lt.2 (Nat.le_add_left _ _))

/-- Off region 5's window arrays nothing changes. -/
theorem exitRest5 (c : Dev nD) (b : Ref sig .tc) (hb : b ∉ Finset.univ.image (Pipeline.arrRef spec5)) :
    V12 m (outsAll m) c b = V11 m (outsAll m) c b :=
  V12_of m (outsAll m) c b fun h => hb (by
    simp only [List.mem_cons, List.mem_nil_iff, List.not_mem_nil, or_false] at h
    subst h
    exact Finset.mem_image.mpr ⟨5, Finset.mem_univ _, rfl⟩)

/-- Region 5 as a segment of the run. -/
def reg5 : RegionSeg (pcfgs (F := F)) adm (pdats m) () defs₀ 𝒱₀ L lv 5 :=
  regionRecord (pdats m) 5 launch5 (fun c => body_obligation5 (entry5 m) c)
    (fun c => V11 m (outsAll m) c) (fun c => V12 m (outsAll m) c)
    (fun c => (pdats m 5 c).share_full fun _ => rfl) (fun _ _ => rfl) (fun _ _ => rfl)
    (entryA5 m) (fun c => Phi5_in (entry5 m) c) (fun c => Phi5_out (entry5 m) c)
    (exitAll5 m) (exitRest5 m)

/-- Region 6 finds its window arrays at the valuation before it. -/
theorem entryA6 (c : Dev nD) (w : Fin cfg6.W) : (pdats m 6 c).A w = V13 m (outsAll m) c (Pipeline.arrRef spec6 w) :=
  (A_eq6 (entry6 m) c w).trans (congrFun (V13_congr m ((agree_all_6 m).symm.mono (by omega)) c) _)

/-- An input window's array leaves region 6 as it entered. -/
theorem exitIn6 (c : Dev nD) (w : Fin cfg6.W) (hw : (cfg6.win w).isOut = false)
    (hne : Pipeline.arrRef spec6 w ∉ ([main_v82] : List (Ref sig .tc))) :
    (pdats m 6 c).arrAt w cfg6.N = V14 m (outsAll m) c (Pipeline.arrRef spec6 w) :=
  ((pdats m 6 c).arrAt_in w hw _).trans ((entryA6 m c w).trans (V14_of m (outsAll m) c _ hne).symm)

/-- Output window 5's array leaves region 6 at the table's entry: what the write-backs left. -/
theorem exitOut6_5 (c : Dev nD) : (pdats m 6 c).arrAt 5 cfg6.N = V14 m (outsAll m) c (Pipeline.arrRef spec6 5) := by
  show _ = Function.update (V13 m (outsAll m) c) main_v82 (outsAll m 14 main_v82 c) main_v82
  rw [Function.update_self, agree_all_7 m 14 (by omega) main_v82 c]
  unfold outsUpTo7
  rw [setOut_same]
  rfl

theorem exitAll6 (c : Dev nD) (w : Fin cfg6.W) : (pdats m 6 c).arrAt w cfg6.N = V14 m (outsAll m) c (Pipeline.arrRef spec6 w) :=
  match w with
    | ⟨0, _⟩ => exitIn6 m c 0 rfl (by decide)
    | ⟨1, _⟩ => exitIn6 m c 1 rfl (by decide)
    | ⟨2, _⟩ => exitIn6 m c 2 rfl (by decide)
    | ⟨3, _⟩ => exitIn6 m c 3 rfl (by decide)
    | ⟨4, _⟩ => exitIn6 m c 4 rfl (by decide)
    | ⟨5, _⟩ => exitOut6_5 m c
    | ⟨_ + 6, h⟩ => absurd h (Nat.not_lt.2 (Nat.le_add_left _ _))

/-- Off region 6's window arrays nothing changes. -/
theorem exitRest6 (c : Dev nD) (b : Ref sig .tc) (hb : b ∉ Finset.univ.image (Pipeline.arrRef spec6)) :
    V14 m (outsAll m) c b = V13 m (outsAll m) c b :=
  V14_of m (outsAll m) c b fun h => hb (by
    simp only [List.mem_cons, List.mem_nil_iff, List.not_mem_nil, or_false] at h
    subst h
    exact Finset.mem_image.mpr ⟨5, Finset.mem_univ _, rfl⟩)

/-- Region 6 as a segment of the run. -/
def reg6 : RegionSeg (pcfgs (F := F)) adm (pdats m) () defs₀ 𝒱₀ L lv 6 :=
  regionRecord (pdats m) 6 launch6 (fun c => body_obligation6 (entry6 m) c)
    (fun c => V13 m (outsAll m) c) (fun c => V14 m (outsAll m) c)
    (fun c => (pdats m 6 c).share_full fun _ => rfl) (fun _ _ => rfl) (fun _ _ => rfl)
    (entryA6 m) (fun c => Phi6_in (entry6 m) c) (fun c => Phi6_out (entry6 m) c)
    (exitAll6 m) (exitRest6 m)

/-- Region 7 finds its window arrays at the valuation before it. -/
theorem entryA7 (c : Dev nD) (w : Fin cfg7.W) : (pdats m 7 c).A w = V15 m (outsAll m) c (Pipeline.arrRef spec7 w) :=
  (A_eq7 (entry7 m) c w).trans (congrFun (V15_congr m ((agree_all_7 m).symm.mono (by omega)) c) _)

/-- An input window's array leaves region 7 as it entered. -/
theorem exitIn7 (c : Dev nD) (w : Fin cfg7.W) (hw : (cfg7.win w).isOut = false)
    (hne : Pipeline.arrRef spec7 w ∉ ([main_v86_0, main_v86_1] : List (Ref sig .tc))) :
    (pdats m 7 c).arrAt w cfg7.N = V16 m (outsAll m) c (Pipeline.arrRef spec7 w) :=
  ((pdats m 7 c).arrAt_in w hw _).trans ((entryA7 m c w).trans (V16_of m (outsAll m) c _ hne).symm)

/-- Output window 1's array leaves region 7 at the table's entry: what the write-backs left. -/
theorem exitOut7_1 (c : Dev nD) : (pdats m 7 c).arrAt 1 cfg7.N = V16 m (outsAll m) c (Pipeline.arrRef spec7 1) := by
  show _ = Function.update (Function.update (V15 m (outsAll m) c) main_v86_0 (outsAll m 16 main_v86_0 c)) main_v86_1 (outsAll m 16 main_v86_1 c) main_v86_0
  rw [Function.update_of_ne (StableHlo.devRef_ne_of_ne (by decide : main_v86_0 ≠ main_v86_1)), Function.update_self, agree_all_8 m 16 (by omega) main_v86_0 c]
  unfold outsUpTo8
  rw [setOut_other _ _ _ _ _ _ _ (fun h => absurd h.2 (by decide)), setOut_same]
  rfl

/-- Output window 2's array leaves region 7 at the table's entry: what the write-backs left. -/
theorem exitOut7_2 (c : Dev nD) : (pdats m 7 c).arrAt 2 cfg7.N = V16 m (outsAll m) c (Pipeline.arrRef spec7 2) := by
  show _ = Function.update (Function.update (V15 m (outsAll m) c) main_v86_0 (outsAll m 16 main_v86_0 c)) main_v86_1 (outsAll m 16 main_v86_1 c) main_v86_1
  rw [Function.update_self, agree_all_8 m 16 (by omega) main_v86_1 c]
  unfold outsUpTo8
  rw [setOut_same]
  rfl

theorem exitAll7 (c : Dev nD) (w : Fin cfg7.W) : (pdats m 7 c).arrAt w cfg7.N = V16 m (outsAll m) c (Pipeline.arrRef spec7 w) :=
  match w with
    | ⟨0, _⟩ => exitIn7 m c 0 rfl (by decide)
    | ⟨1, _⟩ => exitOut7_1 m c
    | ⟨2, _⟩ => exitOut7_2 m c
    | ⟨_ + 3, h⟩ => absurd h (Nat.not_lt.2 (Nat.le_add_left _ _))

/-- Off region 7's window arrays nothing changes. -/
theorem exitRest7 (c : Dev nD) (b : Ref sig .tc) (hb : b ∉ Finset.univ.image (Pipeline.arrRef spec7)) :
    V16 m (outsAll m) c b = V15 m (outsAll m) c b :=
  V16_of m (outsAll m) c b fun h => hb (by
    simp only [List.mem_cons, List.mem_nil_iff, List.not_mem_nil, or_false] at h
    rcases h with rfl | rfl
    · exact Finset.mem_image.mpr ⟨1, Finset.mem_univ _, rfl⟩
    · exact Finset.mem_image.mpr ⟨2, Finset.mem_univ _, rfl⟩)

/-- Region 7 as a segment of the run. -/
def reg7 : RegionSeg (pcfgs (F := F)) adm (pdats m) () defs₀ 𝒱₀ L lv 7 :=
  regionRecord (pdats m) 7 launch7 (fun c => body_obligation7 (entry7 m) c)
    (fun c => V15 m (outsAll m) c) (fun c => V16 m (outsAll m) c)
    (fun c => (pdats m 7 c).share_full fun _ => rfl) (fun _ _ => rfl) (fun _ _ => rfl)
    (entryA7 m) (fun c => Phi7_in (entry7 m) c) (fun c => Phi7_out (entry7 m) c)
    (exitAll7 m) (exitRest7 m)

/-- Region 8 finds its window arrays at the valuation before it. -/
theorem entryA8 (c : Dev nD) (w : Fin cfg8.W) : (pdats m 8 c).A w = V17 m (outsAll m) c (Pipeline.arrRef spec8 w) :=
  (A_eq8 (entry8 m) c w).trans (congrFun (V17_congr m ((agree_all_8 m).symm.mono (by omega)) c) _)

/-- An input window's array leaves region 8 as it entered. -/
theorem exitIn8 (c : Dev nD) (w : Fin cfg8.W) (hw : (cfg8.win w).isOut = false)
    (hne : Pipeline.arrRef spec8 w ∉ ([main_v99] : List (Ref sig .tc))) :
    (pdats m 8 c).arrAt w cfg8.N = V18 m (outsAll m) c (Pipeline.arrRef spec8 w) :=
  ((pdats m 8 c).arrAt_in w hw _).trans ((entryA8 m c w).trans (V18_of m (outsAll m) c _ hne).symm)

/-- Output window 5's array leaves region 8 at the table's entry: what the write-backs left. -/
theorem exitOut8_5 (c : Dev nD) : (pdats m 8 c).arrAt 5 cfg8.N = V18 m (outsAll m) c (Pipeline.arrRef spec8 5) := by
  show _ = Function.update (V17 m (outsAll m) c) main_v99 (outsAll m 18 main_v99 c) main_v99
  rw [Function.update_self, agree_all_9 m 18 (by omega) main_v99 c]
  unfold outsUpTo9
  rw [setOut_same]
  rfl

theorem exitAll8 (c : Dev nD) (w : Fin cfg8.W) : (pdats m 8 c).arrAt w cfg8.N = V18 m (outsAll m) c (Pipeline.arrRef spec8 w) :=
  match w with
    | ⟨0, _⟩ => exitIn8 m c 0 rfl (by decide)
    | ⟨1, _⟩ => exitIn8 m c 1 rfl (by decide)
    | ⟨2, _⟩ => exitIn8 m c 2 rfl (by decide)
    | ⟨3, _⟩ => exitIn8 m c 3 rfl (by decide)
    | ⟨4, _⟩ => exitIn8 m c 4 rfl (by decide)
    | ⟨5, _⟩ => exitOut8_5 m c
    | ⟨_ + 6, h⟩ => absurd h (Nat.not_lt.2 (Nat.le_add_left _ _))

/-- Off region 8's window arrays nothing changes. -/
theorem exitRest8 (c : Dev nD) (b : Ref sig .tc) (hb : b ∉ Finset.univ.image (Pipeline.arrRef spec8)) :
    V18 m (outsAll m) c b = V17 m (outsAll m) c b :=
  V18_of m (outsAll m) c b fun h => hb (by
    simp only [List.mem_cons, List.mem_nil_iff, List.not_mem_nil, or_false] at h
    subst h
    exact Finset.mem_image.mpr ⟨5, Finset.mem_univ _, rfl⟩)

/-- Region 8 as a segment of the run. -/
def reg8 : RegionSeg (pcfgs (F := F)) adm (pdats m) () defs₀ 𝒱₀ L lv 8 :=
  regionRecord (pdats m) 8 launch8 (fun c => body_obligation8 (entry8 m) c)
    (fun c => V17 m (outsAll m) c) (fun c => V18 m (outsAll m) c)
    (fun c => (pdats m 8 c).share_full fun _ => rfl) (fun _ _ => rfl) (fun _ _ => rfl)
    (entryA8 m) (fun c => Phi8_in (entry8 m) c) (fun c => Phi8_out (entry8 m) c)
    (exitAll8 m) (exitRest8 m)

/-- Region 9 finds its window arrays at the valuation before it. -/
theorem entryA9 (c : Dev nD) (w : Fin cfg9.W) : (pdats m 9 c).A w = V19 m (outsAll m) c (Pipeline.arrRef spec9 w) :=
  (A_eq9 (entry9 m) c w).trans (congrFun (V19_congr m ((agree_all_9 m).symm.mono (by omega)) c) _)

/-- An input window's array leaves region 9 as it entered. -/
theorem exitIn9 (c : Dev nD) (w : Fin cfg9.W) (hw : (cfg9.win w).isOut = false)
    (hne : Pipeline.arrRef spec9 w ∉ ([main_v107] : List (Ref sig .tc))) :
    (pdats m 9 c).arrAt w cfg9.N = V20 m (outsAll m) c (Pipeline.arrRef spec9 w) :=
  ((pdats m 9 c).arrAt_in w hw _).trans ((entryA9 m c w).trans (V20_of m (outsAll m) c _ hne).symm)

/-- Output window 7's array leaves region 9 at the table's entry: what the write-backs left. -/
theorem exitOut9_7 (c : Dev nD) : (pdats m 9 c).arrAt 7 cfg9.N = V20 m (outsAll m) c (Pipeline.arrRef spec9 7) := by
  show _ = Function.update (V19 m (outsAll m) c) main_v107 (outsAll m 20 main_v107 c) main_v107
  rw [Function.update_self, agree_all_10 m 20 (by omega) main_v107 c]
  unfold outsUpTo10
  rw [setOut_same]
  rfl

theorem exitAll9 (c : Dev nD) (w : Fin cfg9.W) : (pdats m 9 c).arrAt w cfg9.N = V20 m (outsAll m) c (Pipeline.arrRef spec9 w) :=
  match w with
    | ⟨0, _⟩ => exitIn9 m c 0 rfl (by decide)
    | ⟨1, _⟩ => exitIn9 m c 1 rfl (by decide)
    | ⟨2, _⟩ => exitIn9 m c 2 rfl (by decide)
    | ⟨3, _⟩ => exitIn9 m c 3 rfl (by decide)
    | ⟨4, _⟩ => exitIn9 m c 4 rfl (by decide)
    | ⟨5, _⟩ => exitIn9 m c 5 rfl (by decide)
    | ⟨6, _⟩ => exitIn9 m c 6 rfl (by decide)
    | ⟨7, _⟩ => exitOut9_7 m c
    | ⟨_ + 8, h⟩ => absurd h (Nat.not_lt.2 (Nat.le_add_left _ _))

/-- Off region 9's window arrays nothing changes. -/
theorem exitRest9 (c : Dev nD) (b : Ref sig .tc) (hb : b ∉ Finset.univ.image (Pipeline.arrRef spec9)) :
    V20 m (outsAll m) c b = V19 m (outsAll m) c b :=
  V20_of m (outsAll m) c b fun h => hb (by
    simp only [List.mem_cons, List.mem_nil_iff, List.not_mem_nil, or_false] at h
    subst h
    exact Finset.mem_image.mpr ⟨7, Finset.mem_univ _, rfl⟩)

/-- Region 9 as a segment of the run. -/
def reg9 : RegionSeg (pcfgs (F := F)) adm (pdats m) () defs₀ 𝒱₀ L lv 9 :=
  regionRecord (pdats m) 9 launch9 (fun c => body_obligation9 (entry9 m) c)
    (fun c => V19 m (outsAll m) c) (fun c => V20 m (outsAll m) c)
    (fun c => (pdats m 9 c).share_full fun _ => rfl) (fun _ _ => rfl) (fun _ _ => rfl)
    (entryA9 m) (fun c => Phi9_in (entry9 m) c) (fun c => Phi9_out (entry9 m) c)
    (exitAll9 m) (exitRest9 m)

/-! ## The frame -/

/-- From any memory with zero counters every weakly fair execution of the program terminates, nothing faulting, and
    every argument array ends as launched: the generated conditional frame at the ten records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m (emb₁ : Emb (UR sig nD τ) 𝕄) () 𝒱₀ L lv (fun _ _ => rfl) ρ (outsAll m) (pdats m)
    (O₀ := 0) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => Ride c)
    (hE0 := by
      refine Pipeline.initEach L lv fun c => ?_
      iintro ⟨⟨-, HO, -, Hp, -⟩, -⟩
      imodintro
      isplitl [Hp]; · iexists _; iexact Hp
      iexists ∅; iexact HO)
    (hE10 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)

end Cert.KernelIdeal.Hand

end
-- ==== Proof.KRegionRecord.lean ====
/-
  One kernel region of the program as a segment of its run.

  Between two items of the program every core holds all of its unscoped buffers whole, at a valuation, beside
  the generator register at some state and the record that the core owes no other core anything. A region whose
  kernel keeps, between its first and last grid point, only what the launch lends it (the scoped buffers no window
  stages and the generator register) enters from such a state at a valuation `Wen` and leaves at a valuation `Wex`
  that agrees with `Wen` off the region's window arrays and holds, at each window array, what the pipeline's
  write-backs leave there. This module states that once, for any of the ten regions.
-/
import proofs.«148009_j49555332661695_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- No variant of a kernel function is in play. -/
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state and the core owing nothing. -/
abbrev Ride (c : Dev nD) : sProp 𝕄 :=
  iprop((∃ r, prngReg c r) ∗ ∃ W, owes (c : Thread nD τ) (0 : CellTallies nD τ sig Unit) W)

/-- The thread state between two items: every unscoped buffer at the valuation, and what rides along. -/
abbrev Between (W : Dev nD → Valuation τ sig (Elt F)) (c : Dev nD) : sProp 𝕄 :=
  iprop(StableHlo.held (c : Thread nD τ) (Pipeline.ucRefs τ sig) (W c) ∗ Ride c)

section Record

variable (pdats : (p : Fin 10) → (c : Dev nD) → Dat τ (Elt F) Unit ℕ (UR sig nD τ) ℕ (cfgs p) c)

-- a library lemma stated over the pinned configuration unifies with the printed one only when unification may
-- unfold plain definitions in a metavariable's type
set_option backward.isDefEq.respectTransparency.types false in
/-- Region `p` as a segment, entered at `Wen` and left at `Wex`: its window arrays are split out of the unscoped
    buffers on entry and put back at their final contents on exit; the generator register and the scoped rest pass
    through the kernel's invariant; the kernel has no semaphore of its own and owes nothing. -/
def regionRecord (p : Fin 10) (launch : Pipeline.LaunchFacts (nD := nD) (τ := τ) cfgs p)
    (hbody : ∀ c, BodyObligation (pdats p c) (defs₀ (F := F)) 𝒱₀ () Set.univ)
    (Wen Wex : Dev nD → Valuation τ sig (Elt F))
    (hshare : ∀ c w, (pdats p c).share w = fullShare)
    (howed : ∀ c t, (pdats p c).owed t = 0)
    (hrec : ∀ c t, (pdats p c).recorded t = Set.univ)
    (hA : ∀ c w, (pdats p c).A w = Wen c (Pipeline.arrRef (cfgs p).spec w))
    (hin : ∀ c, Pipeline.ΦA (cfgs p).spec c ⊢ (pdats p c).Φ 0)
    (hout : ∀ c, (pdats p c).Φ (Fin.last (cfgs p).N) ⊢ Pipeline.ΦA (cfgs p).spec c)
    (hF : ∀ c w, (pdats p c).arrAt w (cfgs p).N = Wex c (Pipeline.arrRef (cfgs p).spec w))
    (hrest : ∀ c b, b ∉ Finset.univ.image (Pipeline.arrRef (cfgs p).spec) → Wex c b = Wen c b) :
    RegionSeg (pcfgs (F := F)) adm pdats () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := Between Wen c
  post c := Between Wex c
  X c := iprop(∃ r, prngReg c r)
  Y c := iprop(∃ r, prngReg c r)
  Z c := Pipeline.unscopedRest (Ix := Unit) (Name := ℕ) (U := UR sig nD τ) (Lvl := ℕ) (cfgs p).spec c (fun b => Wen c b)
  hentry c := by
    rw [Pipeline.ownSems0_none]
    have hsplit := Pipeline.arrays_of_unscopedBufs (p := p) (pcfgs (F := F)) adm pdats launch.win launch.arr_whole c
      (hshare c) (fun b => Wen c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pdats (hshare c)
      (fun b => Wen c b) (fun b => Wex c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Record

end Cert.Kernel.Hand

end
-- ==== Proof.KRegion0.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! Region 0: the edge-message kernel on its grid of 100 points. At every point the body reads five input blocks
    whole — rows of node features (8000×128), rows of edge features (8000×16), two weight matrices (128×128, 16×128) and
    a bias row (1×128) — and writes the 8000×128 block `x0·x2 + x1·x3 + bias` (operands rounded to bf16 before each
    product) over the whole output block. Everything here is generic in the float model. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, for any proof data over the region's
    arrays whose body leaves that block in place: where the window is fetched, the fetch puts the block there; where it
    is not (the weights and the bias after the first point), the block index has not moved since the previous point and
    the block is still there. No input window is cut or ever idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

/-- The whole of each staging block, as the rectangle the body's loads and its one store name. -/
abbrev rect0_0 : Rect S8000x128 := Rect.unit (s := S8000x128) ![0, 0] S8000x128.size inb_S8000x128_S8000x128_0_0
abbrev rect0_1 : Rect S8000x16 := Rect.unit (s := S8000x16) ![0, 0] S8000x16.size inb_S8000x16_S8000x16_0_0
abbrev rect0_2 : Rect S128x128 := Rect.unit (s := S128x128) ![0, 0] S128x128.size inb_S128x128_S128x128_0_0
abbrev rect0_3 : Rect S16x128 := Rect.unit (s := S16x128) ![0, 0] S16x128.size inb_S16x128_S16x128_0_0
abbrev rect0_4 : Rect S1x128 := Rect.unit (s := S1x128) ![0, 0] S1x128.size inb_S1x128_S1x128_0_0

/-- The output block after the body, as a function of the five input blocks: the single store, laid over the whole
    block, of the message value computed from what the five loads read. -/
def msgBlock0 (x0 : Vec F S8000x128 .f32) (x1 : Vec F S8000x16 .f32) (x2 : Vec F S128x128 .f32) (x3 : Vec F S16x128 .f32) (x4 : Vec F S1x128 .f32) : Vec F S8000x128 .f32 :=
  View.canon [⟨rect0_0, k0_pay1 (View.ld x0 rect0_0) (View.ld x1 rect0_1) (View.ld x2 rect0_2) (View.ld x3 rect0_3) (View.ld x4 rect0_4)⟩]

/-- The one store covers the output block: its rectangle is the whole block. -/
theorem cover0_5 (p0 : Vec F S8000x128 .f32) (y : S8000x128.Idx) :
    ∃ pc ∈ ([⟨rect0_0, p0⟩] : List (View.Piece (Elt F) S8000x128 .f32)), y ∈ pc.1.set :=
  View.cover_of_tiled [⟨rect0_0, p0⟩] S8000x128.size (by rfl) y

/-! ## The body's triple -/

set_option maxHeartbeats 1000000 in
/-- The kernel body on whole staging blocks — the inputs' at given contents, the output's at anything — runs to a state
    where the inputs are as they were and the output block is `msgBlock0` of them. The load of the output block that
    precedes the store reads whatever is there; its value is not used. -/
theorem sound_kernel0 (c : Dev nD) (E : Set ℕ) (i : grid0.Coords)
    (arg1 : Memref sig .tc .vmem S8000x128 .f32) (harg1 : arg1.IsWhole) (arg2 : Memref sig .tc .vmem S8000x16 .f32) (harg2 : arg2.IsWhole)
    (arg3 : Memref sig .tc .vmem S128x128 .f32) (harg3 : arg3.IsWhole) (arg4 : Memref sig .tc .vmem S16x128 .f32) (harg4 : arg4.IsWhole)
    (arg5 : Memref sig .tc .vmem S1x128 .f32) (harg5 : arg5.IsWhole) (arg6 : Memref sig .tc .vmem S8000x128 .f32) (harg6 : arg6.IsWhole)
    (x0 : Vec F S8000x128 .f32) (x1 : Vec F S8000x16 .f32) (x2 : Vec F S128x128 .f32) (x3 : Vec F S16x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (msgBlock0 x0 x1 x2 x3 x4)) -∗ K ⟨⟩))
      ⊢ wp frame (wpE (defs₀ (F := F)) Variants.none c none) E (cc0__msg_kernel i arg1 harg1 arg2 harg2 arg3 harg3 arg4 harg4 arg5 harg5 arg6 harg6) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the region's pipeline -/

/-- The arrays as the region finds them; after the body at a point every input block is in place and the output block is
    `msgBlock0` of the five input blocks; the invariant is the one of a body that touches nothing but its windows; full
    shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => msgBlock0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = msgBlock0 (iblk0 V c 0 t) (iblk0 V c 1 t) (iblk0 V c 2 t) (iblk0 V c 3 t) (iblk0 V c 4 t) := by dsimp only [dat0]

/-! Each input's staging buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is handed at point `t`: the invariant, what the core owes, and the six staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the five input buffers hold their blocks, so the body's triple applies; the invariant and what is owed
    pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

/-! ## The invariant at the region's two ends -/

theorem Phi0_in (c : Dev nD) : Pipeline.ΦA spec0 c ⊢ (dat0 V c).Φ 0 := by
  show Pipeline.ΦA spec0 c ⊢ Pipeline.ΦA spec0 c
  exact .rfl

theorem Phi0_out (c : Dev nD) : (dat0 V c).Φ (Fin.last cfg0.N) ⊢ Pipeline.ΦA spec0 c := by
  show Pipeline.ΦA spec0 c ⊢ Pipeline.ΦA spec0 c
  exact .rfl

end Cert.Kernel.Hand
-- ==== Proof.KRegion1Runs.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points

import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 1, run on any whole memrefs

The body adds, at every grid point, the column sums of its input block to one carried accumulator and the column
sums of the squared block to a second one; at the first point both accumulators are zeroed first, at the last point
both are copied whole into the two outputs. Three control cases, by the two conditions on the grid coordinate. -/

/-- The first conditional's test: the grid coordinate is 0. -/
abbrev cond1_0 (i : grid1.Coords) : Prop := (Scalar.cmpi .ne (Scalar.extui (Scalar.cmpi .eq (BitVec.ofNat 32 (i 0).val) 0#32)) 0#32) = 1#1
/-- The second conditional's test: the grid coordinate is 9. -/
abbrev cond1_1 (i : grid1.Coords) : Prop := k1_cond2 i = 1#1

/-- The zero offsets of a rank-2 rectangle, as the constant function. -/
theorem zoff1_S1x128 : (![0, 0] : Fin S1x128.rank → ℕ) = fun _ => 0 := by funext a; fin_cases a <;> rfl
theorem zoff1_S10000x128 : (![0, 0] : Fin S10000x128.rank → ℕ) = fun _ => 0 := by funext a; fin_cases a <;> rfl

/-- A whole memref built to read as `X`, loaded through the full rectangle at zero offsets, gives `X`. -/
theorem readAt_unit_unread1 {sp : Space} {S : Shape} {e : EltTy} {m : Memref sig .tc sp S e} (hm : m.IsWhole) (X : S.Idx → Elt F e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h]

/-- After a store through the full rectangle at zero offsets made last, the buffer reads as the stored value,
    whatever was stored before. -/
theorem read_writes_unit1 {sp : Space} {S : Shape} {e : EltTy} (m : Memref sig .tc sp S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- FIRST POINT (coordinate 0, not 9). The input block reads `x0`; the outputs hold `xi1`, `xi2` and are not touched;
    the accumulators hold anything. Afterwards the accumulators hold the block's column sums, resp. the column sums of
    its squares, added to zero. -/
theorem runA1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond1_0 i) (hc1 : ¬cond1_1 i)
    (x0 : Vec F S10000x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    sl_unfold_run_names
    rw [read_writes_unit1 arg4 _ zoff1_S1x128, readAt_unit_unread1 harg1 x0 zoff1_S10000x128, View.readCov_unit_zero _ zoff1_S1x128]
  · iexists _; isplitr; swap; · iexact HS1
    ipureintro
    sl_unfold_run_names
    rw [read_writes_unit1 arg5 _ zoff1_S1x128, readAt_unit_unread1 harg1 x0 zoff1_S10000x128, View.readCov_unit_zero _ zoff1_S1x128]

set_option maxHeartbeats 1000000 in
/-- A MIDDLE POINT (coordinate neither 0 nor 9). The accumulators hold `xs0`, `xs1`; afterwards they hold these plus
    the block's column sums, resp. the column sums of its squares. The outputs are not touched. -/
theorem runB1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond1_0 i) (hc1 : ¬cond1_1 i)
    (x0 : Vec F S10000x128 .f32) (xs0 xs1 xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    rw [read_writes_unit1 arg4 _ zoff1_S1x128, readAt_unit_unread1 harg1 x0 zoff1_S10000x128, readAt_unit_unread1 harg4 xs0 zoff1_S1x128]
  · iexists _; isplitr; swap; · iexact HS1
    ipureintro
    rw [read_writes_unit1 arg5 _ zoff1_S1x128, readAt_unit_unread1 harg1 x0 zoff1_S10000x128, readAt_unit_unread1 harg5 xs1 zoff1_S1x128]

set_option maxHeartbeats 1000000 in
/-- THE LAST POINT (coordinate 9, not 0). As a middle point, and then each accumulator is copied whole into its
    output, which held anything. -/
theorem runC1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond1_0 i) (hc1 : cond1_1 i)
    (x0 : Vec F S10000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k1_pay4 x0 xs0) ∗ owns (c : Thread nD τ) arg3 fullShare (k1_pay5 x0 xs1)
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; swap; · iexact H1
    ipureintro
    sl_unfold_run_names
    rw [read_writes_unit1 arg2 _ zoff1_S1x128, View.readCov_unit_zero _ zoff1_S1x128, readAt_unit_unread1 harg1 x0 zoff1_S10000x128, readAt_unit_unread1 harg4 xs0 zoff1_S1x128]
  isplitl [H2]
  · iexists _; isplitr; swap; · iexact H2
    ipureintro
    sl_unfold_run_names
    rw [read_writes_unit1 arg3 _ zoff1_S1x128, View.readCov_unit_zero _ zoff1_S1x128, readAt_unit_unread1 harg1 x0 zoff1_S10000x128, readAt_unit_unread1 harg5 xs1 zoff1_S1x128]
  isplitl [HS0]
  · iexists _; isplitr; swap; · iexact HS0
    ipureintro
    sl_unfold_run_names
    rw [read_writes_unit1 arg4 _ zoff1_S1x128, readAt_unit_unread1 harg1 x0 zoff1_S10000x128, readAt_unit_unread1 harg4 xs0 zoff1_S1x128]
  · iexists _; isplitr; swap; · iexact HS1
    ipureintro
    sl_unfold_run_names
    rw [read_writes_unit1 arg5 _ zoff1_S1x128, readAt_unit_unread1 harg1 x0 zoff1_S10000x128, readAt_unit_unread1 harg5 xs1 zoff1_S1x128]

end Cert.Kernel.Hand
end
-- ==== Proof.KRegion1.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import proofs.«148009_j49555332661695_1_alg».proof.Proof.KRegion1Runs
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the statistics kernel's pipeline, at the entry contents `V`

Grid of ten points. Window 0 is the input block (fetched at every point); windows 1 and 2 are the outputs, written back
only at the last point; two accumulators are carried from point to point in the kernel's own scratch. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions over the grid, and where the outputs are idle -/

/-- The first condition holds exactly at point 0. -/
theorem hcond1_0 : ∀ t : Fin cfg1.N, cond1_0 (grid1.coords t) ↔ t.val = 0 :=
  (by decide +kernel : ∀ t : Fin grid1.N, cond1_0 (grid1.coords t) ↔ t.val = 0)
/-- The second condition holds exactly at point 9. -/
theorem hcond1_1 : ∀ t : Fin cfg1.N, cond1_1 (grid1.coords t) ↔ t.val = 9 :=
  (by decide +kernel : ∀ t : Fin grid1.N, cond1_1 (grid1.coords t) ↔ t.val = 9)

/-- The input window is never idle. -/
theorem liveAt1_0 : ∀ t : Fin cfg1.N, cfg1.idle 0 (grid1.coords t) = false := by decide +kernel
/-- Off the last point each output is idle and is not written back; at the last point it is live. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1

/-- The class's invariant with the two accumulators split off as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The accumulators after each point -/

/-- What the two accumulators hold after the body at position `n`: at the first point the block's column sums
    (resp. the column sums of its squares) added to zero; afterwards added to what the point before left. -/
def acc1 (c : Dev nD) : (n : ℕ) → n < cfg1.N → Vec F S1x128 .f32 × Vec F S1x128 .f32
  | 0, hn => (k1_pay4 (iblk1 V c 0 ⟨0, hn⟩) k1_pay1, k1_pay5 (iblk1 V c 0 ⟨0, hn⟩) k1_pay2)
  | n + 1, hn => (k1_pay4 (iblk1 V c 0 ⟨n + 1, hn⟩) (acc1 c n (Nat.lt_of_succ_lt hn)).1,
      k1_pay5 (iblk1 V c 0 ⟨n + 1, hn⟩) (acc1 c n (Nat.lt_of_succ_lt hn)).2)

theorem acc1_first (c : Dev nD) (t : Fin cfg1.N) (h : t.val = 0) :
    acc1 V c t.val t.isLt = (k1_pay4 (iblk1 V c 0 t) k1_pay1, k1_pay5 (iblk1 V c 0 t) k1_pay2) := by
  obtain ⟨n, hn⟩ := t
  cases n with
  | zero => rfl
  | succ n => exact absurd h (Nat.succ_ne_zero n)

theorem acc1_later (c : Dev nD) (t : Fin cfg1.N) (h : t.val ≠ 0) :
    acc1 V c t.val t.isLt = (k1_pay4 (iblk1 V c 0 t) (acc1 V c (t.val - 1) (Nat.lt_of_le_of_lt (Nat.sub_le _ _) t.isLt)).1,
      k1_pay5 (iblk1 V c 0 t) (acc1 V c (t.val - 1) (Nat.lt_of_le_of_lt (Nat.sub_le _ _) t.isLt)).2) := by
  obtain ⟨n, hn⟩ := t
  cases n with
  | zero => exact absurd rfl h
  | succ n => rfl

/-! ## The invariant -/

/-- Before position `n`: at the start the class's invariant (the accumulators at anything); afterwards the
    accumulators at what the point before left, the other scoped buffers and the generator register as they were. -/
def Phi1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r)) := rfl

theorem Phi1_pos (c : Dev nD) (n : ℕ) (h : n ≤ cfg1.N) (hz : n ≠ 0) :
    Phi1 V c n h = iprop(iprop(iprop(owns (c : Thread nD τ) scM1_0 fullShare (acc1 V c (n - 1) (by omega)).1 ∗ owns (c : Thread nD τ) scM1_1 fullShare (acc1 V c (n - 1) (by omega)).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The arrays as the region finds them; after the body at point `t` the input's buffer at its block and the two
    outputs' at the accumulators after `t` (the outputs are stored, and written back, at the last point only: there these
    are the full sums; at the other points the outputs are idle and nothing reads this field); the invariant
    `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the point's case: the input's memref holds its block; the invariant hands the body the
    accumulators (at anything at the first point, else at what the point before left) and takes them back at this
    point's; an idle output is handed back as found, a live one holds the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    rw [acc1_first V c t h0]; (try dsimp only)
    rw [Phi1_castSucc V c t, Phi1_zero V c _ _ h0, PhiA1_eq]
    iintro ⟨⟨⟨⟨HS0, HS1⟩, Hr⟩, Hg⟩, Ho, ⟨%d0, H0⟩, ⟨%d1, H1⟩, ⟨%d2, H2⟩⟩
    iapply (runA1 c (grid1.coords t) _ _ _ _ _ _ _ _ _ _ hc0 hc1 (iblk1 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · have hc0 : ¬cond1_0 (grid1.coords t) := fun h => h0 ((hcond1_0 t).mp h)
    rw [acc1_later V c t h0]; (try dsimp only)
    rw [Phi1_castSucc V c t, Phi1_pos V c _ _ h0]
    by_cases h9 : t.val = 9
    · have hc1 : cond1_1 (grid1.coords t) := (hcond1_1 t).mpr h9
      rw [show (dat1 V c).leavesExact 1 t = owns (c : Thread nD τ) (ms1_1 t) fullShare ((dat1 V c).after 1 t) from by
        unfold Dat.leavesExact; rw [liveAt1_1 t hc1], after1_1]
      rw [show (dat1 V c).leavesExact 2 t = owns (c : Thread nD τ) (ms1_2 t) fullShare ((dat1 V c).after 2 t) from by
        unfold Dat.leavesExact; rw [liveAt1_2 t hc1], after1_2]
      rw [acc1_later V c t h0]; (try dsimp only)
      iintro ⟨⟨⟨⟨HS0, HS1⟩, Hr⟩, Hg⟩, Ho, ⟨%d0, H0⟩, ⟨%d1, H1⟩, ⟨%d2, H2⟩⟩
      iapply (runC1 c (grid1.coords t) _ _ _ _ _ _ _ _ _ _ hc0 hc1 (iblk1 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · have hc1 : ¬cond1_1 (grid1.coords t) := fun h => h9 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      iintro ⟨⟨⟨⟨HS0, HS1⟩, Hr⟩, Hg⟩, Ho, ⟨%d0, H0⟩, ⟨%d1, H1⟩, ⟨%d2, H2⟩⟩
      iapply (runB1 c (grid1.coords t) _ _ _ _ _ _ _ _ _ _ hc0 hc1 (iblk1 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_in (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the accumulators' contents are forgotten. -/
theorem Phi1_out (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = Phi1 V c (Fin.last cfg1.N).val (Nat.le_of_lt_succ (Fin.last cfg1.N).isLt) from rfl,
    Phi1_pos V c _ _ ht, PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.Kernel.Hand
end
-- ==== Proof.KRegion2.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the normalise-and-rectify kernel, at the contents `V` the region is entered with -/

/-- The block of window `w` at grid point `t`: the window's view at that point, read off the array `V` holds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input windows' buffers hold their blocks

Each input window is whole and never idle, and the body leaves its buffer as found. Where the window is fetched the
buffer holds the block just fetched; where it is not (the four row windows after the first point) its block index is
the previous point's, so the buffer still holds this point's block. Stated for any proof data whose array is `V`'s
and whose body keeps the block. -/

theorem holds2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

theorem holds2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

theorem holds2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl)
      (fun t => by rw [hafter]; unfold Dat.blockOf iblk2; rw [hA]; try rfl) t d).trans
    (by unfold Dat.fetched Dat.blockOf iblk2; rw [hA]; try rfl)

theorem holds2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl)
      (fun t => by rw [hafter]; unfold Dat.blockOf iblk2; rw [hA]; try rfl) t d).trans
    (by unfold Dat.fetched Dat.blockOf iblk2; rw [hA]; try rfl)

theorem holds2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl)
      (fun t => by rw [hafter]; unfold Dat.blockOf iblk2; rw [hA]; try rfl) t d).trans
    (by unfold Dat.fetched Dat.blockOf iblk2; rw [hA]; try rfl)

/-! ## What the body stores -/

/-- The whole input block and the whole row, as rectangles. -/
abbrev rBlk2 : Rect S10000x128 := Rect.unit (s := S10000x128) ![0, 0] S10000x128.size inb_S10000x128_S10000x128_0_0
abbrev rRow2 : Rect S1x128 := Rect.unit (s := S1x128) ![0, 0] S1x128.size inb_S1x128_S1x128_0_0

/-- The output block from the five input blocks: `x0` the data, `x1` the mean row, `x2` the variance row, `x3` the
    scale row, `x4` the shift row. The body makes one store, of the whole block: the data less the mean, times the
    reciprocal root of the variance plus a constant, times the scale, plus the shift, and the larger of that and zero. -/
def bnBlock2 (x0 : Vec F S10000x128 .f32) (x1 x2 x3 x4 : Vec F S1x128 .f32) : Vec F S10000x128 .f32 :=
  View.canon [⟨rBlk2, k2_pay1 (View.ld x0 rBlk2) (View.ld x2 rRow2) (View.ld x1 rRow2) (View.ld x3 rRow2) (View.ld x4 rRow2)⟩]

/-- The one store is of the whole block, so every place of the block lies in it. -/
theorem cover2_5 (p : Vec F S10000x128 .f32) (y : S10000x128.Idx) :
    ∃ pc ∈ ([⟨rBlk2, p⟩] : List (View.Piece (Elt F) S10000x128 .f32)), y ∈ pc.1.set :=
  View.cover_of_tiled [⟨rBlk2, p⟩] S10000x128.size (by rfl) y

/-! ## The body's triple -/

set_option maxHeartbeats 1000000 in
/-- The body on six whole buffers — the five inputs at contents `x0 … x4`, the output at anything — runs to a state
    with the inputs as they were and the output at `bnBlock2 x0 x1 x2 x3 x4`. It reads the output buffer once before
    storing and does not use what it read. -/
theorem run_kernel2 (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (bnBlock2 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- The arrays are `V`'s; after the body at point `t` each input buffer holds its block and the output buffer holds
    `bnBlock2` of the five input blocks; the invariant is the region's rest, untouched; nothing is owed; shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => bnBlock2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = bnBlock2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  holds2_0_of V (dat2 V c) (A_eq2 V c 0) (after2_0 V c) t d
theorem before2_1 (c : Dev nD) (t : Fin cfg2.N) (d) : (dat2 V c).before 1 t d = iblk2 V c 1 t :=
  holds2_1_of V (dat2 V c) (A_eq2 V c 1) (after2_1 V c) t d
theorem before2_2 (c : Dev nD) (t : Fin cfg2.N) (d) : (dat2 V c).before 2 t d = iblk2 V c 2 t :=
  holds2_2_of V (dat2 V c) (A_eq2 V c 2) (after2_2 V c) t d
theorem before2_3 (c : Dev nD) (t : Fin cfg2.N) (d) : (dat2 V c).before 3 t d = iblk2 V c 3 t :=
  holds2_3_of V (dat2 V c) (A_eq2 V c 3) (after2_3 V c) t d
theorem before2_4 (c : Dev nD) (t : Fin cfg2.N) (d) : (dat2 V c).before 4 t d = iblk2 V c 4 t :=
  holds2_4_of V (dat2 V c) (A_eq2 V c 4) (after2_4 V c) t d

/-! ## The body obligation -/

/-- What the body is given at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it gives back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the kernel's triple applies; the invariant and
    what is owed pass through unread. -/
theorem run_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (run_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact run_body2 V c t

/-! ## The invariant at the ends -/

theorem Phi2_in (c : Dev nD) : Pipeline.ΦA spec2 c ⊢ (dat2 V c).Φ 0 := by
  show Pipeline.ΦA spec2 c ⊢ Pipeline.ΦA spec2 c
  exact .rfl

theorem Phi2_out (c : Dev nD) : (dat2 V c).Φ (Fin.last cfg2.N) ⊢ Pipeline.ΦA spec2 c := by
  show Pipeline.ΦA spec2 c ⊢ Pipeline.ΦA spec2 c
  exact .rfl

end Cert.Kernel.Hand
-- ==== Proof.KRegion3.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! Region 3: the edge-message kernel on its grid of 100 points. At every point the body reads five input blocks
    whole — rows of node features (8000×128), rows of edge features (8000×16), two weight matrices (128×128, 16×128) and
    a bias row (1×128) — and writes the 8000×128 block `x0·x2 + x1·x3 + bias` (operands rounded to bf16 before each
    product) over the whole output block. Everything here is generic in the float model. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- The block of window `w` at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds the window's block at every point, for any proof data over the region's
    arrays whose body leaves that block in place: where the window is fetched, the fetch puts the block there; where it
    is not (the weights and the bias after the first point), the block index has not moved since the previous point and
    the block is still there. No input window is cut or ever idle. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes -/

/-- The whole of each staging block, as the rectangle the body's loads and its one store name. -/
abbrev rect3_0 : Rect S8000x128 := Rect.unit (s := S8000x128) ![0, 0] S8000x128.size inb_S8000x128_S8000x128_0_0
abbrev rect3_1 : Rect S8000x16 := Rect.unit (s := S8000x16) ![0, 0] S8000x16.size inb_S8000x16_S8000x16_0_0
abbrev rect3_2 : Rect S128x128 := Rect.unit (s := S128x128) ![0, 0] S128x128.size inb_S128x128_S128x128_0_0
abbrev rect3_3 : Rect S16x128 := Rect.unit (s := S16x128) ![0, 0] S16x128.size inb_S16x128_S16x128_0_0
abbrev rect3_4 : Rect S1x128 := Rect.unit (s := S1x128) ![0, 0] S1x128.size inb_S1x128_S1x128_0_0

/-- The output block after the body, as a function of the five input blocks: the single store, laid over the whole
    block, of the message value computed from what the five loads read. -/
def msgBlock3 (x0 : Vec F S8000x128 .f32) (x1 : Vec F S8000x16 .f32) (x2 : Vec F S128x128 .f32) (x3 : Vec F S16x128 .f32) (x4 : Vec F S1x128 .f32) : Vec F S8000x128 .f32 :=
  View.canon [⟨rect3_0, k3_pay1 (View.ld x0 rect3_0) (View.ld x1 rect3_1) (View.ld x2 rect3_2) (View.ld x3 rect3_3) (View.ld x4 rect3_4)⟩]

/-- The one store covers the output block: its rectangle is the whole block. -/
theorem cover3_5 (p0 : Vec F S8000x128 .f32) (y : S8000x128.Idx) :
    ∃ pc ∈ ([⟨rect3_0, p0⟩] : List (View.Piece (Elt F) S8000x128 .f32)), y ∈ pc.1.set :=
  View.cover_of_tiled [⟨rect3_0, p0⟩] S8000x128.size (by rfl) y

/-! ## The body's triple -/

set_option maxHeartbeats 1000000 in
/-- The kernel body on whole staging blocks — the inputs' at given contents, the output's at anything — runs to a state
    where the inputs are as they were and the output block is `msgBlock3` of them. The load of the output block that
    precedes the store reads whatever is there; its value is not used. -/
theorem sound_kernel3 (c : Dev nD) (E : Set ℕ) (i : grid3.Coords)
    (arg1 : Memref sig .tc .vmem S8000x128 .f32) (harg1 : arg1.IsWhole) (arg2 : Memref sig .tc .vmem S8000x16 .f32) (harg2 : arg2.IsWhole)
    (arg3 : Memref sig .tc .vmem S128x128 .f32) (harg3 : arg3.IsWhole) (arg4 : Memref sig .tc .vmem S16x128 .f32) (harg4 : arg4.IsWhole)
    (arg5 : Memref sig .tc .vmem S1x128 .f32) (harg5 : arg5.IsWhole) (arg6 : Memref sig .tc .vmem S8000x128 .f32) (harg6 : arg6.IsWhole)
    (x0 : Vec F S8000x128 .f32) (x1 : Vec F S8000x16 .f32) (x2 : Vec F S128x128 .f32) (x3 : Vec F S16x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (msgBlock3 x0 x1 x2 x3 x4)) -∗ K ⟨⟩))
      ⊢ wp frame (wpE (defs₀ (F := F)) Variants.none c none) E (cc3__msg_kernel i arg1 harg1 arg2 harg2 arg3 harg3 arg4 harg4 arg5 harg5 arg6 harg6) K := by
  simp only [cc3__msg_kernel_eq_skeleton]; unfold cc3__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data of the region's pipeline -/

/-- The arrays as the region finds them; after the body at a point every input block is in place and the output block is
    `msgBlock3` of the five input blocks; the invariant is the one of a body that touches nothing but its windows; full
    shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => msgBlock3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = msgBlock3 (iblk3 V c 0 t) (iblk3 V c 1 t) (iblk3 V c 2 t) (iblk3 V c 3 t) (iblk3 V c 4 t) := by dsimp only [dat3]

/-! Each input's staging buffer holds its block when the body is called. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is handed at point `t`: the invariant, what the core owes, and the six staging buffers, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- At any point the five input buffers hold their blocks, so the body's triple applies; the invariant and what is owed
    pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

/-! ## The invariant at the region's two ends -/

theorem Phi3_in (c : Dev nD) : Pipeline.ΦA spec3 c ⊢ (dat3 V c).Φ 0 := by
  show Pipeline.ΦA spec3 c ⊢ Pipeline.ΦA spec3 c
  exact .rfl

theorem Phi3_out (c : Dev nD) : (dat3 V c).Φ (Fin.last cfg3.N) ⊢ Pipeline.ΦA spec3 c := by
  show Pipeline.ΦA spec3 c ⊢ Pipeline.ΦA spec3 c
  exact .rfl

end Cert.Kernel.Hand
-- ==== Proof.KRegion4Runs.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points

import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 4, run on any whole memrefs

The body adds, at every grid point, the column sums of its input block to one carried accumulator and the column
sums of the squared block to a second one; at the first point both accumulators are zeroed first, at the last point
both are copied whole into the two outputs. Three control cases, by the two conditions on the grid coordinate. -/

/-- The first conditional's test: the grid coordinate is 0. -/
abbrev cond4_0 (i : grid4.Coords) : Prop := (Scalar.cmpi .ne (Scalar.extui (Scalar.cmpi .eq (BitVec.ofNat 32 (i 0).val) 0#32)) 0#32) = 1#1
/-- The second conditional's test: the grid coordinate is 9. -/
abbrev cond4_1 (i : grid4.Coords) : Prop := k4_cond2 i = 1#1

/-- The zero offsets of a rank-2 rectangle, as the constant function. -/
theorem zoff4_S1x128 : (![0, 0] : Fin S1x128.rank → ℕ) = fun _ => 0 := by funext a; fin_cases a <;> rfl
theorem zoff4_S10000x128 : (![0, 0] : Fin S10000x128.rank → ℕ) = fun _ => 0 := by funext a; fin_cases a <;> rfl

/-- A whole memref built to read as `X`, loaded through the full rectangle at zero offsets, gives `X`. -/
theorem readAt_unit_unread4 {sp : Space} {S : Shape} {e : EltTy} {m : Memref sig .tc sp S e} (hm : m.IsWhole) (X : S.Idx → Elt F e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h]

/-- After a store through the full rectangle at zero offsets made last, the buffer reads as the stored value,
    whatever was stored before. -/
theorem read_writes_unit4 {sp : Space} {S : Shape} {e : EltTy} (m : Memref sig .tc sp S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- FIRST POINT (coordinate 0, not 9). The input block reads `x0`; the outputs hold `xi1`, `xi2` and are not touched;
    the accumulators hold anything. Afterwards the accumulators hold the block's column sums, resp. the column sums of
    its squares, added to zero. -/
theorem runA4 (c : Dev nD) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond4_0 i) (hc1 : ¬cond4_1 i)
    (x0 : Vec F S10000x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 k4_pay1) ∗ owns (c : Thread nD τ) arg5 fullShare (k4_pay5 x0 k4_pay2)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    sl_unfold_run_names
    rw [read_writes_unit4 arg4 _ zoff4_S1x128, readAt_unit_unread4 harg1 x0 zoff4_S10000x128, View.readCov_unit_zero _ zoff4_S1x128]
  · iexists _; isplitr; swap; · iexact HS1
    ipureintro
    sl_unfold_run_names
    rw [read_writes_unit4 arg5 _ zoff4_S1x128, readAt_unit_unread4 harg1 x0 zoff4_S10000x128, View.readCov_unit_zero _ zoff4_S1x128]

set_option maxHeartbeats 1000000 in
/-- A MIDDLE POINT (coordinate neither 0 nor 9). The accumulators hold `xs0`, `xs1`; afterwards they hold these plus
    the block's column sums, resp. the column sums of its squares. The outputs are not touched. -/
theorem runB4 (c : Dev nD) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond4_0 i) (hc1 : ¬cond4_1 i)
    (x0 : Vec F S10000x128 .f32) (xs0 xs1 xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 xs0) ∗ owns (c : Thread nD τ) arg5 fullShare (k4_pay5 x0 xs1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    rw [read_writes_unit4 arg4 _ zoff4_S1x128, readAt_unit_unread4 harg1 x0 zoff4_S10000x128, readAt_unit_unread4 harg4 xs0 zoff4_S1x128]
  · iexists _; isplitr; swap; · iexact HS1
    ipureintro
    rw [read_writes_unit4 arg5 _ zoff4_S1x128, readAt_unit_unread4 harg1 x0 zoff4_S10000x128, readAt_unit_unread4 harg5 xs1 zoff4_S1x128]

set_option maxHeartbeats 1000000 in
/-- THE LAST POINT (coordinate 9, not 0). As a middle point, and then each accumulator is copied whole into its
    output, which held anything. -/
theorem runC4 (c : Dev nD) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond4_0 i) (hc1 : cond4_1 i)
    (x0 : Vec F S10000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k4_pay4 x0 xs0) ∗ owns (c : Thread nD τ) arg3 fullShare (k4_pay5 x0 xs1)
            ∗ owns (c : Thread nD τ) arg4 fullShare (k4_pay4 x0 xs0) ∗ owns (c : Thread nD τ) arg5 fullShare (k4_pay5 x0 xs1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; swap; · iexact H1
    ipureintro
    sl_unfold_run_names
    rw [read_writes_unit4 arg2 _ zoff4_S1x128, View.readCov_unit_zero _ zoff4_S1x128, readAt_unit_unread4 harg1 x0 zoff4_S10000x128, readAt_unit_unread4 harg4 xs0 zoff4_S1x128]
  isplitl [H2]
  · iexists _; isplitr; swap; · iexact H2
    ipureintro
    sl_unfold_run_names
    rw [read_writes_unit4 arg3 _ zoff4_S1x128, View.readCov_unit_zero _ zoff4_S1x128, readAt_unit_unread4 harg1 x0 zoff4_S10000x128, readAt_unit_unread4 harg5 xs1 zoff4_S1x128]
  isplitl [HS0]
  · iexists _; isplitr; swap; · iexact HS0
    ipureintro
    sl_unfold_run_names
    rw [read_writes_unit4 arg4 _ zoff4_S1x128, readAt_unit_unread4 harg1 x0 zoff4_S10000x128, readAt_unit_unread4 harg4 xs0 zoff4_S1x128]
  · iexists _; isplitr; swap; · iexact HS1
    ipureintro
    sl_unfold_run_names
    rw [read_writes_unit4 arg5 _ zoff4_S1x128, readAt_unit_unread4 harg1 x0 zoff4_S10000x128, readAt_unit_unread4 harg5 xs1 zoff4_S1x128]

end Cert.Kernel.Hand
end
-- ==== Proof.KRegion4.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import proofs.«148009_j49555332661695_1_alg».proof.Proof.KRegion4Runs
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 4: the statistics kernel's pipeline, at the entry contents `V`

Grid of ten points. Window 0 is the input block (fetched at every point); windows 1 and 2 are the outputs, written back
only at the last point; two accumulators are carried from point to point in the kernel's own scratch. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions over the grid, and where the outputs are idle -/

/-- The first condition holds exactly at point 0. -/
theorem hcond4_0 : ∀ t : Fin cfg4.N, cond4_0 (grid4.coords t) ↔ t.val = 0 :=
  (by decide +kernel : ∀ t : Fin grid4.N, cond4_0 (grid4.coords t) ↔ t.val = 0)
/-- The second condition holds exactly at point 9. -/
theorem hcond4_1 : ∀ t : Fin cfg4.N, cond4_1 (grid4.coords t) ↔ t.val = 9 :=
  (by decide +kernel : ∀ t : Fin grid4.N, cond4_1 (grid4.coords t) ↔ t.val = 9)

/-- The input window is never idle. -/
theorem liveAt4_0 : ∀ t : Fin cfg4.N, cfg4.idle 0 (grid4.coords t) = false := by decide +kernel
/-- Off the last point each output is idle and is not written back; at the last point it is live. -/
theorem idleAt4_1 : ∀ t : Fin cfg4.N, ¬cond4_1 (grid4.coords t) → cfg4.idle 1 (grid4.coords t) = true := by decide +kernel
theorem noFlush4_1 : ∀ t : Fin cfg4.N, ¬cond4_1 (grid4.coords t) → (cfg4.win 1).flush t = false := by decide +kernel
theorem liveAt4_1 : ∀ t : Fin cfg4.N, cond4_1 (grid4.coords t) → cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The memrefs the body is called with -/

abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
/-- The two accumulators: whole scoped buffers of the kernel's own. -/
abbrev scM4_0 : Memref sig .tc .vmem S1x128 .f32 := Memref.whole cc4_scratch0
abbrev scM4_1 : Memref sig .tc .vmem S1x128 .f32 := Memref.whole cc4_scratch1

/-- The class's invariant with the two accumulators split off as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The accumulators after each point -/

/-- What the two accumulators hold after the body at position `n`: at the first point the block's column sums
    (resp. the column sums of its squares) added to zero; afterwards added to what the point before left. -/
def acc4 (c : Dev nD) : (n : ℕ) → n < cfg4.N → Vec F S1x128 .f32 × Vec F S1x128 .f32
  | 0, hn => (k4_pay4 (iblk4 V c 0 ⟨0, hn⟩) k4_pay1, k4_pay5 (iblk4 V c 0 ⟨0, hn⟩) k4_pay2)
  | n + 1, hn => (k4_pay4 (iblk4 V c 0 ⟨n + 1, hn⟩) (acc4 c n (Nat.lt_of_succ_lt hn)).1,
      k4_pay5 (iblk4 V c 0 ⟨n + 1, hn⟩) (acc4 c n (Nat.lt_of_succ_lt hn)).2)

theorem acc4_first (c : Dev nD) (t : Fin cfg4.N) (h : t.val = 0) :
    acc4 V c t.val t.isLt = (k4_pay4 (iblk4 V c 0 t) k4_pay1, k4_pay5 (iblk4 V c 0 t) k4_pay2) := by
  obtain ⟨n, hn⟩ := t
  cases n with
  | zero => rfl
  | succ n => exact absurd h (Nat.succ_ne_zero n)

theorem acc4_later (c : Dev nD) (t : Fin cfg4.N) (h : t.val ≠ 0) :
    acc4 V c t.val t.isLt = (k4_pay4 (iblk4 V c 0 t) (acc4 V c (t.val - 1) (Nat.lt_of_le_of_lt (Nat.sub_le _ _) t.isLt)).1,
      k4_pay5 (iblk4 V c 0 t) (acc4 V c (t.val - 1) (Nat.lt_of_le_of_lt (Nat.sub_le _ _) t.isLt)).2) := by
  obtain ⟨n, hn⟩ := t
  cases n with
  | zero => exact absurd rfl h
  | succ n => rfl

/-! ## The invariant -/

/-- Before position `n`: at the start the class's invariant (the accumulators at anything); afterwards the
    accumulators at what the point before left, the other scoped buffers and the generator register as they were. -/
def Phi4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem Phi4_pos (c : Dev nD) (n : ℕ) (h : n ≤ cfg4.N) (hz : n ≠ 0) :
    Phi4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The arrays as the region finds them; after the body at point `t` the input's buffer at its block and the two
    outputs' at the accumulators after `t` (the outputs are stored, and written back, at the last point only: there these
    are the full sums; at the other points the outputs are idle and nothing reads this field); the invariant
    `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (acc4 V c t.val t.isLt).1
    | ⟨2, _⟩ => (acc4 V c t.val t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = (acc4 V c t.val t.isLt).1 := by dsimp only [dat4]
theorem after4_2 (c : Dev nD) (t : Fin cfg4.N) : (dat4 V c).after 2 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point, by the point's case: the input's memref holds its block; the invariant hands the body the
    accumulators (at anything at the first point, else at what the point before left) and takes them back at this
    point's; an idle output is handed back as found, a live one holds the accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [liveAt4_0 t], after4_0]
  have hN : t.val < 10 := lt_of_lt_of_eq t.isLt (show cfg4.N = 10 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 1 t (idleAt4_1 t hc1) (noFlush4_1 t hc1),
      Dat.leavesExact_idle (dat4 V c) 2 t (idleAt4_2 t hc1) (noFlush4_2 t hc1)]
    rw [acc4_first V c t h0]; (try dsimp only)
    rw [Phi4_castSucc V c t, Phi4_zero V c _ _ h0, PhiA4_eq]
    iintro ⟨⟨⟨⟨HS0, HS1⟩, Hr⟩, Hg⟩, Ho, ⟨%d0, H0⟩, ⟨%d1, H1⟩, ⟨%d2, H2⟩⟩
    iapply (runA4 c (grid4.coords t) _ _ _ _ _ _ _ _ _ _ hc0 hc1 (iblk4 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · have hc0 : ¬cond4_0 (grid4.coords t) := fun h => h0 ((hcond4_0 t).mp h)
    rw [acc4_later V c t h0]; (try dsimp only)
    rw [Phi4_castSucc V c t, Phi4_pos V c _ _ h0]
    by_cases h9 : t.val = 9
    · have hc1 : cond4_1 (grid4.coords t) := (hcond4_1 t).mpr h9
      rw [show (dat4 V c).leavesExact 1 t = owns (c : Thread nD τ) (ms4_1 t) fullShare ((dat4 V c).after 1 t) from by
        unfold Dat.leavesExact; rw [liveAt4_1 t hc1], after4_1]
      rw [show (dat4 V c).leavesExact 2 t = owns (c : Thread nD τ) (ms4_2 t) fullShare ((dat4 V c).after 2 t) from by
        unfold Dat.leavesExact; rw [liveAt4_2 t hc1], after4_2]
      rw [acc4_later V c t h0]; (try dsimp only)
      iintro ⟨⟨⟨⟨HS0, HS1⟩, Hr⟩, Hg⟩, Ho, ⟨%d0, H0⟩, ⟨%d1, H1⟩, ⟨%d2, H2⟩⟩
      iapply (runC4 c (grid4.coords t) _ _ _ _ _ _ _ _ _ _ hc0 hc1 (iblk4 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · have hc1 : ¬cond4_1 (grid4.coords t) := fun h => h9 ((hcond4_1 t).mp h)
      rw [Dat.leavesExact_idle (dat4 V c) 1 t (idleAt4_1 t hc1) (noFlush4_1 t hc1),
        Dat.leavesExact_idle (dat4 V c) 2 t (idleAt4_2 t hc1) (noFlush4_2 t hc1)]
      iintro ⟨⟨⟨⟨HS0, HS1⟩, Hr⟩, Hg⟩, Ho, ⟨%d0, H0⟩, ⟨%d1, H1⟩, ⟨%d2, H2⟩⟩
      iapply (runB4 c (grid4.coords t) _ _ _ _ _ _ _ _ _ _ hc0 hc1 (iblk4 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem Phi4_in (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives the class's back: the accumulators' contents are forgotten. -/
theorem Phi4_out (c : Dev nD) : (dat4 V c).Φ (Fin.last cfg4.N) ⊢ Pipeline.ΦA spec4 c := by
  have ht : (Fin.last cfg4.N).val ≠ 0 := by rw [Fin.val_last]; have : cfg4.N = 10 := N_4; omega
  rw [show (dat4 V c).Φ (Fin.last cfg4.N) = Phi4 V c (Fin.last cfg4.N).val (Nat.le_of_lt_succ (Fin.last cfg4.N).isLt) from rfl,
    Phi4_pos V c _ _ ht, PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.Kernel.Hand
end
-- ==== Proof.KRegion5.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the normalise-and-rectify kernel, at the contents `V` the region is entered with -/

/-- The block of window `w` at grid point `t`: the window's view at that point, read off the array `V` holds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The input windows' buffers hold their blocks

Each input window is whole and never idle, and the body leaves its buffer as found. Where the window is fetched the
buffer holds the block just fetched; where it is not (the four row windows after the first point) its block index is
the previous point's, so the buffer still holds this point's block. Stated for any proof data whose array is `V`'s
and whose body keeps the block. -/

theorem holds5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl)
      (fun t => by rw [hafter]; unfold Dat.blockOf iblk5; rw [hA]; try rfl) t d).trans
    (by unfold Dat.fetched Dat.blockOf iblk5; rw [hA]; try rfl)

theorem holds5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl)
      (fun t => by rw [hafter]; unfold Dat.blockOf iblk5; rw [hA]; try rfl) t d).trans
    (by unfold Dat.fetched Dat.blockOf iblk5; rw [hA]; try rfl)

theorem holds5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl)
      (fun t => by rw [hafter]; unfold Dat.blockOf iblk5; rw [hA]; try rfl) t d).trans
    (by unfold Dat.fetched Dat.blockOf iblk5; rw [hA]; try rfl)

theorem holds5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl)
      (fun t => by rw [hafter]; unfold Dat.blockOf iblk5; rw [hA]; try rfl) t d).trans
    (by unfold Dat.fetched Dat.blockOf iblk5; rw [hA]; try rfl)

theorem holds5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl)
      (fun t => by rw [hafter]; unfold Dat.blockOf iblk5; rw [hA]; try rfl) t d).trans
    (by unfold Dat.fetched Dat.blockOf iblk5; rw [hA]; try rfl)

/-! ## What the body stores -/

/-- The whole input block and the whole row, as rectangles. -/
abbrev rBlk5 : Rect S10000x128 := Rect.unit (s := S10000x128) ![0, 0] S10000x128.size inb_S10000x128_S10000x128_0_0
abbrev rRow5 : Rect S1x128 := Rect.unit (s := S1x128) ![0, 0] S1x128.size inb_S1x128_S1x128_0_0

/-- The output block from the five input blocks: `x0` the data, `x1` the mean row, `x2` the variance row, `x3` the
    scale row, `x4` the shift row. The body makes one store, of the whole block: the data less the mean, times the
    reciprocal root of the variance plus a constant, times the scale, plus the shift, and the larger of that and zero. -/
def bnBlock5 (x0 : Vec F S10000x128 .f32) (x1 x2 x3 x4 : Vec F S1x128 .f32) : Vec F S10000x128 .f32 :=
  View.canon [⟨rBlk5, k5_pay1 (View.ld x0 rBlk5) (View.ld x2 rRow5) (View.ld x1 rRow5) (View.ld x3 rRow5) (View.ld x4 rRow5)⟩]

/-- The one store is of the whole block, so every place of the block lies in it. -/
theorem cover5_5 (p : Vec F S10000x128 .f32) (y : S10000x128.Idx) :
    ∃ pc ∈ ([⟨rBlk5, p⟩] : List (View.Piece (Elt F) S10000x128 .f32)), y ∈ pc.1.set :=
  View.cover_of_tiled [⟨rBlk5, p⟩] S10000x128.size (by rfl) y

/-! ## The body's triple -/

set_option maxHeartbeats 1000000 in
/-- The body on six whole buffers — the five inputs at contents `x0 … x4`, the output at anything — runs to a state
    with the inputs as they were and the output at `bnBlock5 x0 x1 x2 x3 x4`. It reads the output buffer once before
    storing and does not use what it read. -/
theorem run_kernel5 (c : Dev nD) (E : Set ℕ) (i : grid5.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (bnBlock5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data -/

/-- The arrays are `V`'s; after the body at point `t` each input buffer holds its block and the output buffer holds
    `bnBlock5` of the five input blocks; the invariant is the region's rest, untouched; nothing is owed; shares are full. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => bnBlock5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = bnBlock5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  holds5_0_of V (dat5 V c) (A_eq5 V c 0) (after5_0 V c) t d
theorem before5_1 (c : Dev nD) (t : Fin cfg5.N) (d) : (dat5 V c).before 1 t d = iblk5 V c 1 t :=
  holds5_1_of V (dat5 V c) (A_eq5 V c 1) (after5_1 V c) t d
theorem before5_2 (c : Dev nD) (t : Fin cfg5.N) (d) : (dat5 V c).before 2 t d = iblk5 V c 2 t :=
  holds5_2_of V (dat5 V c) (A_eq5 V c 2) (after5_2 V c) t d
theorem before5_3 (c : Dev nD) (t : Fin cfg5.N) (d) : (dat5 V c).before 3 t d = iblk5 V c 3 t :=
  holds5_3_of V (dat5 V c) (A_eq5 V c 3) (after5_3 V c) t d
theorem before5_4 (c : Dev nD) (t : Fin cfg5.N) (d) : (dat5 V c).before 4 t d = iblk5 V c 4 t :=
  holds5_4_of V (dat5 V c) (A_eq5 V c 4) (after5_4 V c) t d

/-! ## The body obligation -/

/-- What the body is given at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it gives back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the kernel's triple applies; the invariant and
    what is owed pass through unread. -/
theorem run_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (run_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact run_body5 V c t

/-! ## The invariant at the ends -/

theorem Phi5_in (c : Dev nD) : Pipeline.ΦA spec5 c ⊢ (dat5 V c).Φ 0 := by
  show Pipeline.ΦA spec5 c ⊢ Pipeline.ΦA spec5 c
  exact .rfl

theorem Phi5_out (c : Dev nD) : (dat5 V c).Φ (Fin.last cfg5.N) ⊢ Pipeline.ΦA spec5 c := by
  show Pipeline.ΦA spec5 c ⊢ Pipeline.ΦA spec5 c
  exact .rfl

end Cert.Kernel.Hand
-- ==== Proof.KRegion6.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! Region 6: the edge-message kernel on its grid of 100 points. At every point the body reads five input blocks
    whole — rows of node features (8000×128), rows of edge features (8000×16), two weight matrices (128×128, 16×128) and
    a bias row (1×128) — and writes the 8000×128 block `x0·x2 + x1·x3 + bias` (operands rounded to bf16 before each
    product) over the whole output block. Everything here is generic in the float model. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- The block of window `w` at point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds the window's block at every point, for any proof data over the region's
    arrays whose body leaves that block in place: where the window is fetched, the fetch puts the block there; where it
    is not (the weights and the bias after the first point), the block index has not moved since the previous point and
    the block is still there. No input window is cut or ever idle. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## What the body reads and writes -/

/-- The whole of each staging block, as the rectangle the body's loads and its one store name. -/
abbrev rect6_0 : Rect S8000x128 := Rect.unit (s := S8000x128) ![0, 0] S8000x128.size inb_S8000x128_S8000x128_0_0
abbrev rect6_1 : Rect S8000x16 := Rect.unit (s := S8000x16) ![0, 0] S8000x16.size inb_S8000x16_S8000x16_0_0
abbrev rect6_2 : Rect S128x128 := Rect.unit (s := S128x128) ![0, 0] S128x128.size inb_S128x128_S128x128_0_0
abbrev rect6_3 : Rect S16x128 := Rect.unit (s := S16x128) ![0, 0] S16x128.size inb_S16x128_S16x128_0_0
abbrev rect6_4 : Rect S1x128 := Rect.unit (s := S1x128) ![0, 0] S1x128.size inb_S1x128_S1x128_0_0

/-- The output block after the body, as a function of the five input blocks: the single store, laid over the whole
    block, of the message value computed from what the five loads read. -/
def msgBlock6 (x0 : Vec F S8000x128 .f32) (x1 : Vec F S8000x16 .f32) (x2 : Vec F S128x128 .f32) (x3 : Vec F S16x128 .f32) (x4 : Vec F S1x128 .f32) : Vec F S8000x128 .f32 :=
  View.canon [⟨rect6_0, k6_pay1 (View.ld x0 rect6_0) (View.ld x1 rect6_1) (View.ld x2 rect6_2) (View.ld x3 rect6_3) (View.ld x4 rect6_4)⟩]

/-- The one store covers the output block: its rectangle is the whole block. -/
theorem cover6_5 (p0 : Vec F S8000x128 .f32) (y : S8000x128.Idx) :
    ∃ pc ∈ ([⟨rect6_0, p0⟩] : List (View.Piece (Elt F) S8000x128 .f32)), y ∈ pc.1.set :=
  View.cover_of_tiled [⟨rect6_0, p0⟩] S8000x128.size (by rfl) y

/-! ## The body's triple -/

set_option maxHeartbeats 1000000 in
/-- The kernel body on whole staging blocks — the inputs' at given contents, the output's at anything — runs to a state
    where the inputs are as they were and the output block is `msgBlock6` of them. The load of the output block that
    precedes the store reads whatever is there; its value is not used. -/
theorem sound_kernel6 (c : Dev nD) (E : Set ℕ) (i : grid6.Coords)
    (arg1 : Memref sig .tc .vmem S8000x128 .f32) (harg1 : arg1.IsWhole) (arg2 : Memref sig .tc .vmem S8000x16 .f32) (harg2 : arg2.IsWhole)
    (arg3 : Memref sig .tc .vmem S128x128 .f32) (harg3 : arg3.IsWhole) (arg4 : Memref sig .tc .vmem S16x128 .f32) (harg4 : arg4.IsWhole)
    (arg5 : Memref sig .tc .vmem S1x128 .f32) (harg5 : arg5.IsWhole) (arg6 : Memref sig .tc .vmem S8000x128 .f32) (harg6 : arg6.IsWhole)
    (x0 : Vec F S8000x128 .f32) (x1 : Vec F S8000x16 .f32) (x2 : Vec F S128x128 .f32) (x3 : Vec F S16x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (msgBlock6 x0 x1 x2 x3 x4)) -∗ K ⟨⟩))
      ⊢ wp frame (wpE (defs₀ (F := F)) Variants.none c none) E (cc6__msg_kernel i arg1 harg1 arg2 harg2 arg3 harg3 arg4 harg4 arg5 harg5 arg6 harg6) K := by
  simp only [cc6__msg_kernel_eq_skeleton]; unfold cc6__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The proof data of the region's pipeline -/

/-- The arrays as the region finds them; after the body at a point every input block is in place and the output block is
    `msgBlock6` of the five input blocks; the invariant is the one of a body that touches nothing but its windows; full
    shares, nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => msgBlock6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = msgBlock6 (iblk6 V c 0 t) (iblk6 V c 1 t) (iblk6 V c 2 t) (iblk6 V c 3 t) (iblk6 V c 4 t) := by dsimp only [dat6]

/-! Each input's staging buffer holds its block when the body is called. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the body is handed at point `t`: the invariant, what the core owes, and the six staging buffers, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- At any point the five input buffers hold their blocks, so the body's triple applies; the invariant and what is owed
    pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

/-! ## The invariant at the region's two ends -/

theorem Phi6_in (c : Dev nD) : Pipeline.ΦA spec6 c ⊢ (dat6 V c).Φ 0 := by
  show Pipeline.ΦA spec6 c ⊢ Pipeline.ΦA spec6 c
  exact .rfl

theorem Phi6_out (c : Dev nD) : (dat6 V c).Φ (Fin.last cfg6.N) ⊢ Pipeline.ΦA spec6 c := by
  show Pipeline.ΦA spec6 c ⊢ Pipeline.ΦA spec6 c
  exact .rfl

end Cert.Kernel.Hand
-- ==== Proof.KRegion7Runs.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points

import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 7, run on any whole memrefs

The body adds, at every grid point, the column sums of its input block to one carried accumulator and the column
sums of the squared block to a second one; at the first point both accumulators are zeroed first, at the last point
both are copied whole into the two outputs. Three control cases, by the two conditions on the grid coordinate. -/

/-- The first conditional's test: the grid coordinate is 0. -/
abbrev cond7_0 (i : grid7.Coords) : Prop := (Scalar.cmpi .ne (Scalar.extui (Scalar.cmpi .eq (BitVec.ofNat 32 (i 0).val) 0#32)) 0#32) = 1#1
/-- The second conditional's test: the grid coordinate is 9. -/
abbrev cond7_1 (i : grid7.Coords) : Prop := k7_cond2 i = 1#1

/-- The zero offsets of a rank-2 rectangle, as the constant function. -/
theorem zoff7_S1x128 : (![0, 0] : Fin S1x128.rank → ℕ) = fun _ => 0 := by funext a; fin_cases a <;> rfl
theorem zoff7_S10000x128 : (![0, 0] : Fin S10000x128.rank → ℕ) = fun _ => 0 := by funext a; fin_cases a <;> rfl

/-- A whole memref built to read as `X`, loaded through the full rectangle at zero offsets, gives `X`. -/
theorem readAt_unit_unread7 {sp : Space} {S : Shape} {e : EltTy} {m : Memref sig .tc sp S e} (hm : m.IsWhole) (X : S.Idx → Elt F e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h]

/-- After a store through the full rectangle at zero offsets made last, the buffer reads as the stored value,
    whatever was stored before. -/
theorem read_writes_unit7 {sp : Space} {S : Shape} {e : EltTy} (m : Memref sig .tc sp S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- FIRST POINT (coordinate 0, not 9). The input block reads `x0`; the outputs hold `xi1`, `xi2` and are not touched;
    the accumulators hold anything. Afterwards the accumulators hold the block's column sums, resp. the column sums of
    its squares, added to zero. -/
theorem runA7 (c : Dev nD) (i : grid7.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond7_0 i) (hc1 : ¬cond7_1 i)
    (x0 : Vec F S10000x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 k7_pay1) ∗ owns (c : Thread nD τ) arg5 fullShare (k7_pay5 x0 k7_pay2)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    sl_unfold_run_names
    rw [read_writes_unit7 arg4 _ zoff7_S1x128, readAt_unit_unread7 harg1 x0 zoff7_S10000x128, View.readCov_unit_zero _ zoff7_S1x128]
  · iexists _; isplitr; swap; · iexact HS1
    ipureintro
    sl_unfold_run_names
    rw [read_writes_unit7 arg5 _ zoff7_S1x128, readAt_unit_unread7 harg1 x0 zoff7_S10000x128, View.readCov_unit_zero _ zoff7_S1x128]

set_option maxHeartbeats 1000000 in
/-- A MIDDLE POINT (coordinate neither 0 nor 9). The accumulators hold `xs0`, `xs1`; afterwards they hold these plus
    the block's column sums, resp. the column sums of its squares. The outputs are not touched. -/
theorem runB7 (c : Dev nD) (i : grid7.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond7_0 i) (hc1 : ¬cond7_1 i)
    (x0 : Vec F S10000x128 .f32) (xs0 xs1 xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 xs0) ∗ owns (c : Thread nD τ) arg5 fullShare (k7_pay5 x0 xs1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    rw [read_writes_unit7 arg4 _ zoff7_S1x128, readAt_unit_unread7 harg1 x0 zoff7_S10000x128, readAt_unit_unread7 harg4 xs0 zoff7_S1x128]
  · iexists _; isplitr; swap; · iexact HS1
    ipureintro
    rw [read_writes_unit7 arg5 _ zoff7_S1x128, readAt_unit_unread7 harg1 x0 zoff7_S10000x128, readAt_unit_unread7 harg5 xs1 zoff7_S1x128]

set_option maxHeartbeats 1000000 in
/-- THE LAST POINT (coordinate 9, not 0). As a middle point, and then each accumulator is copied whole into its
    output, which held anything. -/
theorem runC7 (c : Dev nD) (i : grid7.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond7_0 i) (hc1 : cond7_1 i)
    (x0 : Vec F S10000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k7_pay4 x0 xs0) ∗ owns (c : Thread nD τ) arg3 fullShare (k7_pay5 x0 xs1)
            ∗ owns (c : Thread nD τ) arg4 fullShare (k7_pay4 x0 xs0) ∗ owns (c : Thread nD τ) arg5 fullShare (k7_pay5 x0 xs1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; swap; · iexact H1
    ipureintro
    sl_unfold_run_names
    rw [read_writes_unit7 arg2 _ zoff7_S1x128, View.readCov_unit_zero _ zoff7_S1x128, readAt_unit_unread7 harg1 x0 zoff7_S10000x128, readAt_unit_unread7 harg4 xs0 zoff7_S1x128]
  isplitl [H2]
  · iexists _; isplitr; swap; · iexact H2
    ipureintro
    sl_unfold_run_names
    rw [read_writes_unit7 arg3 _ zoff7_S1x128, View.readCov_unit_zero _ zoff7_S1x128, readAt_unit_unread7 harg1 x0 zoff7_S10000x128, readAt_unit_unread7 harg5 xs1 zoff7_S1x128]
  isplitl [HS0]
  · iexists _; isplitr; swap; · iexact HS0
    ipureintro
    sl_unfold_run_names
    rw [read_writes_unit7 arg4 _ zoff7_S1x128, readAt_unit_unread7 harg1 x0 zoff7_S10000x128, readAt_unit_unread7 harg4 xs0 zoff7_S1x128]
  · iexists _; isplitr; swap; · iexact HS1
    ipureintro
    sl_unfold_run_names
    rw [read_writes_unit7 arg5 _ zoff7_S1x128, readAt_unit_unread7 harg1 x0 zoff7_S10000x128, readAt_unit_unread7 harg5 xs1 zoff7_S1x128]

end Cert.Kernel.Hand
end
-- ==== Proof.KRegion7.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import proofs.«148009_j49555332661695_1_alg».proof.Proof.KRegion7Runs
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 7: the statistics kernel's pipeline, at the entry contents `V`

Grid of ten points. Window 0 is the input block (fetched at every point); windows 1 and 2 are the outputs, written back
only at the last point; two accumulators are carried from point to point in the kernel's own scratch. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose array is `V`'s
    and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The two conditions over the grid, and where the outputs are idle -/

/-- The first condition holds exactly at point 0. -/
theorem hcond7_0 : ∀ t : Fin cfg7.N, cond7_0 (grid7.coords t) ↔ t.val = 0 :=
  (by decide +kernel : ∀ t : Fin grid7.N, cond7_0 (grid7.coords t) ↔ t.val = 0)
/-- The second condition holds exactly at point 9. -/
theorem hcond7_1 : ∀ t : Fin cfg7.N, cond7_1 (grid7.coords t) ↔ t.val = 9 :=
  (by decide +kernel : ∀ t : Fin grid7.N, cond7_1 (grid7.coords t) ↔ t.val = 9)

/-- The input window is never idle. -/
theorem liveAt7_0 : ∀ t : Fin cfg7.N, cfg7.idle 0 (grid7.coords t) = false := by decide +kernel
/-- Off the last point each output is idle and is not written back; at the last point it is live. -/
theorem idleAt7_1 : ∀ t : Fin cfg7.N, ¬cond7_1 (grid7.coords t) → cfg7.idle 1 (grid7.coords t) = true := by decide +kernel
theorem noFlush7_1 : ∀ t : Fin cfg7.N, ¬cond7_1 (grid7.coords t) → (cfg7.win 1).flush t = false := by decide +kernel
theorem liveAt7_1 : ∀ t : Fin cfg7.N, cond7_1 (grid7.coords t) → cfg7.idle 1 (grid7.coords t) = false := by decide +kernel
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

/-! ## The memrefs the body is called with -/

abbrev ms7_0 (t : Fin cfg7.N) : Memref sig .tc .vmem S10000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
/-- The two accumulators: whole scoped buffers of the kernel's own. -/
abbrev scM7_0 : Memref sig .tc .vmem S1x128 .f32 := Memref.whole cc7_scratch0
abbrev scM7_1 : Memref sig .tc .vmem S1x128 .f32 := Memref.whole cc7_scratch1

/-- The class's invariant with the two accumulators split off as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## The accumulators after each point -/

/-- What the two accumulators hold after the body at position `n`: at the first point the block's column sums
    (resp. the column sums of its squares) added to zero; afterwards added to what the point before left. -/
def acc7 (c : Dev nD) : (n : ℕ) → n < cfg7.N → Vec F S1x128 .f32 × Vec F S1x128 .f32
  | 0, hn => (k7_pay4 (iblk7 V c 0 ⟨0, hn⟩) k7_pay1, k7_pay5 (iblk7 V c 0 ⟨0, hn⟩) k7_pay2)
  | n + 1, hn => (k7_pay4 (iblk7 V c 0 ⟨n + 1, hn⟩) (acc7 c n (Nat.lt_of_succ_lt hn)).1,
      k7_pay5 (iblk7 V c 0 ⟨n + 1, hn⟩) (acc7 c n (Nat.lt_of_succ_lt hn)).2)

theorem acc7_first (c : Dev nD) (t : Fin cfg7.N) (h : t.val = 0) :
    acc7 V c t.val t.isLt = (k7_pay4 (iblk7 V c 0 t) k7_pay1, k7_pay5 (iblk7 V c 0 t) k7_pay2) := by
  obtain ⟨n, hn⟩ := t
  cases n with
  | zero => rfl
  | succ n => exact absurd h (Nat.succ_ne_zero n)

theorem acc7_later (c : Dev nD) (t : Fin cfg7.N) (h : t.val ≠ 0) :
    acc7 V c t.val t.isLt = (k7_pay4 (iblk7 V c 0 t) (acc7 V c (t.val - 1) (Nat.lt_of_le_of_lt (Nat.sub_le _ _) t.isLt)).1,
      k7_pay5 (iblk7 V c 0 t) (acc7 V c (t.val - 1) (Nat.lt_of_le_of_lt (Nat.sub_le _ _) t.isLt)).2) := by
  obtain ⟨n, hn⟩ := t
  cases n with
  | zero => exact absurd rfl h
  | succ n => rfl

/-! ## The invariant -/

/-- Before position `n`: at the start the class's invariant (the accumulators at anything); afterwards the
    accumulators at what the point before left, the other scoped buffers and the generator register as they were. -/
def Phi7 (c : Dev nD) : (n : ℕ) → n ≤ cfg7.N → sProp 𝕄
  | 0, _ => Pipeline.ΦA spec7 c
  | n + 1, hn => iprop(iprop(iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r))

theorem Phi7_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r)) := rfl

theorem Phi7_pos (c : Dev nD) (n : ℕ) (h : n ≤ cfg7.N) (hz : n ≠ 0) :
    Phi7 V c n h = iprop(iprop(iprop(owns (c : Thread nD τ) scM7_0 fullShare (acc7 V c (n - 1) (by omega)).1 ∗ owns (c : Thread nD τ) scM7_1 fullShare (acc7 V c (n - 1) (by omega)).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The proof data -/

/-- The arrays as the region finds them; after the body at point `t` the input's buffer at its block and the two
    outputs' at the accumulators after `t` (the outputs are stored, and written back, at the last point only: there these
    are the full sums; at the other points the outputs are idle and nothing reads this field); the invariant
    `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (acc7 V c t.val t.isLt).1
    | ⟨2, _⟩ => (acc7 V c t.val t.isLt).2
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = (acc7 V c t.val t.isLt).1 := by dsimp only [dat7]
theorem after7_2 (c : Dev nD) (t : Fin cfg7.N) : (dat7 V c).after 2 t = (acc7 V c t.val t.isLt).2 := by dsimp only [dat7]

theorem before7_0 (c : Dev nD) (t : Fin cfg7.N) (d) : (dat7 V c).before 0 t d = iblk7 V c 0 t :=
  before7_0_of V (dat7 V c) (A_eq7 V c 0) (after7_0 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point, by the point's case: the input's memref holds its block; the invariant hands the body the
    accumulators (at anything at the first point, else at what the point before left) and takes them back at this
    point's; an idle output is handed back as found, a live one holds the accumulator. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = Phi7 V c (t.val + 1) t.isLt from rfl, Phi7_succ]
  rw [show (dat7 V c).leavesExact 0 t = owns (c : Thread nD τ) (ms7_0 t) fullShare ((dat7 V c).after 0 t) from by
    unfold Dat.leavesExact; rw [liveAt7_0 t], after7_0]
  have hN : t.val < 10 := lt_of_lt_of_eq t.isLt (show cfg7.N = 10 from N_7)
  by_cases h0 : t.val = 0
  · have hc0 : cond7_0 (grid7.coords t) := (hcond7_0 t).mpr h0
    have hc1 : ¬cond7_1 (grid7.coords t) := fun h => by have := (hcond7_1 t).mp h; omega
    rw [Dat.leavesExact_idle (dat7 V c) 1 t (idleAt7_1 t hc1) (noFlush7_1 t hc1),
      Dat.leavesExact_idle (dat7 V c) 2 t (idleAt7_2 t hc1) (noFlush7_2 t hc1)]
    rw [acc7_first V c t h0]; (try dsimp only)
    rw [Phi7_castSucc V c t, Phi7_zero V c _ _ h0, PhiA7_eq]
    iintro ⟨⟨⟨⟨HS0, HS1⟩, Hr⟩, Hg⟩, Ho, ⟨%d0, H0⟩, ⟨%d1, H1⟩, ⟨%d2, H2⟩⟩
    iapply (runA7 c (grid7.coords t) _ _ _ _ _ _ _ _ _ _ hc0 hc1 (iblk7 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · have hc0 : ¬cond7_0 (grid7.coords t) := fun h => h0 ((hcond7_0 t).mp h)
    rw [acc7_later V c t h0]; (try dsimp only)
    rw [Phi7_castSucc V c t, Phi7_pos V c _ _ h0]
    by_cases h9 : t.val = 9
    · have hc1 : cond7_1 (grid7.coords t) := (hcond7_1 t).mpr h9
      rw [show (dat7 V c).leavesExact 1 t = owns (c : Thread nD τ) (ms7_1 t) fullShare ((dat7 V c).after 1 t) from by
        unfold Dat.leavesExact; rw [liveAt7_1 t hc1], after7_1]
      rw [show (dat7 V c).leavesExact 2 t = owns (c : Thread nD τ) (ms7_2 t) fullShare ((dat7 V c).after 2 t) from by
        unfold Dat.leavesExact; rw [liveAt7_2 t hc1], after7_2]
      rw [acc7_later V c t h0]; (try dsimp only)
      iintro ⟨⟨⟨⟨HS0, HS1⟩, Hr⟩, Hg⟩, Ho, ⟨%d0, H0⟩, ⟨%d1, H1⟩, ⟨%d2, H2⟩⟩
      iapply (runC7 c (grid7.coords t) _ _ _ _ _ _ _ _ _ _ hc0 hc1 (iblk7 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · have hc1 : ¬cond7_1 (grid7.coords t) := fun h => h9 ((hcond7_1 t).mp h)
      rw [Dat.leavesExact_idle (dat7 V c) 1 t (idleAt7_1 t hc1) (noFlush7_1 t hc1),
        Dat.leavesExact_idle (dat7 V c) 2 t (idleAt7_2 t hc1) (noFlush7_2 t hc1)]
      iintro ⟨⟨⟨⟨HS0, HS1⟩, Hr⟩, Hg⟩, Ho, ⟨%d0, H0⟩, ⟨%d1, H1⟩, ⟨%d2, H2⟩⟩
      iapply (runB7 c (grid7.coords t) _ _ _ _ _ _ _ _ _ _ hc0 hc1 (iblk7 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem Phi7_in (c : Dev nD) : Pipeline.ΦA spec7 c ⊢ (dat7 V c).Φ 0 := by
  rw [show (dat7 V c).Φ 0 = Phi7 V c 0 (Nat.zero_le _) from rfl, Phi7_zero V c 0 _ rfl]
  try exact Idealize.SL.BI.Entails.refl _

/-- After the last point the invariant gives the class's back: the accumulators' contents are forgotten. -/
theorem Phi7_out (c : Dev nD) : (dat7 V c).Φ (Fin.last cfg7.N) ⊢ Pipeline.ΦA spec7 c := by
  have ht : (Fin.last cfg7.N).val ≠ 0 := by rw [Fin.val_last]; have : cfg7.N = 10 := N_7; omega
  rw [show (dat7 V c).Φ (Fin.last cfg7.N) = Phi7 V c (Fin.last cfg7.N).val (Nat.le_of_lt_succ (Fin.last cfg7.N).isLt) from rfl,
    Phi7_pos V c _ _ ht, PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.Kernel.Hand
end
-- ==== Proof.KRegion8.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the normalise-and-rectify kernel, at the contents `V` the region is entered with -/

/-- The block of window `w` at grid point `t`: the window's view at that point, read off the array `V` holds. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The input windows' buffers hold their blocks

Each input window is whole and never idle, and the body leaves its buffer as found. Where the window is fetched the
buffer holds the block just fetched; where it is not (the four row windows after the first point) its block index is
the previous point's, so the buffer still holds this point's block. Stated for any proof data whose array is `V`'s
and whose body keeps the block. -/

theorem holds8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl)
      (fun t => by rw [hafter]; unfold Dat.blockOf iblk8; rw [hA]; try rfl) t d).trans
    (by unfold Dat.fetched Dat.blockOf iblk8; rw [hA]; try rfl)

theorem holds8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl)
      (fun t => by rw [hafter]; unfold Dat.blockOf iblk8; rw [hA]; try rfl) t d).trans
    (by unfold Dat.fetched Dat.blockOf iblk8; rw [hA]; try rfl)

theorem holds8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl)
      (fun t => by rw [hafter]; unfold Dat.blockOf iblk8; rw [hA]; try rfl) t d).trans
    (by unfold Dat.fetched Dat.blockOf iblk8; rw [hA]; try rfl)

theorem holds8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl)
      (fun t => by rw [hafter]; unfold Dat.blockOf iblk8; rw [hA]; try rfl) t d).trans
    (by unfold Dat.fetched Dat.blockOf iblk8; rw [hA]; try rfl)

theorem holds8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl)
      (fun t => by rw [hafter]; unfold Dat.blockOf iblk8; rw [hA]; try rfl) t d).trans
    (by unfold Dat.fetched Dat.blockOf iblk8; rw [hA]; try rfl)

/-! ## What the body stores -/

/-- The whole input block and the whole row, as rectangles. -/
abbrev rBlk8 : Rect S10000x128 := Rect.unit (s := S10000x128) ![0, 0] S10000x128.size inb_S10000x128_S10000x128_0_0
abbrev rRow8 : Rect S1x128 := Rect.unit (s := S1x128) ![0, 0] S1x128.size inb_S1x128_S1x128_0_0

/-- The output block from the five input blocks: `x0` the data, `x1` the mean row, `x2` the variance row, `x3` the
    scale row, `x4` the shift row. The body makes one store, of the whole block: the data less the mean, times the
    reciprocal root of the variance plus a constant, times the scale, plus the shift, and the larger of that and zero. -/
def bnBlock8 (x0 : Vec F S10000x128 .f32) (x1 x2 x3 x4 : Vec F S1x128 .f32) : Vec F S10000x128 .f32 :=
  View.canon [⟨rBlk8, k8_pay1 (View.ld x0 rBlk8) (View.ld x2 rRow8) (View.ld x1 rRow8) (View.ld x3 rRow8) (View.ld x4 rRow8)⟩]

/-- The one store is of the whole block, so every place of the block lies in it. -/
theorem cover8_5 (p : Vec F S10000x128 .f32) (y : S10000x128.Idx) :
    ∃ pc ∈ ([⟨rBlk8, p⟩] : List (View.Piece (Elt F) S10000x128 .f32)), y ∈ pc.1.set :=
  View.cover_of_tiled [⟨rBlk8, p⟩] S10000x128.size (by rfl) y

/-! ## The body's triple -/

set_option maxHeartbeats 1000000 in
/-- The body on six whole buffers — the five inputs at contents `x0 … x4`, the output at anything — runs to a state
    with the inputs as they were and the output at `bnBlock8 x0 x1 x2 x3 x4`. It reads the output buffer once before
    storing and does not use what it read. -/
theorem run_kernel8 (c : Dev nD) (E : Set ℕ) (i : grid8.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (bnBlock8 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data -/

/-- The arrays are `V`'s; after the body at point `t` each input buffer holds its block and the output buffer holds
    `bnBlock8` of the five input blocks; the invariant is the region's rest, untouched; nothing is owed; shares are full. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => bnBlock8 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t
    = bnBlock8 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  holds8_0_of V (dat8 V c) (A_eq8 V c 0) (after8_0 V c) t d
theorem before8_1 (c : Dev nD) (t : Fin cfg8.N) (d) : (dat8 V c).before 1 t d = iblk8 V c 1 t :=
  holds8_1_of V (dat8 V c) (A_eq8 V c 1) (after8_1 V c) t d
theorem before8_2 (c : Dev nD) (t : Fin cfg8.N) (d) : (dat8 V c).before 2 t d = iblk8 V c 2 t :=
  holds8_2_of V (dat8 V c) (A_eq8 V c 2) (after8_2 V c) t d
theorem before8_3 (c : Dev nD) (t : Fin cfg8.N) (d) : (dat8 V c).before 3 t d = iblk8 V c 3 t :=
  holds8_3_of V (dat8 V c) (A_eq8 V c 3) (after8_3 V c) t d
theorem before8_4 (c : Dev nD) (t : Fin cfg8.N) (d) : (dat8 V c).before 4 t d = iblk8 V c 4 t :=
  holds8_4_of V (dat8 V c) (A_eq8 V c 4) (after8_4 V c) t d

/-! ## The body obligation -/

/-- What the body is given at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it gives back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the kernel's triple applies; the invariant and
    what is owed pass through unread. -/
theorem run_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (run_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact run_body8 V c t

/-! ## The invariant at the ends -/

theorem Phi8_in (c : Dev nD) : Pipeline.ΦA spec8 c ⊢ (dat8 V c).Φ 0 := by
  show Pipeline.ΦA spec8 c ⊢ Pipeline.ΦA spec8 c
  exact .rfl

theorem Phi8_out (c : Dev nD) : (dat8 V c).Φ (Fin.last cfg8.N) ⊢ Pipeline.ΦA spec8 c := by
  show Pipeline.ΦA spec8 c ⊢ Pipeline.ΦA spec8 c
  exact .rfl

end Cert.Kernel.Hand
-- ==== Proof.KRegion9.lean ====
import proofs.«148009_j49555332661695_1_alg».proof.Proof.Gen.Kernel.Launch
import proofs.«148009_j49555332661695_1_alg».proof.Proof.Gen.Kernel.Skeleton
import proofs.«148009_j49555332661695_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: the two-layer perceptron with a softmax, at the contents `V` the region is entered with -/

/-- The block of window `w` at grid point `t`: the window's view at that point, read off the array `V` holds. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The input windows' buffers hold their blocks

Each input window is whole and never idle, and the body leaves its buffer as found; the grid has one point, where
every window is fetched, so the buffer holds the block just fetched. Stated for any proof data whose array is `V`'s
and whose body keeps the block. -/

theorem holds9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl)
      (fun t => by rw [hafter]; unfold Dat.blockOf iblk9; rw [hA]; try rfl) t d).trans
    (by unfold Dat.fetched Dat.blockOf iblk9; rw [hA]; try rfl)

theorem holds9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl)
      (fun t => by rw [hafter]; unfold Dat.blockOf iblk9; rw [hA]; try rfl) t d).trans
    (by unfold Dat.fetched Dat.blockOf iblk9; rw [hA]; try rfl)

theorem holds9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl)
      (fun t => by rw [hafter]; unfold Dat.blockOf iblk9; rw [hA]; try rfl) t d).trans
    (by unfold Dat.fetched Dat.blockOf iblk9; rw [hA]; try rfl)

theorem holds9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl)
      (fun t => by rw [hafter]; unfold Dat.blockOf iblk9; rw [hA]; try rfl) t d).trans
    (by unfold Dat.fetched Dat.blockOf iblk9; rw [hA]; try rfl)

theorem holds9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl)
      (fun t => by rw [hafter]; unfold Dat.blockOf iblk9; rw [hA]; try rfl) t d).trans
    (by unfold Dat.fetched Dat.blockOf iblk9; rw [hA]; try rfl)

theorem holds9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl)
      (fun t => by rw [hafter]; unfold Dat.blockOf iblk9; rw [hA]; try rfl) t d).trans
    (by unfold Dat.fetched Dat.blockOf iblk9; rw [hA]; try rfl)

theorem holds9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl)
      (fun t => by rw [hafter]; unfold Dat.blockOf iblk9; rw [hA]; try rfl) t d).trans
    (by unfold Dat.fetched Dat.blockOf iblk9; rw [hA]; try rfl)

/-! ## What the body stores -/

/-- Each input block and the output block, whole, as rectangles. -/
abbrev rIn9_0 : Rect S1024x128 := Rect.unit (s := S1024x128) ![0, 0] S1024x128.size inb_S1024x128_S1024x128_0_0
abbrev rIn9_1 : Rect S1024x10 := Rect.unit (s := S1024x10) ![0, 0] S1024x10.size inb_S1024x10_S1024x10_0_0
abbrev rIn9_2 : Rect S128x256 := Rect.unit (s := S128x256) ![0, 0] S128x256.size inb_S128x256_S128x256_0_0
abbrev rIn9_3 : Rect S10x256 := Rect.unit (s := S10x256) ![0, 0] S10x256.size inb_S10x256_S10x256_0_0
abbrev rIn9_4 : Rect S1x256 := Rect.unit (s := S1x256) ![0, 0] S1x256.size inb_S1x256_S1x256_0_0
abbrev rIn9_5 : Rect S256x10 := Rect.unit (s := S256x10) ![0, 0] S256x10.size inb_S256x10_S256x10_0_0
abbrev rIn9_6 : Rect S1x10 := Rect.unit (s := S1x10) ![0, 0] S1x10.size inb_S1x10_S1x10_0_0
abbrev rOut9 : Rect S1024x10 := Rect.unit (s := S1024x10) ![0, 0] S1024x10.size inb_S1024x10_S1024x10_0_0

/-- The output block from the seven input blocks: `x0`, `x1` the two data blocks, `x2`, `x3` their weights, `x4` the
    hidden bias row, `x5` the second weights, `x6` the output bias row. The body makes one store, of the whole block,
    of the skeleton's payload: with every matrix-product operand first converted to bf16, the hidden block is the
    larger of zero and the sum of the two products and the bias row; the logits are its product with the second weights
    plus the output bias row; the stored value is the elementwise quotient of the exponential of the logits less
    their row maximum (`k9_pay2`) by that exponential's row sum spread along the row (`k9_pay3`). -/
def mlpBlock9 (x0 : Vec F S1024x128 .f32) (x1 : Vec F S1024x10 .f32) (x2 : Vec F S128x256 .f32) (x3 : Vec F S10x256 .f32)
    (x4 : Vec F S1x256 .f32) (x5 : Vec F S256x10 .f32) (x6 : Vec F S1x10 .f32) : Vec F S1024x10 .f32 :=
  View.canon [⟨rOut9, k9_pay1 (k9_pay2 (View.ld x0 rIn9_0) (View.ld x1 rIn9_1) (View.ld x2 rIn9_2) (View.ld x3 rIn9_3) (View.ld x4 rIn9_4) (View.ld x5 rIn9_5) (View.ld x6 rIn9_6)) (k9_pay3 (View.ld x0 rIn9_0) (View.ld x1 rIn9_1) (View.ld x2 rIn9_2) (View.ld x3 rIn9_3) (View.ld x4 rIn9_4) (View.ld x5 rIn9_5) (View.ld x6 rIn9_6))⟩]

/-- The one store is of the whole block, so every place of the block lies in it. -/
theorem cover9_7 (p : Vec F S1024x10 .f32) (y : S1024x10.Idx) :
    ∃ pc ∈ ([⟨rOut9, p⟩] : List (View.Piece (Elt F) S1024x10 .f32)), y ∈ pc.1.set :=
  View.cover_of_tiled [⟨rOut9, p⟩] S1024x10.size (by rfl) y

/-! ## The body's triple -/

set_option maxHeartbeats 1000000 in
/-- The body on eight whole buffers — the seven inputs at contents `x0 … x6`, the output at anything — runs to a state
    with the inputs as they were and the output at `mlpBlock9 x0 … x6`. It reads the output buffer once before
    storing and does not use what it read. -/
theorem run_kernel9 (c : Dev nD) (E : Set ℕ) (i : grid9.Coords)
    (arg1 : Memref sig .tc .vmem S1024x128 .f32) (harg1 : arg1.IsWhole)
    (arg2 : Memref sig .tc .vmem S1024x10 .f32) (harg2 : arg2.IsWhole)
    (arg3 : Memref sig .tc .vmem S128x256 .f32) (harg3 : arg3.IsWhole)
    (arg4 : Memref sig .tc .vmem S10x256 .f32) (harg4 : arg4.IsWhole)
    (arg5 : Memref sig .tc .vmem S1x256 .f32) (harg5 : arg5.IsWhole)
    (arg6 : Memref sig .tc .vmem S256x10 .f32) (harg6 : arg6.IsWhole)
    (arg7 : Memref sig .tc .vmem S1x10 .f32) (harg7 : arg7.IsWhole)
    (arg8 : Memref sig .tc .vmem S1024x10 .f32) (harg8 : arg8.IsWhole)
    (x0 : Vec F S1024x128 .f32) (x1 : Vec F S1024x10 .f32) (x2 : Vec F S128x256 .f32) (x3 : Vec F S10x256 .f32) (x4 : Vec F S1x256 .f32) (x5 : Vec F S256x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (mlpBlock9 x0 x1 x2 x3 x4 x5 x6)) -∗ K ⟨⟩))
      ⊢ wp frame (wpE (defs₀ (F := F)) Variants.none c none) E (cc9__mlp_kernel i arg1 harg1 arg2 harg2 arg3 harg3 arg4 harg4 arg5 harg5 arg6 harg6 arg7 harg7 arg8 harg8) K := by
  simp only [cc9__mlp_kernel_eq_skeleton]; unfold cc9__mlp_kernel_skel
  simp only [k9_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The proof data -/

/-- The arrays are `V`'s; after the body at point `t` each input buffer holds its block and the output buffer holds
    `mlpBlock9` of the seven input blocks; the invariant is the region's rest, untouched; nothing is owed; shares are full. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => mlpBlock9 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t
    = mlpBlock9 (iblk9 V c 0 t) (iblk9 V c 1 t) (iblk9 V c 2 t) (iblk9 V c 3 t) (iblk9 V c 4 t) (iblk9 V c 5 t) (iblk9 V c 6 t) := by dsimp only [dat9]

theorem before9_0 (c : Dev nD) (t : Fin cfg9.N) (d) : (dat9 V c).before 0 t d = iblk9 V c 0 t :=
  holds9_0_of V (dat9 V c) (A_eq9 V c 0) (after9_0 V c) t d
theorem before9_1 (c : Dev nD) (t : Fin cfg9.N) (d) : (dat9 V c).before 1 t d = iblk9 V c 1 t :=
  holds9_1_of V (dat9 V c) (A_eq9 V c 1) (after9_1 V c) t d
theorem before9_2 (c : Dev nD) (t : Fin cfg9.N) (d) : (dat9 V c).before 2 t d = iblk9 V c 2 t :=
  holds9_2_of V (dat9 V c) (A_eq9 V c 2) (after9_2 V c) t d
theorem before9_3 (c : Dev nD) (t : Fin cfg9.N) (d) : (dat9 V c).before 3 t d = iblk9 V c 3 t :=
  holds9_3_of V (dat9 V c) (A_eq9 V c 3) (after9_3 V c) t d
theorem before9_4 (c : Dev nD) (t : Fin cfg9.N) (d) : (dat9 V c).before 4 t d = iblk9 V c 4 t :=
  holds9_4_of V (dat9 V c) (A_eq9 V c 4) (after9_4 V c) t d
theorem before9_5 (c : Dev nD) (t : Fin cfg9.N) (d) : (dat9 V c).before 5 t d = iblk9 V c 5 t :=
  holds9_5_of V (dat9 V c) (A_eq9 V c 5) (after9_5 V c) t d
theorem before9_6 (c : Dev nD) (t : Fin cfg9.N) (d) : (dat9 V c).before 6 t d = iblk9 V c 6 t :=
  holds9_6_of V (dat9 V c) (A_eq9 V c 6) (after9_6 V c) t d

/-! ## The body obligation -/

/-- What the body is given at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it gives back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so the kernel's triple applies; the invariant and
    what is owed pass through unread. -/
theorem run_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kernel9 c Set.univ (grid9.coords t) _ _ _ _ _ _ _ _ _ _ _ _ _ _ _ _
    (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation9 (c : Dev nD) : BodyObligation (dat9 (F := F) V c) (defs₀ (F := F)) Variants.none () Set.univ := fun t => by
  rw [bigSep_W9, bigSep_W9]
  exact run_body9 V c t

/-! ## The invariant at the ends -/

theorem Phi9_in (c : Dev nD) : Pipeline.ΦA spec9 c ⊢ (dat9 V c).Φ 0 := by
  show Pipeline.ΦA spec9 c ⊢ Pipeline.ΦA spec9 c
  exact .rfl

theorem Phi9_out (c : Dev nD) : (dat9 V c).Φ (Fin.last cfg9.N) ⊢ Pipeline.ΦA spec9 c := by
  show Pipeline.ΦA spec9 c ⊢ Pipeline.ΦA spec9 c
  exact .rfl

end Cert.Kernel.Hand
-- ==== Proof.KContents.lean ====
/-
  What every unscoped buffer holds between two items of the program, as a function of the launch memory.

  The program is twenty items: ten stretches of host operations, each followed by a kernel region. A stretch changes
  the buffers its operations write; a region changes only its output windows' arrays, and leaves in each what the
  pipeline's write-backs leave there, which the region's proof data compute from the contents the region was entered
  with. So the contents after each item are defined item by item from the launch memory. The generated valuations take
  the regions' results as a table indexed by (item, buffer); this module fills that table one region at a time and
  shows that a valuation only reads the entries of earlier items.
-/
import proofs.«148009_j49555332661695_1_alg».proof.Proof.KRegionRecord
import proofs.«148009_j49555332661695_1_alg».proof.Proof.KRegion0
import proofs.«148009_j49555332661695_1_alg».proof.Proof.KRegion1
import proofs.«148009_j49555332661695_1_alg».proof.Proof.KRegion2
import proofs.«148009_j49555332661695_1_alg».proof.Proof.KRegion3
import proofs.«148009_j49555332661695_1_alg».proof.Proof.KRegion4
import proofs.«148009_j49555332661695_1_alg».proof.Proof.KRegion5
import proofs.«148009_j49555332661695_1_alg».proof.Proof.KRegion6
import proofs.«148009_j49555332661695_1_alg».proof.Proof.KRegion7
import proofs.«148009_j49555332661695_1_alg».proof.Proof.KRegion8
import proofs.«148009_j49555332661695_1_alg».proof.Proof.KRegion9

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The table of the regions' results, filled one entry at a time -/

/-- The table with the entry (item `J`, buffer `r`) set to `x`. -/
def setOut (o : Outs (F := F)) (J : ℕ) (r : Ref sig .tc) (x : (c : Dev nD) → Buf (Elt F) ((c : Thread nD τ).loc r)) : Outs (F := F) :=
  fun J' r' c => if h : J' = J ∧ r' = r then h.2 ▸ x c else o J' r' c

theorem setOut_same (o : Outs (F := F)) (J : ℕ) (r : Ref sig .tc) (x) (c : Dev nD) : setOut o J r x J r c = x c := by
  unfold setOut; rw [dif_pos ⟨rfl, rfl⟩]

theorem setOut_other (o : Outs (F := F)) (J : ℕ) (r : Ref sig .tc) (x) (J' : ℕ) (r' : Ref sig .tc) (c : Dev nD)
    (h : ¬(J' = J ∧ r' = r)) : setOut o J r x J' r' c = o J' r' c := by
  unfold setOut; rw [dif_neg h]

/-- Two tables agree on the items up to `n`. -/
def Agree (n : ℕ) (o o' : Outs (F := F)) : Prop := ∀ J, J ≤ n → ∀ r c, o J r c = o' J r c

theorem Agree.mono {n n' : ℕ} {o o' : Outs (F := F)} (h : Agree n o o') (hn : n' ≤ n) : Agree n' o o' :=
  fun J hJ => h J (hJ.trans hn)
theorem Agree.refl (n : ℕ) (o : Outs (F := F)) : Agree n o o := fun _ _ _ _ => rfl
theorem Agree.symm {n : ℕ} {o o' : Outs (F := F)} (h : Agree n o o') : Agree n o' o := fun J hJ r c => (h J hJ r c).symm
theorem Agree.trans {n : ℕ} {o o' o'' : Outs (F := F)} (h : Agree n o o') (h' : Agree n o' o'') : Agree n o o'' :=
  fun J hJ r c => (h J hJ r c).trans (h' J hJ r c)
/-- Setting an entry of a later item changes nothing up to `n`. -/
theorem agree_setOut (o : Outs (F := F)) (J : ℕ) (r : Ref sig .tc) (x) (n : ℕ) (hn : n < J) : Agree n (setOut o J r x) o :=
  fun J' hJ' r' c => setOut_other o J r x J' r' c fun h => by omega

/-! ## A valuation reads only earlier items' entries -/
theorem V2_congr {o o' : Outs (F := F)} (h : Agree 2 o o') (c : Dev nD) : V2 m o c = V2 m o' c := by
  unfold V2
  rw [h 2 le_rfl main_v18 c]
theorem V3_congr {o o' : Outs (F := F)} (h : Agree 2 o o') (c : Dev nD) : V3 m o c = V3 m o' c :=
  congrArg (StableHlo.after hostOps1) (V2_congr m h c)
theorem V4_congr {o o' : Outs (F := F)} (h : Agree 4 o o') (c : Dev nD) : V4 m o c = V4 m o' c := by
  unfold V4
  rw [V3_congr m (h.mono (by omega)) c, h 4 le_rfl main_v22_0 c, h 4 le_rfl main_v22_1 c]
theorem V5_congr {o o' : Outs (F := F)} (h : Agree 4 o o') (c : Dev nD) : V5 m o c = V5 m o' c :=
  congrArg (StableHlo.after hostOps2) (V4_congr m h c)
theorem V6_congr {o o' : Outs (F := F)} (h : Agree 6 o o') (c : Dev nD) : V6 m o c = V6 m o' c := by
  unfold V6
  rw [V5_congr m (h.mono (by omega)) c, h 6 le_rfl main_v35 c]
theorem V7_congr {o o' : Outs (F := F)} (h : Agree 6 o o') (c : Dev nD) : V7 m o c = V7 m o' c :=
  congrArg (StableHlo.after hostOps3) (V6_congr m h c)
theorem V8_congr {o o' : Outs (F := F)} (h : Agree 8 o o') (c : Dev nD) : V8 m o c = V8 m o' c := by
  unfold V8
  rw [V7_congr m (h.mono (by omega)) c, h 8 le_rfl main_v50 c]
theorem V9_congr {o o' : Outs (F := F)} (h : Agree 8 o o') (c : Dev nD) : V9 m o c = V9 m o' c :=
  congrArg (StableHlo.after hostOps4) (V8_congr m h c)
theorem V10_congr {o o' : Outs (F := F)} (h : Agree 10 o o') (c : Dev nD) : V10 m o c = V10 m o' c := by
  unfold V10
  rw [V9_congr m (h.mono (by omega)) c, h 10 le_rfl main_v54_0 c, h 10 le_rfl main_v54_1 c]
theorem V11_congr {o o' : Outs (F := F)} (h : Agree 10 o o') (c : Dev nD) : V11 m o c = V11 m o' c :=
  congrArg (StableHlo.after hostOps5) (V10_congr m h c)
theorem V12_congr {o o' : Outs (F := F)} (h : Agree 12 o o') (c : Dev nD) : V12 m o c = V12 m o' c := by
  unfold V12
  rw [V11_congr m (h.mono (by omega)) c, h 12 le_rfl main_v67 c]
theorem V13_congr {o o' : Outs (F := F)} (h : Agree 12 o o') (c : Dev nD) : V13 m o c = V13 m o' c :=
  congrArg (StableHlo.after hostOps6) (V12_congr m h c)
theorem V14_congr {o o' : Outs (F := F)} (h : Agree 14 o o') (c : Dev nD) : V14 m o c = V14 m o' c := by
  unfold V14
  rw [V13_congr m (h.mono (by omega)) c, h 14 le_rfl main_v82 c]
theorem V15_congr {o o' : Outs (F := F)} (h : Agree 14 o o') (c : Dev nD) : V15 m o c = V15 m o' c :=
  congrArg (StableHlo.after hostOps7) (V14_congr m h c)
theorem V16_congr {o o' : Outs (F := F)} (h : Agree 16 o o') (c : Dev nD) : V16 m o c = V16 m o' c := by
  unfold V16
  rw [V15_congr m (h.mono (by omega)) c, h 16 le_rfl main_v86_0 c, h 16 le_rfl main_v86_1 c]
theorem V17_congr {o o' : Outs (F := F)} (h : Agree 16 o o') (c : Dev nD) : V17 m o c = V17 m o' c :=
  congrArg (StableHlo.after hostOps8) (V16_congr m h c)
theorem V18_congr {o o' : Outs (F := F)} (h : Agree 18 o o') (c : Dev nD) : V18 m o c = V18 m o' c := by
  unfold V18
  rw [V17_congr m (h.mono (by omega)) c, h 18 le_rfl main_v99 c]
theorem V19_congr {o o' : Outs (F := F)} (h : Agree 18 o o') (c : Dev nD) : V19 m o c = V19 m o' c :=
  congrArg (StableHlo.after hostOps9) (V18_congr m h c)
theorem V20_congr {o o' : Outs (F := F)} (h : Agree 20 o o') (c : Dev nD) : V20 m o c = V20 m o' c := by
  unfold V20
  rw [V19_congr m (h.mono (by omega)) c, h 20 le_rfl main_v107 c]

/-! ## The regions' results, one region at a time -/

/-- Before any region has run nothing is known: the table's entries are placeholders (the launch contents). -/
def outsUpTo0 : Outs (F := F) := fun _ r c => m ((c : Thread nD τ).loc r)

/-- The contents region 0 is entered with. -/
abbrev entry0 : (c : Dev nD) → (b : Ref sig .tc) → Buf (Elt F) ((c : Thread nD τ).loc b) := fun c b => V1 m c b
/-- What region 0's write-backs leave in `main_v18`. -/
def res_main_v18 (c : Dev nD) : Buf (Elt F) ((c : Thread nD τ).loc main_v18) := (dat0 (entry0 m) c).arrAt 5 cfg0.N
/-- The table once region 0 has run. -/
def outsUpTo1 : Outs (F := F) := setOut (outsUpTo0 m) 2 main_v18 (res_main_v18 m)
theorem agree_1_0 : Agree 1 (outsUpTo1 m) (outsUpTo0 m) := by
  unfold outsUpTo1
  exact agree_setOut _ _ _ _ _ (by omega)

/-- The contents region 1 is entered with. -/
abbrev entry1 : (c : Dev nD) → (b : Ref sig .tc) → Buf (Elt F) ((c : Thread nD τ).loc b) := fun c b => V3 m (outsUpTo1 m) c b
/-- What region 1's write-backs leave in `main_v22_0`. -/
def res_main_v22_0 (c : Dev nD) : Buf (Elt F) ((c : Thread nD τ).loc main_v22_0) := (dat1 (entry1 m) c).arrAt 1 cfg1.N
/-- What region 1's write-backs leave in `main_v22_1`. -/
def res_main_v22_1 (c : Dev nD) : Buf (Elt F) ((c : Thread nD τ).loc main_v22_1) := (dat1 (entry1 m) c).arrAt 2 cfg1.N
/-- The table once region 1 has run. -/
def outsUpTo2 : Outs (F := F) := setOut (setOut (outsUpTo1 m) 4 main_v22_0 (res_main_v22_0 m)) 4 main_v22_1 (res_main_v22_1 m)
theorem agree_2_1 : Agree 3 (outsUpTo2 m) (outsUpTo1 m) := by
  unfold outsUpTo2
  exact (agree_setOut _ _ _ _ _ (by omega)).trans (agree_setOut _ _ _ _ _ (by omega))

/-- The contents region 2 is entered with. -/
abbrev entry2 : (c : Dev nD) → (b : Ref sig .tc) → Buf (Elt F) ((c : Thread nD τ).loc b) := fun c b => V5 m (outsUpTo2 m) c b
/-- What region 2's write-backs leave in `main_v35`. -/
def res_main_v35 (c : Dev nD) : Buf (Elt F) ((c : Thread nD τ).loc main_v35) := (dat2 (entry2 m) c).arrAt 5 cfg2.N
/-- The table once region 2 has run. -/
def outsUpTo3 : Outs (F := F) := setOut (outsUpTo2 m) 6 main_v35 (res_main_v35 m)
theorem agree_3_2 : Agree 5 (outsUpTo3 m) (outsUpTo2 m) := by
  unfold outsUpTo3
  exact agree_setOut _ _ _ _ _ (by omega)

/-- The contents region 3 is entered with. -/
abbrev entry3 : (c : Dev nD) → (b : Ref sig .tc) → Buf (Elt F) ((c : Thread nD τ).loc b) := fun c b => V7 m (outsUpTo3 m) c b
/-- What region 3's write-backs leave in `main_v50`. -/
def res_main_v50 (c : Dev nD) : Buf (Elt F) ((c : Thread nD τ).loc main_v50) := (dat3 (entry3 m) c).arrAt 5 cfg3.N
/-- The table once region 3 has run. -/
def outsUpTo4 : Outs (F := F) := setOut (outsUpTo3 m) 8 main_v50 (res_main_v50 m)
theorem agree_4_3 : Agree 7 (outsUpTo4 m) (outsUpTo3 m) := by
  unfold outsUpTo4
  exact agree_setOut _ _ _ _ _ (by omega)

/-- The contents region 4 is entered with. -/
abbrev entry4 : (c : Dev nD) → (b : Ref sig .tc) → Buf (Elt F) ((c : Thread nD τ).loc b) := fun c b => V9 m (outsUpTo4 m) c b
/-- What region 4's write-backs leave in `main_v54_0`. -/
def res_main_v54_0 (c : Dev nD) : Buf (Elt F) ((c : Thread nD τ).loc main_v54_0) := (dat4 (entry4 m) c).arrAt 1 cfg4.N
/-- What region 4's write-backs leave in `main_v54_1`. -/
def res_main_v54_1 (c : Dev nD) : Buf (Elt F) ((c : Thread nD τ).loc main_v54_1) := (dat4 (entry4 m) c).arrAt 2 cfg4.N
/-- The table once region 4 has run. -/
def outsUpTo5 : Outs (F := F) := setOut (setOut (outsUpTo4 m) 10 main_v54_0 (res_main_v54_0 m)) 10 main_v54_1 (res_main_v54_1 m)
theorem agree_5_4 : Agree 9 (outsUpTo5 m) (outsUpTo4 m) := by
  unfold outsUpTo5
  exact (agree_setOut _ _ _ _ _ (by omega)).trans (agree_setOut _ _ _ _ _ (by omega))

/-- The contents region 5 is entered with. -/
abbrev entry5 : (c : Dev nD) → (b : Ref sig .tc) → Buf (Elt F) ((c : Thread nD τ).loc b) := fun c b => V11 m (outsUpTo5 m) c b
/-- What region 5's write-backs leave in `main_v67`. -/
def res_main_v67 (c : Dev nD) : Buf (Elt F) ((c : Thread nD τ).loc main_v67) := (dat5 (entry5 m) c).arrAt 5 cfg5.N
/-- The table once region 5 has run. -/
def outsUpTo6 : Outs (F := F) := setOut (outsUpTo5 m) 12 main_v67 (res_main_v67 m)
theorem agree_6_5 : Agree 11 (outsUpTo6 m) (outsUpTo5 m) := by
  unfold outsUpTo6
  exact agree_setOut _ _ _ _ _ (by omega)

/-- The contents region 6 is entered with. -/
abbrev entry6 : (c : Dev nD) → (b : Ref sig .tc) → Buf (Elt F) ((c : Thread nD τ).loc b) := fun c b => V13 m (outsUpTo6 m) c b
/-- What region 6's write-backs leave in `main_v82`. -/
def res_main_v82 (c : Dev nD) : Buf (Elt F) ((c : Thread nD τ).loc main_v82) := (dat6 (entry6 m) c).arrAt 5 cfg6.N
/-- The table once region 6 has run. -/
def outsUpTo7 : Outs (F := F) := setOut (outsUpTo6 m) 14 main_v82 (res_main_v82 m)
theorem agree_7_6 : Agree 13 (outsUpTo7 m) (outsUpTo6 m) := by
  unfold outsUpTo7
  exact agree_setOut _ _ _ _ _ (by omega)

/-- The contents region 7 is entered with. -/
abbrev entry7 : (c : Dev nD) → (b : Ref sig .tc) → Buf (Elt F) ((c : Thread nD τ).loc b) := fun c b => V15 m (outsUpTo7 m) c b
/-- What region 7's write-backs leave in `main_v86_0`. -/
def res_main_v86_0 (c : Dev nD) : Buf (Elt F) ((c : Thread nD τ).loc main_v86_0) := (dat7 (entry7 m) c).arrAt 1 cfg7.N
/-- What region 7's write-backs leave in `main_v86_1`. -/
def res_main_v86_1 (c : Dev nD) : Buf (Elt F) ((c : Thread nD τ).loc main_v86_1) := (dat7 (entry7 m) c).arrAt 2 cfg7.N
/-- The table once region 7 has run. -/
def outsUpTo8 : Outs (F := F) := setOut (setOut (outsUpTo7 m) 16 main_v86_0 (res_main_v86_0 m)) 16 main_v86_1 (res_main_v86_1 m)
theorem agree_8_7 : Agree 15 (outsUpTo8 m) (outsUpTo7 m) := by
  unfold outsUpTo8
  exact (agree_setOut _ _ _ _ _ (by omega)).trans (agree_setOut _ _ _ _ _ (by omega))

/-- The contents region 8 is entered with. -/
abbrev entry8 : (c : Dev nD) → (b : Ref sig .tc) → Buf (Elt F) ((c : Thread nD τ).loc b) := fun c b => V17 m (outsUpTo8 m) c b
/-- What region 8's write-backs leave in `main_v99`. -/
def res_main_v99 (c : Dev nD) : Buf (Elt F) ((c : Thread nD τ).loc main_v99) := (dat8 (entry8 m) c).arrAt 5 cfg8.N
/-- The table once region 8 has run. -/
def outsUpTo9 : Outs (F := F) := setOut (outsUpTo8 m) 18 main_v99 (res_main_v99 m)
theorem agree_9_8 : Agree 17 (outsUpTo9 m) (outsUpTo8 m) := by
  unfold outsUpTo9
  exact agree_setOut _ _ _ _ _ (by omega)

/-- The contents region 9 is entered with. -/
abbrev entry9 : (c : Dev nD) → (b : Ref sig .tc) → Buf (Elt F) ((c : Thread nD τ).loc b) := fun c b => V19 m (outsUpTo9 m) c b
/-- What region 9's write-backs leave in `main_v107`. -/
def res_main_v107 (c : Dev nD) : Buf (Elt F) ((c : Thread nD τ).loc main_v107) := (dat9 (entry9 m) c).arrAt 7 cfg9.N
/-- The table once region 9 has run. -/
def outsUpTo10 : Outs (F := F) := setOut (outsUpTo9 m) 20 main_v107 (res_main_v107 m)
theorem agree_10_9 : Agree 19 (outsUpTo10 m) (outsUpTo9 m) := by
  unfold outsUpTo10
  exact agree_setOut _ _ _ _ _ (by omega)

/-- The whole table. -/
abbrev outsAll : Outs (F := F) := outsUpTo10 m
theorem agree_all_10 : Agree 21 (outsAll m) (outsUpTo10 m) := Agree.refl _ _
theorem agree_all_9 : Agree 19 (outsAll m) (outsUpTo9 m) := (agree_10_9 m).mono (by omega)
theorem agree_all_8 : Agree 17 (outsAll m) (outsUpTo8 m) := ((agree_10_9 m).mono (by omega)).trans ((agree_9_8 m).mono (by omega))
theorem agree_all_7 : Agree 15 (outsAll m) (outsUpTo7 m) := (((agree_10_9 m).mono (by omega)).trans ((agree_9_8 m).mono (by omega))).trans ((agree_8_7 m).mono (by omega))
theorem agree_all_6 : Agree 13 (outsAll m) (outsUpTo6 m) := ((((agree_10_9 m).mono (by omega)).trans ((agree_9_8 m).mono (by omega))).trans ((agree_8_7 m).mono (by omega))).trans ((agree_7_6 m).mono (by omega))
theorem agree_all_5 : Agree 11 (outsAll m) (outsUpTo5 m) := (((((agree_10_9 m).mono (by omega)).trans ((agree_9_8 m).mono (by omega))).trans ((agree_8_7 m).mono (by omega))).trans ((agree_7_6 m).mono (by omega))).trans ((agree_6_5 m).mono (by omega))
theorem agree_all_4 : Agree 9 (outsAll m) (outsUpTo4 m) := ((((((agree_10_9 m).mono (by omega)).trans ((agree_9_8 m).mono (by omega))).trans ((agree_8_7 m).mono (by omega))).trans ((agree_7_6 m).mono (by omega))).trans ((agree_6_5 m).mono (by omega))).trans ((agree_5_4 m).mono (by omega))
theorem agree_all_3 : Agree 7 (outsAll m) (outsUpTo3 m) := (((((((agree_10_9 m).mono (by omega)).trans ((agree_9_8 m).mono (by omega))).trans ((agree_8_7 m).mono (by omega))).trans ((agree_7_6 m).mono (by omega))).trans ((agree_6_5 m).mono (by omega))).trans ((agree_5_4 m).mono (by omega))).trans ((agree_4_3 m).mono (by omega))
theorem agree_all_2 : Agree 5 (outsAll m) (outsUpTo2 m) := ((((((((agree_10_9 m).mono (by omega)).trans ((agree_9_8 m).mono (by omega))).trans ((agree_8_7 m).mono (by omega))).trans ((agree_7_6 m).mono (by omega))).trans ((agree_6_5 m).mono (by omega))).trans ((agree_5_4 m).mono (by omega))).trans ((agree_4_3 m).mono (by omega))).trans ((agree_3_2 m).mono (by omega))
theorem agree_all_1 : Agree 3 (outsAll m) (outsUpTo1 m) := (((((((((agree_10_9 m).mono (by omega)).trans ((agree_9_8 m).mono (by omega))).trans ((agree_8_7 m).mono (by omega))).trans ((agree_7_6 m).mono (by omega))).trans ((agree_6_5 m).mono (by omega))).trans ((agree_5_4 m).mono (by omega))).trans ((agree_4_3 m).mono (by omega))).trans ((agree_3_2 m).mono (by omega))).trans ((agree_2_1 m).mono (by omega))
theorem agree_all_0 : Agree 1 (outsAll m) (outsUpTo0 m) := ((((((((((agree_10_9 m).mono (by omega)).trans ((agree_9_8 m).mono (by omega))).trans ((agree_8_7 m).mono (by omega))).trans ((agree_7_6 m).mono (by omega))).trans ((agree_6_5 m).mono (by omega))).trans ((agree_5_4 m).mono (by omega))).trans ((agree_4_3 m).mono (by omega))).trans ((agree_3_2 m).mono (by omega))).trans ((agree_2_1 m).mono (by omega))).trans ((agree_1_0 m).mono (by omega))

/-! ## The proof data of the ten pipelines, each at its region's entry contents -/

/-- A literal match, so that each pipeline's configuration reduces to the printed one. -/
def pdats : (p : Fin 10) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c
  | ⟨6, _⟩ => fun c => dat6 (entry6 m) c
  | ⟨7, _⟩ => fun c => dat7 (entry7 m) c
  | ⟨8, _⟩ => fun c => dat8 (entry8 m) c
  | ⟨9, _⟩ => fun c => dat9 (entry9 m) c

end Cert.Kernel.Hand

end
-- ==== Proof.KRun.lean ====
/-
  The program's run: each of the ten kernel regions as a segment between the valuations of the contents module,
  and the frame claim from the generated conditional frame.

  A region is entered with every unscoped buffer at the valuation before it. Its input windows' arrays are never
  written back, so they leave as they entered; each output window's array leaves at what the pipeline's write-backs put
  there, which is the table's entry for it; every other buffer is untouched. That is the valuation after the region.
-/
import proofs.«148009_j49555332661695_1_alg».proof.Proof.KContents

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Each region's arrays on entry and on exit -/

/-- Region 0 finds its window arrays at the valuation before it. -/
theorem entryA0 (c : Dev nD) (w : Fin cfg0.W) : (pdats m 0 c).A w = V1 m c (Pipeline.arrRef spec0 w) :=
  A_eq0 (entry0 m) c w

/-- An input window's array leaves region 0 as it entered. -/
theorem exitIn0 (c : Dev nD) (w : Fin cfg0.W) (hw : (cfg0.win w).isOut = false)
    (hne : Pipeline.arrRef spec0 w ∉ ([main_v18] : List (Ref sig .tc))) :
    (pdats m 0 c).arrAt w cfg0.N = V2 m (outsAll m) c (Pipeline.arrRef spec0 w) :=
  ((pdats m 0 c).arrAt_in w hw _).trans ((entryA0 m c w).trans (V2_of m (outsAll m) c _ hne).symm)

/-- Output window 5's array leaves region 0 at the table's entry: what the write-backs left. -/
theorem exitOut0_5 (c : Dev nD) : (pdats m 0 c).arrAt 5 cfg0.N = V2 m (outsAll m) c (Pipeline.arrRef spec0 5) := by
  show _ = Function.update (V1 m c) main_v18 (outsAll m 2 main_v18 c) main_v18
  rw [Function.update_self, agree_all_1 m 2 (by omega) main_v18 c]
  unfold outsUpTo1
  rw [setOut_same]
  rfl

theorem exitAll0 (c : Dev nD) (w : Fin cfg0.W) : (pdats m 0 c).arrAt w cfg0.N = V2 m (outsAll m) c (Pipeline.arrRef spec0 w) :=
  match w with
    | ⟨0, _⟩ => exitIn0 m c 0 rfl (by decide)
    | ⟨1, _⟩ => exitIn0 m c 1 rfl (by decide)
    | ⟨2, _⟩ => exitIn0 m c 2 rfl (by decide)
    | ⟨3, _⟩ => exitIn0 m c 3 rfl (by decide)
    | ⟨4, _⟩ => exitIn0 m c 4 rfl (by decide)
    | ⟨5, _⟩ => exitOut0_5 m c
    | ⟨_ + 6, h⟩ => absurd h (Nat.not_lt.2 (Nat.le_add_left _ _))

/-- Off region 0's window arrays nothing changes. -/
theorem exitRest0 (c : Dev nD) (b : Ref sig .tc) (hb : b ∉ Finset.univ.image (Pipeline.arrRef spec0)) :
    V2 m (outsAll m) c b = V1 m c b :=
  V2_of m (outsAll m) c b fun h => hb (by
    simp only [List.mem_cons, List.mem_nil_iff, List.not_mem_nil, or_false] at h
    subst h
    exact Finset.mem_image.mpr ⟨5, Finset.mem_univ _, rfl⟩)

/-- Region 0 as a segment of the run. -/
def reg0 : RegionSeg (pcfgs (F := F)) adm (pdats m) () defs₀ 𝒱₀ L lv 0 :=
  regionRecord (pdats m) 0 launch0 (fun c => body_obligation0 (entry0 m) c)
    (fun c => V1 m c) (fun c => V2 m (outsAll m) c)
    (fun c => (pdats m 0 c).share_full fun _ => rfl) (fun _ _ => rfl) (fun _ _ => rfl)
    (entryA0 m) (fun c => Phi0_in (entry0 m) c) (fun c => Phi0_out (entry0 m) c)
    (exitAll0 m) (exitRest0 m)

/-- Region 1 finds its window arrays at the valuation before it. -/
theorem entryA1 (c : Dev nD) (w : Fin cfg1.W) : (pdats m 1 c).A w = V3 m (outsAll m) c (Pipeline.arrRef spec1 w) :=
  (A_eq1 (entry1 m) c w).trans (congrFun (V3_congr m ((agree_all_1 m).symm.mono (by omega)) c) _)

/-- An input window's array leaves region 1 as it entered. -/
theorem exitIn1 (c : Dev nD) (w : Fin cfg1.W) (hw : (cfg1.win w).isOut = false)
    (hne : Pipeline.arrRef spec1 w ∉ ([main_v22_0, main_v22_1] : List (Ref sig .tc))) :
    (pdats m 1 c).arrAt w cfg1.N = V4 m (outsAll m) c (Pipeline.arrRef spec1 w) :=
  ((pdats m 1 c).arrAt_in w hw _).trans ((entryA1 m c w).trans (V4_of m (outsAll m) c _ hne).symm)

/-- Output window 1's array leaves region 1 at the table's entry: what the write-backs left. -/
theorem exitOut1_1 (c : Dev nD) : (pdats m 1 c).arrAt 1 cfg1.N = V4 m (outsAll m) c (Pipeline.arrRef spec1 1) := by
  show _ = Function.update (Function.update (V3 m (outsAll m) c) main_v22_0 (outsAll m 4 main_v22_0 c)) main_v22_1 (outsAll m 4 main_v22_1 c) main_v22_0
  rw [Function.update_of_ne (StableHlo.devRef_ne_of_ne (by decide : main_v22_0 ≠ main_v22_1)), Function.update_self, agree_all_2 m 4 (by omega) main_v22_0 c]
  unfold outsUpTo2
  rw [setOut_other _ _ _ _ _ _ _ (fun h => absurd h.2 (by decide)), setOut_same]
  rfl

/-- Output window 2's array leaves region 1 at the table's entry: what the write-backs left. -/
theorem exitOut1_2 (c : Dev nD) : (pdats m 1 c).arrAt 2 cfg1.N = V4 m (outsAll m) c (Pipeline.arrRef spec1 2) := by
  show _ = Function.update (Function.update (V3 m (outsAll m) c) main_v22_0 (outsAll m 4 main_v22_0 c)) main_v22_1 (outsAll m 4 main_v22_1 c) main_v22_1
  rw [Function.update_self, agree_all_2 m 4 (by omega) main_v22_1 c]
  unfold outsUpTo2
  rw [setOut_same]
  rfl

theorem exitAll1 (c : Dev nD) (w : Fin cfg1.W) : (pdats m 1 c).arrAt w cfg1.N = V4 m (outsAll m) c (Pipeline.arrRef spec1 w) :=
  match w with
    | ⟨0, _⟩ => exitIn1 m c 0 rfl (by decide)
    | ⟨1, _⟩ => exitOut1_1 m c
    | ⟨2, _⟩ => exitOut1_2 m c
    | ⟨_ + 3, h⟩ => absurd h (Nat.not_lt.2 (Nat.le_add_left _ _))

/-- Off region 1's window arrays nothing changes. -/
theorem exitRest1 (c : Dev nD) (b : Ref sig .tc) (hb : b ∉ Finset.univ.image (Pipeline.arrRef spec1)) :
    V4 m (outsAll m) c b = V3 m (outsAll m) c b :=
  V4_of m (outsAll m) c b fun h => hb (by
    simp only [List.mem_cons, List.mem_nil_iff, List.not_mem_nil, or_false] at h
    rcases h with rfl | rfl
    · exact Finset.mem_image.mpr ⟨1, Finset.mem_univ _, rfl⟩
    · exact Finset.mem_image.mpr ⟨2, Finset.mem_univ _, rfl⟩)

/-- Region 1 as a segment of the run. -/
def reg1 : RegionSeg (pcfgs (F := F)) adm (pdats m) () defs₀ 𝒱₀ L lv 1 :=
  regionRecord (pdats m) 1 launch1 (fun c => body_obligation1 (entry1 m) c)
    (fun c => V3 m (outsAll m) c) (fun c => V4 m (outsAll m) c)
    (fun c => (pdats m 1 c).share_full fun _ => rfl) (fun _ _ => rfl) (fun _ _ => rfl)
    (entryA1 m) (fun c => Phi1_in (entry1 m) c) (fun c => Phi1_out (entry1 m) c)
    (exitAll1 m) (exitRest1 m)

/-- Region 2 finds its window arrays at the valuation before it. -/
theorem entryA2 (c : Dev nD) (w : Fin cfg2.W) : (pdats m 2 c).A w = V5 m (outsAll m) c (Pipeline.arrRef spec2 w) :=
  (A_eq2 (entry2 m) c w).trans (congrFun (V5_congr m ((agree_all_2 m).symm.mono (by omega)) c) _)

/-- An input window's array leaves region 2 as it entered. -/
theorem exitIn2 (c : Dev nD) (w : Fin cfg2.W) (hw : (cfg2.win w).isOut = false)
    (hne : Pipeline.arrRef spec2 w ∉ ([main_v35] : List (Ref sig .tc))) :
    (pdats m 2 c).arrAt w cfg2.N = V6 m (outsAll m) c (Pipeline.arrRef spec2 w) :=
  ((pdats m 2 c).arrAt_in w hw _).trans ((entryA2 m c w).trans (V6_of m (outsAll m) c _ hne).symm)

/-- Output window 5's array leaves region 2 at the table's entry: what the write-backs left. -/
theorem exitOut2_5 (c : Dev nD) : (pdats m 2 c).arrAt 5 cfg2.N = V6 m (outsAll m) c (Pipeline.arrRef spec2 5) := by
  show _ = Function.update (V5 m (outsAll m) c) main_v35 (outsAll m 6 main_v35 c) main_v35
  rw [Function.update_self, agree_all_3 m 6 (by omega) main_v35 c]
  unfold outsUpTo3
  rw [setOut_same]
  rfl

theorem exitAll2 (c : Dev nD) (w : Fin cfg2.W) : (pdats m 2 c).arrAt w cfg2.N = V6 m (outsAll m) c (Pipeline.arrRef spec2 w) :=
  match w with
    | ⟨0, _⟩ => exitIn2 m c 0 rfl (by decide)
    | ⟨1, _⟩ => exitIn2 m c 1 rfl (by decide)
    | ⟨2, _⟩ => exitIn2 m c 2 rfl (by decide)
    | ⟨3, _⟩ => exitIn2 m c 3 rfl (by decide)
    | ⟨4, _⟩ => exitIn2 m c 4 rfl (by decide)
    | ⟨5, _⟩ => exitOut2_5 m c
    | ⟨_ + 6, h⟩ => absurd h (Nat.not_lt.2 (Nat.le_add_left _ _))

/-- Off region 2's window arrays nothing changes. -/
theorem exitRest2 (c : Dev nD) (b : Ref sig .tc) (hb : b ∉ Finset.univ.image (Pipeline.arrRef spec2)) :
    V6 m (outsAll m) c b = V5 m (outsAll m) c b :=
  V6_of m (outsAll m) c b fun h => hb (by
    simp only [List.mem_cons, List.mem_nil_iff, List.not_mem_nil, or_false] at h
    subst h
    exact Finset.mem_image.mpr ⟨5, Finset.mem_univ _, rfl⟩)

/-- Region 2 as a segment of the run. -/
def reg2 : RegionSeg (pcfgs (F := F)) adm (pdats m) () defs₀ 𝒱₀ L lv 2 :=
  regionRecord (pdats m) 2 launch2 (fun c => body_obligation2 (entry2 m) c)
    (fun c => V5 m (outsAll m) c) (fun c => V6 m (outsAll m) c)
    (fun c => (pdats m 2 c).share_full fun _ => rfl) (fun _ _ => rfl) (fun _ _ => rfl)
    (entryA2 m) (fun c => Phi2_in (entry2 m) c) (fun c => Phi2_out (entry2 m) c)
    (exitAll2 m) (exitRest2 m)

/-- Region 3 finds its window arrays at the valuation before it. -/
theorem entryA3 (c : Dev nD) (w : Fin cfg3.W) : (pdats m 3 c).A w = V7 m (outsAll m) c (Pipeline.arrRef spec3 w) :=
  (A_eq3 (entry3 m) c w).trans (congrFun (V7_congr m ((agree_all_3 m).symm.mono (by omega)) c) _)

/-- An input window's array leaves region 3 as it entered. -/
theorem exitIn3 (c : Dev nD) (w : Fin cfg3.W) (hw : (cfg3.win w).isOut = false)
    (hne : Pipeline.arrRef spec3 w ∉ ([main_v50] : List (Ref sig .tc))) :
    (pdats m 3 c).arrAt w cfg3.N = V8 m (outsAll m) c (Pipeline.arrRef spec3 w) :=
  ((pdats m 3 c).arrAt_in w hw _).trans ((entryA3 m c w).trans (V8_of m (outsAll m) c _ hne).symm)

/-- Output window 5's array leaves region 3 at the table's entry: what the write-backs left. -/
theorem exitOut3_5 (c : Dev nD) : (pdats m 3 c).arrAt 5 cfg3.N = V8 m (outsAll m) c (Pipeline.arrRef spec3 5) := by
  show _ = Function.update (V7 m (outsAll m) c) main_v50 (outsAll m 8 main_v50 c) main_v50
  rw [Function.update_self, agree_all_4 m 8 (by omega) main_v50 c]
  unfold outsUpTo4
  rw [setOut_same]
  rfl

theorem exitAll3 (c : Dev nD) (w : Fin cfg3.W) : (pdats m 3 c).arrAt w cfg3.N = V8 m (outsAll m) c (Pipeline.arrRef spec3 w) :=
  match w with
    | ⟨0, _⟩ => exitIn3 m c 0 rfl (by decide)
    | ⟨1, _⟩ => exitIn3 m c 1 rfl (by decide)
    | ⟨2, _⟩ => exitIn3 m c 2 rfl (by decide)
    | ⟨3, _⟩ => exitIn3 m c 3 rfl (by decide)
    | ⟨4, _⟩ => exitIn3 m c 4 rfl (by decide)
    | ⟨5, _⟩ => exitOut3_5 m c
    | ⟨_ + 6, h⟩ => absurd h (Nat.not_lt.2 (Nat.le_add_left _ _))

/-- Off region 3's window arrays nothing changes. -/
theorem exitRest3 (c : Dev nD) (b : Ref sig .tc) (hb : b ∉ Finset.univ.image (Pipeline.arrRef spec3)) :
    V8 m (outsAll m) c b = V7 m (outsAll m) c b :=
  V8_of m (outsAll m) c b fun h => hb (by
    simp only [List.mem_cons, List.mem_nil_iff, List.not_mem_nil, or_false] at h
    subst h
    exact Finset.mem_image.mpr ⟨5, Finset.mem_univ _, rfl⟩)

/-- Region 3 as a segment of the run. -/
def reg3 : RegionSeg (pcfgs (F := F)) adm (pdats m) () defs₀ 𝒱₀ L lv 3 :=
  regionRecord (pdats m) 3 launch3 (fun c => body_obligation3 (entry3 m) c)
    (fun c => V7 m (outsAll m) c) (fun c => V8 m (outsAll m) c)
    (fun c => (pdats m 3 c).share_full fun _ => rfl) (fun _ _ => rfl) (fun _ _ => rfl)
    (entryA3 m) (fun c => Phi3_in (entry3 m) c) (fun c => Phi3_out (entry3 m) c)
    (exitAll3 m) (exitRest3 m)

/-- Region 4 finds its window arrays at the valuation before it. -/
theorem entryA4 (c : Dev nD) (w : Fin cfg4.W) : (pdats m 4 c).A w = V9 m (outsAll m) c (Pipeline.arrRef spec4 w) :=
  (A_eq4 (entry4 m) c w).trans (congrFun (V9_congr m ((agree_all_4 m).symm.mono (by omega)) c) _)

/-- An input window's array leaves region 4 as it entered. -/
theorem exitIn4 (c : Dev nD) (w : Fin cfg4.W) (hw : (cfg4.win w).isOut = false)
    (hne : Pipeline.arrRef spec4 w ∉ ([main_v54_0, main_v54_1] : List (Ref sig .tc))) :
    (pdats m 4 c).arrAt w cfg4.N = V10 m (outsAll m) c (Pipeline.arrRef spec4 w) :=
  ((pdats m 4 c).arrAt_in w hw _).trans ((entryA4 m c w).trans (V10_of m (outsAll m) c _ hne).symm)

/-- Output window 1's array leaves region 4 at the table's entry: what the write-backs left. -/
theorem exitOut4_1 (c : Dev nD) : (pdats m 4 c).arrAt 1 cfg4.N = V10 m (outsAll m) c (Pipeline.arrRef spec4 1) := by
  show _ = Function.update (Function.update (V9 m (outsAll m) c) main_v54_0 (outsAll m 10 main_v54_0 c)) main_v54_1 (outsAll m 10 main_v54_1 c) main_v54_0
  rw [Function.update_of_ne (StableHlo.devRef_ne_of_ne (by decide : main_v54_0 ≠ main_v54_1)), Function.update_self, agree_all_5 m 10 (by omega) main_v54_0 c]
  unfold outsUpTo5
  rw [setOut_other _ _ _ _ _ _ _ (fun h => absurd h.2 (by decide)), setOut_same]
  rfl

/-- Output window 2's array leaves region 4 at the table's entry: what the write-backs left. -/
theorem exitOut4_2 (c : Dev nD) : (pdats m 4 c).arrAt 2 cfg4.N = V10 m (outsAll m) c (Pipeline.arrRef spec4 2) := by
  show _ = Function.update (Function.update (V9 m (outsAll m) c) main_v54_0 (outsAll m 10 main_v54_0 c)) main_v54_1 (outsAll m 10 main_v54_1 c) main_v54_1
  rw [Function.update_self, agree_all_5 m 10 (by omega) main_v54_1 c]
  unfold outsUpTo5
  rw [setOut_same]
  rfl

theorem exitAll4 (c : Dev nD) (w : Fin cfg4.W) : (pdats m 4 c).arrAt w cfg4.N = V10 m (outsAll m) c (Pipeline.arrRef spec4 w) :=
  match w with
    | ⟨0, _⟩ => exitIn4 m c 0 rfl (by decide)
    | ⟨1, _⟩ => exitOut4_1 m c
    | ⟨2, _⟩ => exitOut4_2 m c
    | ⟨_ + 3, h⟩ => absurd h (Nat.not_lt.2 (Nat.le_add_left _ _))

/-- Off region 4's window arrays nothing changes. -/
theorem exitRest4 (c : Dev nD) (b : Ref sig .tc) (hb : b ∉ Finset.univ.image (Pipeline.arrRef spec4)) :
    V10 m (outsAll m) c b = V9 m (outsAll m) c b :=
  V10_of m (outsAll m) c b fun h => hb (by
    simp only [List.mem_cons, List.mem_nil_iff, List.not_mem_nil, or_false] at h
    rcases h with rfl | rfl
    · exact Finset.mem_image.mpr ⟨1, Finset.mem_univ _, rfl⟩
    · exact Finset.mem_image.mpr ⟨2, Finset.mem_univ _, rfl⟩)

/-- Region 4 as a segment of the run. -/
def reg4 : RegionSeg (pcfgs (F := F)) adm (pdats m) () defs₀ 𝒱₀ L lv 4 :=
  regionRecord (pdats m) 4 launch4 (fun c => body_obligation4 (entry4 m) c)
    (fun c => V9 m (outsAll m) c) (fun c => V10 m (outsAll m) c)
    (fun c => (pdats m 4 c).share_full fun _ => rfl) (fun _ _ => rfl) (fun _ _ => rfl)
    (entryA4 m) (fun c => Phi4_in (entry4 m) c) (fun c => Phi4_out (entry4 m) c)
    (exitAll4 m) (exitRest4 m)

/-- Region 5 finds its window arrays at the valuation before it. -/
theorem entryA5 (c : Dev nD) (w : Fin cfg5.W) : (pdats m 5 c).A w = V11 m (outsAll m) c (Pipeline.arrRef spec5 w) :=
  (A_eq5 (entry5 m) c w).trans (congrFun (V11_congr m ((agree_all_5 m).symm.mono (by omega)) c) _)

/-- An input window's array leaves region 5 as it entered. -/
theorem exitIn5 (c : Dev nD) (w : Fin cfg5.W) (hw : (cfg5.win w).isOut = false)
    (hne : Pipeline.arrRef spec5 w ∉ ([main_v67] : List (Ref sig .tc))) :
    (pdats m 5 c).arrAt w cfg5.N = V12 m (outsAll m) c (Pipeline.arrRef spec5 w) :=
  ((pdats m 5 c).arrAt_in w hw _).trans ((entryA5 m c w).trans (V12_of m (outsAll m) c _ hne).symm)

/-- Output window 5's array leaves region 5 at the table's entry: what the write-backs left. -/
theorem exitOut5_5 (c : Dev nD) : (pdats m 5 c).arrAt 5 cfg5.N = V12 m (outsAll m) c (Pipeline.arrRef spec5 5) := by
  show _ = Function.update (V11 m (outsAll m) c) main_v67 (outsAll m 12 main_v67 c) main_v67
  rw [Function.update_self, agree_all_6 m 12 (by omega) main_v67 c]
  unfold outsUpTo6
  rw [setOut_same]
  rfl

theorem exitAll5 (c : Dev nD) (w : Fin cfg5.W) : (pdats m 5 c).arrAt w cfg5.N = V12 m (outsAll m) c (Pipeline.arrRef spec5 w) :=
  match w with
    | ⟨0, _⟩ => exitIn5 m c 0 rfl (by decide)
    | ⟨1, _⟩ => exitIn5 m c 1 rfl (by decide)
    | ⟨2, _⟩ => exitIn5 m c 2 rfl (by decide)
    | ⟨3, _⟩ => exitIn5 m c 3 rfl (by decide)
    | ⟨4, _⟩ => exitIn5 m c 4 rfl (by decide)
    | ⟨5, _⟩ => exitOut5_5 m c
    | ⟨_ + 6, h⟩ => absurd h (Nat.not_lt.2 (Nat.le_add_left _ _))

/-- Off region 5's window arrays nothing changes. -/
theorem exitRest5 (c : Dev nD) (b : Ref sig .tc) (hb : b ∉ Finset.univ.image (Pipeline.arrRef spec5)) :
    V12 m (outsAll m) c b = V11 m (outsAll m) c b :=
  V12_of m (outsAll m) c b fun h => hb (by
    simp only [List.mem_cons, List.mem_nil_iff, List.not_mem_nil, or_false] at h
    subst h
    exact Finset.mem_image.mpr ⟨5, Finset.mem_univ _, rfl⟩)

/-- Region 5 as a segment of the run. -/
def reg5 : RegionSeg (pcfgs (F := F)) adm (pdats m) () defs₀ 𝒱₀ L lv 5 :=
  regionRecord (pdats m) 5 launch5 (fun c => body_obligation5 (entry5 m) c)
    (fun c => V11 m (outsAll m) c) (fun c => V12 m (outsAll m) c)
    (fun c => (pdats m 5 c).share_full fun _ => rfl) (fun _ _ => rfl) (fun _ _ => rfl)
    (entryA5 m) (fun c => Phi5_in (entry5 m) c) (fun c => Phi5_out (entry5 m) c)
    (exitAll5 m) (exitRest5 m)

/-- Region 6 finds its window arrays at the valuation before it. -/
theorem entryA6 (c : Dev nD) (w : Fin cfg6.W) : (pdats m 6 c).A w = V13 m (outsAll m) c (Pipeline.arrRef spec6 w) :=
  (A_eq6 (entry6 m) c w).trans (congrFun (V13_congr m ((agree_all_6 m).symm.mono (by omega)) c) _)

/-- An input window's array leaves region 6 as it entered. -/
theorem exitIn6 (c : Dev nD) (w : Fin cfg6.W) (hw : (cfg6.win w).isOut = false)
    (hne : Pipeline.arrRef spec6 w ∉ ([main_v82] : List (Ref sig .tc))) :
    (pdats m 6 c).arrAt w cfg6.N = V14 m (outsAll m) c (Pipeline.arrRef spec6 w) :=
  ((pdats m 6 c).arrAt_in w hw _).trans ((entryA6 m c w).trans (V14_of m (outsAll m) c _ hne).symm)

/-- Output window 5's array leaves region 6 at the table's entry: what the write-backs left. -/
theorem exitOut6_5 (c : Dev nD) : (pdats m 6 c).arrAt 5 cfg6.N = V14 m (outsAll m) c (Pipeline.arrRef spec6 5) := by
  show _ = Function.update (V13 m (outsAll m) c) main_v82 (outsAll m 14 main_v82 c) main_v82
  rw [Function.update_self, agree_all_7 m 14 (by omega) main_v82 c]
  unfold outsUpTo7
  rw [setOut_same]
  rfl

theorem exitAll6 (c : Dev nD) (w : Fin cfg6.W) : (pdats m 6 c).arrAt w cfg6.N = V14 m (outsAll m) c (Pipeline.arrRef spec6 w) :=
  match w with
    | ⟨0, _⟩ => exitIn6 m c 0 rfl (by decide)
    | ⟨1, _⟩ => exitIn6 m c 1 rfl (by decide)
    | ⟨2, _⟩ => exitIn6 m c 2 rfl (by decide)
    | ⟨3, _⟩ => exitIn6 m c 3 rfl (by decide)
    | ⟨4, _⟩ => exitIn6 m c 4 rfl (by decide)
    | ⟨5, _⟩ => exitOut6_5 m c
    | ⟨_ + 6, h⟩ => absurd h (Nat.not_lt.2 (Nat.le_add_left _ _))

/-- Off region 6's window arrays nothing changes. -/
theorem exitRest6 (c : Dev nD) (b : Ref sig .tc) (hb : b ∉ Finset.univ.image (Pipeline.arrRef spec6)) :
    V14 m (outsAll m) c b = V13 m (outsAll m) c b :=
  V14_of m (outsAll m) c b fun h => hb (by
    simp only [List.mem_cons, List.mem_nil_iff, List.not_mem_nil, or_false] at h
    subst h
    exact Finset.mem_image.mpr ⟨5, Finset.mem_univ _, rfl⟩)

/-- Region 6 as a segment of the run. -/
def reg6 : RegionSeg (pcfgs (F := F)) adm (pdats m) () defs₀ 𝒱₀ L lv 6 :=
  regionRecord (pdats m) 6 launch6 (fun c => body_obligation6 (entry6 m) c)
    (fun c => V13 m (outsAll m) c) (fun c => V14 m (outsAll m) c)
    (fun c => (pdats m 6 c).share_full fun _ => rfl) (fun _ _ => rfl) (fun _ _ => rfl)
    (entryA6 m) (fun c => Phi6_in (entry6 m) c) (fun c => Phi6_out (entry6 m) c)
    (exitAll6 m) (exitRest6 m)

/-- Region 7 finds its window arrays at the valuation before it. -/
theorem entryA7 (c : Dev nD) (w : Fin cfg7.W) : (pdats m 7 c).A w = V15 m (outsAll m) c (Pipeline.arrRef spec7 w) :=
  (A_eq7 (entry7 m) c w).trans (congrFun (V15_congr m ((agree_all_7 m).symm.mono (by omega)) c) _)

/-- An input window's array leaves region 7 as it entered. -/
theorem exitIn7 (c : Dev nD) (w : Fin cfg7.W) (hw : (cfg7.win w).isOut = false)
    (hne : Pipeline.arrRef spec7 w ∉ ([main_v86_0, main_v86_1] : List (Ref sig .tc))) :
    (pdats m 7 c).arrAt w cfg7.N = V16 m (outsAll m) c (Pipeline.arrRef spec7 w) :=
  ((pdats m 7 c).arrAt_in w hw _).trans ((entryA7 m c w).trans (V16_of m (outsAll m) c _ hne).symm)

/-- Output window 1's array leaves region 7 at the table's entry: what the write-backs left. -/
theorem exitOut7_1 (c : Dev nD) : (pdats m 7 c).arrAt 1 cfg7.N = V16 m (outsAll m) c (Pipeline.arrRef spec7 1) := by
  show _ = Function.update (Function.update (V15 m (outsAll m) c) main_v86_0 (outsAll m 16 main_v86_0 c)) main_v86_1 (outsAll m 16 main_v86_1 c) main_v86_0
  rw [Function.update_of_ne (StableHlo.devRef_ne_of_ne (by decide : main_v86_0 ≠ main_v86_1)), Function.update_self, agree_all_8 m 16 (by omega) main_v86_0 c]
  unfold outsUpTo8
  rw [setOut_other _ _ _ _ _ _ _ (fun h => absurd h.2 (by decide)), setOut_same]
  rfl

/-- Output window 2's array leaves region 7 at the table's entry: what the write-backs left. -/
theorem exitOut7_2 (c : Dev nD) : (pdats m 7 c).arrAt 2 cfg7.N = V16 m (outsAll m) c (Pipeline.arrRef spec7 2) := by
  show _ = Function.update (Function.update (V15 m (outsAll m) c) main_v86_0 (outsAll m 16 main_v86_0 c)) main_v86_1 (outsAll m 16 main_v86_1 c) main_v86_1
  rw [Function.update_self, agree_all_8 m 16 (by omega) main_v86_1 c]
  unfold outsUpTo8
  rw [setOut_same]
  rfl

theorem exitAll7 (c : Dev nD) (w : Fin cfg7.W) : (pdats m 7 c).arrAt w cfg7.N = V16 m (outsAll m) c (Pipeline.arrRef spec7 w) :=
  match w with
    | ⟨0, _⟩ => exitIn7 m c 0 rfl (by decide)
    | ⟨1, _⟩ => exitOut7_1 m c
    | ⟨2, _⟩ => exitOut7_2 m c
    | ⟨_ + 3, h⟩ => absurd h (Nat.not_lt.2 (Nat.le_add_left _ _))

/-- Off region 7's window arrays nothing changes. -/
theorem exitRest7 (c : Dev nD) (b : Ref sig .tc) (hb : b ∉ Finset.univ.image (Pipeline.arrRef spec7)) :
    V16 m (outsAll m) c b = V15 m (outsAll m) c b :=
  V16_of m (outsAll m) c b fun h => hb (by
    simp only [List.mem_cons, List.mem_nil_iff, List.not_mem_nil, or_false] at h
    rcases h with rfl | rfl
    · exact Finset.mem_image.mpr ⟨1, Finset.mem_univ _, rfl⟩
    · exact Finset.mem_image.mpr ⟨2, Finset.mem_univ _, rfl⟩)

/-- Region 7 as a segment of the run. -/
def reg7 : RegionSeg (pcfgs (F := F)) adm (pdats m) () defs₀ 𝒱₀ L lv 7 :=
  regionRecord (pdats m) 7 launch7 (fun c => body_obligation7 (entry7 m) c)
    (fun c => V15 m (outsAll m) c) (fun c => V16 m (outsAll m) c)
    (fun c => (pdats m 7 c).share_full fun _ => rfl) (fun _ _ => rfl) (fun _ _ => rfl)
    (entryA7 m) (fun c => Phi7_in (entry7 m) c) (fun c => Phi7_out (entry7 m) c)
    (exitAll7 m) (exitRest7 m)

/-- Region 8 finds its window arrays at the valuation before it. -/
theorem entryA8 (c : Dev nD) (w : Fin cfg8.W) : (pdats m 8 c).A w = V17 m (outsAll m) c (Pipeline.arrRef spec8 w) :=
  (A_eq8 (entry8 m) c w).trans (congrFun (V17_congr m ((agree_all_8 m).symm.mono (by omega)) c) _)

/-- An input window's array leaves region 8 as it entered. -/
theorem exitIn8 (c : Dev nD) (w : Fin cfg8.W) (hw : (cfg8.win w).isOut = false)
    (hne : Pipeline.arrRef spec8 w ∉ ([main_v99] : List (Ref sig .tc))) :
    (pdats m 8 c).arrAt w cfg8.N = V18 m (outsAll m) c (Pipeline.arrRef spec8 w) :=
  ((pdats m 8 c).arrAt_in w hw _).trans ((entryA8 m c w).trans (V18_of m (outsAll m) c _ hne).symm)

/-- Output window 5's array leaves region 8 at the table's entry: what the write-backs left. -/
theorem exitOut8_5 (c : Dev nD) : (pdats m 8 c).arrAt 5 cfg8.N = V18 m (outsAll m) c (Pipeline.arrRef spec8 5) := by
  show _ = Function.update (V17 m (outsAll m) c) main_v99 (outsAll m 18 main_v99 c) main_v99
  rw [Function.update_self, agree_all_9 m 18 (by omega) main_v99 c]
  unfold outsUpTo9
  rw [setOut_same]
  rfl

theorem exitAll8 (c : Dev nD) (w : Fin cfg8.W) : (pdats m 8 c).arrAt w cfg8.N = V18 m (outsAll m) c (Pipeline.arrRef spec8 w) :=
  match w with
    | ⟨0, _⟩ => exitIn8 m c 0 rfl (by decide)
    | ⟨1, _⟩ => exitIn8 m c 1 rfl (by decide)
    | ⟨2, _⟩ => exitIn8 m c 2 rfl (by decide)
    | ⟨3, _⟩ => exitIn8 m c 3 rfl (by decide)
    | ⟨4, _⟩ => exitIn8 m c 4 rfl (by decide)
    | ⟨5, _⟩ => exitOut8_5 m c
    | ⟨_ + 6, h⟩ => absurd h (Nat.not_lt.2 (Nat.le_add_left _ _))

/-- Off region 8's window arrays nothing changes. -/
theorem exitRest8 (c : Dev nD) (b : Ref sig .tc) (hb : b ∉ Finset.univ.image (Pipeline.arrRef spec8)) :
    V18 m (outsAll m) c b = V17 m (outsAll m) c b :=
  V18_of m (outsAll m) c b fun h => hb (by
    simp only [List.mem_cons, List.mem_nil_iff, List.not_mem_nil, or_false] at h
    subst h
    exact Finset.mem_image.mpr ⟨5, Finset.mem_univ _, rfl⟩)

/-- Region 8 as a segment of the run. -/
def reg8 : RegionSeg (pcfgs (F := F)) adm (pdats m) () defs₀ 𝒱₀ L lv 8 :=
  regionRecord (pdats m) 8 launch8 (fun c => body_obligation8 (entry8 m) c)
    (fun c => V17 m (outsAll m) c) (fun c => V18 m (outsAll m) c)
    (fun c => (pdats m 8 c).share_full fun _ => rfl) (fun _ _ => rfl) (fun _ _ => rfl)
    (entryA8 m) (fun c => Phi8_in (entry8 m) c) (fun c => Phi8_out (entry8 m) c)
    (exitAll8 m) (exitRest8 m)

/-- Region 9 finds its window arrays at the valuation before it. -/
theorem entryA9 (c : Dev nD) (w : Fin cfg9.W) : (pdats m 9 c).A w = V19 m (outsAll m) c (Pipeline.arrRef spec9 w) :=
  (A_eq9 (entry9 m) c w).trans (congrFun (V19_congr m ((agree_all_9 m).symm.mono (by omega)) c) _)

/-- An input window's array leaves region 9 as it entered. -/
theorem exitIn9 (c : Dev nD) (w : Fin cfg9.W) (hw : (cfg9.win w).isOut = false)
    (hne : Pipeline.arrRef spec9 w ∉ ([main_v107] : List (Ref sig .tc))) :
    (pdats m 9 c).arrAt w cfg9.N = V20 m (outsAll m) c (Pipeline.arrRef spec9 w) :=
  ((pdats m 9 c).arrAt_in w hw _).trans ((entryA9 m c w).trans (V20_of m (outsAll m) c _ hne).symm)

/-- Output window 7's array leaves region 9 at the table's entry: what the write-backs left. -/
theorem exitOut9_7 (c : Dev nD) : (pdats m 9 c).arrAt 7 cfg9.N = V20 m (outsAll m) c (Pipeline.arrRef spec9 7) := by
  show _ = Function.update (V19 m (outsAll m) c) main_v107 (outsAll m 20 main_v107 c) main_v107
  rw [Function.update_self, agree_all_10 m 20 (by omega) main_v107 c]
  unfold outsUpTo10
  rw [setOut_same]
  rfl

theorem exitAll9 (c : Dev nD) (w : Fin cfg9.W) : (pdats m 9 c).arrAt w cfg9.N = V20 m (outsAll m) c (Pipeline.arrRef spec9 w) :=
  match w with
    | ⟨0, _⟩ => exitIn9 m c 0 rfl (by decide)
    | ⟨1, _⟩ => exitIn9 m c 1 rfl (by decide)
    | ⟨2, _⟩ => exitIn9 m c 2 rfl (by decide)
    | ⟨3, _⟩ => exitIn9 m c 3 rfl (by decide)
    | ⟨4, _⟩ => exitIn9 m c 4 rfl (by decide)
    | ⟨5, _⟩ => exitIn9 m c 5 rfl (by decide)
    | ⟨6, _⟩ => exitIn9 m c 6 rfl (by decide)
    | ⟨7, _⟩ => exitOut9_7 m c
    | ⟨_ + 8, h⟩ => absurd h (Nat.not_lt.2 (Nat.le_add_left _ _))

/-- Off region 9's window arrays nothing changes. -/
theorem exitRest9 (c : Dev nD) (b : Ref sig .tc) (hb : b ∉ Finset.univ.image (Pipeline.arrRef spec9)) :
    V20 m (outsAll m) c b = V19 m (outsAll m) c b :=
  V20_of m (outsAll m) c b fun h => hb (by
    simp only [List.mem_cons, List.mem_nil_iff, List.not_mem_nil, or_false] at h
    subst h
    exact Finset.mem_image.mpr ⟨7, Finset.mem_univ _, rfl⟩)

/-- Region 9 as a segment of the run. -/
def reg9 : RegionSeg (pcfgs (F := F)) adm (pdats m) () defs₀ 𝒱₀ L lv 9 :=
  regionRecord (pdats m) 9 launch9 (fun c => body_obligation9 (entry9 m) c)
    (fun c => V19 m (outsAll m) c) (fun c => V20 m (outsAll m) c)
    (fun c => (pdats m 9 c).share_full fun _ => rfl) (fun _ _ => rfl) (fun _ _ => rfl)
    (entryA9 m) (fun c => Phi9_in (entry9 m) c) (fun c => Phi9_out (entry9 m) c)
    (exitAll9 m) (exitRest9 m)

/-! ## The frame -/

/-- From any memory with zero counters every weakly fair execution of the program terminates, nothing faulting, and
    every argument array ends as launched: the generated conditional frame at the ten records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m (emb₁ : Emb (UR sig nD τ) 𝕄) () 𝒱₀ L lv (fun _ _ => rfl) ρ (outsAll m) (pdats m)
    (O₀ := 0) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => Ride c)
    (hE0 := by
      refine Pipeline.initEach L lv fun c => ?_
      iintro ⟨⟨-, HO, -, Hp, -⟩, -⟩
      imodintro
      isplitl [Hp]; · iexists _; iexact Hp
      iexists ∅; iexact HO)
    (hE10 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)

end Cert.Kernel.Hand

end
-- ==== Proof.RefArgs.lean ====
import proofs.«148009_j49555332661695_1_alg».proof.Proof.RefOpsGen

/-!
# The reference program never writes an argument

The reference is a straight line of 220 host operations, each of which writes one buffer of its own and none
of which writes an argument buffer.  So the fold of the operations' results over the launch contents, read at
an argument buffer, passes every operation by and returns the launch contents: one lemma per argument.
-/

noncomputable section

namespace Cert.Proof.Ref

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 8000000 in
theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 8192 in
set_option maxHeartbeats 8000000 in
theorem after_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxRecDepth 8192 in
set_option maxHeartbeats 8000000 in
theorem after_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxRecDepth 8192 in
set_option maxHeartbeats 8000000 in
theorem after_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxRecDepth 8192 in
set_option maxHeartbeats 8000000 in
theorem after_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl

set_option maxRecDepth 8192 in
set_option maxHeartbeats 8000000 in
theorem after_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl

set_option maxRecDepth 8192 in
set_option maxHeartbeats 8000000 in
theorem after_arg6 (m : (ℓ : Loc nD τ sig) → Buf (Elt F) ℓ) (c : Dev nD) :
    after (ops (F := F)) (launchContents m c) (Proc.devRef .tc main_arg6) = m ((c.tc : Thread nD τ).loc main_arg6) := by
  after_results_simp <;> rfl

set_option maxRecDepth 8192 in
set_option maxHeartbeats 8000000 in
theorem after_arg7 (m : (ℓ : Loc nD τ sig) → Buf (Elt F) ℓ) (c : Dev nD) :
    after (ops (F := F)) (launchContents m c) (Proc.devRef .tc main_arg7) = m ((c.tc : Thread nD τ).loc main_arg7) := by
  after_results_simp <;> rfl

set_option maxRecDepth 8192 in
set_option maxHeartbeats 8000000 in
theorem after_arg8 (m : (ℓ : Loc nD τ sig) → Buf (Elt F) ℓ) (c : Dev nD) :
    after (ops (F := F)) (launchContents m c) (Proc.devRef .tc main_arg8) = m ((c.tc : Thread nD τ).loc main_arg8) := by
  after_results_simp <;> rfl

set_option maxRecDepth 8192 in
set_option maxHeartbeats 8000000 in
theorem after_arg9 (m : (ℓ : Loc nD τ sig) → Buf (Elt F) ℓ) (c : Dev nD) :
    after (ops (F := F)) (launchContents m c) (Proc.devRef .tc main_arg9) = m ((c.tc : Thread nD τ).loc main_arg9) := by
  after_results_simp <;> rfl

set_option maxRecDepth 8192 in
set_option maxHeartbeats 8000000 in
theorem after_arg10 (m : (ℓ : Loc nD τ sig) → Buf (Elt F) ℓ) (c : Dev nD) :
    after (ops (F := F)) (launchContents m c) (Proc.devRef .tc main_arg10) = m ((c.tc : Thread nD τ).loc main_arg10) := by
  after_results_simp <;> rfl

set_option maxRecDepth 8192 in
set_option maxHeartbeats 8000000 in
theorem after_arg11 (m : (ℓ : Loc nD τ sig) → Buf (Elt F) ℓ) (c : Dev nD) :
    after (ops (F := F)) (launchContents m c) (Proc.devRef .tc main_arg11) = m ((c.tc : Thread nD τ).loc main_arg11) := by
  after_results_simp <;> rfl

set_option maxRecDepth 8192 in
set_option maxHeartbeats 8000000 in
theorem after_arg12 (m : (ℓ : Loc nD τ sig) → Buf (Elt F) ℓ) (c : Dev nD) :
    after (ops (F := F)) (launchContents m c) (Proc.devRef .tc main_arg12) = m ((c.tc : Thread nD τ).loc main_arg12) := by
  after_results_simp <;> rfl

set_option maxRecDepth 8192 in
set_option maxHeartbeats 8000000 in
theorem after_arg13 (m : (ℓ : Loc nD τ sig) → Buf (Elt F) ℓ) (c : Dev nD) :
    after (ops (F := F)) (launchContents m c) (Proc.devRef .tc main_arg13) = m ((c.tc : Thread nD τ).loc main_arg13) := by
  after_results_simp <;> rfl

end Cert.Proof.Ref

end
-- ==== Proof.RefFrame.lean ====
import proofs.«148009_j49555332661695_1_alg».proof.Proof.RefArgs
import proofs.«148009_j49555332661695_1_alg».proof.Proof.Gen.Pre_finite_inputs
import proofs.«148009_j49555332661695_1_alg».proof.Defs

/-!
# The reference program's frame

The reference is a straight line of 220 host operations, each of which writes one buffer of its own and
none of which writes an argument buffer.  A straight line always runs to the end without fault, and ends
with every buffer at the fold of the operations' results over the launch contents; read at an argument
buffer, that fold passes every operation by (each writes another buffer) and returns the launch contents.
-/

noncomputable section

namespace Cert.Proof.Ref

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- On every device, for any float values, from any memory with zero counters: every weakly fair execution
    of the reference terminates, and each of the fourteen argument arrays ends as it started. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c),
      (h c main_arg6).trans (after_arg6 m c),
      (h c main_arg7).trans (after_arg7 m c),
      (h c main_arg8).trans (after_arg8 m c),
      (h c main_arg9).trans (after_arg9 m c),
      (h c main_arg10).trans (after_arg10 m c),
      (h c main_arg11).trans (after_arg11 m c),
      (h c main_arg12).trans (after_arg12 m c),
      (h c main_arg13).trans (after_arg13 m c)⟩)
    (run_seq scopedRefs_eq scopedSems_eq defs main (fun _ => ops) main_eq (fun _ => ops_sub) m ρ)

/-- The frame claim of the reference: it runs, and leaves its arguments unchanged. -/
theorem frame_ri :
    Cert.frame_ReferenceIdeal (hReferenceIdeal := Cert.ReferenceIdeal.Gen.facts)
      (hPre_finite_inputs := Cert.Pre_finite_inputs.Gen.facts) :=
  fun m ρ _ => run_args (F := Ideal) m ρ

end Cert.Proof.Ref

end
-- ==== Proof.RunAll.lean ====
/-
  The idealized program's run with every unscoped buffer read at the last valuation: the strengthened conditional run
  at the ten records of the run module. The result's buffer is among the unscoped buffers, so this is where the value
  claim reads it; the frame claim reads the fourteen arguments off the same post.
-/
import proofs.«148009_j49555332661695_1_alg».proof.Proof.Run
import proofs.«148009_j49555332661695_1_alg».proof.Proof.RunCond

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- From any memory with zero counters every weakly fair execution of the program terminates, nothing faulting, and
    every final memory holds every unscoped buffer at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V20 m (outsAll m) c b) :=
  Cert.KernelIdeal.GenP.run_cond m (emb₁ : Emb (UR sig nD τ) 𝕄) () 𝒱₀ L lv (fun _ _ => rfl) ρ (outsAll m) (pdats m)
    (O₀ := 0) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => Ride c)
    (hE0 := by
      refine Pipeline.initEach L lv fun c => ?_
      iintro ⟨⟨-, HO, -, Hp, -⟩, -⟩
      imodintro
      isplitl [Hp]; · iexists _; iexact Hp
      iexists ∅; iexact HO)
    (hE10 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)

end Cert.KernelIdeal.Hand

end
-- ==== Proof.RunResult.lean ====
/-
  The idealized program's run in the form the value claim takes: the result's buffer at the last valuation, the
  fourteen arguments as launched — both read off the run that reads every unscoped buffer.
-/
import proofs.«148009_j49555332661695_1_alg».proof.Proof.RunAll
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

theorem run_result (ρ : Dev nD → PrngReg) :
    θ_run (defs (F := Ideal)) (onTc (τ := τ) (main (F := Ideal))) ⟨m, fun _ => 0, ρ⟩ (fun r => ∀ c : Dev nD,
      r.2.mem ((c.tc : Thread nD τ).loc main_v107) = V20 m (outsAll m) c main_v107
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  by
  refine (θ_run (defs (F := Ideal)) _ _).mono (fun r h c => ?_) (run_all m ρ)
  exact ⟨h c (Proc.devRef .tc main_v107) (mem_uc main_v107 (by decide)),
     (h c (Proc.devRef .tc main_arg0) (mem_uc main_arg0 (by decide))).trans (V20_main_arg0 m (outsAll m) c),
     (h c (Proc.devRef .tc main_arg1) (mem_uc main_arg1 (by decide))).trans (V20_main_arg1 m (outsAll m) c),
     (h c (Proc.devRef .tc main_arg2) (mem_uc main_arg2 (by decide))).trans (V20_main_arg2 m (outsAll m) c),
     (h c (Proc.devRef .tc main_arg3) (mem_uc main_arg3 (by decide))).trans (V20_main_arg3 m (outsAll m) c),
     (h c (Proc.devRef .tc main_arg4) (mem_uc main_arg4 (by decide))).trans (V20_main_arg4 m (outsAll m) c),
     (h c (Proc.devRef .tc main_arg5) (mem_uc main_arg5 (by decide))).trans (V20_main_arg5 m (outsAll m) c),
     (h c (Proc.devRef .tc main_arg6) (mem_uc main_arg6 (by decide))).trans (V20_main_arg6 m (outsAll m) c),
     (h c (Proc.devRef .tc main_arg7) (mem_uc main_arg7 (by decide))).trans (V20_main_arg7 m (outsAll m) c),
     (h c (Proc.devRef .tc main_arg8) (mem_uc main_arg8 (by decide))).trans (V20_main_arg8 m (outsAll m) c),
     (h c (Proc.devRef .tc main_arg9) (mem_uc main_arg9 (by decide))).trans (V20_main_arg9 m (outsAll m) c),
     (h c (Proc.devRef .tc main_arg10) (mem_uc main_arg10 (by decide))).trans (V20_main_arg10 m (outsAll m) c),
     (h c (Proc.devRef .tc main_arg11) (mem_uc main_arg11 (by decide))).trans (V20_main_arg11 m (outsAll m) c),
     (h c (Proc.devRef .tc main_arg12) (mem_uc main_arg12 (by decide))).trans (V20_main_arg12 m (outsAll m) c),
     (h c (Proc.devRef .tc main_arg13) (mem_uc main_arg13 (by decide))).trans (V20_main_arg13 m (outsAll m) c)⟩

end Cert.KernelIdeal.Hand

end
-- ==== Proof.LayerDefs.lean ====
/-
  One message-passing layer, written twice as pure functions of its operands over the extended reals: as the reference
  program composes it from host operations (gather, two matrix products, a bias row, a scatter-add, column means, the
  mean squared deviation, the reciprocal square root, scale, shift, rectify), and as the kernel program computes it
  (the message kernel's entries, the scatter-add, the statistics kernel's column sums and sums of squares, the host's
  mean and one-pass variance, the normalising kernel's entries). The two agree when the operands are real numbers:
  the only mathematical difference is the variance, mean of squares minus squared mean against mean squared deviation.
-/
import proofs.«148009_j49555332661695_1_alg».proof.Proof.Gen.KernelIdeal
import proofs.«148009_j49555332661695_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Proof.Layer

open Idealize.ShloMosaic Idealize.ShloMosaic.TcCoe
open Cert.KernelIdeal (S100000x128 S800000x128 S800000x16 S800000x1 S128x128 S16x128 S1x128 S128 S_ S1024x128 S1024x10 S100000x1)
open ValueIdx (ix1 ix2)

/-! ## One layer as the reference program composes it (its own operation records) -/

/-- The zero word and the two float constants both programs spell: the row count 100000 and the variance offset. -/
abbrev zeroS : FVec Ideal S_ .f32 := constant S_ .f32 0x00000000#32
abbrev countS : FVec Ideal S_ .f32 := constant S_ .f32 0x47C35000#32
abbrev offsetS : FVec Ideal S_ .f32 := constant S_ .f32 0x3727C5AC#32

/-- A vector of 128 kept as a row and repeated down the rows, as the reference writes it: over the edges, -/
abbrev spreadE (v : FVec Ideal S128 .f32) : FVec Ideal S800000x128 .f32 :=
  broadcastInDim S800000x128 ![0, 1] Cert.ReferenceIdeal.Facts₀.bcast_S1x128_S800000x128_0_1 (broadcastInDim S1x128 ![1] Cert.ReferenceIdeal.Facts₀.bcast_S128_S1x128_1 v)
/-- and over the nodes. -/
abbrev spreadN (v : FVec Ideal S128 .f32) : FVec Ideal S100000x128 .f32 :=
  broadcastInDim S100000x128 ![0, 1] Cert.ReferenceIdeal.Facts₀.bcast_S1x128_S100000x128_0_1 (broadcastInDim S1x128 ![1] Cert.ReferenceIdeal.Facts₀.bcast_S128_S1x128_1 v)

/-- The edge messages of the reference: gathered rows times the node weights, plus edge attributes times the edge
    weights, plus the bias row. -/
def refMsg (h : FVec Ideal S100000x128 .f32) (src : IVec S800000x1 32) (ea : FVec Ideal S800000x16 .f32)
    (wx : FVec Ideal S128x128 .f32) (we : FVec Ideal S16x128 .f32) (b : FVec Ideal S128 .f32) : FVec Ideal S800000x128 .f32 :=
  addf (addf (Host.dotGeneral Cert.ReferenceIdeal.dot_S800000x128_S128x128_S800000x128_1_0_0_1_n_n none
        (Host.gather Cert.ReferenceIdeal.gather_S100000x128_S800000x1_S800000x128_1_0_n_n_0_1_1128 h src) wx)
      (Host.dotGeneral Cert.ReferenceIdeal.dot_S800000x16_S16x128_S800000x128_1_0_0_1_n_n none ea we))
    (spreadE b)

/-- The messages summed into their target rows. -/
def refAgg (dst : IVec S800000x1 32) (msg : FVec Ideal S800000x128 .f32) : FVec Ideal S100000x128 .f32 :=
  Host.scatterAdd Cert.ReferenceIdeal.scatter_S100000x128_S800000x1_S800000x128_1_0_0_1
    (broadcastInDim S100000x128 ![] Cert.ReferenceIdeal.Facts₀.bcast_S_S100000x128 zeroS) dst msg

/-- The column means. -/
def refMean (agg : FVec Ideal S100000x128 .f32) : FVec Ideal S128 .f32 :=
  Host.divf (Host.reduceAdd agg zeroS Cert.ReferenceIdeal.Facts₀.reducesTo_S100000x128_S128_d0 Cert.ReferenceIdeal.Facts₀.h_S_) (broadcastInDim S128 ![] Cert.ReferenceIdeal.Facts₀.bcast_S_S128 countS)

/-- The centred array. -/
def refCentred (agg : FVec Ideal S100000x128 .f32) : FVec Ideal S100000x128 .f32 :=
  subf agg (spreadN (refMean agg))

/-- The column variances: the mean of the squared deviations. -/
def refVar (agg : FVec Ideal S100000x128 .f32) : FVec Ideal S128 .f32 :=
  Host.divf (Host.reduceAdd (mulf (refCentred agg) (refCentred agg)) zeroS Cert.ReferenceIdeal.Facts₀.reducesTo_S100000x128_S128_d0 Cert.ReferenceIdeal.Facts₀.h_S_)
    (broadcastInDim S128 ![] Cert.ReferenceIdeal.Facts₀.bcast_S_S128 countS)

/-- The normalised, scaled, shifted and rectified array. -/
def refNorm (agg : FVec Ideal S100000x128 .f32) (g be : FVec Ideal S128 .f32) : FVec Ideal S100000x128 .f32 :=
  maximumf
    (addf (mulf (mulf (refCentred agg)
        (spreadN (Host.rsqrt (addf (refVar agg) (broadcastInDim S128 ![] Cert.ReferenceIdeal.Facts₀.bcast_S_S128 offsetS)))))
        (spreadN g))
      (spreadN be))
    (broadcastInDim S100000x128 ![] Cert.ReferenceIdeal.Facts₀.bcast_S_S100000x128 zeroS)

/-- One layer of the reference. -/
def refLayer (h : FVec Ideal S100000x128 .f32) (src dst : IVec S800000x1 32) (ea : FVec Ideal S800000x16 .f32)
    (wx : FVec Ideal S128x128 .f32) (we : FVec Ideal S16x128 .f32) (b g be : FVec Ideal S128 .f32) : FVec Ideal S100000x128 .f32 :=
  refNorm (refAgg dst (refMsg h src ea wx we b)) g be

/-! ## One layer as the kernel program computes it -/

/-- A vector of 128 as the one-row array the kernel's windows take. -/
abbrev row (v : FVec Ideal S128 .f32) : FVec Ideal S1x128 .f32 := shapeCast S1x128 v Cert.KernelIdeal.Facts₀.shapeCasts_S128_S1x128

/-- The edge messages, entry by entry: what the message kernel's write-backs leave. -/
def kerMsg (hs : FVec Ideal S800000x128 .f32) (ea : FVec Ideal S800000x16 .f32) (wx : FVec Ideal S128x128 .f32)
    (we : FVec Ideal S16x128 .f32) (b : FVec Ideal S1x128 .f32) : FVec Ideal S800000x128 .f32 :=
  fun i => (∑ k : Fin 128, hs (ix2 (i 0) k) * wx (ix2 k (i 1))) + (∑ k : Fin 16, ea (ix2 (i 0) k) * we (ix2 k (i 1))) + b (ix2 (0 : Fin 1) (i 1))

def kerAgg (dst : IVec S800000x1 32) (msg : FVec Ideal S800000x128 .f32) : FVec Ideal S100000x128 .f32 :=
  Host.scatterAdd Cert.KernelIdeal.scatter_S100000x128_S800000x1_S800000x128_1_0_0_1
    (broadcastInDim S100000x128 ![] Cert.KernelIdeal.Facts₀.bcast_S_S100000x128 zeroS) dst msg

/-- The column sums and sums of squares the statistics kernel leaves. -/
def kerSum (agg : FVec Ideal S100000x128 .f32) : FVec Ideal S1x128 .f32 := fun i => ∑ n : Fin 100000, agg (ix2 n (i 1))
def kerSumSq (agg : FVec Ideal S100000x128 .f32) : FVec Ideal S1x128 .f32 := fun i => ∑ n : Fin 100000, agg (ix2 n (i 1)) * agg (ix2 n (i 1))

/-- The host's mean and one-pass variance from the two sums. -/
def kerMean (s1 : FVec Ideal S1x128 .f32) : FVec Ideal S1x128 .f32 :=
  Host.divf s1 (broadcastInDim S1x128 ![] Cert.KernelIdeal.Facts₀.bcast_S_S1x128 countS)
def kerVar (s1 s2 : FVec Ideal S1x128 .f32) : FVec Ideal S1x128 .f32 :=
  subf (Host.divf s2 (broadcastInDim S1x128 ![] Cert.KernelIdeal.Facts₀.bcast_S_S1x128 countS)) (mulf (kerMean s1) (kerMean s1))

/-- What the normalising kernel's write-backs leave, entry by entry. -/
def kerNorm (agg : FVec Ideal S100000x128 .f32) (mean var g be : FVec Ideal S1x128 .f32) : FVec Ideal S100000x128 .f32 :=
  fun i => max (((agg (ix2 (i 0) (i 1)) - mean (ix2 (0 : Fin 1) (i 1))) * Ideal.rsqrt (var (ix2 (0 : Fin 1) (i 1)) + Ideal.ofBits .f32 0x3727C5AC#32))
      * g (ix2 (0 : Fin 1) (i 1)) + be (ix2 (0 : Fin 1) (i 1))) 0

def kerLayer (h : FVec Ideal S100000x128 .f32) (src dst : IVec S800000x1 32) (ea : FVec Ideal S800000x16 .f32)
    (wx : FVec Ideal S128x128 .f32) (we : FVec Ideal S16x128 .f32) (b g be : FVec Ideal S1x128 .f32) : FVec Ideal S100000x128 .f32 :=
  let agg := kerAgg dst (kerMsg (Host.gather Cert.KernelIdeal.gather_S100000x128_S800000x1_S800000x128_1_0_n_n_0_1_1128 h src) ea wx we b)
  kerNorm agg (kerMean (kerSum agg)) (kerVar (kerSum agg) (kerSumSq agg)) g be

/-- Every entry is a real number. -/
def Real' {S : Shape} (x : FVec Ideal S .f32) : Prop := ∀ i, ∃ r : ℝ, x i = (r : EReal)

end Cert.Proof.Layer

end
-- ==== Proof.ChainStretch.lean ====
/-
  The host operations of the kernel program between its kernel launches, read as pure terms.

  Each stretch is a straight line of host operations; run from any valuation `W` of the buffers it leaves, at each
  buffer it writes, the operations' composed term of `W` at the buffers it reads. The terms are named as the layer
  definitions name them: the signed row numbers for the gather, the target rows for the scatter-add, layer `l`'s
  slices of the stacked weights, the messages summed into their rows, the mean and the one-pass variance.
-/
import proofs.«148009_j49555332661695_1_alg».proof.Proof.Gen.KernelIdeal.Regions
import proofs.«148009_j49555332661695_1_alg».proof.Proof.LayerDefs
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Proof.Layer

/-! ## The index arrays and the weights' slices -/

/-- Row `r` of the edge list as a vector. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- The source rows as the gather takes them: a negative number counted from the end, kept as a column. -/
def srcOf (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 100000#32))) v1)

/-- The target rows as the scatter-add takes them: kept as a column. -/
def dstOf (v3 : IVec S800000 32) : IVec S800000x1 32 := broadcastInDim S800000x1 ![0] bcast_S800000_S800000x1_0 v3

/-- Layer 0's slices of the stacked weights, biases, scales and shifts. -/
def wxOf0 (w : FVec Ideal S3x128x128 .f32) : FVec Ideal S128x128 .f32 :=
  shapeCast S128x128 (extractStridedSlice S1x128x128 ![0, 0, 0] w slices_S3x128x128_S1x128x128_0_0_0) shapeCasts_S1x128x128_S128x128
def weOf0 (w : FVec Ideal S3x16x128 .f32) : FVec Ideal S16x128 .f32 :=
  shapeCast S16x128 (extractStridedSlice S1x16x128 ![0, 0, 0] w slices_S3x16x128_S1x16x128_0_0_0) shapeCasts_S1x16x128_S16x128
def vecOf0 (v : FVec Ideal S3x128 .f32) : FVec Ideal S128 .f32 :=
  shapeCast S128 (extractStridedSlice S1x128 ![0, 0] v slices_S3x128_S1x128_0_0) shapeCasts_S1x128_S128

/-- Layer 1's slices of the stacked weights, biases, scales and shifts. -/
def wxOf1 (w : FVec Ideal S3x128x128 .f32) : FVec Ideal S128x128 .f32 :=
  shapeCast S128x128 (extractStridedSlice S1x128x128 ![1, 0, 0] w slices_S3x128x128_S1x128x128_1_0_0) shapeCasts_S1x128x128_S128x128
def weOf1 (w : FVec Ideal S3x16x128 .f32) : FVec Ideal S16x128 .f32 :=
  shapeCast S16x128 (extractStridedSlice S1x16x128 ![1, 0, 0] w slices_S3x16x128_S1x16x128_1_0_0) shapeCasts_S1x16x128_S16x128
def vecOf1 (v : FVec Ideal S3x128 .f32) : FVec Ideal S128 .f32 :=
  shapeCast S128 (extractStridedSlice S1x128 ![1, 0] v slices_S3x128_S1x128_1_0) shapeCasts_S1x128_S128

/-- Layer 2's slices of the stacked weights, biases, scales and shifts. -/
def wxOf2 (w : FVec Ideal S3x128x128 .f32) : FVec Ideal S128x128 .f32 :=
  shapeCast S128x128 (extractStridedSlice S1x128x128 ![2, 0, 0] w slices_S3x128x128_S1x128x128_2_0_0) shapeCasts_S1x128x128_S128x128
def weOf2 (w : FVec Ideal S3x16x128 .f32) : FVec Ideal S16x128 .f32 :=
  shapeCast S16x128 (extractStridedSlice S1x16x128 ![2, 0, 0] w slices_S3x16x128_S1x16x128_2_0_0) shapeCasts_S1x16x128_S16x128
def vecOf2 (v : FVec Ideal S3x128 .f32) : FVec Ideal S128 .f32 :=
  shapeCast S128 (extractStridedSlice S1x128 ![2, 0] v slices_S3x128_S1x128_2_0) shapeCasts_S1x128_S128

/-! ## The stretches -/

variable (W : Valuation τ sig (Elt Ideal))

theorem stretch0_v1 : StableHlo.after (hostOps0 (F := Ideal)) W main_v1 = edgeRow0 (W main_arg1) := by
  show StableHlo.after (hostOps0 (F := Ideal)) W (Proc.devRef .tc main_v1) = _
  after_results
  rfl
theorem stretch0_v3 : StableHlo.after (hostOps0 (F := Ideal)) W main_v3 = edgeRow1 (W main_arg1) := by
  show StableHlo.after (hostOps0 (F := Ideal)) W (Proc.devRef .tc main_v3) = _
  after_results
  rfl

/-! ### Layer 0 -/

theorem stretch0_gather : StableHlo.after (hostOps0 (F := Ideal)) W main_v10
    = Host.gather gather_S100000x128_S800000x1_S800000x128_1_0_n_n_0_1_1128 (W main_arg0) (srcOf (edgeRow0 (W main_arg1))) := by
  show StableHlo.after (hostOps0 (F := Ideal)) W (Proc.devRef .tc main_v10) = _
  after_results
  rfl
theorem stretch0_wx : StableHlo.after (hostOps0 (F := Ideal)) W main_v12 = wxOf0 (W main_arg5) := by
  show StableHlo.after (hostOps0 (F := Ideal)) W (Proc.devRef .tc main_v12) = _
  after_results
  rfl
theorem stretch0_we : StableHlo.after (hostOps0 (F := Ideal)) W main_v14 = weOf0 (W main_arg6) := by
  show StableHlo.after (hostOps0 (F := Ideal)) W (Proc.devRef .tc main_v14) = _
  after_results
  rfl
theorem stretch0_bias : StableHlo.after (hostOps0 (F := Ideal)) W main_v17 = row (vecOf0 (W main_arg7)) := by
  show StableHlo.after (hostOps0 (F := Ideal)) W (Proc.devRef .tc main_v17) = _
  after_results
  rfl
theorem stretch1_agg : StableHlo.after (hostOps1 (F := Ideal)) W main_v21 = kerAgg (dstOf (W main_v3)) (W main_v18) := by
  show StableHlo.after (hostOps1 (F := Ideal)) W (Proc.devRef .tc main_v21) = _
  after_results
  rfl
theorem stretch2_mean : StableHlo.after (hostOps2 (F := Ideal)) W main_v24 = kerMean (W main_v22_0) := by
  show StableHlo.after (hostOps2 (F := Ideal)) W (Proc.devRef .tc main_v24) = _
  after_results
  rfl
theorem stretch2_var : StableHlo.after (hostOps2 (F := Ideal)) W main_v28 = kerVar (W main_v22_0) (W main_v22_1) := by
  show StableHlo.after (hostOps2 (F := Ideal)) W (Proc.devRef .tc main_v28) = _
  after_results
  rfl
theorem stretch2_scale : StableHlo.after (hostOps2 (F := Ideal)) W main_v33 = row (vecOf0 (W main_arg8)) := by
  show StableHlo.after (hostOps2 (F := Ideal)) W (Proc.devRef .tc main_v33) = _
  after_results
  rfl
theorem stretch2_shift : StableHlo.after (hostOps2 (F := Ideal)) W main_v34 = row (vecOf0 (W main_arg9)) := by
  show StableHlo.after (hostOps2 (F := Ideal)) W (Proc.devRef .tc main_v34) = _
  after_results
  rfl

/-! ### Layer 1 -/

theorem stretch3_gather : StableHlo.after (hostOps3 (F := Ideal)) W main_v42
    = Host.gather gather_S100000x128_S800000x1_S800000x128_1_0_n_n_0_1_1128 (W main_v35) (srcOf (W main_v1)) := by
  show StableHlo.after (hostOps3 (F := Ideal)) W (Proc.devRef .tc main_v42) = _
  after_results
  rfl
theorem stretch3_wx : StableHlo.after (hostOps3 (F := Ideal)) W main_v44 = wxOf1 (W main_arg5) := by
  show StableHlo.after (hostOps3 (F := Ideal)) W (Proc.devRef .tc main_v44) = _
  after_results
  rfl
theorem stretch3_we : StableHlo.after (hostOps3 (F := Ideal)) W main_v46 = weOf1 (W main_arg6) := by
  show StableHlo.after (hostOps3 (F := Ideal)) W (Proc.devRef .tc main_v46) = _
  after_results
  rfl
theorem stretch3_bias : StableHlo.after (hostOps3 (F := Ideal)) W main_v49 = row (vecOf1 (W main_arg7)) := by
  show StableHlo.after (hostOps3 (F := Ideal)) W (Proc.devRef .tc main_v49) = _
  after_results
  rfl
theorem stretch4_agg : StableHlo.after (hostOps4 (F := Ideal)) W main_v53 = kerAgg (dstOf (W main_v3)) (W main_v50) := by
  show StableHlo.after (hostOps4 (F := Ideal)) W (Proc.devRef .tc main_v53) = _
  after_results
  rfl
theorem stretch5_mean : StableHlo.after (hostOps5 (F := Ideal)) W main_v56 = kerMean (W main_v54_0) := by
  show StableHlo.after (hostOps5 (F := Ideal)) W (Proc.devRef .tc main_v56) = _
  after_results
  rfl
theorem stretch5_var : StableHlo.after (hostOps5 (F := Ideal)) W main_v60 = kerVar (W main_v54_0) (W main_v54_1) := by
  show StableHlo.after (hostOps5 (F := Ideal)) W (Proc.devRef .tc main_v60) = _
  after_results
  rfl
theorem stretch5_scale : StableHlo.after (hostOps5 (F := Ideal)) W main_v65 = row (vecOf1 (W main_arg8)) := by
  show StableHlo.after (hostOps5 (F := Ideal)) W (Proc.devRef .tc main_v65) = _
  after_results
  rfl
theorem stretch5_shift : StableHlo.after (hostOps5 (F := Ideal)) W main_v66 = row (vecOf1 (W main_arg9)) := by
  show StableHlo.after (hostOps5 (F := Ideal)) W (Proc.devRef .tc main_v66) = _
  after_results
  rfl

/-! ### Layer 2 -/

theorem stretch6_gather : StableHlo.after (hostOps6 (F := Ideal)) W main_v74
    = Host.gather gather_S100000x128_S800000x1_S800000x128_1_0_n_n_0_1_1128 (W main_v67) (srcOf (W main_v1)) := by
  show StableHlo.after (hostOps6 (F := Ideal)) W (Proc.devRef .tc main_v74) = _
  after_results
  rfl
theorem stretch6_wx : StableHlo.after (hostOps6 (F := Ideal)) W main_v76 = wxOf2 (W main_arg5) := by
  show StableHlo.after (hostOps6 (F := Ideal)) W (Proc.devRef .tc main_v76) = _
  after_results
  rfl
theorem stretch6_we : StableHlo.after (hostOps6 (F := Ideal)) W main_v78 = weOf2 (W main_arg6) := by
  show StableHlo.after (hostOps6 (F := Ideal)) W (Proc.devRef .tc main_v78) = _
  after_results
  rfl
theorem stretch6_bias : StableHlo.after (hostOps6 (F := Ideal)) W main_v81 = row (vecOf2 (W main_arg7)) := by
  show StableHlo.after (hostOps6 (F := Ideal)) W (Proc.devRef .tc main_v81) = _
  after_results
  rfl
theorem stretch7_agg : StableHlo.after (hostOps7 (F := Ideal)) W main_v85 = kerAgg (dstOf (W main_v3)) (W main_v82) := by
  show StableHlo.after (hostOps7 (F := Ideal)) W (Proc.devRef .tc main_v85) = _
  after_results
  rfl
theorem stretch8_mean : StableHlo.after (hostOps8 (F := Ideal)) W main_v88 = kerMean (W main_v86_0) := by
  show StableHlo.after (hostOps8 (F := Ideal)) W (Proc.devRef .tc main_v88) = _
  after_results
  rfl
theorem stretch8_var : StableHlo.after (hostOps8 (F := Ideal)) W main_v92 = kerVar (W main_v86_0) (W main_v86_1) := by
  show StableHlo.after (hostOps8 (F := Ideal)) W (Proc.devRef .tc main_v92) = _
  after_results
  rfl
theorem stretch8_scale : StableHlo.after (hostOps8 (F := Ideal)) W main_v97 = row (vecOf2 (W main_arg8)) := by
  show StableHlo.after (hostOps8 (F := Ideal)) W (Proc.devRef .tc main_v97) = _
  after_results
  rfl
theorem stretch8_shift : StableHlo.after (hostOps8 (F := Ideal)) W main_v98 = row (vecOf2 (W main_arg9)) := by
  show StableHlo.after (hostOps8 (F := Ideal)) W (Proc.devRef .tc main_v98) = _
  after_results
  rfl

/-! ### The classifier's operands -/

/-- The final layer's rows summed into their graphs. -/
def poolOf (batch : IVec S100000 32) (h : FVec Ideal S100000x128 .f32) : FVec Ideal S1024x128 .f32 :=
  Host.scatterAdd scatter_S1024x128_S100000x1_S100000x128_1_0_0_1
    (broadcastInDim S1024x128 ![] bcast_S_S1024x128 zeroS)
    (broadcastInDim S100000x1 ![0] bcast_S100000_S100000x1_0 batch) h
/-- The first dense layer's weights split at the join of pooled features and neighbour features. -/
def fc1Top (w : FVec Ideal S138x256 .f32) : FVec Ideal S128x256 .f32 := extractStridedSlice S128x256 ![0, 0] w slices_S138x256_S128x256_0_0
def fc1Bottom (w : FVec Ideal S138x256 .f32) : FVec Ideal S10x256 .f32 := extractStridedSlice S10x256 ![128, 0] w slices_S138x256_S10x256_128_0

theorem stretch9_pool : StableHlo.after (hostOps9 (F := Ideal)) W main_v102 = poolOf (W main_arg3) (W main_v99) := by
  show StableHlo.after (hostOps9 (F := Ideal)) W (Proc.devRef .tc main_v102) = _
  after_results
  rfl
theorem stretch9_top : StableHlo.after (hostOps9 (F := Ideal)) W main_v103 = fc1Top (W main_arg10) := by
  show StableHlo.after (hostOps9 (F := Ideal)) W (Proc.devRef .tc main_v103) = _
  after_results
  rfl
theorem stretch9_bottom : StableHlo.after (hostOps9 (F := Ideal)) W main_v104 = fc1Bottom (W main_arg10) := by
  show StableHlo.after (hostOps9 (F := Ideal)) W (Proc.devRef .tc main_v104) = _
  after_results
  rfl
theorem stretch9_bias1 : StableHlo.after (hostOps9 (F := Ideal)) W main_v105 = shapeCast S1x256 (W main_arg11) shapeCasts_S256_S1x256 := by
  show StableHlo.after (hostOps9 (F := Ideal)) W (Proc.devRef .tc main_v105) = _
  after_results
  rfl
theorem stretch9_bias2 : StableHlo.after (hostOps9 (F := Ideal)) W main_v106 = shapeCast S1x10 (W main_arg13) shapeCasts_S10_S1x10 := by
  show StableHlo.after (hostOps9 (F := Ideal)) W (Proc.devRef .tc main_v106) = _
  after_results
  rfl

end Cert.KernelIdeal.Hand

end
-- ==== Proof.NetDefs.lean ====
/-
  The kernel program's network as one pure function of the fourteen argument arrays: three layers, each the layer of
  the layer definitions at that layer's slices of the stacked parameters and at the same two index columns read off
  the edge list, then the rows of the last layer summed into their graphs. (The classifier on top is stated where its
  entries are read.)
-/
import proofs.«148009_j49555332661695_1_alg».proof.Proof.ChainStretch

set_option maxRecDepth 16384

noncomputable section

namespace Cert.KernelIdeal.Hand

open Cert.KernelIdeal
open Idealize.ShloMosaic
open Cert.Proof.Layer

variable (x0 : FVec Ideal S100000x128 .f32) (x1 : IVec S2x800000 32) (x2 : FVec Ideal S800000x16 .f32)
  (x5 : FVec Ideal S3x128x128 .f32) (x6 : FVec Ideal S3x16x128 .f32) (x7 x8 x9 : FVec Ideal S3x128 .f32)

/-- The node features after the first layer, -/
def kerH1 : FVec Ideal S100000x128 .f32 :=
  kerLayer x0 (srcOf (edgeRow0 x1)) (dstOf (edgeRow1 x1)) x2 (wxOf0 x5) (weOf0 x6) (row (vecOf0 x7)) (row (vecOf0 x8)) (row (vecOf0 x9))
/-- the second, -/
def kerH2 : FVec Ideal S100000x128 .f32 :=
  kerLayer (kerH1 x0 x1 x2 x5 x6 x7 x8 x9) (srcOf (edgeRow0 x1)) (dstOf (edgeRow1 x1)) x2 (wxOf1 x5) (weOf1 x6) (row (vecOf1 x7)) (row (vecOf1 x8)) (row (vecOf1 x9))
/-- and the third. -/
def kerH3 : FVec Ideal S100000x128 .f32 :=
  kerLayer (kerH2 x0 x1 x2 x5 x6 x7 x8 x9) (srcOf (edgeRow0 x1)) (dstOf (edgeRow1 x1)) x2 (wxOf2 x5) (weOf2 x6) (row (vecOf2 x7)) (row (vecOf2 x8)) (row (vecOf2 x9))

end Cert.KernelIdeal.Hand

end
-- ==== Proof.Region0Value.lean ====
import proofs.«148009_j49555332661695_1_alg».proof.Proof.Region0
import Idealize.ShloMosaic.Lib.ValueIdx
import Idealize.ShloMosaic.Lib.Pipeline.Value
import Idealize.ShloMosaic.PureOps.Ideal.Laws

/-! Region 0 at the ideal values: the output block of the edge-message kernel, entry by entry. With no rounding,
    entry (a, b) of the block is  Σₖ x0[a,k]·x2[k,b] + Σₖ x1[a,k]·x3[k,b] + x4[0,b]:  the two products into a zero
    accumulator are plain sums over the contracted axis, narrowing to bf16 is the identity on extended reals, and the
    bias row is repeated down the rows. -/

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- The offsets of a whole rank-2 block are zero on both axes. -/
theorem zeroOffsets0 : (![0, 0] : Fin 2 → Nat) = fun _ => 0 := funext fun a => by fin_cases a <;> rfl

/-- The single store is laid over the whole block and every load reads a whole block, so the output block is the
    message value of the five input blocks themselves (in any float model). -/
theorem msgBlock0_eq_pay {F : FTy → Type} [FloatOps F] (x0 : Vec F S8000x128 .f32) (x1 : Vec F S8000x16 .f32) (x2 : Vec F S128x128 .f32)
    (x3 : Vec F S16x128 .f32) (x4 : Vec F S1x128 .f32) : msgBlock0 x0 x1 x2 x3 x4 = k0_pay1 x0 x1 x2 x3 x4 := by
  unfold msgBlock0
  rw [View.canon_unit_zero zeroOffsets0, View.ld_unit_zero zeroOffsets0, View.ld_unit_zero zeroOffsets0, View.ld_unit_zero zeroOffsets0,
    View.ld_unit_zero zeroOffsets0, View.ld_unit_zero zeroOffsets0]

/-! ### The 8000×128 by 128×128 product -/

/-- The left operand's row coordinate is the output's row. -/
theorem dotA0_lhs_row (i : S8000x128.Idx) (q : (dot_S8000x128_S128x128_S8000x128_1_0_0_1_n_n).contr.Idx) :
    ((dot_S8000x128_S128x128_S8000x128_1_0_0_1_n_n).lhsIdx i q 0).val = (i 0).val := by
  unfold DotDims.lhsIdx
  rw [dif_neg (show ¬(0 : Fin S8000x128.rank) ∈ (dot_S8000x128_S128x128_S8000x128_1_0_0_1_n_n).lhsBatch by decide),
    dif_pos (show (0 : Fin S8000x128.rank) ∈ (dot_S8000x128_S128x128_S8000x128_1_0_0_1_n_n).lhsNonContracting by decide)]
  rfl

/-- The right operand's column coordinate is the output's column. -/
theorem dotA0_rhs_col (i : S8000x128.Idx) (q : (dot_S8000x128_S128x128_S8000x128_1_0_0_1_n_n).contr.Idx) :
    ((dot_S8000x128_S128x128_S8000x128_1_0_0_1_n_n).rhsIdx i q 1).val = (i 1).val := by
  unfold DotDims.rhsIdx
  rw [dif_neg (show ¬(1 : Fin S128x128.rank) ∈ (dot_S8000x128_S128x128_S8000x128_1_0_0_1_n_n).rhsBatch by decide),
    dif_pos (show (1 : Fin S128x128.rank) ∈ (dot_S8000x128_S128x128_S8000x128_1_0_0_1_n_n).rhsNonContracting by decide)]
  rfl

/-- Into a zero accumulator, the product at (a, b) is the sum over the 128 contracted positions. -/
theorem matmulA0_apply {φ₁ φ₂ : FTy} (A : FVec Ideal S8000x128 φ₁) (B : FVec Ideal S128x128 φ₂) (a : Fin 8000) (b : Fin 128) :
    matmul (dot_S8000x128_S128x128_S8000x128_1_0_0_1_n_n) none A B (constant (F := Ideal) S8000x128 .f32 0x00000000#32) (ix2 a b)
      = ∑ k : Fin 128, A (ix2 a k) * B (ix2 k b) := by
  simp only [matmul]
  rw [Ideal.matmul_constant_zero_apply, ← Equiv.sum_comp (contrEquiv1 (dot_S8000x128_S128x128_S8000x128_1_0_0_1_n_n) 128 rfl rfl).symm]
  refine Finset.sum_congr rfl fun k _ => ?_
  have hk := contrEquiv1_symm_val (dot_S8000x128_S128x128_S8000x128_1_0_0_1_n_n) 128 rfl rfl k
  have el : (dot_S8000x128_S128x128_S8000x128_1_0_0_1_n_n).lhsIdx (ix2 a b) ((contrEquiv1 (dot_S8000x128_S128x128_S8000x128_1_0_0_1_n_n) 128 rfl rfl).symm k) = ix2 a k :=
    funext fun e => Fin.ext (by
      match e with
      | ⟨0, _⟩ => exact dotA0_lhs_row _ _
      | ⟨1, _⟩ => exact ((dot_S8000x128_S128x128_S8000x128_1_0_0_1_n_n).lhsIdx_val_of_single rfl _ _).trans hk)
  have er : (dot_S8000x128_S128x128_S8000x128_1_0_0_1_n_n).rhsIdx (ix2 a b) ((contrEquiv1 (dot_S8000x128_S128x128_S8000x128_1_0_0_1_n_n) 128 rfl rfl).symm k) = ix2 k b :=
    funext fun e => Fin.ext (by
      match e with
      | ⟨0, _⟩ => exact ((dot_S8000x128_S128x128_S8000x128_1_0_0_1_n_n).rhsIdx_val_of_single rfl _ _).trans hk
      | ⟨1, _⟩ => exact dotA0_rhs_col _ _)
  rw [el, er]

/-! ### The 8000×16 by 16×128 product -/

theorem dotB0_lhs_row (i : S8000x128.Idx) (q : (dot_S8000x16_S16x128_S8000x128_1_0_0_1_n_n).contr.Idx) :
    ((dot_S8000x16_S16x128_S8000x128_1_0_0_1_n_n).lhsIdx i q 0).val = (i 0).val := by
  unfold DotDims.lhsIdx
  rw [dif_neg (show ¬(0 : Fin S8000x16.rank) ∈ (dot_S8000x16_S16x128_S8000x128_1_0_0_1_n_n).lhsBatch by decide),
    dif_pos (show (0 : Fin S8000x16.rank) ∈ (dot_S8000x16_S16x128_S8000x128_1_0_0_1_n_n).lhsNonContracting by decide)]
  rfl

theorem dotB0_rhs_col (i : S8000x128.Idx) (q : (dot_S8000x16_S16x128_S8000x128_1_0_0_1_n_n).contr.Idx) :
    ((dot_S8000x16_S16x128_S8000x128_1_0_0_1_n_n).rhsIdx i q 1).val = (i 1).val := by
  unfold DotDims.rhsIdx
  rw [dif_neg (show ¬(1 : Fin S16x128.rank) ∈ (dot_S8000x16_S16x128_S8000x128_1_0_0_1_n_n).rhsBatch by decide),
    dif_pos (show (1 : Fin S16x128.rank) ∈ (dot_S8000x16_S16x128_S8000x128_1_0_0_1_n_n).rhsNonContracting by decide)]
  rfl

/-- Into a zero accumulator, the product at (a, b) is the sum over the 16 contracted positions. -/
theorem matmulB0_apply {φ₁ φ₂ : FTy} (A : FVec Ideal S8000x16 φ₁) (B : FVec Ideal S16x128 φ₂) (a : Fin 8000) (b : Fin 128) :
    matmul (dot_S8000x16_S16x128_S8000x128_1_0_0_1_n_n) none A B (constant (F := Ideal) S8000x128 .f32 0x00000000#32) (ix2 a b)
      = ∑ k : Fin 16, A (ix2 a k) * B (ix2 k b) := by
  simp only [matmul]
  rw [Ideal.matmul_constant_zero_apply, ← Equiv.sum_comp (contrEquiv1 (dot_S8000x16_S16x128_S8000x128_1_0_0_1_n_n) 16 rfl rfl).symm]
  refine Finset.sum_congr rfl fun k _ => ?_
  have hk := contrEquiv1_symm_val (dot_S8000x16_S16x128_S8000x128_1_0_0_1_n_n) 16 rfl rfl k
  have el : (dot_S8000x16_S16x128_S8000x128_1_0_0_1_n_n).lhsIdx (ix2 a b) ((contrEquiv1 (dot_S8000x16_S16x128_S8000x128_1_0_0_1_n_n) 16 rfl rfl).symm k) = ix2 a k :=
    funext fun e => Fin.ext (by
      match e with
      | ⟨0, _⟩ => exact dotB0_lhs_row _ _
      | ⟨1, _⟩ => exact ((dot_S8000x16_S16x128_S8000x128_1_0_0_1_n_n).lhsIdx_val_of_single rfl _ _).trans hk)
  have er : (dot_S8000x16_S16x128_S8000x128_1_0_0_1_n_n).rhsIdx (ix2 a b) ((contrEquiv1 (dot_S8000x16_S16x128_S8000x128_1_0_0_1_n_n) 16 rfl rfl).symm k) = ix2 k b :=
    funext fun e => Fin.ext (by
      match e with
      | ⟨0, _⟩ => exact ((dot_S8000x16_S16x128_S8000x128_1_0_0_1_n_n).rhsIdx_val_of_single rfl _ _).trans hk
      | ⟨1, _⟩ => exact dotB0_rhs_col _ _)
  rw [el, er]

/-! ### The bias row repeated down the rows -/

theorem biasRows0_apply {α : Type} (v : S1x128.Idx → α) (a : Fin 8000) (b : Fin 128) :
    broadcastTo S8000x128 v broadcasts_S1x128_S8000x128 (ix2 a b) = v (ix2 (0 : Fin 1) b) :=
  broadcastTo_apply v broadcasts_S1x128_S8000x128 (ix2 a b) (ix2 (0 : Fin 1) b) (fun e => by
    match e with
    | ⟨0, _⟩ => rfl
    | ⟨1, _⟩ => rfl)

/-! ### The block, entry by entry -/

theorem msgBlock0_apply (x0 : Vec Ideal S8000x128 .f32) (x1 : Vec Ideal S8000x16 .f32) (x2 : Vec Ideal S128x128 .f32)
    (x3 : Vec Ideal S16x128 .f32) (x4 : Vec Ideal S1x128 .f32) (a : Fin 8000) (b : Fin 128) :
    msgBlock0 (F := Ideal) x0 x1 x2 x3 x4 (ValueIdx.ix2 a b)
      = (∑ k : Fin 128, x0 (ValueIdx.ix2 a k) * x2 (ValueIdx.ix2 k b)) + (∑ k : Fin 16, x1 (ValueIdx.ix2 a k) * x3 (ValueIdx.ix2 k b))
        + x4 (ValueIdx.ix2 (0 : Fin 1) b) := by
  rw [msgBlock0_eq_pay]
  unfold k0_pay1
  simp only [shapeCast_self]
  rw [addf_apply, addf_apply, matmulA0_apply, matmulB0_apply, biasRows0_apply]
  simp only [truncf_apply]

end Cert.KernelIdeal.Hand
-- ==== Proof.Region0Array.lean ====
import proofs.«148009_j49555332661695_1_alg».proof.Proof.Region0Value
import Idealize.ShloMosaic.Lib.Pipeline.Value

/-! Region 0 at the ideal values, from blocks to the array. The grid's point `t` handles rows 8000·t … 8000·t + 7999:
    its blocks of the two row-indexed inputs and of the output are those rows, and the two weight matrices and the bias
    row are read whole at every point. So what point `t` writes back is block `t` of ONE function of the whole input
    arrays — entry (r, b) is  Σₖ h[r,k]·wx[k,b] + Σₖ ea[r,k]·we[k,b] + bias[0,b] — and since row r lies in block
    r / 8000, the 100 blocks cover the output array, which therefore ends holding that function. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The message array as one function of the whole input arrays: row r, column b holds
    Σₖ h[r,k]·wx[k,b] + Σₖ ea[r,k]·we[k,b] + bias[0,b]. -/
def msgArray0 (h : Vec Ideal S800000x128 .f32) (ea : Vec Ideal S800000x16 .f32) (wx : Vec Ideal S128x128 .f32) (we : Vec Ideal S16x128 .f32)
    (b : Vec Ideal S1x128 .f32) : Vec Ideal S800000x128 .f32 :=
  fun i => (∑ k : Fin 128, h (ix2 (i 0) k) * wx (ix2 k (i 1))) + (∑ k : Fin 16, ea (ix2 (i 0) k) * we (ix2 k (i 1))) + b (ix2 (0 : Fin 1) (i 1))

theorem msgArray0_apply (h : Vec Ideal S800000x128 .f32) (ea : Vec Ideal S800000x16 .f32) (wx : Vec Ideal S128x128 .f32) (we : Vec Ideal S16x128 .f32)
    (b : Vec Ideal S1x128 .f32) (r : Fin 800000) (q : Fin 128) :
    msgArray0 h ea wx we b (ix2 r q)
      = (∑ k : Fin 128, h (ix2 r k) * wx (ix2 k q)) + (∑ k : Fin 16, ea (ix2 r k) * we (ix2 k q)) + b (ix2 (0 : Fin 1) q) := rfl

/-- Where the windows' blocks sit, decided over the grid: at point `t` the row-indexed windows (0, 1 and the output 5) are at
    block row `t`, block column 0; the weights and the bias are at block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ### The input blocks, entry by entry, as entries of the arrays -/

theorem iblk0_0_apply (c : Dev nD) (t : Fin cfg0.N) (p : Fin 8000) (k : Fin 128) (r : Fin 800000) (hr : r.val = t.val * 8000 + p.val) :
    (iblk0 V c 0 t : Vec Ideal S8000x128 .f32) (ix2 p k) = (V c (Pipeline.arrRef spec0 0) : Vec Ideal S800000x128 .f32) (ix2 r k) := by
  obtain ⟨e0, e1, -⟩ := blockIndex0 t
  show V c (Pipeline.arrRef spec0 0) (((cfg0.win 0).blk t).view.emb (ix2 p k)) = V c (Pipeline.arrRef spec0 0) (ix2 r k)
  refine congrArg (V c (Pipeline.arrRef spec0 0)) (funext fun a => Fin.ext ?_)
  match a with
  | ⟨0, _⟩ => show win0_0.index t (0 : Fin 2) * 8000 + 1 * p.val = r.val; rw [e0, hr]; omega
  | ⟨1, _⟩ => show win0_0.index t (1 : Fin 2) * 128 + 1 * k.val = k.val; rw [e1]; omega

theorem iblk0_1_apply (c : Dev nD) (t : Fin cfg0.N) (p : Fin 8000) (k : Fin 16) (r : Fin 800000) (hr : r.val = t.val * 8000 + p.val) :
    (iblk0 V c 1 t : Vec Ideal S8000x16 .f32) (ix2 p k) = (V c (Pipeline.arrRef spec0 1) : Vec Ideal S800000x16 .f32) (ix2 r k) := by
  obtain ⟨-, -, e0, e1, -⟩ := blockIndex0 t
  show V c (Pipeline.arrRef spec0 1) (((cfg0.win 1).blk t).view.emb (ix2 p k)) = V c (Pipeline.arrRef spec0 1) (ix2 r k)
  refine congrArg (V c (Pipeline.arrRef spec0 1)) (funext fun a => Fin.ext ?_)
  match a with
  | ⟨0, _⟩ => show win0_1.index t (0 : Fin 2) * 8000 + 1 * p.val = r.val; rw [e0, hr]; omega
  | ⟨1, _⟩ => show win0_1.index t (1 : Fin 2) * 16 + 1 * k.val = k.val; rw [e1]; omega

theorem iblk0_2_apply (c : Dev nD) (t : Fin cfg0.N) (k : Fin 128) (q : Fin 128) :
    (iblk0 V c 2 t : Vec Ideal S128x128 .f32) (ix2 k q) = (V c (Pipeline.arrRef spec0 2) : Vec Ideal S128x128 .f32) (ix2 k q) := by
  obtain ⟨-, -, -, -, e0, e1, -⟩ := blockIndex0 t
  show V c (Pipeline.arrRef spec0 2) (((cfg0.win 2).blk t).view.emb (ix2 k q)) = V c (Pipeline.arrRef spec0 2) (ix2 k q)
  refine congrArg (V c (Pipeline.arrRef spec0 2)) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem iblk0_3_apply (c : Dev nD) (t : Fin cfg0.N) (k : Fin 16) (q : Fin 128) :
    (iblk0 V c 3 t : Vec Ideal S16x128 .f32) (ix2 k q) = (V c (Pipeline.arrRef spec0 3) : Vec Ideal S16x128 .f32) (ix2 k q) := by
  obtain ⟨-, -, -, -, -, -, e0, e1, -⟩ := blockIndex0 t
  show V c (Pipeline.arrRef spec0 3) (((cfg0.win 3).blk t).view.emb (ix2 k q)) = V c (Pipeline.arrRef spec0 3) (ix2 k q)
  refine congrArg (V c (Pipeline.arrRef spec0 3)) (funext fun a => Fin.ext ?_)
  match a with
  | ⟨0, _⟩ => show win0_3.index t (0 : Fin 2) * 16 + 1 * k.val = k.val; rw [e0]; omega
  | ⟨1, _⟩ => show win0_3.index t (1 : Fin 2) * 128 + 1 * q.val = q.val; rw [e1]; omega

theorem iblk0_4_apply (c : Dev nD) (t : Fin cfg0.N) (z : Fin 1) (q : Fin 128) :
    (iblk0 V c 4 t : Vec Ideal S1x128 .f32) (ix2 z q) = (V c (Pipeline.arrRef spec0 4) : Vec Ideal S1x128 .f32) (ix2 z q) := by
  obtain ⟨-, -, -, -, -, -, -, -, e0, e1, -⟩ := blockIndex0 t
  show V c (Pipeline.arrRef spec0 4) (((cfg0.win 4).blk t).view.emb (ix2 z q)) = V c (Pipeline.arrRef spec0 4) (ix2 z q)
  refine congrArg (V c (Pipeline.arrRef spec0 4)) (funext fun a => Fin.ext ?_)
  match a with
  | ⟨0, _⟩ => show win0_4.index t (0 : Fin 2) * 1 + 1 * z.val = z.val; rw [e0]; omega
  | ⟨1, _⟩ => show win0_4.index t (1 : Fin 2) * 128 + 1 * q.val = q.val; rw [e1]; omega

/-! ### What a point writes back -/

/-- Point `t` writes back block `t` of the message array of the arrays as the region finds them. -/
theorem flushed0_eq (c : Dev nD) (t : Fin cfg0.N) :
    (dat0 (F := Ideal) V c).flushed 5 t = ((cfg0.win 5).blk t).view.read (Elt Ideal)
      (msgArray0 (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 (F := Ideal) V c).after 5 t) = _
  rw [after0_5]
  obtain ⟨-, -, -, -, -, -, -, -, -, -, e0, e1⟩ := blockIndex0 t
  have ht : t.val < 100 := Nat.lt_of_lt_of_eq t.isLt (show cfg0.N = 100 from N_0)
  funext j
  obtain ⟨p, q, rfl⟩ : ∃ (p : Fin 8000) (q : Fin 128), j = ix2 p q := ⟨j 0, j 1, eq_ix2 j⟩
  have hp : p.val < 8000 := p.isLt
  have hemb : ((cfg0.win 5).blk t).view.emb (ix2 p q) = (ix2 (⟨t.val * 8000 + p.val, by omega⟩ : Fin 800000) q : S800000x128.Idx) := by
    funext a; apply Fin.ext
    match a with
    | ⟨0, _⟩ => show win0_5.index t (0 : Fin 2) * 8000 + 1 * p.val = t.val * 8000 + p.val; rw [e0]; omega
    | ⟨1, _⟩ => show win0_5.index t (1 : Fin 2) * 128 + 1 * q.val = q.val; rw [e1]; omega
  show msgBlock0 (F := Ideal) (iblk0 V c 0 t) (iblk0 V c 1 t) (iblk0 V c 2 t) (iblk0 V c 3 t) (iblk0 V c 4 t) (ix2 p q)
    = msgArray0 (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb (ix2 p q))
  rw [hemb, msgArray0_apply, msgBlock0_apply]
  simp only [iblk0_0_apply V c t p _ ⟨t.val * 8000 + p.val, by omega⟩ rfl, iblk0_1_apply V c t p _ ⟨t.val * 8000 + p.val, by omega⟩ rfl,
    iblk0_2_apply, iblk0_3_apply, iblk0_4_apply]

/-! ### The blocks cover the array -/

/-- An index of the output array is in point `t`'s block iff each coordinate is in the block's range on its axis. -/
theorem mem_blk0 (t : Fin cfg0.N) (i : S800000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v18).slice (win0_5.rect t)).set ↔ _
  rw [View.set_slice_whole, Rect.mem_set_unit]
  exact Iff.rfl

/-- Row r lies in the block of point r / 8000, and every point writes its block back. -/
theorem cover0_out (i : S800000x128.Idx) : ∃ t : Fin cfg0.N, (cfg0.win 5).flush t = true ∧ i ∈ ((cfg0.win 5).blk t).view.set := by
  have hi0 : (i 0).val < 800000 := (i 0).isLt
  have hi1 : (i 1).val < 128 := (i 1).isLt
  let t : Fin cfg0.N := ⟨(i 0).val / 8000, by rw [show cfg0.N = 100 from N_0]; omega⟩
  obtain ⟨-, -, -, -, -, -, -, -, -, -, e0, e1⟩ := blockIndex0 t
  have htv : t.val = (i 0).val / 8000 := rfl
  refine ⟨t, flush0_5 t, ?_⟩
  rw [mem_blk0]
  intro a
  match a with
  | ⟨0, _⟩ => show win0_5.index t (0 : Fin 2) * 8000 ≤ (i 0).val ∧ (i 0).val < win0_5.index t (0 : Fin 2) * 8000 + 8000; rw [e0, htv]; omega
  | ⟨1, _⟩ => show win0_5.index t (1 : Fin 2) * 128 ≤ (i 1).val ∧ (i 1).val < win0_5.index t (1 : Fin 2) * 128 + 128; rw [e1]; omega

/-! ### The output array after the region -/

theorem final0 (c : Dev nD) : (dat0 (F := Ideal) V c).arrAt 5 cfg0.N
    = msgArray0 (V c (Pipeline.arrRef spec0 0)) (V c (Pipeline.arrRef spec0 1)) (V c (Pipeline.arrRef spec0 2))
        (V c (Pipeline.arrRef spec0 3)) (V c (Pipeline.arrRef spec0 4)) :=
  (dat0 (F := Ideal) V c).arrAt_eq_of_cover 5 _ (fun t _ => flushed0_eq V c t) (cover0_out)

end Cert.KernelIdeal.Hand
-- ==== Proof.Region1Value.lean ====
import proofs.«148009_j49555332661695_1_alg».proof.Proof.Region1
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)
open scoped BigOperators
variable (V : (c : Dev nD) → (b : Ref sig .tc) → Buf (Elt Ideal) ((c : Thread nD τ).loc b))

/-! # Region 1 at the ideal values: the accumulators read at a column

At the extended reals a column reduction is the sum over the rows, so after the last point the first accumulator
holds, at column `b`, the sum over all ten blocks and all their rows of the entry at column `b`; the second the same
sum of squares. -/

/-- The column reduction of a block at column `b`: the sum over its rows. -/
theorem colsum1_apply (x : FVec Ideal S10000x128 .f32) (hφ : FKind.Formats .f32)
    (hacc : (0x00000000#32 : BitVec 32) = FKind.add.neutral .f32 hφ) (b : Fin 128) :
    multiReduction .add [0] S128 x 0x00000000#32 reduces_S10000x128_S128 hφ hacc (ix1 b) = ∑ r : Fin 10000, x (ix2 r b) := by
  refine (Ideal.multiReduction_add_single x 0x00000000#32 reduces_S10000x128_S128 hφ hacc (ix1 b)).trans ?_
  refine Finset.sum_congr rfl fun r _ => congrArg x ?_
  funext a; fin_cases a <;> rfl

/-- The zero the accumulators start from. -/
theorem k1_pay1_apply (j : S1x128.Idx) : (k1_pay1 (F := Ideal)) j = 0 := by
  unfold k1_pay1
  rw [shapeCast_self]
  exact Ideal.ofBits_zero_f32
theorem k1_pay2_apply (j : S1x128.Idx) : (k1_pay2 (F := Ideal)) j = 0 := by
  unfold k1_pay2
  rw [shapeCast_self]
  exact Ideal.ofBits_zero_f32

/-- One step of the first accumulator at column `b`: what it held plus the block's column sum. -/
theorem k1_pay4_apply (x0 : Vec Ideal S10000x128 .f32) (xs0 : Vec Ideal S1x128 .f32) (b : Fin 128) :
    k1_pay4 x0 xs0 (ix2 (0 : Fin 1) b) = xs0 (ix2 (0 : Fin 1) b) + ∑ r : Fin 10000, x0 (ix2 r b) := by
  unfold k1_pay4 k1_pay3
  rw [shapeCast_self, shapeCast_self]
  refine (addf_apply _ _ _).trans ?_
  refine congrArg (xs0 (ix2 (0 : Fin 1) b) + ·) ?_
  refine (shapeCast_a_1a_apply _ _ (0 : Fin 1) b).trans ?_
  exact colsum1_apply x0 _ _ b

/-- One step of the second accumulator at column `b`: what it held plus the column sum of the block's squares. -/
theorem k1_pay5_apply (x0 : Vec Ideal S10000x128 .f32) (xs1 : Vec Ideal S1x128 .f32) (b : Fin 128) :
    k1_pay5 x0 xs1 (ix2 (0 : Fin 1) b) = xs1 (ix2 (0 : Fin 1) b) + ∑ r : Fin 10000, x0 (ix2 r b) * x0 (ix2 r b) := by
  unfold k1_pay5 k1_pay3
  rw [shapeCast_self, shapeCast_self]
  refine (addf_apply _ _ _).trans ?_
  refine congrArg (xs1 (ix2 (0 : Fin 1) b) + ·) ?_
  refine (shapeCast_a_1a_apply _ _ (0 : Fin 1) b).trans ?_
  exact colsum1_apply (mulf x0 x0) _ _ b

/-- The input block at position `n`, as a matrix. -/
abbrev blkAt1 (c : Dev nD) (n : ℕ) (hn : n < cfg1.N) : Vec Ideal S10000x128 .f32 := iblk1 V c 0 ⟨n, hn⟩

/-- The accumulators after position `n`, at column `b`: the sums over the blocks up to `n`. -/
theorem acc1_apply (c : Dev nD) (b : Fin 128) : ∀ (n : ℕ) (hn : n < cfg1.N),
    (acc1 V c n hn).1 (ix2 (0 : Fin 1) b)
        = ∑ t : Fin (n + 1), ∑ r : Fin 10000, blkAt1 V c t.val (lt_of_le_of_lt (Nat.lt_succ_iff.mp t.isLt) hn) (ix2 r b)
      ∧ (acc1 V c n hn).2 (ix2 (0 : Fin 1) b)
        = ∑ t : Fin (n + 1), ∑ r : Fin 10000, blkAt1 V c t.val (lt_of_le_of_lt (Nat.lt_succ_iff.mp t.isLt) hn) (ix2 r b)
            * blkAt1 V c t.val (lt_of_le_of_lt (Nat.lt_succ_iff.mp t.isLt) hn) (ix2 r b)
  | 0, hn => by
    constructor
    · show k1_pay4 (blkAt1 V c 0 hn) (k1_pay1 (F := Ideal)) (ix2 (0 : Fin 1) b) = _
      rw [k1_pay4_apply, k1_pay1_apply, zero_add, Fin.sum_univ_one]; rfl
    · show k1_pay5 (blkAt1 V c 0 hn) (k1_pay2 (F := Ideal)) (ix2 (0 : Fin 1) b) = _
      rw [k1_pay5_apply, k1_pay2_apply, zero_add, Fin.sum_univ_one]; rfl
  | n + 1, hn => by
    obtain ⟨ih1, ih2⟩ := acc1_apply c b n (Nat.lt_of_succ_lt hn)
    constructor
    · show k1_pay4 (blkAt1 V c (n + 1) hn) (acc1 V c n (Nat.lt_of_succ_lt hn)).1 (ix2 (0 : Fin 1) b) = _
      rw [k1_pay4_apply, ih1, Fin.sum_univ_castSucc (n := n + 1)]; rfl
    · show k1_pay5 (blkAt1 V c (n + 1) hn) (acc1 V c n (Nat.lt_of_succ_lt hn)).2 (ix2 (0 : Fin 1) b) = _
      rw [k1_pay5_apply, ih2, Fin.sum_univ_castSucc (n := n + 1)]; rfl

/-- After the last point the first accumulator holds, at column `b`, the sum of the entries of column `b` over all
    ten blocks and all their rows. -/
theorem acc1_last_apply (c : Dev nD) (h9 : 9 < cfg1.N) (b : Fin 128) :
    (acc1 V c 9 h9).1 (ix2 (0 : Fin 1) b)
      = ∑ t : Fin 10, ∑ r : Fin 10000, blkAt1 V c t.val (lt_of_lt_of_eq t.isLt N_1.symm) (ix2 r b) :=
  (acc1_apply V c b 9 h9).1

/-- And the second the same sum of the squared entries. -/
theorem acc1_last_apply_sq (c : Dev nD) (h9 : 9 < cfg1.N) (b : Fin 128) :
    (acc1 V c 9 h9).2 (ix2 (0 : Fin 1) b)
      = ∑ t : Fin 10, ∑ r : Fin 10000, blkAt1 V c t.val (lt_of_lt_of_eq t.isLt N_1.symm) (ix2 r b)
          * blkAt1 V c t.val (lt_of_lt_of_eq t.isLt N_1.symm) (ix2 r b) :=
  (acc1_apply V c b 9 h9).2

end Cert.KernelIdeal.Hand
end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.Region1Array.lean ====
import proofs.«148009_j49555332661695_1_alg».proof.Proof.Region1Value
import proofs.«148009_j49555332661695_1_alg».proof.Proof.LibBlockSum
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)
open scoped BigOperators
variable (V : (c : Dev nD) → (b : Ref sig .tc) → Buf (Elt Ideal) ((c : Thread nD τ).loc b))

/-! # Region 1 at the ideal values: the two output arrays, entry by entry

The two output arrays are written back once, whole, at the last point; so they end holding the accumulators after the
last point, which at column `b` are the sum (resp. the sum of squares) of column `b` of the input array over all its
100000 rows: the ten blocks of 10000 consecutive rows taken together. -/

/-- The input array as the region finds it, as a matrix. -/
abbrev xin1 (c : Dev nD) : Vec Ideal S100000x128 .f32 := V c (Pipeline.arrRef spec1 0)

/-- The input window's block index at point `t` is `(t, 0)`. -/
theorem idx1_in : ∀ t : Fin cfg1.N, win1_0.index t 0 = t.val ∧ win1_0.index t 1 = 0 :=
  (by decide +kernel : ∀ t : Fin grid1.N, win1_0.index t 0 = t.val ∧ win1_0.index t 1 = 0)

/-- Row `r` of the block at point `t` is row `10000 t + r` of the array. -/
theorem blkAt1_apply (c : Dev nD) (t : Fin cfg1.N) (r : Fin 10000) (b : Fin 128) (n : Fin 100000)
    (hn : n.val = 10000 * t.val + r.val) :
    (iblk1 V c 0 t : Vec Ideal S10000x128 .f32) (ix2 r b) = xin1 V c (ix2 n b) := by
  obtain ⟨hi0, hi1⟩ := idx1_in t
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t 0 * 10000 + 1 * r.val = n.val; rw [hi0, hn]; omega
  | ⟨1, _⟩ => show win1_0.index t 1 * 128 + 1 * b.val = b.val; rw [hi1]; omega

/-- The accumulators after the last point. -/
abbrev tot1_1 (c : Dev nD) : Vec Ideal S1x128 .f32 := (acc1 V c t1_9.val t1_9.isLt).1
abbrev tot1_2 (c : Dev nD) : Vec Ideal S1x128 .f32 := (acc1 V c t1_9.val t1_9.isLt).2

/-- The one write-back of window 1, at the last point, writes the whole array: its block is the array itself
    (block index zero on both axes), and what the body left is the first accumulator after the last point. -/
theorem flushed1_1_eq (c : Dev nD) (t : Fin cfg1.N) (hf : (cfg1.win 1).flush t = true) :
    (dat1 V c).flushed 1 t = ((cfg1.win 1).blk t).view.read (Elt Ideal) (tot1_1 V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1]
  have hz' : (fun a => win1_1.index t1_9 a * main_v22_0.ty.shape.size a) = fun _ => 0 := funext fun a => by fin_cases a <;> decide +kernel
  exact (Memref.read_access_unit_zero (Elt Ideal) main_v22_0 hz' (fun a => by rw [congrFun hz' a]; simp) (tot1_1 V c)).symm

/-- So output array 1 ends holding the first accumulator after the last point: the last point's block covers it. -/
theorem arr1_1_eq (c : Dev nD) : (dat1 V c).arrAt 1 cfg1.N = tot1_1 V c :=
  (dat1 V c).arrAt_eq_of_cover 1 (tot1_1 V c) (flushed1_1_eq V c) fun i =>
    ⟨t1_9, (flush1_1 t1_9).mpr (by decide), by
      show i ∈ ((View.whole main_v22_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩

/-- The one write-back of window 2, at the last point, writes the whole array: its block is the array itself
    (block index zero on both axes), and what the body left is the second accumulator after the last point. -/
theorem flushed1_2_eq (c : Dev nD) (t : Fin cfg1.N) (hf : (cfg1.win 2).flush t = true) :
    (dat1 V c).flushed 2 t = ((cfg1.win 2).blk t).view.read (Elt Ideal) (tot1_2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v22_1.ty.shape.size a) = fun _ => 0 := funext fun a => by fin_cases a <;> decide +kernel
  exact (Memref.read_access_unit_zero (Elt Ideal) main_v22_1 hz' (fun a => by rw [congrFun hz' a]; simp) (tot1_2 V c)).symm

/-- So output array 2 ends holding the second accumulator after the last point: the last point's block covers it. -/
theorem arr1_2_eq (c : Dev nD) : (dat1 V c).arrAt 2 cfg1.N = tot1_2 V c :=
  (dat1 V c).arrAt_eq_of_cover 2 (tot1_2 V c) (flushed1_2_eq V c) fun i =>
    ⟨t1_9, (flush1_2 t1_9).mpr (by decide), by
      show i ∈ ((View.whole main_v22_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- Ten blocks of 10000 rows are the 100000 rows. -/
theorem rows1_sum (c : Dev nD) (b : Fin 128) (g : EReal → EReal) :
    ∑ t : Fin 10, ∑ r : Fin 10000, g (blkAt1 V c t.val (lt_of_lt_of_eq t.isLt N_1.symm) (ix2 r b))
      = ∑ n : Fin 100000, g (xin1 V c (ix2 n b)) := by
  refine Eq.trans ?_ (Cert.LibBlockSum.sum_blocks 10 10000 (fun n : Fin (10 * 10000) => g (xin1 V c (ix2 (n : Fin 100000) b))))
  refine Finset.sum_congr rfl fun t _ => Finset.sum_congr rfl fun r _ => congrArg g ?_
  exact blkAt1_apply V c ⟨t.val, lt_of_lt_of_eq t.isLt N_1.symm⟩ r b _ rfl

/-- THE FIRST OUTPUT ARRAY after the region, at column `b`: the sum of column `b` of the input array over all rows. -/
theorem final1_sum (c : Dev nD) (u : Fin 1) (b : Fin 128) :
    ((dat1 V c).arrAt 1 cfg1.N : Vec Ideal S1x128 .f32) (ix2 u b) = ∑ n : Fin 100000, xin1 V c (ix2 n b) := by
  obtain rfl : u = 0 := Subsingleton.elim _ _
  rw [arr1_1_eq]
  exact (acc1_last_apply V c t1_9.isLt b).trans (rows1_sum V c b id)

/-- THE SECOND OUTPUT ARRAY after the region, at column `b`: the sum of the squares of column `b` over all rows. -/
theorem final1_sq (c : Dev nD) (u : Fin 1) (b : Fin 128) :
    ((dat1 V c).arrAt 2 cfg1.N : Vec Ideal S1x128 .f32) (ix2 u b)
      = ∑ n : Fin 100000, xin1 V c (ix2 n b) * xin1 V c (ix2 n b) := by
  obtain rfl : u = 0 := Subsingleton.elim _ _
  rw [arr1_2_eq]
  exact (acc1_last_apply_sq V c t1_9.isLt b).trans (rows1_sum V c b (fun y => y * y))

end Cert.KernelIdeal.Hand
end
-- ==== Proof.Region2Value.lean ====
import proofs.«148009_j49555332661695_1_alg».proof.Proof.Region2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! # Region 2's output block at the extended reals, element by element -/

/-- The two offsets of a whole-block rectangle are zero. -/
theorem zeros2 : (![0, 0] : Fin 2 → Nat) = fun _ => 0 := funext fun a => by fin_cases a <;> rfl

/-- A row spread down the block reads, at row `a` and column `b`, the row's element at column `b`. -/
theorem spread2_apply (r : Vec Ideal S1x128 .f32) (a : Fin 10000) (b : Fin 128) :
    broadcastTo S10000x128 r broadcasts_S1x128_S10000x128 (ix2 a b) = r (ix2 0 b) :=
  broadcastTo_apply r broadcasts_S1x128_S10000x128 (ix2 a b) (ix2 0 b) (fun d => match d with
    | ⟨0, _⟩ => rfl
    | ⟨1, _⟩ => rfl)

/-- At row `a`, column `b` the block holds the larger of zero and: the datum less the column's mean, times the
    reciprocal root of the column's variance plus the constant, times the column's scale, plus the column's shift. -/
theorem bnBlock2_apply (x0 : Vec Ideal S10000x128 .f32) (x1 x2 x3 x4 : Vec Ideal S1x128 .f32) (a : Fin 10000) (b : Fin 128) :
    bnBlock2 (F := Ideal) x0 x1 x2 x3 x4 (ix2 a b)
      = max (((x0 (ix2 a b) - x1 (ix2 0 b)) * Ideal.rsqrt (x2 (ix2 0 b) + Ideal.ofBits .f32 0x3727C5AC#32)) * x3 (ix2 0 b)
          + x4 (ix2 0 b)) 0 := by
  unfold bnBlock2
  rw [View.canon_unit_zero zeros2, View.ld_unit_zero (S := S10000x128) zeros2, View.ld_unit_zero (S := S1x128) zeros2,
    View.ld_unit_zero (S := S1x128) zeros2, View.ld_unit_zero (S := S1x128) zeros2, View.ld_unit_zero (S := S1x128) zeros2]
  unfold k2_pay1
  simp only [shapeCast_self]
  rw [maximumf_apply, addf_apply, mulf_apply, mulf_apply, subf_apply, spread2_apply, spread2_apply, spread2_apply,
    spread2_apply, broadcast_apply]
  show max (((x0 (ix2 a b) - x1 (ix2 0 b)) * Ideal.rsqrt (x2 (ix2 0 b) + Ideal.ofBits .f32 0x3727C5AC#32)) * x3 (ix2 0 b)
          + x4 (ix2 0 b)) (Ideal.ofBits .f32 0x00000000#32) = _
  rw [Ideal.ofBits_zero_f32]

end Cert.KernelIdeal.Hand
-- ==== Proof.Region2Array.lean ====
import proofs.«148009_j49555332661695_1_alg».proof.Proof.Region2Value
import proofs.«148009_j49555332661695_1_alg».proof.Proof.LayerDefs
import Idealize.ShloMosaic.Lib.Pipeline.Value

/-! Region 2 at the extended reals, from blocks to the array. Grid point `t` handles rows 10000·t … 10000·t + 9999: its
    blocks of the data array and of the output array are those rows, and the four rows (mean, variance, scale, shift)
    are read whole at every point. So what point `t` writes back is block `t` of one function of the whole arrays —
    entry (r, q) is the larger of zero and (x[r,q] − mean[q])·rsqrt(var[q] + ε)·scale[q] + shift[q] — and since row r
    lies in block r / 10000, the ten blocks cover the output array, which ends holding that function. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The normalised array at row `r`, column `q`. -/
theorem kerNorm2_apply (x : FVec Ideal S100000x128 .f32) (mean var g be : FVec Ideal S1x128 .f32) (r : Fin 100000) (q : Fin 128) :
    Cert.Proof.Layer.kerNorm x mean var g be (ix2 r q)
      = max (((x (ix2 r q) - mean (ix2 (0 : Fin 1) q)) * Ideal.rsqrt (var (ix2 (0 : Fin 1) q) + Ideal.ofBits .f32 0x3727C5AC#32))
          * g (ix2 (0 : Fin 1) q) + be (ix2 (0 : Fin 1) q)) 0 := rfl

/-- Where the windows' blocks sit, decided over the grid: at point `t` the data window and the output window are at
    block row `t`, block column 0; the four row windows are at block (0, 0). -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ### The input blocks, entry by entry, as entries of the arrays -/

theorem iblk2_0_apply (c : Dev nD) (t : Fin cfg2.N) (p : Fin 10000) (k : Fin 128) (r : Fin 100000) (hr : r.val = t.val * 10000 + p.val) :
    (iblk2 V c 0 t : Vec Ideal S10000x128 .f32) (ix2 p k) = (V c (Pipeline.arrRef spec2 0) : Vec Ideal S100000x128 .f32) (ix2 r k) := by
  obtain ⟨e0, e1, -⟩ := blockIndex2 t
  show V c (Pipeline.arrRef spec2 0) (((cfg2.win 0).blk t).view.emb (ix2 p k)) = V c (Pipeline.arrRef spec2 0) (ix2 r k)
  refine congrArg (V c (Pipeline.arrRef spec2 0)) (funext fun a => Fin.ext ?_)
  match a with
  | ⟨0, _⟩ => show win2_0.index t (0 : Fin 2) * 10000 + 1 * p.val = r.val; rw [e0, hr]; omega
  | ⟨1, _⟩ => show win2_0.index t (1 : Fin 2) * 128 + 1 * k.val = k.val; rw [e1]; omega

theorem iblk2_1_apply (c : Dev nD) (t : Fin cfg2.N) (z : Fin 1) (q : Fin 128) :
    (iblk2 V c 1 t : Vec Ideal S1x128 .f32) (ix2 z q) = (V c (Pipeline.arrRef spec2 1) : Vec Ideal S1x128 .f32) (ix2 z q) := by
  obtain ⟨-, -, e0, e1, -⟩ := blockIndex2 t
  show V c (Pipeline.arrRef spec2 1) (((cfg2.win 1).blk t).view.emb (ix2 z q)) = V c (Pipeline.arrRef spec2 1) (ix2 z q)
  refine congrArg (V c (Pipeline.arrRef spec2 1)) (funext fun a => Fin.ext ?_)
  match a with
  | ⟨0, _⟩ => show win2_1.index t (0 : Fin 2) * 1 + 1 * z.val = z.val; rw [e0]; omega
  | ⟨1, _⟩ => show win2_1.index t (1 : Fin 2) * 128 + 1 * q.val = q.val; rw [e1]; omega

theorem iblk2_2_apply (c : Dev nD) (t : Fin cfg2.N) (z : Fin 1) (q : Fin 128) :
    (iblk2 V c 2 t : Vec Ideal S1x128 .f32) (ix2 z q) = (V c (Pipeline.arrRef spec2 2) : Vec Ideal S1x128 .f32) (ix2 z q) := by
  obtain ⟨-, -, -, -, e0, e1, -⟩ := blockIndex2 t
  show V c (Pipeline.arrRef spec2 2) (((cfg2.win 2).blk t).view.emb (ix2 z q)) = V c (Pipeline.arrRef spec2 2) (ix2 z q)
  refine congrArg (V c (Pipeline.arrRef spec2 2)) (funext fun a => Fin.ext ?_)
  match a with
  | ⟨0, _⟩ => show win2_2.index t (0 : Fin 2) * 1 + 1 * z.val = z.val; rw [e0]; omega
  | ⟨1, _⟩ => show win2_2.index t (1 : Fin 2) * 128 + 1 * q.val = q.val; rw [e1]; omega

theorem iblk2_3_apply (c : Dev nD) (t : Fin cfg2.N) (z : Fin 1) (q : Fin 128) :
    (iblk2 V c 3 t : Vec Ideal S1x128 .f32) (ix2 z q) = (V c (Pipeline.arrRef spec2 3) : Vec Ideal S1x128 .f32) (ix2 z q) := by
  obtain ⟨-, -, -, -, -, -, e0, e1, -⟩ := blockIndex2 t
  show V c (Pipeline.arrRef spec2 3) (((cfg2.win 3).blk t).view.emb (ix2 z q)) = V c (Pipeline.arrRef spec2 3) (ix2 z q)
  refine congrArg (V c (Pipeline.arrRef spec2 3)) (funext fun a => Fin.ext ?_)
  match a with
  | ⟨0, _⟩ => show win2_3.index t (0 : Fin 2) * 1 + 1 * z.val = z.val; rw [e0]; omega
  | ⟨1, _⟩ => show win2_3.index t (1 : Fin 2) * 128 + 1 * q.val = q.val; rw [e1]; omega

theorem iblk2_4_apply (c : Dev nD) (t : Fin cfg2.N) (z : Fin 1) (q : Fin 128) :
    (iblk2 V c 4 t : Vec Ideal S1x128 .f32) (ix2 z q) = (V c (Pipeline.arrRef spec2 4) : Vec Ideal S1x128 .f32) (ix2 z q) := by
  obtain ⟨-, -, -, -, -, -, -, -, e0, e1, -⟩ := blockIndex2 t
  show V c (Pipeline.arrRef spec2 4) (((cfg2.win 4).blk t).view.emb (ix2 z q)) = V c (Pipeline.arrRef spec2 4) (ix2 z q)
  refine congrArg (V c (Pipeline.arrRef spec2 4)) (funext fun a => Fin.ext ?_)
  match a with
  | ⟨0, _⟩ => show win2_4.index t (0 : Fin 2) * 1 + 1 * z.val = z.val; rw [e0]; omega
  | ⟨1, _⟩ => show win2_4.index t (1 : Fin 2) * 128 + 1 * q.val = q.val; rw [e1]; omega

/-! ### What a point writes back -/

/-- Point `t` writes back block `t` of the normalised array of the arrays as the region finds them. -/
theorem flushed2_eq (c : Dev nD) (t : Fin cfg2.N) :
    (dat2 (F := Ideal) V c).flushed 5 t = ((cfg2.win 5).blk t).view.read (Elt Ideal)
      (Cert.Proof.Layer.kerNorm (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 (F := Ideal) V c).after 5 t) = _
  rw [after2_5]
  obtain ⟨-, -, -, -, -, -, -, -, -, -, e0, e1⟩ := blockIndex2 t
  have ht : t.val < 10 := Nat.lt_of_lt_of_eq t.isLt (show cfg2.N = 10 from N_2)
  funext j
  obtain ⟨p, q, rfl⟩ : ∃ (p : Fin 10000) (q : Fin 128), j = ix2 p q := ⟨j 0, j 1, eq_ix2 j⟩
  have hp : p.val < 10000 := p.isLt
  have hemb : ((cfg2.win 5).blk t).view.emb (ix2 p q) = (ix2 (⟨t.val * 10000 + p.val, by omega⟩ : Fin 100000) q : S100000x128.Idx) := by
    funext a; apply Fin.ext
    match a with
    | ⟨0, _⟩ => show win2_5.index t (0 : Fin 2) * 10000 + 1 * p.val = t.val * 10000 + p.val; rw [e0]; omega
    | ⟨1, _⟩ => show win2_5.index t (1 : Fin 2) * 128 + 1 * q.val = q.val; rw [e1]; omega
  show bnBlock2 (F := Ideal) (iblk2 V c 0 t) (iblk2 V c 1 t) (iblk2 V c 2 t) (iblk2 V c 3 t) (iblk2 V c 4 t) (ix2 p q)
    = Cert.Proof.Layer.kerNorm (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb (ix2 p q))
  rw [hemb, kerNorm2_apply, bnBlock2_apply]
  simp only [iblk2_0_apply V c t p _ ⟨t.val * 10000 + p.val, by omega⟩ rfl, iblk2_1_apply, iblk2_2_apply, iblk2_3_apply, iblk2_4_apply]

/-! ### The blocks cover the array -/

/-- An index of the output array is in point `t`'s block iff each coordinate is in the block's range on its axis. -/
theorem mem_blk2 (t : Fin cfg2.N) (i : S100000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v35).slice (win2_5.rect t)).set ↔ _
  rw [View.set_slice_whole, Rect.mem_set_unit]
  exact Iff.rfl

/-- Row r lies in the block of point r / 10000, and every point writes its block back. -/
theorem cover2_out (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := ⟨(i 0).val / 10000, by rw [show cfg2.N = 10 from N_2]; omega⟩
  obtain ⟨-, -, -, -, -, -, -, -, -, -, e0, e1⟩ := blockIndex2 t
  have htv : t.val = (i 0).val / 10000 := rfl
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; rw [e0, htv]; omega
  | ⟨1, _⟩ => show win2_5.index t (1 : Fin 2) * 128 ≤ (i 1).val ∧ (i 1).val < win2_5.index t (1 : Fin 2) * 128 + 128; rw [e1]; omega

/-! ### The output array after the region -/

theorem final2 (c : Dev nD) : (dat2 (F := Ideal) V c).arrAt 5 cfg2.N
    = Cert.Proof.Layer.kerNorm (V c (Pipeline.arrRef spec2 0)) (V c (Pipeline.arrRef spec2 1)) (V c (Pipeline.arrRef spec2 2))
        (V c (Pipeline.arrRef spec2 3)) (V c (Pipeline.arrRef spec2 4)) :=
  (dat2 (F := Ideal) V c).arrAt_eq_of_cover 5 _ (fun t _ => flushed2_eq V c t) (cover2_out)

end Cert.KernelIdeal.Hand
-- ==== Proof.Region3Value.lean ====
import proofs.«148009_j49555332661695_1_alg».proof.Proof.Region3
import Idealize.ShloMosaic.Lib.ValueIdx
import Idealize.ShloMosaic.Lib.Pipeline.Value
import Idealize.ShloMosaic.PureOps.Ideal.Laws

/-! Region 3 at the ideal values: the output block of the edge-message kernel, entry by entry. With no rounding,
    entry (a, b) of the block is  Σₖ x0[a,k]·x2[k,b] + Σₖ x1[a,k]·x3[k,b] + x4[0,b]:  the two products into a zero
    accumulator are plain sums over the contracted axis, narrowing to bf16 is the identity on extended reals, and the
    bias row is repeated down the rows. -/

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- The offsets of a whole rank-2 block are zero on both axes. -/
theorem zeroOffsets3 : (![0, 0] : Fin 2 → Nat) = fun _ => 0 := funext fun a => by fin_cases a <;> rfl

/-- The single store is laid over the whole block and every load reads a whole block, so the output block is the
    message value of the five input blocks themselves (in any float model). -/
theorem msgBlock3_eq_pay {F : FTy → Type} [FloatOps F] (x0 : Vec F S8000x128 .f32) (x1 : Vec F S8000x16 .f32) (x2 : Vec F S128x128 .f32)
    (x3 : Vec F S16x128 .f32) (x4 : Vec F S1x128 .f32) : msgBlock3 x0 x1 x2 x3 x4 = k3_pay1 x0 x1 x2 x3 x4 := by
  unfold msgBlock3
  rw [View.canon_unit_zero zeroOffsets3, View.ld_unit_zero zeroOffsets3, View.ld_unit_zero zeroOffsets3, View.ld_unit_zero zeroOffsets3,
    View.ld_unit_zero zeroOffsets3, View.ld_unit_zero zeroOffsets3]

/-! ### The 8000×128 by 128×128 product -/

/-- The left operand's row coordinate is the output's row. -/
theorem dotA3_lhs_row (i : S8000x128.Idx) (q : (dot_S8000x128_S128x128_S8000x128_1_0_0_1_n_n).contr.Idx) :
    ((dot_S8000x128_S128x128_S8000x128_1_0_0_1_n_n).lhsIdx i q 0).val = (i 0).val := by
  unfold DotDims.lhsIdx
  rw [dif_neg (show ¬(0 : Fin S8000x128.rank) ∈ (dot_S8000x128_S128x128_S8000x128_1_0_0_1_n_n).lhsBatch by decide),
    dif_pos (show (0 : Fin S8000x128.rank) ∈ (dot_S8000x128_S128x128_S8000x128_1_0_0_1_n_n).lhsNonContracting by decide)]
  rfl

/-- The right operand's column coordinate is the output's column. -/
theorem dotA3_rhs_col (i : S8000x128.Idx) (q : (dot_S8000x128_S128x128_S8000x128_1_0_0_1_n_n).contr.Idx) :
    ((dot_S8000x128_S128x128_S8000x128_1_0_0_1_n_n).rhsIdx i q 1).val = (i 1).val := by
  unfold DotDims.rhsIdx
  rw [dif_neg (show ¬(1 : Fin S128x128.rank) ∈ (dot_S8000x128_S128x128_S8000x128_1_0_0_1_n_n).rhsBatch by decide),
    dif_pos (show (1 : Fin S128x128.rank) ∈ (dot_S8000x128_S128x128_S8000x128_1_0_0_1_n_n).rhsNonContracting by decide)]
  rfl

/-- Into a zero accumulator, the product at (a, b) is the sum over the 128 contracted positions. -/
theorem matmulA3_apply {φ₁ φ₂ : FTy} (A : FVec Ideal S8000x128 φ₁) (B : FVec Ideal S128x128 φ₂) (a : Fin 8000) (b : Fin 128) :
    matmul (dot_S8000x128_S128x128_S8000x128_1_0_0_1_n_n) none A B (constant (F := Ideal) S8000x128 .f32 0x00000000#32) (ix2 a b)
      = ∑ k : Fin 128, A (ix2 a k) * B (ix2 k b) := by
  simp only [matmul]
  rw [Ideal.matmul_constant_zero_apply, ← Equiv.sum_comp (contrEquiv1 (dot_S8000x128_S128x128_S8000x128_1_0_0_1_n_n) 128 rfl rfl).symm]
  refine Finset.sum_congr rfl fun k _ => ?_
  have hk := contrEquiv1_symm_val (dot_S8000x128_S128x128_S8000x128_1_0_0_1_n_n) 128 rfl rfl k
  have el : (dot_S8000x128_S128x128_S8000x128_1_0_0_1_n_n).lhsIdx (ix2 a b) ((contrEquiv1 (dot_S8000x128_S128x128_S8000x128_1_0_0_1_n_n) 128 rfl rfl).symm k) = ix2 a k :=
    funext fun e => Fin.ext (by
      match e with
      | ⟨0, _⟩ => exact dotA3_lhs_row _ _
      | ⟨1, _⟩ => exact ((dot_S8000x128_S128x128_S8000x128_1_0_0_1_n_n).lhsIdx_val_of_single rfl _ _).trans hk)
  have er : (dot_S8000x128_S128x128_S8000x128_1_0_0_1_n_n).rhsIdx (ix2 a b) ((contrEquiv1 (dot_S8000x128_S128x128_S8000x128_1_0_0_1_n_n) 128 rfl rfl).symm k) = ix2 k b :=
    funext fun e => Fin.ext (by
      match e with
      | ⟨0, _⟩ => exact ((dot_S8000x128_S128x128_S8000x128_1_0_0_1_n_n).rhsIdx_val_of_single rfl _ _).trans hk
      | ⟨1, _⟩ => exact dotA3_rhs_col _ _)
  rw [el, er]

/-! ### The 8000×16 by 16×128 product -/

theorem dotB3_lhs_row (i : S8000x128.Idx) (q : (dot_S8000x16_S16x128_S8000x128_1_0_0_1_n_n).contr.Idx) :
    ((dot_S8000x16_S16x128_S8000x128_1_0_0_1_n_n).lhsIdx i q 0).val = (i 0).val := by
  unfold DotDims.lhsIdx
  rw [dif_neg (show ¬(0 : Fin S8000x16.rank) ∈ (dot_S8000x16_S16x128_S8000x128_1_0_0_1_n_n).lhsBatch by decide),
    dif_pos (show (0 : Fin S8000x16.rank) ∈ (dot_S8000x16_S16x128_S8000x128_1_0_0_1_n_n).lhsNonContracting by decide)]
  rfl

theorem dotB3_rhs_col (i : S8000x128.Idx) (q : (dot_S8000x16_S16x128_S8000x128_1_0_0_1_n_n).contr.Idx) :
    ((dot_S8000x16_S16x128_S8000x128_1_0_0_1_n_n).rhsIdx i q 1).val = (i 1).val := by
  unfold DotDims.rhsIdx
  rw [dif_neg (show ¬(1 : Fin S16x128.rank) ∈ (dot_S8000x16_S16x128_S8000x128_1_0_0_1_n_n).rhsBatch by decide),
    dif_pos (show (1 : Fin S16x128.rank) ∈ (dot_S8000x16_S16x128_S8000x128_1_0_0_1_n_n).rhsNonContracting by decide)]
  rfl

/-- Into a zero accumulator, the product at (a, b) is the sum over the 16 contracted positions. -/
theorem matmulB3_apply {φ₁ φ₂ : FTy} (A : FVec Ideal S8000x16 φ₁) (B : FVec Ideal S16x128 φ₂) (a : Fin 8000) (b : Fin 128) :
    matmul (dot_S8000x16_S16x128_S8000x128_1_0_0_1_n_n) none A B (constant (F := Ideal) S8000x128 .f32 0x00000000#32) (ix2 a b)
      = ∑ k : Fin 16, A (ix2 a k) * B (ix2 k b) := by
  simp only [matmul]
  rw [Ideal.matmul_constant_zero_apply, ← Equiv.sum_comp (contrEquiv1 (dot_S8000x16_S16x128_S8000x128_1_0_0_1_n_n) 16 rfl rfl).symm]
  refine Finset.sum_congr rfl fun k _ => ?_
  have hk := contrEquiv1_symm_val (dot_S8000x16_S16x128_S8000x128_1_0_0_1_n_n) 16 rfl rfl k
  have el : (dot_S8000x16_S16x128_S8000x128_1_0_0_1_n_n).lhsIdx (ix2 a b) ((contrEquiv1 (dot_S8000x16_S16x128_S8000x128_1_0_0_1_n_n) 16 rfl rfl).symm k) = ix2 a k :=
    funext fun e => Fin.ext (by
      match e with
      | ⟨0, _⟩ => exact dotB3_lhs_row _ _
      | ⟨1, _⟩ => exact ((dot_S8000x16_S16x128_S8000x128_1_0_0_1_n_n).lhsIdx_val_of_single rfl _ _).trans hk)
  have er : (dot_S8000x16_S16x128_S8000x128_1_0_0_1_n_n).rhsIdx (ix2 a b) ((contrEquiv1 (dot_S8000x16_S16x128_S8000x128_1_0_0_1_n_n) 16 rfl rfl).symm k) = ix2 k b :=
    funext fun e => Fin.ext (by
      match e with
      | ⟨0, _⟩ => exact ((dot_S8000x16_S16x128_S8000x128_1_0_0_1_n_n).rhsIdx_val_of_single rfl _ _).trans hk
      | ⟨1, _⟩ => exact dotB3_rhs_col _ _)
  rw [el, er]

/-! ### The bias row repeated down the rows -/

theorem biasRows3_apply {α : Type} (v : S1x128.Idx → α) (a : Fin 8000) (b : Fin 128) :
    broadcastTo S8000x128 v broadcasts_S1x128_S8000x128 (ix2 a b) = v (ix2 (0 : Fin 1) b) :=
  broadcastTo_apply v broadcasts_S1x128_S8000x128 (ix2 a b) (ix2 (0 : Fin 1) b) (fun e => by
    match e with
    | ⟨0, _⟩ => rfl
    | ⟨1, _⟩ => rfl)

/-! ### The block, entry by entry -/

theorem msgBlock3_apply (x0 : Vec Ideal S8000x128 .f32) (x1 : Vec Ideal S8000x16 .f32) (x2 : Vec Ideal S128x128 .f32)
    (x3 : Vec Ideal S16x128 .f32) (x4 : Vec Ideal S1x128 .f32) (a : Fin 8000) (b : Fin 128) :
    msgBlock3 (F := Ideal) x0 x1 x2 x3 x4 (ValueIdx.ix2 a b)
      = (∑ k : Fin 128, x0 (ValueIdx.ix2 a k) * x2 (ValueIdx.ix2 k b)) + (∑ k : Fin 16, x1 (ValueIdx.ix2 a k) * x3 (ValueIdx.ix2 k b))
        + x4 (ValueIdx.ix2 (0 : Fin 1) b) := by
  rw [msgBlock3_eq_pay]
  unfold k3_pay1
  simp only [shapeCast_self]
  rw [addf_apply, addf_apply, matmulA3_apply, matmulB3_apply, biasRows3_apply]
  simp only [truncf_apply]

end Cert.KernelIdeal.Hand
-- ==== Proof.Region3Array.lean ====
import proofs.«148009_j49555332661695_1_alg».proof.Proof.Region3Value
import Idealize.ShloMosaic.Lib.Pipeline.Value

/-! Region 3 at the ideal values, from blocks to the array. The grid's point `t` handles rows 8000·t … 8000·t + 7999:
    its blocks of the two row-indexed inputs and of the output are those rows, and the two weight matrices and the bias
    row are read whole at every point. So what point `t` writes back is block `t` of ONE function of the whole input
    arrays — entry (r, b) is  Σₖ h[r,k]·wx[k,b] + Σₖ ea[r,k]·we[k,b] + bias[0,b] — and since row r lies in block
    r / 8000, the 100 blocks cover the output array, which therefore ends holding that function. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The message array as one function of the whole input arrays: row r, column b holds
    Σₖ h[r,k]·wx[k,b] + Σₖ ea[r,k]·we[k,b] + bias[0,b]. -/
def msgArray3 (h : Vec Ideal S800000x128 .f32) (ea : Vec Ideal S800000x16 .f32) (wx : Vec Ideal S128x128 .f32) (we : Vec Ideal S16x128 .f32)
    (b : Vec Ideal S1x128 .f32) : Vec Ideal S800000x128 .f32 :=
  fun i => (∑ k : Fin 128, h (ix2 (i 0) k) * wx (ix2 k (i 1))) + (∑ k : Fin 16, ea (ix2 (i 0) k) * we (ix2 k (i 1))) + b (ix2 (0 : Fin 1) (i 1))

theorem msgArray3_apply (h : Vec Ideal S800000x128 .f32) (ea : Vec Ideal S800000x16 .f32) (wx : Vec Ideal S128x128 .f32) (we : Vec Ideal S16x128 .f32)
    (b : Vec Ideal S1x128 .f32) (r : Fin 800000) (q : Fin 128) :
    msgArray3 h ea wx we b (ix2 r q)
      = (∑ k : Fin 128, h (ix2 r k) * wx (ix2 k q)) + (∑ k : Fin 16, ea (ix2 r k) * we (ix2 k q)) + b (ix2 (0 : Fin 1) q) := rfl

/-- Where the windows' blocks sit, decided over the grid: at point `t` the row-indexed windows (0, 1 and the output 5) are at
    block row `t`, block column 0; the weights and the bias are at block (0, 0). -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ### The input blocks, entry by entry, as entries of the arrays -/

theorem iblk3_0_apply (c : Dev nD) (t : Fin cfg3.N) (p : Fin 8000) (k : Fin 128) (r : Fin 800000) (hr : r.val = t.val * 8000 + p.val) :
    (iblk3 V c 0 t : Vec Ideal S8000x128 .f32) (ix2 p k) = (V c (Pipeline.arrRef spec3 0) : Vec Ideal S800000x128 .f32) (ix2 r k) := by
  obtain ⟨e0, e1, -⟩ := blockIndex3 t
  show V c (Pipeline.arrRef spec3 0) (((cfg3.win 0).blk t).view.emb (ix2 p k)) = V c (Pipeline.arrRef spec3 0) (ix2 r k)
  refine congrArg (V c (Pipeline.arrRef spec3 0)) (funext fun a => Fin.ext ?_)
  match a with
  | ⟨0, _⟩ => show win3_0.index t (0 : Fin 2) * 8000 + 1 * p.val = r.val; rw [e0, hr]; omega
  | ⟨1, _⟩ => show win3_0.index t (1 : Fin 2) * 128 + 1 * k.val = k.val; rw [e1]; omega

theorem iblk3_1_apply (c : Dev nD) (t : Fin cfg3.N) (p : Fin 8000) (k : Fin 16) (r : Fin 800000) (hr : r.val = t.val * 8000 + p.val) :
    (iblk3 V c 1 t : Vec Ideal S8000x16 .f32) (ix2 p k) = (V c (Pipeline.arrRef spec3 1) : Vec Ideal S800000x16 .f32) (ix2 r k) := by
  obtain ⟨-, -, e0, e1, -⟩ := blockIndex3 t
  show V c (Pipeline.arrRef spec3 1) (((cfg3.win 1).blk t).view.emb (ix2 p k)) = V c (Pipeline.arrRef spec3 1) (ix2 r k)
  refine congrArg (V c (Pipeline.arrRef spec3 1)) (funext fun a => Fin.ext ?_)
  match a with
  | ⟨0, _⟩ => show win3_1.index t (0 : Fin 2) * 8000 + 1 * p.val = r.val; rw [e0, hr]; omega
  | ⟨1, _⟩ => show win3_1.index t (1 : Fin 2) * 16 + 1 * k.val = k.val; rw [e1]; omega

theorem iblk3_2_apply (c : Dev nD) (t : Fin cfg3.N) (k : Fin 128) (q : Fin 128) :
    (iblk3 V c 2 t : Vec Ideal S128x128 .f32) (ix2 k q) = (V c (Pipeline.arrRef spec3 2) : Vec Ideal S128x128 .f32) (ix2 k q) := by
  obtain ⟨-, -, -, -, e0, e1, -⟩ := blockIndex3 t
  show V c (Pipeline.arrRef spec3 2) (((cfg3.win 2).blk t).view.emb (ix2 k q)) = V c (Pipeline.arrRef spec3 2) (ix2 k q)
  refine congrArg (V c (Pipeline.arrRef spec3 2)) (funext fun a => Fin.ext ?_)
  match a with
  | ⟨0, _⟩ => show win3_2.index t (0 : Fin 2) * 128 + 1 * k.val = k.val; rw [e0]; omega
  | ⟨1, _⟩ => show win3_2.index t (1 : Fin 2) * 128 + 1 * q.val = q.val; rw [e1]; omega

theorem iblk3_3_apply (c : Dev nD) (t : Fin cfg3.N) (k : Fin 16) (q : Fin 128) :
    (iblk3 V c 3 t : Vec Ideal S16x128 .f32) (ix2 k q) = (V c (Pipeline.arrRef spec3 3) : Vec Ideal S16x128 .f32) (ix2 k q) := by
  obtain ⟨-, -, -, -, -, -, e0, e1, -⟩ := blockIndex3 t
  show V c (Pipeline.arrRef spec3 3) (((cfg3.win 3).blk t).view.emb (ix2 k q)) = V c (Pipeline.arrRef spec3 3) (ix2 k q)
  refine congrArg (V c (Pipeline.arrRef spec3 3)) (funext fun a => Fin.ext ?_)
  match a with
  | ⟨0, _⟩ => show win3_3.index t (0 : Fin 2) * 16 + 1 * k.val = k.val; rw [e0]; omega
  | ⟨1, _⟩ => show win3_3.index t (1 : Fin 2) * 128 + 1 * q.val = q.val; rw [e1]; omega

theorem iblk3_4_apply (c : Dev nD) (t : Fin cfg3.N) (z : Fin 1) (q : Fin 128) :
    (iblk3 V c 4 t : Vec Ideal S1x128 .f32) (ix2 z q) = (V c (Pipeline.arrRef spec3 4) : Vec Ideal S1x128 .f32) (ix2 z q) := by
  obtain ⟨-, -, -, -, -, -, -, -, e0, e1, -⟩ := blockIndex3 t
  show V c (Pipeline.arrRef spec3 4) (((cfg3.win 4).blk t).view.emb (ix2 z q)) = V c (Pipeline.arrRef spec3 4) (ix2 z q)
  refine congrArg (V c (Pipeline.arrRef spec3 4)) (funext fun a => Fin.ext ?_)
  match a with
  | ⟨0, _⟩ => show win3_4.index t (0 : Fin 2) * 1 + 1 * z.val = z.val; rw [e0]; omega
  | ⟨1, _⟩ => show win3_4.index t (1 : Fin 2) * 128 + 1 * q.val = q.val; rw [e1]; omega

/-! ### What a point writes back -/

/-- Point `t` writes back block `t` of the message array of the arrays as the region finds them. -/
theorem flushed3_eq (c : Dev nD) (t : Fin cfg3.N) :
    (dat3 (F := Ideal) V c).flushed 5 t = ((cfg3.win 5).blk t).view.read (Elt Ideal)
      (msgArray3 (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 (F := Ideal) V c).after 5 t) = _
  rw [after3_5]
  obtain ⟨-, -, -, -, -, -, -, -, -, -, e0, e1⟩ := blockIndex3 t
  have ht : t.val < 100 := Nat.lt_of_lt_of_eq t.isLt (show cfg3.N = 100 from N_3)
  funext j
  obtain ⟨p, q, rfl⟩ : ∃ (p : Fin 8000) (q : Fin 128), j = ix2 p q := ⟨j 0, j 1, eq_ix2 j⟩
  have hp : p.val < 8000 := p.isLt
  have hemb : ((cfg3.win 5).blk t).view.emb (ix2 p q) = (ix2 (⟨t.val * 8000 + p.val, by omega⟩ : Fin 800000) q : S800000x128.Idx) := by
    funext a; apply Fin.ext
    match a with
    | ⟨0, _⟩ => show win3_5.index t (0 : Fin 2) * 8000 + 1 * p.val = t.val * 8000 + p.val; rw [e0]; omega
    | ⟨1, _⟩ => show win3_5.index t (1 : Fin 2) * 128 + 1 * q.val = q.val; rw [e1]; omega
  show msgBlock3 (F := Ideal) (iblk3 V c 0 t) (iblk3 V c 1 t) (iblk3 V c 2 t) (iblk3 V c 3 t) (iblk3 V c 4 t) (ix2 p q)
    = msgArray3 (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  rw [hemb, msgArray3_apply, msgBlock3_apply]
  simp only [iblk3_0_apply V c t p _ ⟨t.val * 8000 + p.val, by omega⟩ rfl, iblk3_1_apply V c t p _ ⟨t.val * 8000 + p.val, by omega⟩ rfl,
    iblk3_2_apply, iblk3_3_apply, iblk3_4_apply]

/-! ### The blocks cover the array -/

/-- An index of the output array is in point `t`'s block iff each coordinate is in the block's range on its axis. -/
theorem mem_blk3 (t : Fin cfg3.N) (i : S800000x128.Idx) :
    i ∈ ((cfg3.win 5).blk t).view.set ↔ ∀ a : Fin 2, win3_5.index t a * S8000x128.size a ≤ (i a).val ∧ (i a).val < win3_5.index t a * S8000x128.size a + S8000x128.size a := by
  show i ∈ ((View.whole main_v50).slice (win3_5.rect t)).set ↔ _
  rw [View.set_slice_whole, Rect.mem_set_unit]
  exact Iff.rfl

/-- Row r lies in the block of point r / 8000, and every point writes its block back. -/
theorem cover3_out (i : S800000x128.Idx) : ∃ t : Fin cfg3.N, (cfg3.win 5).flush t = true ∧ i ∈ ((cfg3.win 5).blk t).view.set := by
  have hi0 : (i 0).val < 800000 := (i 0).isLt
  have hi1 : (i 1).val < 128 := (i 1).isLt
  let t : Fin cfg3.N := ⟨(i 0).val / 8000, by rw [show cfg3.N = 100 from N_3]; omega⟩
  obtain ⟨-, -, -, -, -, -, -, -, -, -, e0, e1⟩ := blockIndex3 t
  have htv : t.val = (i 0).val / 8000 := rfl
  refine ⟨t, flush3_5 t, ?_⟩
  rw [mem_blk3]
  intro a
  match a with
  | ⟨0, _⟩ => show win3_5.index t (0 : Fin 2) * 8000 ≤ (i 0).val ∧ (i 0).val < win3_5.index t (0 : Fin 2) * 8000 + 8000; rw [e0, htv]; omega
  | ⟨1, _⟩ => show win3_5.index t (1 : Fin 2) * 128 ≤ (i 1).val ∧ (i 1).val < win3_5.index t (1 : Fin 2) * 128 + 128; rw [e1]; omega

/-! ### The output array after the region -/

theorem final3 (c : Dev nD) : (dat3 (F := Ideal) V c).arrAt 5 cfg3.N
    = msgArray3 (V c (Pipeline.arrRef spec3 0)) (V c (Pipeline.arrRef spec3 1)) (V c (Pipeline.arrRef spec3 2))
        (V c (Pipeline.arrRef spec3 3)) (V c (Pipeline.arrRef spec3 4)) :=
  (dat3 (F := Ideal) V c).arrAt_eq_of_cover 5 _ (fun t _ => flushed3_eq V c t) (cover3_out)

end Cert.KernelIdeal.Hand
-- ==== Proof.Region4Value.lean ====
import proofs.«148009_j49555332661695_1_alg».proof.Proof.Region4
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)
open scoped BigOperators
variable (V : (c : Dev nD) → (b : Ref sig .tc) → Buf (Elt Ideal) ((c : Thread nD τ).loc b))

/-! # Region 4 at the ideal values: the accumulators read at a column

At the extended reals a column reduction is the sum over the rows, so after the last point the first accumulator
holds, at column `b`, the sum over all ten blocks and all their rows of the entry at column `b`; the second the same
sum of squares. -/

/-- The column reduction of a block at column `b`: the sum over its rows. -/
theorem colsum4_apply (x : FVec Ideal S10000x128 .f32) (hφ : FKind.Formats .f32)
    (hacc : (0x00000000#32 : BitVec 32) = FKind.add.neutral .f32 hφ) (b : Fin 128) :
    multiReduction .add [0] S128 x 0x00000000#32 reduces_S10000x128_S128 hφ hacc (ix1 b) = ∑ r : Fin 10000, x (ix2 r b) := by
  refine (Ideal.multiReduction_add_single x 0x00000000#32 reduces_S10000x128_S128 hφ hacc (ix1 b)).trans ?_
  refine Finset.sum_congr rfl fun r _ => congrArg x ?_
  funext a; fin_cases a <;> rfl

/-- The zero the accumulators start from. -/
theorem k4_pay1_apply (j : S1x128.Idx) : (k4_pay1 (F := Ideal)) j = 0 := by
  unfold k4_pay1
  rw [shapeCast_self]
  exact Ideal.ofBits_zero_f32
theorem k4_pay2_apply (j : S1x128.Idx) : (k4_pay2 (F := Ideal)) j = 0 := by
  unfold k4_pay2
  rw [shapeCast_self]
  exact Ideal.ofBits_zero_f32

/-- One step of the first accumulator at column `b`: what it held plus the block's column sum. -/
theorem k4_pay4_apply (x0 : Vec Ideal S10000x128 .f32) (xs0 : Vec Ideal S1x128 .f32) (b : Fin 128) :
    k4_pay4 x0 xs0 (ix2 (0 : Fin 1) b) = xs0 (ix2 (0 : Fin 1) b) + ∑ r : Fin 10000, x0 (ix2 r b) := by
  unfold k4_pay4 k4_pay3
  rw [shapeCast_self, shapeCast_self]
  refine (addf_apply _ _ _).trans ?_
  refine congrArg (xs0 (ix2 (0 : Fin 1) b) + ·) ?_
  refine (shapeCast_a_1a_apply _ _ (0 : Fin 1) b).trans ?_
  exact colsum4_apply x0 _ _ b

/-- One step of the second accumulator at column `b`: what it held plus the column sum of the block's squares. -/
theorem k4_pay5_apply (x0 : Vec Ideal S10000x128 .f32) (xs1 : Vec Ideal S1x128 .f32) (b : Fin 128) :
    k4_pay5 x0 xs1 (ix2 (0 : Fin 1) b) = xs1 (ix2 (0 : Fin 1) b) + ∑ r : Fin 10000, x0 (ix2 r b) * x0 (ix2 r b) := by
  unfold k4_pay5 k4_pay3
  rw [shapeCast_self, shapeCast_self]
  refine (addf_apply _ _ _).trans ?_
  refine congrArg (xs1 (ix2 (0 : Fin 1) b) + ·) ?_
  refine (shapeCast_a_1a_apply _ _ (0 : Fin 1) b).trans ?_
  exact colsum4_apply (mulf x0 x0) _ _ b

/-- The input block at position `n`, as a matrix. -/
abbrev blkAt4 (c : Dev nD) (n : ℕ) (hn : n < cfg4.N) : Vec Ideal S10000x128 .f32 := iblk4 V c 0 ⟨n, hn⟩

/-- The accumulators after position `n`, at column `b`: the sums over the blocks up to `n`. -/
theorem acc4_apply (c : Dev nD) (b : Fin 128) : ∀ (n : ℕ) (hn : n < cfg4.N),
    (acc4 V c n hn).1 (ix2 (0 : Fin 1) b)
        = ∑ t : Fin (n + 1), ∑ r : Fin 10000, blkAt4 V c t.val (lt_of_le_of_lt (Nat.lt_succ_iff.mp t.isLt) hn) (ix2 r b)
      ∧ (acc4 V c n hn).2 (ix2 (0 : Fin 1) b)
        = ∑ t : Fin (n + 1), ∑ r : Fin 10000, blkAt4 V c t.val (lt_of_le_of_lt (Nat.lt_succ_iff.mp t.isLt) hn) (ix2 r b)
            * blkAt4 V c t.val (lt_of_le_of_lt (Nat.lt_succ_iff.mp t.isLt) hn) (ix2 r b)
  | 0, hn => by
    constructor
    · show k4_pay4 (blkAt4 V c 0 hn) (k4_pay1 (F := Ideal)) (ix2 (0 : Fin 1) b) = _
      rw [k4_pay4_apply, k4_pay1_apply, zero_add, Fin.sum_univ_one]; rfl
    · show k4_pay5 (blkAt4 V c 0 hn) (k4_pay2 (F := Ideal)) (ix2 (0 : Fin 1) b) = _
      rw [k4_pay5_apply, k4_pay2_apply, zero_add, Fin.sum_univ_one]; rfl
  | n + 1, hn => by
    obtain ⟨ih1, ih2⟩ := acc4_apply c b n (Nat.lt_of_succ_lt hn)
    constructor
    · show k4_pay4 (blkAt4 V c (n + 1) hn) (acc4 V c n (Nat.lt_of_succ_lt hn)).1 (ix2 (0 : Fin 1) b) = _
      rw [k4_pay4_apply, ih1, Fin.sum_univ_castSucc (n := n + 1)]; rfl
    · show k4_pay5 (blkAt4 V c (n + 1) hn) (acc4 V c n (Nat.lt_of_succ_lt hn)).2 (ix2 (0 : Fin 1) b) = _
      rw [k4_pay5_apply, ih2, Fin.sum_univ_castSucc (n := n + 1)]; rfl

/-- After the last point the first accumulator holds, at column `b`, the sum of the entries of column `b` over all
    ten blocks and all their rows. -/
theorem acc4_last_apply (c : Dev nD) (h9 : 9 < cfg4.N) (b : Fin 128) :
    (acc4 V c 9 h9).1 (ix2 (0 : Fin 1) b)
      = ∑ t : Fin 10, ∑ r : Fin 10000, blkAt4 V c t.val (lt_of_lt_of_eq t.isLt N_4.symm) (ix2 r b) :=
  (acc4_apply V c b 9 h9).1

/-- And the second the same sum of the squared entries. -/
theorem acc4_last_apply_sq (c : Dev nD) (h9 : 9 < cfg4.N) (b : Fin 128) :
    (acc4 V c 9 h9).2 (ix2 (0 : Fin 1) b)
      = ∑ t : Fin 10, ∑ r : Fin 10000, blkAt4 V c t.val (lt_of_lt_of_eq t.isLt N_4.symm) (ix2 r b)
          * blkAt4 V c t.val (lt_of_lt_of_eq t.isLt N_4.symm) (ix2 r b) :=
  (acc4_apply V c b 9 h9).2

end Cert.KernelIdeal.Hand
end
-- ==== Proof.Region4Array.lean ====
import proofs.«148009_j49555332661695_1_alg».proof.Proof.Region4Value
import proofs.«148009_j49555332661695_1_alg».proof.Proof.LibBlockSum
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)
open scoped BigOperators
variable (V : (c : Dev nD) → (b : Ref sig .tc) → Buf (Elt Ideal) ((c : Thread nD τ).loc b))

/-! # Region 4 at the ideal values: the two output arrays, entry by entry

The two output arrays are written back once, whole, at the last point; so they end holding the accumulators after the
last point, which at column `b` are the sum (resp. the sum of squares) of column `b` of the input array over all its
100000 rows: the ten blocks of 10000 consecutive rows taken together. -/

/-- The input array as the region finds it, as a matrix. -/
abbrev xin4 (c : Dev nD) : Vec Ideal S100000x128 .f32 := V c (Pipeline.arrRef spec4 0)

/-- The input window's block index at point `t` is `(t, 0)`. -/
theorem idx4_in : ∀ t : Fin cfg4.N, win4_0.index t 0 = t.val ∧ win4_0.index t 1 = 0 :=
  (by decide +kernel : ∀ t : Fin grid4.N, win4_0.index t 0 = t.val ∧ win4_0.index t 1 = 0)

/-- Row `r` of the block at point `t` is row `10000 t + r` of the array. -/
theorem blkAt4_apply (c : Dev nD) (t : Fin cfg4.N) (r : Fin 10000) (b : Fin 128) (n : Fin 100000)
    (hn : n.val = 10000 * t.val + r.val) :
    (iblk4 V c 0 t : Vec Ideal S10000x128 .f32) (ix2 r b) = xin4 V c (ix2 n b) := by
  obtain ⟨hi0, hi1⟩ := idx4_in t
  unfold iblk4
  rw [View.read_apply]
  show V c (Pipeline.arrRef spec4 0) _ = V c (Pipeline.arrRef spec4 0) _
  refine congrArg (V c (Pipeline.arrRef spec4 0)) ?_
  funext a
  apply Fin.ext
  match a with
  | ⟨0, _⟩ => show win4_0.index t 0 * 10000 + 1 * r.val = n.val; rw [hi0, hn]; omega
  | ⟨1, _⟩ => show win4_0.index t 1 * 128 + 1 * b.val = b.val; rw [hi1]; omega

/-- The accumulators after the last point. -/
abbrev tot4_1 (c : Dev nD) : Vec Ideal S1x128 .f32 := (acc4 V c t4_9.val t4_9.isLt).1
abbrev tot4_2 (c : Dev nD) : Vec Ideal S1x128 .f32 := (acc4 V c t4_9.val t4_9.isLt).2

/-- The one write-back of window 1, at the last point, writes the whole array: its block is the array itself
    (block index zero on both axes), and what the body left is the first accumulator after the last point. -/
theorem flushed4_1_eq (c : Dev nD) (t : Fin cfg4.N) (hf : (cfg4.win 1).flush t = true) :
    (dat4 V c).flushed 1 t = ((cfg4.win 1).blk t).view.read (Elt Ideal) (tot4_1 V c) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1]
  have hz' : (fun a => win4_1.index t4_9 a * main_v54_0.ty.shape.size a) = fun _ => 0 := funext fun a => by fin_cases a <;> decide +kernel
  exact (Memref.read_access_unit_zero (Elt Ideal) main_v54_0 hz' (fun a => by rw [congrFun hz' a]; simp) (tot4_1 V c)).symm

/-- So output array 1 ends holding the first accumulator after the last point: the last point's block covers it. -/
theorem arr4_1_eq (c : Dev nD) : (dat4 V c).arrAt 1 cfg4.N = tot4_1 V c :=
  (dat4 V c).arrAt_eq_of_cover 1 (tot4_1 V c) (flushed4_1_eq V c) fun i =>
    ⟨t4_9, (flush4_1 t4_9).mpr (by decide), by
      show i ∈ ((View.whole main_v54_0).slice (win4_1.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_1.index t4_9 0 * win4_1.size 0 ≤ (i 0 : Nat) ∧ (i 0 : Nat) < win4_1.index t4_9 0 * win4_1.size 0 + win4_1.xsize (grid4.coords t4_9) 0
                  rw [show win4_1.index t4_9 0 * win4_1.size 0 = 0 from by decide +kernel, show win4_1.xsize (grid4.coords t4_9) 0 = 1 from by decide +kernel]; omega
      | ⟨1, _⟩ => show win4_1.index t4_9 1 * win4_1.size 1 ≤ (i 1 : Nat) ∧ (i 1 : Nat) < win4_1.index t4_9 1 * win4_1.size 1 + win4_1.xsize (grid4.coords t4_9) 1
                  rw [show win4_1.index t4_9 1 * win4_1.size 1 = 0 from by decide +kernel, show win4_1.xsize (grid4.coords t4_9) 1 = 128 from by decide +kernel]; omega⟩

/-- The one write-back of window 2, at the last point, writes the whole array: its block is the array itself
    (block index zero on both axes), and what the body left is the second accumulator after the last point. -/
theorem flushed4_2_eq (c : Dev nD) (t : Fin cfg4.N) (hf : (cfg4.win 2).flush t = true) :
    (dat4 V c).flushed 2 t = ((cfg4.win 2).blk t).view.read (Elt Ideal) (tot4_2 V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v54_1.ty.shape.size a) = fun _ => 0 := funext fun a => by fin_cases a <;> decide +kernel
  exact (Memref.read_access_unit_zero (Elt Ideal) main_v54_1 hz' (fun a => by rw [congrFun hz' a]; simp) (tot4_2 V c)).symm

/-- So output array 2 ends holding the second accumulator after the last point: the last point's block covers it. -/
theorem arr4_2_eq (c : Dev nD) : (dat4 V c).arrAt 2 cfg4.N = tot4_2 V c :=
  (dat4 V c).arrAt_eq_of_cover 2 (tot4_2 V c) (flushed4_2_eq V c) fun i =>
    ⟨t4_9, (flush4_2 t4_9).mpr (by decide), by
      show i ∈ ((View.whole main_v54_1).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

/-- Ten blocks of 10000 rows are the 100000 rows. -/
theorem rows4_sum (c : Dev nD) (b : Fin 128) (g : EReal → EReal) :
    ∑ t : Fin 10, ∑ r : Fin 10000, g (blkAt4 V c t.val (lt_of_lt_of_eq t.isLt N_4.symm) (ix2 r b))
      = ∑ n : Fin 100000, g (xin4 V c (ix2 n b)) := by
  refine Eq.trans ?_ (Cert.LibBlockSum.sum_blocks 10 10000 (fun n : Fin (10 * 10000) => g (xin4 V c (ix2 (n : Fin 100000) b))))
  refine Finset.sum_congr rfl fun t _ => Finset.sum_congr rfl fun r _ => congrArg g ?_
  exact blkAt4_apply V c ⟨t.val, lt_of_lt_of_eq t.isLt N_4.symm⟩ r b _ rfl

/-- THE FIRST OUTPUT ARRAY after the region, at column `b`: the sum of column `b` of the input array over all rows. -/
theorem final4_sum (c : Dev nD) (u : Fin 1) (b : Fin 128) :
    ((dat4 V c).arrAt 1 cfg4.N : Vec Ideal S1x128 .f32) (ix2 u b) = ∑ n : Fin 100000, xin4 V c (ix2 n b) := by
  obtain rfl : u = 0 := Subsingleton.elim _ _
  rw [arr4_1_eq]
  exact (acc4_last_apply V c t4_9.isLt b).trans (rows4_sum V c b id)

/-- THE SECOND OUTPUT ARRAY after the region, at column `b`: the sum of the squares of column `b` over all rows. -/
theorem final4_sq (c : Dev nD) (u : Fin 1) (b : Fin 128) :
    ((dat4 V c).arrAt 2 cfg4.N : Vec Ideal S1x128 .f32) (ix2 u b)
      = ∑ n : Fin 100000, xin4 V c (ix2 n b) * xin4 V c (ix2 n b) := by
  obtain rfl : u = 0 := Subsingleton.elim _ _
  rw [arr4_2_eq]
  exact (acc4_last_apply_sq V c t4_9.isLt b).trans (rows4_sum V c b (fun y => y * y))

end Cert.KernelIdeal.Hand
end
-- ==== Proof.Region5Value.lean ====
import proofs.«148009_j49555332661695_1_alg».proof.Proof.Region5
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! # Region 5's output block at the extended reals, element by element -/

/-- The two offsets of a whole-block rectangle are zero. -/
theorem zeros5 : (![0, 0] : Fin 2 → Nat) = fun _ => 0 := funext fun a => by fin_cases a <;> rfl

/-- A row spread down the block reads, at row `a` and column `b`, the row's element at column `b`. -/
theorem spread5_apply (r : Vec Ideal S1x128 .f32) (a : Fin 10000) (b : Fin 128) :
    broadcastTo S10000x128 r broadcasts_S1x128_S10000x128 (ix2 a b) = r (ix2 0 b) :=
  broadcastTo_apply r broadcasts_S1x128_S10000x128 (ix2 a b) (ix2 0 b) (fun d => match d with
    | ⟨0, _⟩ => rfl
    | ⟨1, _⟩ => rfl)

/-- At row `a`, column `b` the block holds the larger of zero and: the datum less the column's mean, times the
    reciprocal root of the column's variance plus the constant, times the column's scale, plus the column's shift. -/
theorem bnBlock5_apply (x0 : Vec Ideal S10000x128 .f32) (x1 x2 x3 x4 : Vec Ideal S1x128 .f32) (a : Fin 10000) (b : Fin 128) :
    bnBlock5 (F := Ideal) x0 x1 x2 x3 x4 (ix2 a b)
      = max (((x0 (ix2 a b) - x1 (ix2 0 b)) * Ideal.rsqrt (x2 (ix2 0 b) + Ideal.ofBits .f32 0x3727C5AC#32)) * x3 (ix2 0 b)
          + x4 (ix2 0 b)) 0 := by
  unfold bnBlock5
  rw [View.canon_unit_zero zeros5, View.ld_unit_zero (S := S10000x128) zeros5, View.ld_unit_zero (S := S1x128) zeros5,
    View.ld_unit_zero (S := S1x128) zeros5, View.ld_unit_zero (S := S1x128) zeros5, View.ld_unit_zero (S := S1x128) zeros5]
  unfold k5_pay1
  simp only [shapeCast_self]
  rw [maximumf_apply, addf_apply, mulf_apply, mulf_apply, subf_apply, spread5_apply, spread5_apply, spread5_apply,
    spread5_apply, broadcast_apply]
  show max (((x0 (ix2 a b) - x1 (ix2 0 b)) * Ideal.rsqrt (x2 (ix2 0 b) + Ideal.ofBits .f32 0x3727C5AC#32)) * x3 (ix2 0 b)
          + x4 (ix2 0 b)) (Ideal.ofBits .f32 0x00000000#32) = _
  rw [Ideal.ofBits_zero_f32]

end Cert.KernelIdeal.Hand
-- ==== Proof.Region5Array.lean ====
import proofs.«148009_j49555332661695_1_alg».proof.Proof.Region5Value
import proofs.«148009_j49555332661695_1_alg».proof.Proof.LayerDefs
import Idealize.ShloMosaic.Lib.Pipeline.Value

/-! Region 5 at the extended reals, from blocks to the array. Grid point `t` handles rows 10000·t … 10000·t + 9999: its
    blocks of the data array and of the output array are those rows, and the four rows (mean, variance, scale, shift)
    are read whole at every point. So what point `t` writes back is block `t` of one function of the whole arrays —
    entry (r, q) is the larger of zero and (x[r,q] − mean[q])·rsqrt(var[q] + ε)·scale[q] + shift[q] — and since row r
    lies in block r / 10000, the ten blocks cover the output array, which ends holding that function. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The normalised array at row `r`, column `q`. -/
theorem kerNorm5_apply (x : FVec Ideal S100000x128 .f32) (mean var g be : FVec Ideal S1x128 .f32) (r : Fin 100000) (q : Fin 128) :
    Cert.Proof.Layer.kerNorm x mean var g be (ix2 r q)
      = max (((x (ix2 r q) - mean (ix2 (0 : Fin 1) q)) * Ideal.rsqrt (var (ix2 (0 : Fin 1) q) + Ideal.ofBits .f32 0x3727C5AC#32))
          * g (ix2 (0 : Fin 1) q) + be (ix2 (0 : Fin 1) q)) 0 := rfl

/-- Where the windows' blocks sit, decided over the grid: at point `t` the data window and the output window are at
    block row `t`, block column 0; the four row windows are at block (0, 0). -/
theorem blockIndex5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-! ### The input blocks, entry by entry, as entries of the arrays -/

theorem iblk5_0_apply (c : Dev nD) (t : Fin cfg5.N) (p : Fin 10000) (k : Fin 128) (r : Fin 100000) (hr : r.val = t.val * 10000 + p.val) :
    (iblk5 V c 0 t : Vec Ideal S10000x128 .f32) (ix2 p k) = (V c (Pipeline.arrRef spec5 0) : Vec Ideal S100000x128 .f32) (ix2 r k) := by
  obtain ⟨e0, e1, -⟩ := blockIndex5 t
  show V c (Pipeline.arrRef spec5 0) (((cfg5.win 0).blk t).view.emb (ix2 p k)) = V c (Pipeline.arrRef spec5 0) (ix2 r k)
  refine congrArg (V c (Pipeline.arrRef spec5 0)) (funext fun a => Fin.ext ?_)
  match a with
  | ⟨0, _⟩ => show win5_0.index t (0 : Fin 2) * 10000 + 1 * p.val = r.val; rw [e0, hr]; omega
  | ⟨1, _⟩ => show win5_0.index t (1 : Fin 2) * 128 + 1 * k.val = k.val; rw [e1]; omega

theorem iblk5_1_apply (c : Dev nD) (t : Fin cfg5.N) (z : Fin 1) (q : Fin 128) :
    (iblk5 V c 1 t : Vec Ideal S1x128 .f32) (ix2 z q) = (V c (Pipeline.arrRef spec5 1) : Vec Ideal S1x128 .f32) (ix2 z q) := by
  obtain ⟨-, -, e0, e1, -⟩ := blockIndex5 t
  show V c (Pipeline.arrRef spec5 1) (((cfg5.win 1).blk t).view.emb (ix2 z q)) = V c (Pipeline.arrRef spec5 1) (ix2 z q)
  refine congrArg (V c (Pipeline.arrRef spec5 1)) (funext fun a => Fin.ext ?_)
  match a with
  | ⟨0, _⟩ => show win5_1.index t (0 : Fin 2) * 1 + 1 * z.val = z.val; rw [e0]; omega
  | ⟨1, _⟩ => show win5_1.index t (1 : Fin 2) * 128 + 1 * q.val = q.val; rw [e1]; omega

theorem iblk5_2_apply (c : Dev nD) (t : Fin cfg5.N) (z : Fin 1) (q : Fin 128) :
    (iblk5 V c 2 t : Vec Ideal S1x128 .f32) (ix2 z q) = (V c (Pipeline.arrRef spec5 2) : Vec Ideal S1x128 .f32) (ix2 z q) := by
  obtain ⟨-, -, -, -, e0, e1, -⟩ := blockIndex5 t
  show V c (Pipeline.arrRef spec5 2) (((cfg5.win 2).blk t).view.emb (ix2 z q)) = V c (Pipeline.arrRef spec5 2) (ix2 z q)
  refine congrArg (V c (Pipeline.arrRef spec5 2)) (funext fun a => Fin.ext ?_)
  match a with
  | ⟨0, _⟩ => show win5_2.index t (0 : Fin 2) * 1 + 1 * z.val = z.val; rw [e0]; omega
  | ⟨1, _⟩ => show win5_2.index t (1 : Fin 2) * 128 + 1 * q.val = q.val; rw [e1]; omega

theorem iblk5_3_apply (c : Dev nD) (t : Fin cfg5.N) (z : Fin 1) (q : Fin 128) :
    (iblk5 V c 3 t : Vec Ideal S1x128 .f32) (ix2 z q) = (V c (Pipeline.arrRef spec5 3) : Vec Ideal S1x128 .f32) (ix2 z q) := by
  obtain ⟨-, -, -, -, -, -, e0, e1, -⟩ := blockIndex5 t
  show V c (Pipeline.arrRef spec5 3) (((cfg5.win 3).blk t).view.emb (ix2 z q)) = V c (Pipeline.arrRef spec5 3) (ix2 z q)
  refine congrArg (V c (Pipeline.arrRef spec5 3)) (funext fun a => Fin.ext ?_)
  match a with
  | ⟨0, _⟩ => show win5_3.index t (0 : Fin 2) * 1 + 1 * z.val = z.val; rw [e0]; omega
  | ⟨1, _⟩ => show win5_3.index t (1 : Fin 2) * 128 + 1 * q.val = q.val; rw [e1]; omega

theorem iblk5_4_apply (c : Dev nD) (t : Fin cfg5.N) (z : Fin 1) (q : Fin 128) :
    (iblk5 V c 4 t : Vec Ideal S1x128 .f32) (ix2 z q) = (V c (Pipeline.arrRef spec5 4) : Vec Ideal S1x128 .f32) (ix2 z q) := by
  obtain ⟨-, -, -, -, -, -, -, -, e0, e1, -⟩ := blockIndex5 t
  show V c (Pipeline.arrRef spec5 4) (((cfg5.win 4).blk t).view.emb (ix2 z q)) = V c (Pipeline.arrRef spec5 4) (ix2 z q)
  refine congrArg (V c (Pipeline.arrRef spec5 4)) (funext fun a => Fin.ext ?_)
  match a with
  | ⟨0, _⟩ => show win5_4.index t (0 : Fin 2) * 1 + 1 * z.val = z.val; rw [e0]; omega
  | ⟨1, _⟩ => show win5_4.index t (1 : Fin 2) * 128 + 1 * q.val = q.val; rw [e1]; omega

/-! ### What a point writes back -/

/-- Point `t` writes back block `t` of the normalised array of the arrays as the region finds them. -/
theorem flushed5_eq (c : Dev nD) (t : Fin cfg5.N) :
    (dat5 (F := Ideal) V c).flushed 5 t = ((cfg5.win 5).blk t).view.read (Elt Ideal)
      (Cert.Proof.Layer.kerNorm (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 (F := Ideal) V c).after 5 t) = _
  rw [after5_5]
  obtain ⟨-, -, -, -, -, -, -, -, -, -, e0, e1⟩ := blockIndex5 t
  have ht : t.val < 10 := Nat.lt_of_lt_of_eq t.isLt (show cfg5.N = 10 from N_5)
  funext j
  obtain ⟨p, q, rfl⟩ : ∃ (p : Fin 10000) (q : Fin 128), j = ix2 p q := ⟨j 0, j 1, eq_ix2 j⟩
  have hp : p.val < 10000 := p.isLt
  have hemb : ((cfg5.win 5).blk t).view.emb (ix2 p q) = (ix2 (⟨t.val * 10000 + p.val, by omega⟩ : Fin 100000) q : S100000x128.Idx) := by
    funext a; apply Fin.ext
    match a with
    | ⟨0, _⟩ => show win5_5.index t (0 : Fin 2) * 10000 + 1 * p.val = t.val * 10000 + p.val; rw [e0]; omega
    | ⟨1, _⟩ => show win5_5.index t (1 : Fin 2) * 128 + 1 * q.val = q.val; rw [e1]; omega
  show bnBlock5 (F := Ideal) (iblk5 V c 0 t) (iblk5 V c 1 t) (iblk5 V c 2 t) (iblk5 V c 3 t) (iblk5 V c 4 t) (ix2 p q)
    = Cert.Proof.Layer.kerNorm (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb (ix2 p q))
  rw [hemb, kerNorm5_apply, bnBlock5_apply]
  simp only [iblk5_0_apply V c t p _ ⟨t.val * 10000 + p.val, by omega⟩ rfl, iblk5_1_apply, iblk5_2_apply, iblk5_3_apply, iblk5_4_apply]

/-! ### The blocks cover the array -/

/-- An index of the output array is in point `t`'s block iff each coordinate is in the block's range on its axis. -/
theorem mem_blk5 (t : Fin cfg5.N) (i : S100000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole main_v67).slice (win5_5.rect t)).set ↔ _
  rw [View.set_slice_whole, Rect.mem_set_unit]
  exact Iff.rfl

/-- Row r lies in the block of point r / 10000, and every point writes its block back. -/
theorem cover5_out (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  let t : Fin cfg5.N := ⟨(i 0).val / 10000, by rw [show cfg5.N = 10 from N_5]; omega⟩
  obtain ⟨-, -, -, -, -, -, -, -, -, -, e0, e1⟩ := blockIndex5 t
  have htv : t.val = (i 0).val / 10000 := rfl
  refine ⟨t, flush5_5 t, ?_⟩
  rw [mem_blk5]
  intro a
  match a with
  | ⟨0, _⟩ => show win5_5.index t (0 : Fin 2) * 10000 ≤ (i 0).val ∧ (i 0).val < win5_5.index t (0 : Fin 2) * 10000 + 10000; rw [e0, htv]; omega
  | ⟨1, _⟩ => show win5_5.index t (1 : Fin 2) * 128 ≤ (i 1).val ∧ (i 1).val < win5_5.index t (1 : Fin 2) * 128 + 128; rw [e1]; omega

/-! ### The output array after the region -/

theorem final5 (c : Dev nD) : (dat5 (F := Ideal) V c).arrAt 5 cfg5.N
    = Cert.Proof.Layer.kerNorm (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 5 _ (fun t _ => flushed5_eq V c t) (cover5_out)

end Cert.KernelIdeal.Hand
-- ==== Proof.Region6Value.lean ====
import proofs.«148009_j49555332661695_1_alg».proof.Proof.Region6
import Idealize.ShloMosaic.Lib.ValueIdx
import Idealize.ShloMosaic.Lib.Pipeline.Value
import Idealize.ShloMosaic.PureOps.Ideal.Laws

/-! Region 6 at the ideal values: the output block of the edge-message kernel, entry by entry. With no rounding,
    entry (a, b) of the block is  Σₖ x0[a,k]·x2[k,b] + Σₖ x1[a,k]·x3[k,b] + x4[0,b]:  the two products into a zero
    accumulator are plain sums over the contracted axis, narrowing to bf16 is the identity on extended reals, and the
    bias row is repeated down the rows. -/

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- The offsets of a whole rank-2 block are zero on both axes. -/
theorem zeroOffsets6 : (![0, 0] : Fin 2 → Nat) = fun _ => 0 := funext fun a => by fin_cases a <;> rfl

/-- The single store is laid over the whole block and every load reads a whole block, so the output block is the
    message value of the five input blocks themselves (in any float model). -/
theorem msgBlock6_eq_pay {F : FTy → Type} [FloatOps F] (x0 : Vec F S8000x128 .f32) (x1 : Vec F S8000x16 .f32) (x2 : Vec F S128x128 .f32)
    (x3 : Vec F S16x128 .f32) (x4 : Vec F S1x128 .f32) : msgBlock6 x0 x1 x2 x3 x4 = k6_pay1 x0 x1 x2 x3 x4 := by
  unfold msgBlock6
  rw [View.canon_unit_zero zeroOffsets6, View.ld_unit_zero zeroOffsets6, View.ld_unit_zero zeroOffsets6, View.ld_unit_zero zeroOffsets6,
    View.ld_unit_zero zeroOffsets6, View.ld_unit_zero zeroOffsets6]

/-! ### The 8000×128 by 128×128 product -/

/-- The left operand's row coordinate is the output's row. -/
theorem dotA6_lhs_row (i : S8000x128.Idx) (q : (dot_S8000x128_S128x128_S8000x128_1_0_0_1_n_n).contr.Idx) :
    ((dot_S8000x128_S128x128_S8000x128_1_0_0_1_n_n).lhsIdx i q 0).val = (i 0).val := by
  unfold DotDims.lhsIdx
  rw [dif_neg (show ¬(0 : Fin S8000x128.rank) ∈ (dot_S8000x128_S128x128_S8000x128_1_0_0_1_n_n).lhsBatch by decide),
    dif_pos (show (0 : Fin S8000x128.rank) ∈ (dot_S8000x128_S128x128_S8000x128_1_0_0_1_n_n).lhsNonContracting by decide)]
  rfl

/-- The right operand's column coordinate is the output's column. -/
theorem dotA6_rhs_col (i : S8000x128.Idx) (q : (dot_S8000x128_S128x128_S8000x128_1_0_0_1_n_n).contr.Idx) :
    ((dot_S8000x128_S128x128_S8000x128_1_0_0_1_n_n).rhsIdx i q 1).val = (i 1).val := by
  unfold DotDims.rhsIdx
  rw [dif_neg (show ¬(1 : Fin S128x128.rank) ∈ (dot_S8000x128_S128x128_S8000x128_1_0_0_1_n_n).rhsBatch by decide),
    dif_pos (show (1 : Fin S128x128.rank) ∈ (dot_S8000x128_S128x128_S8000x128_1_0_0_1_n_n).rhsNonContracting by decide)]
  rfl

/-- Into a zero accumulator, the product at (a, b) is the sum over the 128 contracted positions. -/
theorem matmulA6_apply {φ₁ φ₂ : FTy} (A : FVec Ideal S8000x128 φ₁) (B : FVec Ideal S128x128 φ₂) (a : Fin 8000) (b : Fin 128) :
    matmul (dot_S8000x128_S128x128_S8000x128_1_0_0_1_n_n) none A B (constant (F := Ideal) S8000x128 .f32 0x00000000#32) (ix2 a b)
      = ∑ k : Fin 128, A (ix2 a k) * B (ix2 k b) := by
  simp only [matmul]
  rw [Ideal.matmul_constant_zero_apply, ← Equiv.sum_comp (contrEquiv1 (dot_S8000x128_S128x128_S8000x128_1_0_0_1_n_n) 128 rfl rfl).symm]
  refine Finset.sum_congr rfl fun k _ => ?_
  have hk := contrEquiv1_symm_val (dot_S8000x128_S128x128_S8000x128_1_0_0_1_n_n) 128 rfl rfl k
  have el : (dot_S8000x128_S128x128_S8000x128_1_0_0_1_n_n).lhsIdx (ix2 a b) ((contrEquiv1 (dot_S8000x128_S128x128_S8000x128_1_0_0_1_n_n) 128 rfl rfl).symm k) = ix2 a k :=
    funext fun e => Fin.ext (by
      match e with
      | ⟨0, _⟩ => exact dotA6_lhs_row _ _
      | ⟨1, _⟩ => exact ((dot_S8000x128_S128x128_S8000x128_1_0_0_1_n_n).lhsIdx_val_of_single rfl _ _).trans hk)
  have er : (dot_S8000x128_S128x128_S8000x128_1_0_0_1_n_n).rhsIdx (ix2 a b) ((contrEquiv1 (dot_S8000x128_S128x128_S8000x128_1_0_0_1_n_n) 128 rfl rfl).symm k) = ix2 k b :=
    funext fun e => Fin.ext (by
      match e with
      | ⟨0, _⟩ => exact ((dot_S8000x128_S128x128_S8000x128_1_0_0_1_n_n).rhsIdx_val_of_single rfl _ _).trans hk
      | ⟨1, _⟩ => exact dotA6_rhs_col _ _)
  rw [el, er]

/-! ### The 8000×16 by 16×128 product -/

theorem dotB6_lhs_row (i : S8000x128.Idx) (q : (dot_S8000x16_S16x128_S8000x128_1_0_0_1_n_n).contr.Idx) :
    ((dot_S8000x16_S16x128_S8000x128_1_0_0_1_n_n).lhsIdx i q 0).val = (i 0).val := by
  unfold DotDims.lhsIdx
  rw [dif_neg (show ¬(0 : Fin S8000x16.rank) ∈ (dot_S8000x16_S16x128_S8000x128_1_0_0_1_n_n).lhsBatch by decide),
    dif_pos (show (0 : Fin S8000x16.rank) ∈ (dot_S8000x16_S16x128_S8000x128_1_0_0_1_n_n).lhsNonContracting by decide)]
  rfl

theorem dotB6_rhs_col (i : S8000x128.Idx) (q : (dot_S8000x16_S16x128_S8000x128_1_0_0_1_n_n).contr.Idx) :
    ((dot_S8000x16_S16x128_S8000x128_1_0_0_1_n_n).rhsIdx i q 1).val = (i 1).val := by
  unfold DotDims.rhsIdx
  rw [dif_neg (show ¬(1 : Fin S16x128.rank) ∈ (dot_S8000x16_S16x128_S8000x128_1_0_0_1_n_n).rhsBatch by decide),
    dif_pos (show (1 : Fin S16x128.rank) ∈ (dot_S8000x16_S16x128_S8000x128_1_0_0_1_n_n).rhsNonContracting by decide)]
  rfl

/-- Into a zero accumulator, the product at (a, b) is the sum over the 16 contracted positions. -/
theorem matmulB6_apply {φ₁ φ₂ : FTy} (A : FVec Ideal S8000x16 φ₁) (B : FVec Ideal S16x128 φ₂) (a : Fin 8000) (b : Fin 128) :
    matmul (dot_S8000x16_S16x128_S8000x128_1_0_0_1_n_n) none A B (constant (F := Ideal) S8000x128 .f32 0x00000000#32) (ix2 a b)
      = ∑ k : Fin 16, A (ix2 a k) * B (ix2 k b) := by
  simp only [matmul]
  rw [Ideal.matmul_constant_zero_apply, ← Equiv.sum_comp (contrEquiv1 (dot_S8000x16_S16x128_S8000x128_1_0_0_1_n_n) 16 rfl rfl).symm]
  refine Finset.sum_congr rfl fun k _ => ?_
  have hk := contrEquiv1_symm_val (dot_S8000x16_S16x128_S8000x128_1_0_0_1_n_n) 16 rfl rfl k
  have el : (dot_S8000x16_S16x128_S8000x128_1_0_0_1_n_n).lhsIdx (ix2 a b) ((contrEquiv1 (dot_S8000x16_S16x128_S8000x128_1_0_0_1_n_n) 16 rfl rfl).symm k) = ix2 a k :=
    funext fun e => Fin.ext (by
      match e with
      | ⟨0, _⟩ => exact dotB6_lhs_row _ _
      | ⟨1, _⟩ => exact ((dot_S8000x16_S16x128_S8000x128_1_0_0_1_n_n).lhsIdx_val_of_single rfl _ _).trans hk)
  have er : (dot_S8000x16_S16x128_S8000x128_1_0_0_1_n_n).rhsIdx (ix2 a b) ((contrEquiv1 (dot_S8000x16_S16x128_S8000x128_1_0_0_1_n_n) 16 rfl rfl).symm k) = ix2 k b :=
    funext fun e => Fin.ext (by
      match e with
      | ⟨0, _⟩ => exact ((dot_S8000x16_S16x128_S8000x128_1_0_0_1_n_n).rhsIdx_val_of_single rfl _ _).trans hk
      | ⟨1, _⟩ => exact dotB6_rhs_col _ _)
  rw [el, er]

/-! ### The bias row repeated down the rows -/

theorem biasRows6_apply {α : Type} (v : S1x128.Idx → α) (a : Fin 8000) (b : Fin 128) :
    broadcastTo S8000x128 v broadcasts_S1x128_S8000x128 (ix2 a b) = v (ix2 (0 : Fin 1) b) :=
  broadcastTo_apply v broadcasts_S1x128_S8000x128 (ix2 a b) (ix2 (0 : Fin 1) b) (fun e => by
    match e with
    | ⟨0, _⟩ => rfl
    | ⟨1, _⟩ => rfl)

/-! ### The block, entry by entry -/

theorem msgBlock6_apply (x0 : Vec Ideal S8000x128 .f32) (x1 : Vec Ideal S8000x16 .f32) (x2 : Vec Ideal S128x128 .f32)
    (x3 : Vec Ideal S16x128 .f32) (x4 : Vec Ideal S1x128 .f32) (a : Fin 8000) (b : Fin 128) :
    msgBlock6 (F := Ideal) x0 x1 x2 x3 x4 (ValueIdx.ix2 a b)
      = (∑ k : Fin 128, x0 (ValueIdx.ix2 a k) * x2 (ValueIdx.ix2 k b)) + (∑ k : Fin 16, x1 (ValueIdx.ix2 a k) * x3 (ValueIdx.ix2 k b))
        + x4 (ValueIdx.ix2 (0 : Fin 1) b) := by
  rw [msgBlock6_eq_pay]
  unfold k6_pay1
  simp only [shapeCast_self]
  rw [addf_apply, addf_apply, matmulA6_apply, matmulB6_apply, biasRows6_apply]
  simp only [truncf_apply]

end Cert.KernelIdeal.Hand
-- ==== Proof.Region6Array.lean ====
import proofs.«148009_j49555332661695_1_alg».proof.Proof.Region6Value
import Idealize.ShloMosaic.Lib.Pipeline.Value

/-! Region 6 at the ideal values, from blocks to the array. The grid's point `t` handles rows 8000·t … 8000·t + 7999:
    its blocks of the two row-indexed inputs and of the output are those rows, and the two weight matrices and the bias
    row are read whole at every point. So what point `t` writes back is block `t` of ONE function of the whole input
    arrays — entry (r, b) is  Σₖ h[r,k]·wx[k,b] + Σₖ ea[r,k]·we[k,b] + bias[0,b] — and since row r lies in block
    r / 8000, the 100 blocks cover the output array, which therefore ends holding that function. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The message array as one function of the whole input arrays: row r, column b holds
    Σₖ h[r,k]·wx[k,b] + Σₖ ea[r,k]·we[k,b] + bias[0,b]. -/
def msgArray6 (h : Vec Ideal S800000x128 .f32) (ea : Vec Ideal S800000x16 .f32) (wx : Vec Ideal S128x128 .f32) (we : Vec Ideal S16x128 .f32)
    (b : Vec Ideal S1x128 .f32) : Vec Ideal S800000x128 .f32 :=
  fun i => (∑ k : Fin 128, h (ix2 (i 0) k) * wx (ix2 k (i 1))) + (∑ k : Fin 16, ea (ix2 (i 0) k) * we (ix2 k (i 1))) + b (ix2 (0 : Fin 1) (i 1))

theorem msgArray6_apply (h : Vec Ideal S800000x128 .f32) (ea : Vec Ideal S800000x16 .f32) (wx : Vec Ideal S128x128 .f32) (we : Vec Ideal S16x128 .f32)
    (b : Vec Ideal S1x128 .f32) (r : Fin 800000) (q : Fin 128) :
    msgArray6 h ea wx we b (ix2 r q)
      = (∑ k : Fin 128, h (ix2 r k) * wx (ix2 k q)) + (∑ k : Fin 16, ea (ix2 r k) * we (ix2 k q)) + b (ix2 (0 : Fin 1) q) := rfl

/-- Where the windows' blocks sit, decided over the grid: at point `t` the row-indexed windows (0, 1 and the output 5) are at
    block row `t`, block column 0; the weights and the bias are at block (0, 0). -/
theorem blockIndex6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-! ### The input blocks, entry by entry, as entries of the arrays -/

theorem iblk6_0_apply (c : Dev nD) (t : Fin cfg6.N) (p : Fin 8000) (k : Fin 128) (r : Fin 800000) (hr : r.val = t.val * 8000 + p.val) :
    (iblk6 V c 0 t : Vec Ideal S8000x128 .f32) (ix2 p k) = (V c (Pipeline.arrRef spec6 0) : Vec Ideal S800000x128 .f32) (ix2 r k) := by
  obtain ⟨e0, e1, -⟩ := blockIndex6 t
  show V c (Pipeline.arrRef spec6 0) (((cfg6.win 0).blk t).view.emb (ix2 p k)) = V c (Pipeline.arrRef spec6 0) (ix2 r k)
  refine congrArg (V c (Pipeline.arrRef spec6 0)) (funext fun a => Fin.ext ?_)
  match a with
  | ⟨0, _⟩ => show win6_0.index t (0 : Fin 2) * 8000 + 1 * p.val = r.val; rw [e0, hr]; omega
  | ⟨1, _⟩ => show win6_0.index t (1 : Fin 2) * 128 + 1 * k.val = k.val; rw [e1]; omega

theorem iblk6_1_apply (c : Dev nD) (t : Fin cfg6.N) (p : Fin 8000) (k : Fin 16) (r : Fin 800000) (hr : r.val = t.val * 8000 + p.val) :
    (iblk6 V c 1 t : Vec Ideal S8000x16 .f32) (ix2 p k) = (V c (Pipeline.arrRef spec6 1) : Vec Ideal S800000x16 .f32) (ix2 r k) := by
  obtain ⟨-, -, e0, e1, -⟩ := blockIndex6 t
  show V c (Pipeline.arrRef spec6 1) (((cfg6.win 1).blk t).view.emb (ix2 p k)) = V c (Pipeline.arrRef spec6 1) (ix2 r k)
  refine congrArg (V c (Pipeline.arrRef spec6 1)) (funext fun a => Fin.ext ?_)
  match a with
  | ⟨0, _⟩ => show win6_1.index t (0 : Fin 2) * 8000 + 1 * p.val = r.val; rw [e0, hr]; omega
  | ⟨1, _⟩ => show win6_1.index t (1 : Fin 2) * 16 + 1 * k.val = k.val; rw [e1]; omega

theorem iblk6_2_apply (c : Dev nD) (t : Fin cfg6.N) (k : Fin 128) (q : Fin 128) :
    (iblk6 V c 2 t : Vec Ideal S128x128 .f32) (ix2 k q) = (V c (Pipeline.arrRef spec6 2) : Vec Ideal S128x128 .f32) (ix2 k q) := by
  obtain ⟨-, -, -, -, e0, e1, -⟩ := blockIndex6 t
  show V c (Pipeline.arrRef spec6 2) (((cfg6.win 2).blk t).view.emb (ix2 k q)) = V c (Pipeline.arrRef spec6 2) (ix2 k q)
  refine congrArg (V c (Pipeline.arrRef spec6 2)) (funext fun a => Fin.ext ?_)
  match a with
  | ⟨0, _⟩ => show win6_2.index t (0 : Fin 2) * 128 + 1 * k.val = k.val; rw [e0]; omega
  | ⟨1, _⟩ => show win6_2.index t (1 : Fin 2) * 128 + 1 * q.val = q.val; rw [e1]; omega

theorem iblk6_3_apply (c : Dev nD) (t : Fin cfg6.N) (k : Fin 16) (q : Fin 128) :
    (iblk6 V c 3 t : Vec Ideal S16x128 .f32) (ix2 k q) = (V c (Pipeline.arrRef spec6 3) : Vec Ideal S16x128 .f32) (ix2 k q) := by
  obtain ⟨-, -, -, -, -, -, e0, e1, -⟩ := blockIndex6 t
  show V c (Pipeline.arrRef spec6 3) (((cfg6.win 3).blk t).view.emb (ix2 k q)) = V c (Pipeline.arrRef spec6 3) (ix2 k q)
  refine congrArg (V c (Pipeline.arrRef spec6 3)) (funext fun a => Fin.ext ?_)
  match a with
  | ⟨0, _⟩ => show win6_3.index t (0 : Fin 2) * 16 + 1 * k.val = k.val; rw [e0]; omega
  | ⟨1, _⟩ => show win6_3.index t (1 : Fin 2) * 128 + 1 * q.val = q.val; rw [e1]; omega

theorem iblk6_4_apply (c : Dev nD) (t : Fin cfg6.N) (z : Fin 1) (q : Fin 128) :
    (iblk6 V c 4 t : Vec Ideal S1x128 .f32) (ix2 z q) = (V c (Pipeline.arrRef spec6 4) : Vec Ideal S1x128 .f32) (ix2 z q) := by
  obtain ⟨-, -, -, -, -, -, -, -, e0, e1, -⟩ := blockIndex6 t
  show V c (Pipeline.arrRef spec6 4) (((cfg6.win 4).blk t).view.emb (ix2 z q)) = V c (Pipeline.arrRef spec6 4) (ix2 z q)
  refine congrArg (V c (Pipeline.arrRef spec6 4)) (funext fun a => Fin.ext ?_)
  match a with
  | ⟨0, _⟩ => show win6_4.index t (0 : Fin 2) * 1 + 1 * z.val = z.val; rw [e0]; omega
  | ⟨1, _⟩ => show win6_4.index t (1 : Fin 2) * 128 + 1 * q.val = q.val; rw [e1]; omega

/-! ### What a point writes back -/

/-- Point `t` writes back block `t` of the message array of the arrays as the region finds them. -/
theorem flushed6_eq (c : Dev nD) (t : Fin cfg6.N) :
    (dat6 (F := Ideal) V c).flushed 5 t = ((cfg6.win 5).blk t).view.read (Elt Ideal)
      (msgArray6 (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 (F := Ideal) V c).after 5 t) = _
  rw [after6_5]
  obtain ⟨-, -, -, -, -, -, -, -, -, -, e0, e1⟩ := blockIndex6 t
  have ht : t.val < 100 := Nat.lt_of_lt_of_eq t.isLt (show cfg6.N = 100 from N_6)
  funext j
  obtain ⟨p, q, rfl⟩ : ∃ (p : Fin 8000) (q : Fin 128), j = ix2 p q := ⟨j 0, j 1, eq_ix2 j⟩
  have hp : p.val < 8000 := p.isLt
  have hemb : ((cfg6.win 5).blk t).view.emb (ix2 p q) = (ix2 (⟨t.val * 8000 + p.val, by omega⟩ : Fin 800000) q : S800000x128.Idx) := by
    funext a; apply Fin.ext
    match a with
    | ⟨0, _⟩ => show win6_5.index t (0 : Fin 2) * 8000 + 1 * p.val = t.val * 8000 + p.val; rw [e0]; omega
    | ⟨1, _⟩ => show win6_5.index t (1 : Fin 2) * 128 + 1 * q.val = q.val; rw [e1]; omega
  show msgBlock6 (F := Ideal) (iblk6 V c 0 t) (iblk6 V c 1 t) (iblk6 V c 2 t) (iblk6 V c 3 t) (iblk6 V c 4 t) (ix2 p q)
    = msgArray6 (V c (Pipeline.arrRef spec6 0)) (V c (Pipeline.arrRef spec6 1)) (V c (Pipeline.arrRef spec6 2))
        (V c (Pipeline.arrRef spec6 3)) (V c (Pipeline.arrRef spec6 4)) (((cfg6.win 5).blk t).view.emb (ix2 p q))
  rw [hemb, msgArray6_apply, msgBlock6_apply]
  simp only [iblk6_0_apply V c t p _ ⟨t.val * 8000 + p.val, by omega⟩ rfl, iblk6_1_apply V c t p _ ⟨t.val * 8000 + p.val, by omega⟩ rfl,
    iblk6_2_apply, iblk6_3_apply, iblk6_4_apply]

/-! ### The blocks cover the array -/

/-- An index of the output array is in point `t`'s block iff each coordinate is in the block's range on its axis. -/
theorem mem_blk6 (t : Fin cfg6.N) (i : S800000x128.Idx) :
    i ∈ ((cfg6.win 5).blk t).view.set ↔ ∀ a : Fin 2, win6_5.index t a * S8000x128.size a ≤ (i a).val ∧ (i a).val < win6_5.index t a * S8000x128.size a + S8000x128.size a := by
  show i ∈ ((View.whole main_v82).slice (win6_5.rect t)).set ↔ _
  rw [View.set_slice_whole, Rect.mem_set_unit]
  exact Iff.rfl

/-- Row r lies in the block of point r / 8000, and every point writes its block back. -/
theorem cover6_out (i : S800000x128.Idx) : ∃ t : Fin cfg6.N, (cfg6.win 5).flush t = true ∧ i ∈ ((cfg6.win 5).blk t).view.set := by
  have hi0 : (i 0).val < 800000 := (i 0).isLt
  have hi1 : (i 1).val < 128 := (i 1).isLt
  let t : Fin cfg6.N := ⟨(i 0).val / 8000, by rw [show cfg6.N = 100 from N_6]; omega⟩
  obtain ⟨-, -, -, -, -, -, -, -, -, -, e0, e1⟩ := blockIndex6 t
  have htv : t.val = (i 0).val / 8000 := rfl
  refine ⟨t, flush6_5 t, ?_⟩
  rw [mem_blk6]
  intro a
  match a with
  | ⟨0, _⟩ => show win6_5.index t (0 : Fin 2) * 8000 ≤ (i 0).val ∧ (i 0).val < win6_5.index t (0 : Fin 2) * 8000 + 8000; rw [e0, htv]; omega
  | ⟨1, _⟩ => show win6_5.index t (1 : Fin 2) * 128 ≤ (i 1).val ∧ (i 1).val < win6_5.index t (1 : Fin 2) * 128 + 128; rw [e1]; omega

/-! ### The output array after the region -/

theorem final6 (c : Dev nD) : (dat6 (F := Ideal) V c).arrAt 5 cfg6.N
    = msgArray6 (V c (Pipeline.arrRef spec6 0)) (V c (Pipeline.arrRef spec6 1)) (V c (Pipeline.arrRef spec6 2))
        (V c (Pipeline.arrRef spec6 3)) (V c (Pipeline.arrRef spec6 4)) :=
  (dat6 (F := Ideal) V c).arrAt_eq_of_cover 5 _ (fun t _ => flushed6_eq V c t) (cover6_out)

end Cert.KernelIdeal.Hand
-- ==== Proof.Region7Value.lean ====
import proofs.«148009_j49555332661695_1_alg».proof.Proof.Region7
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)
open scoped BigOperators
variable (V : (c : Dev nD) → (b : Ref sig .tc) → Buf (Elt Ideal) ((c : Thread nD τ).loc b))

/-! # Region 7 at the ideal values: the accumulators read at a column

At the extended reals a column reduction is the sum over the rows, so after the last point the first accumulator
holds, at column `b`, the sum over all ten blocks and all their rows of the entry at column `b`; the second the same
sum of squares. -/

/-- The column reduction of a block at column `b`: the sum over its rows. -/
theorem colsum7_apply (x : FVec Ideal S10000x128 .f32) (hφ : FKind.Formats .f32)
    (hacc : (0x00000000#32 : BitVec 32) = FKind.add.neutral .f32 hφ) (b : Fin 128) :
    multiReduction .add [0] S128 x 0x00000000#32 reduces_S10000x128_S128 hφ hacc (ix1 b) = ∑ r : Fin 10000, x (ix2 r b) := by
  refine (Ideal.multiReduction_add_single x 0x00000000#32 reduces_S10000x128_S128 hφ hacc (ix1 b)).trans ?_
  refine Finset.sum_congr rfl fun r _ => congrArg x ?_
  funext a; fin_cases a <;> rfl

/-- The zero the accumulators start from. -/
theorem k7_pay1_apply (j : S1x128.Idx) : (k7_pay1 (F := Ideal)) j = 0 := by
  unfold k7_pay1
  rw [shapeCast_self]
  exact Ideal.ofBits_zero_f32
theorem k7_pay2_apply (j : S1x128.Idx) : (k7_pay2 (F := Ideal)) j = 0 := by
  unfold k7_pay2
  rw [shapeCast_self]
  exact Ideal.ofBits_zero_f32

/-- One step of the first accumulator at column `b`: what it held plus the block's column sum. -/
theorem k7_pay4_apply (x0 : Vec Ideal S10000x128 .f32) (xs0 : Vec Ideal S1x128 .f32) (b : Fin 128) :
    k7_pay4 x0 xs0 (ix2 (0 : Fin 1) b) = xs0 (ix2 (0 : Fin 1) b) + ∑ r : Fin 10000, x0 (ix2 r b) := by
  unfold k7_pay4 k7_pay3
  rw [shapeCast_self, shapeCast_self]
  refine (addf_apply _ _ _).trans ?_
  refine congrArg (xs0 (ix2 (0 : Fin 1) b) + ·) ?_
  refine (shapeCast_a_1a_apply _ _ (0 : Fin 1) b).trans ?_
  exact colsum7_apply x0 _ _ b

/-- One step of the second accumulator at column `b`: what it held plus the column sum of the block's squares. -/
theorem k7_pay5_apply (x0 : Vec Ideal S10000x128 .f32) (xs1 : Vec Ideal S1x128 .f32) (b : Fin 128) :
    k7_pay5 x0 xs1 (ix2 (0 : Fin 1) b) = xs1 (ix2 (0 : Fin 1) b) + ∑ r : Fin 10000, x0 (ix2 r b) * x0 (ix2 r b) := by
  unfold k7_pay5 k7_pay3
  rw [shapeCast_self, shapeCast_self]
  refine (addf_apply _ _ _).trans ?_
  refine congrArg (xs1 (ix2 (0 : Fin 1) b) + ·) ?_
  refine (shapeCast_a_1a_apply _ _ (0 : Fin 1) b).trans ?_
  exact colsum7_apply (mulf x0 x0) _ _ b

/-- The input block at position `n`, as a matrix. -/
abbrev blkAt7 (c : Dev nD) (n : ℕ) (hn : n < cfg7.N) : Vec Ideal S10000x128 .f32 := iblk7 V c 0 ⟨n, hn⟩

/-- The accumulators after position `n`, at column `b`: the sums over the blocks up to `n`. -/
theorem acc7_apply (c : Dev nD) (b : Fin 128) : ∀ (n : ℕ) (hn : n < cfg7.N),
    (acc7 V c n hn).1 (ix2 (0 : Fin 1) b)
        = ∑ t : Fin (n + 1), ∑ r : Fin 10000, blkAt7 V c t.val (lt_of_le_of_lt (Nat.lt_succ_iff.mp t.isLt) hn) (ix2 r b)
      ∧ (acc7 V c n hn).2 (ix2 (0 : Fin 1) b)
        = ∑ t : Fin (n + 1), ∑ r : Fin 10000, blkAt7 V c t.val (lt_of_le_of_lt (Nat.lt_succ_iff.mp t.isLt) hn) (ix2 r b)
            * blkAt7 V c t.val (lt_of_le_of_lt (Nat.lt_succ_iff.mp t.isLt) hn) (ix2 r b)
  | 0, hn => by
    constructor
    · show k7_pay4 (blkAt7 V c 0 hn) (k7_pay1 (F := Ideal)) (ix2 (0 : Fin 1) b) = _
      rw [k7_pay4_apply, k7_pay1_apply, zero_add, Fin.sum_univ_one]; rfl
    · show k7_pay5 (blkAt7 V c 0 hn) (k7_pay2 (F := Ideal)) (ix2 (0 : Fin 1) b) = _
      rw [k7_pay5_apply, k7_pay2_apply, zero_add, Fin.sum_univ_one]; rfl
  | n + 1, hn => by
    obtain ⟨ih1, ih2⟩ := acc7_apply c b n (Nat.lt_of_succ_lt hn)
    constructor
    · show k7_pay4 (blkAt7 V c (n + 1) hn) (acc7 V c n (Nat.lt_of_succ_lt hn)).1 (ix2 (0 : Fin 1) b) = _
      rw [k7_pay4_apply, ih1, Fin.sum_univ_castSucc (n := n + 1)]; rfl
    · show k7_pay5 (blkAt7 V c (n + 1) hn) (acc7 V c n (Nat.lt_of_succ_lt hn)).2 (ix2 (0 : Fin 1) b) = _
      rw [k7_pay5_apply, ih2, Fin.sum_univ_castSucc (n := n + 1)]; rfl

/-- After the last point the first accumulator holds, at column `b`, the sum of the entries of column `b` over all
    ten blocks and all their rows. -/
theorem acc7_last_apply (c : Dev nD) (h9 : 9 < cfg7.N) (b : Fin 128) :
    (acc7 V c 9 h9).1 (ix2 (0 : Fin 1) b)
      = ∑ t : Fin 10, ∑ r : Fin 10000, blkAt7 V c t.val (lt_of_lt_of_eq t.isLt N_7.symm) (ix2 r b) :=
  (acc7_apply V c b 9 h9).1

/-- And the second the same sum of the squared entries. -/
theorem acc7_last_apply_sq (c : Dev nD) (h9 : 9 < cfg7.N) (b : Fin 128) :
    (acc7 V c 9 h9).2 (ix2 (0 : Fin 1) b)
      = ∑ t : Fin 10, ∑ r : Fin 10000, blkAt7 V c t.val (lt_of_lt_of_eq t.isLt N_7.symm) (ix2 r b)
          * blkAt7 V c t.val (lt_of_lt_of_eq t.isLt N_7.symm) (ix2 r b) :=
  (acc7_apply V c b 9 h9).2

end Cert.KernelIdeal.Hand
end
-- ==== Proof.Region7Array.lean ====
import proofs.«148009_j49555332661695_1_alg».proof.Proof.Region7Value
import proofs.«148009_j49555332661695_1_alg».proof.Proof.LibBlockSum
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)
open scoped BigOperators
variable (V : (c : Dev nD) → (b : Ref sig .tc) → Buf (Elt Ideal) ((c : Thread nD τ).loc b))

/-! # Region 7 at the ideal values: the two output arrays, entry by entry

The two output arrays are written back once, whole, at the last point; so they end holding the accumulators after the
last point, which at column `b` are the sum (resp. the sum of squares) of column `b` of the input array over all its
100000 rows: the ten blocks of 10000 consecutive rows taken together. -/

/-- The input array as the region finds it, as a matrix. -/
abbrev xin7 (c : Dev nD) : Vec Ideal S100000x128 .f32 := V c (Pipeline.arrRef spec7 0)

/-- The input window's block index at point `t` is `(t, 0)`. -/
theorem idx7_in : ∀ t : Fin cfg7.N, win7_0.index t 0 = t.val ∧ win7_0.index t 1 = 0 :=
  (by decide +kernel : ∀ t : Fin grid7.N, win7_0.index t 0 = t.val ∧ win7_0.index t 1 = 0)

/-- Row `r` of the block at point `t` is row `10000 t + r` of the array. -/
theorem blkAt7_apply (c : Dev nD) (t : Fin cfg7.N) (r : Fin 10000) (b : Fin 128) (n : Fin 100000)
    (hn : n.val = 10000 * t.val + r.val) :
    (iblk7 V c 0 t : Vec Ideal S10000x128 .f32) (ix2 r b) = xin7 V c (ix2 n b) := by
  obtain ⟨hi0, hi1⟩ := idx7_in t
  unfold iblk7
  rw [View.read_apply]
  show V c (Pipeline.arrRef spec7 0) _ = V c (Pipeline.arrRef spec7 0) _
  refine congrArg (V c (Pipeline.arrRef spec7 0)) ?_
  funext a
  apply Fin.ext
  match a with
  | ⟨0, _⟩ => show win7_0.index t 0 * 10000 + 1 * r.val = n.val; rw [hi0, hn]; omega
  | ⟨1, _⟩ => show win7_0.index t 1 * 128 + 1 * b.val = b.val; rw [hi1]; omega

/-- The accumulators after the last point. -/
abbrev tot7_1 (c : Dev nD) : Vec Ideal S1x128 .f32 := (acc7 V c t7_9.val t7_9.isLt).1
abbrev tot7_2 (c : Dev nD) : Vec Ideal S1x128 .f32 := (acc7 V c t7_9.val t7_9.isLt).2

/-- The one write-back of window 1, at the last point, writes the whole array: its block is the array itself
    (block index zero on both axes), and what the body left is the first accumulator after the last point. -/
theorem flushed7_1_eq (c : Dev nD) (t : Fin cfg7.N) (hf : (cfg7.win 1).flush t = true) :
    (dat7 V c).flushed 1 t = ((cfg7.win 1).blk t).view.read (Elt Ideal) (tot7_1 V c) := by
  have hN : cfg7.N = 10 := N_7
  have h9 : t.val = 9 := by have := (flush7_1 t).mp hf; have := t.isLt; omega
  obtain rfl : t = t7_9 := Fin.ext h9
  show (cfg7.win 1).cut (grid7.coords t7_9) ((dat7 V c).after 1 t7_9) = _
  rw [after7_1]
  have hz' : (fun a => win7_1.index t7_9 a * main_v86_0.ty.shape.size a) = fun _ => 0 := funext fun a => by fin_cases a <;> decide +kernel
  exact (Memref.read_access_unit_zero (Elt Ideal) main_v86_0 hz' (fun a => by rw [congrFun hz' a]; simp) (tot7_1 V c)).symm

/-- So output array 1 ends holding the first accumulator after the last point: the last point's block covers it. -/
theorem arr7_1_eq (c : Dev nD) : (dat7 V c).arrAt 1 cfg7.N = tot7_1 V c :=
  (dat7 V c).arrAt_eq_of_cover 1 (tot7_1 V c) (flushed7_1_eq V c) fun i =>
    ⟨t7_9, (flush7_1 t7_9).mpr (by decide), by
      show i ∈ ((View.whole main_v86_0).slice (win7_1.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_1.index t7_9 0 * win7_1.size 0 ≤ (i 0 : Nat) ∧ (i 0 : Nat) < win7_1.index t7_9 0 * win7_1.size 0 + win7_1.xsize (grid7.coords t7_9) 0
                  rw [show win7_1.index t7_9 0 * win7_1.size 0 = 0 from by decide +kernel, show win7_1.xsize (grid7.coords t7_9) 0 = 1 from by decide +kernel]; omega
      | ⟨1, _⟩ => show win7_1.index t7_9 1 * win7_1.size 1 ≤ (i 1 : Nat) ∧ (i 1 : Nat) < win7_1.index t7_9 1 * win7_1.size 1 + win7_1.xsize (grid7.coords t7_9) 1
                  rw [show win7_1.index t7_9 1 * win7_1.size 1 = 0 from by decide +kernel, show win7_1.xsize (grid7.coords t7_9) 1 = 128 from by decide +kernel]; omega⟩

/-- The one write-back of window 2, at the last point, writes the whole array: its block is the array itself
    (block index zero on both axes), and what the body left is the second accumulator after the last point. -/
theorem flushed7_2_eq (c : Dev nD) (t : Fin cfg7.N) (hf : (cfg7.win 2).flush t = true) :
    (dat7 V c).flushed 2 t = ((cfg7.win 2).blk t).view.read (Elt Ideal) (tot7_2 V c) := by
  have hN : cfg7.N = 10 := N_7
  have h9 : t.val = 9 := by have := (flush7_2 t).mp hf; have := t.isLt; omega
  obtain rfl : t = t7_9 := Fin.ext h9
  show (cfg7.win 2).cut (grid7.coords t7_9) ((dat7 V c).after 2 t7_9) = _
  rw [after7_2]
  have hz' : (fun a => win7_2.index t7_9 a * main_v86_1.ty.shape.size a) = fun _ => 0 := funext fun a => by fin_cases a <;> decide +kernel
  exact (Memref.read_access_unit_zero (Elt Ideal) main_v86_1 hz' (fun a => by rw [congrFun hz' a]; simp) (tot7_2 V c)).symm

/-- So output array 2 ends holding the second accumulator after the last point: the last point's block covers it. -/
theorem arr7_2_eq (c : Dev nD) : (dat7 V c).arrAt 2 cfg7.N = tot7_2 V c :=
  (dat7 V c).arrAt_eq_of_cover 2 (tot7_2 V c) (flushed7_2_eq V c) fun i =>
    ⟨t7_9, (flush7_2 t7_9).mpr (by decide), by
      show i ∈ ((View.whole main_v86_1).slice (win7_2.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_2.index t7_9 0 * win7_2.size 0 ≤ (i 0 : Nat) ∧ (i 0 : Nat) < win7_2.index t7_9 0 * win7_2.size 0 + win7_2.xsize (grid7.coords t7_9) 0
                  rw [show win7_2.index t7_9 0 * win7_2.size 0 = 0 from by decide +kernel, show win7_2.xsize (grid7.coords t7_9) 0 = 1 from by decide +kernel]; omega
      | ⟨1, _⟩ => show win7_2.index t7_9 1 * win7_2.size 1 ≤ (i 1 : Nat) ∧ (i 1 : Nat) < win7_2.index t7_9 1 * win7_2.size 1 + win7_2.xsize (grid7.coords t7_9) 1
                  rw [show win7_2.index t7_9 1 * win7_2.size 1 = 0 from by decide +kernel, show win7_2.xsize (grid7.coords t7_9) 1 = 128 from by decide +kernel]; omega⟩

/-- Ten blocks of 10000 rows are the 100000 rows. -/
theorem rows7_sum (c : Dev nD) (b : Fin 128) (g : EReal → EReal) :
    ∑ t : Fin 10, ∑ r : Fin 10000, g (blkAt7 V c t.val (lt_of_lt_of_eq t.isLt N_7.symm) (ix2 r b))
      = ∑ n : Fin 100000, g (xin7 V c (ix2 n b)) := by
  refine Eq.trans ?_ (Cert.LibBlockSum.sum_blocks 10 10000 (fun n : Fin (10 * 10000) => g (xin7 V c (ix2 (n : Fin 100000) b))))
  refine Finset.sum_congr rfl fun t _ => Finset.sum_congr rfl fun r _ => congrArg g ?_
  exact blkAt7_apply V c ⟨t.val, lt_of_lt_of_eq t.isLt N_7.symm⟩ r b _ rfl

/-- THE FIRST OUTPUT ARRAY after the region, at column `b`: the sum of column `b` of the input array over all rows. -/
theorem final7_sum (c : Dev nD) (u : Fin 1) (b : Fin 128) :
    ((dat7 V c).arrAt 1 cfg7.N : Vec Ideal S1x128 .f32) (ix2 u b) = ∑ n : Fin 100000, xin7 V c (ix2 n b) := by
  obtain rfl : u = 0 := Subsingleton.elim _ _
  rw [arr7_1_eq]
  exact (acc7_last_apply V c t7_9.isLt b).trans (rows7_sum V c b id)

/-- THE SECOND OUTPUT ARRAY after the region, at column `b`: the sum of the squares of column `b` over all rows. -/
theorem final7_sq (c : Dev nD) (u : Fin 1) (b : Fin 128) :
    ((dat7 V c).arrAt 2 cfg7.N : Vec Ideal S1x128 .f32) (ix2 u b)
      = ∑ n : Fin 100000, xin7 V c (ix2 n b) * xin7 V c (ix2 n b) := by
  obtain rfl : u = 0 := Subsingleton.elim _ _
  rw [arr7_2_eq]
  exact (acc7_last_apply_sq V c t7_9.isLt b).trans (rows7_sum V c b (fun y => y * y))

end Cert.KernelIdeal.Hand
end
-- ==== Proof.Region8Value.lean ====
import proofs.«148009_j49555332661695_1_alg».proof.Proof.Region8
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! # Region 8's output block at the extended reals, element by element -/

/-- The two offsets of a whole-block rectangle are zero. -/
theorem zeros8 : (![0, 0] : Fin 2 → Nat) = fun _ => 0 := funext fun a => by fin_cases a <;> rfl

/-- A row spread down the block reads, at row `a` and column `b`, the row's element at column `b`. -/
theorem spread8_apply (r : Vec Ideal S1x128 .f32) (a : Fin 10000) (b : Fin 128) :
    broadcastTo S10000x128 r broadcasts_S1x128_S10000x128 (ix2 a b) = r (ix2 0 b) :=
  broadcastTo_apply r broadcasts_S1x128_S10000x128 (ix2 a b) (ix2 0 b) (fun d => match d with
    | ⟨0, _⟩ => rfl
    | ⟨1, _⟩ => rfl)

/-- At row `a`, column `b` the block holds the larger of zero and: the datum less the column's mean, times the
    reciprocal root of the column's variance plus the constant, times the column's scale, plus the column's shift. -/
theorem bnBlock8_apply (x0 : Vec Ideal S10000x128 .f32) (x1 x2 x3 x4 : Vec Ideal S1x128 .f32) (a : Fin 10000) (b : Fin 128) :
    bnBlock8 (F := Ideal) x0 x1 x2 x3 x4 (ix2 a b)
      = max (((x0 (ix2 a b) - x1 (ix2 0 b)) * Ideal.rsqrt (x2 (ix2 0 b) + Ideal.ofBits .f32 0x3727C5AC#32)) * x3 (ix2 0 b)
          + x4 (ix2 0 b)) 0 := by
  unfold bnBlock8
  rw [View.canon_unit_zero zeros8, View.ld_unit_zero (S := S10000x128) zeros8, View.ld_unit_zero (S := S1x128) zeros8,
    View.ld_unit_zero (S := S1x128) zeros8, View.ld_unit_zero (S := S1x128) zeros8, View.ld_unit_zero (S := S1x128) zeros8]
  unfold k8_pay1
  simp only [shapeCast_self]
  rw [maximumf_apply, addf_apply, mulf_apply, mulf_apply, subf_apply, spread8_apply, spread8_apply, spread8_apply,
    spread8_apply, broadcast_apply]
  show max (((x0 (ix2 a b) - x1 (ix2 0 b)) * Ideal.rsqrt (x2 (ix2 0 b) + Ideal.ofBits .f32 0x3727C5AC#32)) * x3 (ix2 0 b)
          + x4 (ix2 0 b)) (Ideal.ofBits .f32 0x00000000#32) = _
  rw [Ideal.ofBits_zero_f32]

end Cert.KernelIdeal.Hand
-- ==== Proof.Region8Array.lean ====
import proofs.«148009_j49555332661695_1_alg».proof.Proof.Region8Value
import proofs.«148009_j49555332661695_1_alg».proof.Proof.LayerDefs
import Idealize.ShloMosaic.Lib.Pipeline.Value

/-! Region 8 at the extended reals, from blocks to the array. Grid point `t` handles rows 10000·t … 10000·t + 9999: its
    blocks of the data array and of the output array are those rows, and the four rows (mean, variance, scale, shift)
    are read whole at every point. So what point `t` writes back is block `t` of one function of the whole arrays —
    entry (r, q) is the larger of zero and (x[r,q] − mean[q])·rsqrt(var[q] + ε)·scale[q] + shift[q] — and since row r
    lies in block r / 10000, the ten blocks cover the output array, which ends holding that function. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The normalised array at row `r`, column `q`. -/
theorem kerNorm8_apply (x : FVec Ideal S100000x128 .f32) (mean var g be : FVec Ideal S1x128 .f32) (r : Fin 100000) (q : Fin 128) :
    Cert.Proof.Layer.kerNorm x mean var g be (ix2 r q)
      = max (((x (ix2 r q) - mean (ix2 (0 : Fin 1) q)) * Ideal.rsqrt (var (ix2 (0 : Fin 1) q) + Ideal.ofBits .f32 0x3727C5AC#32))
          * g (ix2 (0 : Fin 1) q) + be (ix2 (0 : Fin 1) q)) 0 := rfl

/-- Where the windows' blocks sit, decided over the grid: at point `t` the data window and the output window are at
    block row `t`, block column 0; the four row windows are at block (0, 0). -/
theorem blockIndex8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-! ### The input blocks, entry by entry, as entries of the arrays -/

theorem iblk8_0_apply (c : Dev nD) (t : Fin cfg8.N) (p : Fin 10000) (k : Fin 128) (r : Fin 100000) (hr : r.val = t.val * 10000 + p.val) :
    (iblk8 V c 0 t : Vec Ideal S10000x128 .f32) (ix2 p k) = (V c (Pipeline.arrRef spec8 0) : Vec Ideal S100000x128 .f32) (ix2 r k) := by
  obtain ⟨e0, e1, -⟩ := blockIndex8 t
  show V c (Pipeline.arrRef spec8 0) (((cfg8.win 0).blk t).view.emb (ix2 p k)) = V c (Pipeline.arrRef spec8 0) (ix2 r k)
  refine congrArg (V c (Pipeline.arrRef spec8 0)) (funext fun a => Fin.ext ?_)
  match a with
  | ⟨0, _⟩ => show win8_0.index t (0 : Fin 2) * 10000 + 1 * p.val = r.val; rw [e0, hr]; omega
  | ⟨1, _⟩ => show win8_0.index t (1 : Fin 2) * 128 + 1 * k.val = k.val; rw [e1]; omega

theorem iblk8_1_apply (c : Dev nD) (t : Fin cfg8.N) (z : Fin 1) (q : Fin 128) :
    (iblk8 V c 1 t : Vec Ideal S1x128 .f32) (ix2 z q) = (V c (Pipeline.arrRef spec8 1) : Vec Ideal S1x128 .f32) (ix2 z q) := by
  obtain ⟨-, -, e0, e1, -⟩ := blockIndex8 t
  show V c (Pipeline.arrRef spec8 1) (((cfg8.win 1).blk t).view.emb (ix2 z q)) = V c (Pipeline.arrRef spec8 1) (ix2 z q)
  refine congrArg (V c (Pipeline.arrRef spec8 1)) (funext fun a => Fin.ext ?_)
  match a with
  | ⟨0, _⟩ => show win8_1.index t (0 : Fin 2) * 1 + 1 * z.val = z.val; rw [e0]; omega
  | ⟨1, _⟩ => show win8_1.index t (1 : Fin 2) * 128 + 1 * q.val = q.val; rw [e1]; omega

theorem iblk8_2_apply (c : Dev nD) (t : Fin cfg8.N) (z : Fin 1) (q : Fin 128) :
    (iblk8 V c 2 t : Vec Ideal S1x128 .f32) (ix2 z q) = (V c (Pipeline.arrRef spec8 2) : Vec Ideal S1x128 .f32) (ix2 z q) := by
  obtain ⟨-, -, -, -, e0, e1, -⟩ := blockIndex8 t
  show V c (Pipeline.arrRef spec8 2) (((cfg8.win 2).blk t).view.emb (ix2 z q)) = V c (Pipeline.arrRef spec8 2) (ix2 z q)
  refine congrArg (V c (Pipeline.arrRef spec8 2)) (funext fun a => Fin.ext ?_)
  match a with
  | ⟨0, _⟩ => show win8_2.index t (0 : Fin 2) * 1 + 1 * z.val = z.val; rw [e0]; omega
  | ⟨1, _⟩ => show win8_2.index t (1 : Fin 2) * 128 + 1 * q.val = q.val; rw [e1]; omega

theorem iblk8_3_apply (c : Dev nD) (t : Fin cfg8.N) (z : Fin 1) (q : Fin 128) :
    (iblk8 V c 3 t : Vec Ideal S1x128 .f32) (ix2 z q) = (V c (Pipeline.arrRef spec8 3) : Vec Ideal S1x128 .f32) (ix2 z q) := by
  obtain ⟨-, -, -, -, -, -, e0, e1, -⟩ := blockIndex8 t
  show V c (Pipeline.arrRef spec8 3) (((cfg8.win 3).blk t).view.emb (ix2 z q)) = V c (Pipeline.arrRef spec8 3) (ix2 z q)
  refine congrArg (V c (Pipeline.arrRef spec8 3)) (funext fun a => Fin.ext ?_)
  match a with
  | ⟨0, _⟩ => show win8_3.index t (0 : Fin 2) * 1 + 1 * z.val = z.val; rw [e0]; omega
  | ⟨1, _⟩ => show win8_3.index t (1 : Fin 2) * 128 + 1 * q.val = q.val; rw [e1]; omega

theorem iblk8_4_apply (c : Dev nD) (t : Fin cfg8.N) (z : Fin 1) (q : Fin 128) :
    (iblk8 V c 4 t : Vec Ideal S1x128 .f32) (ix2 z q) = (V c (Pipeline.arrRef spec8 4) : Vec Ideal S1x128 .f32) (ix2 z q) := by
  obtain ⟨-, -, -, -, -, -, -, -, e0, e1, -⟩ := blockIndex8 t
  show V c (Pipeline.arrRef spec8 4) (((cfg8.win 4).blk t).view.emb (ix2 z q)) = V c (Pipeline.arrRef spec8 4) (ix2 z q)
  refine congrArg (V c (Pipeline.arrRef spec8 4)) (funext fun a => Fin.ext ?_)
  match a with
  | ⟨0, _⟩ => show win8_4.index t (0 : Fin 2) * 1 + 1 * z.val = z.val; rw [e0]; omega
  | ⟨1, _⟩ => show win8_4.index t (1 : Fin 2) * 128 + 1 * q.val = q.val; rw [e1]; omega

/-! ### What a point writes back -/

/-- Point `t` writes back block `t` of the normalised array of the arrays as the region finds them. -/
theorem flushed8_eq (c : Dev nD) (t : Fin cfg8.N) :
    (dat8 (F := Ideal) V c).flushed 5 t = ((cfg8.win 5).blk t).view.read (Elt Ideal)
      (Cert.Proof.Layer.kerNorm (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 (F := Ideal) V c).after 5 t) = _
  rw [after8_5]
  obtain ⟨-, -, -, -, -, -, -, -, -, -, e0, e1⟩ := blockIndex8 t
  have ht : t.val < 10 := Nat.lt_of_lt_of_eq t.isLt (show cfg8.N = 10 from N_8)
  funext j
  obtain ⟨p, q, rfl⟩ : ∃ (p : Fin 10000) (q : Fin 128), j = ix2 p q := ⟨j 0, j 1, eq_ix2 j⟩
  have hp : p.val < 10000 := p.isLt
  have hemb : ((cfg8.win 5).blk t).view.emb (ix2 p q) = (ix2 (⟨t.val * 10000 + p.val, by omega⟩ : Fin 100000) q : S100000x128.Idx) := by
    funext a; apply Fin.ext
    match a with
    | ⟨0, _⟩ => show win8_5.index t (0 : Fin 2) * 10000 + 1 * p.val = t.val * 10000 + p.val; rw [e0]; omega
    | ⟨1, _⟩ => show win8_5.index t (1 : Fin 2) * 128 + 1 * q.val = q.val; rw [e1]; omega
  show bnBlock8 (F := Ideal) (iblk8 V c 0 t) (iblk8 V c 1 t) (iblk8 V c 2 t) (iblk8 V c 3 t) (iblk8 V c 4 t) (ix2 p q)
    = Cert.Proof.Layer.kerNorm (V c (Pipeline.arrRef spec8 0)) (V c (Pipeline.arrRef spec8 1)) (V c (Pipeline.arrRef spec8 2))
        (V c (Pipeline.arrRef spec8 3)) (V c (Pipeline.arrRef spec8 4)) (((cfg8.win 5).blk t).view.emb (ix2 p q))
  rw [hemb, kerNorm8_apply, bnBlock8_apply]
  simp only [iblk8_0_apply V c t p _ ⟨t.val * 10000 + p.val, by omega⟩ rfl, iblk8_1_apply, iblk8_2_apply, iblk8_3_apply, iblk8_4_apply]

/-! ### The blocks cover the array -/

/-- An index of the output array is in point `t`'s block iff each coordinate is in the block's range on its axis. -/
theorem mem_blk8 (t : Fin cfg8.N) (i : S100000x128.Idx) :
    i ∈ ((cfg8.win 5).blk t).view.set ↔ ∀ a : Fin 2, win8_5.index t a * S10000x128.size a ≤ (i a).val ∧ (i a).val < win8_5.index t a * S10000x128.size a + S10000x128.size a := by
  show i ∈ ((View.whole main_v99).slice (win8_5.rect t)).set ↔ _
  rw [View.set_slice_whole, Rect.mem_set_unit]
  exact Iff.rfl

/-- Row r lies in the block of point r / 10000, and every point writes its block back. -/
theorem cover8_out (i : S100000x128.Idx) : ∃ t : Fin cfg8.N, (cfg8.win 5).flush t = true ∧ i ∈ ((cfg8.win 5).blk t).view.set := by
  have hi0 : (i 0).val < 100000 := (i 0).isLt
  have hi1 : (i 1).val < 128 := (i 1).isLt
  let t : Fin cfg8.N := ⟨(i 0).val / 10000, by rw [show cfg8.N = 10 from N_8]; omega⟩
  obtain ⟨-, -, -, -, -, -, -, -, -, -, e0, e1⟩ := blockIndex8 t
  have htv : t.val = (i 0).val / 10000 := rfl
  refine ⟨t, flush8_5 t, ?_⟩
  rw [mem_blk8]
  intro a
  match a with
  | ⟨0, _⟩ => show win8_5.index t (0 : Fin 2) * 10000 ≤ (i 0).val ∧ (i 0).val < win8_5.index t (0 : Fin 2) * 10000 + 10000; rw [e0, htv]; omega
  | ⟨1, _⟩ => show win8_5.index t (1 : Fin 2) * 128 ≤ (i 1).val ∧ (i 1).val < win8_5.index t (1 : Fin 2) * 128 + 128; rw [e1]; omega

/-! ### The output array after the region -/

theorem final8 (c : Dev nD) : (dat8 (F := Ideal) V c).arrAt 5 cfg8.N
    = Cert.Proof.Layer.kerNorm (V c (Pipeline.arrRef spec8 0)) (V c (Pipeline.arrRef spec8 1)) (V c (Pipeline.arrRef spec8 2))
        (V c (Pipeline.arrRef spec8 3)) (V c (Pipeline.arrRef spec8 4)) :=
  (dat8 (F := Ideal) V c).arrAt_eq_of_cover 5 _ (fun t _ => flushed8_eq V c t) (cover8_out)

end Cert.KernelIdeal.Hand
-- ==== Proof.Region9Value.lean ====
import proofs.«148009_j49555332661695_1_alg».proof.Proof.Region9
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! # Region 9's output block at the extended reals, element by element -/

/-- The two offsets of a whole-block rectangle are zero. -/
theorem zeros9 : (![0, 0] : Fin 2 → Nat) = fun _ => 0 := funext fun a => by fin_cases a <;> rfl

/-! ## The pieces, read at an index -/

/-- A rows-by-columns product onto a zero accumulator, at row `a` and column `b`, is the sum over the contracted
    coordinate of the products of the entries. -/
theorem prod9_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row spread down a block reads, at row `a` and column `b`, the row's element at column `b`. -/
theorem spreadRow9h_apply (r : Vec Ideal S1x256 .f32) (a : Fin 1024) (b : Fin 256) :
    broadcastTo S1024x256 r broadcasts_S1x256_S1024x256 (ix2 a b) = r (ix2 0 b) :=
  broadcastTo_apply r broadcasts_S1x256_S1024x256 (ix2 a b) (ix2 0 b) (fun d => match d with
    | ⟨0, _⟩ => rfl
    | ⟨1, _⟩ => rfl)
theorem spreadRow9o_apply (r : Vec Ideal S1x10 .f32) (a : Fin 1024) (b : Fin 10) :
    broadcastTo S1024x10 r broadcasts_S1x10_S1024x10 (ix2 a b) = r (ix2 0 b) :=
  broadcastTo_apply r broadcasts_S1x10_S1024x10 (ix2 a b) (ix2 0 b) (fun d => match d with
    | ⟨0, _⟩ => rfl
    | ⟨1, _⟩ => rfl)

/-- A column spread along the rows reads, at row `a` and column `b`, the column's element at row `a`. -/
theorem spreadCol9_apply (c : Vec Ideal S1024x1 .f32) (a : Fin 1024) (b : Fin 10) :
    broadcastTo S1024x10 c broadcasts_S1024x1_S1024x10 (ix2 a b) = c (ix2 a 0) :=
  broadcastTo_apply c broadcasts_S1024x1_S1024x10 (ix2 a b) (ix2 a 0) (fun d => match d with
    | ⟨0, _⟩ => rfl
    | ⟨1, _⟩ => rfl)

/-- A vector of 1024 recast as a column of 1024 reads, at row `a`, the vector's element `a`. -/
theorem column9_apply (v : Vec Ideal S1024 .f32) (a : Fin 1024) :
    shapeCast S1024x1 v shapeCasts_S1024_S1024x1 (ix2 a 0) = v (ix1 a) :=
  shapeCast_apply v shapeCasts_S1024_S1024x1 (ix2 a 0) (ix1 a) (by
    rw [Shape.rowMajor_val_one, Shape.rowMajor_val_two]
    show a.val = a.val * 1 + 0
    omega)

/-- The index of row `a` with column `k` put back is `(a, k)`. -/
theorem lift9 (a : Fin 1024) (k : Fin 10) : reduces_S1024x10_S1024.lift (ix1 a) k = ix2 a k := by
  funext ax; apply Fin.ext
  match ax with
  | ⟨0, _⟩ => rfl
  | ⟨1, _⟩ => rfl

/-- The row maximum from `-∞`'s word, at row `a`: the fold of `max` over the row. -/
theorem rowMax9_apply (L : FVec Ideal S1024x10 .f32) (hφ : FKind.Formats .f32)
    (hacc : (0xFF800000#32 : BitVec FTy.f32.bits) = FKind.maximumf.neutral .f32 hφ) (a : Fin 1024) :
    multiReduction (F := Ideal) .maximumf [1] S1024 L 0xFF800000#32 reduces_S1024x10_S1024 hφ hacc (ix1 a)
      = (Finset.univ : Finset (Fin 10)).fold max (Ideal.ofBits .f32 0xFF800000#32) (fun k => L (ix2 a k)) :=
  (Ideal.multiReduction_maximumf_single L _ reduces_S1024x10_S1024 hφ hacc (ix1 a)).trans (by
    show (Finset.univ : Finset (Fin 10)).fold max (Ideal.ofBits .f32 0xFF800000#32)
      (fun k => L (reduces_S1024x10_S1024.lift (ix1 a) k)) = _
    exact congrArg (fun f : Fin 10 → EReal => (Finset.univ : Finset (Fin 10)).fold max (Ideal.ofBits .f32 0xFF800000#32) f)
      (funext fun k => congrArg L (lift9 a k)))

/-- The row sum, at row `a`: the sum over the row. -/
theorem rowSum9_apply (E : FVec Ideal S1024x10 .f32) (hφ : FKind.Formats .f32)
    (hacc : (0x00000000#32 : BitVec FTy.f32.bits) = FKind.add.neutral .f32 hφ) (a : Fin 1024) :
    multiReduction (F := Ideal) .add [1] S1024 E 0x00000000#32 reduces_S1024x10_S1024 hφ hacc (ix1 a) = ∑ k : Fin 10, E (ix2 a k) :=
  (Ideal.multiReduction_add_single E _ reduces_S1024x10_S1024 hφ hacc (ix1 a)).trans (by
    show ∑ k : Fin 10, E (reduces_S1024x10_S1024.lift (ix1 a) k) = _
    exact Finset.sum_congr rfl fun k _ => congrArg E (lift9 a k))

/-! ## The closed form -/

/-- The hidden unit `h` of row `g`: the larger of zero and the two products' sum plus the bias. -/
def hid9 (x0 : Vec Ideal S1024x128 .f32) (x1 : Vec Ideal S1024x10 .f32) (x2 : Vec Ideal S128x256 .f32) (x3 : Vec Ideal S10x256 .f32)
    (x4 : Vec Ideal S1x256 .f32) (g : Fin 1024) (h : Fin 256) : EReal :=
  max (((∑ k : Fin 128, x0 (ix2 g k) * x2 (ix2 k h)) + ∑ k : Fin 10, x1 (ix2 g k) * x3 (ix2 k h)) + x4 (ix2 0 h)) 0

/-- The logit `j` of row `g`: the hidden row's product with the second weights, plus the bias. -/
def logit9 (x0 : Vec Ideal S1024x128 .f32) (x1 : Vec Ideal S1024x10 .f32) (x2 : Vec Ideal S128x256 .f32) (x3 : Vec Ideal S10x256 .f32)
    (x4 : Vec Ideal S1x256 .f32) (x5 : Vec Ideal S256x10 .f32) (x6 : Vec Ideal S1x10 .f32) (g : Fin 1024) (j : Fin 10) : EReal :=
  (∑ h : Fin 256, hid9 x0 x1 x2 x3 x4 g h * x5 (ix2 h j)) + x6 (ix2 0 j)

/-- The largest logit of row `g`, folded from `-∞`'s word and compared with it once more, as the body does. -/
def top9 (x0 : Vec Ideal S1024x128 .f32) (x1 : Vec Ideal S1024x10 .f32) (x2 : Vec Ideal S128x256 .f32) (x3 : Vec Ideal S10x256 .f32)
    (x4 : Vec Ideal S1x256 .f32) (x5 : Vec Ideal S256x10 .f32) (x6 : Vec Ideal S1x10 .f32) (g : Fin 1024) : EReal :=
  max (Ideal.ofBits .f32 0xFF800000#32)
    ((Finset.univ : Finset (Fin 10)).fold max (Ideal.ofBits .f32 0xFF800000#32) (fun k => logit9 x0 x1 x2 x3 x4 x5 x6 g k))

/-- The exponential of logit `j` of row `g` less the row's largest. -/
def expo9 (x0 : Vec Ideal S1024x128 .f32) (x1 : Vec Ideal S1024x10 .f32) (x2 : Vec Ideal S128x256 .f32) (x3 : Vec Ideal S10x256 .f32)
    (x4 : Vec Ideal S1x256 .f32) (x5 : Vec Ideal S256x10 .f32) (x6 : Vec Ideal S1x10 .f32) (g : Fin 1024) (j : Fin 10) : EReal :=
  Ideal.exp (logit9 x0 x1 x2 x3 x4 x5 x6 g j - top9 x0 x1 x2 x3 x4 x5 x6 g)

/-! ## The payload's blocks, as vectors -/

/-- The hidden block, as the body computes it (every product operand passed through the bf16 conversion). -/
def hidV9 (x0 : Vec Ideal S1024x128 .f32) (x1 : Vec Ideal S1024x10 .f32) (x2 : Vec Ideal S128x256 .f32) (x3 : Vec Ideal S10x256 .f32)
    (x4 : Vec Ideal S1x256 .f32) : FVec Ideal S1024x256 .f32 :=
  maximumf
    (addf
      (addf
        (matmul dot_S1024x128_S128x256_S1024x256_1_0_0_1_n_n none (truncf .bf16 x0 bitsLt_bf16_f32) (truncf .bf16 x2 bitsLt_bf16_f32)
          (constant S1024x256 .f32 0x00000000#32))
        (matmul dot_S1024x10_S10x256_S1024x256_1_0_0_1_n_n none (truncf .bf16 x1 bitsLt_bf16_f32) (truncf .bf16 x3 bitsLt_bf16_f32)
          (constant S1024x256 .f32 0x00000000#32)))
      (broadcastTo S1024x256 x4 broadcasts_S1x256_S1024x256))
    (broadcast S1024x256 (Scalar.ofBits .f32 0x00000000#32))

/-- The logits block. -/
def logitV9 (x0 : Vec Ideal S1024x128 .f32) (x1 : Vec Ideal S1024x10 .f32) (x2 : Vec Ideal S128x256 .f32) (x3 : Vec Ideal S10x256 .f32)
    (x4 : Vec Ideal S1x256 .f32) (x5 : Vec Ideal S256x10 .f32) (x6 : Vec Ideal S1x10 .f32) : FVec Ideal S1024x10 .f32 :=
  addf
    (matmul dot_S1024x256_S256x10_S1024x10_1_0_0_1_n_n none (truncf .bf16 (hidV9 x0 x1 x2 x3 x4) bitsLt_bf16_f32)
      (truncf .bf16 x5 bitsLt_bf16_f32) (constant S1024x10 .f32 0x00000000#32))
    (broadcastTo S1024x10 x6 broadcasts_S1x10_S1024x10)

theorem hidV9_apply (x0 : Vec Ideal S1024x128 .f32) (x1 : Vec Ideal S1024x10 .f32) (x2 : Vec Ideal S128x256 .f32) (x3 : Vec Ideal S10x256 .f32)
    (x4 : Vec Ideal S1x256 .f32) (g : Fin 1024) (h : Fin 256) : hidV9 x0 x1 x2 x3 x4 (ix2 g h) = hid9 x0 x1 x2 x3 x4 g h := by
  unfold hidV9 hid9 dot_S1024x128_S128x256_S1024x256_1_0_0_1_n_n dot_S1024x10_S10x256_S1024x256_1_0_0_1_n_n
  rw [maximumf_apply, addf_apply, addf_apply, broadcast_apply]
  show max ((FloatOps.matmul _ none _ _ (constant S1024x256 .f32 0x00000000#32) (ix2 g h)
      + FloatOps.matmul _ none _ _ (constant S1024x256 .f32 0x00000000#32) (ix2 g h)) + _) (Ideal.ofBits .f32 0x00000000#32) = _
  rw [prod9_apply, prod9_apply, spreadRow9h_apply, Ideal.ofBits_zero_f32]
  simp only [truncf_apply]

theorem logitV9_apply (x0 : Vec Ideal S1024x128 .f32) (x1 : Vec Ideal S1024x10 .f32) (x2 : Vec Ideal S128x256 .f32) (x3 : Vec Ideal S10x256 .f32)
    (x4 : Vec Ideal S1x256 .f32) (x5 : Vec Ideal S256x10 .f32) (x6 : Vec Ideal S1x10 .f32) (g : Fin 1024) (j : Fin 10) :
    logitV9 x0 x1 x2 x3 x4 x5 x6 (ix2 g j) = logit9 x0 x1 x2 x3 x4 x5 x6 g j := by
  unfold logitV9 logit9 dot_S1024x256_S256x10_S1024x10_1_0_0_1_n_n
  rw [addf_apply]
  show FloatOps.matmul _ none _ _ (constant S1024x10 .f32 0x00000000#32) (ix2 g j) + _ = _
  rw [prod9_apply, spreadRow9o_apply]
  simp only [truncf_apply, hidV9_apply]

/-- The first payload is the exponential of the logits less their row's largest. -/
theorem pay2_9_apply (x0 : Vec Ideal S1024x128 .f32) (x1 : Vec Ideal S1024x10 .f32) (x2 : Vec Ideal S128x256 .f32) (x3 : Vec Ideal S10x256 .f32)
    (x4 : Vec Ideal S1x256 .f32) (x5 : Vec Ideal S256x10 .f32) (x6 : Vec Ideal S1x10 .f32) (g : Fin 1024) (j : Fin 10) :
    k9_pay2 x0 x1 x2 x3 x4 x5 x6 (ix2 g j) = expo9 x0 x1 x2 x3 x4 x5 x6 g j := by
  unfold k9_pay2
  simp only [shapeCast_self]
  show Ideal.exp (logitV9 x0 x1 x2 x3 x4 x5 x6 (ix2 g j)
      - broadcastTo S1024x10 (shapeCast S1024x1 (maximumf (broadcast S1024 (Scalar.ofBits .f32 0xFF800000#32))
          (multiReduction .maximumf [1] S1024 (logitV9 x0 x1 x2 x3 x4 x5 x6) 0xFF800000#32 reduces_S1024x10_S1024 (.inl rfl) rfl))
          shapeCasts_S1024_S1024x1) broadcasts_S1024x1_S1024x10 (ix2 g j)) = _
  rw [spreadCol9_apply, column9_apply, maximumf_apply, broadcast_apply, logitV9_apply]
  unfold expo9 top9
  refine congrArg (fun t => Ideal.exp (logit9 x0 x1 x2 x3 x4 x5 x6 g j - max (Ideal.ofBits .f32 0xFF800000#32) t)) ?_
  refine (rowMax9_apply _ _ _ g).trans ?_
  exact congrArg (fun f : Fin 10 → EReal => (Finset.univ : Finset (Fin 10)).fold max (Ideal.ofBits .f32 0xFF800000#32) f)
    (funext fun k => logitV9_apply x0 x1 x2 x3 x4 x5 x6 g k)

/-- At row `g`, column `j` the block holds the exponential of logit `j` less the row's largest, over the sum of those
    exponentials along the row: the softmax of the row's logits. -/
theorem mlpBlock9_apply (x0 : Vec Ideal S1024x128 .f32) (x1 : Vec Ideal S1024x10 .f32) (x2 : Vec Ideal S128x256 .f32) (x3 : Vec Ideal S10x256 .f32)
    (x4 : Vec Ideal S1x256 .f32) (x5 : Vec Ideal S256x10 .f32) (x6 : Vec Ideal S1x10 .f32) (g : Fin 1024) (j : Fin 10) :
    mlpBlock9 (F := Ideal) x0 x1 x2 x3 x4 x5 x6 (ix2 g j)
      = Ideal.div (expo9 x0 x1 x2 x3 x4 x5 x6 g j) (∑ k : Fin 10, expo9 x0 x1 x2 x3 x4 x5 x6 g k) := by
  unfold mlpBlock9
  rw [View.canon_unit_zero zeros9]
  simp only [View.ld_unit_zero (S := S1024x128) zeros9, View.ld_unit_zero (S := S1024x10) zeros9, View.ld_unit_zero (S := S128x256) zeros9,
    View.ld_unit_zero (S := S10x256) zeros9, View.ld_unit_zero (S := S1x256) zeros9, View.ld_unit_zero (S := S256x10) zeros9,
    View.ld_unit_zero (S := S1x10) zeros9]
  unfold k9_pay1 k9_pay3
  rw [divf_apply, spreadCol9_apply, column9_apply]
  exact congrArg₂ Ideal.div (pay2_9_apply x0 x1 x2 x3 x4 x5 x6 g j)
    ((rowSum9_apply _ _ _ g).trans (Finset.sum_congr rfl fun k _ => pay2_9_apply x0 x1 x2 x3 x4 x5 x6 g k))

/-- The word the row maximum starts from denotes `-∞`. -/
theorem negInf9 : Ideal.ofBits .f32 0xFF800000#32 = ⊥ := by simp [Ideal.ofBits, Ideal.ieee]

end Cert.KernelIdeal.Hand
-- ==== Proof.Region9Array.lean ====
import proofs.«148009_j49555332661695_1_alg».proof.Proof.Region9Value
import proofs.«148009_j49555332661695_1_alg».proof.Proof.LayerDefs
import Idealize.ShloMosaic.Lib.Pipeline.Value

/-! Region 9 at the extended reals, from blocks to the array. The grid has one point, and at it every window's block is
    its whole array. So what the point writes back is the whole output as one function of the whole input arrays —
    entry (g, j) is the softmax over j of row g's logits — and that one block covers the output array. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The classifier's output as one function of the whole input arrays: row g, column j holds the exponential of logit
    j less the row's largest, over the sum of those exponentials along the row. -/
def mlpArray9 (x0 : Vec Ideal S1024x128 .f32) (x1 : Vec Ideal S1024x10 .f32) (x2 : Vec Ideal S128x256 .f32) (x3 : Vec Ideal S10x256 .f32) (x4 : Vec Ideal S1x256 .f32) (x5 : Vec Ideal S256x10 .f32) (x6 : Vec Ideal S1x10 .f32) : Vec Ideal S1024x10 .f32 :=
  fun i => Ideal.div (expo9 x0 x1 x2 x3 x4 x5 x6 (i 0) (i 1)) (∑ k : Fin 10, expo9 x0 x1 x2 x3 x4 x5 x6 (i 0) k)

theorem mlpArray9_apply (x0 : Vec Ideal S1024x128 .f32) (x1 : Vec Ideal S1024x10 .f32) (x2 : Vec Ideal S128x256 .f32) (x3 : Vec Ideal S10x256 .f32) (x4 : Vec Ideal S1x256 .f32) (x5 : Vec Ideal S256x10 .f32) (x6 : Vec Ideal S1x10 .f32) (g : Fin 1024) (j : Fin 10) :
    mlpArray9 x0 x1 x2 x3 x4 x5 x6 (ix2 g j) = Ideal.div (expo9 x0 x1 x2 x3 x4 x5 x6 g j) (∑ k : Fin 10, expo9 x0 x1 x2 x3 x4 x5 x6 g k) := rfl

/-- Where the windows' blocks sit: at the one point every window is at block (0, 0). -/
theorem blockIndex9 : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0 :=
  (by decide +kernel : ∀ t : Fin grid9.N, _)

/-! ### The input blocks are the arrays -/

theorem iblk9_0_eq (c : Dev nD) (t : Fin cfg9.N) :
    (iblk9 V c 0 t : Vec Ideal S1024x128 .f32) = (V c (Pipeline.arrRef spec9 0) : Vec Ideal S1024x128 .f32) := by
  obtain ⟨e0, e1, -⟩ := blockIndex9 t
  funext i
  obtain ⟨a, b, rfl⟩ : ∃ (a : Fin 1024) (b : Fin 128), i = ix2 a b := ⟨i 0, i 1, eq_ix2 i⟩
  show V c (Pipeline.arrRef spec9 0) (((cfg9.win 0).blk t).view.emb (ix2 a b)) = V c (Pipeline.arrRef spec9 0) (ix2 a b)
  refine congrArg (V c (Pipeline.arrRef spec9 0)) (funext fun ax => Fin.ext ?_)
  match ax with
  | ⟨0, _⟩ => show win9_0.index t (0 : Fin 2) * 1024 + 1 * a.val = a.val; rw [e0]; omega
  | ⟨1, _⟩ => show win9_0.index t (1 : Fin 2) * 128 + 1 * b.val = b.val; rw [e1]; omega

theorem iblk9_1_eq (c : Dev nD) (t : Fin cfg9.N) :
    (iblk9 V c 1 t : Vec Ideal S1024x10 .f32) = (V c (Pipeline.arrRef spec9 1) : Vec Ideal S1024x10 .f32) := by
  obtain ⟨-, -, e0, e1, -⟩ := blockIndex9 t
  funext i
  obtain ⟨a, b, rfl⟩ : ∃ (a : Fin 1024) (b : Fin 10), i = ix2 a b := ⟨i 0, i 1, eq_ix2 i⟩
  show V c (Pipeline.arrRef spec9 1) (((cfg9.win 1).blk t).view.emb (ix2 a b)) = V c (Pipeline.arrRef spec9 1) (ix2 a b)
  refine congrArg (V c (Pipeline.arrRef spec9 1)) (funext fun ax => Fin.ext ?_)
  match ax with
  | ⟨0, _⟩ => show win9_1.index t (0 : Fin 2) * 1024 + 1 * a.val = a.val; rw [e0]; omega
  | ⟨1, _⟩ => show win9_1.index t (1 : Fin 2) * 10 + 1 * b.val = b.val; rw [e1]; omega

theorem iblk9_2_eq (c : Dev nD) (t : Fin cfg9.N) :
    (iblk9 V c 2 t : Vec Ideal S128x256 .f32) = (V c (Pipeline.arrRef spec9 2) : Vec Ideal S128x256 .f32) := by
  obtain ⟨-, -, -, -, e0, e1, -⟩ := blockIndex9 t
  funext i
  obtain ⟨a, b, rfl⟩ : ∃ (a : Fin 128) (b : Fin 256), i = ix2 a b := ⟨i 0, i 1, eq_ix2 i⟩
  show V c (Pipeline.arrRef spec9 2) (((cfg9.win 2).blk t).view.emb (ix2 a b)) = V c (Pipeline.arrRef spec9 2) (ix2 a b)
  refine congrArg (V c (Pipeline.arrRef spec9 2)) (funext fun ax => Fin.ext ?_)
  match ax with
  | ⟨0, _⟩ => show win9_2.index t (0 : Fin 2) * 128 + 1 * a.val = a.val; rw [e0]; omega
  | ⟨1, _⟩ => show win9_2.index t (1 : Fin 2) * 256 + 1 * b.val = b.val; rw [e1]; omega

theorem iblk9_3_eq (c : Dev nD) (t : Fin cfg9.N) :
    (iblk9 V c 3 t : Vec Ideal S10x256 .f32) = (V c (Pipeline.arrRef spec9 3) : Vec Ideal S10x256 .f32) := by
  obtain ⟨-, -, -, -, -, -, e0, e1, -⟩ := blockIndex9 t
  funext i
  obtain ⟨a, b, rfl⟩ : ∃ (a : Fin 10) (b : Fin 256), i = ix2 a b := ⟨i 0, i 1, eq_ix2 i⟩
  show V c (Pipeline.arrRef spec9 3) (((cfg9.win 3).blk t).view.emb (ix2 a b)) = V c (Pipeline.arrRef spec9 3) (ix2 a b)
  refine congrArg (V c (Pipeline.arrRef spec9 3)) (funext fun ax => Fin.ext ?_)
  match ax with
  | ⟨0, _⟩ => show win9_3.index t (0 : Fin 2) * 10 + 1 * a.val = a.val; rw [e0]; omega
  | ⟨1, _⟩ => show win9_3.index t (1 : Fin 2) * 256 + 1 * b.val = b.val; rw [e1]; omega

theorem iblk9_4_eq (c : Dev nD) (t : Fin cfg9.N) :
    (iblk9 V c 4 t : Vec Ideal S1x256 .f32) = (V c (Pipeline.arrRef spec9 4) : Vec Ideal S1x256 .f32) := by
  obtain ⟨-, -, -, -, -, -, -, -, e0, e1, -⟩ := blockIndex9 t
  funext i
  obtain ⟨a, b, rfl⟩ : ∃ (a : Fin 1) (b : Fin 256), i = ix2 a b := ⟨i 0, i 1, eq_ix2 i⟩
  show V c (Pipeline.arrRef spec9 4) (((cfg9.win 4).blk t).view.emb (ix2 a b)) = V c (Pipeline.arrRef spec9 4) (ix2 a b)
  refine congrArg (V c (Pipeline.arrRef spec9 4)) (funext fun ax => Fin.ext ?_)
  match ax with
  | ⟨0, _⟩ => show win9_4.index t (0 : Fin 2) * 1 + 1 * a.val = a.val; rw [e0]; omega
  | ⟨1, _⟩ => show win9_4.index t (1 : Fin 2) * 256 + 1 * b.val = b.val; rw [e1]; omega

theorem iblk9_5_eq (c : Dev nD) (t : Fin cfg9.N) :
    (iblk9 V c 5 t : Vec Ideal S256x10 .f32) = (V c (Pipeline.arrRef spec9 5) : Vec Ideal S256x10 .f32) := by
  obtain ⟨-, -, -, -, -, -, -, -, -, -, e0, e1, -⟩ := blockIndex9 t
  funext i
  obtain ⟨a, b, rfl⟩ : ∃ (a : Fin 256) (b : Fin 10), i = ix2 a b := ⟨i 0, i 1, eq_ix2 i⟩
  show V c (Pipeline.arrRef spec9 5) (((cfg9.win 5).blk t).view.emb (ix2 a b)) = V c (Pipeline.arrRef spec9 5) (ix2 a b)
  refine congrArg (V c (Pipeline.arrRef spec9 5)) (funext fun ax => Fin.ext ?_)
  match ax with
  | ⟨0, _⟩ => show win9_5.index t (0 : Fin 2) * 256 + 1 * a.val = a.val; rw [e0]; omega
  | ⟨1, _⟩ => show win9_5.index t (1 : Fin 2) * 10 + 1 * b.val = b.val; rw [e1]; omega

theorem iblk9_6_eq (c : Dev nD) (t : Fin cfg9.N) :
    (iblk9 V c 6 t : Vec Ideal S1x10 .f32) = (V c (Pipeline.arrRef spec9 6) : Vec Ideal S1x10 .f32) := by
  obtain ⟨-, -, -, -, -, -, -, -, -, -, -, -, e0, e1, -⟩ := blockIndex9 t
  funext i
  obtain ⟨a, b, rfl⟩ : ∃ (a : Fin 1) (b : Fin 10), i = ix2 a b := ⟨i 0, i 1, eq_ix2 i⟩
  show V c (Pipeline.arrRef spec9 6) (((cfg9.win 6).blk t).view.emb (ix2 a b)) = V c (Pipeline.arrRef spec9 6) (ix2 a b)
  refine congrArg (V c (Pipeline.arrRef spec9 6)) (funext fun ax => Fin.ext ?_)
  match ax with
  | ⟨0, _⟩ => show win9_6.index t (0 : Fin 2) * 1 + 1 * a.val = a.val; rw [e0]; omega
  | ⟨1, _⟩ => show win9_6.index t (1 : Fin 2) * 10 + 1 * b.val = b.val; rw [e1]; omega

/-! ### What the point writes back -/

theorem flushed9_eq (c : Dev nD) (t : Fin cfg9.N) :
    (dat9 (F := Ideal) V c).flushed 7 t = ((cfg9.win 7).blk t).view.read (Elt Ideal)
      (mlpArray9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6))) := by
  show (cfg9.win 7).cut (grid9.coords t) ((dat9 (F := Ideal) V c).after 7 t) = _
  rw [after9_7]
  obtain ⟨-, -, -, -, -, -, -, -, -, -, -, -, -, -, e0, e1⟩ := blockIndex9 t
  funext j
  obtain ⟨p, q, rfl⟩ : ∃ (p : Fin 1024) (q : Fin 10), j = ix2 p q := ⟨j 0, j 1, eq_ix2 j⟩
  have hemb : ((cfg9.win 7).blk t).view.emb (ix2 p q) = (ix2 p q : S1024x10.Idx) := by
    funext ax; apply Fin.ext
    match ax with
    | ⟨0, _⟩ => show win9_7.index t (0 : Fin 2) * 1024 + 1 * p.val = p.val; rw [e0]; omega
    | ⟨1, _⟩ => show win9_7.index t (1 : Fin 2) * 10 + 1 * q.val = q.val; rw [e1]; omega
  show mlpBlock9 (F := Ideal) (iblk9 V c 0 t) (iblk9 V c 1 t) (iblk9 V c 2 t) (iblk9 V c 3 t) (iblk9 V c 4 t) (iblk9 V c 5 t) (iblk9 V c 6 t) (ix2 p q)
    = mlpArray9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (((cfg9.win 7).blk t).view.emb (ix2 p q))
  rw [hemb, mlpArray9_apply, mlpBlock9_apply, iblk9_0_eq V c t, iblk9_1_eq V c t, iblk9_2_eq V c t, iblk9_3_eq V c t, iblk9_4_eq V c t, iblk9_5_eq V c t, iblk9_6_eq V c t]

/-! ### The one block covers the array -/

theorem mem_blk9 (t : Fin cfg9.N) (i : S1024x10.Idx) :
    i ∈ ((cfg9.win 7).blk t).view.set ↔ ∀ a : Fin 2, win9_7.index t a * S1024x10.size a ≤ (i a).val ∧ (i a).val < win9_7.index t a * S1024x10.size a + S1024x10.size a := by
  show i ∈ ((View.whole main_v107).slice (win9_7.rect t)).set ↔ _
  rw [View.set_slice_whole, Rect.mem_set_unit]
  exact Iff.rfl

theorem cover9_out (i : S1024x10.Idx) : ∃ t : Fin cfg9.N, (cfg9.win 7).flush t = true ∧ i ∈ ((cfg9.win 7).blk t).view.set := by
  have hi0 : (i 0).val < 1024 := (i 0).isLt
  have hi1 : (i 1).val < 10 := (i 1).isLt
  let t : Fin cfg9.N := ⟨0, by rw [show cfg9.N = 1 from N_9]; omega⟩
  obtain ⟨-, -, -, -, -, -, -, -, -, -, -, -, -, -, e0, e1⟩ := blockIndex9 t
  refine ⟨t, flush9_7 t, ?_⟩
  rw [mem_blk9]
  intro a
  match a with
  | ⟨0, _⟩ => show win9_7.index t (0 : Fin 2) * 1024 ≤ (i 0).val ∧ (i 0).val < win9_7.index t (0 : Fin 2) * 1024 + 1024; rw [e0]; omega
  | ⟨1, _⟩ => show win9_7.index t (1 : Fin 2) * 10 ≤ (i 1).val ∧ (i 1).val < win9_7.index t (1 : Fin 2) * 10 + 10; rw [e1]; omega

/-! ### The output array after the region -/

theorem final9 (c : Dev nD) : (dat9 (F := Ideal) V c).arrAt 7 cfg9.N
    = mlpArray9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) :=
  (dat9 (F := Ideal) V c).arrAt_eq_of_cover 7 _ (fun t _ => flushed9_eq V c t) (cover9_out)

end Cert.KernelIdeal.Hand
-- ==== Proof.Chain.lean ====
/-
  The kernel program's valuations read as the pure network.

  Item by item: a region's output array holds what its write-backs leave, which the region's array-level lemma gives
  as a function of the contents the region was entered with; a host stretch's results are its operations' terms of the
  valuation before it; every other buffer is carried unchanged. Composed over a layer's six items this is the layer
  function at the layer's slices of the parameters; over the twenty items, the network.
-/
import proofs.«148009_j49555332661695_1_alg».proof.Proof.Run
import proofs.«148009_j49555332661695_1_alg».proof.Proof.NetDefs
import proofs.«148009_j49555332661695_1_alg».proof.Proof.Region0Array
import proofs.«148009_j49555332661695_1_alg».proof.Proof.Region1Array
import proofs.«148009_j49555332661695_1_alg».proof.Proof.Region2Array
import proofs.«148009_j49555332661695_1_alg».proof.Proof.Region3Array
import proofs.«148009_j49555332661695_1_alg».proof.Proof.Region4Array
import proofs.«148009_j49555332661695_1_alg».proof.Proof.Region5Array
import proofs.«148009_j49555332661695_1_alg».proof.Proof.Region6Array
import proofs.«148009_j49555332661695_1_alg».proof.Proof.Region7Array
import proofs.«148009_j49555332661695_1_alg».proof.Proof.Region8Array
import proofs.«148009_j49555332661695_1_alg».proof.Proof.Region9Array

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Cert.Proof.Layer
open ValueIdx (ix1 ix2)

variable (m : (ℓ : Loc nD τ sig) → Buf (Elt Ideal) ℓ)

/-! ## A region's entry contents, at the whole table -/
theorem ein1 (c : Dev nD) (b : Ref sig .tc) : V3 m (outsUpTo1 m) c b = V3 m (outsAll m) c b :=
  congrFun (V3_congr m ((agree_all_1 m).symm.mono (by omega)) c) _
theorem ein2 (c : Dev nD) (b : Ref sig .tc) : V5 m (outsUpTo2 m) c b = V5 m (outsAll m) c b :=
  congrFun (V5_congr m ((agree_all_2 m).symm.mono (by omega)) c) _
theorem ein3 (c : Dev nD) (b : Ref sig .tc) : V7 m (outsUpTo3 m) c b = V7 m (outsAll m) c b :=
  congrFun (V7_congr m ((agree_all_3 m).symm.mono (by omega)) c) _
theorem ein4 (c : Dev nD) (b : Ref sig .tc) : V9 m (outsUpTo4 m) c b = V9 m (outsAll m) c b :=
  congrFun (V9_congr m ((agree_all_4 m).symm.mono (by omega)) c) _
theorem ein5 (c : Dev nD) (b : Ref sig .tc) : V11 m (outsUpTo5 m) c b = V11 m (outsAll m) c b :=
  congrFun (V11_congr m ((agree_all_5 m).symm.mono (by omega)) c) _
theorem ein6 (c : Dev nD) (b : Ref sig .tc) : V13 m (outsUpTo6 m) c b = V13 m (outsAll m) c b :=
  congrFun (V13_congr m ((agree_all_6 m).symm.mono (by omega)) c) _
theorem ein7 (c : Dev nD) (b : Ref sig .tc) : V15 m (outsUpTo7 m) c b = V15 m (outsAll m) c b :=
  congrFun (V15_congr m ((agree_all_7 m).symm.mono (by omega)) c) _
theorem ein8 (c : Dev nD) (b : Ref sig .tc) : V17 m (outsUpTo8 m) c b = V17 m (outsAll m) c b :=
  congrFun (V17_congr m ((agree_all_8 m).symm.mono (by omega)) c) _
theorem ein9 (c : Dev nD) (b : Ref sig .tc) : V19 m (outsUpTo9 m) c b = V19 m (outsAll m) c b :=
  congrFun (V19_congr m ((agree_all_9 m).symm.mono (by omega)) c) _

/-! ## What each region leaves -/

/-- Layer 0: the message kernel's array. -/
theorem valueMsg0 (c : Dev nD) : V2 m (outsAll m) c main_v18
    = kerMsg (V1 m c main_v10) (V1 m c main_arg2) (V1 m c main_v12) (V1 m c main_v14) (V1 m c main_v17) := by
  have h := (exitOut0_5 m c).symm.trans (final0 (entry0 m) c)
  exact h

/-- Layer 0: the statistics kernel's two rows. -/
theorem valueSum0 (c : Dev nD) : V4 m (outsAll m) c main_v22_0 = kerSum (V3 m (outsAll m) c main_v21) := by
  funext i
  obtain ⟨a, b, rfl⟩ : ∃ (a : Fin 1) (b : Fin 128), i = ix2 a b := ⟨i 0, i 1, ValueIdx.eq_ix2 i⟩
  refine (congrFun (exitOut1_1 m c) (ix2 a b)).symm.trans ((final1_sum (entry1 m) c a b).trans ?_)
  simp only [xin1, ein1 m c]
  rfl
theorem valueSq0 (c : Dev nD) : V4 m (outsAll m) c main_v22_1 = kerSumSq (V3 m (outsAll m) c main_v21) := by
  funext i
  obtain ⟨a, b, rfl⟩ : ∃ (a : Fin 1) (b : Fin 128), i = ix2 a b := ⟨i 0, i 1, ValueIdx.eq_ix2 i⟩
  refine (congrFun (exitOut1_2 m c) (ix2 a b)).symm.trans ((final1_sq (entry1 m) c a b).trans ?_)
  simp only [xin1, ein1 m c]
  rfl

/-- Layer 0: the normalising kernel's array. -/
theorem valueNorm0 (c : Dev nD) : V6 m (outsAll m) c main_v35
    = kerNorm (V5 m (outsAll m) c main_v21) (V5 m (outsAll m) c main_v24) (V5 m (outsAll m) c main_v28) (V5 m (outsAll m) c main_v33) (V5 m (outsAll m) c main_v34) := by
  have h := (exitOut2_5 m c).symm.trans (final2 (entry2 m) c)
  simp only [ein2 m c] at h
  exact h

/-- Layer 1: the message kernel's array. -/
theorem valueMsg1 (c : Dev nD) : V8 m (outsAll m) c main_v50
    = kerMsg (V7 m (outsAll m) c main_v42) (V7 m (outsAll m) c main_arg2) (V7 m (outsAll m) c main_v44) (V7 m (outsAll m) c main_v46) (V7 m (outsAll m) c main_v49) := by
  have h := (exitOut3_5 m c).symm.trans (final3 (entry3 m) c)
  simp only [ein3 m c] at h
  exact h

/-- Layer 1: the statistics kernel's two rows. -/
theorem valueSum1 (c : Dev nD) : V10 m (outsAll m) c main_v54_0 = kerSum (V9 m (outsAll m) c main_v53) := by
  funext i
  obtain ⟨a, b, rfl⟩ : ∃ (a : Fin 1) (b : Fin 128), i = ix2 a b := ⟨i 0, i 1, ValueIdx.eq_ix2 i⟩
  refine (congrFun (exitOut4_1 m c) (ix2 a b)).symm.trans ((final4_sum (entry4 m) c a b).trans ?_)
  simp only [xin4, ein4 m c]
  rfl
theorem valueSq1 (c : Dev nD) : V10 m (outsAll m) c main_v54_1 = kerSumSq (V9 m (outsAll m) c main_v53) := by
  funext i
  obtain ⟨a, b, rfl⟩ : ∃ (a : Fin 1) (b : Fin 128), i = ix2 a b := ⟨i 0, i 1, ValueIdx.eq_ix2 i⟩
  refine (congrFun (exitOut4_2 m c) (ix2 a b)).symm.trans ((final4_sq (entry4 m) c a b).trans ?_)
  simp only [xin4, ein4 m c]
  rfl

/-- Layer 1: the normalising kernel's array. -/
theorem valueNorm1 (c : Dev nD) : V12 m (outsAll m) c main_v67
    = kerNorm (V11 m (outsAll m) c main_v53) (V11 m (outsAll m) c main_v56) (V11 m (outsAll m) c main_v60) (V11 m (outsAll m) c main_v65) (V11 m (outsAll m) c main_v66) := by
  have h := (exitOut5_5 m c).symm.trans (final5 (entry5 m) c)
  simp only [ein5 m c] at h
  exact h

/-- Layer 2: the message kernel's array. -/
theorem valueMsg2 (c : Dev nD) : V14 m (outsAll m) c main_v82
    = kerMsg (V13 m (outsAll m) c main_v74) (V13 m (outsAll m) c main_arg2) (V13 m (outsAll m) c main_v76) (V13 m (outsAll m) c main_v78) (V13 m (outsAll m) c main_v81) := by
  have h := (exitOut6_5 m c).symm.trans (final6 (entry6 m) c)
  simp only [ein6 m c] at h
  exact h

/-- Layer 2: the statistics kernel's two rows. -/
theorem valueSum2 (c : Dev nD) : V16 m (outsAll m) c main_v86_0 = kerSum (V15 m (outsAll m) c main_v85) := by
  funext i
  obtain ⟨a, b, rfl⟩ : ∃ (a : Fin 1) (b : Fin 128), i = ix2 a b := ⟨i 0, i 1, ValueIdx.eq_ix2 i⟩
  refine (congrFun (exitOut7_1 m c) (ix2 a b)).symm.trans ((final7_sum (entry7 m) c a b).trans ?_)
  simp only [xin7, ein7 m c]
  rfl
theorem valueSq2 (c : Dev nD) : V16 m (outsAll m) c main_v86_1 = kerSumSq (V15 m (outsAll m) c main_v85) := by
  funext i
  obtain ⟨a, b, rfl⟩ : ∃ (a : Fin 1) (b : Fin 128), i = ix2 a b := ⟨i 0, i 1, ValueIdx.eq_ix2 i⟩
  refine (congrFun (exitOut7_2 m c) (ix2 a b)).symm.trans ((final7_sq (entry7 m) c a b).trans ?_)
  simp only [xin7, ein7 m c]
  rfl

/-- Layer 2: the normalising kernel's array. -/
theorem valueNorm2 (c : Dev nD) : V18 m (outsAll m) c main_v99
    = kerNorm (V17 m (outsAll m) c main_v85) (V17 m (outsAll m) c main_v88) (V17 m (outsAll m) c main_v92) (V17 m (outsAll m) c main_v97) (V17 m (outsAll m) c main_v98) := by
  have h := (exitOut8_5 m c).symm.trans (final8 (entry8 m) c)
  simp only [ein8 m c] at h
  exact h

/-- The classifier kernel's array. -/
theorem valueMlp (c : Dev nD) : V20 m (outsAll m) c main_v107
    = mlpArray9 (V19 m (outsAll m) c main_v102) (V19 m (outsAll m) c main_arg4) (V19 m (outsAll m) c main_v103) (V19 m (outsAll m) c main_v104) (V19 m (outsAll m) c main_v105) (V19 m (outsAll m) c main_arg12) (V19 m (outsAll m) c main_v106) := by
  have h := (exitOut9_7 m c).symm.trans (final9 (entry9 m) c)
  simp only [ein9 m c] at h
  exact h

/-! ## The layers -/

/-- The argument arrays as the launch memory holds them on core `c`. -/
abbrev arg (c : Dev nD) (r : Ref sig .tc) : Buf (Elt Ideal) ((c : Thread nD τ).loc r) := m ((c : Thread nD τ).loc r)

/-- The two rows of the edge list are read once and kept. -/
theorem keptRow0 (c : Dev nD) : V1 m c main_v1 = edgeRow0 (arg m c main_arg1) := stretch0_v1 (V0 m c)
theorem keptRow1 (c : Dev nD) : V1 m c main_v3 = edgeRow1 (arg m c main_arg1) := stretch0_v3 (V0 m c)

/-- The node features after layer 0 are the network's. -/
theorem layerValue0 (c : Dev nD) : V6 m (outsAll m) c main_v35 = kerH1 (arg m c main_arg0) (arg m c main_arg1) (arg m c main_arg2) (arg m c main_arg5) (arg m c main_arg6) (arg m c main_arg7) (arg m c main_arg8) (arg m c main_arg9) := by
  -- the gathered rows, the weights' slices and the bias row (stretch 0, from the valuation before it)
  have hg : V1 m c main_v10 = Host.gather gather_S100000x128_S800000x1_S800000x128_1_0_n_n_0_1_1128 (arg m c main_arg0) (srcOf (edgeRow0 (arg m c main_arg1))) := by
    refine (stretch0_gather (V0 m c)).trans ?_
    rfl
  have hwx : V1 m c main_v12 = wxOf0 (arg m c main_arg5) := by
    refine (stretch0_wx (V0 m c)).trans ?_
    rfl
  have hwe : V1 m c main_v14 = weOf0 (arg m c main_arg6) := by
    refine (stretch0_we (V0 m c)).trans ?_
    rfl
  have hb : V1 m c main_v17 = row (vecOf0 (arg m c main_arg7)) := by
    refine (stretch0_bias (V0 m c)).trans ?_
    rfl
  have hea : V1 m c main_arg2 = arg m c main_arg2 := (V1_of m c main_arg2 (by decide))
  -- the messages summed into their rows (stretch 1)
  have hagg : V3 m (outsAll m) c main_v21 = kerAgg (dstOf (edgeRow1 (arg m c main_arg1)))
      (kerMsg (Host.gather gather_S100000x128_S800000x1_S800000x128_1_0_n_n_0_1_1128 (arg m c main_arg0) (srcOf (edgeRow0 (arg m c main_arg1))))
        (arg m c main_arg2) (wxOf0 (arg m c main_arg5)) (weOf0 (arg m c main_arg6)) (row (vecOf0 (arg m c main_arg7)))) := by
    refine (stretch1_agg (V2 m (outsAll m) c)).trans ?_
    rw [valueMsg0 m c, hg, hwx, hwe, hb, hea,
      show V2 m (outsAll m) c main_v3 = edgeRow1 (arg m c main_arg1) from (V2_of m (outsAll m) c main_v3 (by decide)).trans (keptRow1 m c)]
  -- the mean and the one-pass variance (stretch 2), the scale and the shift
  have hmean : V5 m (outsAll m) c main_v24 = kerMean (kerSum (V3 m (outsAll m) c main_v21)) := by
    refine (stretch2_mean (V4 m (outsAll m) c)).trans ?_
    rw [valueSum0 m c]
  have hvar : V5 m (outsAll m) c main_v28 = kerVar (kerSum (V3 m (outsAll m) c main_v21)) (kerSumSq (V3 m (outsAll m) c main_v21)) := by
    refine (stretch2_var (V4 m (outsAll m) c)).trans ?_
    rw [valueSum0 m c, valueSq0 m c]
  have hga : V5 m (outsAll m) c main_v33 = row (vecOf0 (arg m c main_arg8)) := by
    refine (stretch2_scale (V4 m (outsAll m) c)).trans ?_
    rw [show V4 m (outsAll m) c main_arg8 = arg m c main_arg8 from ((V4_of m (outsAll m) c main_arg8 (by decide)).trans ((V3_of m (outsAll m) c main_arg8 (by decide)).trans ((V2_of m (outsAll m) c main_arg8 (by decide)).trans (V1_of m c main_arg8 (by decide)))))]
  have hbe : V5 m (outsAll m) c main_v34 = row (vecOf0 (arg m c main_arg9)) := by
    refine (stretch2_shift (V4 m (outsAll m) c)).trans ?_
    rw [show V4 m (outsAll m) c main_arg9 = arg m c main_arg9 from ((V4_of m (outsAll m) c main_arg9 (by decide)).trans ((V3_of m (outsAll m) c main_arg9 (by decide)).trans ((V2_of m (outsAll m) c main_arg9 (by decide)).trans (V1_of m c main_arg9 (by decide)))))]
  have hkeep : V5 m (outsAll m) c main_v21 = V3 m (outsAll m) c main_v21 := ((V5_of m (outsAll m) c main_v21 (by decide)).trans (V4_of m (outsAll m) c main_v21 (by decide)))
  rw [valueNorm0 m c, hkeep, hmean, hvar, hga, hbe, hagg]
  rfl

/-- The node features after layer 1 are the network's. -/
theorem layerValue1 (c : Dev nD) : V12 m (outsAll m) c main_v67 = kerH2 (arg m c main_arg0) (arg m c main_arg1) (arg m c main_arg2) (arg m c main_arg5) (arg m c main_arg6) (arg m c main_arg7) (arg m c main_arg8) (arg m c main_arg9) := by
  -- the gathered rows, the weights' slices and the bias row (stretch 3, from the valuation before it)
  have hg : V7 m (outsAll m) c main_v42 = Host.gather gather_S100000x128_S800000x1_S800000x128_1_0_n_n_0_1_1128 (kerH1 (arg m c main_arg0) (arg m c main_arg1) (arg m c main_arg2) (arg m c main_arg5) (arg m c main_arg6) (arg m c main_arg7) (arg m c main_arg8) (arg m c main_arg9)) (srcOf (edgeRow0 (arg m c main_arg1))) := by
    refine (stretch3_gather (V6 m (outsAll m) c)).trans ?_
    rw [layerValue0 m c, show V6 m (outsAll m) c main_v1 = edgeRow0 (arg m c main_arg1) from ((V6_of m (outsAll m) c main_v1 (by decide)).trans ((V5_of m (outsAll m) c main_v1 (by decide)).trans ((V4_of m (outsAll m) c main_v1 (by decide)).trans ((V3_of m (outsAll m) c main_v1 (by decide)).trans (V2_of m (outsAll m) c main_v1 (by decide)))))).trans (keptRow0 m c)]
  have hwx : V7 m (outsAll m) c main_v44 = wxOf1 (arg m c main_arg5) := by
    refine (stretch3_wx (V6 m (outsAll m) c)).trans ?_
    rw [show V6 m (outsAll m) c main_arg5 = arg m c main_arg5 from ((V6_of m (outsAll m) c main_arg5 (by decide)).trans ((V5_of m (outsAll m) c main_arg5 (by decide)).trans ((V4_of m (outsAll m) c main_arg5 (by decide)).trans ((V3_of m (outsAll m) c main_arg5 (by decide)).trans ((V2_of m (outsAll m) c main_arg5 (by decide)).trans (V1_of m c main_arg5 (by decide)))))))]
  have hwe : V7 m (outsAll m) c main_v46 = weOf1 (arg m c main_arg6) := by
    refine (stretch3_we (V6 m (outsAll m) c)).trans ?_
    rw [show V6 m (outsAll m) c main_arg6 = arg m c main_arg6 from ((V6_of m (outsAll m) c main_arg6 (by decide)).trans ((V5_of m (outsAll m) c main_arg6 (by decide)).trans ((V4_of m (outsAll m) c main_arg6 (by decide)).trans ((V3_of m (outsAll m) c main_arg6 (by decide)).trans ((V2_of m (outsAll m) c main_arg6 (by decide)).trans (V1_of m c main_arg6 (by decide)))))))]
  have hb : V7 m (outsAll m) c main_v49 = row (vecOf1 (arg m c main_arg7)) := by
    refine (stretch3_bias (V6 m (outsAll m) c)).trans ?_
    rw [show V6 m (outsAll m) c main_arg7 = arg m c main_arg7 from ((V6_of m (outsAll m) c main_arg7 (by decide)).trans ((V5_of m (outsAll m) c main_arg7 (by decide)).trans ((V4_of m (outsAll m) c main_arg7 (by decide)).trans ((V3_of m (outsAll m) c main_arg7 (by decide)).trans ((V2_of m (outsAll m) c main_arg7 (by decide)).trans (V1_of m c main_arg7 (by decide)))))))]
  have hea : V7 m (outsAll m) c main_arg2 = arg m c main_arg2 := ((V7_of m (outsAll m) c main_arg2 (by decide)).trans ((V6_of m (outsAll m) c main_arg2 (by decide)).trans ((V5_of m (outsAll m) c main_arg2 (by decide)).trans ((V4_of m (outsAll m) c main_arg2 (by decide)).trans ((V3_of m (outsAll m) c main_arg2 (by decide)).trans ((V2_of m (outsAll m) c main_arg2 (by decide)).trans (V1_of m c main_arg2 (by decide))))))))
  -- the messages summed into their rows (stretch 4)
  have hagg : V9 m (outsAll m) c main_v53 = kerAgg (dstOf (edgeRow1 (arg m c main_arg1)))
      (kerMsg (Host.gather gather_S100000x128_S800000x1_S800000x128_1_0_n_n_0_1_1128 (kerH1 (arg m c main_arg0) (arg m c main_arg1) (arg m c main_arg2) (arg m c main_arg5) (arg m c main_arg6) (arg m c main_arg7) (arg m c main_arg8) (arg m c main_arg9)) (srcOf (edgeRow0 (arg m c main_arg1))))
        (arg m c main_arg2) (wxOf1 (arg m c main_arg5)) (weOf1 (arg m c main_arg6)) (row (vecOf1 (arg m c main_arg7)))) := by
    refine (stretch4_agg (V8 m (outsAll m) c)).trans ?_
    rw [valueMsg1 m c, hg, hwx, hwe, hb, hea,
      show V8 m (outsAll m) c main_v3 = edgeRow1 (arg m c main_arg1) from ((V8_of m (outsAll m) c main_v3 (by decide)).trans ((V7_of m (outsAll m) c main_v3 (by decide)).trans ((V6_of m (outsAll m) c main_v3 (by decide)).trans ((V5_of m (outsAll m) c main_v3 (by decide)).trans ((V4_of m (outsAll m) c main_v3 (by decide)).trans ((V3_of m (outsAll m) c main_v3 (by decide)).trans (V2_of m (outsAll m) c main_v3 (by decide)))))))).trans (keptRow1 m c)]
  -- the mean and the one-pass variance (stretch 5), the scale and the shift
  have hmean : V11 m (outsAll m) c main_v56 = kerMean (kerSum (V9 m (outsAll m) c main_v53)) := by
    refine (stretch5_mean (V10 m (outsAll m) c)).trans ?_
    rw [valueSum1 m c]
  have hvar : V11 m (outsAll m) c main_v60 = kerVar (kerSum (V9 m (outsAll m) c main_v53)) (kerSumSq (V9 m (outsAll m) c main_v53)) := by
    refine (stretch5_var (V10 m (outsAll m) c)).trans ?_
    rw [valueSum1 m c, valueSq1 m c]
  have hga : V11 m (outsAll m) c main_v65 = row (vecOf1 (arg m c main_arg8)) := by
    refine (stretch5_scale (V10 m (outsAll m) c)).trans ?_
    rw [show V10 m (outsAll m) c main_arg8 = arg m c main_arg8 from ((V10_of m (outsAll m) c main_arg8 (by decide)).trans ((V9_of m (outsAll m) c main_arg8 (by decide)).trans ((V8_of m (outsAll m) c main_arg8 (by decide)).trans ((V7_of m (outsAll m) c main_arg8 (by decide)).trans ((V6_of m (outsAll m) c main_arg8 (by decide)).trans ((V5_of m (outsAll m) c main_arg8 (by decide)).trans ((V4_of m (outsAll m) c main_arg8 (by decide)).trans ((V3_of m (outsAll m) c main_arg8 (by decide)).trans ((V2_of m (outsAll m) c main_arg8 (by decide)).trans (V1_of m c main_arg8 (by decide)))))))))))]
  have hbe : V11 m (outsAll m) c main_v66 = row (vecOf1 (arg m c main_arg9)) := by
    refine (stretch5_shift (V10 m (outsAll m) c)).trans ?_
    rw [show V10 m (outsAll m) c main_arg9 = arg m c main_arg9 from ((V10_of m (outsAll m) c main_arg9 (by decide)).trans ((V9_of m (outsAll m) c main_arg9 (by decide)).trans ((V8_of m (outsAll m) c main_arg9 (by decide)).trans ((V7_of m (outsAll m) c main_arg9 (by decide)).trans ((V6_of m (outsAll m) c main_arg9 (by decide)).trans ((V5_of m (outsAll m) c main_arg9 (by decide)).trans ((V4_of m (outsAll m) c main_arg9 (by decide)).trans ((V3_of m (outsAll m) c main_arg9 (by decide)).trans ((V2_of m (outsAll m) c main_arg9 (by decide)).trans (V1_of m c main_arg9 (by decide)))))))))))]
  have hkeep : V11 m (outsAll m) c main_v53 = V9 m (outsAll m) c main_v53 := ((V11_of m (outsAll m) c main_v53 (by decide)).trans (V10_of m (outsAll m) c main_v53 (by decide)))
  rw [valueNorm1 m c, hkeep, hmean, hvar, hga, hbe, hagg]
  rfl

/-- The node features after layer 2 are the network's. -/
theorem layerValue2 (c : Dev nD) : V18 m (outsAll m) c main_v99 = kerH3 (arg m c main_arg0) (arg m c main_arg1) (arg m c main_arg2) (arg m c main_arg5) (arg m c main_arg6) (arg m c main_arg7) (arg m c main_arg8) (arg m c main_arg9) := by
  -- the gathered rows, the weights' slices and the bias row (stretch 6, from the valuation before it)
  have hg : V13 m (outsAll m) c main_v74 = Host.gather gather_S100000x128_S800000x1_S800000x128_1_0_n_n_0_1_1128 (kerH2 (arg m c main_arg0) (arg m c main_arg1) (arg m c main_arg2) (arg m c main_arg5) (arg m c main_arg6) (arg m c main_arg7) (arg m c main_arg8) (arg m c main_arg9)) (srcOf (edgeRow0 (arg m c main_arg1))) := by
    refine (stretch6_gather (V12 m (outsAll m) c)).trans ?_
    rw [layerValue1 m c, show V12 m (outsAll m) c main_v1 = edgeRow0 (arg m c main_arg1) from ((V12_of m (outsAll m) c main_v1 (by decide)).trans ((V11_of m (outsAll m) c main_v1 (by decide)).trans ((V10_of m (outsAll m) c main_v1 (by decide)).trans ((V9_of m (outsAll m) c main_v1 (by decide)).trans ((V8_of m (outsAll m) c main_v1 (by decide)).trans ((V7_of m (outsAll m) c main_v1 (by decide)).trans ((V6_of m (outsAll m) c main_v1 (by decide)).trans ((V5_of m (outsAll m) c main_v1 (by decide)).trans ((V4_of m (outsAll m) c main_v1 (by decide)).trans ((V3_of m (outsAll m) c main_v1 (by decide)).trans (V2_of m (outsAll m) c main_v1 (by decide)))))))))))).trans (keptRow0 m c)]
  have hwx : V13 m (outsAll m) c main_v76 = wxOf2 (arg m c main_arg5) := by
    refine (stretch6_wx (V12 m (outsAll m) c)).trans ?_
    rw [show V12 m (outsAll m) c main_arg5 = arg m c main_arg5 from ((V12_of m (outsAll m) c main_arg5 (by decide)).trans ((V11_of m (outsAll m) c main_arg5 (by decide)).trans ((V10_of m (outsAll m) c main_arg5 (by decide)).trans ((V9_of m (outsAll m) c main_arg5 (by decide)).trans ((V8_of m (outsAll m) c main_arg5 (by decide)).trans ((V7_of m (outsAll m) c main_arg5 (by decide)).trans ((V6_of m (outsAll m) c main_arg5 (by decide)).trans ((V5_of m (outsAll m) c main_arg5 (by decide)).trans ((V4_of m (outsAll m) c main_arg5 (by decide)).trans ((V3_of m (outsAll m) c main_arg5 (by decide)).trans ((V2_of m (outsAll m) c main_arg5 (by decide)).trans (V1_of m c main_arg5 (by decide)))))))))))))]
  have hwe : V13 m (outsAll m) c main_v78 = weOf2 (arg m c main_arg6) := by
    refine (stretch6_we (V12 m (outsAll m) c)).trans ?_
    rw [show V12 m (outsAll m) c main_arg6 = arg m c main_arg6 from ((V12_of m (outsAll m) c main_arg6 (by decide)).trans ((V11_of m (outsAll m) c main_arg6 (by decide)).trans ((V10_of m (outsAll m) c main_arg6 (by decide)).trans ((V9_of m (outsAll m) c main_arg6 (by decide)).trans ((V8_of m (outsAll m) c main_arg6 (by decide)).trans ((V7_of m (outsAll m) c main_arg6 (by decide)).trans ((V6_of m (outsAll m) c main_arg6 (by decide)).trans ((V5_of m (outsAll m) c main_arg6 (by decide)).trans ((V4_of m (outsAll m) c main_arg6 (by decide)).trans ((V3_of m (outsAll m) c main_arg6 (by decide)).trans ((V2_of m (outsAll m) c main_arg6 (by decide)).trans (V1_of m c main_arg6 (by decide)))))))))))))]
  have hb : V13 m (outsAll m) c main_v81 = row (vecOf2 (arg m c main_arg7)) := by
    refine (stretch6_bias (V12 m (outsAll m) c)).trans ?_
    rw [show V12 m (outsAll m) c main_arg7 = arg m c main_arg7 from ((V12_of m (outsAll m) c main_arg7 (by decide)).trans ((V11_of m (outsAll m) c main_arg7 (by decide)).trans ((V10_of m (outsAll m) c main_arg7 (by decide)).trans ((V9_of m (outsAll m) c main_arg7 (by decide)).trans ((V8_of m (outsAll m) c main_arg7 (by decide)).trans ((V7_of m (outsAll m) c main_arg7 (by decide)).trans ((V6_of m (outsAll m) c main_arg7 (by decide)).trans ((V5_of m (outsAll m) c main_arg7 (by decide)).trans ((V4_of m (outsAll m) c main_arg7 (by decide)).trans ((V3_of m (outsAll m) c main_arg7 (by decide)).trans ((V2_of m (outsAll m) c main_arg7 (by decide)).trans (V1_of m c main_arg7 (by decide)))))))))))))]
  have hea : V13 m (outsAll m) c main_arg2 = arg m c main_arg2 := ((V13_of m (outsAll m) c main_arg2 (by decide)).trans ((V12_of m (outsAll m) c main_arg2 (by decide)).trans ((V11_of m (outsAll m) c main_arg2 (by decide)).trans ((V10_of m (outsAll m) c main_arg2 (by decide)).trans ((V9_of m (outsAll m) c main_arg2 (by decide)).trans ((V8_of m (outsAll m) c main_arg2 (by decide)).trans ((V7_of m (outsAll m) c main_arg2 (by decide)).trans ((V6_of m (outsAll m) c main_arg2 (by decide)).trans ((V5_of m (outsAll m) c main_arg2 (by decide)).trans ((V4_of m (outsAll m) c main_arg2 (by decide)).trans ((V3_of m (outsAll m) c main_arg2 (by decide)).trans ((V2_of m (outsAll m) c main_arg2 (by decide)).trans (V1_of m c main_arg2 (by decide))))))))))))))
  -- the messages summed into their rows (stretch 7)
  have hagg : V15 m (outsAll m) c main_v85 = kerAgg (dstOf (edgeRow1 (arg m c main_arg1)))
      (kerMsg (Host.gather gather_S100000x128_S800000x1_S800000x128_1_0_n_n_0_1_1128 (kerH2 (arg m c main_arg0) (arg m c main_arg1) (arg m c main_arg2) (arg m c main_arg5) (arg m c main_arg6) (arg m c main_arg7) (arg m c main_arg8) (arg m c main_arg9)) (srcOf (edgeRow0 (arg m c main_arg1))))
        (arg m c main_arg2) (wxOf2 (arg m c main_arg5)) (weOf2 (arg m c main_arg6)) (row (vecOf2 (arg m c main_arg7)))) := by
    refine (stretch7_agg (V14 m (outsAll m) c)).trans ?_
    rw [valueMsg2 m c, hg, hwx, hwe, hb, hea,
      show V14 m (outsAll m) c main_v3 = edgeRow1 (arg m c main_arg1) from ((V14_of m (outsAll m) c main_v3 (by decide)).trans ((V13_of m (outsAll m) c main_v3 (by decide)).trans ((V12_of m (outsAll m) c main_v3 (by decide)).trans ((V11_of m (outsAll m) c main_v3 (by decide)).trans ((V10_of m (outsAll m) c main_v3 (by decide)).trans ((V9_of m (outsAll m) c main_v3 (by decide)).trans ((V8_of m (outsAll m) c main_v3 (by decide)).trans ((V7_of m (outsAll m) c main_v3 (by decide)).trans ((V6_of m (outsAll m) c main_v3 (by decide)).trans ((V5_of m (outsAll m) c main_v3 (by decide)).trans ((V4_of m (outsAll m) c main_v3 (by decide)).trans ((V3_of m (outsAll m) c main_v3 (by decide)).trans (V2_of m (outsAll m) c main_v3 (by decide)))))))))))))).trans (keptRow1 m c)]
  -- the mean and the one-pass variance (stretch 8), the scale and the shift
  have hmean : V17 m (outsAll m) c main_v88 = kerMean (kerSum (V15 m (outsAll m) c main_v85)) := by
    refine (stretch8_mean (V16 m (outsAll m) c)).trans ?_
    rw [valueSum2 m c]
  have hvar : V17 m (outsAll m) c main_v92 = kerVar (kerSum (V15 m (outsAll m) c main_v85)) (kerSumSq (V15 m (outsAll m) c main_v85)) := by
    refine (stretch8_var (V16 m (outsAll m) c)).trans ?_
    rw [valueSum2 m c, valueSq2 m c]
  have hga : V17 m (outsAll m) c main_v97 = row (vecOf2 (arg m c main_arg8)) := by
    refine (stretch8_scale (V16 m (outsAll m) c)).trans ?_
    rw [show V16 m (outsAll m) c main_arg8 = arg m c main_arg8 from ((V16_of m (outsAll m) c main_arg8 (by decide)).trans ((V15_of m (outsAll m) c main_arg8 (by decide)).trans ((V14_of m (outsAll m) c main_arg8 (by decide)).trans ((V13_of m (outsAll m) c main_arg8 (by decide)).trans ((V12_of m (outsAll m) c main_arg8 (by decide)).trans ((V11_of m (outsAll m) c main_arg8 (by decide)).trans ((V10_of m (outsAll m) c main_arg8 (by decide)).trans ((V9_of m (outsAll m) c main_arg8 (by decide)).trans ((V8_of m (outsAll m) c main_arg8 (by decide)).trans ((V7_of m (outsAll m) c main_arg8 (by decide)).trans ((V6_of m (outsAll m) c main_arg8 (by decide)).trans ((V5_of m (outsAll m) c main_arg8 (by decide)).trans ((V4_of m (outsAll m) c main_arg8 (by decide)).trans ((V3_of m (outsAll m) c main_arg8 (by decide)).trans ((V2_of m (outsAll m) c main_arg8 (by decide)).trans (V1_of m c main_arg8 (by decide)))))))))))))))))]
  have hbe : V17 m (outsAll m) c main_v98 = row (vecOf2 (arg m c main_arg9)) := by
    refine (stretch8_shift (V16 m (outsAll m) c)).trans ?_
    rw [show V16 m (outsAll m) c main_arg9 = arg m c main_arg9 from ((V16_of m (outsAll m) c main_arg9 (by decide)).trans ((V15_of m (outsAll m) c main_arg9 (by decide)).trans ((V14_of m (outsAll m) c main_arg9 (by decide)).trans ((V13_of m (outsAll m) c main_arg9 (by decide)).trans ((V12_of m (outsAll m) c main_arg9 (by decide)).trans ((V11_of m (outsAll m) c main_arg9 (by decide)).trans ((V10_of m (outsAll m) c main_arg9 (by decide)).trans ((V9_of m (outsAll m) c main_arg9 (by decide)).trans ((V8_of m (outsAll m) c main_arg9 (by decide)).trans ((V7_of m (outsAll m) c main_arg9 (by decide)).trans ((V6_of m (outsAll m) c main_arg9 (by decide)).trans ((V5_of m (outsAll m) c main_arg9 (by decide)).trans ((V4_of m (outsAll m) c main_arg9 (by decide)).trans ((V3_of m (outsAll m) c main_arg9 (by decide)).trans ((V2_of m (outsAll m) c main_arg9 (by decide)).trans (V1_of m c main_arg9 (by decide)))))))))))))))))]
  have hkeep : V17 m (outsAll m) c main_v85 = V15 m (outsAll m) c main_v85 := ((V17_of m (outsAll m) c main_v85 (by decide)).trans (V16_of m (outsAll m) c main_v85 (by decide)))
  rw [valueNorm2 m c, hkeep, hmean, hvar, hga, hbe, hagg]
  rfl

/-! ## The result -/

/-- The result's buffer after the run holds the classifier's array at the pooled features of the network. -/
theorem resultValue (c : Dev nD) : V20 m (outsAll m) c main_v107
    = mlpArray9 (poolOf (arg m c main_arg3) (kerH3 (arg m c main_arg0) (arg m c main_arg1) (arg m c main_arg2) (arg m c main_arg5) (arg m c main_arg6) (arg m c main_arg7) (arg m c main_arg8) (arg m c main_arg9))) (arg m c main_arg4) (fc1Top (arg m c main_arg10)) (fc1Bottom (arg m c main_arg10))
        (shapeCast S1x256 (arg m c main_arg11) shapeCasts_S256_S1x256) (arg m c main_arg12) (shapeCast S1x10 (arg m c main_arg13) shapeCasts_S10_S1x10) := by
  have hpool : V19 m (outsAll m) c main_v102 = poolOf (arg m c main_arg3) (kerH3 (arg m c main_arg0) (arg m c main_arg1) (arg m c main_arg2) (arg m c main_arg5) (arg m c main_arg6) (arg m c main_arg7) (arg m c main_arg8) (arg m c main_arg9)) := by
    refine (stretch9_pool (V18 m (outsAll m) c)).trans ?_
    rw [layerValue2 m c, show V18 m (outsAll m) c main_arg3 = arg m c main_arg3 from ((V18_of m (outsAll m) c main_arg3 (by decide)).trans ((V17_of m (outsAll m) c main_arg3 (by decide)).trans ((V16_of m (outsAll m) c main_arg3 (by decide)).trans ((V15_of m (outsAll m) c main_arg3 (by decide)).trans ((V14_of m (outsAll m) c main_arg3 (by decide)).trans ((V13_of m (outsAll m) c main_arg3 (by decide)).trans ((V12_of m (outsAll m) c main_arg3 (by decide)).trans ((V11_of m (outsAll m) c main_arg3 (by decide)).trans ((V10_of m (outsAll m) c main_arg3 (by decide)).trans ((V9_of m (outsAll m) c main_arg3 (by decide)).trans ((V8_of m (outsAll m) c main_arg3 (by decide)).trans ((V7_of m (outsAll m) c main_arg3 (by decide)).trans ((V6_of m (outsAll m) c main_arg3 (by decide)).trans ((V5_of m (outsAll m) c main_arg3 (by decide)).trans ((V4_of m (outsAll m) c main_arg3 (by decide)).trans ((V3_of m (outsAll m) c main_arg3 (by decide)).trans ((V2_of m (outsAll m) c main_arg3 (by decide)).trans (V1_of m c main_arg3 (by decide)))))))))))))))))))]
  have htop : V19 m (outsAll m) c main_v103 = fc1Top (arg m c main_arg10) := by
    refine (stretch9_top (V18 m (outsAll m) c)).trans ?_
    rw [show V18 m (outsAll m) c main_arg10 = arg m c main_arg10 from ((V18_of m (outsAll m) c main_arg10 (by decide)).trans ((V17_of m (outsAll m) c main_arg10 (by decide)).trans ((V16_of m (outsAll m) c main_arg10 (by decide)).trans ((V15_of m (outsAll m) c main_arg10 (by decide)).trans ((V14_of m (outsAll m) c main_arg10 (by decide)).trans ((V13_of m (outsAll m) c main_arg10 (by decide)).trans ((V12_of m (outsAll m) c main_arg10 (by decide)).trans ((V11_of m (outsAll m) c main_arg10 (by decide)).trans ((V10_of m (outsAll m) c main_arg10 (by decide)).trans ((V9_of m (outsAll m) c main_arg10 (by decide)).trans ((V8_of m (outsAll m) c main_arg10 (by decide)).trans ((V7_of m (outsAll m) c main_arg10 (by decide)).trans ((V6_of m (outsAll m) c main_arg10 (by decide)).trans ((V5_of m (outsAll m) c main_arg10 (by decide)).trans ((V4_of m (outsAll m) c main_arg10 (by decide)).trans ((V3_of m (outsAll m) c main_arg10 (by decide)).trans ((V2_of m (outsAll m) c main_arg10 (by decide)).trans (V1_of m c main_arg10 (by decide)))))))))))))))))))]
  have hbot : V19 m (outsAll m) c main_v104 = fc1Bottom (arg m c main_arg10) := by
    refine (stretch9_bottom (V18 m (outsAll m) c)).trans ?_
    rw [show V18 m (outsAll m) c main_arg10 = arg m c main_arg10 from ((V18_of m (outsAll m) c main_arg10 (by decide)).trans ((V17_of m (outsAll m) c main_arg10 (by decide)).trans ((V16_of m (outsAll m) c main_arg10 (by decide)).trans ((V15_of m (outsAll m) c main_arg10 (by decide)).trans ((V14_of m (outsAll m) c main_arg10 (by decide)).trans ((V13_of m (outsAll m) c main_arg10 (by decide)).trans ((V12_of m (outsAll m) c main_arg10 (by decide)).trans ((V11_of m (outsAll m) c main_arg10 (by decide)).trans ((V10_of m (outsAll m) c main_arg10 (by decide)).trans ((V9_of m (outsAll m) c main_arg10 (by decide)).trans ((V8_of m (outsAll m) c main_arg10 (by decide)).trans ((V7_of m (outsAll m) c main_arg10 (by decide)).trans ((V6_of m (outsAll m) c main_arg10 (by decide)).trans ((V5_of m (outsAll m) c main_arg10 (by decide)).trans ((V4_of m (outsAll m) c main_arg10 (by decide)).trans ((V3_of m (outsAll m) c main_arg10 (by decide)).trans ((V2_of m (outsAll m) c main_arg10 (by decide)).trans (V1_of m c main_arg10 (by decide)))))))))))))))))))]
  have hb1 : V19 m (outsAll m) c main_v105 = shapeCast S1x256 (arg m c main_arg11) shapeCasts_S256_S1x256 := by
    refine (stretch9_bias1 (V18 m (outsAll m) c)).trans ?_
    rw [show V18 m (outsAll m) c main_arg11 = arg m c main_arg11 from ((V18_of m (outsAll m) c main_arg11 (by decide)).trans ((V17_of m (outsAll m) c main_arg11 (by decide)).trans ((V16_of m (outsAll m) c main_arg11 (by decide)).trans ((V15_of m (outsAll m) c main_arg11 (by decide)).trans ((V14_of m (outsAll m) c main_arg11 (by decide)).trans ((V13_of m (outsAll m) c main_arg11 (by decide)).trans ((V12_of m (outsAll m) c main_arg11 (by decide)).trans ((V11_of m (outsAll m) c main_arg11 (by decide)).trans ((V10_of m (outsAll m) c main_arg11 (by decide)).trans ((V9_of m (outsAll m) c main_arg11 (by decide)).trans ((V8_of m (outsAll m) c main_arg11 (by decide)).trans ((V7_of m (outsAll m) c main_arg11 (by decide)).trans ((V6_of m (outsAll m) c main_arg11 (by decide)).trans ((V5_of m (outsAll m) c main_arg11 (by decide)).trans ((V4_of m (outsAll m) c main_arg11 (by decide)).trans ((V3_of m (outsAll m) c main_arg11 (by decide)).trans ((V2_of m (outsAll m) c main_arg11 (by decide)).trans (V1_of m c main_arg11 (by decide)))))))))))))))))))]
  have hb2 : V19 m (outsAll m) c main_v106 = shapeCast S1x10 (arg m c main_arg13) shapeCasts_S10_S1x10 := by
    refine (stretch9_bias2 (V18 m (outsAll m) c)).trans ?_
    rw [show V18 m (outsAll m) c main_arg13 = arg m c main_arg13 from ((V18_of m (outsAll m) c main_arg13 (by decide)).trans ((V17_of m (outsAll m) c main_arg13 (by decide)).trans ((V16_of m (outsAll m) c main_arg13 (by decide)).trans ((V15_of m (outsAll m) c main_arg13 (by decide)).trans ((V14_of m (outsAll m) c main_arg13 (by decide)).trans ((V13_of m (outsAll m) c main_arg13 (by decide)).trans ((V12_of m (outsAll m) c main_arg13 (by decide)).trans ((V11_of m (outsAll m) c main_arg13 (by decide)).trans ((V10_of m (outsAll m) c main_arg13 (by decide)).trans ((V9_of m (outsAll m) c main_arg13 (by decide)).trans ((V8_of m (outsAll m) c main_arg13 (by decide)).trans ((V7_of m (outsAll m) c main_arg13 (by decide)).trans ((V6_of m (outsAll m) c main_arg13 (by decide)).trans ((V5_of m (outsAll m) c main_arg13 (by decide)).trans ((V4_of m (outsAll m) c main_arg13 (by decide)).trans ((V3_of m (outsAll m) c main_arg13 (by decide)).trans ((V2_of m (outsAll m) c main_arg13 (by decide)).trans (V1_of m c main_arg13 (by decide)))))))))))))))))))]
  have hnb : V19 m (outsAll m) c main_arg4 = arg m c main_arg4 := ((V19_of m (outsAll m) c main_arg4 (by decide)).trans ((V18_of m (outsAll m) c main_arg4 (by decide)).trans ((V17_of m (outsAll m) c main_arg4 (by decide)).trans ((V16_of m (outsAll m) c main_arg4 (by decide)).trans ((V15_of m (outsAll m) c main_arg4 (by decide)).trans ((V14_of m (outsAll m) c main_arg4 (by decide)).trans ((V13_of m (outsAll m) c main_arg4 (by decide)).trans ((V12_of m (outsAll m) c main_arg4 (by decide)).trans ((V11_of m (outsAll m) c main_arg4 (by decide)).trans ((V10_of m (outsAll m) c main_arg4 (by decide)).trans ((V9_of m (outsAll m) c main_arg4 (by decide)).trans ((V8_of m (outsAll m) c main_arg4 (by decide)).trans ((V7_of m (outsAll m) c main_arg4 (by decide)).trans ((V6_of m (outsAll m) c main_arg4 (by decide)).trans ((V5_of m (outsAll m) c main_arg4 (by decide)).trans ((V4_of m (outsAll m) c main_arg4 (by decide)).trans ((V3_of m (outsAll m) c main_arg4 (by decide)).trans ((V2_of m (outsAll m) c main_arg4 (by decide)).trans (V1_of m c main_arg4 (by decide))))))))))))))))))))
  have hw2 : V19 m (outsAll m) c main_arg12 = arg m c main_arg12 := ((V19_of m (outsAll m) c main_arg12 (by decide)).trans ((V18_of m (outsAll m) c main_arg12 (by decide)).trans ((V17_of m (outsAll m) c main_arg12 (by decide)).trans ((V16_of m (outsAll m) c main_arg12 (by decide)).trans ((V15_of m (outsAll m) c main_arg12 (by decide)).trans ((V14_of m (outsAll m) c main_arg12 (by decide)).trans ((V13_of m (outsAll m) c main_arg12 (by decide)).trans ((V12_of m (outsAll m) c main_arg12 (by decide)).trans ((V11_of m (outsAll m) c main_arg12 (by decide)).trans ((V10_of m (outsAll m) c main_arg12 (by decide)).trans ((V9_of m (outsAll m) c main_arg12 (by decide)).trans ((V8_of m (outsAll m) c main_arg12 (by decide)).trans ((V7_of m (outsAll m) c main_arg12 (by decide)).trans ((V6_of m (outsAll m) c main_arg12 (by decide)).trans ((V5_of m (outsAll m) c main_arg12 (by decide)).trans ((V4_of m (outsAll m) c main_arg12 (by decide)).trans ((V3_of m (outsAll m) c main_arg12 (by decide)).trans ((V2_of m (outsAll m) c main_arg12 (by decide)).trans (V1_of m c main_arg12 (by decide))))))))))))))))))))
  rw [valueMlp m c, hpool, htop, hbot, hb1, hb2, hnb, hw2]

end Cert.KernelIdeal.Hand

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibDenseRead.lean ====
/-
  Dense-layer pieces on the host read at one entry, at the extended reals.

  * The host's plain matrix product of an `m × k` by a `k × n` array holds at entry `(a, b)` the sum over the
    contracted position `c` of `A[a,c] · B[c,b]` (no accumulator, whatever the schedule key).
  * A bias vector `[n]` placed as the row `[1, n]` and repeated down `m` rows holds at `(p, c)` the vector's entry `c`.
  * The zero word filled into any shape holds `0` at every index.
-/
import Idealize.ShloMosaic.PureOps.Ideal.Laws
import Idealize.ShloMosaic.Lib.ValueIdx
import Idealize.ShloMosaic.Lib.Pipeline.Value
import proofs.«148009_j49555332661695_1_alg».proof.Proof.LibPlainMatmul

noncomputable section

open scoped BigOperators

namespace Idealize.ShloMosaic.DenseRead

open Idealize.ShloMosaic Idealize.ShloMosaic.ValueIdx Idealize.ShloMosaic.PlainMatmul

variable {m k n : Nat}

/-- **The host's plain product at an entry**: `∑ c, A[a,c] · B[c,b]`. -/
theorem dotGeneral_apply {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- A bias vector placed as a row and repeated down the rows, at `(p, c)`: the vector's entry `c`. -/
theorem biasRows_apply {α : Type} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (p : Fin m) (c : Fin n) :
    broadcastInDim ⟨2, ![m, n]⟩ ![0, 1] h2 (broadcastInDim ⟨2, ![1, n]⟩ ![1] h1 x) (ix2 p c) = x (ix1 c) := by
  refine (broadcastInDim_apply _ h2 _ (ix2 p c) (ix2 (0 : Fin 1) c) (fun a => ?_)).trans
    (broadcastInDim_apply _ h1 x (ix2 (0 : Fin 1) c) (ix1 c) (fun a => ?_))
  · match a with
    | ⟨0, _⟩ => show 0 = if (1 : Nat) = 1 then 0 else p.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- The zero word filled into a shape, at any index: `0`. -/
theorem zeroFill_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (broadcastInDim_apply _ h _ i ix0 (fun a => a.elim0)).trans Ideal.ofBits_zero_f32

end Idealize.ShloMosaic.DenseRead

end
-- ==== Proof.LibRowScatter.lean ====
/-
  Gathering rows of an array, and scatter-adding rows into an array, at a column of row numbers, read at an entry.

  `x[idx]` for an array `x` of `N` rows (of `C` numbers each, or of one number) and a column `idx` of `R` row numbers is
  a gather whose row `e` is row `clampRow idx e` of `x`: the row number read as a signed integer and clamped into
  `[0, N - 1]`.  `x.at[idx].add(u)` adds row `e` of `u` to row `idx e` of `x` when that signed number is a row of `x`,
  and drops it when it is not: over the extended reals entry `(n, c)` of the result is entry `(n, c)` of `x` plus the
  sum of `u e c` over the rows `e` whose number is `n`.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

variable {α : Type}

/-! ## Closed facts about the axis lists of rank 1 and rank 2 -/

theorem kept2_0 : (List.finRange 2).filter (fun a : Fin 2 => a ∉ ([0] ++ [] : List (Fin 2))) = [1] := by decide
theorem kept2_0' : (List.finRange 2).filter (fun a : Fin 2 => a ∉ ([0] : List (Fin 2))) = [1] := by decide
theorem kept1_0 : (List.finRange 1).filter (fun a : Fin 1 => a ∉ ([0] ++ [] : List (Fin 1))) = [] := by decide
theorem kept1_0' : (List.finRange 1).filter (fun a : Fin 1 => a ∉ ([0] : List (Fin 1))) = [] := by decide
theorem idxOf_1 : List.idxOf (1 : Fin 2) [1] = 0 := by decide
theorem one_not_mem : (1 : Fin 2) ∉ ([0] : List (Fin 2)) := by decide
theorem zero_not_mem_one : (0 : Fin 2) ∉ ([1] : List (Fin 2)) := by decide

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The column of row numbers -/

/-- Entry `e` of a column of `R` row numbers, read as a signed integer. -/
def rowNo {R w : Nat} (idx : IVec ⟨2, ![R, 1]⟩ w) (e : Fin R) : Int := (idx (ix2 e (0 : Fin 1))).toInt

/-- The row a gather reads for entry `e`: its signed number clamped into `[0, N - 1]`. -/
def clampRow {R w : Nat} (N : Nat) (hN : 0 < N) (idx : IVec ⟨2, ![R, 1]⟩ w) (e : Fin R) : Fin N :=
  ⟨min (rowNo idx e).toNat (N - 1), by omega⟩

/-- A signed number that is a row is its own clamp. -/
theorem clampRow_of_rowNo {R w : Nat} (N : Nat) (hN : 0 < N) (idx : IVec ⟨2, ![R, 1]⟩ w) (e : Fin R) (n : Fin N)
    (h : rowNo idx e = (n.val : Int)) : clampRow N hN idx e = n := by
  apply Fin.ext
  show min (rowNo idx e).toNat (N - 1) = n.val
  have := n.isLt
  rw [h]; omega

/-! ## Rows of a rank-2 array gathered -/

/-- The dimension numbers of `x[idx]` for `x : [N, C]`, `idx : [R, 1]`: result `[R, C]`. -/
abbrev gatherRows (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section GatherRows
variable {N R C w : Nat} (wf : GatherDims.WF ⟨2, ![N, C]⟩ ⟨2, ![R, 1]⟩ ⟨2, ![R, C]⟩ [1] [0] [] [0] [] 1 ![1, C])
  (idx : IVec ⟨2, ![R, 1]⟩ w) (e : Fin R) (k : Fin C)

theorem gatherRows_sKept : (gatherRows N R C wf).sKept = [1] := kept2_0

theorem gatherRows_axis0 (hN : 0 < N) :
    (gatherRows N R C wf).start (ix2 e k) idx (0 : Fin 2) + (gatherRows N R C wf).batchCoord (ix2 e k) (0 : Fin 2)
      + (gatherRows N R C wf).offCoord (ix2 e k) (0 : Fin 2) = (clampRow N hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N R C wf).startIndexMap from List.mem_singleton.mpr rfl)]
  have hsi : (gatherRows N R C wf).siIdx (ix2 e k) ⟨List.idxOf (0 : Fin 2) (gatherRows N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherRows_axis1 :
    (gatherRows N R C wf).start (ix2 e k) idx (1 : Fin 2) + (gatherRows N R C wf).batchCoord (ix2 e k) (1 : Fin 2)
      + (gatherRows N R C wf).offCoord (ix2 e k) (1 : Fin 2) = k.val := by
  rw [GatherDims.batchCoord_eq_zero _ _ _ List.not_mem_nil]
  have hs : (gatherRows N R C wf).start (ix2 e k) idx (1 : Fin 2) = 0 := by
    unfold GatherDims.start
    rw [dif_neg one_not_mem]
  have ho : (gatherRows N R C wf).offCoord (ix2 e k) (1 : Fin 2) = k.val := by
    unfold GatherDims.offCoord
    rw [dif_pos (by rw [gatherRows_sKept]; exact List.mem_singleton.mpr rfl)]
    have h : List.idxOf (1 : Fin 2) (gatherRows N R C wf).sKept = 0 := by rw [gatherRows_sKept]; exact idxOf_1
    simp only [h]
    rfl
  rw [hs, ho]; omega

/-- Row `e` of the gather is row `clampRow idx e` of the operand. -/
theorem gatherRows_apply (hN : 0 < N) (x : (⟨2, ![N, C]⟩ : Shape).Idx → α) :
    Host.gather (gatherRows N R C wf) x idx (ix2 e k) = x (ix2 (clampRow N hN idx e) k) := by
  unfold Host.gather
  congr 1
  funext a
  refine Fin.ext ?_
  revert a
  refine Fin.forall_fin_two.mpr ⟨?_, ?_⟩
  · exact gatherRows_axis0 wf idx e k hN
  · exact gatherRows_axis1 wf idx e k

end GatherRows

/-! ## Entries of a rank-1 array gathered -/

/-- The dimension numbers of `x[idx]` for `x : [N]`, `idx : [R, 1]`: result `[R]`. -/
abbrev gatherCol (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `e` of the gather is entry `clampRow idx e` of the operand. -/
theorem gatherCol_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (gatherCol N R wf) x idx (ix1 e) = x (ix1 (clampRow N hN idx e)) := by
  unfold Host.gather
  congr 1
  funext a
  obtain rfl : a = 0 := Subsingleton.elim _ _
  refine Fin.ext ?_
  show (gatherCol N R wf).start (ix1 e) idx 0 + (gatherCol N R wf).batchCoord (ix1 e) 0
    + (gatherCol N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherCol N R wf).startIndexMap from List.mem_singleton.mpr rfl)]
  have hsi : (gatherCol N R wf).siIdx (ix1 e) ⟨List.idxOf (0 : Fin 1) (gatherCol N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scatter-added into a rank-2 array -/

/-- The dimension numbers of `x.at[idx].add(u)` for `x : [N, C]`, `idx : [R, 1]`, `u : [R, C]`. -/
abbrev scatterRows (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatterRows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

theorem scatterRows_sKept : (scatterRows N R C wf).sKept = [1] := kept2_0'

theorem scatterRows_axis0 :
    (scatterRows N R C wf).start (ix2 e k) idx (0 : Fin 2) + ((scatterRows N R C wf).window (ix2 e k) (0 : Fin 2) : Int)
      = rowNo idx e := by
  have hw : (scatterRows N R C wf).window (ix2 e k) (0 : Fin 2) = 0 := by
    unfold ScatterDims.window
    rw [dif_neg (by rw [scatterRows_sKept]; exact zero_not_mem_one)]
  have hs : (scatterRows N R C wf).start (ix2 e k) idx (0 : Fin 2) = rowNo idx e := by
    unfold ScatterDims.start
    rw [dif_pos (show (0 : Fin 2) ∈ (scatterRows N R C wf).scatterDimsToOperandDims from List.mem_singleton.mpr rfl)]
    have hsi : (scatterRows N R C wf).siIdx (ix2 e k)
        ⟨List.idxOf (0 : Fin 2) (scatterRows N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

theorem scatterRows_axis1 :
    (scatterRows N R C wf).start (ix2 e k) idx (1 : Fin 2) + ((scatterRows N R C wf).window (ix2 e k) (1 : Fin 2) : Int)
      = (k.val : Int) := by
  have hs : (scatterRows N R C wf).start (ix2 e k) idx (1 : Fin 2) = 0 := by
    unfold ScatterDims.start
    rw [dif_neg one_not_mem]
  have hw : (scatterRows N R C wf).window (ix2 e k) (1 : Fin 2) = k.val := by
    unfold ScatterDims.window
    rw [dif_pos (by rw [scatterRows_sKept]; exact List.mem_singleton.mpr rfl)]
    have h : List.idxOf (1 : Fin 2) (scatterRows N R C wf).sKept = 0 := by rw [scatterRows_sKept]; exact idxOf_1
    simp only [h]
    rfl
  rw [hs, hw]; simp

/-- Update `(e, k)` lands on entry `(n, c)` exactly when row `e`'s signed number is `n` and `k = c`. -/
theorem scatterRows_resultIdx (n : Fin N) (c : Fin C) :
    (scatterRows N R C wf).resultIdx? (ix2 e k) idx = some (ix2 n c) ↔ rowNo idx e = (n.val : Int) ∧ k = c := by
  have h0 := scatterRows_axis0 wf idx e k
  have h1 := scatterRows_axis1 wf idx e k
  unfold ScatterDims.resultIdx?
  split
  · rename_i h
    rw [Option.some.injEq]
    constructor
    · intro hi
      have e0 := congrArg Fin.val (congrFun hi (0 : Fin 2))
      have e1 := congrArg Fin.val (congrFun hi (1 : Fin 2))
      have p0 := (h (0 : Fin 2)).1
      refine ⟨?_, Fin.ext ?_⟩
      · have e0' : ((scatterRows N R C wf).start (ix2 e k) idx (0 : Fin 2)
            + ((scatterRows N R C wf).window (ix2 e k) (0 : Fin 2) : Int)).toNat = n.val := e0
        rw [h0] at e0' p0
        omega
      · have e1' : ((scatterRows N R C wf).start (ix2 e k) idx (1 : Fin 2)
            + ((scatterRows N R C wf).window (ix2 e k) (1 : Fin 2) : Int)).toNat = c.val := e1
        rw [h1] at e1'
        omega
    · rintro ⟨hr, rfl⟩
      funext a
      refine Fin.ext ?_
      revert a
      refine Fin.forall_fin_two.mpr ⟨?_, ?_⟩
      · show ((scatterRows N R C wf).start (ix2 e k) idx (0 : Fin 2)
            + ((scatterRows N R C wf).window (ix2 e k) (0 : Fin 2) : Int)).toNat = n.val
        rw [h0, hr]; simp
      · show ((scatterRows N R C wf).start (ix2 e k) idx (1 : Fin 2)
            + ((scatterRows N R C wf).window (ix2 e k) (1 : Fin 2) : Int)).toNat = k.val
        rw [h1]; simp
  · rename_i h
    constructor
    · intro hi; exact absurd hi (by simp)
    · rintro ⟨hr, rfl⟩
      exfalso
      apply h
      refine Fin.forall_fin_two.mpr ⟨?_, ?_⟩
      · show 0 ≤ (scatterRows N R C wf).start (ix2 e k) idx (0 : Fin 2)
            + ((scatterRows N R C wf).window (ix2 e k) (0 : Fin 2) : Int)
          ∧ (scatterRows N R C wf).start (ix2 e k) idx (0 : Fin 2)
            + ((scatterRows N R C wf).window (ix2 e k) (0 : Fin 2) : Int) < (N : Int)
        rw [h0, hr]
        have := n.isLt
        constructor <;> omega
      · show 0 ≤ (scatterRows N R C wf).start (ix2 e k) idx (1 : Fin 2)
            + ((scatterRows N R C wf).window (ix2 e k) (1 : Fin 2) : Int)
          ∧ (scatterRows N R C wf).start (ix2 e k) idx (1 : Fin 2)
            + ((scatterRows N R C wf).window (ix2 e k) (1 : Fin 2) : Int) < (C : Int)
        rw [h1]
        have := k.isLt
        constructor <;> omega

end ScatterRows

/-- Over the extended reals, entry `(n, c)` after the scatter-add is the entry before plus the sum of `u e c` over
    the rows `e` whose signed number is `n`. -/
theorem scatterAddRows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (u : (⟨2, ![R, C]⟩ : Shape).Idx → EReal)
    (n : Fin N) (c : Fin C) :
    Ideal.hostScatterAdd (scatterRows N R C wf) x idx u (ix2 n c)
      = x (ix2 n c) + ∑ e ∈ Finset.univ.filter (fun e : Fin R => rowNo idx e = (n.val : Int)), u (ix2 e c) := by
  unfold Ideal.hostScatterAdd
  congr 1
  rw [Finset.sum_filter, sum_idx2, Finset.sum_filter]
  refine Finset.sum_congr rfl fun e _ => ?_
  simp only [scatterRows_resultIdx]
  by_cases h : rowNo idx e = (n.val : Int)
  · simp [h]
  · simp [h]

/-- The same for the host operation at the ideal values, whose meaning that sum is. -/
theorem hostScatterAddRows_apply {φ : FTy} {N R C w : Nat}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (u : FVec Ideal ⟨2, ![R, C]⟩ φ) (n : Fin N) (c : Fin C) :
    Host.scatterAdd (scatterRows N R C wf) x idx u (ix2 n c)
      = x (ix2 n c) + ∑ e ∈ Finset.univ.filter (fun e : Fin R => rowNo idx e = (n.val : Int)), u (ix2 e c) :=
  scatterAddRows_apply wf x idx u n c

/-! ## Entries scatter-added into a rank-1 array -/

/-- The dimension numbers of `x.at[idx].add(u)` for `x : [N]`, `idx : [R, 1]`, `u : [R]`. -/
abbrev scatterCol (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section ScatterCol
variable {N R w : Nat} (wf : ScatterDims.WF ⟨1, ![N]⟩ ⟨2, ![R, 1]⟩ ⟨1, ![R]⟩ [] [0] [0] 1)
  (idx : IVec ⟨2, ![R, 1]⟩ w) (e : Fin R)

theorem scatterCol_axis0 :
    (scatterCol N R wf).start (ix1 e) idx (0 : Fin 1) + ((scatterCol N R wf).window (ix1 e) (0 : Fin 1) : Int)
      = rowNo idx e := by
  have hw : (scatterCol N R wf).window (ix1 e) (0 : Fin 1) = 0 := by
    unfold ScatterDims.window
    rw [dif_neg (by rw [show (scatterCol N R wf).sKept = [] from kept1_0']; exact List.not_mem_nil)]
  have hs : (scatterCol N R wf).start (ix1 e) idx (0 : Fin 1) = rowNo idx e := by
    unfold ScatterDims.start
    rw [dif_pos (show (0 : Fin 1) ∈ (scatterCol N R wf).scatterDimsToOperandDims from List.mem_singleton.mpr rfl)]
    have hsi : (scatterCol N R wf).siIdx (ix1 e)
        ⟨List.idxOf (0 : Fin 1) (scatterCol N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

/-- Update `e` lands on entry `n` exactly when its signed number is `n`. -/
theorem scatterCol_resultIdx (n : Fin N) :
    (scatterCol N R wf).resultIdx? (ix1 e) idx = some (ix1 n) ↔ rowNo idx e = (n.val : Int) := by
  have h0 := scatterCol_axis0 wf idx e
  unfold ScatterDims.resultIdx?
  split
  · rename_i h
    rw [Option.some.injEq]
    constructor
    · intro hi
      have e0 : ((scatterCol N R wf).start (ix1 e) idx (0 : Fin 1)
          + ((scatterCol N R wf).window (ix1 e) (0 : Fin 1) : Int)).toNat = n.val :=
        congrArg Fin.val (congrFun hi (0 : Fin 1))
      have p0 := (h (0 : Fin 1)).1
      rw [h0] at e0 p0
      omega
    · intro hr
      funext a
      obtain rfl : a = 0 := Subsingleton.elim _ _
      refine Fin.ext ?_
      show ((scatterCol N R wf).start (ix1 e) idx (0 : Fin 1)
          + ((scatterCol N R wf).window (ix1 e) (0 : Fin 1) : Int)).toNat = n.val
      rw [h0, hr]; simp
  · rename_i h
    constructor
    · intro hi; exact absurd hi (by simp)
    · intro hr
      exfalso
      apply h
      intro a
      obtain rfl : a = 0 := Subsingleton.elim _ _
      show 0 ≤ (scatterCol N R wf).start (ix1 e) idx (0 : Fin 1)
          + ((scatterCol N R wf).window (ix1 e) (0 : Fin 1) : Int)
        ∧ (scatterCol N R wf).start (ix1 e) idx (0 : Fin 1)
          + ((scatterCol N R wf).window (ix1 e) (0 : Fin 1) : Int) < (N : Int)
      rw [h0, hr]
      have := n.isLt
      constructor <;> omega

end ScatterCol

/-- Over the extended reals, entry `n` after the scatter-add is the entry before plus the sum of `u e` over the
    entries `e` whose signed number is `n`. -/
theorem scatterAddCol_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (u : (⟨1, ![R]⟩ : Shape).Idx → EReal) (n : Fin N) :
    Ideal.hostScatterAdd (scatterCol N R wf) x idx u (ix1 n)
      = x (ix1 n) + ∑ e ∈ Finset.univ.filter (fun e : Fin R => rowNo idx e = (n.val : Int)), u (ix1 e) := by
  unfold Ideal.hostScatterAdd
  congr 1
  rw [Finset.sum_filter, sum_idx1, Finset.sum_filter]
  refine Finset.sum_congr rfl fun e _ => ?_
  simp only [scatterCol_resultIdx]

end Idealize.ShloMosaic.RowScatter

end
-- ==== Proof.LibBatchNorm.lean ====
/-
  General facts for a per-column normalisation stated over the extended reals.

  * The coercion of the reals into the extended reals commutes with finite sums.
  * For finitely many reals y i with n = the number of them and m = (∑ y) / n, the mean of the squared
    deviations (∑ (y i − m)²) / n equals the mean of the squares minus the squared mean, (∑ y i²) / n − m².
    Division is spelled as multiplication by 1 / n, the form a division by a nonzero real takes on the
    extended reals.
  * The mean of the squared deviations is nonnegative.
  * The reciprocal square root of a positive real is a real.
-/
import Idealize.ShloMosaic.PureOps.Ideal

namespace Cert.LibBatchNorm

open Idealize.ShloMosaic
open scoped BigOperators

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The mean of the squared deviations from the mean is the mean of the squares minus the squared mean:
    with m = (∑ y) · (1/n) and n the number of terms, (∑ (y i − m)²) · (1/n) = (∑ y i²) · (1/n) − m². -/
theorem mean_sq_dev {ι : Type*} [Fintype ι] (y : ι → ℝ) (n : ℝ) (hn : n ≠ 0)
    (hcard : (Fintype.card ι : ℝ) = n) :
    (∑ i, (y i - (∑ j, y j) * (1 / n)) * (y i - (∑ j, y j) * (1 / n))) * (1 / n)
      = (∑ i, y i * y i) * (1 / n) - ((∑ j, y j) * (1 / n)) * ((∑ j, y j) * (1 / n)) := by
  generalize hm : (∑ j, y j) * (1 / n) = m
  have h1 : ∑ i, (y i - m) * (y i - m) = (∑ i, y i * y i) - 2 * m * (∑ i, y i) + n * (m * m) := by
    have h : ∀ i, (y i - m) * (y i - m) = y i * y i - 2 * m * y i + m * m := fun i => by ring
    simp only [h, Finset.sum_add_distrib, Finset.sum_sub_distrib, ← Finset.mul_sum, Finset.sum_const,
      Finset.card_univ, nsmul_eq_mul, hcard]
    ring
  rw [h1, ← hm]
  field_simp
  ring

/-- The mean of the squared deviations is nonnegative when the divisor is positive. -/
theorem mean_sq_dev_nonneg {ι : Type*} [Fintype ι] (y : ι → ℝ) (m n : ℝ) (hn : 0 < n) :
    0 ≤ (∑ i, (y i - m) * (y i - m)) * (1 / n) :=
  mul_nonneg (Finset.sum_nonneg fun i _ => mul_self_nonneg _) (by positivity)

/-- The reciprocal square root of a positive real is the real 1 / √r. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

end Cert.LibBatchNorm
-- ==== Proof.LayerMsg.lean ====
import proofs.«148009_j49555332661695_1_alg».proof.Proof.LayerDefs
import proofs.«148009_j49555332661695_1_alg».proof.Proof.LibDenseRead
import proofs.«148009_j49555332661695_1_alg».proof.Proof.LibRowScatter
import proofs.«148009_j49555332661695_1_alg».proof.Proof.LibBatchNorm

/-!
  The edge messages of one layer, and the reals they keep.

  * Entry (r, q) of the reference's message array — two plain matrix products and a bias vector kept as a row and
    repeated down the rows — is  Σₖ hs[r,k]·wx[k,q] + Σₖ ea[r,k]·we[k,q] + b[q],  which is the kernel's entry with the
    bias vector viewed as a one-row array.
  * When the node features, edge attributes, weights and bias are real numbers, so is every entry of the messages
    summed into their target rows: a gathered row's entries are entries of the node features, a finite sum of products
    of reals is real, and a scatter-add into the zero array is a finite sum of message entries.
-/

set_option maxRecDepth 16384

noncomputable section

namespace Cert.Proof.Layer

open Idealize.ShloMosaic Idealize.ShloMosaic.TcCoe
open Cert.KernelIdeal (S100000x128 S800000x128 S800000x16 S800000x1 S128x128 S16x128 S1x128 S128 S_ S1024x128 S1024x10 S100000x1)
open ValueIdx (ix1 ix2)
open scoped BigOperators

/-! ## The messages, entry by entry -/

/-- A vector of 128 viewed as a one-row array holds at (0, q) the vector's entry q. -/
theorem row_apply (v : FVec Ideal S128 .f32) (q : Fin 128) : row v (ix2 (0 : Fin 1) q) = v (ix1 q) :=
  shapeCast_apply v Cert.KernelIdeal.Facts₀.shapeCasts_S128_S1x128 (ix2 (0 : Fin 1) q) (ix1 q) (by
    rewrite [Shape.rowMajor_val_one, Shape.rowMajor_val_two]
    show q.val = 0 * 128 + q.val
    omega)

/-- The reference's product of the edge-indexed node features by the node weights, at an entry. -/
theorem dotNode_apply (hs : FVec Ideal S800000x128 .f32) (wx : FVec Ideal S128x128 .f32) (r : Fin 800000) (q : Fin 128) :
    Host.dotGeneral Cert.ReferenceIdeal.dot_S800000x128_S128x128_S800000x128_1_0_0_1_n_n none hs wx (ix2 r q)
      = ∑ k : Fin 128, hs (ix2 r k) * wx (ix2 k q) :=
  DenseRead.dotGeneral_apply (m := 800000) (k := 128) (n := 128) none _ hs wx r q

/-- The reference's product of the edge attributes by the edge weights, at an entry. -/
theorem dotEdge_apply (ea : FVec Ideal S800000x16 .f32) (we : FVec Ideal S16x128 .f32) (r : Fin 800000) (q : Fin 128) :
    Host.dotGeneral Cert.ReferenceIdeal.dot_S800000x16_S16x128_S800000x128_1_0_0_1_n_n none ea we (ix2 r q)
      = ∑ k : Fin 16, ea (ix2 r k) * we (ix2 k q) :=
  DenseRead.dotGeneral_apply (m := 800000) (k := 16) (n := 128) none _ ea we r q

/-- The bias vector kept as a row and repeated down the edges, at an entry. -/
theorem spreadE_apply (b : FVec Ideal S128 .f32) (r : Fin 800000) (q : Fin 128) : spreadE b (ix2 r q) = b (ix1 q) :=
  DenseRead.biasRows_apply (m := 800000) (n := 128) b _ _ r q

/-- (A) The kernel's messages on the bias viewed as a row are the reference's sum of two products and the spread bias. -/
theorem msg_eq (hs : FVec Ideal S800000x128 .f32) (ea : FVec Ideal S800000x16 .f32) (wx : FVec Ideal S128x128 .f32)
    (we : FVec Ideal S16x128 .f32) (b : FVec Ideal S128 .f32) :
    kerMsg hs ea wx we (row b)
      = addf (addf (Host.dotGeneral Cert.ReferenceIdeal.dot_S800000x128_S128x128_S800000x128_1_0_0_1_n_n none hs wx)
          (Host.dotGeneral Cert.ReferenceIdeal.dot_S800000x16_S16x128_S800000x128_1_0_0_1_n_n none ea we))
        (spreadE b) := by
  funext i
  obtain ⟨r, q, rfl⟩ : ∃ (r : Fin 800000) (q : Fin 128), i = ix2 r q := ⟨i 0, i 1, ValueIdx.eq_ix2 i⟩
  show (∑ k : Fin 128, hs (ix2 r k) * wx (ix2 k q)) + (∑ k : Fin 16, ea (ix2 r k) * we (ix2 k q)) + row b (ix2 (0 : Fin 1) q) = _
  rw [ValueIdx.addf_apply, ValueIdx.addf_apply, dotNode_apply, dotEdge_apply, spreadE_apply, row_apply]

/-! ## Reals are kept -/

/-- A sum of two arrays of reals is an array of reals. -/
theorem real_addf {S : Shape} (x y : FVec Ideal S .f32) (hx : Real' x) (hy : Real' y) : Real' (addf x y) := fun i => by
  obtain ⟨a, ha⟩ := hx i
  obtain ⟨c, hc⟩ := hy i
  exact ⟨a + c, by rw [ValueIdx.addf_apply, ha, hc, EReal.coe_add]⟩

/-- A finite sum of products of reals is a real. -/
theorem real_sum_mul {ι : Type*} (s : Finset ι) (f g : ι → EReal) (hf : ∀ k, ∃ a : ℝ, f k = (a : EReal)) (hg : ∀ k, ∃ a : ℝ, g k = (a : EReal)) :
    ∃ a : ℝ, ∑ k ∈ s, f k * g k = (a : EReal) := by
  choose f' hf' using hf
  choose g' hg' using hg
  refine ⟨∑ k ∈ s, f' k * g' k, ?_⟩
  rw [Cert.LibBatchNorm.coe_sum]
  exact Finset.sum_congr rfl fun k _ => by rw [hf', hg', EReal.coe_mul]

/-- A finite sum of reals is a real. -/
theorem real_sum {ι : Type*} (s : Finset ι) (f : ι → EReal) (hf : ∀ k, ∃ a : ℝ, f k = (a : EReal)) : ∃ a : ℝ, ∑ k ∈ s, f k = (a : EReal) := by
  choose f' hf' using hf
  refine ⟨∑ k ∈ s, f' k, ?_⟩
  rw [Cert.LibBatchNorm.coe_sum]
  exact Finset.sum_congr rfl fun k _ => hf' k

/-- The rows of an array of reals gathered at a column of row numbers are reals. -/
theorem real_gather (h : FVec Ideal S100000x128 .f32) (src : IVec S800000x1 32) (hh : Real' h) :
    Real' (Host.gather Cert.ReferenceIdeal.gather_S100000x128_S800000x1_S800000x128_1_0_n_n_0_1_1128 h src : FVec Ideal S800000x128 .f32) := fun i => by
  obtain ⟨e, k, rfl⟩ : ∃ (e : Fin 800000) (k : Fin 128), i = ix2 e k := ⟨i 0, i 1, ValueIdx.eq_ix2 i⟩
  have hg : Host.gather Cert.ReferenceIdeal.gather_S100000x128_S800000x1_S800000x128_1_0_n_n_0_1_1128 h src (ix2 e k)
      = h (ix2 (RowScatter.clampRow 100000 (by decide) src e) k) :=
    RowScatter.gatherRows_apply (N := 100000) (R := 800000) (C := 128) Cert.ReferenceIdeal.Facts₀.gather_S100000x128_S800000x1_S800000x128_1_0_n_n_0_1_1128_wf src e k (by decide) h
  rw [hg]
  exact hh _

/-- The reference's messages are reals when its operands are. -/
theorem msg_real (h : FVec Ideal S100000x128 .f32) (src : IVec S800000x1 32) (ea : FVec Ideal S800000x16 .f32)
    (wx : FVec Ideal S128x128 .f32) (we : FVec Ideal S16x128 .f32) (b : FVec Ideal S128 .f32)
    (hh : Real' h) (hea : Real' ea) (hwx : Real' wx) (hwe : Real' we) (hb : Real' b) : Real' (refMsg h src ea wx we b) := by
  unfold refMsg
  refine real_addf _ _ (real_addf _ _ (fun i => ?_) (fun i => ?_)) (fun i => ?_)
  · obtain ⟨r, q, rfl⟩ : ∃ (r : Fin 800000) (q : Fin 128), i = ix2 r q := ⟨i 0, i 1, ValueIdx.eq_ix2 i⟩
    rw [dotNode_apply]
    exact real_sum_mul _ _ _ (fun k => real_gather h src hh _) (fun k => hwx _)
  · obtain ⟨r, q, rfl⟩ : ∃ (r : Fin 800000) (q : Fin 128), i = ix2 r q := ⟨i 0, i 1, ValueIdx.eq_ix2 i⟩
    rw [dotEdge_apply]
    exact real_sum_mul _ _ _ (fun k => hea _) (fun k => hwe _)
  · obtain ⟨r, q, rfl⟩ : ∃ (r : Fin 800000) (q : Fin 128), i = ix2 r q := ⟨i 0, i 1, ValueIdx.eq_ix2 i⟩
    rw [spreadE_apply]
    exact hb _

/-- Messages that are reals, summed into their target rows of the zero array, are reals. -/
theorem refAgg_real (dst : IVec S800000x1 32) (msg : FVec Ideal S800000x128 .f32) (hmsg : Real' msg) : Real' (refAgg dst msg) := fun i => by
  obtain ⟨n, c, rfl⟩ : ∃ (n : Fin 100000) (c : Fin 128), i = ix2 n c := ⟨i 0, i 1, ValueIdx.eq_ix2 i⟩
  have hs : refAgg dst msg (ix2 n c)
      = (broadcastInDim S100000x128 ![] Cert.ReferenceIdeal.Facts₀.bcast_S_S100000x128 zeroS : FVec Ideal S100000x128 .f32) (ix2 n c)
        + ∑ e ∈ Finset.univ.filter (fun e : Fin 800000 => RowScatter.rowNo dst e = (n.val : Int)), msg (ix2 e c) :=
    RowScatter.hostScatterAddRows_apply (N := 100000) (R := 800000) (C := 128) Cert.ReferenceIdeal.Facts₀.scatter_S100000x128_S800000x1_S800000x128_1_0_0_1_wf _ dst msg n c
  rw [hs, DenseRead.zeroFill_apply, zero_add]
  exact real_sum _ _ (fun e => hmsg _)

/-- (E) Every entry of the reference's aggregated messages is a real number when the operands are. -/
theorem agg_real (h : FVec Ideal S100000x128 .f32) (src dst : IVec S800000x1 32) (ea : FVec Ideal S800000x16 .f32)
    (wx : FVec Ideal S128x128 .f32) (we : FVec Ideal S16x128 .f32) (b : FVec Ideal S128 .f32)
    (hh : Real' h) (hea : Real' ea) (hwx : Real' wx) (hwe : Real' we) (hb : Real' b) :
    Real' (refAgg dst (refMsg h src ea wx we b)) :=
  refAgg_real dst _ (msg_real h src ea wx we b hh hea hwx hwe hb)

end Cert.Proof.Layer

end
-- ==== Proof.LibOnePassVariance.lean ====
/-
  The variance of a column computed in one pass against the variance computed in two, over the extended reals.

  A normalisation layer needs, per column, the mean m = (∑ y) / n and the variance of n entries y. One program
  accumulates ∑ y and ∑ y² while the entries pass by and forms  max((∑ y²) / n − m², 0)  (the clamp guards a
  floating-point cancellation); another first forms m and then (∑ (y − m)²) / n. Over the reals the two agree and the
  clamp is the identity, the common value being nonnegative. On the extended reals the identity needs the entries to
  be finite — distributing a product over a sum and cancelling fail at ±∞ — and it is stated here at embedded reals,
  with every operation the extended reals' own (the quotient by the real n, the difference, the product, the maximum),
  over any finite index type: the rows of a batch, however a program groups them.
-/
import proofs.«148009_j49555332661695_1_alg».proof.Proof.LibBatchNorm

namespace Cert.LibOnePassVariance

open Idealize.ShloMosaic
open scoped BigOperators

variable {ι : Type*} [Fintype ι]

/-- The mean of finitely many embedded reals, the division by a nonzero real spelled as the extended reals spell it,
    is the embedded real mean. -/
theorem mean_coe (y : ι → ℝ) {n : ℝ} (hn : n ≠ 0) :
    Ideal.div (∑ i, (y i : EReal)) (n : EReal) = (((∑ i, y i) * (1 / n) : ℝ) : EReal) := by
  rw [Ideal.div_coe hn, ← Cert.LibBatchNorm.coe_sum, ← EReal.coe_mul]

/-- The mean of the squares of finitely many embedded reals is the embedded real mean of the squares. -/
theorem mean_sq_coe (y : ι → ℝ) {n : ℝ} (hn : n ≠ 0) :
    Ideal.div (∑ i, (y i : EReal) * (y i : EReal)) (n : EReal) = (((∑ i, y i * y i) * (1 / n) : ℝ) : EReal) := by
  rw [Ideal.div_coe hn]
  have h : ∀ i, (y i : EReal) * (y i : EReal) = ((y i * y i : ℝ) : EReal) := fun i => (EReal.coe_mul _ _).symm
  simp only [h]
  rw [← Cert.LibBatchNorm.coe_sum, ← EReal.coe_mul]

/-- The mean of the squared deviations from a real μ of finitely many embedded reals is the embedded real one. -/
theorem mean_sq_dev_coe (y : ι → ℝ) (μ : ℝ) {n : ℝ} (hn : n ≠ 0) :
    Ideal.div (∑ i, ((y i : EReal) - (μ : EReal)) * ((y i : EReal) - (μ : EReal))) (n : EReal)
      = (((∑ i, (y i - μ) * (y i - μ)) * (1 / n) : ℝ) : EReal) := by
  rw [Ideal.div_coe hn]
  have h : ∀ i, ((y i : EReal) - (μ : EReal)) * ((y i : EReal) - (μ : EReal)) = (((y i - μ) * (y i - μ) : ℝ) : EReal) :=
    fun i => by rw [← EReal.coe_sub, ← EReal.coe_mul]
  simp only [h]
  rw [← Cert.LibBatchNorm.coe_sum, ← EReal.coe_mul]

/-- THE ONE-PASS VARIANCE IS THE TWO-PASS VARIANCE at finite entries. For n reals y (n their number, as a positive real),
    the mean of the squares minus the squared mean, clamped below at zero, is the mean of the squared deviations from the
    mean — every operation the extended reals' own: the quotient by n, the difference, the product, the maximum. The
    clamp is the identity because the right-hand side is a nonnegative real. -/
theorem one_pass_eq_two_pass (y : ι → ℝ) {n : ℝ} (hn : 0 < n) (hcard : (Fintype.card ι : ℝ) = n) :
    max (Ideal.div (∑ i, (y i : EReal) * (y i : EReal)) (n : EReal)
          - Ideal.div (∑ i, (y i : EReal)) (n : EReal) * Ideal.div (∑ i, (y i : EReal)) (n : EReal)) 0
      = Ideal.div (∑ i, ((y i : EReal) - Ideal.div (∑ j, (y j : EReal)) (n : EReal))
            * ((y i : EReal) - Ideal.div (∑ j, (y j : EReal)) (n : EReal))) (n : EReal) := by
  rw [mean_coe y hn.ne', mean_sq_coe y hn.ne', mean_sq_dev_coe y _ hn.ne', ← EReal.coe_mul, ← EReal.coe_sub,
    ← Cert.LibBatchNorm.mean_sq_dev y n hn.ne' hcard]
  exact max_eq_left (EReal.coe_nonneg.mpr (Cert.LibBatchNorm.mean_sq_dev_nonneg y _ n hn))

/-- The two-pass variance of finitely many embedded reals is an embedded nonnegative real. -/
theorem two_pass_real (y : ι → ℝ) {n : ℝ} (hn : 0 < n) :
    ∃ v : ℝ, 0 ≤ v ∧ Ideal.div (∑ i, ((y i : EReal) - Ideal.div (∑ j, (y j : EReal)) (n : EReal))
            * ((y i : EReal) - Ideal.div (∑ j, (y j : EReal)) (n : EReal))) (n : EReal) = (v : EReal) := by
  refine ⟨_, Cert.LibBatchNorm.mean_sq_dev_nonneg y ((∑ j, y j) * (1 / n)) n hn, ?_⟩
  rw [mean_coe y hn.ne', mean_sq_dev_coe y _ hn.ne']

end Cert.LibOnePassVariance
-- ==== Proof.LayerNorm.lean ====
import proofs.«148009_j49555332661695_1_alg».proof.Proof.LayerDefs
import proofs.«148009_j49555332661695_1_alg».proof.Proof.LibOnePassVariance
import Idealize.ShloMosaic.Lib.IdealHost
import Idealize.ShloMosaic.Lib.ValueLayout
set_option maxRecDepth 16384
noncomputable section
namespace Cert.Proof.Layer
open Idealize.ShloMosaic Idealize.ShloMosaic.TcCoe
open Cert.KernelIdeal (S100000x128 S800000x128 S800000x16 S800000x1 S128x128 S16x128 S1x128 S128 S_ S1024x128 S1024x10 S100000x1)
open ValueIdx
open scoped BigOperators

/-! # The normalisation of one layer: the two programs agree on real columns

Per column both programs form the mean m = (∑ y) / n over the n = 100000 rows. The reference then takes the mean of
the squared deviations from m; the kernel program takes the mean of the squares minus m². Over real entries these are
the same number, so the normalised, scaled, shifted and rectified arrays agree entry by entry. -/

/-! ## The constants -/

/-- The row count both programs divide by. -/
theorem ofBits_count : Ideal.ofBits .f32 0x47C35000#32 = ((100000 : ℝ) : EReal) := by
  simp [Ideal.ofBits, Ideal.ieee, -EReal.coe_mul]; norm_num

/-- The offset added to the variance: a positive real. -/
theorem ofBits_offset : Ideal.ofBits .f32 0x3727C5AC#32 = ((10995116 / 1099511627776 : ℝ) : EReal) := by
  simp [Ideal.ofBits, Ideal.ieee, -EReal.coe_mul]; norm_num

theorem count_ne : (100000 : ℝ) ≠ 0 := by norm_num
theorem count_pos : (0 : ℝ) < 100000 := by norm_num
theorem count_card : (Fintype.card (Fin 100000) : ℝ) = 100000 := by simp

/-! ## (B) The host's column sum -/

theorem colsum_eq (x : FVec Ideal S100000x128 .f32) (j : Fin 128) :
    Host.reduceAdd x zeroS Cert.ReferenceIdeal.Facts₀.reducesTo_S100000x128_S128_d0 Cert.ReferenceIdeal.Facts₀.h_S_ (ix1 j) = ∑ n : Fin 100000, x (ix2 n j) := by
  rw [hostReduceAdd_apply, Ideal.hostReduceAdd_single Cert.ReferenceIdeal.Facts₀.reducesTo_S100000x128_S128_d0 (by decide)]
  rw [show zeroS (Shape.Idx.first Cert.ReferenceIdeal.Facts₀.h_S_) = Ideal.ofBits .f32 0x00000000#32 from rfl, Ideal.ofBits_zero_f32, zero_add]
  refine Finset.sum_congr rfl fun k _ => congrArg x ?_
  exact funext fun a => Fin.ext (by match a with | ⟨0, _⟩ => rfl | ⟨1, _⟩ => rfl)

/-! ## The layout operations at an entry -/

/-- A vector repeated down the rows reads, at row `n` and column `j`, its entry `j`. -/
theorem spreadN_apply (v : FVec Ideal S128 .f32) (n : Fin 100000) (j : Fin 128) : spreadN v (ix2 n j) = v (ix1 j) := by
  refine (broadcastInDim_apply _ Cert.ReferenceIdeal.Facts₀.bcast_S1x128_S100000x128_0_1 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])).trans ?_
  exact broadcastInDim_apply _ Cert.ReferenceIdeal.Facts₀.bcast_S128_S1x128_1 v (ix2 (0 : Fin 1) j) (ix1 j) (fun a => match a with
    | ⟨0, _⟩ => by show j.val = if (128 : Nat) = 1 then 0 else j.val; rw [if_neg (by decide)])

/-- A vector kept as a one-row array reads its entry. -/
theorem row_apply (v : FVec Ideal S128 .f32) (j : Fin 128) : row v (ix2 (0 : Fin 1) j) = v (ix1 j) :=
  shapeCast_a_1a_apply v _ 0 j

/-- The broadcast constants at an entry. -/
theorem count128_apply (j : S128.Idx) :
    broadcastInDim S128 ![] Cert.ReferenceIdeal.Facts₀.bcast_S_S128 countS j = ((100000 : ℝ) : EReal) :=
  (broadcastInDim_scalar_apply _ _ j).trans ofBits_count
theorem count1x128_apply (j : S1x128.Idx) :
    broadcastInDim S1x128 ![] Cert.KernelIdeal.Facts₀.bcast_S_S1x128 countS j = ((100000 : ℝ) : EReal) :=
  (broadcastInDim_scalar_apply _ _ j).trans ofBits_count
theorem offset128_apply (j : S128.Idx) :
    broadcastInDim S128 ![] Cert.ReferenceIdeal.Facts₀.bcast_S_S128 offsetS j = Ideal.ofBits .f32 0x3727C5AC#32 :=
  broadcastInDim_scalar_apply _ _ j
theorem zeroN_apply (i : S100000x128.Idx) :
    broadcastInDim S100000x128 ![] Cert.ReferenceIdeal.Facts₀.bcast_S_S100000x128 zeroS i = 0 :=
  (broadcastInDim_scalar_apply _ _ i).trans Ideal.ofBits_zero_f32

/-! ## The reference's column statistics at an entry -/

theorem refMean_apply (agg : FVec Ideal S100000x128 .f32) (j : Fin 128) :
    refMean agg (ix1 j) = Ideal.div (∑ n : Fin 100000, agg (ix2 n j)) ((100000 : ℝ) : EReal) := by
  unfold refMean
  rw [hostDivf_apply, colsum_eq, count128_apply]

theorem refCentred_apply (agg : FVec Ideal S100000x128 .f32) (n : Fin 100000) (j : Fin 128) :
    refCentred agg (ix2 n j) = agg (ix2 n j) - refMean agg (ix1 j) := by
  unfold refCentred
  rw [subf_apply, spreadN_apply]

theorem refVar_apply (agg : FVec Ideal S100000x128 .f32) (j : Fin 128) :
    refVar agg (ix1 j) = Ideal.div (∑ n : Fin 100000, (agg (ix2 n j) - refMean agg (ix1 j)) * (agg (ix2 n j) - refMean agg (ix1 j)))
      ((100000 : ℝ) : EReal) := by
  unfold refVar
  rw [hostDivf_apply, colsum_eq, count128_apply]
  have h : ∀ n : Fin 100000, mulf (refCentred agg) (refCentred agg) (ix2 n j)
      = (agg (ix2 n j) - refMean agg (ix1 j)) * (agg (ix2 n j) - refMean agg (ix1 j)) :=
    fun n => by rw [mulf_apply, refCentred_apply]
  simp only [h]

theorem refNorm_apply (agg : FVec Ideal S100000x128 .f32) (g be : FVec Ideal S128 .f32) (n : Fin 100000) (j : Fin 128) :
    refNorm agg g be (ix2 n j)
      = max (((agg (ix2 n j) - refMean agg (ix1 j)) * Ideal.rsqrt (refVar agg (ix1 j) + Ideal.ofBits .f32 0x3727C5AC#32))
          * g (ix1 j) + be (ix1 j)) 0 := by
  unfold refNorm
  rw [maximumf_apply, addf_apply, mulf_apply, mulf_apply, refCentred_apply, spreadN_apply, spreadN_apply, spreadN_apply, zeroN_apply]
  show max (((_ - _) * Ideal.rsqrt (addf (refVar agg) _ (ix1 j))) * _ + _) 0 = _
  rw [addf_apply, offset128_apply]

/-! ## The kernel program's column statistics at an entry -/

theorem kerMean_apply (s1 : FVec Ideal S1x128 .f32) (j : Fin 128) :
    kerMean s1 (ix2 (0 : Fin 1) j) = Ideal.div (s1 (ix2 (0 : Fin 1) j)) ((100000 : ℝ) : EReal) := by
  unfold kerMean
  rw [hostDivf_apply, count1x128_apply]

theorem kerVar_apply (s1 s2 : FVec Ideal S1x128 .f32) (j : Fin 128) :
    kerVar s1 s2 (ix2 (0 : Fin 1) j) = Ideal.div (s2 (ix2 (0 : Fin 1) j)) ((100000 : ℝ) : EReal)
      - kerMean s1 (ix2 (0 : Fin 1) j) * kerMean s1 (ix2 (0 : Fin 1) j) := by
  unfold kerVar
  rw [subf_apply, hostDivf_apply, mulf_apply, count1x128_apply]

theorem kerSum_apply (agg : FVec Ideal S100000x128 .f32) (j : Fin 128) :
    kerSum agg (ix2 (0 : Fin 1) j) = ∑ n : Fin 100000, agg (ix2 n j) := rfl
theorem kerSumSq_apply (agg : FVec Ideal S100000x128 .f32) (j : Fin 128) :
    kerSumSq agg (ix2 (0 : Fin 1) j) = ∑ n : Fin 100000, agg (ix2 n j) * agg (ix2 n j) := rfl

/-! ## One real column -/

/-- The mean of a real column is a real. -/
theorem col_mean_real (a : Fin 100000 → EReal) (ha : ∀ n, ∃ r : ℝ, a n = (r : EReal)) :
    ∃ μ : ℝ, Ideal.div (∑ n, a n) ((100000 : ℝ) : EReal) = (μ : EReal) := by
  choose y hy using ha
  obtain rfl : a = fun n => (y n : EReal) := funext hy
  exact ⟨_, Cert.LibOnePassVariance.mean_coe y count_ne⟩

/-- THE VARIANCE IDENTITY on a real column: the mean of the squares minus the squared mean is the mean of the squared
    deviations from the mean. -/
theorem col_var_eq (a : Fin 100000 → EReal) (ha : ∀ n, ∃ r : ℝ, a n = (r : EReal)) :
    Ideal.div (∑ n, a n * a n) ((100000 : ℝ) : EReal)
        - Ideal.div (∑ n, a n) ((100000 : ℝ) : EReal) * Ideal.div (∑ n, a n) ((100000 : ℝ) : EReal)
      = Ideal.div (∑ n, (a n - Ideal.div (∑ m, a m) ((100000 : ℝ) : EReal)) * (a n - Ideal.div (∑ m, a m) ((100000 : ℝ) : EReal)))
          ((100000 : ℝ) : EReal) := by
  choose y hy using ha
  obtain rfl : a = fun n => (y n : EReal) := funext hy
  show Ideal.div (∑ n, (y n : EReal) * (y n : EReal)) _ - Ideal.div (∑ n, (y n : EReal)) _ * Ideal.div (∑ n, (y n : EReal)) _
    = Ideal.div (∑ n, ((y n : EReal) - Ideal.div (∑ m, (y m : EReal)) _) * ((y n : EReal) - Ideal.div (∑ m, (y m : EReal)) _)) _
  rw [Cert.LibOnePassVariance.mean_coe y count_ne, Cert.LibOnePassVariance.mean_sq_coe y count_ne,
    Cert.LibOnePassVariance.mean_sq_dev_coe y _ count_ne, ← EReal.coe_mul, ← EReal.coe_sub,
    ← Cert.LibBatchNorm.mean_sq_dev y 100000 count_ne count_card]

/-- The mean of the squared deviations of a real column is a nonnegative real. -/
theorem col_var_real (a : Fin 100000 → EReal) (ha : ∀ n, ∃ r : ℝ, a n = (r : EReal)) :
    ∃ v : ℝ, 0 ≤ v ∧ Ideal.div (∑ n, (a n - Ideal.div (∑ m, a m) ((100000 : ℝ) : EReal)) * (a n - Ideal.div (∑ m, a m) ((100000 : ℝ) : EReal)))
          ((100000 : ℝ) : EReal) = (v : EReal) := by
  choose y hy using ha
  obtain rfl : a = fun n => (y n : EReal) := funext hy
  exact Cert.LibOnePassVariance.two_pass_real y count_pos

/-! ## (C, D) The normalisation -/

theorem norm_eq (agg : FVec Ideal S100000x128 .f32) (g be : FVec Ideal S128 .f32) (hagg : Real' agg) :
    kerNorm agg (kerMean (kerSum agg)) (kerVar (kerSum agg) (kerSumSq agg)) (row g) (row be) = refNorm agg g be := by
  funext i
  obtain ⟨n, j, rfl⟩ : ∃ (n : Fin 100000) (j : Fin 128), i = ix2 n j := ⟨i 0, i 1, eq_ix2 i⟩
  rw [refNorm_apply, refVar_apply, refMean_apply]
  show max (((agg (ix2 n j) - kerMean (kerSum agg) (ix2 (0 : Fin 1) j))
        * Ideal.rsqrt (kerVar (kerSum agg) (kerSumSq agg) (ix2 (0 : Fin 1) j) + Ideal.ofBits .f32 0x3727C5AC#32))
      * row g (ix2 (0 : Fin 1) j) + row be (ix2 (0 : Fin 1) j)) 0 = _
  rw [kerVar_apply, kerMean_apply, kerSum_apply, kerSumSq_apply, row_apply, row_apply,
    col_var_eq (fun n => agg (ix2 n j)) (fun n => hagg _)]

theorem norm_real (agg : FVec Ideal S100000x128 .f32) (g be : FVec Ideal S128 .f32) (hagg : Real' agg) (hg : Real' g) (hbe : Real' be) :
    Real' (refNorm agg g be) := by
  intro i
  obtain ⟨n, j, rfl⟩ : ∃ (n : Fin 100000) (j : Fin 128), i = ix2 n j := ⟨i 0, i 1, eq_ix2 i⟩
  rw [refNorm_apply, refVar_apply, refMean_apply]
  obtain ⟨μ, hμ⟩ := col_mean_real (fun n => agg (ix2 n j)) (fun n => hagg _)
  obtain ⟨v, hv0, hv⟩ := col_var_real (fun n => agg (ix2 n j)) (fun n => hagg _)
  obtain ⟨y, hy⟩ := hagg (ix2 n j)
  obtain ⟨γ, hγ⟩ := hg (ix1 j)
  obtain ⟨β, hβ⟩ := hbe (ix1 j)
  rw [hv, hμ, hy, hγ, hβ, ofBits_offset, ← EReal.coe_add,
    Cert.LibBatchNorm.rsqrt_coe_pos (by positivity : (0 : ℝ) < v + 10995116 / 1099511627776),
    ← EReal.coe_sub, ← EReal.coe_mul, ← EReal.coe_mul, ← EReal.coe_add, ← EReal.coe_zero]
  exact ⟨max _ 0, (EReal.coe_strictMono.monotone.map_max).symm⟩

end Cert.Proof.Layer
end
-- ==== Proof.LayerWhole.lean ====
import proofs.«148009_j49555332661695_1_alg».proof.Proof.LayerDefs
import proofs.«148009_j49555332661695_1_alg».proof.Proof.LayerMsg
import proofs.«148009_j49555332661695_1_alg».proof.Proof.LayerNorm

/-!
  One whole layer: what the kernel program computes is what the reference computes, on real operands.

  The kernel program gathers and scatter-adds with the same dimension numbers as the reference, so its aggregated
  messages are the reference's once its message entries are (the two products and the bias row); they are real numbers
  when the operands are, and on a real array the normalising step's one-pass variance is the reference's two-pass one.
-/

set_option maxRecDepth 16384

noncomputable section

namespace Cert.Proof.Layer

open Idealize.ShloMosaic Idealize.ShloMosaic.TcCoe
open Cert.KernelIdeal (S100000x128 S800000x128 S800000x16 S800000x1 S128x128 S16x128 S1x128 S128 S_ S1024x128 S1024x10 S100000x1)
open ValueIdx (ix1 ix2)

/-- The two programs scatter-add with the same dimension numbers into the same zero array. -/
theorem kerAgg_eq_refAgg (dst : IVec S800000x1 32) (msg : FVec Ideal S800000x128 .f32) : kerAgg dst msg = refAgg dst msg := rfl

/-- The kernel program's aggregated messages — its message entries on the rows it gathers, summed into their target
    rows — are the reference's. -/
theorem agg_eq (h : FVec Ideal S100000x128 .f32) (src dst : IVec S800000x1 32) (ea : FVec Ideal S800000x16 .f32)
    (wx : FVec Ideal S128x128 .f32) (we : FVec Ideal S16x128 .f32) (b : FVec Ideal S128 .f32) :
    kerAgg dst (kerMsg (Host.gather Cert.KernelIdeal.gather_S100000x128_S800000x1_S800000x128_1_0_n_n_0_1_1128 h src) ea wx we (row b))
      = refAgg dst (refMsg h src ea wx we b) := by
  rw [msg_eq, kerAgg_eq_refAgg]
  rfl

/-- One layer of the kernel program, on the bias, scale and shift viewed as rows, is one layer of the reference when the
    operands are real numbers. -/
theorem layer_eq (h : FVec Ideal S100000x128 .f32) (src dst : IVec S800000x1 32) (ea : FVec Ideal S800000x16 .f32)
    (wx : FVec Ideal S128x128 .f32) (we : FVec Ideal S16x128 .f32) (b g be : FVec Ideal S128 .f32)
    (hh : Real' h) (hea : Real' ea) (hwx : Real' wx) (hwe : Real' we) (hb : Real' b) :
    kerLayer h src dst ea wx we (row b) (row g) (row be) = refLayer h src dst ea wx we b g be :=
  (congrArg (fun agg => kerNorm agg (kerMean (kerSum agg)) (kerVar (kerSum agg) (kerSumSq agg)) (row g) (row be))
      (agg_eq h src dst ea wx we b)).trans
    (norm_eq _ g be (agg_real h src dst ea wx we b hh hea hwx hwe hb))

/-- One layer of the reference keeps real numbers. -/
theorem layer_real (h : FVec Ideal S100000x128 .f32) (src dst : IVec S800000x1 32) (ea : FVec Ideal S800000x16 .f32)
    (wx : FVec Ideal S128x128 .f32) (we : FVec Ideal S16x128 .f32) (b g be : FVec Ideal S128 .f32)
    (hh : Real' h) (hea : Real' ea) (hwx : Real' wx) (hwe : Real' we) (hb : Real' b) (hg : Real' g) (hbe : Real' be) :
    Real' (refLayer h src dst ea wx we b g be) :=
  norm_real _ g be (agg_real h src dst ea wx we b hh hea hwx hwe hb) hg hbe

end Cert.Proof.Layer

end
-- ==== Proof.LayerRealOps.lean ====
import proofs.«148009_j49555332661695_1_alg».proof.Proof.LayerDefs

/-!
  Layout operations keep real numbers. A reshape, a slice, a broadcast and a gather each read every entry of their result
  from one entry of their operand, so when every entry of the operand is a real number, so is every entry of the result.
-/

noncomputable section

namespace Cert.Proof.Layer

open Idealize.ShloMosaic Idealize.ShloMosaic.TcCoe

theorem real_shapeCast {s t : Shape} (x : FVec Ideal s .f32) (h : s.ShapeCasts t) (hx : Real' x) :
    Real' (shapeCast t x h : FVec Ideal t .f32) := fun _ => hx _

theorem real_extractStridedSlice {s t : Shape} (off : Fin s.rank → Nat) (x : FVec Ideal s .f32) (h : s.Slices off t) (hx : Real' x) :
    Real' (extractStridedSlice t off x h : FVec Ideal t .f32) := fun _ => hx _

theorem real_broadcastInDim {s t : Shape} (dims : Fin s.rank → Fin t.rank) (h : s.BroadcastsInDim t dims) (x : FVec Ideal s .f32) (hx : Real' x) :
    Real' (broadcastInDim t dims h x : FVec Ideal t .f32) := fun _ => hx _

theorem real_broadcastTo {s t : Shape} (x : FVec Ideal s .f32) (h : s.Broadcasts t) (hx : Real' x) :
    Real' (broadcastTo t x h : FVec Ideal t .f32) := fun _ => hx _

theorem real_hostGather {s si t : Shape} {w : Nat} (d : GatherDims s si t) (x : FVec Ideal s .f32) (idx : IVec si w) (hx : Real' x) :
    Real' (Host.gather d x idx : FVec Ideal t .f32) := fun _ => hx _

end Cert.Proof.Layer

end
-- ==== Proof.RefLayers.lean ====
import proofs.«148009_j49555332661695_1_alg».proof.Proof.LayerDefs
import proofs.«148009_j49555332661695_1_alg».proof.Proof.LayerMsg
import proofs.«148009_j49555332661695_1_alg».proof.Proof.LayerRealOps
import proofs.«148009_j49555332661695_1_alg».proof.Proof.RefReadGen

/-!
  The reference program's three layers as `refLayer`, and the reals its slices keep.

  The reference computes each layer in some fifty host operations, each a stage function of the argument arrays; composed,
  a layer's last stage is `refLayer` of the previous layer's result (the node features, for the first), the two index
  columns, the edge attributes, and the layer's slices of the weights, bias, scale and shift. Those slices (a slice followed
  by a reshape) keep "every entry is a real number".
-/

set_option maxRecDepth 16384

noncomputable section

namespace Cert.Proof.Layer

open Idealize.ShloMosaic Idealize.ShloMosaic.TcCoe
open Cert.KernelIdeal (S100000x128 S800000x128 S800000x16 S800000x1 S128x128 S16x128 S1x128 S128 S_ S2x800000 S3x128x128 S3x16x128 S3x128)
open ValueIdx (ix1 ix2)
open Cert.ReferenceIdeal.ReadP

/-! ## The three layers -/

/-- Layer 1 of the reference, stage by stage, is `refLayer` of the node features and layer 1's slices of the parameters. -/
theorem layer1 (x0 : (⟨S100000x128, .f32⟩ : BufTy).Contents (Elt Ideal)) (x1 : (⟨S2x800000, .i32⟩ : BufTy).Contents (Elt Ideal)) (x2 : (⟨S800000x16, .f32⟩ : BufTy).Contents (Elt Ideal))
    (x5 : (⟨S3x128x128, .f32⟩ : BufTy).Contents (Elt Ideal)) (x6 : (⟨S3x16x128, .f32⟩ : BufTy).Contents (Elt Ideal)) (x7 x8 x9 : (⟨S3x128, .f32⟩ : BufTy).Contents (Elt Ideal)) :
    val_main_v55 (F := Ideal) x0 x1 x2 x5 x6 x7 x8 x9
      = refLayer x0 (val_main_v9 (F := Ideal) x1) (val_main_v24 (F := Ideal) x1) x2
          (val_main_v12 (F := Ideal) x5) (val_main_v15 (F := Ideal) x6) (val_main_v19 (F := Ideal) x7)
          (val_main_v46 (F := Ideal) x8) (val_main_v51 (F := Ideal) x9) := rfl

/-- Layer 2 of the reference, stage by stage, is `refLayer` of layer 1's result and layer 2's slices of the parameters. -/
theorem layer2 (x0 : (⟨S100000x128, .f32⟩ : BufTy).Contents (Elt Ideal)) (x1 : (⟨S2x800000, .i32⟩ : BufTy).Contents (Elt Ideal)) (x2 : (⟨S800000x16, .f32⟩ : BufTy).Contents (Elt Ideal))
    (x5 : (⟨S3x128x128, .f32⟩ : BufTy).Contents (Elt Ideal)) (x6 : (⟨S3x16x128, .f32⟩ : BufTy).Contents (Elt Ideal)) (x7 x8 x9 : (⟨S3x128, .f32⟩ : BufTy).Contents (Elt Ideal)) :
    val_main_v107 (F := Ideal) x0 x1 x2 x5 x6 x7 x8 x9
      = refLayer (val_main_v55 (F := Ideal) x0 x1 x2 x5 x6 x7 x8 x9) (val_main_v61 (F := Ideal) x1) (val_main_v76 (F := Ideal) x1) x2
          (val_main_v64 (F := Ideal) x5) (val_main_v67 (F := Ideal) x6) (val_main_v71 (F := Ideal) x7)
          (val_main_v98 (F := Ideal) x8) (val_main_v103 (F := Ideal) x9) := rfl

/-- Layer 3 of the reference, stage by stage, is `refLayer` of layer 2's result and layer 3's slices of the parameters. -/
theorem layer3 (x0 : (⟨S100000x128, .f32⟩ : BufTy).Contents (Elt Ideal)) (x1 : (⟨S2x800000, .i32⟩ : BufTy).Contents (Elt Ideal)) (x2 : (⟨S800000x16, .f32⟩ : BufTy).Contents (Elt Ideal))
    (x5 : (⟨S3x128x128, .f32⟩ : BufTy).Contents (Elt Ideal)) (x6 : (⟨S3x16x128, .f32⟩ : BufTy).Contents (Elt Ideal)) (x7 x8 x9 : (⟨S3x128, .f32⟩ : BufTy).Contents (Elt Ideal)) :
    val_main_v159 (F := Ideal) x0 x1 x2 x5 x6 x7 x8 x9
      = refLayer (val_main_v107 (F := Ideal) x0 x1 x2 x5 x6 x7 x8 x9) (val_main_v113 (F := Ideal) x1) (val_main_v128 (F := Ideal) x1) x2
          (val_main_v116 (F := Ideal) x5) (val_main_v119 (F := Ideal) x6) (val_main_v123 (F := Ideal) x7)
          (val_main_v150 (F := Ideal) x8) (val_main_v155 (F := Ideal) x9) := rfl

/-! ## The layers' slices of the parameters keep reals -/

theorem real_wx1 (x5 : (⟨S3x128x128, .f32⟩ : BufTy).Contents (Elt Ideal)) (h : Real' (S := S3x128x128) x5) : Real' (S := S128x128) (val_main_v12 (F := Ideal) x5) :=
  real_shapeCast _ _ (real_extractStridedSlice _ _ _ h)
theorem real_we1 (x6 : (⟨S3x16x128, .f32⟩ : BufTy).Contents (Elt Ideal)) (h : Real' (S := S3x16x128) x6) : Real' (S := S16x128) (val_main_v15 (F := Ideal) x6) :=
  real_shapeCast _ _ (real_extractStridedSlice _ _ _ h)
theorem real_b1 (x7 : (⟨S3x128, .f32⟩ : BufTy).Contents (Elt Ideal)) (h : Real' (S := S3x128) x7) : Real' (S := S128) (val_main_v19 (F := Ideal) x7) :=
  real_shapeCast _ _ (real_extractStridedSlice _ _ _ h)
theorem real_g1 (x8 : (⟨S3x128, .f32⟩ : BufTy).Contents (Elt Ideal)) (h : Real' (S := S3x128) x8) : Real' (S := S128) (val_main_v46 (F := Ideal) x8) :=
  real_shapeCast _ _ (real_extractStridedSlice _ _ _ h)
theorem real_be1 (x9 : (⟨S3x128, .f32⟩ : BufTy).Contents (Elt Ideal)) (h : Real' (S := S3x128) x9) : Real' (S := S128) (val_main_v51 (F := Ideal) x9) :=
  real_shapeCast _ _ (real_extractStridedSlice _ _ _ h)

theorem real_wx2 (x5 : (⟨S3x128x128, .f32⟩ : BufTy).Contents (Elt Ideal)) (h : Real' (S := S3x128x128) x5) : Real' (S := S128x128) (val_main_v64 (F := Ideal) x5) :=
  real_shapeCast _ _ (real_extractStridedSlice _ _ _ h)
theorem real_we2 (x6 : (⟨S3x16x128, .f32⟩ : BufTy).Contents (Elt Ideal)) (h : Real' (S := S3x16x128) x6) : Real' (S := S16x128) (val_main_v67 (F := Ideal) x6) :=
  real_shapeCast _ _ (real_extractStridedSlice _ _ _ h)
theorem real_b2 (x7 : (⟨S3x128, .f32⟩ : BufTy).Contents (Elt Ideal)) (h : Real' (S := S3x128) x7) : Real' (S := S128) (val_main_v71 (F := Ideal) x7) :=
  real_shapeCast _ _ (real_extractStridedSlice _ _ _ h)
theorem real_g2 (x8 : (⟨S3x128, .f32⟩ : BufTy).Contents (Elt Ideal)) (h : Real' (S := S3x128) x8) : Real' (S := S128) (val_main_v98 (F := Ideal) x8) :=
  real_shapeCast _ _ (real_extractStridedSlice _ _ _ h)
theorem real_be2 (x9 : (⟨S3x128, .f32⟩ : BufTy).Contents (Elt Ideal)) (h : Real' (S := S3x128) x9) : Real' (S := S128) (val_main_v103 (F := Ideal) x9) :=
  real_shapeCast _ _ (real_extractStridedSlice _ _ _ h)

theorem real_wx3 (x5 : (⟨S3x128x128, .f32⟩ : BufTy).Contents (Elt Ideal)) (h : Real' (S := S3x128x128) x5) : Real' (S := S128x128) (val_main_v116 (F := Ideal) x5) :=
  real_shapeCast _ _ (real_extractStridedSlice _ _ _ h)
theorem real_we3 (x6 : (⟨S3x16x128, .f32⟩ : BufTy).Contents (Elt Ideal)) (h : Real' (S := S3x16x128) x6) : Real' (S := S16x128) (val_main_v119 (F := Ideal) x6) :=
  real_shapeCast _ _ (real_extractStridedSlice _ _ _ h)
theorem real_b3 (x7 : (⟨S3x128, .f32⟩ : BufTy).Contents (Elt Ideal)) (h : Real' (S := S3x128) x7) : Real' (S := S128) (val_main_v123 (F := Ideal) x7) :=
  real_shapeCast _ _ (real_extractStridedSlice _ _ _ h)
theorem real_g3 (x8 : (⟨S3x128, .f32⟩ : BufTy).Contents (Elt Ideal)) (h : Real' (S := S3x128) x8) : Real' (S := S128) (val_main_v150 (F := Ideal) x8) :=
  real_shapeCast _ _ (real_extractStridedSlice _ _ _ h)
theorem real_be3 (x9 : (⟨S3x128, .f32⟩ : BufTy).Contents (Elt Ideal)) (h : Real' (S := S3x128) x9) : Real' (S := S128) (val_main_v155 (F := Ideal) x9) :=
  real_shapeCast _ _ (real_extractStridedSlice _ _ _ h)

end Cert.Proof.Layer

end
-- ==== Proof.NetBridge.lean ====
import proofs.«148009_j49555332661695_1_alg».proof.Proof.NetDefs
import proofs.«148009_j49555332661695_1_alg».proof.Proof.LayerWhole
import proofs.«148009_j49555332661695_1_alg».proof.Proof.LayerRealOps
import proofs.«148009_j49555332661695_1_alg».proof.Proof.RefLayers

/-!
  The kernel program's three layers are the reference's, on real arguments.

  Both programs read the same two index columns off the edge list and the same slices of the stacked weights, biases,
  scales and shifts (the same operations, written twice). So, layer by layer, the kernel program's layer is the layer
  of the layer definitions at the reference's own operands, which is the reference's layer when the operands are real
  numbers; and the reference's layer keeps real numbers, which feeds the next layer.
-/

set_option maxRecDepth 16384

noncomputable section

namespace Cert.KernelIdeal.Hand

open Cert.KernelIdeal
open Idealize.ShloMosaic
open Cert.Proof.Layer
open Cert.ReferenceIdeal.ReadP

variable (x0 : FVec Ideal S100000x128 .f32) (x1 : IVec S2x800000 32) (x2 : FVec Ideal S800000x16 .f32)
  (x5 : FVec Ideal S3x128x128 .f32) (x6 : FVec Ideal S3x16x128 .f32) (x7 x8 x9 : FVec Ideal S3x128 .f32)

/-! ## The two programs' index columns and parameter slices are the same terms -/

theorem src_eq1 : srcOf (edgeRow0 x1) = val_main_v9 (F := Ideal) x1 := rfl
theorem dst_eq1 : dstOf (edgeRow1 x1) = val_main_v24 (F := Ideal) x1 := rfl
theorem wx_eq1 : wxOf0 x5 = val_main_v12 (F := Ideal) x5 := rfl
theorem we_eq1 : weOf0 x6 = val_main_v15 (F := Ideal) x6 := rfl
theorem b_eq1 : vecOf0 x7 = val_main_v19 (F := Ideal) x7 := rfl
theorem g_eq1 : vecOf0 x8 = val_main_v46 (F := Ideal) x8 := rfl
theorem be_eq1 : vecOf0 x9 = val_main_v51 (F := Ideal) x9 := rfl

theorem src_eq2 : srcOf (edgeRow0 x1) = val_main_v61 (F := Ideal) x1 := rfl
theorem dst_eq2 : dstOf (edgeRow1 x1) = val_main_v76 (F := Ideal) x1 := rfl
theorem wx_eq2 : wxOf1 x5 = val_main_v64 (F := Ideal) x5 := rfl
theorem we_eq2 : weOf1 x6 = val_main_v67 (F := Ideal) x6 := rfl
theorem b_eq2 : vecOf1 x7 = val_main_v71 (F := Ideal) x7 := rfl
theorem g_eq2 : vecOf1 x8 = val_main_v98 (F := Ideal) x8 := rfl
theorem be_eq2 : vecOf1 x9 = val_main_v103 (F := Ideal) x9 := rfl

theorem src_eq3 : srcOf (edgeRow0 x1) = val_main_v113 (F := Ideal) x1 := rfl
theorem dst_eq3 : dstOf (edgeRow1 x1) = val_main_v128 (F := Ideal) x1 := rfl
theorem wx_eq3 : wxOf2 x5 = val_main_v116 (F := Ideal) x5 := rfl
theorem we_eq3 : weOf2 x6 = val_main_v119 (F := Ideal) x6 := rfl
theorem b_eq3 : vecOf2 x7 = val_main_v123 (F := Ideal) x7 := rfl
theorem g_eq3 : vecOf2 x8 = val_main_v150 (F := Ideal) x8 := rfl
theorem be_eq3 : vecOf2 x9 = val_main_v155 (F := Ideal) x9 := rfl

/-! ## Layer by layer -/

/-- The first layer of the kernel program is the reference's, -/
theorem h1_eq (hx0 : Real' x0) (hx2 : Real' x2) (hx5 : Real' x5) (hx6 : Real' x6) (hx7 : Real' x7) :
    kerH1 x0 x1 x2 x5 x6 x7 x8 x9 = val_main_v55 (F := Ideal) x0 x1 x2 x5 x6 x7 x8 x9 := by
  rw [layer1]
  unfold kerH1
  rw [src_eq1, dst_eq1, wx_eq1, we_eq1, b_eq1, g_eq1, be_eq1]
  exact layer_eq x0 _ _ x2 _ _ _ _ _ hx0 hx2 (real_wx1 x5 hx5) (real_we1 x6 hx6) (real_b1 x7 hx7)

/-- which has real entries. -/
theorem h1_real (hx0 : Real' x0) (hx2 : Real' x2) (hx5 : Real' x5) (hx6 : Real' x6) (hx7 : Real' x7) (hx8 : Real' x8) (hx9 : Real' x9) :
    Real' (val_main_v55 (F := Ideal) x0 x1 x2 x5 x6 x7 x8 x9) := by
  rw [layer1]
  exact layer_real x0 _ _ x2 _ _ _ _ _ hx0 hx2 (real_wx1 x5 hx5) (real_we1 x6 hx6) (real_b1 x7 hx7) (real_g1 x8 hx8) (real_be1 x9 hx9)

/-- The second layer, on the first one's real result, -/
theorem h2_eq (hx0 : Real' x0) (hx2 : Real' x2) (hx5 : Real' x5) (hx6 : Real' x6) (hx7 : Real' x7) (hx8 : Real' x8) (hx9 : Real' x9) :
    kerH2 x0 x1 x2 x5 x6 x7 x8 x9 = val_main_v107 (F := Ideal) x0 x1 x2 x5 x6 x7 x8 x9 := by
  rw [layer2]
  unfold kerH2
  rw [h1_eq x0 x1 x2 x5 x6 x7 x8 x9 hx0 hx2 hx5 hx6 hx7, src_eq2, dst_eq2, wx_eq2, we_eq2, b_eq2, g_eq2, be_eq2]
  exact layer_eq _ _ _ x2 _ _ _ _ _ (h1_real x0 x1 x2 x5 x6 x7 x8 x9 hx0 hx2 hx5 hx6 hx7 hx8 hx9) hx2 (real_wx2 x5 hx5) (real_we2 x6 hx6) (real_b2 x7 hx7)

theorem h2_real (hx0 : Real' x0) (hx2 : Real' x2) (hx5 : Real' x5) (hx6 : Real' x6) (hx7 : Real' x7) (hx8 : Real' x8) (hx9 : Real' x9) :
    Real' (val_main_v107 (F := Ideal) x0 x1 x2 x5 x6 x7 x8 x9) := by
  rw [layer2]
  exact layer_real _ _ _ x2 _ _ _ _ _ (h1_real x0 x1 x2 x5 x6 x7 x8 x9 hx0 hx2 hx5 hx6 hx7 hx8 hx9) hx2 (real_wx2 x5 hx5) (real_we2 x6 hx6) (real_b2 x7 hx7) (real_g2 x8 hx8) (real_be2 x9 hx9)

/-- and the third, on the second one's. -/
theorem h3_eq (hx0 : Real' x0) (hx2 : Real' x2) (hx5 : Real' x5) (hx6 : Real' x6) (hx7 : Real' x7) (hx8 : Real' x8) (hx9 : Real' x9) :
    kerH3 x0 x1 x2 x5 x6 x7 x8 x9 = val_main_v159 (F := Ideal) x0 x1 x2 x5 x6 x7 x8 x9 := by
  rw [layer3]
  unfold kerH3
  rw [h2_eq x0 x1 x2 x5 x6 x7 x8 x9 hx0 hx2 hx5 hx6 hx7 hx8 hx9, src_eq3, dst_eq3, wx_eq3, we_eq3, b_eq3, g_eq3, be_eq3]
  exact layer_eq _ _ _ x2 _ _ _ _ _ (h2_real x0 x1 x2 x5 x6 x7 x8 x9 hx0 hx2 hx5 hx6 hx7 hx8 hx9) hx2 (real_wx3 x5 hx5) (real_we3 x6 hx6) (real_b3 x7 hx7)

theorem h3_real (hx0 : Real' x0) (hx2 : Real' x2) (hx5 : Real' x5) (hx6 : Real' x6) (hx7 : Real' x7) (hx8 : Real' x8) (hx9 : Real' x9) :
    Real' (val_main_v159 (F := Ideal) x0 x1 x2 x5 x6 x7 x8 x9) := by
  rw [layer3]
  exact layer_real _ _ _ x2 _ _ _ _ _ (h2_real x0 x1 x2 x5 x6 x7 x8 x9 hx0 hx2 hx5 hx6 hx7 hx8 hx9) hx2 (real_wx3 x5 hx5) (real_we3 x6 hx6) (real_b3 x7 hx7) (real_g3 x8 hx8) (real_be3 x9 hx9)

end Cert.KernelIdeal.Hand

end
-- ==== Proof.TailBridge.lean ====
import proofs.«148009_j49555332661695_1_alg».proof.Proof.Region9Array
import proofs.«148009_j49555332661695_1_alg».proof.Proof.LayerDefs
import Idealize.ShloMosaic.Lib.Pipeline.Value
import Idealize.ShloMosaic.Lib.ValueIdx
import Idealize.ShloMosaic.PureOps.Ideal.Laws

/-!
  The classifier tail, written twice as pure functions over the extended reals: as the reference program composes it
  from host operations (join the pooled block and the neighbour block along the columns, product with the first
  weights, bias, rectify, product with the second weights, bias, and the softmax of each row: largest entry, exponentials
  of the differences, their sum, the quotient), and as the kernel program computes it (the first weights cut into their
  first 128 rows and their last 10, the two biases as one-row arrays, and the classifier kernel's entries).

  They are equal. A row of the joined block times a column of the weights is a sum over 138 positions; it splits as the
  sum over the first 128 positions, where the joined block is the pooled one and the weights are the first cut, plus
  the sum over the last 10, where it is the neighbour block and the weights are the second cut. Everything after that
  is the same expression on both sides, entry by entry.
-/

set_option maxRecDepth 16384

noncomputable section

namespace Cert.Proof.Tail

open Idealize.ShloMosaic Idealize.ShloMosaic.TcCoe
open Idealize.ShloMosaic.ValueIdx
open Cert.KernelIdeal.Hand (mlpArray9 mlpArray9_apply expo9 top9 logit9 hid9 lift9)
open Cert.ReferenceIdeal (S1024x138 S138x256 S256 S10 S1024x256 S1x256 S1x10 S1024 S1024x1 S_ S1024x128 S1024x10 S256x10)
open Cert.KernelIdeal (S128x256 S10x256)

/-! ## The tail as the reference program composes it (its own operation records) -/

/-- The hidden block: the joined block times the first weights, plus the bias row spread down, rectified. -/
def refHid (pooled : FVec Ideal S1024x128 .f32) (nb : FVec Ideal S1024x10 .f32) (fc1w : FVec Ideal S138x256 .f32)
    (fc1b : FVec Ideal S256 .f32) : FVec Ideal S1024x256 .f32 :=
  maximumf
    (addf
      (Host.dotGeneral Cert.ReferenceIdeal.dot_S1024x138_S138x256_S1024x256_1_0_0_1_n_n none
        (concatenate S1024x138 1 [⟨S1024x128, pooled⟩, ⟨S1024x10, nb⟩] Cert.ReferenceIdeal.Facts₀.concatenates_S1024x128_S1024x10_S1024x138_d1)
        fc1w)
      (broadcastInDim S1024x256 ![0, 1] Cert.ReferenceIdeal.Facts₀.bcast_S1x256_S1024x256_0_1
        (broadcastInDim S1x256 ![1] Cert.ReferenceIdeal.Facts₀.bcast_S256_S1x256_1 fc1b)))
    (broadcastInDim S1024x256 ![] Cert.ReferenceIdeal.Facts₀.bcast_S_S1024x256 (constant S_ .f32 0x00000000#32))

/-- The logits: the hidden block times the second weights, plus the bias row spread down. -/
def refLogit (pooled : FVec Ideal S1024x128 .f32) (nb : FVec Ideal S1024x10 .f32) (fc1w : FVec Ideal S138x256 .f32)
    (fc1b : FVec Ideal S256 .f32) (fc2w : FVec Ideal S256x10 .f32) (fc2b : FVec Ideal S10 .f32) : FVec Ideal S1024x10 .f32 :=
  addf
    (Host.dotGeneral Cert.ReferenceIdeal.dot_S1024x256_S256x10_S1024x10_1_0_0_1_n_n none (refHid pooled nb fc1w fc1b) fc2w)
    (broadcastInDim S1024x10 ![0, 1] Cert.ReferenceIdeal.Facts₀.bcast_S1x10_S1024x10_0_1
      (broadcastInDim S1x10 ![1] Cert.ReferenceIdeal.Facts₀.bcast_S10_S1x10_1 fc2b))

/-- Each row's largest logit: the reduction from `-∞`'s word, compared once more with that word. -/
def refTop (pooled : FVec Ideal S1024x128 .f32) (nb : FVec Ideal S1024x10 .f32) (fc1w : FVec Ideal S138x256 .f32)
    (fc1b : FVec Ideal S256 .f32) (fc2w : FVec Ideal S256x10 .f32) (fc2b : FVec Ideal S10 .f32) : FVec Ideal S1024 .f32 :=
  maximumf
    (broadcastInDim S1024 ![] Cert.ReferenceIdeal.Facts₀.bcast_S_S1024 (constant S_ .f32 0xFF800000#32))
    (Host.reduce FloatOps.maximumf (refLogit pooled nb fc1w fc1b fc2w fc2b) (constant S_ .f32 0xFF800000#32 : FVec Ideal S_ .f32)
      Cert.ReferenceIdeal.Facts₀.reducesTo_S1024x10_S1024_d1 Cert.ReferenceIdeal.Facts₀.h_S_)

/-- The exponentials of the logits less their row's largest. -/
def refExp (pooled : FVec Ideal S1024x128 .f32) (nb : FVec Ideal S1024x10 .f32) (fc1w : FVec Ideal S138x256 .f32)
    (fc1b : FVec Ideal S256 .f32) (fc2w : FVec Ideal S256x10 .f32) (fc2b : FVec Ideal S10 .f32) : FVec Ideal S1024x10 .f32 :=
  Host.exp
    (subf (refLogit pooled nb fc1w fc1b fc2w fc2b)
      (broadcastInDim S1024x10 ![0, 1] Cert.ReferenceIdeal.Facts₀.bcast_S1024x1_S1024x10_0_1
        (broadcastInDim S1024x1 ![0] Cert.ReferenceIdeal.Facts₀.bcast_S1024_S1024x1_0 (refTop pooled nb fc1w fc1b fc2w fc2b))))

/-- The tail of the reference: each exponential over its row's sum. -/
def refTail (pooled : FVec Ideal S1024x128 .f32) (nb : FVec Ideal S1024x10 .f32) (fc1w : FVec Ideal S138x256 .f32)
    (fc1b : FVec Ideal S256 .f32) (fc2w : FVec Ideal S256x10 .f32) (fc2b : FVec Ideal S10 .f32) : FVec Ideal S1024x10 .f32 :=
  Host.divf (refExp pooled nb fc1w fc1b fc2w fc2b)
    (broadcastInDim S1024x10 ![0, 1] Cert.ReferenceIdeal.Facts₀.bcast_S1024x1_S1024x10_0_1
      (broadcastInDim S1024x1 ![0] Cert.ReferenceIdeal.Facts₀.bcast_S1024_S1024x1_0
        (Host.reduceAdd (refExp pooled nb fc1w fc1b fc2w fc2b) (constant S_ .f32 0x00000000#32 : FVec Ideal S_ .f32)
          Cert.ReferenceIdeal.Facts₀.reducesTo_S1024x10_S1024_d1 Cert.ReferenceIdeal.Facts₀.h_S_)))

/-! ## The operands as the kernel program's last host stretch prepares them -/

/-- The first 128 rows of the first weights, and the last 10. -/
abbrev cutHead (fc1w : FVec Ideal S138x256 .f32) : FVec Ideal S128x256 .f32 :=
  extractStridedSlice S128x256 ![0, 0] fc1w Cert.KernelIdeal.Facts₀.slices_S138x256_S128x256_0_0
abbrev cutLast (fc1w : FVec Ideal S138x256 .f32) : FVec Ideal S10x256 .f32 :=
  extractStridedSlice S10x256 ![128, 0] fc1w Cert.KernelIdeal.Facts₀.slices_S138x256_S10x256_128_0
/-- The two biases as one-row arrays. -/
abbrev rowHid (fc1b : FVec Ideal S256 .f32) : FVec Ideal S1x256 .f32 := shapeCast S1x256 fc1b Cert.KernelIdeal.Facts₀.shapeCasts_S256_S1x256
abbrev rowOut (fc2b : FVec Ideal S10 .f32) : FVec Ideal S1x10 .f32 := shapeCast S1x10 fc2b Cert.KernelIdeal.Facts₀.shapeCasts_S10_S1x10

/-! ## The pieces, read at an index -/

/-- The host's rows-by-columns product, at row `a` and column `b`: the sum over the contracted coordinate. -/
theorem hostProd_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.dotGeneral (⟨[1], [0], [0], [1], [], [], w⟩ : DotDims ⟨2, ![m, k]⟩ ⟨2, ![k, n]⟩ ⟨2, ![m, n]⟩) none .single A B (ix2 a b)
      = ∑ c : Fin k, A (ix2 a c) * B (ix2 c b) := by
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A sum over 138 positions is the sum over the first 128 plus the sum over the last 10. -/
theorem sum138 (f : Fin 138 → EReal) :
    ∑ k : Fin 138, f k = (∑ k : Fin 128, f ⟨k.val, by omega⟩) + ∑ k : Fin 10, f ⟨128 + k.val, by omega⟩ :=
  Fin.sum_univ_add (a := 128) (b := 10) f

/-- The joined block at a column among the first 128 is the pooled block there, -/
theorem join_head (pooled : FVec Ideal S1024x128 .f32) (nb : FVec Ideal S1024x10 .f32) (g : Fin 1024) (k : Fin 128) :
    concatenate S1024x138 1 [⟨S1024x128, pooled⟩, ⟨S1024x10, nb⟩] Cert.ReferenceIdeal.Facts₀.concatenates_S1024x128_S1024x10_S1024x138_d1
      (ix2 g (⟨k.val, by omega⟩ : Fin 138)) = pooled (ix2 g k) :=
  concatenate_pair_apply_left (1 : Fin 2) pooled nb _ (ix2 g (⟨k.val, by omega⟩ : Fin 138)) rfl (ix2 g k) (fun b => match b with
    | ⟨0, _⟩ => rfl
    | ⟨1, _⟩ => rfl)

/-- and at a column among the last 10 the neighbour block at that column less 128. -/
theorem join_last (pooled : FVec Ideal S1024x128 .f32) (nb : FVec Ideal S1024x10 .f32) (g : Fin 1024) (k : Fin 10) :
    concatenate S1024x138 1 [⟨S1024x128, pooled⟩, ⟨S1024x10, nb⟩] Cert.ReferenceIdeal.Facts₀.concatenates_S1024x128_S1024x10_S1024x138_d1
      (ix2 g (⟨128 + k.val, by omega⟩ : Fin 138)) = nb (ix2 g k) :=
  concatenate_pair_apply_right (1 : Fin 2) pooled nb _ (ix2 g (⟨128 + k.val, by omega⟩ : Fin 138)) rfl rfl (ix2 g k)
    (fun b => match b with
      | ⟨0, _⟩ => fun _ => rfl
      | ⟨1, _⟩ => fun h => absurd rfl h)
    (by show k.val + 128 = 128 + k.val; omega)

/-- The cuts of the first weights, read at an index. -/
theorem cutHead_apply (fc1w : FVec Ideal S138x256 .f32) (k : Fin 128) (h : Fin 256) :
    cutHead fc1w (ix2 k h) = fc1w (ix2 (⟨k.val, by omega⟩ : Fin 138) h) :=
  extractStridedSlice_apply ![0, 0] fc1w _ (ix2 k h) (ix2 (⟨k.val, by omega⟩ : Fin 138) h) (fun a => match a with
    | ⟨0, _⟩ => by show k.val = 0 + k.val; omega
    | ⟨1, _⟩ => by show h.val = 0 + h.val; omega)
theorem cutLast_apply (fc1w : FVec Ideal S138x256 .f32) (k : Fin 10) (h : Fin 256) :
    cutLast fc1w (ix2 k h) = fc1w (ix2 (⟨128 + k.val, by omega⟩ : Fin 138) h) :=
  extractStridedSlice_apply ![128, 0] fc1w _ (ix2 k h) (ix2 (⟨128 + k.val, by omega⟩ : Fin 138) h) (fun a => match a with
    | ⟨0, _⟩ => rfl
    | ⟨1, _⟩ => by show h.val = 0 + h.val; omega)

/-- A vector as a one-row array, read at its column. -/
theorem rowHid_apply (fc1b : FVec Ideal S256 .f32) (h : Fin 256) : rowHid fc1b (ix2 0 h) = fc1b (ix1 h) :=
  shapeCast_apply fc1b _ (ix2 0 h) (ix1 h) (by
    rw [Shape.rowMajor_val_one, Shape.rowMajor_val_two]
    show h.val = 0 * 256 + h.val
    omega)
theorem rowOut_apply (fc2b : FVec Ideal S10 .f32) (j : Fin 10) : rowOut fc2b (ix2 0 j) = fc2b (ix1 j) :=
  shapeCast_apply fc2b _ (ix2 0 j) (ix1 j) (by
    rw [Shape.rowMajor_val_one, Shape.rowMajor_val_two]
    show j.val = 0 * 10 + j.val
    omega)

/-- A vector made a row and spread down the rows, as the reference writes it, read at an index. -/
theorem spreadHid_apply (fc1b : FVec Ideal S256 .f32) (g : Fin 1024) (h : Fin 256) :
    broadcastInDim S1024x256 ![0, 1] Cert.ReferenceIdeal.Facts₀.bcast_S1x256_S1024x256_0_1
      (broadcastInDim S1x256 ![1] Cert.ReferenceIdeal.Facts₀.bcast_S256_S1x256_1 fc1b) (ix2 g h) = fc1b (ix1 h) :=
  (broadcastInDim_apply _ _ _ (ix2 g h) (ix2 0 h) (fun a => match a with
    | ⟨0, _⟩ => rfl
    | ⟨1, _⟩ => rfl)).trans
  (broadcastInDim_apply _ _ fc1b (ix2 0 h) (ix1 h) (fun a => match a with
    | ⟨0, _⟩ => rfl))
theorem spreadOut_apply (fc2b : FVec Ideal S10 .f32) (g : Fin 1024) (j : Fin 10) :
    broadcastInDim S1024x10 ![0, 1] Cert.ReferenceIdeal.Facts₀.bcast_S1x10_S1024x10_0_1
      (broadcastInDim S1x10 ![1] Cert.ReferenceIdeal.Facts₀.bcast_S10_S1x10_1 fc2b) (ix2 g j) = fc2b (ix1 j) :=
  (broadcastInDim_apply _ _ _ (ix2 g j) (ix2 0 j) (fun a => match a with
    | ⟨0, _⟩ => rfl
    | ⟨1, _⟩ => rfl)).trans
  (broadcastInDim_apply _ _ fc2b (ix2 0 j) (ix1 j) (fun a => match a with
    | ⟨0, _⟩ => rfl))

/-- A vector of 1024 made a column and spread along the rows, read at an index. -/
theorem spreadCol_apply (v : FVec Ideal S1024 .f32) (g : Fin 1024) (j : Fin 10) :
    broadcastInDim S1024x10 ![0, 1] Cert.ReferenceIdeal.Facts₀.bcast_S1024x1_S1024x10_0_1
      (broadcastInDim S1024x1 ![0] Cert.ReferenceIdeal.Facts₀.bcast_S1024_S1024x1_0 v) (ix2 g j) = v (ix1 g) :=
  (broadcastInDim_apply _ _ _ (ix2 g j) (ix2 g 0) (fun a => match a with
    | ⟨0, _⟩ => rfl
    | ⟨1, _⟩ => rfl)).trans
  (broadcastInDim_apply _ _ v (ix2 g 0) (ix1 g) (fun a => match a with
    | ⟨0, _⟩ => rfl))

/-! ## Stage by stage, the two agree -/

theorem refHid_apply (pooled : FVec Ideal S1024x128 .f32) (nb : FVec Ideal S1024x10 .f32) (fc1w : FVec Ideal S138x256 .f32)
    (fc1b : FVec Ideal S256 .f32) (g : Fin 1024) (h : Fin 256) :
    refHid pooled nb fc1w fc1b (ix2 g h) = hid9 pooled nb (cutHead fc1w) (cutLast fc1w) (rowHid fc1b) g h := by
  unfold refHid hid9 Cert.ReferenceIdeal.dot_S1024x138_S138x256_S1024x256_1_0_0_1_n_n
  rw [maximumf_apply, addf_apply, spreadHid_apply]
  show max (FloatOps.dotGeneral _ none .single _ fc1w (ix2 g h) + fc1b (ix1 h)) (Ideal.ofBits .f32 0x00000000#32) = _
  rw [hostProd_apply, sum138, Ideal.ofBits_zero_f32, rowHid_apply]
  simp only [join_head, join_last, cutHead_apply, cutLast_apply]

theorem refLogit_apply (pooled : FVec Ideal S1024x128 .f32) (nb : FVec Ideal S1024x10 .f32) (fc1w : FVec Ideal S138x256 .f32)
    (fc1b : FVec Ideal S256 .f32) (fc2w : FVec Ideal S256x10 .f32) (fc2b : FVec Ideal S10 .f32) (g : Fin 1024) (j : Fin 10) :
    refLogit pooled nb fc1w fc1b fc2w fc2b (ix2 g j)
      = logit9 pooled nb (cutHead fc1w) (cutLast fc1w) (rowHid fc1b) fc2w (rowOut fc2b) g j := by
  unfold refLogit logit9 Cert.ReferenceIdeal.dot_S1024x256_S256x10_S1024x10_1_0_0_1_n_n
  rw [addf_apply, spreadOut_apply]
  show FloatOps.dotGeneral _ none .single _ fc2w (ix2 g j) + fc2b (ix1 j) = _
  rw [hostProd_apply, rowOut_apply]
  simp only [refHid_apply]

theorem refTop_apply (pooled : FVec Ideal S1024x128 .f32) (nb : FVec Ideal S1024x10 .f32) (fc1w : FVec Ideal S138x256 .f32)
    (fc1b : FVec Ideal S256 .f32) (fc2w : FVec Ideal S256x10 .f32) (fc2b : FVec Ideal S10 .f32) (g : Fin 1024) :
    refTop pooled nb fc1w fc1b fc2w fc2b (ix1 g)
      = top9 pooled nb (cutHead fc1w) (cutLast fc1w) (rowHid fc1b) fc2w (rowOut fc2b) g := by
  unfold refTop top9
  rw [maximumf_apply]
  refine congrArg (fun t => max (Ideal.ofBits .f32 0xFF800000#32) t) ?_
  refine (Host.reduce_eq_fold_single FloatOps.maximumf (refLogit pooled nb fc1w fc1b fc2w fc2b) _
    Cert.ReferenceIdeal.Facts₀.reducesTo_S1024x10_S1024_d1 Cert.KernelIdeal.Facts₀.reduces_S1024x10_S1024
    Cert.ReferenceIdeal.Facts₀.h_S_ (ix1 g)).trans ?_
  show (Finset.univ : Finset (Fin 10)).fold max (Ideal.ofBits .f32 0xFF800000#32)
    (fun k => refLogit pooled nb fc1w fc1b fc2w fc2b (Cert.KernelIdeal.Facts₀.reduces_S1024x10_S1024.lift (ix1 g) k)) = _
  exact congrArg (fun f : Fin 10 → EReal => (Finset.univ : Finset (Fin 10)).fold max (Ideal.ofBits .f32 0xFF800000#32) f)
    (funext fun k => (congrArg (refLogit pooled nb fc1w fc1b fc2w fc2b) (lift9 g k)).trans (refLogit_apply pooled nb fc1w fc1b fc2w fc2b g k))

theorem refExp_apply (pooled : FVec Ideal S1024x128 .f32) (nb : FVec Ideal S1024x10 .f32) (fc1w : FVec Ideal S138x256 .f32)
    (fc1b : FVec Ideal S256 .f32) (fc2w : FVec Ideal S256x10 .f32) (fc2b : FVec Ideal S10 .f32) (g : Fin 1024) (j : Fin 10) :
    refExp pooled nb fc1w fc1b fc2w fc2b (ix2 g j)
      = expo9 pooled nb (cutHead fc1w) (cutLast fc1w) (rowHid fc1b) fc2w (rowOut fc2b) g j := by
  unfold refExp expo9
  show Ideal.exp (refLogit pooled nb fc1w fc1b fc2w fc2b (ix2 g j) - _) = _
  rw [spreadCol_apply, refLogit_apply, refTop_apply]

/-- **The tail of the reference is the classifier kernel's array** of the same operands, the first weights cut in two
    and the biases as rows. -/
theorem tail_eq (pooled : FVec Ideal S1024x128 .f32) (nb : FVec Ideal S1024x10 .f32) (fc1w : FVec Ideal S138x256 .f32)
    (fc1b : FVec Ideal S256 .f32) (fc2w : FVec Ideal S256x10 .f32) (fc2b : FVec Ideal S10 .f32) :
    refTail pooled nb fc1w fc1b fc2w fc2b
      = mlpArray9 pooled nb (cutHead fc1w) (cutLast fc1w) (rowHid fc1b) fc2w (rowOut fc2b) := by
  funext i
  obtain ⟨g, j, rfl⟩ : ∃ (g : Fin 1024) (j : Fin 10), i = ix2 g j := ⟨i 0, i 1, eq_ix2 i⟩
  rw [mlpArray9_apply]
  unfold refTail
  show Ideal.div (refExp pooled nb fc1w fc1b fc2w fc2b (ix2 g j)) _ = _
  rw [spreadCol_apply, refExp_apply]
  refine congrArg (fun t => Ideal.div (expo9 pooled nb (cutHead fc1w) (cutLast fc1w) (rowHid fc1b) fc2w (rowOut fc2b) g j) t) ?_
  show Ideal.hostReduceAdd Cert.ReferenceIdeal.Facts₀.reducesTo_S1024x10_S1024_d1 (refExp pooled nb fc1w fc1b fc2w fc2b)
    (Ideal.ofBits .f32 0x00000000#32) (ix1 g) = _
  rw [Ideal.hostReduceAdd_single Cert.ReferenceIdeal.Facts₀.reducesTo_S1024x10_S1024_d1 Cert.KernelIdeal.Facts₀.reduces_S1024x10_S1024,
    Ideal.ofBits_zero_f32, zero_add]
  exact Finset.sum_congr rfl fun k _ =>
    (congrArg (refExp pooled nb fc1w fc1b fc2w fc2b) (lift9 g k)).trans (refExp_apply pooled nb fc1w fc1b fc2w fc2b g k)

end Cert.Proof.Tail
-- ==== Proof.RefTail.lean ====
import proofs.«148009_j49555332661695_1_alg».proof.Proof.RefLayers
import proofs.«148009_j49555332661695_1_alg».proof.Proof.TailBridge
import proofs.«148009_j49555332661695_1_alg».proof.Proof.ChainStretch

/-!
  The reference program's last stages. After the third layer the reference sums the node rows into their graphs (a
  scatter-add by the batch vector into the zero array) and runs the classifier tail on the pooled block: composed, its
  last stage is `refTail` of that pooled block, the neighbour block and the classifier's weights and biases. The kernel
  program's pooling is the same scatter-add: the same dimension numbers, the same zero array, the same column of graph
  numbers.
-/

set_option maxRecDepth 16384

noncomputable section

namespace Cert.Proof.Tail

open Idealize.ShloMosaic Idealize.ShloMosaic.TcCoe
open Cert.KernelIdeal (S100000x128 S800000x16 S2x800000 S3x128x128 S3x16x128 S3x128 S100000 S100000x1 S1024x128 S1024x10 S138x256 S256 S256x10 S10 S_)
open Cert.Proof.Layer (zeroS)
open Cert.ReferenceIdeal.ReadP

/-- The reference's output is its classifier tail on the third layer's rows pooled by graph. -/
theorem stages_tail_eq (x0 : (⟨S100000x128, .f32⟩ : BufTy).Contents (Elt Ideal)) (x1 : (⟨S2x800000, .i32⟩ : BufTy).Contents (Elt Ideal)) (x2 : (⟨S800000x16, .f32⟩ : BufTy).Contents (Elt Ideal))
    (x3 : (⟨S100000, .i32⟩ : BufTy).Contents (Elt Ideal)) (x4 : (⟨S1024x10, .f32⟩ : BufTy).Contents (Elt Ideal)) (x5 : (⟨S3x128x128, .f32⟩ : BufTy).Contents (Elt Ideal)) (x6 : (⟨S3x16x128, .f32⟩ : BufTy).Contents (Elt Ideal))
    (x7 x8 x9 : (⟨S3x128, .f32⟩ : BufTy).Contents (Elt Ideal)) (x10 : (⟨S138x256, .f32⟩ : BufTy).Contents (Elt Ideal)) (x11 : (⟨S256, .f32⟩ : BufTy).Contents (Elt Ideal)) (x12 : (⟨S256x10, .f32⟩ : BufTy).Contents (Elt Ideal))
    (x13 : (⟨S10, .f32⟩ : BufTy).Contents (Elt Ideal)) :
    val_main_v183 (F := Ideal) x0 x1 x2 x3 x4 x5 x6 x7 x8 x9 x10 x11 x12 x13
      = refTail
          (Host.scatterAdd Cert.ReferenceIdeal.scatter_S1024x128_S100000x1_S100000x128_1_0_0_1
            (broadcastInDim S1024x128 ![] Cert.ReferenceIdeal.Facts₀.bcast_S_S1024x128 zeroS)
            (broadcastInDim S100000x1 ![0] Cert.ReferenceIdeal.Facts₀.bcast_S100000_S100000x1_0 x3)
            (val_main_v159 (F := Ideal) x0 x1 x2 x5 x6 x7 x8 x9))
          x4 x10 x11 x12 x13 := rfl

/-- The reference's pooling is the kernel program's. -/
theorem pool_eq (x3 : IVec S100000 32) (h : FVec Ideal S100000x128 .f32) :
    Host.scatterAdd Cert.ReferenceIdeal.scatter_S1024x128_S100000x1_S100000x128_1_0_0_1
        (broadcastInDim S1024x128 ![] Cert.ReferenceIdeal.Facts₀.bcast_S_S1024x128 zeroS)
        (broadcastInDim S100000x1 ![0] Cert.ReferenceIdeal.Facts₀.bcast_S100000_S100000x1_0 x3) h
      = Cert.KernelIdeal.Hand.poolOf x3 h := rfl

end Cert.Proof.Tail

end
-- ==== Proof.RefStages.lean ====
/-
  The reference program's value, chunk by chunk.

  The reference is a straight line of 220 host operations, each writing one buffer of its own. Cut into consecutive chunks
  of 20, the run is the chunks run one after the other. For a chunk started from any contents `W`: at a buffer it writes,
  the contents afterwards are that buffer's staged value function of the arguments, provided the buffers the chunk reads held
  their staged value functions in `W`; at a buffer it does not write, the contents are `W`'s. Chaining these from the launch
  contents gives the staged value function of the arguments at the result buffer.
-/
import proofs.«148009_j49555332661695_1_alg».proof.Proof.RefOpsGen
import proofs.«148009_j49555332661695_1_alg».proof.Proof.RefReadGen
import Idealize.ShloMosaic.Lib.StableHlo.Run

set_option maxRecDepth 16384

noncomputable section

namespace Cert.Proof.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Two lines run one after the other leave what their concatenation leaves. -/
theorem after_append (a b : List (HloOp τ sig (Elt F))) (V : Valuation τ sig (Elt F)) :
    StableHlo.after (a ++ b) V = StableHlo.after b (StableHlo.after a V) := by
  induction a generalizing V with
  | nil => rfl
  | cons op a ih => exact ih _

/-! ## The chunks -/

/-- Operations 1 … 20. -/
abbrev chunk1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_arg5 main_v11 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v11 main_v12 rfl shapeCasts_S1x128x128_S128x128,
    binary main_v10 main_v12 main_v13 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg6 main_v14 ((extractStridedSlice S1x16x128 ![0, 0, 0] · slices_S3x16x128_S1x16x128_0_0_0) : (⟨S3x16x128, .f32⟩ : BufTy).Contents (Elt F) → (⟨S1x16x128, .f32⟩ : BufTy).Contents (Elt F)),
    reshape main_v14 main_v15 rfl shapeCasts_S1x16x128_S16x128,
    binary main_arg2 main_v15 main_v16 ((fun l r => Host.dotGeneral dot_S800000x16_S16x128_S800000x128_1_0_0_1_n_n none l r) : (⟨S800000x16, .f32⟩ : BufTy).Contents (Elt F) → (⟨S16x128, .f32⟩ : BufTy).Contents (Elt F) → (⟨S800000x128, .f32⟩ : BufTy).Contents (Elt F)),
    binary main_v13 main_v16 main_v17 (addf : (⟨S800000x128, .f32⟩ : BufTy).Contents (Elt F) → (⟨S800000x128, .f32⟩ : BufTy).Contents (Elt F) → (⟨S800000x128, .f32⟩ : BufTy).Contents (Elt F)) ]

/-- Operations 21 … 40. -/
abbrev chunk2 : List (HloOp τ sig (Elt F)) :=
  [ unary main_arg7 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S800000x128 ![0, 1] bcast_S1x128_S800000x128_0_1 : (⟨S1x128, .f32⟩ : BufTy).Contents (Elt F) → (⟨S800000x128, .f32⟩ : BufTy).Contents (Elt F)),
    binary main_v17 main_v21 main_v22 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v23 (broadcastInDim S100000x128 ![] bcast_S_S100000x128 : (⟨S_, .f32⟩ : BufTy).Contents (Elt F) → (⟨S100000x128, .f32⟩ : BufTy).Contents (Elt F)),
    unary main_v3 main_v24 (broadcastInDim S800000x1 ![0] bcast_S800000_S800000x1_0 : (⟨S800000, .i32⟩ : BufTy).Contents (Elt F) → (⟨S800000x1, .i32⟩ : BufTy).Contents (Elt F)),
    ternary main_v23 main_v24 main_v22 main_v25 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_1 (constant S_ .f32 0x00000000#32),
    binary main_v25 main_cst_1 main_v26 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v27 (broadcastInDim S128 ![] bcast_S_S128 : (⟨S_, .f32⟩ : BufTy).Contents (Elt F) → (⟨S128, .f32⟩ : BufTy).Contents (Elt F)),
    binary main_v26 main_v27 main_v28 (Host.divf : (⟨S128, .f32⟩ : BufTy).Contents (Elt F) → (⟨S128, .f32⟩ : BufTy).Contents (Elt F) → (⟨S128, .f32⟩ : BufTy).Contents (Elt F)),
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v25 main_v30 main_v31 (subf : (⟨S100000x128, .f32⟩ : BufTy).Contents (Elt F) → (⟨S100000x128, .f32⟩ : BufTy).Contents (Elt F) → (⟨S100000x128, .f32⟩ : BufTy).Contents (Elt F)),
    binary main_v31 main_v31 main_v32 (mulf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x00000000#32),
    binary main_v32 main_cst_3 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- Operations 41 … 60. -/
abbrev chunk3 : List (HloOp τ sig (Elt F)) :=
  [ nullary main_cst_4 (constant S_ .f32 0x47C35000#32),
    unary main_cst_4 main_v34 (broadcastInDim S128 ![] bcast_S_S128 : (⟨S_, .f32⟩ : BufTy).Contents (Elt F) → (⟨S128, .f32⟩ : BufTy).Contents (Elt F)),
    binary main_v33 main_v34 main_v35 (Host.divf : (⟨S128, .f32⟩ : BufTy).Contents (Elt F) → (⟨S128, .f32⟩ : BufTy).Contents (Elt F) → (⟨S128, .f32⟩ : BufTy).Contents (Elt F)),
    unary main_v28 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v25 main_v37 main_v38 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v39 (broadcastInDim S128 ![] bcast_S_S128 : (⟨S_, .f32⟩ : BufTy).Contents (Elt F) → (⟨S128, .f32⟩ : BufTy).Contents (Elt F)),
    binary main_v35 main_v39 main_v40 (addf : (⟨S128, .f32⟩ : BufTy).Contents (Elt F) → (⟨S128, .f32⟩ : BufTy).Contents (Elt F) → (⟨S128, .f32⟩ : BufTy).Contents (Elt F)),
    unary main_v40 main_v41 (Host.rsqrt : (⟨S128, .f32⟩ : BufTy).Contents (Elt F) → (⟨S128, .f32⟩ : BufTy).Contents (Elt F)),
    unary main_v41 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v38 main_v43 main_v44 (mulf : (⟨S100000x128, .f32⟩ : BufTy).Contents (Elt F) → (⟨S100000x128, .f32⟩ : BufTy).Contents (Elt F) → (⟨S100000x128, .f32⟩ : BufTy).Contents (Elt F)),
    unary main_arg8 main_v45 ((extractStridedSlice S1x128 ![0, 0] · slices_S3x128_S1x128_0_0) : (⟨S3x128, .f32⟩ : BufTy).Contents (Elt F) → (⟨S1x128, .f32⟩ : BufTy).Contents (Elt F)),
    reshape main_v45 main_v46 rfl shapeCasts_S1x128_S128,
    unary main_v46 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v44 main_v48 main_v49 (mulf : (⟨S100000x128, .f32⟩ : BufTy).Contents (Elt F) → (⟨S100000x128, .f32⟩ : BufTy).Contents (Elt F) → (⟨S100000x128, .f32⟩ : BufTy).Contents (Elt F)),
    unary main_arg9 main_v50 ((extractStridedSlice S1x128 ![0, 0] · slices_S3x128_S1x128_0_0) : (⟨S3x128, .f32⟩ : BufTy).Contents (Elt F) → (⟨S1x128, .f32⟩ : BufTy).Contents (Elt F)),
    reshape main_v50 main_v51 rfl shapeCasts_S1x128_S128 ]

/-- Operations 61 … 80. -/
abbrev chunk4 : List (HloOp τ sig (Elt F)) :=
  [ unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v49 main_v53 main_v54 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v54) (TRef.of (T := ⟨S100000x128, .f32⟩) main_call0_v0) (TRef.of (T := ⟨S100000x128, .f32⟩) main_v55) maximumf,
    nullary main_c_6 (constantI S_ 32 0#32),
    unary main_c_6 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_7 (constantI S_ 32 100000#32),
    unary main_c_7 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v55 main_v61 main_v62 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_arg5 main_v63 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v63 main_v64 rfl shapeCasts_S1x128x128_S128x128,
    binary main_v62 main_v64 main_v65 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg6 main_v66 ((extractStridedSlice S1x16x128 ![1, 0, 0] · slices_S3x16x128_S1x16x128_1_0_0) : (⟨S3x16x128, .f32⟩ : BufTy).Contents (Elt F) → (⟨S1x16x128, .f32⟩ : BufTy).Contents (Elt F)),
    reshape main_v66 main_v67 rfl shapeCasts_S1x16x128_S16x128 ]

/-- Operations 81 … 100. -/
abbrev chunk5 : List (HloOp τ sig (Elt F)) :=
  [ binary main_arg2 main_v67 main_v68 ((fun l r => Host.dotGeneral dot_S800000x16_S16x128_S800000x128_1_0_0_1_n_n none l r) : (⟨S800000x16, .f32⟩ : BufTy).Contents (Elt F) → (⟨S16x128, .f32⟩ : BufTy).Contents (Elt F) → (⟨S800000x128, .f32⟩ : BufTy).Contents (Elt F)),
    binary main_v65 main_v68 main_v69 (addf : (⟨S800000x128, .f32⟩ : BufTy).Contents (Elt F) → (⟨S800000x128, .f32⟩ : BufTy).Contents (Elt F) → (⟨S800000x128, .f32⟩ : BufTy).Contents (Elt F)),
    unary main_arg7 main_v70 ((extractStridedSlice S1x128 ![1, 0] · slices_S3x128_S1x128_1_0) : (⟨S3x128, .f32⟩ : BufTy).Contents (Elt F) → (⟨S1x128, .f32⟩ : BufTy).Contents (Elt F)),
    reshape main_v70 main_v71 rfl shapeCasts_S1x128_S128,
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S800000x128 ![0, 1] bcast_S1x128_S800000x128_0_1 : (⟨S1x128, .f32⟩ : BufTy).Contents (Elt F) → (⟨S800000x128, .f32⟩ : BufTy).Contents (Elt F)),
    binary main_v69 main_v73 main_v74 (addf : (⟨S800000x128, .f32⟩ : BufTy).Contents (Elt F) → (⟨S800000x128, .f32⟩ : BufTy).Contents (Elt F) → (⟨S800000x128, .f32⟩ : BufTy).Contents (Elt F)),
    nullary main_cst_8 (constant S_ .f32 0x00000000#32),
    unary main_cst_8 main_v75 (broadcastInDim S100000x128 ![] bcast_S_S100000x128 : (⟨S_, .f32⟩ : BufTy).Contents (Elt F) → (⟨S100000x128, .f32⟩ : BufTy).Contents (Elt F)),
    unary main_v3 main_v76 (broadcastInDim S800000x1 ![0] bcast_S800000_S800000x1_0 : (⟨S800000, .i32⟩ : BufTy).Contents (Elt F) → (⟨S800000x1, .i32⟩ : BufTy).Contents (Elt F)),
    ternary main_v75 main_v76 main_v74 main_v77 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_9 (constant S_ .f32 0x00000000#32),
    binary main_v77 main_cst_9 main_v78 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v79 (broadcastInDim S128 ![] bcast_S_S128 : (⟨S_, .f32⟩ : BufTy).Contents (Elt F) → (⟨S128, .f32⟩ : BufTy).Contents (Elt F)),
    binary main_v78 main_v79 main_v80 (Host.divf : (⟨S128, .f32⟩ : BufTy).Contents (Elt F) → (⟨S128, .f32⟩ : BufTy).Contents (Elt F) → (⟨S128, .f32⟩ : BufTy).Contents (Elt F)),
    unary main_v80 main_v81 (broadcastInDim S1x128 ![1] bcast_S128_S1x128_1 : (⟨S128, .f32⟩ : BufTy).Contents (Elt F) → (⟨S1x128, .f32⟩ : BufTy).Contents (Elt F)),
    unary main_v81 main_v82 (broadcastInDim S100000x128 ![0, 1] bcast_S1x128_S100000x128_0_1 : (⟨S1x128, .f32⟩ : BufTy).Contents (Elt F) → (⟨S100000x128, .f32⟩ : BufTy).Contents (Elt F)),
    binary main_v77 main_v82 main_v83 (subf : (⟨S100000x128, .f32⟩ : BufTy).Contents (Elt F) → (⟨S100000x128, .f32⟩ : BufTy).Contents (Elt F) → (⟨S100000x128, .f32⟩ : BufTy).Contents (Elt F)),
    binary main_v83 main_v83 main_v84 (mulf : (⟨S100000x128, .f32⟩ : BufTy).Contents (Elt F) → (⟨S100000x128, .f32⟩ : BufTy).Contents (Elt F) → (⟨S100000x128, .f32⟩ : BufTy).Contents (Elt F)) ]

/-- Operations 101 … 120. -/
abbrev chunk6 : List (HloOp τ sig (Elt F)) :=
  [ nullary main_cst_11 (constant S_ .f32 0x00000000#32),
    binary main_v84 main_cst_11 main_v85 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v86 (broadcastInDim S128 ![] bcast_S_S128 : (⟨S_, .f32⟩ : BufTy).Contents (Elt F) → (⟨S128, .f32⟩ : BufTy).Contents (Elt F)),
    binary main_v85 main_v86 main_v87 (Host.divf : (⟨S128, .f32⟩ : BufTy).Contents (Elt F) → (⟨S128, .f32⟩ : BufTy).Contents (Elt F) → (⟨S128, .f32⟩ : BufTy).Contents (Elt F)),
    unary main_v80 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v77 main_v89 main_v90 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v91 (broadcastInDim S128 ![] bcast_S_S128 : (⟨S_, .f32⟩ : BufTy).Contents (Elt F) → (⟨S128, .f32⟩ : BufTy).Contents (Elt F)),
    binary main_v87 main_v91 main_v92 (addf : (⟨S128, .f32⟩ : BufTy).Contents (Elt F) → (⟨S128, .f32⟩ : BufTy).Contents (Elt F) → (⟨S128, .f32⟩ : BufTy).Contents (Elt F)),
    unary main_v92 main_v93 (Host.rsqrt : (⟨S128, .f32⟩ : BufTy).Contents (Elt F) → (⟨S128, .f32⟩ : BufTy).Contents (Elt F)),
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v90 main_v95 main_v96 (mulf : (⟨S100000x128, .f32⟩ : BufTy).Contents (Elt F) → (⟨S100000x128, .f32⟩ : BufTy).Contents (Elt F) → (⟨S100000x128, .f32⟩ : BufTy).Contents (Elt F)),
    unary main_arg8 main_v97 ((extractStridedSlice S1x128 ![1, 0] · slices_S3x128_S1x128_1_0) : (⟨S3x128, .f32⟩ : BufTy).Contents (Elt F) → (⟨S1x128, .f32⟩ : BufTy).Contents (Elt F)),
    reshape main_v97 main_v98 rfl shapeCasts_S1x128_S128,
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v96 main_v100 main_v101 (mulf : (⟨S100000x128, .f32⟩ : BufTy).Contents (Elt F) → (⟨S100000x128, .f32⟩ : BufTy).Contents (Elt F) → (⟨S100000x128, .f32⟩ : BufTy).Contents (Elt F)) ]

/-- Operations 121 … 140. -/
abbrev chunk7 : List (HloOp τ sig (Elt F)) :=
  [ unary main_arg9 main_v102 ((extractStridedSlice S1x128 ![1, 0] · slices_S3x128_S1x128_1_0) : (⟨S3x128, .f32⟩ : BufTy).Contents (Elt F) → (⟨S1x128, .f32⟩ : BufTy).Contents (Elt F)),
    reshape main_v102 main_v103 rfl shapeCasts_S1x128_S128,
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)),
    binary main_v101 main_v105 main_v106 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v106) (TRef.of (T := ⟨S100000x128, .f32⟩) main_call1_v0) (TRef.of (T := ⟨S100000x128, .f32⟩) main_v107) maximumf,
    nullary main_c_14 (constantI S_ 32 0#32),
    unary main_c_14 main_v108 (broadcastInDim S800000 ![] bcast_S_S800000 : (⟨S_, .i32⟩ : BufTy).Contents (Elt F) → (⟨S800000, .i32⟩ : BufTy).Contents (Elt F)),
    binary main_v1 main_v108 main_v109 (cmpi .slt : (⟨S800000, .i32⟩ : BufTy).Contents (Elt F) → (⟨S800000, .i32⟩ : BufTy).Contents (Elt F) → (⟨S800000, .i1⟩ : BufTy).Contents (Elt F)),
    nullary main_c_15 (constantI S_ 32 100000#32),
    unary main_c_15 main_v110 (broadcastInDim S800000 ![] bcast_S_S800000 : (⟨S_, .i32⟩ : BufTy).Contents (Elt F) → (⟨S800000, .i32⟩ : BufTy).Contents (Elt F)),
    binary main_v1 main_v110 main_v111 (addi : (⟨S800000, .i32⟩ : BufTy).Contents (Elt F) → (⟨S800000, .i32⟩ : BufTy).Contents (Elt F) → (⟨S800000, .i32⟩ : BufTy).Contents (Elt F)),
    ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v112 main_v113 (broadcastInDim S800000x1 ![0] bcast_S800000_S800000x1_0 : (⟨S800000, .i32⟩ : BufTy).Contents (Elt F) → (⟨S800000x1, .i32⟩ : BufTy).Contents (Elt F)),
    binary main_v107 main_v113 main_v114 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_arg5 main_v115 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v115 main_v116 rfl shapeCasts_S1x128x128_S128x128,
    binary main_v114 main_v116 main_v117 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)) ]

/-- Operations 141 … 160. -/
abbrev chunk8 : List (HloOp τ sig (Elt F)) :=
  [ unary main_arg6 main_v118 ((extractStridedSlice S1x16x128 ![2, 0, 0] · slices_S3x16x128_S1x16x128_2_0_0) : (⟨S3x16x128, .f32⟩ : BufTy).Contents (Elt F) → (⟨S1x16x128, .f32⟩ : BufTy).Contents (Elt F)),
    reshape main_v118 main_v119 rfl shapeCasts_S1x16x128_S16x128,
    binary main_arg2 main_v119 main_v120 ((fun l r => Host.dotGeneral dot_S800000x16_S16x128_S800000x128_1_0_0_1_n_n none l r) : (⟨S800000x16, .f32⟩ : BufTy).Contents (Elt F) → (⟨S16x128, .f32⟩ : BufTy).Contents (Elt F) → (⟨S800000x128, .f32⟩ : BufTy).Contents (Elt F)),
    binary main_v117 main_v120 main_v121 (addf : (⟨S800000x128, .f32⟩ : BufTy).Contents (Elt F) → (⟨S800000x128, .f32⟩ : BufTy).Contents (Elt F) → (⟨S800000x128, .f32⟩ : BufTy).Contents (Elt F)),
    unary main_arg7 main_v122 ((extractStridedSlice S1x128 ![2, 0] · slices_S3x128_S1x128_2_0) : (⟨S3x128, .f32⟩ : BufTy).Contents (Elt F) → (⟨S1x128, .f32⟩ : BufTy).Contents (Elt F)),
    reshape main_v122 main_v123 rfl shapeCasts_S1x128_S128,
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S800000x128 ![0, 1] bcast_S1x128_S800000x128_0_1 : (⟨S1x128, .f32⟩ : BufTy).Contents (Elt F) → (⟨S800000x128, .f32⟩ : BufTy).Contents (Elt F)),
    binary main_v121 main_v125 main_v126 (addf : (⟨S800000x128, .f32⟩ : BufTy).Contents (Elt F) → (⟨S800000x128, .f32⟩ : BufTy).Contents (Elt F) → (⟨S800000x128, .f32⟩ : BufTy).Contents (Elt F)),
    nullary main_cst_16 (constant S_ .f32 0x00000000#32),
    unary main_cst_16 main_v127 (broadcastInDim S100000x128 ![] bcast_S_S100000x128 : (⟨S_, .f32⟩ : BufTy).Contents (Elt F) → (⟨S100000x128, .f32⟩ : BufTy).Contents (Elt F)),
    unary main_v3 main_v128 (broadcastInDim S800000x1 ![0] bcast_S800000_S800000x1_0 : (⟨S800000, .i32⟩ : BufTy).Contents (Elt F) → (⟨S800000x1, .i32⟩ : BufTy).Contents (Elt F)),
    ternary main_v127 main_v128 main_v126 main_v129 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_17 (constant S_ .f32 0x00000000#32),
    binary main_v129 main_cst_17 main_v130 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_18 (constant S_ .f32 0x47C35000#32),
    unary main_cst_18 main_v131 (broadcastInDim S128 ![] bcast_S_S128 : (⟨S_, .f32⟩ : BufTy).Contents (Elt F) → (⟨S128, .f32⟩ : BufTy).Contents (Elt F)),
    binary main_v130 main_v131 main_v132 (Host.divf : (⟨S128, .f32⟩ : BufTy).Contents (Elt F) → (⟨S128, .f32⟩ : BufTy).Contents (Elt F) → (⟨S128, .f32⟩ : BufTy).Contents (Elt F)),
    unary main_v132 main_v133 (broadcastInDim S1x128 ![1] bcast_S128_S1x128_1 : (⟨S128, .f32⟩ : BufTy).Contents (Elt F) → (⟨S1x128, .f32⟩ : BufTy).Contents (Elt F)),
    unary main_v133 main_v134 (broadcastInDim S100000x128 ![0, 1] bcast_S1x128_S100000x128_0_1 : (⟨S1x128, .f32⟩ : BufTy).Contents (Elt F) → (⟨S100000x128, .f32⟩ : BufTy).Contents (Elt F)) ]

/-- Operations 161 … 180. -/
abbrev chunk9 : List (HloOp τ sig (Elt F)) :=
  [ binary main_v129 main_v134 main_v135 (subf : (⟨S100000x128, .f32⟩ : BufTy).Contents (Elt F) → (⟨S100000x128, .f32⟩ : BufTy).Contents (Elt F) → (⟨S100000x128, .f32⟩ : BufTy).Contents (Elt F)),
    binary main_v135 main_v135 main_v136 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v136 main_cst_19 main_v137 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_20 (constant S_ .f32 0x47C35000#32),
    unary main_cst_20 main_v138 (broadcastInDim S128 ![] bcast_S_S128 : (⟨S_, .f32⟩ : BufTy).Contents (Elt F) → (⟨S128, .f32⟩ : BufTy).Contents (Elt F)),
    binary main_v137 main_v138 main_v139 (Host.divf : (⟨S128, .f32⟩ : BufTy).Contents (Elt F) → (⟨S128, .f32⟩ : BufTy).Contents (Elt F) → (⟨S128, .f32⟩ : BufTy).Contents (Elt F)),
    unary main_v132 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v129 main_v141 main_v142 (subf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v143 (broadcastInDim S128 ![] bcast_S_S128 : (⟨S_, .f32⟩ : BufTy).Contents (Elt F) → (⟨S128, .f32⟩ : BufTy).Contents (Elt F)),
    binary main_v139 main_v143 main_v144 (addf : (⟨S128, .f32⟩ : BufTy).Contents (Elt F) → (⟨S128, .f32⟩ : BufTy).Contents (Elt F) → (⟨S128, .f32⟩ : BufTy).Contents (Elt F)),
    unary main_v144 main_v145 (Host.rsqrt : (⟨S128, .f32⟩ : BufTy).Contents (Elt F) → (⟨S128, .f32⟩ : BufTy).Contents (Elt F)),
    unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v142 main_v147 main_v148 (mulf : (⟨S100000x128, .f32⟩ : BufTy).Contents (Elt F) → (⟨S100000x128, .f32⟩ : BufTy).Contents (Elt F) → (⟨S100000x128, .f32⟩ : BufTy).Contents (Elt F)),
    unary main_arg8 main_v149 ((extractStridedSlice S1x128 ![2, 0] · slices_S3x128_S1x128_2_0) : (⟨S3x128, .f32⟩ : BufTy).Contents (Elt F) → (⟨S1x128, .f32⟩ : BufTy).Contents (Elt F)),
    reshape main_v149 main_v150 rfl shapeCasts_S1x128_S128,
    unary main_v150 main_v151 (broadcastInDim S1x128 ![1] bcast_S128_S1x128_1 : (⟨S128, .f32⟩ : BufTy).Contents (Elt F) → (⟨S1x128, .f32⟩ : BufTy).Contents (Elt F)) ]

/-- Operations 181 … 200. -/
abbrev chunk10 : List (HloOp τ sig (Elt F)) :=
  [ unary main_v151 main_v152 (broadcastInDim S100000x128 ![0, 1] bcast_S1x128_S100000x128_0_1 : (⟨S1x128, .f32⟩ : BufTy).Contents (Elt F) → (⟨S100000x128, .f32⟩ : BufTy).Contents (Elt F)),
    binary main_v148 main_v152 main_v153 (mulf : (⟨S100000x128, .f32⟩ : BufTy).Contents (Elt F) → (⟨S100000x128, .f32⟩ : BufTy).Contents (Elt F) → (⟨S100000x128, .f32⟩ : BufTy).Contents (Elt F)),
    unary main_arg9 main_v154 ((extractStridedSlice S1x128 ![2, 0] · slices_S3x128_S1x128_2_0) : (⟨S3x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S100000x128 ![0, 1] bcast_S1x128_S100000x128_0_1 : (⟨S1x128, .f32⟩ : BufTy).Contents (Elt F) → (⟨S100000x128, .f32⟩ : BufTy).Contents (Elt F)),
    binary main_v153 main_v157 main_v158 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v158) (TRef.of (T := ⟨S100000x128, .f32⟩) main_call2_v0) (TRef.of (T := ⟨S100000x128, .f32⟩) main_v159) maximumf,
    nullary main_cst_22 (constant S_ .f32 0x00000000#32),
    unary main_cst_22 main_v160 (broadcastInDim S1024x128 ![] bcast_S_S1024x128 : (⟨S_, .f32⟩ : BufTy).Contents (Elt F) → (⟨S1024x128, .f32⟩ : BufTy).Contents (Elt F)),
    unary main_arg3 main_v161 (broadcastInDim S100000x1 ![0] bcast_S100000_S100000x1_0 : (⟨S100000, .i32⟩ : BufTy).Contents (Elt F) → (⟨S100000x1, .i32⟩ : BufTy).Contents (Elt F)),
    ternary main_v160 main_v161 main_v159 main_v162 ((fun x i u => Host.scatterAdd scatter_S1024x128_S100000x1_S100000x128_1_0_0_1 x i u) : (⟨S1024x128, .f32⟩ : BufTy).Contents (Elt F) → (⟨S100000x1, .i32⟩ : BufTy).Contents (Elt F) → (⟨S100000x128, .f32⟩ : BufTy).Contents (Elt F) → (⟨S1024x128, .f32⟩ : BufTy).Contents (Elt F)),
    binary main_v162 main_arg4 main_v163 ((fun a b => concatenate S1024x138 1 [⟨S1024x128, a⟩, ⟨S1024x10, b⟩] concatenates_S1024x128_S1024x10_S1024x138_d1) : (⟨S1024x128, .f32⟩ : BufTy).Contents (Elt F) → (⟨S1024x10, .f32⟩ : BufTy).Contents (Elt F) → (⟨S1024x138, .f32⟩ : BufTy).Contents (Elt F)),
    binary main_v163 main_arg10 main_v164 ((fun l r => Host.dotGeneral dot_S1024x138_S138x256_S1024x256_1_0_0_1_n_n none l r) : (⟨S1024x138, .f32⟩ : BufTy).Contents (Elt F) → (⟨S138x256, .f32⟩ : BufTy).Contents (Elt F) → (⟨S1024x256, .f32⟩ : BufTy).Contents (Elt F)),
    unary main_arg11 main_v165 (broadcastInDim S1x256 ![1] bcast_S256_S1x256_1 : (⟨S256, .f32⟩ : BufTy).Contents (Elt F) → (⟨S1x256, .f32⟩ : BufTy).Contents (Elt F)),
    unary main_v165 main_v166 (broadcastInDim S1024x256 ![0, 1] bcast_S1x256_S1024x256_0_1 : (⟨S1x256, .f32⟩ : BufTy).Contents (Elt F) → (⟨S1024x256, .f32⟩ : BufTy).Contents (Elt F)),
    binary main_v164 main_v166 main_v167 (addf : (⟨S1024x256, .f32⟩ : BufTy).Contents (Elt F) → (⟨S1024x256, .f32⟩ : BufTy).Contents (Elt F) → (⟨S1024x256, .f32⟩ : BufTy).Contents (Elt F)),
    TRef.nullary (TRef.of (T := ⟨S_, .f32⟩) main_call3_cst) (constant S_ .f32 0x00000000#32) ]

/-- Operations 201 … 220. -/
abbrev chunk11 : List (HloOp τ sig (Elt F)) :=
  [ TRef.unary (TRef.of (T := ⟨S_, .f32⟩) main_call3_cst) (TRef.of (T := ⟨S1024x256, .f32⟩) main_call3_v0) (broadcastInDim S1024x256 ![] bcast_S_S1024x256),
    TRef.binary (TRef.of (T := ⟨S1024x256, .f32⟩) main_v167) (TRef.of (T := ⟨S1024x256, .f32⟩) main_call3_v0) (TRef.of (T := ⟨S1024x256, .f32⟩) main_v168) maximumf,
    binary main_v168 main_arg12 main_v169 ((fun l r => Host.dotGeneral dot_S1024x256_S256x10_S1024x10_1_0_0_1_n_n none l r) : (⟨S1024x256, .f32⟩ : BufTy).Contents (Elt F) → (⟨S256x10, .f32⟩ : BufTy).Contents (Elt F) → (⟨S1024x10, .f32⟩ : BufTy).Contents (Elt F)),
    unary main_arg13 main_v170 (broadcastInDim S1x10 ![1] bcast_S10_S1x10_1 : (⟨S10, .f32⟩ : BufTy).Contents (Elt F) → (⟨S1x10, .f32⟩ : BufTy).Contents (Elt F)),
    unary main_v170 main_v171 (broadcastInDim S1024x10 ![0, 1] bcast_S1x10_S1024x10_0_1 : (⟨S1x10, .f32⟩ : BufTy).Contents (Elt F) → (⟨S1024x10, .f32⟩ : BufTy).Contents (Elt F)),
    binary main_v169 main_v171 main_v172 (addf : (⟨S1024x10, .f32⟩ : BufTy).Contents (Elt F) → (⟨S1024x10, .f32⟩ : BufTy).Contents (Elt F) → (⟨S1024x10, .f32⟩ : BufTy).Contents (Elt F)),
    nullary main_cst_23 (constant S_ .f32 0xFF800000#32),
    binary main_v172 main_cst_23 main_v173 ((fun x v => Host.reduce FloatOps.maximumf x v reducesTo_S1024x10_S1024_d1 h_S_) : (⟨S1024x10, .f32⟩ : BufTy).Contents (Elt F) → (⟨S_, .f32⟩ : BufTy).Contents (Elt F) → (⟨S1024, .f32⟩ : BufTy).Contents (Elt F)),
    nullary main_cst_24 (constant S_ .f32 0xFF800000#32),
    unary main_cst_24 main_v174 (broadcastInDim S1024 ![] bcast_S_S1024 : (⟨S_, .f32⟩ : BufTy).Contents (Elt F) → (⟨S1024, .f32⟩ : BufTy).Contents (Elt F)),
    binary main_v174 main_v173 main_v175 (maximumf : (⟨S1024, .f32⟩ : BufTy).Contents (Elt F) → (⟨S1024, .f32⟩ : BufTy).Contents (Elt F) → (⟨S1024, .f32⟩ : BufTy).Contents (Elt F)),
    unary main_v175 main_v176 (broadcastInDim S1024x1 ![0] bcast_S1024_S1024x1_0 : (⟨S1024, .f32⟩ : BufTy).Contents (Elt F) → (⟨S1024x1, .f32⟩ : BufTy).Contents (Elt F)),
    unary main_v176 main_v177 (broadcastInDim S1024x10 ![0, 1] bcast_S1024x1_S1024x10_0_1 : (⟨S1024x1, .f32⟩ : BufTy).Contents (Elt F) → (⟨S1024x10, .f32⟩ : BufTy).Contents (Elt F)),
    binary main_v172 main_v177 main_v178 (subf : (⟨S1024x10, .f32⟩ : BufTy).Contents (Elt F) → (⟨S1024x10, .f32⟩ : BufTy).Contents (Elt F) → (⟨S1024x10, .f32⟩ : BufTy).Contents (Elt F)),
    unary main_v178 main_v179 (Host.exp : (⟨S1024x10, .f32⟩ : BufTy).Contents (Elt F) → (⟨S1024x10, .f32⟩ : BufTy).Contents (Elt F)),
    nullary main_cst_25 (constant S_ .f32 0x00000000#32),
    binary main_v179 main_cst_25 main_v180 ((fun x v => Host.reduceAdd x v reducesTo_S1024x10_S1024_d1 h_S_) : (⟨S1024x10, .f32⟩ : BufTy).Contents (Elt F) → (⟨S_, .f32⟩ : BufTy).Contents (Elt F) → (⟨S1024, .f32⟩ : BufTy).Contents (Elt F)),
    unary main_v180 main_v181 (broadcastInDim S1024x1 ![0] bcast_S1024_S1024x1_0 : (⟨S1024, .f32⟩ : BufTy).Contents (Elt F) → (⟨S1024x1, .f32⟩ : BufTy).Contents (Elt F)),
    unary main_v181 main_v182 (broadcastInDim S1024x10 ![0, 1] bcast_S1024x1_S1024x10_0_1 : (⟨S1024x1, .f32⟩ : BufTy).Contents (Elt F) → (⟨S1024x10, .f32⟩ : BufTy).Contents (Elt F)),
    binary main_v179 main_v182 main_v183 (Host.divf : (⟨S1024x10, .f32⟩ : BufTy).Contents (Elt F) → (⟨S1024x10, .f32⟩ : BufTy).Contents (Elt F) → (⟨S1024x10, .f32⟩ : BufTy).Contents (Elt F)) ]

set_option maxRecDepth 65536 in
set_option maxHeartbeats 4000000 in
/-- The line is its chunks in order. -/
theorem ops_eq : (ops : List (HloOp τ sig (Elt F))) = chunk1 ++ (chunk2 ++ (chunk3 ++ (chunk4 ++ (chunk5 ++ (chunk6 ++ (chunk7 ++ (chunk8 ++ (chunk9 ++ (chunk10 ++ (chunk11)))))))))) := rfl

/-! ## Each chunk, from any contents -/

section Chunks
variable (W : Valuation τ sig (Elt F))

/-! ### Chunk 1 -/

set_option maxHeartbeats 8000000 in
theorem st1_v3 (x1 : (⟨S2x800000, .i32⟩ : BufTy).Contents (Elt F))
    (h_arg1 : W (Proc.devRef .tc main_arg1) = x1) :
    StableHlo.after (chunk1 (F := F)) W (Proc.devRef .tc main_v3) = val_main_v3 (F := F) x1 := by
  after_results
  rw [h_arg1]
  rfl
set_option maxHeartbeats 8000000 in
theorem st1_v1 (x1 : (⟨S2x800000, .i32⟩ : BufTy).Contents (Elt F))
    (h_arg1 : W (Proc.devRef .tc main_arg1) = x1) :
    StableHlo.after (chunk1 (F := F)) W (Proc.devRef .tc main_v1) = val_main_v1 (F := F) x1 := by
  after_results
  rw [h_arg1]
  rfl
set_option maxHeartbeats 8000000 in
theorem st1_v17 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F))
    (h_arg0 : W (Proc.devRef .tc main_arg0) = x0) (h_arg1 : W (Proc.devRef .tc main_arg1) = x1) (h_arg5 : W (Proc.devRef .tc main_arg5) = x5) (h_arg2 : W (Proc.devRef .tc main_arg2) = x2) (h_arg6 : W (Proc.devRef .tc main_arg6) = x6) :
    StableHlo.after (chunk1 (F := F)) W (Proc.devRef .tc main_v17) = val_main_v17 (F := F) x0 x1 x2 x5 x6 := by
  after_results
  rw [h_arg0, h_arg1, h_arg5, h_arg2, h_arg6]
  rfl
theorem cy1_arg12 : StableHlo.after (chunk1 (F := F)) W (Proc.devRef .tc main_arg12) = W (Proc.devRef .tc main_arg12) := by
  after_results
theorem cy1_arg13 : StableHlo.after (chunk1 (F := F)) W (Proc.devRef .tc main_arg13) = W (Proc.devRef .tc main_arg13) := by
  after_results
theorem cy1_arg3 : StableHlo.after (chunk1 (F := F)) W (Proc.devRef .tc main_arg3) = W (Proc.devRef .tc main_arg3) := by
  after_results
theorem cy1_arg9 : StableHlo.after (chunk1 (F := F)) W (Proc.devRef .tc main_arg9) = W (Proc.devRef .tc main_arg9) := by
  after_results
theorem cy1_arg4 : StableHlo.after (chunk1 (F := F)) W (Proc.devRef .tc main_arg4) = W (Proc.devRef .tc main_arg4) := by
  after_results
theorem cy1_arg10 : StableHlo.after (chunk1 (F := F)) W (Proc.devRef .tc main_arg10) = W (Proc.devRef .tc main_arg10) := by
  after_results
theorem cy1_arg11 : StableHlo.after (chunk1 (F := F)) W (Proc.devRef .tc main_arg11) = W (Proc.devRef .tc main_arg11) := by
  after_results
theorem cy1_arg8 : StableHlo.after (chunk1 (F := F)) W (Proc.devRef .tc main_arg8) = W (Proc.devRef .tc main_arg8) := by
  after_results
theorem cy1_arg2 : StableHlo.after (chunk1 (F := F)) W (Proc.devRef .tc main_arg2) = W (Proc.devRef .tc main_arg2) := by
  after_results
theorem cy1_arg6 : StableHlo.after (chunk1 (F := F)) W (Proc.devRef .tc main_arg6) = W (Proc.devRef .tc main_arg6) := by
  after_results
theorem cy1_arg7 : StableHlo.after (chunk1 (F := F)) W (Proc.devRef .tc main_arg7) = W (Proc.devRef .tc main_arg7) := by
  after_results
theorem cy1_arg5 : StableHlo.after (chunk1 (F := F)) W (Proc.devRef .tc main_arg5) = W (Proc.devRef .tc main_arg5) := by
  after_results

/-! ### Chunk 2 -/

set_option maxHeartbeats 8000000 in
theorem st2_v25 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F))
    (h_v3 : W (Proc.devRef .tc main_v3) = val_main_v3 (F := F) x1) (h_v17 : W (Proc.devRef .tc main_v17) = val_main_v17 (F := F) x0 x1 x2 x5 x6) (h_arg7 : W (Proc.devRef .tc main_arg7) = x7) :
    StableHlo.after (chunk2 (F := F)) W (Proc.devRef .tc main_v25) = val_main_v25 (F := F) x0 x1 x2 x5 x6 x7 := by
  after_results
  rw [h_v3, h_v17, h_arg7]
  rfl
set_option maxHeartbeats 8000000 in
theorem st2_v28 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F))
    (h_v3 : W (Proc.devRef .tc main_v3) = val_main_v3 (F := F) x1) (h_v17 : W (Proc.devRef .tc main_v17) = val_main_v17 (F := F) x0 x1 x2 x5 x6) (h_arg7 : W (Proc.devRef .tc main_arg7) = x7) :
    StableHlo.after (chunk2 (F := F)) W (Proc.devRef .tc main_v28) = val_main_v28 (F := F) x0 x1 x2 x5 x6 x7 := by
  after_results
  rw [h_v3, h_v17, h_arg7]
  rfl
set_option maxHeartbeats 8000000 in
theorem st2_v33 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F))
    (h_v3 : W (Proc.devRef .tc main_v3) = val_main_v3 (F := F) x1) (h_v17 : W (Proc.devRef .tc main_v17) = val_main_v17 (F := F) x0 x1 x2 x5 x6) (h_arg7 : W (Proc.devRef .tc main_arg7) = x7) :
    StableHlo.after (chunk2 (F := F)) W (Proc.devRef .tc main_v33) = val_main_v33 (F := F) x0 x1 x2 x5 x6 x7 := by
  after_results
  rw [h_v3, h_v17, h_arg7]
  rfl
theorem cy2_arg12 : StableHlo.after (chunk2 (F := F)) W (Proc.devRef .tc main_arg12) = W (Proc.devRef .tc main_arg12) := by
  after_results
theorem cy2_arg13 : StableHlo.after (chunk2 (F := F)) W (Proc.devRef .tc main_arg13) = W (Proc.devRef .tc main_arg13) := by
  after_results
theorem cy2_arg3 : StableHlo.after (chunk2 (F := F)) W (Proc.devRef .tc main_arg3) = W (Proc.devRef .tc main_arg3) := by
  after_results
theorem cy2_arg9 : StableHlo.after (chunk2 (F := F)) W (Proc.devRef .tc main_arg9) = W (Proc.devRef .tc main_arg9) := by
  after_results
theorem cy2_arg4 : StableHlo.after (chunk2 (F := F)) W (Proc.devRef .tc main_arg4) = W (Proc.devRef .tc main_arg4) := by
  after_results
theorem cy2_arg10 : StableHlo.after (chunk2 (F := F)) W (Proc.devRef .tc main_arg10) = W (Proc.devRef .tc main_arg10) := by
  after_results
theorem cy2_arg11 : StableHlo.after (chunk2 (F := F)) W (Proc.devRef .tc main_arg11) = W (Proc.devRef .tc main_arg11) := by
  after_results
theorem cy2_arg8 : StableHlo.after (chunk2 (F := F)) W (Proc.devRef .tc main_arg8) = W (Proc.devRef .tc main_arg8) := by
  after_results
theorem cy2_v3 : StableHlo.after (chunk2 (F := F)) W (Proc.devRef .tc main_v3) = W (Proc.devRef .tc main_v3) := by
  after_results
theorem cy2_arg2 : StableHlo.after (chunk2 (F := F)) W (Proc.devRef .tc main_arg2) = W (Proc.devRef .tc main_arg2) := by
  after_results
theorem cy2_arg6 : StableHlo.after (chunk2 (F := F)) W (Proc.devRef .tc main_arg6) = W (Proc.devRef .tc main_arg6) := by
  after_results
theorem cy2_arg7 : StableHlo.after (chunk2 (F := F)) W (Proc.devRef .tc main_arg7) = W (Proc.devRef .tc main_arg7) := by
  after_results
theorem cy2_v1 : StableHlo.after (chunk2 (F := F)) W (Proc.devRef .tc main_v1) = W (Proc.devRef .tc main_v1) := by
  after_results
theorem cy2_arg5 : StableHlo.after (chunk2 (F := F)) W (Proc.devRef .tc main_arg5) = W (Proc.devRef .tc main_arg5) := by
  after_results

/-! ### Chunk 3 -/

set_option maxHeartbeats 8000000 in
theorem st3_v49 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F))
    (h_v25 : W (Proc.devRef .tc main_v25) = val_main_v25 (F := F) x0 x1 x2 x5 x6 x7) (h_v28 : W (Proc.devRef .tc main_v28) = val_main_v28 (F := F) x0 x1 x2 x5 x6 x7) (h_v33 : W (Proc.devRef .tc main_v33) = val_main_v33 (F := F) x0 x1 x2 x5 x6 x7) (h_arg8 : W (Proc.devRef .tc main_arg8) = x8) :
    StableHlo.after (chunk3 (F := F)) W (Proc.devRef .tc main_v49) = val_main_v49 (F := F) x0 x1 x2 x5 x6 x7 x8 := by
  after_results
  rw [h_v25, h_v28, h_v33, h_arg8]
  rfl
set_option maxHeartbeats 8000000 in
theorem st3_v51 (x9 : (⟨S3x128, .f32⟩ : BufTy).Contents (Elt F))
    (h_arg9 : W (Proc.devRef .tc main_arg9) = x9) :
    StableHlo.after (chunk3 (F := F)) W (Proc.devRef .tc main_v51) = val_main_v51 (F := F) x9 := by
  after_results
  rw [h_arg9]
  rfl
theorem cy3_arg12 : StableHlo.after (chunk3 (F := F)) W (Proc.devRef .tc main_arg12) = W (Proc.devRef .tc main_arg12) := by
  after_results
theorem cy3_arg13 : StableHlo.after (chunk3 (F := F)) W (Proc.devRef .tc main_arg13) = W (Proc.devRef .tc main_arg13) := by
  after_results
theorem cy3_arg3 : StableHlo.after (chunk3 (F := F)) W (Proc.devRef .tc main_arg3) = W (Proc.devRef .tc main_arg3) := by
  after_results
theorem cy3_arg9 : StableHlo.after (chunk3 (F := F)) W (Proc.devRef .tc main_arg9) = W (Proc.devRef .tc main_arg9) := by
  after_results
theorem cy3_arg4 : StableHlo.after (chunk3 (F := F)) W (Proc.devRef .tc main_arg4) = W (Proc.devRef .tc main_arg4) := by
  after_results
theorem cy3_arg10 : StableHlo.after (chunk3 (F := F)) W (Proc.devRef .tc main_arg10) = W (Proc.devRef .tc main_arg10) := by
  after_results
theorem cy3_arg11 : StableHlo.after (chunk3 (F := F)) W (Proc.devRef .tc main_arg11) = W (Proc.devRef .tc main_arg11) := by
  after_results
theorem cy3_arg8 : StableHlo.after (chunk3 (F := F)) W (Proc.devRef .tc main_arg8) = W (Proc.devRef .tc main_arg8) := by
  after_results
theorem cy3_v3 : StableHlo.after (chunk3 (F := F)) W (Proc.devRef .tc main_v3) = W (Proc.devRef .tc main_v3) := by
  after_results
theorem cy3_arg2 : StableHlo.after (chunk3 (F := F)) W (Proc.devRef .tc main_arg2) = W (Proc.devRef .tc main_arg2) := by
  after_results
theorem cy3_arg6 : StableHlo.after (chunk3 (F := F)) W (Proc.devRef .tc main_arg6) = W (Proc.devRef .tc main_arg6) := by
  after_results
theorem cy3_arg7 : StableHlo.after (chunk3 (F := F)) W (Proc.devRef .tc main_arg7) = W (Proc.devRef .tc main_arg7) := by
  after_results
theorem cy3_v1 : StableHlo.after (chunk3 (F := F)) W (Proc.devRef .tc main_v1) = W (Proc.devRef .tc main_v1) := by
  after_results
theorem cy3_arg5 : StableHlo.after (chunk3 (F := F)) W (Proc.devRef .tc main_arg5) = W (Proc.devRef .tc main_arg5) := by
  after_results

/-! ### Chunk 4 -/

set_option maxHeartbeats 8000000 in
theorem st4_v65 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v49 : W (Proc.devRef .tc main_v49) = val_main_v49 (F := F) x0 x1 x2 x5 x6 x7 x8) (h_v51 : W (Proc.devRef .tc main_v51) = val_main_v51 (F := F) x9) (h_v1 : W (Proc.devRef .tc main_v1) = val_main_v1 (F := F) x1) (h_arg5 : W (Proc.devRef .tc main_arg5) = x5) :
    StableHlo.after (chunk4 (F := F)) W (Proc.devRef .tc main_v65) = val_main_v65 (F := F) x0 x1 x2 x5 x6 x7 x8 x9 := by
  after_results
  rw [h_v49, h_v51, h_v1, h_arg5]
  rfl
set_option maxHeartbeats 8000000 in
theorem st4_v67 (x6 : (⟨S3x16x128, .f32⟩ : BufTy).Contents (Elt F))
    (h_arg6 : W (Proc.devRef .tc main_arg6) = x6) :
    StableHlo.after (chunk4 (F := F)) W (Proc.devRef .tc main_v67) = val_main_v67 (F := F) x6 := by
  after_results
  rw [h_arg6]
  rfl
theorem cy4_arg12 : StableHlo.after (chunk4 (F := F)) W (Proc.devRef .tc main_arg12) = W (Proc.devRef .tc main_arg12) := by
  after_results
theorem cy4_arg13 : StableHlo.after (chunk4 (F := F)) W (Proc.devRef .tc main_arg13) = W (Proc.devRef .tc main_arg13) := by
  after_results
theorem cy4_arg3 : StableHlo.after (chunk4 (F := F)) W (Proc.devRef .tc main_arg3) = W (Proc.devRef .tc main_arg3) := by
  after_results
theorem cy4_arg9 : StableHlo.after (chunk4 (F := F)) W (Proc.devRef .tc main_arg9) = W (Proc.devRef .tc main_arg9) := by
  after_results
theorem cy4_arg4 : StableHlo.after (chunk4 (F := F)) W (Proc.devRef .tc main_arg4) = W (Proc.devRef .tc main_arg4) := by
  after_results
theorem cy4_arg10 : StableHlo.after (chunk4 (F := F)) W (Proc.devRef .tc main_arg10) = W (Proc.devRef .tc main_arg10) := by
  after_results
theorem cy4_arg11 : StableHlo.after (chunk4 (F := F)) W (Proc.devRef .tc main_arg11) = W (Proc.devRef .tc main_arg11) := by
  after_results
theorem cy4_arg8 : StableHlo.after (chunk4 (F := F)) W (Proc.devRef .tc main_arg8) = W (Proc.devRef .tc main_arg8) := by
  after_results
theorem cy4_v3 : StableHlo.after (chunk4 (F := F)) W (Proc.devRef .tc main_v3) = W (Proc.devRef .tc main_v3) := by
  after_results
theorem cy4_arg2 : StableHlo.after (chunk4 (F := F)) W (Proc.devRef .tc main_arg2) = W (Proc.devRef .tc main_arg2) := by
  after_results
theorem cy4_arg6 : StableHlo.after (chunk4 (F := F)) W (Proc.devRef .tc main_arg6) = W (Proc.devRef .tc main_arg6) := by
  after_results
theorem cy4_arg7 : StableHlo.after (chunk4 (F := F)) W (Proc.devRef .tc main_arg7) = W (Proc.devRef .tc main_arg7) := by
  after_results
theorem cy4_v1 : StableHlo.after (chunk4 (F := F)) W (Proc.devRef .tc main_v1) = W (Proc.devRef .tc main_v1) := by
  after_results
theorem cy4_arg5 : StableHlo.after (chunk4 (F := F)) W (Proc.devRef .tc main_arg5) = W (Proc.devRef .tc main_arg5) := by
  after_results

/-! ### Chunk 5 -/

set_option maxHeartbeats 8000000 in
theorem st5_v77 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v3 : W (Proc.devRef .tc main_v3) = val_main_v3 (F := F) x1) (h_v65 : W (Proc.devRef .tc main_v65) = val_main_v65 (F := F) x0 x1 x2 x5 x6 x7 x8 x9) (h_arg2 : W (Proc.devRef .tc main_arg2) = x2) (h_v67 : W (Proc.devRef .tc main_v67) = val_main_v67 (F := F) x6) (h_arg7 : W (Proc.devRef .tc main_arg7) = x7) :
    StableHlo.after (chunk5 (F := F)) W (Proc.devRef .tc main_v77) = val_main_v77 (F := F) x0 x1 x2 x5 x6 x7 x8 x9 := by
  after_results
  rw [h_v3, h_v65, h_arg2, h_v67, h_arg7]
  rfl
set_option maxHeartbeats 8000000 in
theorem st5_v80 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v3 : W (Proc.devRef .tc main_v3) = val_main_v3 (F := F) x1) (h_v65 : W (Proc.devRef .tc main_v65) = val_main_v65 (F := F) x0 x1 x2 x5 x6 x7 x8 x9) (h_arg2 : W (Proc.devRef .tc main_arg2) = x2) (h_v67 : W (Proc.devRef .tc main_v67) = val_main_v67 (F := F) x6) (h_arg7 : W (Proc.devRef .tc main_arg7) = x7) :
    StableHlo.after (chunk5 (F := F)) W (Proc.devRef .tc main_v80) = val_main_v80 (F := F) x0 x1 x2 x5 x6 x7 x8 x9 := by
  after_results
  rw [h_v3, h_v65, h_arg2, h_v67, h_arg7]
  rfl
set_option maxHeartbeats 8000000 in
theorem st5_v84 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v3 : W (Proc.devRef .tc main_v3) = val_main_v3 (F := F) x1) (h_v65 : W (Proc.devRef .tc main_v65) = val_main_v65 (F := F) x0 x1 x2 x5 x6 x7 x8 x9) (h_arg2 : W (Proc.devRef .tc main_arg2) = x2) (h_v67 : W (Proc.devRef .tc main_v67) = val_main_v67 (F := F) x6) (h_arg7 : W (Proc.devRef .tc main_arg7) = x7) :
    StableHlo.after (chunk5 (F := F)) W (Proc.devRef .tc main_v84) = val_main_v84 (F := F) x0 x1 x2 x5 x6 x7 x8 x9 := by
  after_results
  rw [h_v3, h_v65, h_arg2, h_v67, h_arg7]
  rfl
theorem cy5_arg12 : StableHlo.after (chunk5 (F := F)) W (Proc.devRef .tc main_arg12) = W (Proc.devRef .tc main_arg12) := by
  after_results
theorem cy5_arg13 : StableHlo.after (chunk5 (F := F)) W (Proc.devRef .tc main_arg13) = W (Proc.devRef .tc main_arg13) := by
  after_results
theorem cy5_arg3 : StableHlo.after (chunk5 (F := F)) W (Proc.devRef .tc main_arg3) = W (Proc.devRef .tc main_arg3) := by
  after_results
theorem cy5_arg9 : StableHlo.after (chunk5 (F := F)) W (Proc.devRef .tc main_arg9) = W (Proc.devRef .tc main_arg9) := by
  after_results
theorem cy5_arg4 : StableHlo.after (chunk5 (F := F)) W (Proc.devRef .tc main_arg4) = W (Proc.devRef .tc main_arg4) := by
  after_results
theorem cy5_arg10 : StableHlo.after (chunk5 (F := F)) W (Proc.devRef .tc main_arg10) = W (Proc.devRef .tc main_arg10) := by
  after_results
theorem cy5_arg11 : StableHlo.after (chunk5 (F := F)) W (Proc.devRef .tc main_arg11) = W (Proc.devRef .tc main_arg11) := by
  after_results
theorem cy5_arg8 : StableHlo.after (chunk5 (F := F)) W (Proc.devRef .tc main_arg8) = W (Proc.devRef .tc main_arg8) := by
  after_results
theorem cy5_v3 : StableHlo.after (chunk5 (F := F)) W (Proc.devRef .tc main_v3) = W (Proc.devRef .tc main_v3) := by
  after_results
theorem cy5_arg2 : StableHlo.after (chunk5 (F := F)) W (Proc.devRef .tc main_arg2) = W (Proc.devRef .tc main_arg2) := by
  after_results
theorem cy5_arg6 : StableHlo.after (chunk5 (F := F)) W (Proc.devRef .tc main_arg6) = W (Proc.devRef .tc main_arg6) := by
  after_results
theorem cy5_arg7 : StableHlo.after (chunk5 (F := F)) W (Proc.devRef .tc main_arg7) = W (Proc.devRef .tc main_arg7) := by
  after_results
theorem cy5_v1 : StableHlo.after (chunk5 (F := F)) W (Proc.devRef .tc main_v1) = W (Proc.devRef .tc main_v1) := by
  after_results
theorem cy5_arg5 : StableHlo.after (chunk5 (F := F)) W (Proc.devRef .tc main_arg5) = W (Proc.devRef .tc main_arg5) := by
  after_results

/-! ### Chunk 6 -/

set_option maxHeartbeats 8000000 in
theorem st6_v101 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v77 : W (Proc.devRef .tc main_v77) = val_main_v77 (F := F) x0 x1 x2 x5 x6 x7 x8 x9) (h_v80 : W (Proc.devRef .tc main_v80) = val_main_v80 (F := F) x0 x1 x2 x5 x6 x7 x8 x9) (h_v84 : W (Proc.devRef .tc main_v84) = val_main_v84 (F := F) x0 x1 x2 x5 x6 x7 x8 x9) (h_arg8 : W (Proc.devRef .tc main_arg8) = x8) :
    StableHlo.after (chunk6 (F := F)) W (Proc.devRef .tc main_v101) = val_main_v101 (F := F) x0 x1 x2 x5 x6 x7 x8 x9 := by
  after_results
  rw [h_v77, h_v80, h_v84, h_arg8]
  rfl
theorem cy6_arg12 : StableHlo.after (chunk6 (F := F)) W (Proc.devRef .tc main_arg12) = W (Proc.devRef .tc main_arg12) := by
  after_results
theorem cy6_arg13 : StableHlo.after (chunk6 (F := F)) W (Proc.devRef .tc main_arg13) = W (Proc.devRef .tc main_arg13) := by
  after_results
theorem cy6_arg3 : StableHlo.after (chunk6 (F := F)) W (Proc.devRef .tc main_arg3) = W (Proc.devRef .tc main_arg3) := by
  after_results
theorem cy6_arg9 : StableHlo.after (chunk6 (F := F)) W (Proc.devRef .tc main_arg9) = W (Proc.devRef .tc main_arg9) := by
  after_results
theorem cy6_arg4 : StableHlo.after (chunk6 (F := F)) W (Proc.devRef .tc main_arg4) = W (Proc.devRef .tc main_arg4) := by
  after_results
theorem cy6_arg10 : StableHlo.after (chunk6 (F := F)) W (Proc.devRef .tc main_arg10) = W (Proc.devRef .tc main_arg10) := by
  after_results
theorem cy6_arg11 : StableHlo.after (chunk6 (F := F)) W (Proc.devRef .tc main_arg11) = W (Proc.devRef .tc main_arg11) := by
  after_results
theorem cy6_arg8 : StableHlo.after (chunk6 (F := F)) W (Proc.devRef .tc main_arg8) = W (Proc.devRef .tc main_arg8) := by
  after_results
theorem cy6_v3 : StableHlo.after (chunk6 (F := F)) W (Proc.devRef .tc main_v3) = W (Proc.devRef .tc main_v3) := by
  after_results
theorem cy6_arg2 : StableHlo.after (chunk6 (F := F)) W (Proc.devRef .tc main_arg2) = W (Proc.devRef .tc main_arg2) := by
  after_results
theorem cy6_arg6 : StableHlo.after (chunk6 (F := F)) W (Proc.devRef .tc main_arg6) = W (Proc.devRef .tc main_arg6) := by
  after_results
theorem cy6_arg7 : StableHlo.after (chunk6 (F := F)) W (Proc.devRef .tc main_arg7) = W (Proc.devRef .tc main_arg7) := by
  after_results
theorem cy6_v1 : StableHlo.after (chunk6 (F := F)) W (Proc.devRef .tc main_v1) = W (Proc.devRef .tc main_v1) := by
  after_results
theorem cy6_arg5 : StableHlo.after (chunk6 (F := F)) W (Proc.devRef .tc main_arg5) = W (Proc.devRef .tc main_arg5) := by
  after_results

/-! ### Chunk 7 -/

set_option maxHeartbeats 8000000 in
theorem st7_v117 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v101 : W (Proc.devRef .tc main_v101) = val_main_v101 (F := F) x0 x1 x2 x5 x6 x7 x8 x9) (h_arg9 : W (Proc.devRef .tc main_arg9) = x9) (h_v1 : W (Proc.devRef .tc main_v1) = val_main_v1 (F := F) x1) (h_arg5 : W (Proc.devRef .tc main_arg5) = x5) :
    StableHlo.after (chunk7 (F := F)) W (Proc.devRef .tc main_v117) = val_main_v117 (F := F) x0 x1 x2 x5 x6 x7 x8 x9 := by
  after_results
  rw [h_v101, h_arg9, h_v1, h_arg5]
  rfl
theorem cy7_arg12 : StableHlo.after (chunk7 (F := F)) W (Proc.devRef .tc main_arg12) = W (Proc.devRef .tc main_arg12) := by
  after_results
theorem cy7_arg13 : StableHlo.after (chunk7 (F := F)) W (Proc.devRef .tc main_arg13) = W (Proc.devRef .tc main_arg13) := by
  after_results
theorem cy7_arg3 : StableHlo.after (chunk7 (F := F)) W (Proc.devRef .tc main_arg3) = W (Proc.devRef .tc main_arg3) := by
  after_results
theorem cy7_arg9 : StableHlo.after (chunk7 (F := F)) W (Proc.devRef .tc main_arg9) = W (Proc.devRef .tc main_arg9) := by
  after_results
theorem cy7_arg4 : StableHlo.after (chunk7 (F := F)) W (Proc.devRef .tc main_arg4) = W (Proc.devRef .tc main_arg4) := by
  after_results
theorem cy7_arg10 : StableHlo.after (chunk7 (F := F)) W (Proc.devRef .tc main_arg10) = W (Proc.devRef .tc main_arg10) := by
  after_results
theorem cy7_arg11 : StableHlo.after (chunk7 (F := F)) W (Proc.devRef .tc main_arg11) = W (Proc.devRef .tc main_arg11) := by
  after_results
theorem cy7_arg8 : StableHlo.after (chunk7 (F := F)) W (Proc.devRef .tc main_arg8) = W (Proc.devRef .tc main_arg8) := by
  after_results
theorem cy7_v3 : StableHlo.after (chunk7 (F := F)) W (Proc.devRef .tc main_v3) = W (Proc.devRef .tc main_v3) := by
  after_results
theorem cy7_arg2 : StableHlo.after (chunk7 (F := F)) W (Proc.devRef .tc main_arg2) = W (Proc.devRef .tc main_arg2) := by
  after_results
theorem cy7_arg6 : StableHlo.after (chunk7 (F := F)) W (Proc.devRef .tc main_arg6) = W (Proc.devRef .tc main_arg6) := by
  after_results
theorem cy7_arg7 : StableHlo.after (chunk7 (F := F)) W (Proc.devRef .tc main_arg7) = W (Proc.devRef .tc main_arg7) := by
  after_results

/-! ### Chunk 8 -/

set_option maxHeartbeats 8000000 in
theorem st8_v129 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v3 : W (Proc.devRef .tc main_v3) = val_main_v3 (F := F) x1) (h_v117 : W (Proc.devRef .tc main_v117) = val_main_v117 (F := F) x0 x1 x2 x5 x6 x7 x8 x9) (h_arg2 : W (Proc.devRef .tc main_arg2) = x2) (h_arg6 : W (Proc.devRef .tc main_arg6) = x6) (h_arg7 : W (Proc.devRef .tc main_arg7) = x7) :
    StableHlo.after (chunk8 (F := F)) W (Proc.devRef .tc main_v129) = val_main_v129 (F := F) x0 x1 x2 x5 x6 x7 x8 x9 := by
  after_results
  rw [h_v3, h_v117, h_arg2, h_arg6, h_arg7]
  rfl
set_option maxHeartbeats 8000000 in
theorem st8_v132 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v3 : W (Proc.devRef .tc main_v3) = val_main_v3 (F := F) x1) (h_v117 : W (Proc.devRef .tc main_v117) = val_main_v117 (F := F) x0 x1 x2 x5 x6 x7 x8 x9) (h_arg2 : W (Proc.devRef .tc main_arg2) = x2) (h_arg6 : W (Proc.devRef .tc main_arg6) = x6) (h_arg7 : W (Proc.devRef .tc main_arg7) = x7) :
    StableHlo.after (chunk8 (F := F)) W (Proc.devRef .tc main_v132) = val_main_v132 (F := F) x0 x1 x2 x5 x6 x7 x8 x9 := by
  after_results
  rw [h_v3, h_v117, h_arg2, h_arg6, h_arg7]
  rfl
set_option maxHeartbeats 8000000 in
theorem st8_v134 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v3 : W (Proc.devRef .tc main_v3) = val_main_v3 (F := F) x1) (h_v117 : W (Proc.devRef .tc main_v117) = val_main_v117 (F := F) x0 x1 x2 x5 x6 x7 x8 x9) (h_arg2 : W (Proc.devRef .tc main_arg2) = x2) (h_arg6 : W (Proc.devRef .tc main_arg6) = x6) (h_arg7 : W (Proc.devRef .tc main_arg7) = x7) :
    StableHlo.after (chunk8 (F := F)) W (Proc.devRef .tc main_v134) = val_main_v134 (F := F) x0 x1 x2 x5 x6 x7 x8 x9 := by
  after_results
  rw [h_v3, h_v117, h_arg2, h_arg6, h_arg7]
  rfl
theorem cy8_arg12 : StableHlo.after (chunk8 (F := F)) W (Proc.devRef .tc main_arg12) = W (Proc.devRef .tc main_arg12) := by
  after_results
theorem cy8_arg13 : StableHlo.after (chunk8 (F := F)) W (Proc.devRef .tc main_arg13) = W (Proc.devRef .tc main_arg13) := by
  after_results
theorem cy8_arg3 : StableHlo.after (chunk8 (F := F)) W (Proc.devRef .tc main_arg3) = W (Proc.devRef .tc main_arg3) := by
  after_results
theorem cy8_arg9 : StableHlo.after (chunk8 (F := F)) W (Proc.devRef .tc main_arg9) = W (Proc.devRef .tc main_arg9) := by
  after_results
theorem cy8_arg4 : StableHlo.after (chunk8 (F := F)) W (Proc.devRef .tc main_arg4) = W (Proc.devRef .tc main_arg4) := by
  after_results
theorem cy8_arg10 : StableHlo.after (chunk8 (F := F)) W (Proc.devRef .tc main_arg10) = W (Proc.devRef .tc main_arg10) := by
  after_results
theorem cy8_arg11 : StableHlo.after (chunk8 (F := F)) W (Proc.devRef .tc main_arg11) = W (Proc.devRef .tc main_arg11) := by
  after_results
theorem cy8_arg8 : StableHlo.after (chunk8 (F := F)) W (Proc.devRef .tc main_arg8) = W (Proc.devRef .tc main_arg8) := by
  after_results

/-! ### Chunk 9 -/

set_option maxHeartbeats 8000000 in
theorem st9_v148 (x0 : (⟨S100000x128, .f32⟩ : BufTy).Contents (Elt F)) (x1 : (⟨S2x800000, .i32⟩ : BufTy).Contents (Elt F)) (x2 : (⟨S800000x16, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F))
    (h_v129 : W (Proc.devRef .tc main_v129) = val_main_v129 (F := F) x0 x1 x2 x5 x6 x7 x8 x9) (h_v132 : W (Proc.devRef .tc main_v132) = val_main_v132 (F := F) x0 x1 x2 x5 x6 x7 x8 x9) (h_v134 : W (Proc.devRef .tc main_v134) = val_main_v134 (F := F) x0 x1 x2 x5 x6 x7 x8 x9) :
    StableHlo.after (chunk9 (F := F)) W (Proc.devRef .tc main_v148) = val_main_v148 (F := F) x0 x1 x2 x5 x6 x7 x8 x9 := by
  after_results
  rw [h_v129, h_v132, h_v134]
  rfl
set_option maxHeartbeats 8000000 in
theorem st9_v151 (x8 : (⟨S3x128, .f32⟩ : BufTy).Contents (Elt F))
    (h_arg8 : W (Proc.devRef .tc main_arg8) = x8) :
    StableHlo.after (chunk9 (F := F)) W (Proc.devRef .tc main_v151) = val_main_v151 (F := F) x8 := by
  after_results
  rw [h_arg8]
  rfl
theorem cy9_arg12 : StableHlo.after (chunk9 (F := F)) W (Proc.devRef .tc main_arg12) = W (Proc.devRef .tc main_arg12) := by
  after_results
theorem cy9_arg13 : StableHlo.after (chunk9 (F := F)) W (Proc.devRef .tc main_arg13) = W (Proc.devRef .tc main_arg13) := by
  after_results
theorem cy9_arg3 : StableHlo.after (chunk9 (F := F)) W (Proc.devRef .tc main_arg3) = W (Proc.devRef .tc main_arg3) := by
  after_results
theorem cy9_arg9 : StableHlo.after (chunk9 (F := F)) W (Proc.devRef .tc main_arg9) = W (Proc.devRef .tc main_arg9) := by
  after_results
theorem cy9_arg4 : StableHlo.after (chunk9 (F := F)) W (Proc.devRef .tc main_arg4) = W (Proc.devRef .tc main_arg4) := by
  after_results
theorem cy9_arg10 : StableHlo.after (chunk9 (F := F)) W (Proc.devRef .tc main_arg10) = W (Proc.devRef .tc main_arg10) := by
  after_results
theorem cy9_arg11 : StableHlo.after (chunk9 (F := F)) W (Proc.devRef .tc main_arg11) = W (Proc.devRef .tc main_arg11) := by
  after_results

/-! ### Chunk 10 -/

set_option maxHeartbeats 8000000 in
theorem st10_v167 (x0 : (⟨S100000x128, .f32⟩ : BufTy).Contents (Elt F)) (x1 : (⟨S2x800000, .i32⟩ : BufTy).Contents (Elt F)) (x2 : (⟨S800000x16, .f32⟩ : BufTy).Contents (Elt F)) (x3 : (⟨S100000, .i32⟩ : BufTy).Contents (Elt F)) (x4 : (⟨S1024x10, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F)) (x10 : (⟨S138x256, .f32⟩ : BufTy).Contents (Elt F)) (x11 : (⟨S256, .f32⟩ : BufTy).Contents (Elt F))
    (h_arg3 : W (Proc.devRef .tc main_arg3) = x3) (h_v148 : W (Proc.devRef .tc main_v148) = val_main_v148 (F := F) x0 x1 x2 x5 x6 x7 x8 x9) (h_v151 : W (Proc.devRef .tc main_v151) = val_main_v151 (F := F) x8) (h_arg9 : W (Proc.devRef .tc main_arg9) = x9) (h_arg4 : W (Proc.devRef .tc main_arg4) = x4) (h_arg10 : W (Proc.devRef .tc main_arg10) = x10) (h_arg11 : W (Proc.devRef .tc main_arg11) = x11) :
    StableHlo.after (chunk10 (F := F)) W (Proc.devRef .tc main_v167) = val_main_v167 (F := F) x0 x1 x2 x3 x4 x5 x6 x7 x8 x9 x10 x11 := by
  after_results
  rw [h_arg3, h_v148, h_v151, h_arg9, h_arg4, h_arg10, h_arg11]
  rfl
set_option maxHeartbeats 8000000 in
theorem st10_call3_cst  :
    StableHlo.after (chunk10 (F := F)) W (Proc.devRef .tc main_call3_cst) = val_main_call3_cst (F := F) := by
  after_results
  rfl
theorem cy10_arg12 : StableHlo.after (chunk10 (F := F)) W (Proc.devRef .tc main_arg12) = W (Proc.devRef .tc main_arg12) := by
  after_results
theorem cy10_arg13 : StableHlo.after (chunk10 (F := F)) W (Proc.devRef .tc main_arg13) = W (Proc.devRef .tc main_arg13) := by
  after_results

/-! ### Chunk 11 -/

set_option maxHeartbeats 8000000 in
theorem st11_v183 (x0 : (⟨S100000x128, .f32⟩ : BufTy).Contents (Elt F)) (x1 : (⟨S2x800000, .i32⟩ : BufTy).Contents (Elt F)) (x2 : (⟨S800000x16, .f32⟩ : BufTy).Contents (Elt F)) (x3 : (⟨S100000, .i32⟩ : BufTy).Contents (Elt F)) (x4 : (⟨S1024x10, .f32⟩ : BufTy).Contents (Elt F)) (x5 : (⟨S3x128x128, .f32⟩ : BufTy).Contents (Elt F)) (x6 : (⟨S3x16x128, .f32⟩ : BufTy).Contents (Elt F)) (x7 : (⟨S3x128, .f32⟩ : BufTy).Contents (Elt F)) (x8 : (⟨S3x128, .f32⟩ : BufTy).Contents (Elt F)) (x9 : (⟨S3x128, .f32⟩ : BufTy).Contents (Elt F)) (x10 : (⟨S138x256, .f32⟩ : BufTy).Contents (Elt F)) (x11 : (⟨S256, .f32⟩ : BufTy).Contents (Elt F)) (x12 : (⟨S256x10, .f32⟩ : BufTy).Contents (Elt F)) (x13 : (⟨S10, .f32⟩ : BufTy).Contents (Elt F))
    (h_v167 : W (Proc.devRef .tc main_v167) = val_main_v167 (F := F) x0 x1 x2 x3 x4 x5 x6 x7 x8 x9 x10 x11) (h_call3_cst : W (Proc.devRef .tc main_call3_cst) = val_main_call3_cst (F := F)) (h_arg12 : W (Proc.devRef .tc main_arg12) = x12) (h_arg13 : W (Proc.devRef .tc main_arg13) = x13) :
    StableHlo.after (chunk11 (F := F)) W (Proc.devRef .tc main_v183) = val_main_v183 (F := F) x0 x1 x2 x3 x4 x5 x6 x7 x8 x9 x10 x11 x12 x13 := by
  after_results
  rw [h_v167, h_call3_cst, h_arg12, h_arg13]
  rfl

end Chunks

/-! ## The chain from the launch contents -/

section Chain
variable (V0 : Valuation τ sig (Elt F))

/-- The contents after the first `k` chunks. -/
def Wc0 : Valuation τ sig (Elt F) := V0
def Wc1 : Valuation τ sig (Elt F) := StableHlo.after (chunk1 (F := F)) (Wc0 V0)
def Wc2 : Valuation τ sig (Elt F) := StableHlo.after (chunk2 (F := F)) (Wc1 V0)
def Wc3 : Valuation τ sig (Elt F) := StableHlo.after (chunk3 (F := F)) (Wc2 V0)
def Wc4 : Valuation τ sig (Elt F) := StableHlo.after (chunk4 (F := F)) (Wc3 V0)
def Wc5 : Valuation τ sig (Elt F) := StableHlo.after (chunk5 (F := F)) (Wc4 V0)
def Wc6 : Valuation τ sig (Elt F) := StableHlo.after (chunk6 (F := F)) (Wc5 V0)
def Wc7 : Valuation τ sig (Elt F) := StableHlo.after (chunk7 (F := F)) (Wc6 V0)
def Wc8 : Valuation τ sig (Elt F) := StableHlo.after (chunk8 (F := F)) (Wc7 V0)
def Wc9 : Valuation τ sig (Elt F) := StableHlo.after (chunk9 (F := F)) (Wc8 V0)
def Wc10 : Valuation τ sig (Elt F) := StableHlo.after (chunk10 (F := F)) (Wc9 V0)
def Wc11 : Valuation τ sig (Elt F) := StableHlo.after (chunk11 (F := F)) (Wc10 V0)

theorem inv0_arg12 : Wc0 V0 (Proc.devRef .tc main_arg12) = (V0 (Proc.devRef .tc main_arg12)) := rfl
theorem inv0_arg13 : Wc0 V0 (Proc.devRef .tc main_arg13) = (V0 (Proc.devRef .tc main_arg13)) := rfl
theorem inv0_arg3 : Wc0 V0 (Proc.devRef .tc main_arg3) = (V0 (Proc.devRef .tc main_arg3)) := rfl
theorem inv0_arg9 : Wc0 V0 (Proc.devRef .tc main_arg9) = (V0 (Proc.devRef .tc main_arg9)) := rfl
theorem inv0_arg4 : Wc0 V0 (Proc.devRef .tc main_arg4) = (V0 (Proc.devRef .tc main_arg4)) := rfl
theorem inv0_arg10 : Wc0 V0 (Proc.devRef .tc main_arg10) = (V0 (Proc.devRef .tc main_arg10)) := rfl
theorem inv0_arg11 : Wc0 V0 (Proc.devRef .tc main_arg11) = (V0 (Proc.devRef .tc main_arg11)) := rfl
theorem inv0_arg8 : Wc0 V0 (Proc.devRef .tc main_arg8) = (V0 (Proc.devRef .tc main_arg8)) := rfl
theorem inv0_arg2 : Wc0 V0 (Proc.devRef .tc main_arg2) = (V0 (Proc.devRef .tc main_arg2)) := rfl
theorem inv0_arg6 : Wc0 V0 (Proc.devRef .tc main_arg6) = (V0 (Proc.devRef .tc main_arg6)) := rfl
theorem inv0_arg7 : Wc0 V0 (Proc.devRef .tc main_arg7) = (V0 (Proc.devRef .tc main_arg7)) := rfl
theorem inv0_arg5 : Wc0 V0 (Proc.devRef .tc main_arg5) = (V0 (Proc.devRef .tc main_arg5)) := rfl
theorem inv0_arg1 : Wc0 V0 (Proc.devRef .tc main_arg1) = (V0 (Proc.devRef .tc main_arg1)) := rfl
theorem inv0_arg0 : Wc0 V0 (Proc.devRef .tc main_arg0) = (V0 (Proc.devRef .tc main_arg0)) := rfl
theorem inv1_arg12 : Wc1 V0 (Proc.devRef .tc main_arg12) = (V0 (Proc.devRef .tc main_arg12)) :=
  (cy1_arg12 (Wc0 V0)).trans (inv0_arg12 V0)
theorem inv1_arg13 : Wc1 V0 (Proc.devRef .tc main_arg13) = (V0 (Proc.devRef .tc main_arg13)) :=
  (cy1_arg13 (Wc0 V0)).trans (inv0_arg13 V0)
theorem inv1_arg3 : Wc1 V0 (Proc.devRef .tc main_arg3) = (V0 (Proc.devRef .tc main_arg3)) :=
  (cy1_arg3 (Wc0 V0)).trans (inv0_arg3 V0)
theorem inv1_arg9 : Wc1 V0 (Proc.devRef .tc main_arg9) = (V0 (Proc.devRef .tc main_arg9)) :=
  (cy1_arg9 (Wc0 V0)).trans (inv0_arg9 V0)
theorem inv1_arg4 : Wc1 V0 (Proc.devRef .tc main_arg4) = (V0 (Proc.devRef .tc main_arg4)) :=
  (cy1_arg4 (Wc0 V0)).trans (inv0_arg4 V0)
theorem inv1_arg10 : Wc1 V0 (Proc.devRef .tc main_arg10) = (V0 (Proc.devRef .tc main_arg10)) :=
  (cy1_arg10 (Wc0 V0)).trans (inv0_arg10 V0)
theorem inv1_arg11 : Wc1 V0 (Proc.devRef .tc main_arg11) = (V0 (Proc.devRef .tc main_arg11)) :=
  (cy1_arg11 (Wc0 V0)).trans (inv0_arg11 V0)
theorem inv1_arg8 : Wc1 V0 (Proc.devRef .tc main_arg8) = (V0 (Proc.devRef .tc main_arg8)) :=
  (cy1_arg8 (Wc0 V0)).trans (inv0_arg8 V0)
theorem inv1_v3 : Wc1 V0 (Proc.devRef .tc main_v3) = val_main_v3 (F := F) (V0 (Proc.devRef .tc main_arg1)) :=
  st1_v3 (Wc0 V0) (V0 (Proc.devRef .tc main_arg1)) (inv0_arg1 V0)
theorem inv1_arg2 : Wc1 V0 (Proc.devRef .tc main_arg2) = (V0 (Proc.devRef .tc main_arg2)) :=
  (cy1_arg2 (Wc0 V0)).trans (inv0_arg2 V0)
theorem inv1_arg6 : Wc1 V0 (Proc.devRef .tc main_arg6) = (V0 (Proc.devRef .tc main_arg6)) :=
  (cy1_arg6 (Wc0 V0)).trans (inv0_arg6 V0)
theorem inv1_arg7 : Wc1 V0 (Proc.devRef .tc main_arg7) = (V0 (Proc.devRef .tc main_arg7)) :=
  (cy1_arg7 (Wc0 V0)).trans (inv0_arg7 V0)
theorem inv1_v1 : Wc1 V0 (Proc.devRef .tc main_v1) = val_main_v1 (F := F) (V0 (Proc.devRef .tc main_arg1)) :=
  st1_v1 (Wc0 V0) (V0 (Proc.devRef .tc main_arg1)) (inv0_arg1 V0)
theorem inv1_arg5 : Wc1 V0 (Proc.devRef .tc main_arg5) = (V0 (Proc.devRef .tc main_arg5)) :=
  (cy1_arg5 (Wc0 V0)).trans (inv0_arg5 V0)
theorem inv1_v17 : Wc1 V0 (Proc.devRef .tc main_v17) = val_main_v17 (F := F) (V0 (Proc.devRef .tc main_arg0)) (V0 (Proc.devRef .tc main_arg1)) (V0 (Proc.devRef .tc main_arg2)) (V0 (Proc.devRef .tc main_arg5)) (V0 (Proc.devRef .tc main_arg6)) :=
  st1_v17 (Wc0 V0) (V0 (Proc.devRef .tc main_arg0)) (V0 (Proc.devRef .tc main_arg1)) (V0 (Proc.devRef .tc main_arg2)) (V0 (Proc.devRef .tc main_arg5)) (V0 (Proc.devRef .tc main_arg6)) (inv0_arg0 V0) (inv0_arg1 V0) (inv0_arg5 V0) (inv0_arg2 V0) (inv0_arg6 V0)
theorem inv2_arg12 : Wc2 V0 (Proc.devRef .tc main_arg12) = (V0 (Proc.devRef .tc main_arg12)) :=
  (cy2_arg12 (Wc1 V0)).trans (inv1_arg12 V0)
theorem inv2_arg13 : Wc2 V0 (Proc.devRef .tc main_arg13) = (V0 (Proc.devRef .tc main_arg13)) :=
  (cy2_arg13 (Wc1 V0)).trans (inv1_arg13 V0)
theorem inv2_arg3 : Wc2 V0 (Proc.devRef .tc main_arg3) = (V0 (Proc.devRef .tc main_arg3)) :=
  (cy2_arg3 (Wc1 V0)).trans (inv1_arg3 V0)
theorem inv2_arg9 : Wc2 V0 (Proc.devRef .tc main_arg9) = (V0 (Proc.devRef .tc main_arg9)) :=
  (cy2_arg9 (Wc1 V0)).trans (inv1_arg9 V0)
theorem inv2_arg4 : Wc2 V0 (Proc.devRef .tc main_arg4) = (V0 (Proc.devRef .tc main_arg4)) :=
  (cy2_arg4 (Wc1 V0)).trans (inv1_arg4 V0)
theorem inv2_arg10 : Wc2 V0 (Proc.devRef .tc main_arg10) = (V0 (Proc.devRef .tc main_arg10)) :=
  (cy2_arg10 (Wc1 V0)).trans (inv1_arg10 V0)
theorem inv2_arg11 : Wc2 V0 (Proc.devRef .tc main_arg11) = (V0 (Proc.devRef .tc main_arg11)) :=
  (cy2_arg11 (Wc1 V0)).trans (inv1_arg11 V0)
theorem inv2_arg8 : Wc2 V0 (Proc.devRef .tc main_arg8) = (V0 (Proc.devRef .tc main_arg8)) :=
  (cy2_arg8 (Wc1 V0)).trans (inv1_arg8 V0)
theorem inv2_v3 : Wc2 V0 (Proc.devRef .tc main_v3) = val_main_v3 (F := F) (V0 (Proc.devRef .tc main_arg1)) :=
  (cy2_v3 (Wc1 V0)).trans (inv1_v3 V0)
theorem inv2_arg2 : Wc2 V0 (Proc.devRef .tc main_arg2) = (V0 (Proc.devRef .tc main_arg2)) :=
  (cy2_arg2 (Wc1 V0)).trans (inv1_arg2 V0)
theorem inv2_arg6 : Wc2 V0 (Proc.devRef .tc main_arg6) = (V0 (Proc.devRef .tc main_arg6)) :=
  (cy2_arg6 (Wc1 V0)).trans (inv1_arg6 V0)
theorem inv2_arg7 : Wc2 V0 (Proc.devRef .tc main_arg7) = (V0 (Proc.devRef .tc main_arg7)) :=
  (cy2_arg7 (Wc1 V0)).trans (inv1_arg7 V0)
theorem inv2_v1 : Wc2 V0 (Proc.devRef .tc main_v1) = val_main_v1 (F := F) (V0 (Proc.devRef .tc main_arg1)) :=
  (cy2_v1 (Wc1 V0)).trans (inv1_v1 V0)
theorem inv2_arg5 : Wc2 V0 (Proc.devRef .tc main_arg5) = (V0 (Proc.devRef .tc main_arg5)) :=
  (cy2_arg5 (Wc1 V0)).trans (inv1_arg5 V0)
theorem inv2_v25 : Wc2 V0 (Proc.devRef .tc main_v25) = val_main_v25 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) :=
  st2_v25 (Wc1 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (inv1_v3 V0) (inv1_v17 V0) (inv1_arg7 V0)
theorem inv2_v28 : Wc2 V0 (Proc.devRef .tc main_v28) = val_main_v28 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) :=
  st2_v28 (Wc1 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (inv1_v3 V0) (inv1_v17 V0) (inv1_arg7 V0)
theorem inv2_v33 : Wc2 V0 (Proc.devRef .tc main_v33) = val_main_v33 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) :=
  st2_v33 (Wc1 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (inv1_v3 V0) (inv1_v17 V0) (inv1_arg7 V0)
theorem inv3_arg12 : Wc3 V0 (Proc.devRef .tc main_arg12) = (V0 (Proc.devRef .tc main_arg12)) :=
  (cy3_arg12 (Wc2 V0)).trans (inv2_arg12 V0)
theorem inv3_arg13 : Wc3 V0 (Proc.devRef .tc main_arg13) = (V0 (Proc.devRef .tc main_arg13)) :=
  (cy3_arg13 (Wc2 V0)).trans (inv2_arg13 V0)
theorem inv3_arg3 : Wc3 V0 (Proc.devRef .tc main_arg3) = (V0 (Proc.devRef .tc main_arg3)) :=
  (cy3_arg3 (Wc2 V0)).trans (inv2_arg3 V0)
theorem inv3_arg9 : Wc3 V0 (Proc.devRef .tc main_arg9) = (V0 (Proc.devRef .tc main_arg9)) :=
  (cy3_arg9 (Wc2 V0)).trans (inv2_arg9 V0)
theorem inv3_arg4 : Wc3 V0 (Proc.devRef .tc main_arg4) = (V0 (Proc.devRef .tc main_arg4)) :=
  (cy3_arg4 (Wc2 V0)).trans (inv2_arg4 V0)
theorem inv3_arg10 : Wc3 V0 (Proc.devRef .tc main_arg10) = (V0 (Proc.devRef .tc main_arg10)) :=
  (cy3_arg10 (Wc2 V0)).trans (inv2_arg10 V0)
theorem inv3_arg11 : Wc3 V0 (Proc.devRef .tc main_arg11) = (V0 (Proc.devRef .tc main_arg11)) :=
  (cy3_arg11 (Wc2 V0)).trans (inv2_arg11 V0)
theorem inv3_arg8 : Wc3 V0 (Proc.devRef .tc main_arg8) = (V0 (Proc.devRef .tc main_arg8)) :=
  (cy3_arg8 (Wc2 V0)).trans (inv2_arg8 V0)
theorem inv3_v3 : Wc3 V0 (Proc.devRef .tc main_v3) = val_main_v3 (F := F) (V0 (Proc.devRef .tc main_arg1)) :=
  (cy3_v3 (Wc2 V0)).trans (inv2_v3 V0)
theorem inv3_arg2 : Wc3 V0 (Proc.devRef .tc main_arg2) = (V0 (Proc.devRef .tc main_arg2)) :=
  (cy3_arg2 (Wc2 V0)).trans (inv2_arg2 V0)
theorem inv3_arg6 : Wc3 V0 (Proc.devRef .tc main_arg6) = (V0 (Proc.devRef .tc main_arg6)) :=
  (cy3_arg6 (Wc2 V0)).trans (inv2_arg6 V0)
theorem inv3_arg7 : Wc3 V0 (Proc.devRef .tc main_arg7) = (V0 (Proc.devRef .tc main_arg7)) :=
  (cy3_arg7 (Wc2 V0)).trans (inv2_arg7 V0)
theorem inv3_v1 : Wc3 V0 (Proc.devRef .tc main_v1) = val_main_v1 (F := F) (V0 (Proc.devRef .tc main_arg1)) :=
  (cy3_v1 (Wc2 V0)).trans (inv2_v1 V0)
theorem inv3_arg5 : Wc3 V0 (Proc.devRef .tc main_arg5) = (V0 (Proc.devRef .tc main_arg5)) :=
  (cy3_arg5 (Wc2 V0)).trans (inv2_arg5 V0)
theorem inv3_v49 : Wc3 V0 (Proc.devRef .tc main_v49) = val_main_v49 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) :=
  st3_v49 (Wc2 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (inv2_v25 V0) (inv2_v28 V0) (inv2_v33 V0) (inv2_arg8 V0)
theorem inv3_v51 : Wc3 V0 (Proc.devRef .tc main_v51) = val_main_v51 (F := F) (V0 (Proc.devRef .tc main_arg9)) :=
  st3_v51 (Wc2 V0) (V0 (Proc.devRef .tc main_arg9)) (inv2_arg9 V0)
theorem inv4_arg12 : Wc4 V0 (Proc.devRef .tc main_arg12) = (V0 (Proc.devRef .tc main_arg12)) :=
  (cy4_arg12 (Wc3 V0)).trans (inv3_arg12 V0)
theorem inv4_arg13 : Wc4 V0 (Proc.devRef .tc main_arg13) = (V0 (Proc.devRef .tc main_arg13)) :=
  (cy4_arg13 (Wc3 V0)).trans (inv3_arg13 V0)
theorem inv4_arg3 : Wc4 V0 (Proc.devRef .tc main_arg3) = (V0 (Proc.devRef .tc main_arg3)) :=
  (cy4_arg3 (Wc3 V0)).trans (inv3_arg3 V0)
theorem inv4_arg9 : Wc4 V0 (Proc.devRef .tc main_arg9) = (V0 (Proc.devRef .tc main_arg9)) :=
  (cy4_arg9 (Wc3 V0)).trans (inv3_arg9 V0)
theorem inv4_arg4 : Wc4 V0 (Proc.devRef .tc main_arg4) = (V0 (Proc.devRef .tc main_arg4)) :=
  (cy4_arg4 (Wc3 V0)).trans (inv3_arg4 V0)
theorem inv4_arg10 : Wc4 V0 (Proc.devRef .tc main_arg10) = (V0 (Proc.devRef .tc main_arg10)) :=
  (cy4_arg10 (Wc3 V0)).trans (inv3_arg10 V0)
theorem inv4_arg11 : Wc4 V0 (Proc.devRef .tc main_arg11) = (V0 (Proc.devRef .tc main_arg11)) :=
  (cy4_arg11 (Wc3 V0)).trans (inv3_arg11 V0)
theorem inv4_arg8 : Wc4 V0 (Proc.devRef .tc main_arg8) = (V0 (Proc.devRef .tc main_arg8)) :=
  (cy4_arg8 (Wc3 V0)).trans (inv3_arg8 V0)
theorem inv4_v3 : Wc4 V0 (Proc.devRef .tc main_v3) = val_main_v3 (F := F) (V0 (Proc.devRef .tc main_arg1)) :=
  (cy4_v3 (Wc3 V0)).trans (inv3_v3 V0)
theorem inv4_arg2 : Wc4 V0 (Proc.devRef .tc main_arg2) = (V0 (Proc.devRef .tc main_arg2)) :=
  (cy4_arg2 (Wc3 V0)).trans (inv3_arg2 V0)
theorem inv4_arg6 : Wc4 V0 (Proc.devRef .tc main_arg6) = (V0 (Proc.devRef .tc main_arg6)) :=
  (cy4_arg6 (Wc3 V0)).trans (inv3_arg6 V0)
theorem inv4_arg7 : Wc4 V0 (Proc.devRef .tc main_arg7) = (V0 (Proc.devRef .tc main_arg7)) :=
  (cy4_arg7 (Wc3 V0)).trans (inv3_arg7 V0)
theorem inv4_v1 : Wc4 V0 (Proc.devRef .tc main_v1) = val_main_v1 (F := F) (V0 (Proc.devRef .tc main_arg1)) :=
  (cy4_v1 (Wc3 V0)).trans (inv3_v1 V0)
theorem inv4_arg5 : Wc4 V0 (Proc.devRef .tc main_arg5) = (V0 (Proc.devRef .tc main_arg5)) :=
  (cy4_arg5 (Wc3 V0)).trans (inv3_arg5 V0)
theorem inv4_v65 : Wc4 V0 (Proc.devRef .tc main_v65) = val_main_v65 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st4_v65 (Wc3 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv3_v49 V0) (inv3_v51 V0) (inv3_v1 V0) (inv3_arg5 V0)
theorem inv4_v67 : Wc4 V0 (Proc.devRef .tc main_v67) = val_main_v67 (F := F) (V0 (Proc.devRef .tc main_arg6)) :=
  st4_v67 (Wc3 V0) (V0 (Proc.devRef .tc main_arg6)) (inv3_arg6 V0)
theorem inv5_arg12 : Wc5 V0 (Proc.devRef .tc main_arg12) = (V0 (Proc.devRef .tc main_arg12)) :=
  (cy5_arg12 (Wc4 V0)).trans (inv4_arg12 V0)
theorem inv5_arg13 : Wc5 V0 (Proc.devRef .tc main_arg13) = (V0 (Proc.devRef .tc main_arg13)) :=
  (cy5_arg13 (Wc4 V0)).trans (inv4_arg13 V0)
theorem inv5_arg3 : Wc5 V0 (Proc.devRef .tc main_arg3) = (V0 (Proc.devRef .tc main_arg3)) :=
  (cy5_arg3 (Wc4 V0)).trans (inv4_arg3 V0)
theorem inv5_arg9 : Wc5 V0 (Proc.devRef .tc main_arg9) = (V0 (Proc.devRef .tc main_arg9)) :=
  (cy5_arg9 (Wc4 V0)).trans (inv4_arg9 V0)
theorem inv5_arg4 : Wc5 V0 (Proc.devRef .tc main_arg4) = (V0 (Proc.devRef .tc main_arg4)) :=
  (cy5_arg4 (Wc4 V0)).trans (inv4_arg4 V0)
theorem inv5_arg10 : Wc5 V0 (Proc.devRef .tc main_arg10) = (V0 (Proc.devRef .tc main_arg10)) :=
  (cy5_arg10 (Wc4 V0)).trans (inv4_arg10 V0)
theorem inv5_arg11 : Wc5 V0 (Proc.devRef .tc main_arg11) = (V0 (Proc.devRef .tc main_arg11)) :=
  (cy5_arg11 (Wc4 V0)).trans (inv4_arg11 V0)
theorem inv5_arg8 : Wc5 V0 (Proc.devRef .tc main_arg8) = (V0 (Proc.devRef .tc main_arg8)) :=
  (cy5_arg8 (Wc4 V0)).trans (inv4_arg8 V0)
theorem inv5_v3 : Wc5 V0 (Proc.devRef .tc main_v3) = val_main_v3 (F := F) (V0 (Proc.devRef .tc main_arg1)) :=
  (cy5_v3 (Wc4 V0)).trans (inv4_v3 V0)
theorem inv5_arg2 : Wc5 V0 (Proc.devRef .tc main_arg2) = (V0 (Proc.devRef .tc main_arg2)) :=
  (cy5_arg2 (Wc4 V0)).trans (inv4_arg2 V0)
theorem inv5_arg6 : Wc5 V0 (Proc.devRef .tc main_arg6) = (V0 (Proc.devRef .tc main_arg6)) :=
  (cy5_arg6 (Wc4 V0)).trans (inv4_arg6 V0)
theorem inv5_arg7 : Wc5 V0 (Proc.devRef .tc main_arg7) = (V0 (Proc.devRef .tc main_arg7)) :=
  (cy5_arg7 (Wc4 V0)).trans (inv4_arg7 V0)
theorem inv5_v1 : Wc5 V0 (Proc.devRef .tc main_v1) = val_main_v1 (F := F) (V0 (Proc.devRef .tc main_arg1)) :=
  (cy5_v1 (Wc4 V0)).trans (inv4_v1 V0)
theorem inv5_arg5 : Wc5 V0 (Proc.devRef .tc main_arg5) = (V0 (Proc.devRef .tc main_arg5)) :=
  (cy5_arg5 (Wc4 V0)).trans (inv4_arg5 V0)
theorem inv5_v77 : Wc5 V0 (Proc.devRef .tc main_v77) = val_main_v77 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st5_v77 (Wc4 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv4_v3 V0) (inv4_v65 V0) (inv4_arg2 V0) (inv4_v67 V0) (inv4_arg7 V0)
theorem inv5_v80 : Wc5 V0 (Proc.devRef .tc main_v80) = val_main_v80 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st5_v80 (Wc4 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv4_v3 V0) (inv4_v65 V0) (inv4_arg2 V0) (inv4_v67 V0) (inv4_arg7 V0)
theorem inv5_v84 : Wc5 V0 (Proc.devRef .tc main_v84) = val_main_v84 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st5_v84 (Wc4 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv4_v3 V0) (inv4_v65 V0) (inv4_arg2 V0) (inv4_v67 V0) (inv4_arg7 V0)
theorem inv6_arg12 : Wc6 V0 (Proc.devRef .tc main_arg12) = (V0 (Proc.devRef .tc main_arg12)) :=
  (cy6_arg12 (Wc5 V0)).trans (inv5_arg12 V0)
theorem inv6_arg13 : Wc6 V0 (Proc.devRef .tc main_arg13) = (V0 (Proc.devRef .tc main_arg13)) :=
  (cy6_arg13 (Wc5 V0)).trans (inv5_arg13 V0)
theorem inv6_arg3 : Wc6 V0 (Proc.devRef .tc main_arg3) = (V0 (Proc.devRef .tc main_arg3)) :=
  (cy6_arg3 (Wc5 V0)).trans (inv5_arg3 V0)
theorem inv6_arg9 : Wc6 V0 (Proc.devRef .tc main_arg9) = (V0 (Proc.devRef .tc main_arg9)) :=
  (cy6_arg9 (Wc5 V0)).trans (inv5_arg9 V0)
theorem inv6_arg4 : Wc6 V0 (Proc.devRef .tc main_arg4) = (V0 (Proc.devRef .tc main_arg4)) :=
  (cy6_arg4 (Wc5 V0)).trans (inv5_arg4 V0)
theorem inv6_arg10 : Wc6 V0 (Proc.devRef .tc main_arg10) = (V0 (Proc.devRef .tc main_arg10)) :=
  (cy6_arg10 (Wc5 V0)).trans (inv5_arg10 V0)
theorem inv6_arg11 : Wc6 V0 (Proc.devRef .tc main_arg11) = (V0 (Proc.devRef .tc main_arg11)) :=
  (cy6_arg11 (Wc5 V0)).trans (inv5_arg11 V0)
theorem inv6_arg8 : Wc6 V0 (Proc.devRef .tc main_arg8) = (V0 (Proc.devRef .tc main_arg8)) :=
  (cy6_arg8 (Wc5 V0)).trans (inv5_arg8 V0)
theorem inv6_v3 : Wc6 V0 (Proc.devRef .tc main_v3) = val_main_v3 (F := F) (V0 (Proc.devRef .tc main_arg1)) :=
  (cy6_v3 (Wc5 V0)).trans (inv5_v3 V0)
theorem inv6_arg2 : Wc6 V0 (Proc.devRef .tc main_arg2) = (V0 (Proc.devRef .tc main_arg2)) :=
  (cy6_arg2 (Wc5 V0)).trans (inv5_arg2 V0)
theorem inv6_arg6 : Wc6 V0 (Proc.devRef .tc main_arg6) = (V0 (Proc.devRef .tc main_arg6)) :=
  (cy6_arg6 (Wc5 V0)).trans (inv5_arg6 V0)
theorem inv6_arg7 : Wc6 V0 (Proc.devRef .tc main_arg7) = (V0 (Proc.devRef .tc main_arg7)) :=
  (cy6_arg7 (Wc5 V0)).trans (inv5_arg7 V0)
theorem inv6_v101 : Wc6 V0 (Proc.devRef .tc main_v101) = val_main_v101 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st6_v101 (Wc5 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv5_v77 V0) (inv5_v80 V0) (inv5_v84 V0) (inv5_arg8 V0)
theorem inv6_v1 : Wc6 V0 (Proc.devRef .tc main_v1) = val_main_v1 (F := F) (V0 (Proc.devRef .tc main_arg1)) :=
  (cy6_v1 (Wc5 V0)).trans (inv5_v1 V0)
theorem inv6_arg5 : Wc6 V0 (Proc.devRef .tc main_arg5) = (V0 (Proc.devRef .tc main_arg5)) :=
  (cy6_arg5 (Wc5 V0)).trans (inv5_arg5 V0)
theorem inv7_arg12 : Wc7 V0 (Proc.devRef .tc main_arg12) = (V0 (Proc.devRef .tc main_arg12)) :=
  (cy7_arg12 (Wc6 V0)).trans (inv6_arg12 V0)
theorem inv7_arg13 : Wc7 V0 (Proc.devRef .tc main_arg13) = (V0 (Proc.devRef .tc main_arg13)) :=
  (cy7_arg13 (Wc6 V0)).trans (inv6_arg13 V0)
theorem inv7_arg3 : Wc7 V0 (Proc.devRef .tc main_arg3) = (V0 (Proc.devRef .tc main_arg3)) :=
  (cy7_arg3 (Wc6 V0)).trans (inv6_arg3 V0)
theorem inv7_arg9 : Wc7 V0 (Proc.devRef .tc main_arg9) = (V0 (Proc.devRef .tc main_arg9)) :=
  (cy7_arg9 (Wc6 V0)).trans (inv6_arg9 V0)
theorem inv7_arg4 : Wc7 V0 (Proc.devRef .tc main_arg4) = (V0 (Proc.devRef .tc main_arg4)) :=
  (cy7_arg4 (Wc6 V0)).trans (inv6_arg4 V0)
theorem inv7_arg10 : Wc7 V0 (Proc.devRef .tc main_arg10) = (V0 (Proc.devRef .tc main_arg10)) :=
  (cy7_arg10 (Wc6 V0)).trans (inv6_arg10 V0)
theorem inv7_arg11 : Wc7 V0 (Proc.devRef .tc main_arg11) = (V0 (Proc.devRef .tc main_arg11)) :=
  (cy7_arg11 (Wc6 V0)).trans (inv6_arg11 V0)
theorem inv7_arg8 : Wc7 V0 (Proc.devRef .tc main_arg8) = (V0 (Proc.devRef .tc main_arg8)) :=
  (cy7_arg8 (Wc6 V0)).trans (inv6_arg8 V0)
theorem inv7_v3 : Wc7 V0 (Proc.devRef .tc main_v3) = val_main_v3 (F := F) (V0 (Proc.devRef .tc main_arg1)) :=
  (cy7_v3 (Wc6 V0)).trans (inv6_v3 V0)
theorem inv7_v117 : Wc7 V0 (Proc.devRef .tc main_v117) = val_main_v117 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st7_v117 (Wc6 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv6_v101 V0) (inv6_arg9 V0) (inv6_v1 V0) (inv6_arg5 V0)
theorem inv7_arg2 : Wc7 V0 (Proc.devRef .tc main_arg2) = (V0 (Proc.devRef .tc main_arg2)) :=
  (cy7_arg2 (Wc6 V0)).trans (inv6_arg2 V0)
theorem inv7_arg6 : Wc7 V0 (Proc.devRef .tc main_arg6) = (V0 (Proc.devRef .tc main_arg6)) :=
  (cy7_arg6 (Wc6 V0)).trans (inv6_arg6 V0)
theorem inv7_arg7 : Wc7 V0 (Proc.devRef .tc main_arg7) = (V0 (Proc.devRef .tc main_arg7)) :=
  (cy7_arg7 (Wc6 V0)).trans (inv6_arg7 V0)
theorem inv8_arg12 : Wc8 V0 (Proc.devRef .tc main_arg12) = (V0 (Proc.devRef .tc main_arg12)) :=
  (cy8_arg12 (Wc7 V0)).trans (inv7_arg12 V0)
theorem inv8_arg13 : Wc8 V0 (Proc.devRef .tc main_arg13) = (V0 (Proc.devRef .tc main_arg13)) :=
  (cy8_arg13 (Wc7 V0)).trans (inv7_arg13 V0)
theorem inv8_arg3 : Wc8 V0 (Proc.devRef .tc main_arg3) = (V0 (Proc.devRef .tc main_arg3)) :=
  (cy8_arg3 (Wc7 V0)).trans (inv7_arg3 V0)
theorem inv8_arg9 : Wc8 V0 (Proc.devRef .tc main_arg9) = (V0 (Proc.devRef .tc main_arg9)) :=
  (cy8_arg9 (Wc7 V0)).trans (inv7_arg9 V0)
theorem inv8_arg4 : Wc8 V0 (Proc.devRef .tc main_arg4) = (V0 (Proc.devRef .tc main_arg4)) :=
  (cy8_arg4 (Wc7 V0)).trans (inv7_arg4 V0)
theorem inv8_arg10 : Wc8 V0 (Proc.devRef .tc main_arg10) = (V0 (Proc.devRef .tc main_arg10)) :=
  (cy8_arg10 (Wc7 V0)).trans (inv7_arg10 V0)
theorem inv8_arg11 : Wc8 V0 (Proc.devRef .tc main_arg11) = (V0 (Proc.devRef .tc main_arg11)) :=
  (cy8_arg11 (Wc7 V0)).trans (inv7_arg11 V0)
theorem inv8_v129 : Wc8 V0 (Proc.devRef .tc main_v129) = val_main_v129 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st8_v129 (Wc7 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv7_v3 V0) (inv7_v117 V0) (inv7_arg2 V0) (inv7_arg6 V0) (inv7_arg7 V0)
theorem inv8_v132 : Wc8 V0 (Proc.devRef .tc main_v132) = val_main_v132 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st8_v132 (Wc7 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv7_v3 V0) (inv7_v117 V0) (inv7_arg2 V0) (inv7_arg6 V0) (inv7_arg7 V0)
theorem inv8_v134 : Wc8 V0 (Proc.devRef .tc main_v134) = val_main_v134 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st8_v134 (Wc7 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv7_v3 V0) (inv7_v117 V0) (inv7_arg2 V0) (inv7_arg6 V0) (inv7_arg7 V0)
theorem inv8_arg8 : Wc8 V0 (Proc.devRef .tc main_arg8) = (V0 (Proc.devRef .tc main_arg8)) :=
  (cy8_arg8 (Wc7 V0)).trans (inv7_arg8 V0)
theorem inv9_arg12 : Wc9 V0 (Proc.devRef .tc main_arg12) = (V0 (Proc.devRef .tc main_arg12)) :=
  (cy9_arg12 (Wc8 V0)).trans (inv8_arg12 V0)
theorem inv9_arg13 : Wc9 V0 (Proc.devRef .tc main_arg13) = (V0 (Proc.devRef .tc main_arg13)) :=
  (cy9_arg13 (Wc8 V0)).trans (inv8_arg13 V0)
theorem inv9_arg3 : Wc9 V0 (Proc.devRef .tc main_arg3) = (V0 (Proc.devRef .tc main_arg3)) :=
  (cy9_arg3 (Wc8 V0)).trans (inv8_arg3 V0)
theorem inv9_v148 : Wc9 V0 (Proc.devRef .tc main_v148) = val_main_v148 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  st9_v148 (Wc8 V0) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (inv8_v129 V0) (inv8_v132 V0) (inv8_v134 V0)
theorem inv9_v151 : Wc9 V0 (Proc.devRef .tc main_v151) = val_main_v151 (F := F) (V0 (Proc.devRef .tc main_arg8)) :=
  st9_v151 (Wc8 V0) (V0 (Proc.devRef .tc main_arg8)) (inv8_arg8 V0)
theorem inv9_arg9 : Wc9 V0 (Proc.devRef .tc main_arg9) = (V0 (Proc.devRef .tc main_arg9)) :=
  (cy9_arg9 (Wc8 V0)).trans (inv8_arg9 V0)
theorem inv9_arg4 : Wc9 V0 (Proc.devRef .tc main_arg4) = (V0 (Proc.devRef .tc main_arg4)) :=
  (cy9_arg4 (Wc8 V0)).trans (inv8_arg4 V0)
theorem inv9_arg10 : Wc9 V0 (Proc.devRef .tc main_arg10) = (V0 (Proc.devRef .tc main_arg10)) :=
  (cy9_arg10 (Wc8 V0)).trans (inv8_arg10 V0)
theorem inv9_arg11 : Wc9 V0 (Proc.devRef .tc main_arg11) = (V0 (Proc.devRef .tc main_arg11)) :=
  (cy9_arg11 (Wc8 V0)).trans (inv8_arg11 V0)
theorem inv10_v167 : Wc10 V0 (Proc.devRef .tc main_v167) = val_main_v167 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  st10_v167 (Wc9 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (inv9_arg3 V0) (inv9_v148 V0) (inv9_v151 V0) (inv9_arg9 V0) (inv9_arg4 V0) (inv9_arg10 V0) (inv9_arg11 V0)
theorem inv10_call3_cst : Wc10 V0 (Proc.devRef .tc main_call3_cst) = val_main_call3_cst (F := F) :=
  st10_call3_cst (Wc9 V0)
theorem inv10_arg12 : Wc10 V0 (Proc.devRef .tc main_arg12) = (V0 (Proc.devRef .tc main_arg12)) :=
  (cy10_arg12 (Wc9 V0)).trans (inv9_arg12 V0)
theorem inv10_arg13 : Wc10 V0 (Proc.devRef .tc main_arg13) = (V0 (Proc.devRef .tc main_arg13)) :=
  (cy10_arg13 (Wc9 V0)).trans (inv9_arg13 V0)
theorem inv11_v183 : Wc11 V0 (Proc.devRef .tc main_v183) = val_main_v183 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  st11_v183 (Wc10 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (inv10_v167 V0) (inv10_call3_cst V0) (inv10_arg12 V0) (inv10_arg13 V0)

/-- After the whole line the contents are those after the last chunk. -/
theorem after_ops : StableHlo.after (ops (F := F)) V0 = Wc11 V0 := by
  rw [ops_eq]
  simp only [after_append]
  rfl

/-- **The reference's result buffer holds its staged value function of the launch contents of the arguments.** -/
theorem after_v183 : StableHlo.after (ops (F := F)) V0 main_v183 = val_main_v183 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  rw [after_ops]
  exact inv11_v183 V0

end Chain

end Cert.Proof.RefStages

end
-- ==== Proof.RefValue.lean ====
import proofs.«148009_j49555332661695_1_alg».proof.Proof.RefArgs
import proofs.«148009_j49555332661695_1_alg».proof.Proof.RefStages

/-!
# The reference program's run, with its result as the last stage

A straight line of host operations always runs to the end without fault and ends with every buffer at the
fold of the operations' results over the launch contents.  Read at the result buffer that fold is the last
stage `val_main_v183` of the arguments' launch contents (the stages read back chunk by chunk); read at an
argument buffer it is the launch contents, since no operation writes an argument.
-/

noncomputable section

namespace Cert.Proof.Ref

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- On every device, for any float values, from any memory with zero counters: every weakly fair execution of
    the reference terminates with the result buffer at the last stage of the arguments' launch contents and
    the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v183) = val_main_v183 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v183).trans (Cert.Proof.RefStages.after_v183 (launchContents m c)),
      (h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c),
      (h c main_arg6).trans (after_arg6 m c),
      (h c main_arg7).trans (after_arg7 m c),
      (h c main_arg8).trans (after_arg8 m c),
      (h c main_arg9).trans (after_arg9 m c),
      (h c main_arg10).trans (after_arg10 m c),
      (h c main_arg11).trans (after_arg11 m c),
      (h c main_arg12).trans (after_arg12 m c),
      (h c main_arg13).trans (after_arg13 m c)⟩)
    (run_seq scopedRefs_eq scopedSems_eq defs main (fun _ => ops) main_eq (fun _ => ops_sub) m ρ)

end Cert.Proof.Ref

end
-- ==== Proof.Finite.lean ====
import proofs.«148009_j49555332661695_1_alg».proof.Pre_finite_inputs
import Idealize.ShloMosaic.Lib.ReduceAll
import Idealize.ShloMosaic.Lib.ValueIdx
import Idealize.ShloMosaic.PureOps.Ideal

/-!
# The precondition read back: every float argument is made of real numbers

The precondition is the conjunction, over the twelve float argument arrays, of
`all (|a| < +∞)`.  Over the extended reals `|x| = max x (-x)`, and `max x (-x) < ⊤` holds
exactly when `x` is neither `⊤` nor `⊥`, that is, when `x` is (the image of) a real number.
So from the precondition's value `1` every entry of every float argument is a real.
-/

noncomputable section

namespace Cert.Proof.Finite

open Idealize.ShloMosaic Cert.Pre_finite_inputs

/-- The word `0x7F800000` (all-ones exponent, zero fraction, sign clear) denotes `+∞`. -/
theorem inf_word : Ideal.ofBits .f32 0x7F800000#32 = (⊤ : EReal) := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- The result of a reduction over all axes has a single index. -/
instance : Subsingleton S_.Idx := ⟨fun a b => funext fun d => d.elim0⟩

/-- One conjunct of the precondition: if `all (|a| < +∞)` is `1` then every entry of `a` is a real. -/
theorem real_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf a) (broadcastInDim s ![] hb (constant (F := Ideal) S_ .f32 0x7F800000#32)))
          (constantI S_ 1 1#1) hr hu j = 1#1)
    (i : s.Idx) : ∃ r : ℝ, a i = (r : EReal) :=
  real_of_abs_lt_inf (a i) (Host.reduce_andi_all _ _ hr hu j e i)

/-- The precondition, over any fourteen arrays of the arguments' shapes: where it evaluates to `1`,
    every entry of each of the twelve float arrays (all but the two integer arrays, the second and the
    fourth) is a real number. -/
theorem reals_of_pre [Facts]
    (a0 : FVec Ideal S100000x128 .f32) (a1 : IVec S2x800000 32) (a2 : FVec Ideal S800000x16 .f32)
    (a3 : IVec S100000 32) (a4 : FVec Ideal S1024x10 .f32) (a5 : FVec Ideal S3x128x128 .f32)
    (a6 : FVec Ideal S3x16x128 .f32) (a7 : FVec Ideal S3x128 .f32) (a8 : FVec Ideal S3x128 .f32)
    (a9 : FVec Ideal S3x128 .f32) (a10 : FVec Ideal S138x256 .f32) (a11 : FVec Ideal S256 .f32)
    (a12 : FVec Ideal S256x10 .f32) (a13 : FVec Ideal S10 .f32)
    (h : fn (F := Ideal) a0 a1 a2 a3 a4 a5 a6 a7 a8 a9 a10 a11 a12 a13 = fun _ => 1#1) :
    (∀ i, ∃ r : ℝ, a0 i = (r : EReal)) ∧ (∀ i, ∃ r : ℝ, a2 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) ∧
    (∀ i, ∃ r : ℝ, a12 i = (r : EReal)) ∧ (∀ i, ∃ r : ℝ, a13 i = (r : EReal)) := by
  have h0 := congrFun h ValueIdx.ix0
  dsimp only [fn, fn_part1, fn_part2, fn_part3] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e2⟩ := IntOp.andi_eq_one.1 h0
  exact ⟨real_of_all a0 _ _ _ _ e0, real_of_all a2 _ _ _ _ e2, real_of_all a4 _ _ _ _ e4,
    real_of_all a5 _ _ _ _ e5, real_of_all a6 _ _ _ _ e6, real_of_all a7 _ _ _ _ e7,
    real_of_all a8 _ _ _ _ e8, real_of_all a9 _ _ _ _ e9, real_of_all a10 _ _ _ _ e10,
    real_of_all a11 _ _ _ _ e11, real_of_all a12 _ _ _ _ e12, real_of_all a13 _ _ _ _ e13⟩

end Cert.Proof.Finite

end
-- ==== Proof.Algebraic.lean ====
/-
  The value claim: run from memories that agree on the fourteen arguments, both idealized programs end with the same
  array of class probabilities.

  The kernel program's result buffer holds the classifier kernel's array at the pooled features of its three layers
  (the chain module); each of its layers is the reference's layer on real inputs, the variances agreeing by the
  identity between the one-pass and the two-pass form (the layer modules), and the reference's last stages are the
  classifier's array of the same operands, the joined matrix product split at the join (the tail module). The
  precondition makes every float argument real, and a layer keeps its rows real, which is all the identity needs.
-/
import proofs.«148009_j49555332661695_1_alg».proof.Defs
import proofs.«148009_j49555332661695_1_alg».proof.Proof.RunResult
import proofs.«148009_j49555332661695_1_alg».proof.Proof.Chain
import proofs.«148009_j49555332661695_1_alg».proof.Proof.NetBridge
import proofs.«148009_j49555332661695_1_alg».proof.Proof.RefTail
import proofs.«148009_j49555332661695_1_alg».proof.Proof.RefValue
import proofs.«148009_j49555332661695_1_alg».proof.Proof.Finite
import proofs.«148009_j49555332661695_1_alg».proof.Proof.Gen.Pre_finite_inputs

set_option maxRecDepth 16384

noncomputable section

namespace Cert.Proof

open Idealize.ShloMosaic Idealize.ShloMosaic.TcCoe Idealize.SL.Sem
open Cert.KernelIdeal.Hand (outsAll kerH3 poolOf mlpArray9 resultValue h3_eq)
open Cert.KernelIdeal.Gen (V20)

/-- On real arguments the kernel program's result is the reference's last stage of the same arguments. -/
theorem result_eq (m : (ℓ : Loc Cert.KernelIdeal.nD Cert.KernelIdeal.τ Cert.KernelIdeal.sig) → Buf (Elt Ideal) ℓ) (c : Dev Cert.KernelIdeal.nD)
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1) :
    V20 m (outsAll m) c Cert.KernelIdeal.main_v107
      = Cert.ReferenceIdeal.ReadP.val_main_v183 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  obtain ⟨h0, h2, h4, h5, h6, h7, h8, h9, h10, h11, h12, h13⟩ := Cert.Proof.Finite.reals_of_pre _ _ _ _ _ _ _ _ _ _ _ _ _ _ hp
  rw [resultValue m c, Cert.Proof.Tail.stages_tail_eq, Cert.Proof.Tail.pool_eq, Cert.Proof.Tail.tail_eq]
  rw [← h3_eq _ _ _ _ _ _ _ _ h0 h2 h5 h6 h7 h8 h9]
  rfl

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => V20 m (outsAll m) c Cert.KernelIdeal.main_v107, Cert.KernelIdeal.Hand.run_result m ρ, ?_⟩
  refine (θ_run (Cert.ReferenceIdeal.defs (F := Ideal)) _ _).mono (fun r h c => ⟨(h c).1.trans ?_, (h c).2⟩) (Cert.Proof.Ref.run_val (F := Ideal) m' ρ')
  obtain ⟨a0, a1, a2, a3, a4, a5, a6, a7, a8, a9, a10, a11, a12, a13⟩ := hagree c
  rw [a0, a1, a2, a3, a4, a5, a6, a7, a8, a9, a10, a11, a12, a13]
  exact (result_eq m c (hpre c)).symm

end Cert.Proof

end
-- ==== Proof.lean ====
/-
  The certificate of a three-layer message-passing network with batch normalisation and a pooled classifier:
  the kernel program (ten kernel launches among host operations) against the plain reference.

  Frames: each of the ten launches is a segment of the program's run between valuations of the unscoped buffers
  (Proof/Run.lean for the idealized program, Proof/KRun.lean for the word-level one: the same text); the reference is a
  host program and its frame is its run with the result dropped.
  Idealization: the ideal pass rewrote nothing, so there is nothing to preserve.
  Values: layer by layer both programs compute the same real numbers; the one difference in the arithmetic is the
  variance — mean of squares minus squared mean in the kernel program, mean squared deviation in the reference — and
  the two agree on columns of real numbers (Proof/LayerDefs.lean states both layers).
-/
import proofs.«148009_j49555332661695_1_alg».proof.Defs
import proofs.«148009_j49555332661695_1_alg».proof.Proof.Run
import proofs.«148009_j49555332661695_1_alg».proof.Proof.KRun
import proofs.«148009_j49555332661695_1_alg».proof.Proof.RefFrame
import proofs.«148009_j49555332661695_1_alg».proof.Proof.Algebraic
import proofs.«148009_j49555332661695_1_alg».proof.Proof.Gen.ReferenceIdeal
import proofs.«148009_j49555332661695_1_alg».proof.Proof.Gen.Pre_finite_inputs

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem claim : Cert.Claim := ⟨Cert.Kernel.Gen.facts, Cert.KernelIdeal.Gen.facts, Cert.ReferenceIdeal.Gen.facts, Cert.Pre_finite_inputs.Gen.facts,
  frame_k, frame_ki, Cert.Proof.Ref.frame_ri, trivial, Cert.Proof.algebraic⟩

end Cert.Proof

end
